-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x1 : Shape := ⟨2, ![4096, 1]⟩
abbrev S4096x2 : Shape := ⟨2, ![4096, 2]⟩
abbrev S100000x64 : Shape := ⟨2, ![100000, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096x2 : S_.BroadcastsInDim S4096x2 (![] : Fin 0 → Fin S4096x2.rank)
  reducesTo_S4096x2_S_d0_1 : S4096x2.ReducesTo [0, 1] S_

variable [Facts]

def fn_part1 {F : FTy → Type} [FloatOps F] (main_arg1 : IVec S4096x2 32) (main_v15 : IVec S_ 1) (main_c_5 : IVec S_ 32) : IVec S_ 1 :=
  let main_v16 : IVec S4096x2 32 := broadcastInDim S4096x2 ![] bcast_S_S4096x2 main_c_5
  let main_v17 : IVec S4096x2 1 := cmpi .sge main_arg1 main_v16
  let main_c_6 : IVec S_ 32 := constantI S_ 32 99999#32
  let main_v18 : IVec S4096x2 32 := broadcastInDim S4096x2 ![] bcast_S_S4096x2 main_c_6
  let main_v19 : IVec S4096x2 1 := cmpi .sle main_arg1 main_v18
  let main_v20 : IVec S4096x2 1 := andi main_v17 main_v19
  let main_c_7 : IVec S_ 1 := constantI S_ 1 1#1
  let main_v21 : IVec S_ 1 := (fun x v => Host.reduce IntOp.andi x v reducesTo_S4096x2_S_d0_1 h_S_) main_v20 main_c_7
  let main_v22 : IVec S_ 1 := andi main_v15 main_v21
  main_v22

def fn {F : FTy → Type} [FloatOps F] (main_arg0 : IVec S4096x1 32) (main_arg1 : IVec S4096x2 32) (main_arg2 : FVec F S100000x64 .f32) (main_arg3 : FVec F S100000x64 .f32) : IVec S_ 1 :=
  let main_v0 : FVec F S100000x64 .f32 := Host.absf main_arg2
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg3
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_c_2 : IVec S_ 32 := constantI S_ 32 0#32
  let main_v9 : IVec S4096x1 32 := broadcastInDim S4096x1 ![] bcast_S_S4096x1 main_c_2
  let main_v10 : IVec S4096x1 1 := cmpi .sge main_arg0 main_v9
  let main_c_3 : IVec S_ 32 := constantI S_ 32 99999#32
  let main_v11 : IVec S4096x1 32 := broadcastInDim S4096x1 ![] bcast_S_S4096x1 main_c_3
  let main_v12 : IVec S4096x1 1 := cmpi .sle main_arg0 main_v11
  let main_v13 : IVec S4096x1 1 := andi main_v10 main_v12
  let main_c_4 : IVec S_ 1 := constantI S_ 1 1#1
  let main_v14 : IVec S_ 1 := (fun x v => Host.reduce IntOp.andi x v reducesTo_S4096x1_S_d0_1 h_S_) main_v13 main_c_4
  let main_v15 : IVec S_ 1 := andi main_v8 main_v14
  let main_c_5 : IVec S_ 32 := constantI S_ 32 0#32
  fn_part1 (F := F) main_arg1 main_v15 main_c_5
-- ==== Kernel.lean ====
abbrev S4096x1 : Shape := ⟨2, ![4096, 1]⟩
abbrev S4096x2 : Shape := ⟨2, ![4096, 2]⟩
abbrev S100000x64 : Shape := ⟨2, ![100000, 64]⟩
abbrev S4096 : Shape := ⟨1, ![4096]⟩
abbrev S64x100000 : Shape := ⟨2, ![64, 100000]⟩
abbrev S50176x128 : Shape := ⟨2, ![50176, 128]⟩
abbrev S64x12544 : Shape := ⟨2, ![64, 12544]⟩
abbrev S12544x128 : Shape := ⟨2, ![12544, 128]⟩
abbrev S64x64 : Shape := ⟨2, ![64, 64]⟩
abbrev S12544x64 : Shape := ⟨2, ![12544, 64]⟩
abbrev S2048x128 : Shape := ⟨2, ![2048, 128]⟩
abbrev S128 : Shape := ⟨1, ![128]⟩
abbrev S128x128 : Shape := ⟨2, ![128, 128]⟩
abbrev S64x128 : Shape := ⟨2, ![64, 128]⟩
abbrev S_ : Shape := ⟨0, ![]⟩
abbrev S16 : Shape := ⟨1, ![16]⟩
abbrev S32x128 : Shape := ⟨2, ![32, 128]⟩
abbrev S1x1 : Shape := ⟨2, ![1, 1]⟩
abbrev S1x32x128 : Shape := ⟨3, ![1, 32, 128]⟩
abbrev S1 : Shape := ⟨1, ![1]⟩
abbrev S1x1x1 : Shape := ⟨3, ![1, 1, 1]⟩

abbrev nBuf : Table → Nat
  | .hbm => 18
  | .local .tc .vmem => 13
  | .local .tc .smem => 1
  | .local .scVector .vmem => 12
  | _ => 0

abbrev bufTy : (tb : Table) → Fin (nBuf tb) → BufTy
  | .hbm, ⟨0, _⟩ => ⟨S4096x1, .i32⟩
  | .hbm, ⟨1, _⟩ => ⟨S4096x2, .i32⟩
  | .hbm, ⟨2, _⟩ => ⟨S100000x64, .f32⟩
  | .hbm, ⟨3, _⟩ => ⟨S100000x64, .f32⟩
  | .hbm, ⟨4, _⟩ => ⟨S4096, .i32⟩
  | .hbm, ⟨5, _⟩ => ⟨S4096x1, .i32⟩
  | .hbm, ⟨6, _⟩ => ⟨S4096, .i32⟩
  | .hbm, ⟨7, _⟩ => ⟨S4096x1, .i32⟩
  | .hbm, ⟨8, _⟩ => ⟨S4096, .i32⟩
  | .hbm, ⟨9, _⟩ => ⟨S64x100000, .f32⟩
  | .hbm, ⟨10, _⟩ => ⟨S50176x128, .f32⟩
  | .hbm, ⟨11, _⟩ => ⟨S2048x128, .f32⟩
  | .hbm, ⟨12, _⟩ => ⟨S64x100000, .f32⟩
  | .hbm, ⟨13, _⟩ => ⟨S50176x128, .f32⟩
  | .hbm, ⟨14, _⟩ => ⟨S4096, .f32⟩
  | .hbm, ⟨15, _⟩ => ⟨S32x128, .f32⟩
  | .hbm, ⟨16, _⟩ => ⟨S1x1, .f32⟩
  | .hbm, ⟨17, _⟩ => ⟨S_, .f32⟩
  | .local .tc .vmem, ⟨0, _⟩ => ⟨S64x12544, .f32⟩
  | .local .tc .vmem, ⟨1, _⟩ => ⟨S64x12544, .f32⟩
  | .local .tc .vmem, ⟨2, _⟩ => ⟨S64x12544, .f32⟩
  | .local .tc .vmem, ⟨3, _⟩ => ⟨S64x12544, .f32⟩
  | .local .tc .vmem, ⟨4, _⟩ => ⟨S12544x128, .f32⟩
  | .local .tc .vmem, ⟨5, _⟩ => ⟨S12544x128, .f32⟩
  | .local .tc .vmem, ⟨6, _⟩ => ⟨S64x12544, .f32⟩
  | .local .tc .vmem, ⟨7, _⟩ => ⟨S64x12544, .f32⟩
  | .local .tc .vmem, ⟨8, _⟩ => ⟨S64x12544, .f32⟩
  | .local .tc .vmem, ⟨9, _⟩ => ⟨S64x12544, .f32⟩
  | .local .tc .vmem, ⟨10, _⟩ => ⟨S12544x128, .f32⟩
  | .local .tc .vmem, ⟨11, _⟩ => ⟨S12544x128, .f32⟩
  | .local .tc .vmem, ⟨12, _⟩ => ⟨S32x128, .f32⟩
  | .local .tc .smem, ⟨0, _⟩ => ⟨S1x1, .f32⟩
  | .local .scVector .vmem, ⟨0, _⟩ => ⟨S128, .i32⟩
  | .local .scVector .vmem, ⟨1, _⟩ => ⟨S128, .i32⟩
  | .local .scVector .vmem, ⟨2, _⟩ => ⟨S128, .i32⟩
  | .local .scVector .vmem, ⟨3, _⟩ => ⟨S128, .i32⟩
  | .local .scVector .vmem, ⟨4, _⟩ => ⟨S128x128, .f32⟩
  | .local .scVector .vmem, ⟨5, _⟩ => ⟨S128x128, .f32⟩
  | .local .scVector .vmem, ⟨6, _⟩ => ⟨S64x128, .f32⟩
  | .local .scVector .vmem, ⟨7, _⟩ => ⟨S128, .i32⟩
  | .local .scVector .vmem, ⟨8, _⟩ => ⟨S128, .i32⟩
  | .local .scVector .vmem, ⟨9, _⟩ => ⟨S128x128, .f32⟩
  | .local .scVector .vmem, ⟨10, _⟩ => ⟨S64x128, .f32⟩
  | .local .scVector .vmem, ⟨11, _⟩ => ⟨S128, .f32⟩
  | _, _ => ⟨S4096x1, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | ⟨19, _⟩ => false
  | ⟨20, _⟩ => false
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v6_scv : Ref sig .scVector := ⟨.hbm, 10, rfl⟩
abbrev main_v2_scv : Ref sig .scVector := ⟨.hbm, 6, rfl⟩
abbrev main_v4_scv : Ref sig .scVector := ⟨.hbm, 8, rfl⟩
abbrev main_v7_scv : Ref sig .scVector := ⟨.hbm, 11, rfl⟩
abbrev main_v9_scv : Ref sig .scVector := ⟨.hbm, 13, rfl⟩
abbrev main_v0_scv : Ref sig .scVector := ⟨.hbm, 4, rfl⟩
abbrev main_v10_scv : Ref sig .scVector := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc4_stg0_0 : Ref sig .tc := ⟨.vmem, 12, rfl⟩
abbrev cc4_stg1_0 : Ref sig .tc := ⟨.smem, 0, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc3_scratch0 : Ref sig .scVector := ⟨.vmem, 7, rfl⟩
abbrev cc3_scratch1 : Ref sig .scVector := ⟨.vmem, 8, rfl⟩
abbrev cc3_scratch2 : Ref sig .scVector := ⟨.vmem, 9, rfl⟩
abbrev cc3_scratch3 : Ref sig .scVector := ⟨.vmem, 10, rfl⟩
abbrev cc3_scratch4 : Ref sig .scVector := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc4_sem0_0 : DmaSem sig := 21
abbrev cc4_sem1_0 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x12544 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x12544 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S12544x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
@[reducible] def k1_t1_loop : Scf.Loop 32 :=
  let c0_i32_95 : BitVec 32 := 0#32
  let c8_i32 : BitVec 32 := 8#32
  let v161 : BitVec 32 := Scalar.addi c0_i32_95 c8_i32
  let c1_i32_96 : BitVec 32 := 1#32
  ⟨c0_i32_95, v161, c1_i32_96⟩
def k1_off2 (k1_t1 : Fin k1_t1_loop.trips) : Fin 1 → Nat :=
  let c0_i32_95 : BitVec 32 := 0#32
  let c1_i32_96 : BitVec 32 := 1#32
  let arg15 : BitVec 32 := Scf.iv c0_i32_95 c1_i32_96 k1_t1
  let c16_i32 : BitVec 32 := 16#32
  let v180 : BitVec 32 := Scalar.muli arg15 c16_i32
  let v188 : Index := Scalar.indexCast v180
  ![v188.toNat]

def k1_chk1 (v183 : IVec S16 32) (v205 : IVec S16 32) : Prop :=
  (∀ a x, ((![v183, v205] : Fin 2 → IVec S16 32) a x).toNat < S128x128.size a)
instance k1_chk1.dec : ∀ (v183 : IVec S16 32) (v205 : IVec S16 32), Decidable (k1_chk1 v183 v205) := fun v183 v205 => decidable_of_iff' _ (Iff.of_eq (k1_chk1.eq_1 v183 v205))
theorem k1_idx1_inb : ∀ (v183 : IVec S16 32) (v205 : IVec S16 32) (k1_hw1 : k1_chk1 v183 v205), ∀ a x, ((![v183, v205] : Fin 2 → IVec S16 32) a x).toNat < S128x128.size a := fun v183 v205 k1_hw1 => k1_hw1

def k1_chk2 (v183 : IVec S16 32) (v207 : IVec S16 32) : Prop :=
  (∀ a x, ((![v183, v207] : Fin 2 → IVec S16 32) a x).toNat < S128x128.size a)
instance k1_chk2.dec : ∀ (v183 : IVec S16 32) (v207 : IVec S16 32), Decidable (k1_chk2 v183 v207) := fun v183 v207 => decidable_of_iff' _ (Iff.of_eq (k1_chk2.eq_1 v183 v207))
theorem k1_idx2_inb : ∀ (v183 : IVec S16 32) (v207 : IVec S16 32) (k1_hw2 : k1_chk2 v183 v207), ∀ a x, ((![v183, v207] : Fin 2 → IVec S16 32) a x).toNat < S128x128.size a := fun v183 v207 k1_hw2 => k1_hw2

def k1_chk3 (v185 : IVec S16 32) (v209 : IVec S16 32) : Prop :=
  (∀ a x, ((![v185, v209] : Fin 2 → IVec S16 32) a x).toNat < S64x128.size a)
instance k1_chk3.dec : ∀ (v185 : IVec S16 32) (v209 : IVec S16 32), Decidable (k1_chk3 v185 v209) := fun v185 v209 => decidable_of_iff' _ (Iff.of_eq (k1_chk3.eq_1 v185 v209))
theorem k1_idx3_inb : ∀ (v185 : IVec S16 32) (v209 : IVec S16 32) (k1_hw3 : k1_chk3 v185 v209), ∀ a x, ((![v185, v209] : Fin 2 → IVec S16 32) a x).toNat < S64x128.size a := fun v185 v209 k1_hw3 => k1_hw3

def k1_chk4 (v183 : IVec S16 32) (v216 : IVec S16 32) : Prop :=
  (∀ a x, ((![v183, v216] : Fin 2 → IVec S16 32) a x).toNat < S128x128.size a)
instance k1_chk4.dec : ∀ (v183 : IVec S16 32) (v216 : IVec S16 32), Decidable (k1_chk4 v183 v216) := fun v183 v216 => decidable_of_iff' _ (Iff.of_eq (k1_chk4.eq_1 v183 v216))
theorem k1_idx4_inb : ∀ (v183 : IVec S16 32) (v216 : IVec S16 32) (k1_hw4 : k1_chk4 v183 v216), ∀ a x, ((![v183, v216] : Fin 2 → IVec S16 32) a x).toNat < S128x128.size a := fun v183 v216 k1_hw4 => k1_hw4

def k1_chk5 (v183 : IVec S16 32) (v218 : IVec S16 32) : Prop :=
  (∀ a x, ((![v183, v218] : Fin 2 → IVec S16 32) a x).toNat < S128x128.size a)
instance k1_chk5.dec : ∀ (v183 : IVec S16 32) (v218 : IVec S16 32), Decidable (k1_chk5 v183 v218) := fun v183 v218 => decidable_of_iff' _ (Iff.of_eq (k1_chk5.eq_1 v183 v218))
theorem k1_idx5_inb : ∀ (v183 : IVec S16 32) (v218 : IVec S16 32) (k1_hw5 : k1_chk5 v183 v218), ∀ a x, ((![v183, v218] : Fin 2 → IVec S16 32) a x).toNat < S128x128.size a := fun v183 v218 k1_hw5 => k1_hw5

def k1_chk6 (v185 : IVec S16 32) (v220 : IVec S16 32) : Prop :=
  (∀ a x, ((![v185, v220] : Fin 2 → IVec S16 32) a x).toNat < S64x128.size a)
instance k1_chk6.dec : ∀ (v185 : IVec S16 32) (v220 : IVec S16 32), Decidable (k1_chk6 v185 v220) := fun v185 v220 => decidable_of_iff' _ (Iff.of_eq (k1_chk6.eq_1 v185 v220))
theorem k1_idx6_inb : ∀ (v185 : IVec S16 32) (v220 : IVec S16 32) (k1_hw6 : k1_chk6 v185 v220), ∀ a x, ((![v185, v220] : Fin 2 → IVec S16 32) a x).toNat < S64x128.size a := fun v185 v220 k1_hw6 => k1_hw6

def k1_chk7 (v183 : IVec S16 32) (v227 : IVec S16 32) : Prop :=
  (∀ a x, ((![v183, v227] : Fin 2 → IVec S16 32) a x).toNat < S128x128.size a)
instance k1_chk7.dec : ∀ (v183 : IVec S16 32) (v227 : IVec S16 32), Decidable (k1_chk7 v183 v227) := fun v183 v227 => decidable_of_iff' _ (Iff.of_eq (k1_chk7.eq_1 v183 v227))
theorem k1_idx7_inb : ∀ (v183 : IVec S16 32) (v227 : IVec S16 32) (k1_hw7 : k1_chk7 v183 v227), ∀ a x, ((![v183, v227] : Fin 2 → IVec S16 32) a x).toNat < S128x128.size a := fun v183 v227 k1_hw7 => k1_hw7

def k1_chk8 (v183 : IVec S16 32) (v229 : IVec S16 32) : Prop :=
  (∀ a x, ((![v183, v229] : Fin 2 → IVec S16 32) a x).toNat < S128x128.size a)
instance k1_chk8.dec : ∀ (v183 : IVec S16 32) (v229 : IVec S16 32), Decidable (k1_chk8 v183 v229) := fun v183 v229 => decidable_of_iff' _ (Iff.of_eq (k1_chk8.eq_1 v183 v229))
theorem k1_idx8_inb : ∀ (v183 : IVec S16 32) (v229 : IVec S16 32) (k1_hw8 : k1_chk8 v183 v229), ∀ a x, ((![v183, v229] : Fin 2 → IVec S16 32) a x).toNat < S128x128.size a := fun v183 v229 k1_hw8 => k1_hw8

def k1_chk9 (v185 : IVec S16 32) (v231 : IVec S16 32) : Prop :=
  (∀ a x, ((![v185, v231] : Fin 2 → IVec S16 32) a x).toNat < S64x128.size a)
instance k1_chk9.dec : ∀ (v185 : IVec S16 32) (v231 : IVec S16 32), Decidable (k1_chk9 v185 v231) := fun v185 v231 => decidable_of_iff' _ (Iff.of_eq (k1_chk9.eq_1 v185 v231))
theorem k1_idx9_inb : ∀ (v185 : IVec S16 32) (v231 : IVec S16 32) (k1_hw9 : k1_chk9 v185 v231), ∀ a x, ((![v185, v231] : Fin 2 → IVec S16 32) a x).toNat < S64x128.size a := fun v185 v231 k1_hw9 => k1_hw9

def k1_chk10 (v183 : IVec S16 32) (v238 : IVec S16 32) : Prop :=
  (∀ a x, ((![v183, v238] : Fin 2 → IVec S16 32) a x).toNat < S128x128.size a)
instance k1_chk10.dec : ∀ (v183 : IVec S16 32) (v238 : IVec S16 32), Decidable (k1_chk10 v183 v238) := fun v183 v238 => decidable_of_iff' _ (Iff.of_eq (k1_chk10.eq_1 v183 v238))
theorem k1_idx10_inb : ∀ (v183 : IVec S16 32) (v238 : IVec S16 32) (k1_hw10 : k1_chk10 v183 v238), ∀ a x, ((![v183, v238] : Fin 2 → IVec S16 32) a x).toNat < S128x128.size a := fun v183 v238 k1_hw10 => k1_hw10

def k1_chk11 (v183 : IVec S16 32) (v240 : IVec S16 32) : Prop :=
  (∀ a x, ((![v183, v240] : Fin 2 → IVec S16 32) a x).toNat < S128x128.size a)
instance k1_chk11.dec : ∀ (v183 : IVec S16 32) (v240 : IVec S16 32), Decidable (k1_chk11 v183 v240) := fun v183 v240 => decidable_of_iff' _ (Iff.of_eq (k1_chk11.eq_1 v183 v240))
theorem k1_idx11_inb : ∀ (v183 : IVec S16 32) (v240 : IVec S16 32) (k1_hw11 : k1_chk11 v183 v240), ∀ a x, ((![v183, v240] : Fin 2 → IVec S16 32) a x).toNat < S128x128.size a := fun v183 v240 k1_hw11 => k1_hw11

def k1_chk12 (v185 : IVec S16 32) (v242 : IVec S16 32) : Prop :=
  (∀ a x, ((![v185, v242] : Fin 2 → IVec S16 32) a x).toNat < S64x128.size a)
instance k1_chk12.dec : ∀ (v185 : IVec S16 32) (v242 : IVec S16 32), Decidable (k1_chk12 v185 v242) := fun v185 v242 => decidable_of_iff' _ (Iff.of_eq (k1_chk12.eq_1 v185 v242))
theorem k1_idx12_inb : ∀ (v185 : IVec S16 32) (v242 : IVec S16 32) (k1_hw12 : k1_chk12 v185 v242), ∀ a x, ((![v185, v242] : Fin 2 → IVec S16 32) a x).toNat < S64x128.size a := fun v185 v242 k1_hw12 => k1_hw12

def k1_chk13 (v183 : IVec S16 32) (v249 : IVec S16 32) : Prop :=
  (∀ a x, ((![v183, v249] : Fin 2 → IVec S16 32) a x).toNat < S128x128.size a)
instance k1_chk13.dec : ∀ (v183 : IVec S16 32) (v249 : IVec S16 32), Decidable (k1_chk13 v183 v249) := fun v183 v249 => decidable_of_iff' _ (Iff.of_eq (k1_chk13.eq_1 v183 v249))
theorem k1_idx13_inb : ∀ (v183 : IVec S16 32) (v249 : IVec S16 32) (k1_hw13 : k1_chk13 v183 v249), ∀ a x, ((![v183, v249] : Fin 2 → IVec S16 32) a x).toNat < S128x128.size a := fun v183 v249 k1_hw13 => k1_hw13

def k1_chk14 (v183 : IVec S16 32) (v251 : IVec S16 32) : Prop :=
  (∀ a x, ((![v183, v251] : Fin 2 → IVec S16 32) a x).toNat < S128x128.size a)
instance k1_chk14.dec : ∀ (v183 : IVec S16 32) (v251 : IVec S16 32), Decidable (k1_chk14 v183 v251) := fun v183 v251 => decidable_of_iff' _ (Iff.of_eq (k1_chk14.eq_1 v183 v251))
theorem k1_idx14_inb : ∀ (v183 : IVec S16 32) (v251 : IVec S16 32) (k1_hw14 : k1_chk14 v183 v251), ∀ a x, ((![v183, v251] : Fin 2 → IVec S16 32) a x).toNat < S128x128.size a := fun v183 v251 k1_hw14 => k1_hw14

def k1_chk15 (v185 : IVec S16 32) (v253 : IVec S16 32) : Prop :=
  (∀ a x, ((![v185, v253] : Fin 2 → IVec S16 32) a x).toNat < S64x128.size a)
instance k1_chk15.dec : ∀ (v185 : IVec S16 32) (v253 : IVec S16 32), Decidable (k1_chk15 v185 v253) := fun v185 v253 => decidable_of_iff' _ (Iff.of_eq (k1_chk15.eq_1 v185 v253))
theorem k1_idx15_inb : ∀ (v185 : IVec S16 32) (v253 : IVec S16 32) (k1_hw15 : k1_chk15 v185 v253), ∀ a x, ((![v185, v253] : Fin 2 → IVec S16 32) a x).toNat < S64x128.size a := fun v185 v253 k1_hw15 => k1_hw15

def k1_chk16 (v183 : IVec S16 32) (v260 : IVec S16 32) : Prop :=
  (∀ a x, ((![v183, v260] : Fin 2 → IVec S16 32) a x).toNat < S128x128.size a)
instance k1_chk16.dec : ∀ (v183 : IVec S16 32) (v260 : IVec S16 32), Decidable (k1_chk16 v183 v260) := fun v183 v260 => decidable_of_iff' _ (Iff.of_eq (k1_chk16.eq_1 v183 v260))
theorem k1_idx16_inb : ∀ (v183 : IVec S16 32) (v260 : IVec S16 32) (k1_hw16 : k1_chk16 v183 v260), ∀ a x, ((![v183, v260] : Fin 2 → IVec S16 32) a x).toNat < S128x128.size a := fun v183 v260 k1_hw16 => k1_hw16

def k1_chk17 (v183 : IVec S16 32) (v262 : IVec S16 32) : Prop :=
  (∀ a x, ((![v183, v262] : Fin 2 → IVec S16 32) a x).toNat < S128x128.size a)
instance k1_chk17.dec : ∀ (v183 : IVec S16 32) (v262 : IVec S16 32), Decidable (k1_chk17 v183 v262) := fun v183 v262 => decidable_of_iff' _ (Iff.of_eq (k1_chk17.eq_1 v183 v262))
theorem k1_idx17_inb : ∀ (v183 : IVec S16 32) (v262 : IVec S16 32) (k1_hw17 : k1_chk17 v183 v262), ∀ a x, ((![v183, v262] : Fin 2 → IVec S16 32) a x).toNat < S128x128.size a := fun v183 v262 k1_hw17 => k1_hw17

def k1_chk18 (v185 : IVec S16 32) (v264 : IVec S16 32) : Prop :=
  (∀ a x, ((![v185, v264] : Fin 2 → IVec S16 32) a x).toNat < S64x128.size a)
instance k1_chk18.dec : ∀ (v185 : IVec S16 32) (v264 : IVec S16 32), Decidable (k1_chk18 v185 v264) := fun v185 v264 => decidable_of_iff' _ (Iff.of_eq (k1_chk18.eq_1 v185 v264))
theorem k1_idx18_inb : ∀ (v185 : IVec S16 32) (v264 : IVec S16 32) (k1_hw18 : k1_chk18 v185 v264), ∀ a x, ((![v185, v264] : Fin 2 → IVec S16 32) a x).toNat < S64x128.size a := fun v185 v264 k1_hw18 => k1_hw18

def k1_chk19 (v183 : IVec S16 32) (v271 : IVec S16 32) : Prop :=
  (∀ a x, ((![v183, v271] : Fin 2 → IVec S16 32) a x).toNat < S128x128.size a)
instance k1_chk19.dec : ∀ (v183 : IVec S16 32) (v271 : IVec S16 32), Decidable (k1_chk19 v183 v271) := fun v183 v271 => decidable_of_iff' _ (Iff.of_eq (k1_chk19.eq_1 v183 v271))
theorem k1_idx19_inb : ∀ (v183 : IVec S16 32) (v271 : IVec S16 32) (k1_hw19 : k1_chk19 v183 v271), ∀ a x, ((![v183, v271] : Fin 2 → IVec S16 32) a x).toNat < S128x128.size a := fun v183 v271 k1_hw19 => k1_hw19

def k1_chk20 (v183 : IVec S16 32) (v273 : IVec S16 32) : Prop :=
  (∀ a x, ((![v183, v273] : Fin 2 → IVec S16 32) a x).toNat < S128x128.size a)
instance k1_chk20.dec : ∀ (v183 : IVec S16 32) (v273 : IVec S16 32), Decidable (k1_chk20 v183 v273) := fun v183 v273 => decidable_of_iff' _ (Iff.of_eq (k1_chk20.eq_1 v183 v273))
theorem k1_idx20_inb : ∀ (v183 : IVec S16 32) (v273 : IVec S16 32) (k1_hw20 : k1_chk20 v183 v273), ∀ a x, ((![v183, v273] : Fin 2 → IVec S16 32) a x).toNat < S128x128.size a := fun v183 v273 k1_hw20 => k1_hw20

def k1_chk21 (v185 : IVec S16 32) (v275 : IVec S16 32) : Prop :=
  (∀ a x, ((![v185, v275] : Fin 2 → IVec S16 32) a x).toNat < S64x128.size a)
instance k1_chk21.dec : ∀ (v185 : IVec S16 32) (v275 : IVec S16 32), Decidable (k1_chk21 v185 v275) := fun v185 v275 => decidable_of_iff' _ (Iff.of_eq (k1_chk21.eq_1 v185 v275))
theorem k1_idx21_inb : ∀ (v185 : IVec S16 32) (v275 : IVec S16 32) (k1_hw21 : k1_chk21 v185 v275), ∀ a x, ((![v185, v275] : Fin 2 → IVec S16 32) a x).toNat < S64x128.size a := fun v185 v275 k1_hw21 => k1_hw21

def k1_chk22 (v183 : IVec S16 32) (v282 : IVec S16 32) : Prop :=
  (∀ a x, ((![v183, v282] : Fin 2 → IVec S16 32) a x).toNat < S128x128.size a)
instance k1_chk22.dec : ∀ (v183 : IVec S16 32) (v282 : IVec S16 32), Decidable (k1_chk22 v183 v282) := fun v183 v282 => decidable_of_iff' _ (Iff.of_eq (k1_chk22.eq_1 v183 v282))
theorem k1_idx22_inb : ∀ (v183 : IVec S16 32) (v282 : IVec S16 32) (k1_hw22 : k1_chk22 v183 v282), ∀ a x, ((![v183, v282] : Fin 2 → IVec S16 32) a x).toNat < S128x128.size a := fun v183 v282 k1_hw22 => k1_hw22

def k1_chk23 (v183 : IVec S16 32) (v284 : IVec S16 32) : Prop :=
  (∀ a x, ((![v183, v284] : Fin 2 → IVec S16 32) a x).toNat < S128x128.size a)
instance k1_chk23.dec : ∀ (v183 : IVec S16 32) (v284 : IVec S16 32), Decidable (k1_chk23 v183 v284) := fun v183 v284 => decidable_of_iff' _ (Iff.of_eq (k1_chk23.eq_1 v183 v284))
theorem k1_idx23_inb : ∀ (v183 : IVec S16 32) (v284 : IVec S16 32) (k1_hw23 : k1_chk23 v183 v284), ∀ a x, ((![v183, v284] : Fin 2 → IVec S16 32) a x).toNat < S128x128.size a := fun v183 v284 k1_hw23 => k1_hw23

def k1_chk24 (v185 : IVec S16 32) (v286 : IVec S16 32) : Prop :=
  (∀ a x, ((![v185, v286] : Fin 2 → IVec S16 32) a x).toNat < S64x128.size a)
instance k1_chk24.dec : ∀ (v185 : IVec S16 32) (v286 : IVec S16 32), Decidable (k1_chk24 v185 v286) := fun v185 v286 => decidable_of_iff' _ (Iff.of_eq (k1_chk24.eq_1 v185 v286))
theorem k1_idx24_inb : ∀ (v185 : IVec S16 32) (v286 : IVec S16 32) (k1_hw24 : k1_chk24 v185 v286), ∀ a x, ((![v185, v286] : Fin 2 → IVec S16 32) a x).toNat < S64x128.size a := fun v185 v286 k1_hw24 => k1_hw24

def k1_chk25 (v183 : IVec S16 32) (v293 : IVec S16 32) : Prop :=
  (∀ a x, ((![v183, v293] : Fin 2 → IVec S16 32) a x).toNat < S128x128.size a)
instance k1_chk25.dec : ∀ (v183 : IVec S16 32) (v293 : IVec S16 32), Decidable (k1_chk25 v183 v293) := fun v183 v293 => decidable_of_iff' _ (Iff.of_eq (k1_chk25.eq_1 v183 v293))
theorem k1_idx25_inb : ∀ (v183 : IVec S16 32) (v293 : IVec S16 32) (k1_hw25 : k1_chk25 v183 v293), ∀ a x, ((![v183, v293] : Fin 2 → IVec S16 32) a x).toNat < S128x128.size a := fun v183 v293 k1_hw25 => k1_hw25

def k1_chk26 (v183 : IVec S16 32) (v295 : IVec S16 32) : Prop :=
  (∀ a x, ((![v183, v295] : Fin 2 → IVec S16 32) a x).toNat < S128x128.size a)
instance k1_chk26.dec : ∀ (v183 : IVec S16 32) (v295 : IVec S16 32), Decidable (k1_chk26 v183 v295) := fun v183 v295 => decidable_of_iff' _ (Iff.of_eq (k1_chk26.eq_1 v183 v295))
theorem k1_idx26_inb : ∀ (v183 : IVec S16 32) (v295 : IVec S16 32) (k1_hw26 : k1_chk26 v183 v295), ∀ a x, ((![v183, v295] : Fin 2 → IVec S16 32) a x).toNat < S128x128.size a := fun v183 v295 k1_hw26 => k1_hw26

def k1_chk27 (v185 : IVec S16 32) (v297 : IVec S16 32) : Prop :=
  (∀ a x, ((![v185, v297] : Fin 2 → IVec S16 32) a x).toNat < S64x128.size a)
instance k1_chk27.dec : ∀ (v185 : IVec S16 32) (v297 : IVec S16 32), Decidable (k1_chk27 v185 v297) := fun v185 v297 => decidable_of_iff' _ (Iff.of_eq (k1_chk27.eq_1 v185 v297))
theorem k1_idx27_inb : ∀ (v185 : IVec S16 32) (v297 : IVec S16 32) (k1_hw27 : k1_chk27 v185 v297), ∀ a x, ((![v185, v297] : Fin 2 → IVec S16 32) a x).toNat < S64x128.size a := fun v185 v297 k1_hw27 => k1_hw27

def k1_chk28 (v183 : IVec S16 32) (v304 : IVec S16 32) : Prop :=
  (∀ a x, ((![v183, v304] : Fin 2 → IVec S16 32) a x).toNat < S128x128.size a)
instance k1_chk28.dec : ∀ (v183 : IVec S16 32) (v304 : IVec S16 32), Decidable (k1_chk28 v183 v304) := fun v183 v304 => decidable_of_iff' _ (Iff.of_eq (k1_chk28.eq_1 v183 v304))
theorem k1_idx28_inb : ∀ (v183 : IVec S16 32) (v304 : IVec S16 32) (k1_hw28 : k1_chk28 v183 v304), ∀ a x, ((![v183, v304] : Fin 2 → IVec S16 32) a x).toNat < S128x128.size a := fun v183 v304 k1_hw28 => k1_hw28

def k1_chk29 (v183 : IVec S16 32) (v306 : IVec S16 32) : Prop :=
  (∀ a x, ((![v183, v306] : Fin 2 → IVec S16 32) a x).toNat < S128x128.size a)
instance k1_chk29.dec : ∀ (v183 : IVec S16 32) (v306 : IVec S16 32), Decidable (k1_chk29 v183 v306) := fun v183 v306 => decidable_of_iff' _ (Iff.of_eq (k1_chk29.eq_1 v183 v306))
theorem k1_idx29_inb : ∀ (v183 : IVec S16 32) (v306 : IVec S16 32) (k1_hw29 : k1_chk29 v183 v306), ∀ a x, ((![v183, v306] : Fin 2 → IVec S16 32) a x).toNat < S128x128.size a := fun v183 v306 k1_hw29 => k1_hw29

def k1_chk30 (v185 : IVec S16 32) (v308 : IVec S16 32) : Prop :=
  (∀ a x, ((![v185, v308] : Fin 2 → IVec S16 32) a x).toNat < S64x128.size a)
instance k1_chk30.dec : ∀ (v185 : IVec S16 32) (v308 : IVec S16 32), Decidable (k1_chk30 v185 v308) := fun v185 v308 => decidable_of_iff' _ (Iff.of_eq (k1_chk30.eq_1 v185 v308))
theorem k1_idx30_inb : ∀ (v185 : IVec S16 32) (v308 : IVec S16 32) (k1_hw30 : k1_chk30 v185 v308), ∀ a x, ((![v185, v308] : Fin 2 → IVec S16 32) a x).toNat < S64x128.size a := fun v185 v308 k1_hw30 => k1_hw30

def k1_chk31 (v183 : IVec S16 32) (v315 : IVec S16 32) : Prop :=
  (∀ a x, ((![v183, v315] : Fin 2 → IVec S16 32) a x).toNat < S128x128.size a)
instance k1_chk31.dec : ∀ (v183 : IVec S16 32) (v315 : IVec S16 32), Decidable (k1_chk31 v183 v315) := fun v183 v315 => decidable_of_iff' _ (Iff.of_eq (k1_chk31.eq_1 v183 v315))
theorem k1_idx31_inb : ∀ (v183 : IVec S16 32) (v315 : IVec S16 32) (k1_hw31 : k1_chk31 v183 v315), ∀ a x, ((![v183, v315] : Fin 2 → IVec S16 32) a x).toNat < S128x128.size a := fun v183 v315 k1_hw31 => k1_hw31

def k1_chk32 (v183 : IVec S16 32) (v317 : IVec S16 32) : Prop :=
  (∀ a x, ((![v183, v317] : Fin 2 → IVec S16 32) a x).toNat < S128x128.size a)
instance k1_chk32.dec : ∀ (v183 : IVec S16 32) (v317 : IVec S16 32), Decidable (k1_chk32 v183 v317) := fun v183 v317 => decidable_of_iff' _ (Iff.of_eq (k1_chk32.eq_1 v183 v317))
theorem k1_idx32_inb : ∀ (v183 : IVec S16 32) (v317 : IVec S16 32) (k1_hw32 : k1_chk32 v183 v317), ∀ a x, ((![v183, v317] : Fin 2 → IVec S16 32) a x).toNat < S128x128.size a := fun v183 v317 k1_hw32 => k1_hw32

def k1_chk33 (v185 : IVec S16 32) (v319 : IVec S16 32) : Prop :=
  (∀ a x, ((![v185, v319] : Fin 2 → IVec S16 32) a x).toNat < S64x128.size a)
instance k1_chk33.dec : ∀ (v185 : IVec S16 32) (v319 : IVec S16 32), Decidable (k1_chk33 v185 v319) := fun v185 v319 => decidable_of_iff' _ (Iff.of_eq (k1_chk33.eq_1 v185 v319))
theorem k1_idx33_inb : ∀ (v185 : IVec S16 32) (v319 : IVec S16 32) (k1_hw33 : k1_chk33 v185 v319), ∀ a x, ((![v185, v319] : Fin 2 → IVec S16 32) a x).toNat < S64x128.size a := fun v185 v319 k1_hw33 => k1_hw33

def k1_chk34 (v183 : IVec S16 32) (v326 : IVec S16 32) : Prop :=
  (∀ a x, ((![v183, v326] : Fin 2 → IVec S16 32) a x).toNat < S128x128.size a)
instance k1_chk34.dec : ∀ (v183 : IVec S16 32) (v326 : IVec S16 32), Decidable (k1_chk34 v183 v326) := fun v183 v326 => decidable_of_iff' _ (Iff.of_eq (k1_chk34.eq_1 v183 v326))
theorem k1_idx34_inb : ∀ (v183 : IVec S16 32) (v326 : IVec S16 32) (k1_hw34 : k1_chk34 v183 v326), ∀ a x, ((![v183, v326] : Fin 2 → IVec S16 32) a x).toNat < S128x128.size a := fun v183 v326 k1_hw34 => k1_hw34

def k1_chk35 (v183 : IVec S16 32) (v328 : IVec S16 32) : Prop :=
  (∀ a x, ((![v183, v328] : Fin 2 → IVec S16 32) a x).toNat < S128x128.size a)
instance k1_chk35.dec : ∀ (v183 : IVec S16 32) (v328 : IVec S16 32), Decidable (k1_chk35 v183 v328) := fun v183 v328 => decidable_of_iff' _ (Iff.of_eq (k1_chk35.eq_1 v183 v328))
theorem k1_idx35_inb : ∀ (v183 : IVec S16 32) (v328 : IVec S16 32) (k1_hw35 : k1_chk35 v183 v328), ∀ a x, ((![v183, v328] : Fin 2 → IVec S16 32) a x).toNat < S128x128.size a := fun v183 v328 k1_hw35 => k1_hw35

def k1_chk36 (v185 : IVec S16 32) (v330 : IVec S16 32) : Prop :=
  (∀ a x, ((![v185, v330] : Fin 2 → IVec S16 32) a x).toNat < S64x128.size a)
instance k1_chk36.dec : ∀ (v185 : IVec S16 32) (v330 : IVec S16 32), Decidable (k1_chk36 v185 v330) := fun v185 v330 => decidable_of_iff' _ (Iff.of_eq (k1_chk36.eq_1 v185 v330))
theorem k1_idx36_inb : ∀ (v185 : IVec S16 32) (v330 : IVec S16 32) (k1_hw36 : k1_chk36 v185 v330), ∀ a x, ((![v185, v330] : Fin 2 → IVec S16 32) a x).toNat < S64x128.size a := fun v185 v330 k1_hw36 => k1_hw36

def k1_chk37 (v183 : IVec S16 32) (v337 : IVec S16 32) : Prop :=
  (∀ a x, ((![v183, v337] : Fin 2 → IVec S16 32) a x).toNat < S128x128.size a)
instance k1_chk37.dec : ∀ (v183 : IVec S16 32) (v337 : IVec S16 32), Decidable (k1_chk37 v183 v337) := fun v183 v337 => decidable_of_iff' _ (Iff.of_eq (k1_chk37.eq_1 v183 v337))
theorem k1_idx37_inb : ∀ (v183 : IVec S16 32) (v337 : IVec S16 32) (k1_hw37 : k1_chk37 v183 v337), ∀ a x, ((![v183, v337] : Fin 2 → IVec S16 32) a x).toNat < S128x128.size a := fun v183 v337 k1_hw37 => k1_hw37

def k1_chk38 (v183 : IVec S16 32) (v339 : IVec S16 32) : Prop :=
  (∀ a x, ((![v183, v339] : Fin 2 → IVec S16 32) a x).toNat < S128x128.size a)
instance k1_chk38.dec : ∀ (v183 : IVec S16 32) (v339 : IVec S16 32), Decidable (k1_chk38 v183 v339) := fun v183 v339 => decidable_of_iff' _ (Iff.of_eq (k1_chk38.eq_1 v183 v339))
theorem k1_idx38_inb : ∀ (v183 : IVec S16 32) (v339 : IVec S16 32) (k1_hw38 : k1_chk38 v183 v339), ∀ a x, ((![v183, v339] : Fin 2 → IVec S16 32) a x).toNat < S128x128.size a := fun v183 v339 k1_hw38 => k1_hw38

def k1_chk39 (v185 : IVec S16 32) (v341 : IVec S16 32) : Prop :=
  (∀ a x, ((![v185, v341] : Fin 2 → IVec S16 32) a x).toNat < S64x128.size a)
instance k1_chk39.dec : ∀ (v185 : IVec S16 32) (v341 : IVec S16 32), Decidable (k1_chk39 v185 v341) := fun v185 v341 => decidable_of_iff' _ (Iff.of_eq (k1_chk39.eq_1 v185 v341))
theorem k1_idx39_inb : ∀ (v185 : IVec S16 32) (v341 : IVec S16 32) (k1_hw39 : k1_chk39 v185 v341), ∀ a x, ((![v185, v341] : Fin 2 → IVec S16 32) a x).toNat < S64x128.size a := fun v185 v341 k1_hw39 => k1_hw39

def k1_chk40 (v183 : IVec S16 32) (v348 : IVec S16 32) : Prop :=
  (∀ a x, ((![v183, v348] : Fin 2 → IVec S16 32) a x).toNat < S128x128.size a)
instance k1_chk40.dec : ∀ (v183 : IVec S16 32) (v348 : IVec S16 32), Decidable (k1_chk40 v183 v348) := fun v183 v348 => decidable_of_iff' _ (Iff.of_eq (k1_chk40.eq_1 v183 v348))
theorem k1_idx40_inb : ∀ (v183 : IVec S16 32) (v348 : IVec S16 32) (k1_hw40 : k1_chk40 v183 v348), ∀ a x, ((![v183, v348] : Fin 2 → IVec S16 32) a x).toNat < S128x128.size a := fun v183 v348 k1_hw40 => k1_hw40

def k1_chk41 (v183 : IVec S16 32) (v350 : IVec S16 32) : Prop :=
  (∀ a x, ((![v183, v350] : Fin 2 → IVec S16 32) a x).toNat < S128x128.size a)
instance k1_chk41.dec : ∀ (v183 : IVec S16 32) (v350 : IVec S16 32), Decidable (k1_chk41 v183 v350) := fun v183 v350 => decidable_of_iff' _ (Iff.of_eq (k1_chk41.eq_1 v183 v350))
theorem k1_idx41_inb : ∀ (v183 : IVec S16 32) (v350 : IVec S16 32) (k1_hw41 : k1_chk41 v183 v350), ∀ a x, ((![v183, v350] : Fin 2 → IVec S16 32) a x).toNat < S128x128.size a := fun v183 v350 k1_hw41 => k1_hw41

def k1_chk42 (v185 : IVec S16 32) (v352 : IVec S16 32) : Prop :=
  (∀ a x, ((![v185, v352] : Fin 2 → IVec S16 32) a x).toNat < S64x128.size a)
instance k1_chk42.dec : ∀ (v185 : IVec S16 32) (v352 : IVec S16 32), Decidable (k1_chk42 v185 v352) := fun v185 v352 => decidable_of_iff' _ (Iff.of_eq (k1_chk42.eq_1 v185 v352))
theorem k1_idx42_inb : ∀ (v185 : IVec S16 32) (v352 : IVec S16 32) (k1_hw42 : k1_chk42 v185 v352), ∀ a x, ((![v185, v352] : Fin 2 → IVec S16 32) a x).toNat < S64x128.size a := fun v185 v352 k1_hw42 => k1_hw42

def k1_chk43 (v183 : IVec S16 32) (v359 : IVec S16 32) : Prop :=
  (∀ a x, ((![v183, v359] : Fin 2 → IVec S16 32) a x).toNat < S128x128.size a)
instance k1_chk43.dec : ∀ (v183 : IVec S16 32) (v359 : IVec S16 32), Decidable (k1_chk43 v183 v359) := fun v183 v359 => decidable_of_iff' _ (Iff.of_eq (k1_chk43.eq_1 v183 v359))
theorem k1_idx43_inb : ∀ (v183 : IVec S16 32) (v359 : IVec S16 32) (k1_hw43 : k1_chk43 v183 v359), ∀ a x, ((![v183, v359] : Fin 2 → IVec S16 32) a x).toNat < S128x128.size a := fun v183 v359 k1_hw43 => k1_hw43

def k1_chk44 (v183 : IVec S16 32) (v361 : IVec S16 32) : Prop :=
  (∀ a x, ((![v183, v361] : Fin 2 → IVec S16 32) a x).toNat < S128x128.size a)
instance k1_chk44.dec : ∀ (v183 : IVec S16 32) (v361 : IVec S16 32), Decidable (k1_chk44 v183 v361) := fun v183 v361 => decidable_of_iff' _ (Iff.of_eq (k1_chk44.eq_1 v183 v361))
theorem k1_idx44_inb : ∀ (v183 : IVec S16 32) (v361 : IVec S16 32) (k1_hw44 : k1_chk44 v183 v361), ∀ a x, ((![v183, v361] : Fin 2 → IVec S16 32) a x).toNat < S128x128.size a := fun v183 v361 k1_hw44 => k1_hw44

def k1_chk45 (v185 : IVec S16 32) (v363 : IVec S16 32) : Prop :=
  (∀ a x, ((![v185, v363] : Fin 2 → IVec S16 32) a x).toNat < S64x128.size a)
instance k1_chk45.dec : ∀ (v185 : IVec S16 32) (v363 : IVec S16 32), Decidable (k1_chk45 v185 v363) := fun v185 v363 => decidable_of_iff' _ (Iff.of_eq (k1_chk45.eq_1 v185 v363))
theorem k1_idx45_inb : ∀ (v185 : IVec S16 32) (v363 : IVec S16 32) (k1_hw45 : k1_chk45 v185 v363), ∀ a x, ((![v185, v363] : Fin 2 → IVec S16 32) a x).toNat < S64x128.size a := fun v185 v363 k1_hw45 => k1_hw45

def k1_chk46 (v183 : IVec S16 32) (v370 : IVec S16 32) : Prop :=
  (∀ a x, ((![v183, v370] : Fin 2 → IVec S16 32) a x).toNat < S128x128.size a)
instance k1_chk46.dec : ∀ (v183 : IVec S16 32) (v370 : IVec S16 32), Decidable (k1_chk46 v183 v370) := fun v183 v370 => decidable_of_iff' _ (Iff.of_eq (k1_chk46.eq_1 v183 v370))
theorem k1_idx46_inb : ∀ (v183 : IVec S16 32) (v370 : IVec S16 32) (k1_hw46 : k1_chk46 v183 v370), ∀ a x, ((![v183, v370] : Fin 2 → IVec S16 32) a x).toNat < S128x128.size a := fun v183 v370 k1_hw46 => k1_hw46

def k1_chk47 (v183 : IVec S16 32) (v372 : IVec S16 32) : Prop :=
  (∀ a x, ((![v183, v372] : Fin 2 → IVec S16 32) a x).toNat < S128x128.size a)
instance k1_chk47.dec : ∀ (v183 : IVec S16 32) (v372 : IVec S16 32), Decidable (k1_chk47 v183 v372) := fun v183 v372 => decidable_of_iff' _ (Iff.of_eq (k1_chk47.eq_1 v183 v372))
theorem k1_idx47_inb : ∀ (v183 : IVec S16 32) (v372 : IVec S16 32) (k1_hw47 : k1_chk47 v183 v372), ∀ a x, ((![v183, v372] : Fin 2 → IVec S16 32) a x).toNat < S128x128.size a := fun v183 v372 k1_hw47 => k1_hw47

def k1_chk48 (v185 : IVec S16 32) (v374 : IVec S16 32) : Prop :=
  (∀ a x, ((![v185, v374] : Fin 2 → IVec S16 32) a x).toNat < S64x128.size a)
instance k1_chk48.dec : ∀ (v185 : IVec S16 32) (v374 : IVec S16 32), Decidable (k1_chk48 v185 v374) := fun v185 v374 => decidable_of_iff' _ (Iff.of_eq (k1_chk48.eq_1 v185 v374))
theorem k1_idx48_inb : ∀ (v185 : IVec S16 32) (v374 : IVec S16 32) (k1_hw48 : k1_chk48 v185 v374), ∀ a x, ((![v185, v374] : Fin 2 → IVec S16 32) a x).toNat < S64x128.size a := fun v185 v374 k1_hw48 => k1_hw48

def k1_chk49 (v183 : IVec S16 32) (v381 : IVec S16 32) : Prop :=
  (∀ a x, ((![v183, v381] : Fin 2 → IVec S16 32) a x).toNat < S128x128.size a)
instance k1_chk49.dec : ∀ (v183 : IVec S16 32) (v381 : IVec S16 32), Decidable (k1_chk49 v183 v381) := fun v183 v381 => decidable_of_iff' _ (Iff.of_eq (k1_chk49.eq_1 v183 v381))
theorem k1_idx49_inb : ∀ (v183 : IVec S16 32) (v381 : IVec S16 32) (k1_hw49 : k1_chk49 v183 v381), ∀ a x, ((![v183, v381] : Fin 2 → IVec S16 32) a x).toNat < S128x128.size a := fun v183 v381 k1_hw49 => k1_hw49

def k1_chk50 (v183 : IVec S16 32) (v383 : IVec S16 32) : Prop :=
  (∀ a x, ((![v183, v383] : Fin 2 → IVec S16 32) a x).toNat < S128x128.size a)
instance k1_chk50.dec : ∀ (v183 : IVec S16 32) (v383 : IVec S16 32), Decidable (k1_chk50 v183 v383) := fun v183 v383 => decidable_of_iff' _ (Iff.of_eq (k1_chk50.eq_1 v183 v383))
theorem k1_idx50_inb : ∀ (v183 : IVec S16 32) (v383 : IVec S16 32) (k1_hw50 : k1_chk50 v183 v383), ∀ a x, ((![v183, v383] : Fin 2 → IVec S16 32) a x).toNat < S128x128.size a := fun v183 v383 k1_hw50 => k1_hw50

def k1_chk51 (v185 : IVec S16 32) (v385 : IVec S16 32) : Prop :=
  (∀ a x, ((![v185, v385] : Fin 2 → IVec S16 32) a x).toNat < S64x128.size a)
instance k1_chk51.dec : ∀ (v185 : IVec S16 32) (v385 : IVec S16 32), Decidable (k1_chk51 v185 v385) := fun v185 v385 => decidable_of_iff' _ (Iff.of_eq (k1_chk51.eq_1 v185 v385))
theorem k1_idx51_inb : ∀ (v185 : IVec S16 32) (v385 : IVec S16 32) (k1_hw51 : k1_chk51 v185 v385), ∀ a x, ((![v185, v385] : Fin 2 → IVec S16 32) a x).toNat < S64x128.size a := fun v185 v385 k1_hw51 => k1_hw51

def k1_chk52 (v183 : IVec S16 32) (v392 : IVec S16 32) : Prop :=
  (∀ a x, ((![v183, v392] : Fin 2 → IVec S16 32) a x).toNat < S128x128.size a)
instance k1_chk52.dec : ∀ (v183 : IVec S16 32) (v392 : IVec S16 32), Decidable (k1_chk52 v183 v392) := fun v183 v392 => decidable_of_iff' _ (Iff.of_eq (k1_chk52.eq_1 v183 v392))
theorem k1_idx52_inb : ∀ (v183 : IVec S16 32) (v392 : IVec S16 32) (k1_hw52 : k1_chk52 v183 v392), ∀ a x, ((![v183, v392] : Fin 2 → IVec S16 32) a x).toNat < S128x128.size a := fun v183 v392 k1_hw52 => k1_hw52

def k1_chk53 (v183 : IVec S16 32) (v394 : IVec S16 32) : Prop :=
  (∀ a x, ((![v183, v394] : Fin 2 → IVec S16 32) a x).toNat < S128x128.size a)
instance k1_chk53.dec : ∀ (v183 : IVec S16 32) (v394 : IVec S16 32), Decidable (k1_chk53 v183 v394) := fun v183 v394 => decidable_of_iff' _ (Iff.of_eq (k1_chk53.eq_1 v183 v394))
theorem k1_idx53_inb : ∀ (v183 : IVec S16 32) (v394 : IVec S16 32) (k1_hw53 : k1_chk53 v183 v394), ∀ a x, ((![v183, v394] : Fin 2 → IVec S16 32) a x).toNat < S128x128.size a := fun v183 v394 k1_hw53 => k1_hw53

def k1_chk54 (v185 : IVec S16 32) (v396 : IVec S16 32) : Prop :=
  (∀ a x, ((![v185, v396] : Fin 2 → IVec S16 32) a x).toNat < S64x128.size a)
instance k1_chk54.dec : ∀ (v185 : IVec S16 32) (v396 : IVec S16 32), Decidable (k1_chk54 v185 v396) := fun v185 v396 => decidable_of_iff' _ (Iff.of_eq (k1_chk54.eq_1 v185 v396))
theorem k1_idx54_inb : ∀ (v185 : IVec S16 32) (v396 : IVec S16 32) (k1_hw54 : k1_chk54 v185 v396), ∀ a x, ((![v185, v396] : Fin 2 → IVec S16 32) a x).toNat < S64x128.size a := fun v185 v396 k1_hw54 => k1_hw54

def k1_chk55 (v183 : IVec S16 32) (v403 : IVec S16 32) : Prop :=
  (∀ a x, ((![v183, v403] : Fin 2 → IVec S16 32) a x).toNat < S128x128.size a)
instance k1_chk55.dec : ∀ (v183 : IVec S16 32) (v403 : IVec S16 32), Decidable (k1_chk55 v183 v403) := fun v183 v403 => decidable_of_iff' _ (Iff.of_eq (k1_chk55.eq_1 v183 v403))
theorem k1_idx55_inb : ∀ (v183 : IVec S16 32) (v403 : IVec S16 32) (k1_hw55 : k1_chk55 v183 v403), ∀ a x, ((![v183, v403] : Fin 2 → IVec S16 32) a x).toNat < S128x128.size a := fun v183 v403 k1_hw55 => k1_hw55

def k1_chk56 (v183 : IVec S16 32) (v405 : IVec S16 32) : Prop :=
  (∀ a x, ((![v183, v405] : Fin 2 → IVec S16 32) a x).toNat < S128x128.size a)
instance k1_chk56.dec : ∀ (v183 : IVec S16 32) (v405 : IVec S16 32), Decidable (k1_chk56 v183 v405) := fun v183 v405 => decidable_of_iff' _ (Iff.of_eq (k1_chk56.eq_1 v183 v405))
theorem k1_idx56_inb : ∀ (v183 : IVec S16 32) (v405 : IVec S16 32) (k1_hw56 : k1_chk56 v183 v405), ∀ a x, ((![v183, v405] : Fin 2 → IVec S16 32) a x).toNat < S128x128.size a := fun v183 v405 k1_hw56 => k1_hw56

def k1_chk57 (v185 : IVec S16 32) (v407 : IVec S16 32) : Prop :=
  (∀ a x, ((![v185, v407] : Fin 2 → IVec S16 32) a x).toNat < S64x128.size a)
instance k1_chk57.dec : ∀ (v185 : IVec S16 32) (v407 : IVec S16 32), Decidable (k1_chk57 v185 v407) := fun v185 v407 => decidable_of_iff' _ (Iff.of_eq (k1_chk57.eq_1 v185 v407))
theorem k1_idx57_inb : ∀ (v185 : IVec S16 32) (v407 : IVec S16 32) (k1_hw57 : k1_chk57 v185 v407), ∀ a x, ((![v185, v407] : Fin 2 → IVec S16 32) a x).toNat < S64x128.size a := fun v185 v407 k1_hw57 => k1_hw57

def k1_chk58 (v183 : IVec S16 32) (v414 : IVec S16 32) : Prop :=
  (∀ a x, ((![v183, v414] : Fin 2 → IVec S16 32) a x).toNat < S128x128.size a)
instance k1_chk58.dec : ∀ (v183 : IVec S16 32) (v414 : IVec S16 32), Decidable (k1_chk58 v183 v414) := fun v183 v414 => decidable_of_iff' _ (Iff.of_eq (k1_chk58.eq_1 v183 v414))
theorem k1_idx58_inb : ∀ (v183 : IVec S16 32) (v414 : IVec S16 32) (k1_hw58 : k1_chk58 v183 v414), ∀ a x, ((![v183, v414] : Fin 2 → IVec S16 32) a x).toNat < S128x128.size a := fun v183 v414 k1_hw58 => k1_hw58

def k1_chk59 (v183 : IVec S16 32) (v416 : IVec S16 32) : Prop :=
  (∀ a x, ((![v183, v416] : Fin 2 → IVec S16 32) a x).toNat < S128x128.size a)
instance k1_chk59.dec : ∀ (v183 : IVec S16 32) (v416 : IVec S16 32), Decidable (k1_chk59 v183 v416) := fun v183 v416 => decidable_of_iff' _ (Iff.of_eq (k1_chk59.eq_1 v183 v416))
theorem k1_idx59_inb : ∀ (v183 : IVec S16 32) (v416 : IVec S16 32) (k1_hw59 : k1_chk59 v183 v416), ∀ a x, ((![v183, v416] : Fin 2 → IVec S16 32) a x).toNat < S128x128.size a := fun v183 v416 k1_hw59 => k1_hw59

def k1_chk60 (v185 : IVec S16 32) (v418 : IVec S16 32) : Prop :=
  (∀ a x, ((![v185, v418] : Fin 2 → IVec S16 32) a x).toNat < S64x128.size a)
instance k1_chk60.dec : ∀ (v185 : IVec S16 32) (v418 : IVec S16 32), Decidable (k1_chk60 v185 v418) := fun v185 v418 => decidable_of_iff' _ (Iff.of_eq (k1_chk60.eq_1 v185 v418))
theorem k1_idx60_inb : ∀ (v185 : IVec S16 32) (v418 : IVec S16 32) (k1_hw60 : k1_chk60 v185 v418), ∀ a x, ((![v185, v418] : Fin 2 → IVec S16 32) a x).toNat < S64x128.size a := fun v185 v418 k1_hw60 => k1_hw60

def k1_chk61 (v183 : IVec S16 32) (v425 : IVec S16 32) : Prop :=
  (∀ a x, ((![v183, v425] : Fin 2 → IVec S16 32) a x).toNat < S128x128.size a)
instance k1_chk61.dec : ∀ (v183 : IVec S16 32) (v425 : IVec S16 32), Decidable (k1_chk61 v183 v425) := fun v183 v425 => decidable_of_iff' _ (Iff.of_eq (k1_chk61.eq_1 v183 v425))
theorem k1_idx61_inb : ∀ (v183 : IVec S16 32) (v425 : IVec S16 32) (k1_hw61 : k1_chk61 v183 v425), ∀ a x, ((![v183, v425] : Fin 2 → IVec S16 32) a x).toNat < S128x128.size a := fun v183 v425 k1_hw61 => k1_hw61

def k1_chk62 (v183 : IVec S16 32) (v427 : IVec S16 32) : Prop :=
  (∀ a x, ((![v183, v427] : Fin 2 → IVec S16 32) a x).toNat < S128x128.size a)
instance k1_chk62.dec : ∀ (v183 : IVec S16 32) (v427 : IVec S16 32), Decidable (k1_chk62 v183 v427) := fun v183 v427 => decidable_of_iff' _ (Iff.of_eq (k1_chk62.eq_1 v183 v427))
theorem k1_idx62_inb : ∀ (v183 : IVec S16 32) (v427 : IVec S16 32) (k1_hw62 : k1_chk62 v183 v427), ∀ a x, ((![v183, v427] : Fin 2 → IVec S16 32) a x).toNat < S128x128.size a := fun v183 v427 k1_hw62 => k1_hw62

def k1_chk63 (v185 : IVec S16 32) (v429 : IVec S16 32) : Prop :=
  (∀ a x, ((![v185, v429] : Fin 2 → IVec S16 32) a x).toNat < S64x128.size a)
instance k1_chk63.dec : ∀ (v185 : IVec S16 32) (v429 : IVec S16 32), Decidable (k1_chk63 v185 v429) := fun v185 v429 => decidable_of_iff' _ (Iff.of_eq (k1_chk63.eq_1 v185 v429))
theorem k1_idx63_inb : ∀ (v185 : IVec S16 32) (v429 : IVec S16 32) (k1_hw63 : k1_chk63 v185 v429), ∀ a x, ((![v185, v429] : Fin 2 → IVec S16 32) a x).toNat < S64x128.size a := fun v185 v429 k1_hw63 => k1_hw63

def k1_chk64 (v183 : IVec S16 32) (v436 : IVec S16 32) : Prop :=
  (∀ a x, ((![v183, v436] : Fin 2 → IVec S16 32) a x).toNat < S128x128.size a)
instance k1_chk64.dec : ∀ (v183 : IVec S16 32) (v436 : IVec S16 32), Decidable (k1_chk64 v183 v436) := fun v183 v436 => decidable_of_iff' _ (Iff.of_eq (k1_chk64.eq_1 v183 v436))
theorem k1_idx64_inb : ∀ (v183 : IVec S16 32) (v436 : IVec S16 32) (k1_hw64 : k1_chk64 v183 v436), ∀ a x, ((![v183, v436] : Fin 2 → IVec S16 32) a x).toNat < S128x128.size a := fun v183 v436 k1_hw64 => k1_hw64

def k1_chk65 (v183 : IVec S16 32) (v438 : IVec S16 32) : Prop :=
  (∀ a x, ((![v183, v438] : Fin 2 → IVec S16 32) a x).toNat < S128x128.size a)
instance k1_chk65.dec : ∀ (v183 : IVec S16 32) (v438 : IVec S16 32), Decidable (k1_chk65 v183 v438) := fun v183 v438 => decidable_of_iff' _ (Iff.of_eq (k1_chk65.eq_1 v183 v438))
theorem k1_idx65_inb : ∀ (v183 : IVec S16 32) (v438 : IVec S16 32) (k1_hw65 : k1_chk65 v183 v438), ∀ a x, ((![v183, v438] : Fin 2 → IVec S16 32) a x).toNat < S128x128.size a := fun v183 v438 k1_hw65 => k1_hw65

def k1_chk66 (v185 : IVec S16 32) (v440 : IVec S16 32) : Prop :=
  (∀ a x, ((![v185, v440] : Fin 2 → IVec S16 32) a x).toNat < S64x128.size a)
instance k1_chk66.dec : ∀ (v185 : IVec S16 32) (v440 : IVec S16 32), Decidable (k1_chk66 v185 v440) := fun v185 v440 => decidable_of_iff' _ (Iff.of_eq (k1_chk66.eq_1 v185 v440))
theorem k1_idx66_inb : ∀ (v185 : IVec S16 32) (v440 : IVec S16 32) (k1_hw66 : k1_chk66 v185 v440), ∀ a x, ((![v185, v440] : Fin 2 → IVec S16 32) a x).toNat < S64x128.size a := fun v185 v440 k1_hw66 => k1_hw66

def k1_chk67 (v183 : IVec S16 32) (v447 : IVec S16 32) : Prop :=
  (∀ a x, ((![v183, v447] : Fin 2 → IVec S16 32) a x).toNat < S128x128.size a)
instance k1_chk67.dec : ∀ (v183 : IVec S16 32) (v447 : IVec S16 32), Decidable (k1_chk67 v183 v447) := fun v183 v447 => decidable_of_iff' _ (Iff.of_eq (k1_chk67.eq_1 v183 v447))
theorem k1_idx67_inb : ∀ (v183 : IVec S16 32) (v447 : IVec S16 32) (k1_hw67 : k1_chk67 v183 v447), ∀ a x, ((![v183, v447] : Fin 2 → IVec S16 32) a x).toNat < S128x128.size a := fun v183 v447 k1_hw67 => k1_hw67

def k1_chk68 (v183 : IVec S16 32) (v449 : IVec S16 32) : Prop :=
  (∀ a x, ((![v183, v449] : Fin 2 → IVec S16 32) a x).toNat < S128x128.size a)
instance k1_chk68.dec : ∀ (v183 : IVec S16 32) (v449 : IVec S16 32), Decidable (k1_chk68 v183 v449) := fun v183 v449 => decidable_of_iff' _ (Iff.of_eq (k1_chk68.eq_1 v183 v449))
theorem k1_idx68_inb : ∀ (v183 : IVec S16 32) (v449 : IVec S16 32) (k1_hw68 : k1_chk68 v183 v449), ∀ a x, ((![v183, v449] : Fin 2 → IVec S16 32) a x).toNat < S128x128.size a := fun v183 v449 k1_hw68 => k1_hw68

def k1_chk69 (v185 : IVec S16 32) (v451 : IVec S16 32) : Prop :=
  (∀ a x, ((![v185, v451] : Fin 2 → IVec S16 32) a x).toNat < S64x128.size a)
instance k1_chk69.dec : ∀ (v185 : IVec S16 32) (v451 : IVec S16 32), Decidable (k1_chk69 v185 v451) := fun v185 v451 => decidable_of_iff' _ (Iff.of_eq (k1_chk69.eq_1 v185 v451))
theorem k1_idx69_inb : ∀ (v185 : IVec S16 32) (v451 : IVec S16 32) (k1_hw69 : k1_chk69 v185 v451), ∀ a x, ((![v185, v451] : Fin 2 → IVec S16 32) a x).toNat < S64x128.size a := fun v185 v451 k1_hw69 => k1_hw69

def k1_chk70 (v183 : IVec S16 32) (v458 : IVec S16 32) : Prop :=
  (∀ a x, ((![v183, v458] : Fin 2 → IVec S16 32) a x).toNat < S128x128.size a)
instance k1_chk70.dec : ∀ (v183 : IVec S16 32) (v458 : IVec S16 32), Decidable (k1_chk70 v183 v458) := fun v183 v458 => decidable_of_iff' _ (Iff.of_eq (k1_chk70.eq_1 v183 v458))
theorem k1_idx70_inb : ∀ (v183 : IVec S16 32) (v458 : IVec S16 32) (k1_hw70 : k1_chk70 v183 v458), ∀ a x, ((![v183, v458] : Fin 2 → IVec S16 32) a x).toNat < S128x128.size a := fun v183 v458 k1_hw70 => k1_hw70

def k1_chk71 (v183 : IVec S16 32) (v460 : IVec S16 32) : Prop :=
  (∀ a x, ((![v183, v460] : Fin 2 → IVec S16 32) a x).toNat < S128x128.size a)
instance k1_chk71.dec : ∀ (v183 : IVec S16 32) (v460 : IVec S16 32), Decidable (k1_chk71 v183 v460) := fun v183 v460 => decidable_of_iff' _ (Iff.of_eq (k1_chk71.eq_1 v183 v460))
theorem k1_idx71_inb : ∀ (v183 : IVec S16 32) (v460 : IVec S16 32) (k1_hw71 : k1_chk71 v183 v460), ∀ a x, ((![v183, v460] : Fin 2 → IVec S16 32) a x).toNat < S128x128.size a := fun v183 v460 k1_hw71 => k1_hw71

def k1_chk72 (v185 : IVec S16 32) (v462 : IVec S16 32) : Prop :=
  (∀ a x, ((![v185, v462] : Fin 2 → IVec S16 32) a x).toNat < S64x128.size a)
instance k1_chk72.dec : ∀ (v185 : IVec S16 32) (v462 : IVec S16 32), Decidable (k1_chk72 v185 v462) := fun v185 v462 => decidable_of_iff' _ (Iff.of_eq (k1_chk72.eq_1 v185 v462))
theorem k1_idx72_inb : ∀ (v185 : IVec S16 32) (v462 : IVec S16 32) (k1_hw72 : k1_chk72 v185 v462), ∀ a x, ((![v185, v462] : Fin 2 → IVec S16 32) a x).toNat < S64x128.size a := fun v185 v462 k1_hw72 => k1_hw72

def k1_chk73 (v183 : IVec S16 32) (v469 : IVec S16 32) : Prop :=
  (∀ a x, ((![v183, v469] : Fin 2 → IVec S16 32) a x).toNat < S128x128.size a)
instance k1_chk73.dec : ∀ (v183 : IVec S16 32) (v469 : IVec S16 32), Decidable (k1_chk73 v183 v469) := fun v183 v469 => decidable_of_iff' _ (Iff.of_eq (k1_chk73.eq_1 v183 v469))
theorem k1_idx73_inb : ∀ (v183 : IVec S16 32) (v469 : IVec S16 32) (k1_hw73 : k1_chk73 v183 v469), ∀ a x, ((![v183, v469] : Fin 2 → IVec S16 32) a x).toNat < S128x128.size a := fun v183 v469 k1_hw73 => k1_hw73

def k1_chk74 (v183 : IVec S16 32) (v471 : IVec S16 32) : Prop :=
  (∀ a x, ((![v183, v471] : Fin 2 → IVec S16 32) a x).toNat < S128x128.size a)
instance k1_chk74.dec : ∀ (v183 : IVec S16 32) (v471 : IVec S16 32), Decidable (k1_chk74 v183 v471) := fun v183 v471 => decidable_of_iff' _ (Iff.of_eq (k1_chk74.eq_1 v183 v471))
theorem k1_idx74_inb : ∀ (v183 : IVec S16 32) (v471 : IVec S16 32) (k1_hw74 : k1_chk74 v183 v471), ∀ a x, ((![v183, v471] : Fin 2 → IVec S16 32) a x).toNat < S128x128.size a := fun v183 v471 k1_hw74 => k1_hw74

def k1_chk75 (v185 : IVec S16 32) (v473 : IVec S16 32) : Prop :=
  (∀ a x, ((![v185, v473] : Fin 2 → IVec S16 32) a x).toNat < S64x128.size a)
instance k1_chk75.dec : ∀ (v185 : IVec S16 32) (v473 : IVec S16 32), Decidable (k1_chk75 v185 v473) := fun v185 v473 => decidable_of_iff' _ (Iff.of_eq (k1_chk75.eq_1 v185 v473))
theorem k1_idx75_inb : ∀ (v185 : IVec S16 32) (v473 : IVec S16 32) (k1_hw75 : k1_chk75 v185 v473), ∀ a x, ((![v185, v473] : Fin 2 → IVec S16 32) a x).toNat < S64x128.size a := fun v185 v473 k1_hw75 => k1_hw75

def k1_chk76 (v183 : IVec S16 32) (v480 : IVec S16 32) : Prop :=
  (∀ a x, ((![v183, v480] : Fin 2 → IVec S16 32) a x).toNat < S128x128.size a)
instance k1_chk76.dec : ∀ (v183 : IVec S16 32) (v480 : IVec S16 32), Decidable (k1_chk76 v183 v480) := fun v183 v480 => decidable_of_iff' _ (Iff.of_eq (k1_chk76.eq_1 v183 v480))
theorem k1_idx76_inb : ∀ (v183 : IVec S16 32) (v480 : IVec S16 32) (k1_hw76 : k1_chk76 v183 v480), ∀ a x, ((![v183, v480] : Fin 2 → IVec S16 32) a x).toNat < S128x128.size a := fun v183 v480 k1_hw76 => k1_hw76

def k1_chk77 (v183 : IVec S16 32) (v482 : IVec S16 32) : Prop :=
  (∀ a x, ((![v183, v482] : Fin 2 → IVec S16 32) a x).toNat < S128x128.size a)
instance k1_chk77.dec : ∀ (v183 : IVec S16 32) (v482 : IVec S16 32), Decidable (k1_chk77 v183 v482) := fun v183 v482 => decidable_of_iff' _ (Iff.of_eq (k1_chk77.eq_1 v183 v482))
theorem k1_idx77_inb : ∀ (v183 : IVec S16 32) (v482 : IVec S16 32) (k1_hw77 : k1_chk77 v183 v482), ∀ a x, ((![v183, v482] : Fin 2 → IVec S16 32) a x).toNat < S128x128.size a := fun v183 v482 k1_hw77 => k1_hw77

def k1_chk78 (v185 : IVec S16 32) (v484 : IVec S16 32) : Prop :=
  (∀ a x, ((![v185, v484] : Fin 2 → IVec S16 32) a x).toNat < S64x128.size a)
instance k1_chk78.dec : ∀ (v185 : IVec S16 32) (v484 : IVec S16 32), Decidable (k1_chk78 v185 v484) := fun v185 v484 => decidable_of_iff' _ (Iff.of_eq (k1_chk78.eq_1 v185 v484))
theorem k1_idx78_inb : ∀ (v185 : IVec S16 32) (v484 : IVec S16 32) (k1_hw78 : k1_chk78 v185 v484), ∀ a x, ((![v185, v484] : Fin 2 → IVec S16 32) a x).toNat < S64x128.size a := fun v185 v484 k1_hw78 => k1_hw78

def k1_chk79 (v183 : IVec S16 32) (v491 : IVec S16 32) : Prop :=
  (∀ a x, ((![v183, v491] : Fin 2 → IVec S16 32) a x).toNat < S128x128.size a)
instance k1_chk79.dec : ∀ (v183 : IVec S16 32) (v491 : IVec S16 32), Decidable (k1_chk79 v183 v491) := fun v183 v491 => decidable_of_iff' _ (Iff.of_eq (k1_chk79.eq_1 v183 v491))
theorem k1_idx79_inb : ∀ (v183 : IVec S16 32) (v491 : IVec S16 32) (k1_hw79 : k1_chk79 v183 v491), ∀ a x, ((![v183, v491] : Fin 2 → IVec S16 32) a x).toNat < S128x128.size a := fun v183 v491 k1_hw79 => k1_hw79

def k1_chk80 (v183 : IVec S16 32) (v493 : IVec S16 32) : Prop :=
  (∀ a x, ((![v183, v493] : Fin 2 → IVec S16 32) a x).toNat < S128x128.size a)
instance k1_chk80.dec : ∀ (v183 : IVec S16 32) (v493 : IVec S16 32), Decidable (k1_chk80 v183 v493) := fun v183 v493 => decidable_of_iff' _ (Iff.of_eq (k1_chk80.eq_1 v183 v493))
theorem k1_idx80_inb : ∀ (v183 : IVec S16 32) (v493 : IVec S16 32) (k1_hw80 : k1_chk80 v183 v493), ∀ a x, ((![v183, v493] : Fin 2 → IVec S16 32) a x).toNat < S128x128.size a := fun v183 v493 k1_hw80 => k1_hw80

def k1_chk81 (v185 : IVec S16 32) (v495 : IVec S16 32) : Prop :=
  (∀ a x, ((![v185, v495] : Fin 2 → IVec S16 32) a x).toNat < S64x128.size a)
instance k1_chk81.dec : ∀ (v185 : IVec S16 32) (v495 : IVec S16 32), Decidable (k1_chk81 v185 v495) := fun v185 v495 => decidable_of_iff' _ (Iff.of_eq (k1_chk81.eq_1 v185 v495))
theorem k1_idx81_inb : ∀ (v185 : IVec S16 32) (v495 : IVec S16 32) (k1_hw81 : k1_chk81 v185 v495), ∀ a x, ((![v185, v495] : Fin 2 → IVec S16 32) a x).toNat < S64x128.size a := fun v185 v495 k1_hw81 => k1_hw81

def k1_chk82 (v183 : IVec S16 32) (v502 : IVec S16 32) : Prop :=
  (∀ a x, ((![v183, v502] : Fin 2 → IVec S16 32) a x).toNat < S128x128.size a)
instance k1_chk82.dec : ∀ (v183 : IVec S16 32) (v502 : IVec S16 32), Decidable (k1_chk82 v183 v502) := fun v183 v502 => decidable_of_iff' _ (Iff.of_eq (k1_chk82.eq_1 v183 v502))
theorem k1_idx82_inb : ∀ (v183 : IVec S16 32) (v502 : IVec S16 32) (k1_hw82 : k1_chk82 v183 v502), ∀ a x, ((![v183, v502] : Fin 2 → IVec S16 32) a x).toNat < S128x128.size a := fun v183 v502 k1_hw82 => k1_hw82

def k1_chk83 (v183 : IVec S16 32) (v504 : IVec S16 32) : Prop :=
  (∀ a x, ((![v183, v504] : Fin 2 → IVec S16 32) a x).toNat < S128x128.size a)
instance k1_chk83.dec : ∀ (v183 : IVec S16 32) (v504 : IVec S16 32), Decidable (k1_chk83 v183 v504) := fun v183 v504 => decidable_of_iff' _ (Iff.of_eq (k1_chk83.eq_1 v183 v504))
theorem k1_idx83_inb : ∀ (v183 : IVec S16 32) (v504 : IVec S16 32) (k1_hw83 : k1_chk83 v183 v504), ∀ a x, ((![v183, v504] : Fin 2 → IVec S16 32) a x).toNat < S128x128.size a := fun v183 v504 k1_hw83 => k1_hw83

def k1_chk84 (v185 : IVec S16 32) (v506 : IVec S16 32) : Prop :=
  (∀ a x, ((![v185, v506] : Fin 2 → IVec S16 32) a x).toNat < S64x128.size a)
instance k1_chk84.dec : ∀ (v185 : IVec S16 32) (v506 : IVec S16 32), Decidable (k1_chk84 v185 v506) := fun v185 v506 => decidable_of_iff' _ (Iff.of_eq (k1_chk84.eq_1 v185 v506))
theorem k1_idx84_inb : ∀ (v185 : IVec S16 32) (v506 : IVec S16 32) (k1_hw84 : k1_chk84 v185 v506), ∀ a x, ((![v185, v506] : Fin 2 → IVec S16 32) a x).toNat < S64x128.size a := fun v185 v506 k1_hw84 => k1_hw84

def k1_chk85 (v183 : IVec S16 32) (v513 : IVec S16 32) : Prop :=
  (∀ a x, ((![v183, v513] : Fin 2 → IVec S16 32) a x).toNat < S128x128.size a)
instance k1_chk85.dec : ∀ (v183 : IVec S16 32) (v513 : IVec S16 32), Decidable (k1_chk85 v183 v513) := fun v183 v513 => decidable_of_iff' _ (Iff.of_eq (k1_chk85.eq_1 v183 v513))
theorem k1_idx85_inb : ∀ (v183 : IVec S16 32) (v513 : IVec S16 32) (k1_hw85 : k1_chk85 v183 v513), ∀ a x, ((![v183, v513] : Fin 2 → IVec S16 32) a x).toNat < S128x128.size a := fun v183 v513 k1_hw85 => k1_hw85

def k1_chk86 (v183 : IVec S16 32) (v515 : IVec S16 32) : Prop :=
  (∀ a x, ((![v183, v515] : Fin 2 → IVec S16 32) a x).toNat < S128x128.size a)
instance k1_chk86.dec : ∀ (v183 : IVec S16 32) (v515 : IVec S16 32), Decidable (k1_chk86 v183 v515) := fun v183 v515 => decidable_of_iff' _ (Iff.of_eq (k1_chk86.eq_1 v183 v515))
theorem k1_idx86_inb : ∀ (v183 : IVec S16 32) (v515 : IVec S16 32) (k1_hw86 : k1_chk86 v183 v515), ∀ a x, ((![v183, v515] : Fin 2 → IVec S16 32) a x).toNat < S128x128.size a := fun v183 v515 k1_hw86 => k1_hw86

def k1_chk87 (v185 : IVec S16 32) (v517 : IVec S16 32) : Prop :=
  (∀ a x, ((![v185, v517] : Fin 2 → IVec S16 32) a x).toNat < S64x128.size a)
instance k1_chk87.dec : ∀ (v185 : IVec S16 32) (v517 : IVec S16 32), Decidable (k1_chk87 v185 v517) := fun v185 v517 => decidable_of_iff' _ (Iff.of_eq (k1_chk87.eq_1 v185 v517))
theorem k1_idx87_inb : ∀ (v185 : IVec S16 32) (v517 : IVec S16 32) (k1_hw87 : k1_chk87 v185 v517), ∀ a x, ((![v185, v517] : Fin 2 → IVec S16 32) a x).toNat < S64x128.size a := fun v185 v517 k1_hw87 => k1_hw87

def k1_chk88 (v183 : IVec S16 32) (v524 : IVec S16 32) : Prop :=
  (∀ a x, ((![v183, v524] : Fin 2 → IVec S16 32) a x).toNat < S128x128.size a)
instance k1_chk88.dec : ∀ (v183 : IVec S16 32) (v524 : IVec S16 32), Decidable (k1_chk88 v183 v524) := fun v183 v524 => decidable_of_iff' _ (Iff.of_eq (k1_chk88.eq_1 v183 v524))
theorem k1_idx88_inb : ∀ (v183 : IVec S16 32) (v524 : IVec S16 32) (k1_hw88 : k1_chk88 v183 v524), ∀ a x, ((![v183, v524] : Fin 2 → IVec S16 32) a x).toNat < S128x128.size a := fun v183 v524 k1_hw88 => k1_hw88

def k1_chk89 (v183 : IVec S16 32) (v526 : IVec S16 32) : Prop :=
  (∀ a x, ((![v183, v526] : Fin 2 → IVec S16 32) a x).toNat < S128x128.size a)
instance k1_chk89.dec : ∀ (v183 : IVec S16 32) (v526 : IVec S16 32), Decidable (k1_chk89 v183 v526) := fun v183 v526 => decidable_of_iff' _ (Iff.of_eq (k1_chk89.eq_1 v183 v526))
theorem k1_idx89_inb : ∀ (v183 : IVec S16 32) (v526 : IVec S16 32) (k1_hw89 : k1_chk89 v183 v526), ∀ a x, ((![v183, v526] : Fin 2 → IVec S16 32) a x).toNat < S128x128.size a := fun v183 v526 k1_hw89 => k1_hw89

def k1_chk90 (v185 : IVec S16 32) (v528 : IVec S16 32) : Prop :=
  (∀ a x, ((![v185, v528] : Fin 2 → IVec S16 32) a x).toNat < S64x128.size a)
instance k1_chk90.dec : ∀ (v185 : IVec S16 32) (v528 : IVec S16 32), Decidable (k1_chk90 v185 v528) := fun v185 v528 => decidable_of_iff' _ (Iff.of_eq (k1_chk90.eq_1 v185 v528))
theorem k1_idx90_inb : ∀ (v185 : IVec S16 32) (v528 : IVec S16 32) (k1_hw90 : k1_chk90 v185 v528), ∀ a x, ((![v185, v528] : Fin 2 → IVec S16 32) a x).toNat < S64x128.size a := fun v185 v528 k1_hw90 => k1_hw90

def k1_chk91 (v183 : IVec S16 32) (v535 : IVec S16 32) : Prop :=
  (∀ a x, ((![v183, v535] : Fin 2 → IVec S16 32) a x).toNat < S128x128.size a)
instance k1_chk91.dec : ∀ (v183 : IVec S16 32) (v535 : IVec S16 32), Decidable (k1_chk91 v183 v535) := fun v183 v535 => decidable_of_iff' _ (Iff.of_eq (k1_chk91.eq_1 v183 v535))
theorem k1_idx91_inb : ∀ (v183 : IVec S16 32) (v535 : IVec S16 32) (k1_hw91 : k1_chk91 v183 v535), ∀ a x, ((![v183, v535] : Fin 2 → IVec S16 32) a x).toNat < S128x128.size a := fun v183 v535 k1_hw91 => k1_hw91

def k1_chk92 (v183 : IVec S16 32) (v537 : IVec S16 32) : Prop :=
  (∀ a x, ((![v183, v537] : Fin 2 → IVec S16 32) a x).toNat < S128x128.size a)
instance k1_chk92.dec : ∀ (v183 : IVec S16 32) (v537 : IVec S16 32), Decidable (k1_chk92 v183 v537) := fun v183 v537 => decidable_of_iff' _ (Iff.of_eq (k1_chk92.eq_1 v183 v537))
theorem k1_idx92_inb : ∀ (v183 : IVec S16 32) (v537 : IVec S16 32) (k1_hw92 : k1_chk92 v183 v537), ∀ a x, ((![v183, v537] : Fin 2 → IVec S16 32) a x).toNat < S128x128.size a := fun v183 v537 k1_hw92 => k1_hw92

def k1_chk93 (v185 : IVec S16 32) (v539 : IVec S16 32) : Prop :=
  (∀ a x, ((![v185, v539] : Fin 2 → IVec S16 32) a x).toNat < S64x128.size a)
instance k1_chk93.dec : ∀ (v185 : IVec S16 32) (v539 : IVec S16 32), Decidable (k1_chk93 v185 v539) := fun v185 v539 => decidable_of_iff' _ (Iff.of_eq (k1_chk93.eq_1 v185 v539))
theorem k1_idx93_inb : ∀ (v185 : IVec S16 32) (v539 : IVec S16 32) (k1_hw93 : k1_chk93 v185 v539), ∀ a x, ((![v185, v539] : Fin 2 → IVec S16 32) a x).toNat < S64x128.size a := fun v185 v539 k1_hw93 => k1_hw93

def k1_chk94 (v183 : IVec S16 32) (v546 : IVec S16 32) : Prop :=
  (∀ a x, ((![v183, v546] : Fin 2 → IVec S16 32) a x).toNat < S128x128.size a)
instance k1_chk94.dec : ∀ (v183 : IVec S16 32) (v546 : IVec S16 32), Decidable (k1_chk94 v183 v546) := fun v183 v546 => decidable_of_iff' _ (Iff.of_eq (k1_chk94.eq_1 v183 v546))
theorem k1_idx94_inb : ∀ (v183 : IVec S16 32) (v546 : IVec S16 32) (k1_hw94 : k1_chk94 v183 v546), ∀ a x, ((![v183, v546] : Fin 2 → IVec S16 32) a x).toNat < S128x128.size a := fun v183 v546 k1_hw94 => k1_hw94

def k1_chk95 (v183 : IVec S16 32) (v548 : IVec S16 32) : Prop :=
  (∀ a x, ((![v183, v548] : Fin 2 → IVec S16 32) a x).toNat < S128x128.size a)
instance k1_chk95.dec : ∀ (v183 : IVec S16 32) (v548 : IVec S16 32), Decidable (k1_chk95 v183 v548) := fun v183 v548 => decidable_of_iff' _ (Iff.of_eq (k1_chk95.eq_1 v183 v548))
theorem k1_idx95_inb : ∀ (v183 : IVec S16 32) (v548 : IVec S16 32) (k1_hw95 : k1_chk95 v183 v548), ∀ a x, ((![v183, v548] : Fin 2 → IVec S16 32) a x).toNat < S128x128.size a := fun v183 v548 k1_hw95 => k1_hw95

def k1_chk96 (v185 : IVec S16 32) (v550 : IVec S16 32) : Prop :=
  (∀ a x, ((![v185, v550] : Fin 2 → IVec S16 32) a x).toNat < S64x128.size a)
instance k1_chk96.dec : ∀ (v185 : IVec S16 32) (v550 : IVec S16 32), Decidable (k1_chk96 v185 v550) := fun v185 v550 => decidable_of_iff' _ (Iff.of_eq (k1_chk96.eq_1 v185 v550))
theorem k1_idx96_inb : ∀ (v185 : IVec S16 32) (v550 : IVec S16 32) (k1_hw96 : k1_chk96 v185 v550), ∀ a x, ((![v185, v550] : Fin 2 → IVec S16 32) a x).toNat < S64x128.size a := fun v185 v550 k1_hw96 => k1_hw96

def k1_chk97 (v183 : IVec S16 32) (v557 : IVec S16 32) : Prop :=
  (∀ a x, ((![v183, v557] : Fin 2 → IVec S16 32) a x).toNat < S128x128.size a)
instance k1_chk97.dec : ∀ (v183 : IVec S16 32) (v557 : IVec S16 32), Decidable (k1_chk97 v183 v557) := fun v183 v557 => decidable_of_iff' _ (Iff.of_eq (k1_chk97.eq_1 v183 v557))
theorem k1_idx97_inb : ∀ (v183 : IVec S16 32) (v557 : IVec S16 32) (k1_hw97 : k1_chk97 v183 v557), ∀ a x, ((![v183, v557] : Fin 2 → IVec S16 32) a x).toNat < S128x128.size a := fun v183 v557 k1_hw97 => k1_hw97

def k1_chk98 (v183 : IVec S16 32) (v559 : IVec S16 32) : Prop :=
  (∀ a x, ((![v183, v559] : Fin 2 → IVec S16 32) a x).toNat < S128x128.size a)
instance k1_chk98.dec : ∀ (v183 : IVec S16 32) (v559 : IVec S16 32), Decidable (k1_chk98 v183 v559) := fun v183 v559 => decidable_of_iff' _ (Iff.of_eq (k1_chk98.eq_1 v183 v559))
theorem k1_idx98_inb : ∀ (v183 : IVec S16 32) (v559 : IVec S16 32) (k1_hw98 : k1_chk98 v183 v559), ∀ a x, ((![v183, v559] : Fin 2 → IVec S16 32) a x).toNat < S128x128.size a := fun v183 v559 k1_hw98 => k1_hw98

def k1_chk99 (v185 : IVec S16 32) (v561 : IVec S16 32) : Prop :=
  (∀ a x, ((![v185, v561] : Fin 2 → IVec S16 32) a x).toNat < S64x128.size a)
instance k1_chk99.dec : ∀ (v185 : IVec S16 32) (v561 : IVec S16 32), Decidable (k1_chk99 v185 v561) := fun v185 v561 => decidable_of_iff' _ (Iff.of_eq (k1_chk99.eq_1 v185 v561))
theorem k1_idx99_inb : ∀ (v185 : IVec S16 32) (v561 : IVec S16 32) (k1_hw99 : k1_chk99 v185 v561), ∀ a x, ((![v185, v561] : Fin 2 → IVec S16 32) a x).toNat < S64x128.size a := fun v185 v561 k1_hw99 => k1_hw99

def k1_chk100 (v183 : IVec S16 32) (v568 : IVec S16 32) : Prop :=
  (∀ a x, ((![v183, v568] : Fin 2 → IVec S16 32) a x).toNat < S128x128.size a)
instance k1_chk100.dec : ∀ (v183 : IVec S16 32) (v568 : IVec S16 32), Decidable (k1_chk100 v183 v568) := fun v183 v568 => decidable_of_iff' _ (Iff.of_eq (k1_chk100.eq_1 v183 v568))
theorem k1_idx100_inb : ∀ (v183 : IVec S16 32) (v568 : IVec S16 32) (k1_hw100 : k1_chk100 v183 v568), ∀ a x, ((![v183, v568] : Fin 2 → IVec S16 32) a x).toNat < S128x128.size a := fun v183 v568 k1_hw100 => k1_hw100

def k1_chk101 (v183 : IVec S16 32) (v570 : IVec S16 32) : Prop :=
  (∀ a x, ((![v183, v570] : Fin 2 → IVec S16 32) a x).toNat < S128x128.size a)
instance k1_chk101.dec : ∀ (v183 : IVec S16 32) (v570 : IVec S16 32), Decidable (k1_chk101 v183 v570) := fun v183 v570 => decidable_of_iff' _ (Iff.of_eq (k1_chk101.eq_1 v183 v570))
theorem k1_idx101_inb : ∀ (v183 : IVec S16 32) (v570 : IVec S16 32) (k1_hw101 : k1_chk101 v183 v570), ∀ a x, ((![v183, v570] : Fin 2 → IVec S16 32) a x).toNat < S128x128.size a := fun v183 v570 k1_hw101 => k1_hw101

def k1_chk102 (v185 : IVec S16 32) (v572 : IVec S16 32) : Prop :=
  (∀ a x, ((![v185, v572] : Fin 2 → IVec S16 32) a x).toNat < S64x128.size a)
instance k1_chk102.dec : ∀ (v185 : IVec S16 32) (v572 : IVec S16 32), Decidable (k1_chk102 v185 v572) := fun v185 v572 => decidable_of_iff' _ (Iff.of_eq (k1_chk102.eq_1 v185 v572))
theorem k1_idx102_inb : ∀ (v185 : IVec S16 32) (v572 : IVec S16 32) (k1_hw102 : k1_chk102 v185 v572), ∀ a x, ((![v185, v572] : Fin 2 → IVec S16 32) a x).toNat < S64x128.size a := fun v185 v572 k1_hw102 => k1_hw102

def k1_chk103 (v183 : IVec S16 32) (v579 : IVec S16 32) : Prop :=
  (∀ a x, ((![v183, v579] : Fin 2 → IVec S16 32) a x).toNat < S128x128.size a)
instance k1_chk103.dec : ∀ (v183 : IVec S16 32) (v579 : IVec S16 32), Decidable (k1_chk103 v183 v579) := fun v183 v579 => decidable_of_iff' _ (Iff.of_eq (k1_chk103.eq_1 v183 v579))
theorem k1_idx103_inb : ∀ (v183 : IVec S16 32) (v579 : IVec S16 32) (k1_hw103 : k1_chk103 v183 v579), ∀ a x, ((![v183, v579] : Fin 2 → IVec S16 32) a x).toNat < S128x128.size a := fun v183 v579 k1_hw103 => k1_hw103

def k1_chk104 (v183 : IVec S16 32) (v581 : IVec S16 32) : Prop :=
  (∀ a x, ((![v183, v581] : Fin 2 → IVec S16 32) a x).toNat < S128x128.size a)
instance k1_chk104.dec : ∀ (v183 : IVec S16 32) (v581 : IVec S16 32), Decidable (k1_chk104 v183 v581) := fun v183 v581 => decidable_of_iff' _ (Iff.of_eq (k1_chk104.eq_1 v183 v581))
theorem k1_idx104_inb : ∀ (v183 : IVec S16 32) (v581 : IVec S16 32) (k1_hw104 : k1_chk104 v183 v581), ∀ a x, ((![v183, v581] : Fin 2 → IVec S16 32) a x).toNat < S128x128.size a := fun v183 v581 k1_hw104 => k1_hw104

def k1_chk105 (v185 : IVec S16 32) (v583 : IVec S16 32) : Prop :=
  (∀ a x, ((![v185, v583] : Fin 2 → IVec S16 32) a x).toNat < S64x128.size a)
instance k1_chk105.dec : ∀ (v185 : IVec S16 32) (v583 : IVec S16 32), Decidable (k1_chk105 v185 v583) := fun v185 v583 => decidable_of_iff' _ (Iff.of_eq (k1_chk105.eq_1 v185 v583))
theorem k1_idx105_inb : ∀ (v185 : IVec S16 32) (v583 : IVec S16 32) (k1_hw105 : k1_chk105 v185 v583), ∀ a x, ((![v185, v583] : Fin 2 → IVec S16 32) a x).toNat < S64x128.size a := fun v185 v583 k1_hw105 => k1_hw105

def k1_chk106 (v183 : IVec S16 32) (v590 : IVec S16 32) : Prop :=
  (∀ a x, ((![v183, v590] : Fin 2 → IVec S16 32) a x).toNat < S128x128.size a)
instance k1_chk106.dec : ∀ (v183 : IVec S16 32) (v590 : IVec S16 32), Decidable (k1_chk106 v183 v590) := fun v183 v590 => decidable_of_iff' _ (Iff.of_eq (k1_chk106.eq_1 v183 v590))
theorem k1_idx106_inb : ∀ (v183 : IVec S16 32) (v590 : IVec S16 32) (k1_hw106 : k1_chk106 v183 v590), ∀ a x, ((![v183, v590] : Fin 2 → IVec S16 32) a x).toNat < S128x128.size a := fun v183 v590 k1_hw106 => k1_hw106

def k1_chk107 (v183 : IVec S16 32) (v592 : IVec S16 32) : Prop :=
  (∀ a x, ((![v183, v592] : Fin 2 → IVec S16 32) a x).toNat < S128x128.size a)
instance k1_chk107.dec : ∀ (v183 : IVec S16 32) (v592 : IVec S16 32), Decidable (k1_chk107 v183 v592) := fun v183 v592 => decidable_of_iff' _ (Iff.of_eq (k1_chk107.eq_1 v183 v592))
theorem k1_idx107_inb : ∀ (v183 : IVec S16 32) (v592 : IVec S16 32) (k1_hw107 : k1_chk107 v183 v592), ∀ a x, ((![v183, v592] : Fin 2 → IVec S16 32) a x).toNat < S128x128.size a := fun v183 v592 k1_hw107 => k1_hw107

def k1_chk108 (v185 : IVec S16 32) (v594 : IVec S16 32) : Prop :=
  (∀ a x, ((![v185, v594] : Fin 2 → IVec S16 32) a x).toNat < S64x128.size a)
instance k1_chk108.dec : ∀ (v185 : IVec S16 32) (v594 : IVec S16 32), Decidable (k1_chk108 v185 v594) := fun v185 v594 => decidable_of_iff' _ (Iff.of_eq (k1_chk108.eq_1 v185 v594))
theorem k1_idx108_inb : ∀ (v185 : IVec S16 32) (v594 : IVec S16 32) (k1_hw108 : k1_chk108 v185 v594), ∀ a x, ((![v185, v594] : Fin 2 → IVec S16 32) a x).toNat < S64x128.size a := fun v185 v594 k1_hw108 => k1_hw108

def k1_chk109 (v183 : IVec S16 32) (v601 : IVec S16 32) : Prop :=
  (∀ a x, ((![v183, v601] : Fin 2 → IVec S16 32) a x).toNat < S128x128.size a)
instance k1_chk109.dec : ∀ (v183 : IVec S16 32) (v601 : IVec S16 32), Decidable (k1_chk109 v183 v601) := fun v183 v601 => decidable_of_iff' _ (Iff.of_eq (k1_chk109.eq_1 v183 v601))
theorem k1_idx109_inb : ∀ (v183 : IVec S16 32) (v601 : IVec S16 32) (k1_hw109 : k1_chk109 v183 v601), ∀ a x, ((![v183, v601] : Fin 2 → IVec S16 32) a x).toNat < S128x128.size a := fun v183 v601 k1_hw109 => k1_hw109

def k1_chk110 (v183 : IVec S16 32) (v603 : IVec S16 32) : Prop :=
  (∀ a x, ((![v183, v603] : Fin 2 → IVec S16 32) a x).toNat < S128x128.size a)
instance k1_chk110.dec : ∀ (v183 : IVec S16 32) (v603 : IVec S16 32), Decidable (k1_chk110 v183 v603) := fun v183 v603 => decidable_of_iff' _ (Iff.of_eq (k1_chk110.eq_1 v183 v603))
theorem k1_idx110_inb : ∀ (v183 : IVec S16 32) (v603 : IVec S16 32) (k1_hw110 : k1_chk110 v183 v603), ∀ a x, ((![v183, v603] : Fin 2 → IVec S16 32) a x).toNat < S128x128.size a := fun v183 v603 k1_hw110 => k1_hw110

def k1_chk111 (v185 : IVec S16 32) (v605 : IVec S16 32) : Prop :=
  (∀ a x, ((![v185, v605] : Fin 2 → IVec S16 32) a x).toNat < S64x128.size a)
instance k1_chk111.dec : ∀ (v185 : IVec S16 32) (v605 : IVec S16 32), Decidable (k1_chk111 v185 v605) := fun v185 v605 => decidable_of_iff' _ (Iff.of_eq (k1_chk111.eq_1 v185 v605))
theorem k1_idx111_inb : ∀ (v185 : IVec S16 32) (v605 : IVec S16 32) (k1_hw111 : k1_chk111 v185 v605), ∀ a x, ((![v185, v605] : Fin 2 → IVec S16 32) a x).toNat < S64x128.size a := fun v185 v605 k1_hw111 => k1_hw111

def k1_chk112 (v183 : IVec S16 32) (v612 : IVec S16 32) : Prop :=
  (∀ a x, ((![v183, v612] : Fin 2 → IVec S16 32) a x).toNat < S128x128.size a)
instance k1_chk112.dec : ∀ (v183 : IVec S16 32) (v612 : IVec S16 32), Decidable (k1_chk112 v183 v612) := fun v183 v612 => decidable_of_iff' _ (Iff.of_eq (k1_chk112.eq_1 v183 v612))
theorem k1_idx112_inb : ∀ (v183 : IVec S16 32) (v612 : IVec S16 32) (k1_hw112 : k1_chk112 v183 v612), ∀ a x, ((![v183, v612] : Fin 2 → IVec S16 32) a x).toNat < S128x128.size a := fun v183 v612 k1_hw112 => k1_hw112

def k1_chk113 (v183 : IVec S16 32) (v614 : IVec S16 32) : Prop :=
  (∀ a x, ((![v183, v614] : Fin 2 → IVec S16 32) a x).toNat < S128x128.size a)
instance k1_chk113.dec : ∀ (v183 : IVec S16 32) (v614 : IVec S16 32), Decidable (k1_chk113 v183 v614) := fun v183 v614 => decidable_of_iff' _ (Iff.of_eq (k1_chk113.eq_1 v183 v614))
theorem k1_idx113_inb : ∀ (v183 : IVec S16 32) (v614 : IVec S16 32) (k1_hw113 : k1_chk113 v183 v614), ∀ a x, ((![v183, v614] : Fin 2 → IVec S16 32) a x).toNat < S128x128.size a := fun v183 v614 k1_hw113 => k1_hw113

def k1_chk114 (v185 : IVec S16 32) (v616 : IVec S16 32) : Prop :=
  (∀ a x, ((![v185, v616] : Fin 2 → IVec S16 32) a x).toNat < S64x128.size a)
instance k1_chk114.dec : ∀ (v185 : IVec S16 32) (v616 : IVec S16 32), Decidable (k1_chk114 v185 v616) := fun v185 v616 => decidable_of_iff' _ (Iff.of_eq (k1_chk114.eq_1 v185 v616))
theorem k1_idx114_inb : ∀ (v185 : IVec S16 32) (v616 : IVec S16 32) (k1_hw114 : k1_chk114 v185 v616), ∀ a x, ((![v185, v616] : Fin 2 → IVec S16 32) a x).toNat < S64x128.size a := fun v185 v616 k1_hw114 => k1_hw114

def k1_chk115 (v183 : IVec S16 32) (v623 : IVec S16 32) : Prop :=
  (∀ a x, ((![v183, v623] : Fin 2 → IVec S16 32) a x).toNat < S128x128.size a)
instance k1_chk115.dec : ∀ (v183 : IVec S16 32) (v623 : IVec S16 32), Decidable (k1_chk115 v183 v623) := fun v183 v623 => decidable_of_iff' _ (Iff.of_eq (k1_chk115.eq_1 v183 v623))
theorem k1_idx115_inb : ∀ (v183 : IVec S16 32) (v623 : IVec S16 32) (k1_hw115 : k1_chk115 v183 v623), ∀ a x, ((![v183, v623] : Fin 2 → IVec S16 32) a x).toNat < S128x128.size a := fun v183 v623 k1_hw115 => k1_hw115

def k1_chk116 (v183 : IVec S16 32) (v625 : IVec S16 32) : Prop :=
  (∀ a x, ((![v183, v625] : Fin 2 → IVec S16 32) a x).toNat < S128x128.size a)
instance k1_chk116.dec : ∀ (v183 : IVec S16 32) (v625 : IVec S16 32), Decidable (k1_chk116 v183 v625) := fun v183 v625 => decidable_of_iff' _ (Iff.of_eq (k1_chk116.eq_1 v183 v625))
theorem k1_idx116_inb : ∀ (v183 : IVec S16 32) (v625 : IVec S16 32) (k1_hw116 : k1_chk116 v183 v625), ∀ a x, ((![v183, v625] : Fin 2 → IVec S16 32) a x).toNat < S128x128.size a := fun v183 v625 k1_hw116 => k1_hw116

def k1_chk117 (v185 : IVec S16 32) (v627 : IVec S16 32) : Prop :=
  (∀ a x, ((![v185, v627] : Fin 2 → IVec S16 32) a x).toNat < S64x128.size a)
instance k1_chk117.dec : ∀ (v185 : IVec S16 32) (v627 : IVec S16 32), Decidable (k1_chk117 v185 v627) := fun v185 v627 => decidable_of_iff' _ (Iff.of_eq (k1_chk117.eq_1 v185 v627))
theorem k1_idx117_inb : ∀ (v185 : IVec S16 32) (v627 : IVec S16 32) (k1_hw117 : k1_chk117 v185 v627), ∀ a x, ((![v185, v627] : Fin 2 → IVec S16 32) a x).toNat < S64x128.size a := fun v185 v627 k1_hw117 => k1_hw117

def k1_chk118 (v183 : IVec S16 32) (v634 : IVec S16 32) : Prop :=
  (∀ a x, ((![v183, v634] : Fin 2 → IVec S16 32) a x).toNat < S128x128.size a)
instance k1_chk118.dec : ∀ (v183 : IVec S16 32) (v634 : IVec S16 32), Decidable (k1_chk118 v183 v634) := fun v183 v634 => decidable_of_iff' _ (Iff.of_eq (k1_chk118.eq_1 v183 v634))
theorem k1_idx118_inb : ∀ (v183 : IVec S16 32) (v634 : IVec S16 32) (k1_hw118 : k1_chk118 v183 v634), ∀ a x, ((![v183, v634] : Fin 2 → IVec S16 32) a x).toNat < S128x128.size a := fun v183 v634 k1_hw118 => k1_hw118

def k1_chk119 (v183 : IVec S16 32) (v636 : IVec S16 32) : Prop :=
  (∀ a x, ((![v183, v636] : Fin 2 → IVec S16 32) a x).toNat < S128x128.size a)
instance k1_chk119.dec : ∀ (v183 : IVec S16 32) (v636 : IVec S16 32), Decidable (k1_chk119 v183 v636) := fun v183 v636 => decidable_of_iff' _ (Iff.of_eq (k1_chk119.eq_1 v183 v636))
theorem k1_idx119_inb : ∀ (v183 : IVec S16 32) (v636 : IVec S16 32) (k1_hw119 : k1_chk119 v183 v636), ∀ a x, ((![v183, v636] : Fin 2 → IVec S16 32) a x).toNat < S128x128.size a := fun v183 v636 k1_hw119 => k1_hw119

def k1_chk120 (v185 : IVec S16 32) (v638 : IVec S16 32) : Prop :=
  (∀ a x, ((![v185, v638] : Fin 2 → IVec S16 32) a x).toNat < S64x128.size a)
instance k1_chk120.dec : ∀ (v185 : IVec S16 32) (v638 : IVec S16 32), Decidable (k1_chk120 v185 v638) := fun v185 v638 => decidable_of_iff' _ (Iff.of_eq (k1_chk120.eq_1 v185 v638))
theorem k1_idx120_inb : ∀ (v185 : IVec S16 32) (v638 : IVec S16 32) (k1_hw120 : k1_chk120 v185 v638), ∀ a x, ((![v185, v638] : Fin 2 → IVec S16 32) a x).toNat < S64x128.size a := fun v185 v638 k1_hw120 => k1_hw120

def k1_chk121 (v183 : IVec S16 32) (v645 : IVec S16 32) : Prop :=
  (∀ a x, ((![v183, v645] : Fin 2 → IVec S16 32) a x).toNat < S128x128.size a)
instance k1_chk121.dec : ∀ (v183 : IVec S16 32) (v645 : IVec S16 32), Decidable (k1_chk121 v183 v645) := fun v183 v645 => decidable_of_iff' _ (Iff.of_eq (k1_chk121.eq_1 v183 v645))
theorem k1_idx121_inb : ∀ (v183 : IVec S16 32) (v645 : IVec S16 32) (k1_hw121 : k1_chk121 v183 v645), ∀ a x, ((![v183, v645] : Fin 2 → IVec S16 32) a x).toNat < S128x128.size a := fun v183 v645 k1_hw121 => k1_hw121

def k1_chk122 (v183 : IVec S16 32) (v647 : IVec S16 32) : Prop :=
  (∀ a x, ((![v183, v647] : Fin 2 → IVec S16 32) a x).toNat < S128x128.size a)
instance k1_chk122.dec : ∀ (v183 : IVec S16 32) (v647 : IVec S16 32), Decidable (k1_chk122 v183 v647) := fun v183 v647 => decidable_of_iff' _ (Iff.of_eq (k1_chk122.eq_1 v183 v647))
theorem k1_idx122_inb : ∀ (v183 : IVec S16 32) (v647 : IVec S16 32) (k1_hw122 : k1_chk122 v183 v647), ∀ a x, ((![v183, v647] : Fin 2 → IVec S16 32) a x).toNat < S128x128.size a := fun v183 v647 k1_hw122 => k1_hw122

def k1_chk123 (v185 : IVec S16 32) (v649 : IVec S16 32) : Prop :=
  (∀ a x, ((![v185, v649] : Fin 2 → IVec S16 32) a x).toNat < S64x128.size a)
instance k1_chk123.dec : ∀ (v185 : IVec S16 32) (v649 : IVec S16 32), Decidable (k1_chk123 v185 v649) := fun v185 v649 => decidable_of_iff' _ (Iff.of_eq (k1_chk123.eq_1 v185 v649))
theorem k1_idx123_inb : ∀ (v185 : IVec S16 32) (v649 : IVec S16 32) (k1_hw123 : k1_chk123 v185 v649), ∀ a x, ((![v185, v649] : Fin 2 → IVec S16 32) a x).toNat < S64x128.size a := fun v185 v649 k1_hw123 => k1_hw123

def k1_chk124 (v183 : IVec S16 32) (v656 : IVec S16 32) : Prop :=
  (∀ a x, ((![v183, v656] : Fin 2 → IVec S16 32) a x).toNat < S128x128.size a)
instance k1_chk124.dec : ∀ (v183 : IVec S16 32) (v656 : IVec S16 32), Decidable (k1_chk124 v183 v656) := fun v183 v656 => decidable_of_iff' _ (Iff.of_eq (k1_chk124.eq_1 v183 v656))
theorem k1_idx124_inb : ∀ (v183 : IVec S16 32) (v656 : IVec S16 32) (k1_hw124 : k1_chk124 v183 v656), ∀ a x, ((![v183, v656] : Fin 2 → IVec S16 32) a x).toNat < S128x128.size a := fun v183 v656 k1_hw124 => k1_hw124

def k1_chk125 (v183 : IVec S16 32) (v658 : IVec S16 32) : Prop :=
  (∀ a x, ((![v183, v658] : Fin 2 → IVec S16 32) a x).toNat < S128x128.size a)
instance k1_chk125.dec : ∀ (v183 : IVec S16 32) (v658 : IVec S16 32), Decidable (k1_chk125 v183 v658) := fun v183 v658 => decidable_of_iff' _ (Iff.of_eq (k1_chk125.eq_1 v183 v658))
theorem k1_idx125_inb : ∀ (v183 : IVec S16 32) (v658 : IVec S16 32) (k1_hw125 : k1_chk125 v183 v658), ∀ a x, ((![v183, v658] : Fin 2 → IVec S16 32) a x).toNat < S128x128.size a := fun v183 v658 k1_hw125 => k1_hw125

def k1_chk126 (v185 : IVec S16 32) (v660 : IVec S16 32) : Prop :=
  (∀ a x, ((![v185, v660] : Fin 2 → IVec S16 32) a x).toNat < S64x128.size a)
instance k1_chk126.dec : ∀ (v185 : IVec S16 32) (v660 : IVec S16 32), Decidable (k1_chk126 v185 v660) := fun v185 v660 => decidable_of_iff' _ (Iff.of_eq (k1_chk126.eq_1 v185 v660))
theorem k1_idx126_inb : ∀ (v185 : IVec S16 32) (v660 : IVec S16 32) (k1_hw126 : k1_chk126 v185 v660), ∀ a x, ((![v185, v660] : Fin 2 → IVec S16 32) a x).toNat < S64x128.size a := fun v185 v660 k1_hw126 => k1_hw126

def k1_chk127 (v183 : IVec S16 32) (v667 : IVec S16 32) : Prop :=
  (∀ a x, ((![v183, v667] : Fin 2 → IVec S16 32) a x).toNat < S128x128.size a)
instance k1_chk127.dec : ∀ (v183 : IVec S16 32) (v667 : IVec S16 32), Decidable (k1_chk127 v183 v667) := fun v183 v667 => decidable_of_iff' _ (Iff.of_eq (k1_chk127.eq_1 v183 v667))
theorem k1_idx127_inb : ∀ (v183 : IVec S16 32) (v667 : IVec S16 32) (k1_hw127 : k1_chk127 v183 v667), ∀ a x, ((![v183, v667] : Fin 2 → IVec S16 32) a x).toNat < S128x128.size a := fun v183 v667 k1_hw127 => k1_hw127

def k1_chk128 (v183 : IVec S16 32) (v669 : IVec S16 32) : Prop :=
  (∀ a x, ((![v183, v669] : Fin 2 → IVec S16 32) a x).toNat < S128x128.size a)
instance k1_chk128.dec : ∀ (v183 : IVec S16 32) (v669 : IVec S16 32), Decidable (k1_chk128 v183 v669) := fun v183 v669 => decidable_of_iff' _ (Iff.of_eq (k1_chk128.eq_1 v183 v669))
theorem k1_idx128_inb : ∀ (v183 : IVec S16 32) (v669 : IVec S16 32) (k1_hw128 : k1_chk128 v183 v669), ∀ a x, ((![v183, v669] : Fin 2 → IVec S16 32) a x).toNat < S128x128.size a := fun v183 v669 k1_hw128 => k1_hw128

def k1_chk129 (v185 : IVec S16 32) (v671 : IVec S16 32) : Prop :=
  (∀ a x, ((![v185, v671] : Fin 2 → IVec S16 32) a x).toNat < S64x128.size a)
instance k1_chk129.dec : ∀ (v185 : IVec S16 32) (v671 : IVec S16 32), Decidable (k1_chk129 v185 v671) := fun v185 v671 => decidable_of_iff' _ (Iff.of_eq (k1_chk129.eq_1 v185 v671))
theorem k1_idx129_inb : ∀ (v185 : IVec S16 32) (v671 : IVec S16 32) (k1_hw129 : k1_chk129 v185 v671), ∀ a x, ((![v185, v671] : Fin 2 → IVec S16 32) a x).toNat < S64x128.size a := fun v185 v671 k1_hw129 => k1_hw129

def k1_chk130 (v183 : IVec S16 32) (v678 : IVec S16 32) : Prop :=
  (∀ a x, ((![v183, v678] : Fin 2 → IVec S16 32) a x).toNat < S128x128.size a)
instance k1_chk130.dec : ∀ (v183 : IVec S16 32) (v678 : IVec S16 32), Decidable (k1_chk130 v183 v678) := fun v183 v678 => decidable_of_iff' _ (Iff.of_eq (k1_chk130.eq_1 v183 v678))
theorem k1_idx130_inb : ∀ (v183 : IVec S16 32) (v678 : IVec S16 32) (k1_hw130 : k1_chk130 v183 v678), ∀ a x, ((![v183, v678] : Fin 2 → IVec S16 32) a x).toNat < S128x128.size a := fun v183 v678 k1_hw130 => k1_hw130

def k1_chk131 (v183 : IVec S16 32) (v680 : IVec S16 32) : Prop :=
  (∀ a x, ((![v183, v680] : Fin 2 → IVec S16 32) a x).toNat < S128x128.size a)
instance k1_chk131.dec : ∀ (v183 : IVec S16 32) (v680 : IVec S16 32), Decidable (k1_chk131 v183 v680) := fun v183 v680 => decidable_of_iff' _ (Iff.of_eq (k1_chk131.eq_1 v183 v680))
theorem k1_idx131_inb : ∀ (v183 : IVec S16 32) (v680 : IVec S16 32) (k1_hw131 : k1_chk131 v183 v680), ∀ a x, ((![v183, v680] : Fin 2 → IVec S16 32) a x).toNat < S128x128.size a := fun v183 v680 k1_hw131 => k1_hw131

def k1_chk132 (v185 : IVec S16 32) (v682 : IVec S16 32) : Prop :=
  (∀ a x, ((![v185, v682] : Fin 2 → IVec S16 32) a x).toNat < S64x128.size a)
instance k1_chk132.dec : ∀ (v185 : IVec S16 32) (v682 : IVec S16 32), Decidable (k1_chk132 v185 v682) := fun v185 v682 => decidable_of_iff' _ (Iff.of_eq (k1_chk132.eq_1 v185 v682))
theorem k1_idx132_inb : ∀ (v185 : IVec S16 32) (v682 : IVec S16 32) (k1_hw132 : k1_chk132 v185 v682), ∀ a x, ((![v185, v682] : Fin 2 → IVec S16 32) a x).toNat < S64x128.size a := fun v185 v682 k1_hw132 => k1_hw132

def k1_chk133 (v183 : IVec S16 32) (v689 : IVec S16 32) : Prop :=
  (∀ a x, ((![v183, v689] : Fin 2 → IVec S16 32) a x).toNat < S128x128.size a)
instance k1_chk133.dec : ∀ (v183 : IVec S16 32) (v689 : IVec S16 32), Decidable (k1_chk133 v183 v689) := fun v183 v689 => decidable_of_iff' _ (Iff.of_eq (k1_chk133.eq_1 v183 v689))
theorem k1_idx133_inb : ∀ (v183 : IVec S16 32) (v689 : IVec S16 32) (k1_hw133 : k1_chk133 v183 v689), ∀ a x, ((![v183, v689] : Fin 2 → IVec S16 32) a x).toNat < S128x128.size a := fun v183 v689 k1_hw133 => k1_hw133

def k1_chk134 (v183 : IVec S16 32) (v691 : IVec S16 32) : Prop :=
  (∀ a x, ((![v183, v691] : Fin 2 → IVec S16 32) a x).toNat < S128x128.size a)
instance k1_chk134.dec : ∀ (v183 : IVec S16 32) (v691 : IVec S16 32), Decidable (k1_chk134 v183 v691) := fun v183 v691 => decidable_of_iff' _ (Iff.of_eq (k1_chk134.eq_1 v183 v691))
theorem k1_idx134_inb : ∀ (v183 : IVec S16 32) (v691 : IVec S16 32) (k1_hw134 : k1_chk134 v183 v691), ∀ a x, ((![v183, v691] : Fin 2 → IVec S16 32) a x).toNat < S128x128.size a := fun v183 v691 k1_hw134 => k1_hw134

def k1_chk135 (v185 : IVec S16 32) (v693 : IVec S16 32) : Prop :=
  (∀ a x, ((![v185, v693] : Fin 2 → IVec S16 32) a x).toNat < S64x128.size a)
instance k1_chk135.dec : ∀ (v185 : IVec S16 32) (v693 : IVec S16 32), Decidable (k1_chk135 v185 v693) := fun v185 v693 => decidable_of_iff' _ (Iff.of_eq (k1_chk135.eq_1 v185 v693))
theorem k1_idx135_inb : ∀ (v185 : IVec S16 32) (v693 : IVec S16 32) (k1_hw135 : k1_chk135 v185 v693), ∀ a x, ((![v185, v693] : Fin 2 → IVec S16 32) a x).toNat < S64x128.size a := fun v185 v693 k1_hw135 => k1_hw135

def k1_chk136 (v183 : IVec S16 32) (v700 : IVec S16 32) : Prop :=
  (∀ a x, ((![v183, v700] : Fin 2 → IVec S16 32) a x).toNat < S128x128.size a)
instance k1_chk136.dec : ∀ (v183 : IVec S16 32) (v700 : IVec S16 32), Decidable (k1_chk136 v183 v700) := fun v183 v700 => decidable_of_iff' _ (Iff.of_eq (k1_chk136.eq_1 v183 v700))
theorem k1_idx136_inb : ∀ (v183 : IVec S16 32) (v700 : IVec S16 32) (k1_hw136 : k1_chk136 v183 v700), ∀ a x, ((![v183, v700] : Fin 2 → IVec S16 32) a x).toNat < S128x128.size a := fun v183 v700 k1_hw136 => k1_hw136

def k1_chk137 (v183 : IVec S16 32) (v702 : IVec S16 32) : Prop :=
  (∀ a x, ((![v183, v702] : Fin 2 → IVec S16 32) a x).toNat < S128x128.size a)
instance k1_chk137.dec : ∀ (v183 : IVec S16 32) (v702 : IVec S16 32), Decidable (k1_chk137 v183 v702) := fun v183 v702 => decidable_of_iff' _ (Iff.of_eq (k1_chk137.eq_1 v183 v702))
theorem k1_idx137_inb : ∀ (v183 : IVec S16 32) (v702 : IVec S16 32) (k1_hw137 : k1_chk137 v183 v702), ∀ a x, ((![v183, v702] : Fin 2 → IVec S16 32) a x).toNat < S128x128.size a := fun v183 v702 k1_hw137 => k1_hw137

def k1_chk138 (v185 : IVec S16 32) (v704 : IVec S16 32) : Prop :=
  (∀ a x, ((![v185, v704] : Fin 2 → IVec S16 32) a x).toNat < S64x128.size a)
instance k1_chk138.dec : ∀ (v185 : IVec S16 32) (v704 : IVec S16 32), Decidable (k1_chk138 v185 v704) := fun v185 v704 => decidable_of_iff' _ (Iff.of_eq (k1_chk138.eq_1 v185 v704))
theorem k1_idx138_inb : ∀ (v185 : IVec S16 32) (v704 : IVec S16 32) (k1_hw138 : k1_chk138 v185 v704), ∀ a x, ((![v185, v704] : Fin 2 → IVec S16 32) a x).toNat < S64x128.size a := fun v185 v704 k1_hw138 => k1_hw138

def k1_chk139 (v183 : IVec S16 32) (v711 : IVec S16 32) : Prop :=
  (∀ a x, ((![v183, v711] : Fin 2 → IVec S16 32) a x).toNat < S128x128.size a)
instance k1_chk139.dec : ∀ (v183 : IVec S16 32) (v711 : IVec S16 32), Decidable (k1_chk139 v183 v711) := fun v183 v711 => decidable_of_iff' _ (Iff.of_eq (k1_chk139.eq_1 v183 v711))
theorem k1_idx139_inb : ∀ (v183 : IVec S16 32) (v711 : IVec S16 32) (k1_hw139 : k1_chk139 v183 v711), ∀ a x, ((![v183, v711] : Fin 2 → IVec S16 32) a x).toNat < S128x128.size a := fun v183 v711 k1_hw139 => k1_hw139

def k1_chk140 (v183 : IVec S16 32) (v713 : IVec S16 32) : Prop :=
  (∀ a x, ((![v183, v713] : Fin 2 → IVec S16 32) a x).toNat < S128x128.size a)
instance k1_chk140.dec : ∀ (v183 : IVec S16 32) (v713 : IVec S16 32), Decidable (k1_chk140 v183 v713) := fun v183 v713 => decidable_of_iff' _ (Iff.of_eq (k1_chk140.eq_1 v183 v713))
theorem k1_idx140_inb : ∀ (v183 : IVec S16 32) (v713 : IVec S16 32) (k1_hw140 : k1_chk140 v183 v713), ∀ a x, ((![v183, v713] : Fin 2 → IVec S16 32) a x).toNat < S128x128.size a := fun v183 v713 k1_hw140 => k1_hw140

def k1_chk141 (v185 : IVec S16 32) (v715 : IVec S16 32) : Prop :=
  (∀ a x, ((![v185, v715] : Fin 2 → IVec S16 32) a x).toNat < S64x128.size a)
instance k1_chk141.dec : ∀ (v185 : IVec S16 32) (v715 : IVec S16 32), Decidable (k1_chk141 v185 v715) := fun v185 v715 => decidable_of_iff' _ (Iff.of_eq (k1_chk141.eq_1 v185 v715))
theorem k1_idx141_inb : ∀ (v185 : IVec S16 32) (v715 : IVec S16 32) (k1_hw141 : k1_chk141 v185 v715), ∀ a x, ((![v185, v715] : Fin 2 → IVec S16 32) a x).toNat < S64x128.size a := fun v185 v715 k1_hw141 => k1_hw141

def k1_chk142 (v183 : IVec S16 32) (v722 : IVec S16 32) : Prop :=
  (∀ a x, ((![v183, v722] : Fin 2 → IVec S16 32) a x).toNat < S128x128.size a)
instance k1_chk142.dec : ∀ (v183 : IVec S16 32) (v722 : IVec S16 32), Decidable (k1_chk142 v183 v722) := fun v183 v722 => decidable_of_iff' _ (Iff.of_eq (k1_chk142.eq_1 v183 v722))
theorem k1_idx142_inb : ∀ (v183 : IVec S16 32) (v722 : IVec S16 32) (k1_hw142 : k1_chk142 v183 v722), ∀ a x, ((![v183, v722] : Fin 2 → IVec S16 32) a x).toNat < S128x128.size a := fun v183 v722 k1_hw142 => k1_hw142

def k1_chk143 (v183 : IVec S16 32) (v724 : IVec S16 32) : Prop :=
  (∀ a x, ((![v183, v724] : Fin 2 → IVec S16 32) a x).toNat < S128x128.size a)
instance k1_chk143.dec : ∀ (v183 : IVec S16 32) (v724 : IVec S16 32), Decidable (k1_chk143 v183 v724) := fun v183 v724 => decidable_of_iff' _ (Iff.of_eq (k1_chk143.eq_1 v183 v724))
theorem k1_idx143_inb : ∀ (v183 : IVec S16 32) (v724 : IVec S16 32) (k1_hw143 : k1_chk143 v183 v724), ∀ a x, ((![v183, v724] : Fin 2 → IVec S16 32) a x).toNat < S128x128.size a := fun v183 v724 k1_hw143 => k1_hw143

def k1_chk144 (v185 : IVec S16 32) (v726 : IVec S16 32) : Prop :=
  (∀ a x, ((![v185, v726] : Fin 2 → IVec S16 32) a x).toNat < S64x128.size a)
instance k1_chk144.dec : ∀ (v185 : IVec S16 32) (v726 : IVec S16 32), Decidable (k1_chk144 v185 v726) := fun v185 v726 => decidable_of_iff' _ (Iff.of_eq (k1_chk144.eq_1 v185 v726))
theorem k1_idx144_inb : ∀ (v185 : IVec S16 32) (v726 : IVec S16 32) (k1_hw144 : k1_chk144 v185 v726), ∀ a x, ((![v185, v726] : Fin 2 → IVec S16 32) a x).toNat < S64x128.size a := fun v185 v726 k1_hw144 => k1_hw144

def k1_chk145 (v183 : IVec S16 32) (v733 : IVec S16 32) : Prop :=
  (∀ a x, ((![v183, v733] : Fin 2 → IVec S16 32) a x).toNat < S128x128.size a)
instance k1_chk145.dec : ∀ (v183 : IVec S16 32) (v733 : IVec S16 32), Decidable (k1_chk145 v183 v733) := fun v183 v733 => decidable_of_iff' _ (Iff.of_eq (k1_chk145.eq_1 v183 v733))
theorem k1_idx145_inb : ∀ (v183 : IVec S16 32) (v733 : IVec S16 32) (k1_hw145 : k1_chk145 v183 v733), ∀ a x, ((![v183, v733] : Fin 2 → IVec S16 32) a x).toNat < S128x128.size a := fun v183 v733 k1_hw145 => k1_hw145

def k1_chk146 (v183 : IVec S16 32) (v735 : IVec S16 32) : Prop :=
  (∀ a x, ((![v183, v735] : Fin 2 → IVec S16 32) a x).toNat < S128x128.size a)
instance k1_chk146.dec : ∀ (v183 : IVec S16 32) (v735 : IVec S16 32), Decidable (k1_chk146 v183 v735) := fun v183 v735 => decidable_of_iff' _ (Iff.of_eq (k1_chk146.eq_1 v183 v735))
theorem k1_idx146_inb : ∀ (v183 : IVec S16 32) (v735 : IVec S16 32) (k1_hw146 : k1_chk146 v183 v735), ∀ a x, ((![v183, v735] : Fin 2 → IVec S16 32) a x).toNat < S128x128.size a := fun v183 v735 k1_hw146 => k1_hw146

def k1_chk147 (v185 : IVec S16 32) (v737 : IVec S16 32) : Prop :=
  (∀ a x, ((![v185, v737] : Fin 2 → IVec S16 32) a x).toNat < S64x128.size a)
instance k1_chk147.dec : ∀ (v185 : IVec S16 32) (v737 : IVec S16 32), Decidable (k1_chk147 v185 v737) := fun v185 v737 => decidable_of_iff' _ (Iff.of_eq (k1_chk147.eq_1 v185 v737))
theorem k1_idx147_inb : ∀ (v185 : IVec S16 32) (v737 : IVec S16 32) (k1_hw147 : k1_chk147 v185 v737), ∀ a x, ((![v185, v737] : Fin 2 → IVec S16 32) a x).toNat < S64x128.size a := fun v185 v737 k1_hw147 => k1_hw147

def k1_chk148 (v183 : IVec S16 32) (v744 : IVec S16 32) : Prop :=
  (∀ a x, ((![v183, v744] : Fin 2 → IVec S16 32) a x).toNat < S128x128.size a)
instance k1_chk148.dec : ∀ (v183 : IVec S16 32) (v744 : IVec S16 32), Decidable (k1_chk148 v183 v744) := fun v183 v744 => decidable_of_iff' _ (Iff.of_eq (k1_chk148.eq_1 v183 v744))
theorem k1_idx148_inb : ∀ (v183 : IVec S16 32) (v744 : IVec S16 32) (k1_hw148 : k1_chk148 v183 v744), ∀ a x, ((![v183, v744] : Fin 2 → IVec S16 32) a x).toNat < S128x128.size a := fun v183 v744 k1_hw148 => k1_hw148

def k1_chk149 (v183 : IVec S16 32) (v746 : IVec S16 32) : Prop :=
  (∀ a x, ((![v183, v746] : Fin 2 → IVec S16 32) a x).toNat < S128x128.size a)
instance k1_chk149.dec : ∀ (v183 : IVec S16 32) (v746 : IVec S16 32), Decidable (k1_chk149 v183 v746) := fun v183 v746 => decidable_of_iff' _ (Iff.of_eq (k1_chk149.eq_1 v183 v746))
theorem k1_idx149_inb : ∀ (v183 : IVec S16 32) (v746 : IVec S16 32) (k1_hw149 : k1_chk149 v183 v746), ∀ a x, ((![v183, v746] : Fin 2 → IVec S16 32) a x).toNat < S128x128.size a := fun v183 v746 k1_hw149 => k1_hw149

def k1_chk150 (v185 : IVec S16 32) (v748 : IVec S16 32) : Prop :=
  (∀ a x, ((![v185, v748] : Fin 2 → IVec S16 32) a x).toNat < S64x128.size a)
instance k1_chk150.dec : ∀ (v185 : IVec S16 32) (v748 : IVec S16 32), Decidable (k1_chk150 v185 v748) := fun v185 v748 => decidable_of_iff' _ (Iff.of_eq (k1_chk150.eq_1 v185 v748))
theorem k1_idx150_inb : ∀ (v185 : IVec S16 32) (v748 : IVec S16 32) (k1_hw150 : k1_chk150 v185 v748), ∀ a x, ((![v185, v748] : Fin 2 → IVec S16 32) a x).toNat < S64x128.size a := fun v185 v748 k1_hw150 => k1_hw150

def k1_chk151 (v183 : IVec S16 32) (v755 : IVec S16 32) : Prop :=
  (∀ a x, ((![v183, v755] : Fin 2 → IVec S16 32) a x).toNat < S128x128.size a)
instance k1_chk151.dec : ∀ (v183 : IVec S16 32) (v755 : IVec S16 32), Decidable (k1_chk151 v183 v755) := fun v183 v755 => decidable_of_iff' _ (Iff.of_eq (k1_chk151.eq_1 v183 v755))
theorem k1_idx151_inb : ∀ (v183 : IVec S16 32) (v755 : IVec S16 32) (k1_hw151 : k1_chk151 v183 v755), ∀ a x, ((![v183, v755] : Fin 2 → IVec S16 32) a x).toNat < S128x128.size a := fun v183 v755 k1_hw151 => k1_hw151

def k1_chk152 (v183 : IVec S16 32) (v757 : IVec S16 32) : Prop :=
  (∀ a x, ((![v183, v757] : Fin 2 → IVec S16 32) a x).toNat < S128x128.size a)
instance k1_chk152.dec : ∀ (v183 : IVec S16 32) (v757 : IVec S16 32), Decidable (k1_chk152 v183 v757) := fun v183 v757 => decidable_of_iff' _ (Iff.of_eq (k1_chk152.eq_1 v183 v757))
theorem k1_idx152_inb : ∀ (v183 : IVec S16 32) (v757 : IVec S16 32) (k1_hw152 : k1_chk152 v183 v757), ∀ a x, ((![v183, v757] : Fin 2 → IVec S16 32) a x).toNat < S128x128.size a := fun v183 v757 k1_hw152 => k1_hw152

def k1_chk153 (v185 : IVec S16 32) (v759 : IVec S16 32) : Prop :=
  (∀ a x, ((![v185, v759] : Fin 2 → IVec S16 32) a x).toNat < S64x128.size a)
instance k1_chk153.dec : ∀ (v185 : IVec S16 32) (v759 : IVec S16 32), Decidable (k1_chk153 v185 v759) := fun v185 v759 => decidable_of_iff' _ (Iff.of_eq (k1_chk153.eq_1 v185 v759))
theorem k1_idx153_inb : ∀ (v185 : IVec S16 32) (v759 : IVec S16 32) (k1_hw153 : k1_chk153 v185 v759), ∀ a x, ((![v185, v759] : Fin 2 → IVec S16 32) a x).toNat < S64x128.size a := fun v185 v759 k1_hw153 => k1_hw153

def k1_chk154 (v183 : IVec S16 32) (v766 : IVec S16 32) : Prop :=
  (∀ a x, ((![v183, v766] : Fin 2 → IVec S16 32) a x).toNat < S128x128.size a)
instance k1_chk154.dec : ∀ (v183 : IVec S16 32) (v766 : IVec S16 32), Decidable (k1_chk154 v183 v766) := fun v183 v766 => decidable_of_iff' _ (Iff.of_eq (k1_chk154.eq_1 v183 v766))
theorem k1_idx154_inb : ∀ (v183 : IVec S16 32) (v766 : IVec S16 32) (k1_hw154 : k1_chk154 v183 v766), ∀ a x, ((![v183, v766] : Fin 2 → IVec S16 32) a x).toNat < S128x128.size a := fun v183 v766 k1_hw154 => k1_hw154

def k1_chk155 (v183 : IVec S16 32) (v768 : IVec S16 32) : Prop :=
  (∀ a x, ((![v183, v768] : Fin 2 → IVec S16 32) a x).toNat < S128x128.size a)
instance k1_chk155.dec : ∀ (v183 : IVec S16 32) (v768 : IVec S16 32), Decidable (k1_chk155 v183 v768) := fun v183 v768 => decidable_of_iff' _ (Iff.of_eq (k1_chk155.eq_1 v183 v768))
theorem k1_idx155_inb : ∀ (v183 : IVec S16 32) (v768 : IVec S16 32) (k1_hw155 : k1_chk155 v183 v768), ∀ a x, ((![v183, v768] : Fin 2 → IVec S16 32) a x).toNat < S128x128.size a := fun v183 v768 k1_hw155 => k1_hw155

def k1_chk156 (v185 : IVec S16 32) (v770 : IVec S16 32) : Prop :=
  (∀ a x, ((![v185, v770] : Fin 2 → IVec S16 32) a x).toNat < S64x128.size a)
instance k1_chk156.dec : ∀ (v185 : IVec S16 32) (v770 : IVec S16 32), Decidable (k1_chk156 v185 v770) := fun v185 v770 => decidable_of_iff' _ (Iff.of_eq (k1_chk156.eq_1 v185 v770))
theorem k1_idx156_inb : ∀ (v185 : IVec S16 32) (v770 : IVec S16 32) (k1_hw156 : k1_chk156 v185 v770), ∀ a x, ((![v185, v770] : Fin 2 → IVec S16 32) a x).toNat < S64x128.size a := fun v185 v770 k1_hw156 => k1_hw156

def k1_chk157 (v183 : IVec S16 32) (v777 : IVec S16 32) : Prop :=
  (∀ a x, ((![v183, v777] : Fin 2 → IVec S16 32) a x).toNat < S128x128.size a)
instance k1_chk157.dec : ∀ (v183 : IVec S16 32) (v777 : IVec S16 32), Decidable (k1_chk157 v183 v777) := fun v183 v777 => decidable_of_iff' _ (Iff.of_eq (k1_chk157.eq_1 v183 v777))
theorem k1_idx157_inb : ∀ (v183 : IVec S16 32) (v777 : IVec S16 32) (k1_hw157 : k1_chk157 v183 v777), ∀ a x, ((![v183, v777] : Fin 2 → IVec S16 32) a x).toNat < S128x128.size a := fun v183 v777 k1_hw157 => k1_hw157

def k1_chk158 (v183 : IVec S16 32) (v779 : IVec S16 32) : Prop :=
  (∀ a x, ((![v183, v779] : Fin 2 → IVec S16 32) a x).toNat < S128x128.size a)
instance k1_chk158.dec : ∀ (v183 : IVec S16 32) (v779 : IVec S16 32), Decidable (k1_chk158 v183 v779) := fun v183 v779 => decidable_of_iff' _ (Iff.of_eq (k1_chk158.eq_1 v183 v779))
theorem k1_idx158_inb : ∀ (v183 : IVec S16 32) (v779 : IVec S16 32) (k1_hw158 : k1_chk158 v183 v779), ∀ a x, ((![v183, v779] : Fin 2 → IVec S16 32) a x).toNat < S128x128.size a := fun v183 v779 k1_hw158 => k1_hw158

def k1_chk159 (v185 : IVec S16 32) (v781 : IVec S16 32) : Prop :=
  (∀ a x, ((![v185, v781] : Fin 2 → IVec S16 32) a x).toNat < S64x128.size a)
instance k1_chk159.dec : ∀ (v185 : IVec S16 32) (v781 : IVec S16 32), Decidable (k1_chk159 v185 v781) := fun v185 v781 => decidable_of_iff' _ (Iff.of_eq (k1_chk159.eq_1 v185 v781))
theorem k1_idx159_inb : ∀ (v185 : IVec S16 32) (v781 : IVec S16 32) (k1_hw159 : k1_chk159 v185 v781), ∀ a x, ((![v185, v781] : Fin 2 → IVec S16 32) a x).toNat < S64x128.size a := fun v185 v781 k1_hw159 => k1_hw159

def k1_chk160 (v183 : IVec S16 32) (v788 : IVec S16 32) : Prop :=
  (∀ a x, ((![v183, v788] : Fin 2 → IVec S16 32) a x).toNat < S128x128.size a)
instance k1_chk160.dec : ∀ (v183 : IVec S16 32) (v788 : IVec S16 32), Decidable (k1_chk160 v183 v788) := fun v183 v788 => decidable_of_iff' _ (Iff.of_eq (k1_chk160.eq_1 v183 v788))
theorem k1_idx160_inb : ∀ (v183 : IVec S16 32) (v788 : IVec S16 32) (k1_hw160 : k1_chk160 v183 v788), ∀ a x, ((![v183, v788] : Fin 2 → IVec S16 32) a x).toNat < S128x128.size a := fun v183 v788 k1_hw160 => k1_hw160

def k1_chk161 (v183 : IVec S16 32) (v790 : IVec S16 32) : Prop :=
  (∀ a x, ((![v183, v790] : Fin 2 → IVec S16 32) a x).toNat < S128x128.size a)
instance k1_chk161.dec : ∀ (v183 : IVec S16 32) (v790 : IVec S16 32), Decidable (k1_chk161 v183 v790) := fun v183 v790 => decidable_of_iff' _ (Iff.of_eq (k1_chk161.eq_1 v183 v790))
theorem k1_idx161_inb : ∀ (v183 : IVec S16 32) (v790 : IVec S16 32) (k1_hw161 : k1_chk161 v183 v790), ∀ a x, ((![v183, v790] : Fin 2 → IVec S16 32) a x).toNat < S128x128.size a := fun v183 v790 k1_hw161 => k1_hw161

def k1_chk162 (v185 : IVec S16 32) (v792 : IVec S16 32) : Prop :=
  (∀ a x, ((![v185, v792] : Fin 2 → IVec S16 32) a x).toNat < S64x128.size a)
instance k1_chk162.dec : ∀ (v185 : IVec S16 32) (v792 : IVec S16 32), Decidable (k1_chk162 v185 v792) := fun v185 v792 => decidable_of_iff' _ (Iff.of_eq (k1_chk162.eq_1 v185 v792))
theorem k1_idx162_inb : ∀ (v185 : IVec S16 32) (v792 : IVec S16 32) (k1_hw162 : k1_chk162 v185 v792), ∀ a x, ((![v185, v792] : Fin 2 → IVec S16 32) a x).toNat < S64x128.size a := fun v185 v792 k1_hw162 => k1_hw162

def k1_chk163 (v183 : IVec S16 32) (v799 : IVec S16 32) : Prop :=
  (∀ a x, ((![v183, v799] : Fin 2 → IVec S16 32) a x).toNat < S128x128.size a)
instance k1_chk163.dec : ∀ (v183 : IVec S16 32) (v799 : IVec S16 32), Decidable (k1_chk163 v183 v799) := fun v183 v799 => decidable_of_iff' _ (Iff.of_eq (k1_chk163.eq_1 v183 v799))
theorem k1_idx163_inb : ∀ (v183 : IVec S16 32) (v799 : IVec S16 32) (k1_hw163 : k1_chk163 v183 v799), ∀ a x, ((![v183, v799] : Fin 2 → IVec S16 32) a x).toNat < S128x128.size a := fun v183 v799 k1_hw163 => k1_hw163

def k1_chk164 (v183 : IVec S16 32) (v801 : IVec S16 32) : Prop :=
  (∀ a x, ((![v183, v801] : Fin 2 → IVec S16 32) a x).toNat < S128x128.size a)
instance k1_chk164.dec : ∀ (v183 : IVec S16 32) (v801 : IVec S16 32), Decidable (k1_chk164 v183 v801) := fun v183 v801 => decidable_of_iff' _ (Iff.of_eq (k1_chk164.eq_1 v183 v801))
theorem k1_idx164_inb : ∀ (v183 : IVec S16 32) (v801 : IVec S16 32) (k1_hw164 : k1_chk164 v183 v801), ∀ a x, ((![v183, v801] : Fin 2 → IVec S16 32) a x).toNat < S128x128.size a := fun v183 v801 k1_hw164 => k1_hw164

def k1_chk165 (v185 : IVec S16 32) (v803 : IVec S16 32) : Prop :=
  (∀ a x, ((![v185, v803] : Fin 2 → IVec S16 32) a x).toNat < S64x128.size a)
instance k1_chk165.dec : ∀ (v185 : IVec S16 32) (v803 : IVec S16 32), Decidable (k1_chk165 v185 v803) := fun v185 v803 => decidable_of_iff' _ (Iff.of_eq (k1_chk165.eq_1 v185 v803))
theorem k1_idx165_inb : ∀ (v185 : IVec S16 32) (v803 : IVec S16 32) (k1_hw165 : k1_chk165 v185 v803), ∀ a x, ((![v185, v803] : Fin 2 → IVec S16 32) a x).toNat < S64x128.size a := fun v185 v803 k1_hw165 => k1_hw165

def k1_chk166 (v183 : IVec S16 32) (v810 : IVec S16 32) : Prop :=
  (∀ a x, ((![v183, v810] : Fin 2 → IVec S16 32) a x).toNat < S128x128.size a)
instance k1_chk166.dec : ∀ (v183 : IVec S16 32) (v810 : IVec S16 32), Decidable (k1_chk166 v183 v810) := fun v183 v810 => decidable_of_iff' _ (Iff.of_eq (k1_chk166.eq_1 v183 v810))
theorem k1_idx166_inb : ∀ (v183 : IVec S16 32) (v810 : IVec S16 32) (k1_hw166 : k1_chk166 v183 v810), ∀ a x, ((![v183, v810] : Fin 2 → IVec S16 32) a x).toNat < S128x128.size a := fun v183 v810 k1_hw166 => k1_hw166

def k1_chk167 (v183 : IVec S16 32) (v812 : IVec S16 32) : Prop :=
  (∀ a x, ((![v183, v812] : Fin 2 → IVec S16 32) a x).toNat < S128x128.size a)
instance k1_chk167.dec : ∀ (v183 : IVec S16 32) (v812 : IVec S16 32), Decidable (k1_chk167 v183 v812) := fun v183 v812 => decidable_of_iff' _ (Iff.of_eq (k1_chk167.eq_1 v183 v812))
theorem k1_idx167_inb : ∀ (v183 : IVec S16 32) (v812 : IVec S16 32) (k1_hw167 : k1_chk167 v183 v812), ∀ a x, ((![v183, v812] : Fin 2 → IVec S16 32) a x).toNat < S128x128.size a := fun v183 v812 k1_hw167 => k1_hw167

def k1_chk168 (v185 : IVec S16 32) (v814 : IVec S16 32) : Prop :=
  (∀ a x, ((![v185, v814] : Fin 2 → IVec S16 32) a x).toNat < S64x128.size a)
instance k1_chk168.dec : ∀ (v185 : IVec S16 32) (v814 : IVec S16 32), Decidable (k1_chk168 v185 v814) := fun v185 v814 => decidable_of_iff' _ (Iff.of_eq (k1_chk168.eq_1 v185 v814))
theorem k1_idx168_inb : ∀ (v185 : IVec S16 32) (v814 : IVec S16 32) (k1_hw168 : k1_chk168 v185 v814), ∀ a x, ((![v185, v814] : Fin 2 → IVec S16 32) a x).toNat < S64x128.size a := fun v185 v814 k1_hw168 => k1_hw168

def k1_chk169 (v183 : IVec S16 32) (v821 : IVec S16 32) : Prop :=
  (∀ a x, ((![v183, v821] : Fin 2 → IVec S16 32) a x).toNat < S128x128.size a)
instance k1_chk169.dec : ∀ (v183 : IVec S16 32) (v821 : IVec S16 32), Decidable (k1_chk169 v183 v821) := fun v183 v821 => decidable_of_iff' _ (Iff.of_eq (k1_chk169.eq_1 v183 v821))
theorem k1_idx169_inb : ∀ (v183 : IVec S16 32) (v821 : IVec S16 32) (k1_hw169 : k1_chk169 v183 v821), ∀ a x, ((![v183, v821] : Fin 2 → IVec S16 32) a x).toNat < S128x128.size a := fun v183 v821 k1_hw169 => k1_hw169

def k1_chk170 (v183 : IVec S16 32) (v823 : IVec S16 32) : Prop :=
  (∀ a x, ((![v183, v823] : Fin 2 → IVec S16 32) a x).toNat < S128x128.size a)
instance k1_chk170.dec : ∀ (v183 : IVec S16 32) (v823 : IVec S16 32), Decidable (k1_chk170 v183 v823) := fun v183 v823 => decidable_of_iff' _ (Iff.of_eq (k1_chk170.eq_1 v183 v823))
theorem k1_idx170_inb : ∀ (v183 : IVec S16 32) (v823 : IVec S16 32) (k1_hw170 : k1_chk170 v183 v823), ∀ a x, ((![v183, v823] : Fin 2 → IVec S16 32) a x).toNat < S128x128.size a := fun v183 v823 k1_hw170 => k1_hw170

def k1_chk171 (v185 : IVec S16 32) (v825 : IVec S16 32) : Prop :=
  (∀ a x, ((![v185, v825] : Fin 2 → IVec S16 32) a x).toNat < S64x128.size a)
instance k1_chk171.dec : ∀ (v185 : IVec S16 32) (v825 : IVec S16 32), Decidable (k1_chk171 v185 v825) := fun v185 v825 => decidable_of_iff' _ (Iff.of_eq (k1_chk171.eq_1 v185 v825))
theorem k1_idx171_inb : ∀ (v185 : IVec S16 32) (v825 : IVec S16 32) (k1_hw171 : k1_chk171 v185 v825), ∀ a x, ((![v185, v825] : Fin 2 → IVec S16 32) a x).toNat < S64x128.size a := fun v185 v825 k1_hw171 => k1_hw171

def k1_chk172 (v183 : IVec S16 32) (v832 : IVec S16 32) : Prop :=
  (∀ a x, ((![v183, v832] : Fin 2 → IVec S16 32) a x).toNat < S128x128.size a)
instance k1_chk172.dec : ∀ (v183 : IVec S16 32) (v832 : IVec S16 32), Decidable (k1_chk172 v183 v832) := fun v183 v832 => decidable_of_iff' _ (Iff.of_eq (k1_chk172.eq_1 v183 v832))
theorem k1_idx172_inb : ∀ (v183 : IVec S16 32) (v832 : IVec S16 32) (k1_hw172 : k1_chk172 v183 v832), ∀ a x, ((![v183, v832] : Fin 2 → IVec S16 32) a x).toNat < S128x128.size a := fun v183 v832 k1_hw172 => k1_hw172

def k1_chk173 (v183 : IVec S16 32) (v834 : IVec S16 32) : Prop :=
  (∀ a x, ((![v183, v834] : Fin 2 → IVec S16 32) a x).toNat < S128x128.size a)
instance k1_chk173.dec : ∀ (v183 : IVec S16 32) (v834 : IVec S16 32), Decidable (k1_chk173 v183 v834) := fun v183 v834 => decidable_of_iff' _ (Iff.of_eq (k1_chk173.eq_1 v183 v834))
theorem k1_idx173_inb : ∀ (v183 : IVec S16 32) (v834 : IVec S16 32) (k1_hw173 : k1_chk173 v183 v834), ∀ a x, ((![v183, v834] : Fin 2 → IVec S16 32) a x).toNat < S128x128.size a := fun v183 v834 k1_hw173 => k1_hw173

def k1_chk174 (v185 : IVec S16 32) (v836 : IVec S16 32) : Prop :=
  (∀ a x, ((![v185, v836] : Fin 2 → IVec S16 32) a x).toNat < S64x128.size a)
instance k1_chk174.dec : ∀ (v185 : IVec S16 32) (v836 : IVec S16 32), Decidable (k1_chk174 v185 v836) := fun v185 v836 => decidable_of_iff' _ (Iff.of_eq (k1_chk174.eq_1 v185 v836))
theorem k1_idx174_inb : ∀ (v185 : IVec S16 32) (v836 : IVec S16 32) (k1_hw174 : k1_chk174 v185 v836), ∀ a x, ((![v185, v836] : Fin 2 → IVec S16 32) a x).toNat < S64x128.size a := fun v185 v836 k1_hw174 => k1_hw174

def k1_chk175 (v183 : IVec S16 32) (v843 : IVec S16 32) : Prop :=
  (∀ a x, ((![v183, v843] : Fin 2 → IVec S16 32) a x).toNat < S128x128.size a)
instance k1_chk175.dec : ∀ (v183 : IVec S16 32) (v843 : IVec S16 32), Decidable (k1_chk175 v183 v843) := fun v183 v843 => decidable_of_iff' _ (Iff.of_eq (k1_chk175.eq_1 v183 v843))
theorem k1_idx175_inb : ∀ (v183 : IVec S16 32) (v843 : IVec S16 32) (k1_hw175 : k1_chk175 v183 v843), ∀ a x, ((![v183, v843] : Fin 2 → IVec S16 32) a x).toNat < S128x128.size a := fun v183 v843 k1_hw175 => k1_hw175

def k1_chk176 (v183 : IVec S16 32) (v845 : IVec S16 32) : Prop :=
  (∀ a x, ((![v183, v845] : Fin 2 → IVec S16 32) a x).toNat < S128x128.size a)
instance k1_chk176.dec : ∀ (v183 : IVec S16 32) (v845 : IVec S16 32), Decidable (k1_chk176 v183 v845) := fun v183 v845 => decidable_of_iff' _ (Iff.of_eq (k1_chk176.eq_1 v183 v845))
theorem k1_idx176_inb : ∀ (v183 : IVec S16 32) (v845 : IVec S16 32) (k1_hw176 : k1_chk176 v183 v845), ∀ a x, ((![v183, v845] : Fin 2 → IVec S16 32) a x).toNat < S128x128.size a := fun v183 v845 k1_hw176 => k1_hw176

def k1_chk177 (v185 : IVec S16 32) (v847 : IVec S16 32) : Prop :=
  (∀ a x, ((![v185, v847] : Fin 2 → IVec S16 32) a x).toNat < S64x128.size a)
instance k1_chk177.dec : ∀ (v185 : IVec S16 32) (v847 : IVec S16 32), Decidable (k1_chk177 v185 v847) := fun v185 v847 => decidable_of_iff' _ (Iff.of_eq (k1_chk177.eq_1 v185 v847))
theorem k1_idx177_inb : ∀ (v185 : IVec S16 32) (v847 : IVec S16 32) (k1_hw177 : k1_chk177 v185 v847), ∀ a x, ((![v185, v847] : Fin 2 → IVec S16 32) a x).toNat < S64x128.size a := fun v185 v847 k1_hw177 => k1_hw177

def k1_chk178 (v183 : IVec S16 32) (v854 : IVec S16 32) : Prop :=
  (∀ a x, ((![v183, v854] : Fin 2 → IVec S16 32) a x).toNat < S128x128.size a)
instance k1_chk178.dec : ∀ (v183 : IVec S16 32) (v854 : IVec S16 32), Decidable (k1_chk178 v183 v854) := fun v183 v854 => decidable_of_iff' _ (Iff.of_eq (k1_chk178.eq_1 v183 v854))
theorem k1_idx178_inb : ∀ (v183 : IVec S16 32) (v854 : IVec S16 32) (k1_hw178 : k1_chk178 v183 v854), ∀ a x, ((![v183, v854] : Fin 2 → IVec S16 32) a x).toNat < S128x128.size a := fun v183 v854 k1_hw178 => k1_hw178

def k1_chk179 (v183 : IVec S16 32) (v856 : IVec S16 32) : Prop :=
  (∀ a x, ((![v183, v856] : Fin 2 → IVec S16 32) a x).toNat < S128x128.size a)
instance k1_chk179.dec : ∀ (v183 : IVec S16 32) (v856 : IVec S16 32), Decidable (k1_chk179 v183 v856) := fun v183 v856 => decidable_of_iff' _ (Iff.of_eq (k1_chk179.eq_1 v183 v856))
theorem k1_idx179_inb : ∀ (v183 : IVec S16 32) (v856 : IVec S16 32) (k1_hw179 : k1_chk179 v183 v856), ∀ a x, ((![v183, v856] : Fin 2 → IVec S16 32) a x).toNat < S128x128.size a := fun v183 v856 k1_hw179 => k1_hw179

def k1_chk180 (v185 : IVec S16 32) (v858 : IVec S16 32) : Prop :=
  (∀ a x, ((![v185, v858] : Fin 2 → IVec S16 32) a x).toNat < S64x128.size a)
instance k1_chk180.dec : ∀ (v185 : IVec S16 32) (v858 : IVec S16 32), Decidable (k1_chk180 v185 v858) := fun v185 v858 => decidable_of_iff' _ (Iff.of_eq (k1_chk180.eq_1 v185 v858))
theorem k1_idx180_inb : ∀ (v185 : IVec S16 32) (v858 : IVec S16 32) (k1_hw180 : k1_chk180 v185 v858), ∀ a x, ((![v185, v858] : Fin 2 → IVec S16 32) a x).toNat < S64x128.size a := fun v185 v858 k1_hw180 => k1_hw180

def k1_chk181 (v183 : IVec S16 32) (v865 : IVec S16 32) : Prop :=
  (∀ a x, ((![v183, v865] : Fin 2 → IVec S16 32) a x).toNat < S128x128.size a)
instance k1_chk181.dec : ∀ (v183 : IVec S16 32) (v865 : IVec S16 32), Decidable (k1_chk181 v183 v865) := fun v183 v865 => decidable_of_iff' _ (Iff.of_eq (k1_chk181.eq_1 v183 v865))
theorem k1_idx181_inb : ∀ (v183 : IVec S16 32) (v865 : IVec S16 32) (k1_hw181 : k1_chk181 v183 v865), ∀ a x, ((![v183, v865] : Fin 2 → IVec S16 32) a x).toNat < S128x128.size a := fun v183 v865 k1_hw181 => k1_hw181

def k1_chk182 (v183 : IVec S16 32) (v867 : IVec S16 32) : Prop :=
  (∀ a x, ((![v183, v867] : Fin 2 → IVec S16 32) a x).toNat < S128x128.size a)
instance k1_chk182.dec : ∀ (v183 : IVec S16 32) (v867 : IVec S16 32), Decidable (k1_chk182 v183 v867) := fun v183 v867 => decidable_of_iff' _ (Iff.of_eq (k1_chk182.eq_1 v183 v867))
theorem k1_idx182_inb : ∀ (v183 : IVec S16 32) (v867 : IVec S16 32) (k1_hw182 : k1_chk182 v183 v867), ∀ a x, ((![v183, v867] : Fin 2 → IVec S16 32) a x).toNat < S128x128.size a := fun v183 v867 k1_hw182 => k1_hw182

def k1_chk183 (v185 : IVec S16 32) (v869 : IVec S16 32) : Prop :=
  (∀ a x, ((![v185, v869] : Fin 2 → IVec S16 32) a x).toNat < S64x128.size a)
instance k1_chk183.dec : ∀ (v185 : IVec S16 32) (v869 : IVec S16 32), Decidable (k1_chk183 v185 v869) := fun v185 v869 => decidable_of_iff' _ (Iff.of_eq (k1_chk183.eq_1 v185 v869))
theorem k1_idx183_inb : ∀ (v185 : IVec S16 32) (v869 : IVec S16 32) (k1_hw183 : k1_chk183 v185 v869), ∀ a x, ((![v185, v869] : Fin 2 → IVec S16 32) a x).toNat < S64x128.size a := fun v185 v869 k1_hw183 => k1_hw183

def k1_chk184 (v183 : IVec S16 32) (v876 : IVec S16 32) : Prop :=
  (∀ a x, ((![v183, v876] : Fin 2 → IVec S16 32) a x).toNat < S128x128.size a)
instance k1_chk184.dec : ∀ (v183 : IVec S16 32) (v876 : IVec S16 32), Decidable (k1_chk184 v183 v876) := fun v183 v876 => decidable_of_iff' _ (Iff.of_eq (k1_chk184.eq_1 v183 v876))
theorem k1_idx184_inb : ∀ (v183 : IVec S16 32) (v876 : IVec S16 32) (k1_hw184 : k1_chk184 v183 v876), ∀ a x, ((![v183, v876] : Fin 2 → IVec S16 32) a x).toNat < S128x128.size a := fun v183 v876 k1_hw184 => k1_hw184

def k1_chk185 (v183 : IVec S16 32) (v878 : IVec S16 32) : Prop :=
  (∀ a x, ((![v183, v878] : Fin 2 → IVec S16 32) a x).toNat < S128x128.size a)
instance k1_chk185.dec : ∀ (v183 : IVec S16 32) (v878 : IVec S16 32), Decidable (k1_chk185 v183 v878) := fun v183 v878 => decidable_of_iff' _ (Iff.of_eq (k1_chk185.eq_1 v183 v878))
theorem k1_idx185_inb : ∀ (v183 : IVec S16 32) (v878 : IVec S16 32) (k1_hw185 : k1_chk185 v183 v878), ∀ a x, ((![v183, v878] : Fin 2 → IVec S16 32) a x).toNat < S128x128.size a := fun v183 v878 k1_hw185 => k1_hw185

def k1_chk186 (v185 : IVec S16 32) (v880 : IVec S16 32) : Prop :=
  (∀ a x, ((![v185, v880] : Fin 2 → IVec S16 32) a x).toNat < S64x128.size a)
instance k1_chk186.dec : ∀ (v185 : IVec S16 32) (v880 : IVec S16 32), Decidable (k1_chk186 v185 v880) := fun v185 v880 => decidable_of_iff' _ (Iff.of_eq (k1_chk186.eq_1 v185 v880))
theorem k1_idx186_inb : ∀ (v185 : IVec S16 32) (v880 : IVec S16 32) (k1_hw186 : k1_chk186 v185 v880), ∀ a x, ((![v185, v880] : Fin 2 → IVec S16 32) a x).toNat < S64x128.size a := fun v185 v880 k1_hw186 => k1_hw186

def k1_chk187 (v183 : IVec S16 32) (v887 : IVec S16 32) : Prop :=
  (∀ a x, ((![v183, v887] : Fin 2 → IVec S16 32) a x).toNat < S128x128.size a)
instance k1_chk187.dec : ∀ (v183 : IVec S16 32) (v887 : IVec S16 32), Decidable (k1_chk187 v183 v887) := fun v183 v887 => decidable_of_iff' _ (Iff.of_eq (k1_chk187.eq_1 v183 v887))
theorem k1_idx187_inb : ∀ (v183 : IVec S16 32) (v887 : IVec S16 32) (k1_hw187 : k1_chk187 v183 v887), ∀ a x, ((![v183, v887] : Fin 2 → IVec S16 32) a x).toNat < S128x128.size a := fun v183 v887 k1_hw187 => k1_hw187

def k1_chk188 (v183 : IVec S16 32) (v889 : IVec S16 32) : Prop :=
  (∀ a x, ((![v183, v889] : Fin 2 → IVec S16 32) a x).toNat < S128x128.size a)
instance k1_chk188.dec : ∀ (v183 : IVec S16 32) (v889 : IVec S16 32), Decidable (k1_chk188 v183 v889) := fun v183 v889 => decidable_of_iff' _ (Iff.of_eq (k1_chk188.eq_1 v183 v889))
theorem k1_idx188_inb : ∀ (v183 : IVec S16 32) (v889 : IVec S16 32) (k1_hw188 : k1_chk188 v183 v889), ∀ a x, ((![v183, v889] : Fin 2 → IVec S16 32) a x).toNat < S128x128.size a := fun v183 v889 k1_hw188 => k1_hw188

def k1_chk189 (v185 : IVec S16 32) (v891 : IVec S16 32) : Prop :=
  (∀ a x, ((![v185, v891] : Fin 2 → IVec S16 32) a x).toNat < S64x128.size a)
instance k1_chk189.dec : ∀ (v185 : IVec S16 32) (v891 : IVec S16 32), Decidable (k1_chk189 v185 v891) := fun v185 v891 => decidable_of_iff' _ (Iff.of_eq (k1_chk189.eq_1 v185 v891))
theorem k1_idx189_inb : ∀ (v185 : IVec S16 32) (v891 : IVec S16 32) (k1_hw189 : k1_chk189 v185 v891), ∀ a x, ((![v185, v891] : Fin 2 → IVec S16 32) a x).toNat < S64x128.size a := fun v185 v891 k1_hw189 => k1_hw189

def k1_chk190 (v183 : IVec S16 32) (v898 : IVec S16 32) : Prop :=
  (∀ a x, ((![v183, v898] : Fin 2 → IVec S16 32) a x).toNat < S128x128.size a)
instance k1_chk190.dec : ∀ (v183 : IVec S16 32) (v898 : IVec S16 32), Decidable (k1_chk190 v183 v898) := fun v183 v898 => decidable_of_iff' _ (Iff.of_eq (k1_chk190.eq_1 v183 v898))
theorem k1_idx190_inb : ∀ (v183 : IVec S16 32) (v898 : IVec S16 32) (k1_hw190 : k1_chk190 v183 v898), ∀ a x, ((![v183, v898] : Fin 2 → IVec S16 32) a x).toNat < S128x128.size a := fun v183 v898 k1_hw190 => k1_hw190

def k1_chk191 (v183 : IVec S16 32) (v900 : IVec S16 32) : Prop :=
  (∀ a x, ((![v183, v900] : Fin 2 → IVec S16 32) a x).toNat < S128x128.size a)
instance k1_chk191.dec : ∀ (v183 : IVec S16 32) (v900 : IVec S16 32), Decidable (k1_chk191 v183 v900) := fun v183 v900 => decidable_of_iff' _ (Iff.of_eq (k1_chk191.eq_1 v183 v900))
theorem k1_idx191_inb : ∀ (v183 : IVec S16 32) (v900 : IVec S16 32) (k1_hw191 : k1_chk191 v183 v900), ∀ a x, ((![v183, v900] : Fin 2 → IVec S16 32) a x).toNat < S128x128.size a := fun v183 v900 k1_hw191 => k1_hw191

def k1_chk192 (v185 : IVec S16 32) (v902 : IVec S16 32) : Prop :=
  (∀ a x, ((![v185, v902] : Fin 2 → IVec S16 32) a x).toNat < S64x128.size a)
instance k1_chk192.dec : ∀ (v185 : IVec S16 32) (v902 : IVec S16 32), Decidable (k1_chk192 v185 v902) := fun v185 v902 => decidable_of_iff' _ (Iff.of_eq (k1_chk192.eq_1 v185 v902))
theorem k1_idx192_inb : ∀ (v185 : IVec S16 32) (v902 : IVec S16 32) (k1_hw192 : k1_chk192 v185 v902), ∀ a x, ((![v185, v902] : Fin 2 → IVec S16 32) a x).toNat < S64x128.size a := fun v185 v902 k1_hw192 => k1_hw192
def k1_mult1 (i : grid1.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_99 : BitVec 32 := 0#32
  let v163 : BitVec 1 := Scalar.cmpi .sgt v2 c0_i32_99
  let v164 : BitVec 32 := Scalar.extui v163
  let c0_i32_100 : BitVec 32 := 0#32
  let v165 : BitVec 1 := Scalar.cmpi .slt v2 c0_i32_100
  let v166 : BitVec 32 := Scalar.extui v165
  let v167 : BitVec 32 := Scalar.subi v164 v166
  let c2_i32_98 : BitVec 32 := 2#32
  let c0_i32_101 : BitVec 32 := 0#32
  let v168 : BitVec 1 := Scalar.cmpi .sgt c2_i32_98 c0_i32_101
  let v169 : BitVec 32 := Scalar.extui v168
  let c0_i32_102 : BitVec 32 := 0#32
  let v170 : BitVec 1 := Scalar.cmpi .slt c2_i32_98 c0_i32_102
  let v171 : BitVec 32 := Scalar.extui v170
  let v172 : BitVec 32 := Scalar.subi v169 v171
  let v173 : BitVec 1 := Scalar.cmpi .ne v167 v172
  let v174 : BitVec 32 := Scalar.remsi v2 c2_i32_98
  let c0_i32_103 : BitVec 32 := 0#32
  let v175 : BitVec 1 := Scalar.cmpi .ne v174 c0_i32_103
  let v176 : BitVec 1 := Scalar.andi v173 v175
  let v162 : BitVec 32 := Scalar.divsi v2 c2_i32_98
  let c1_i32_104 : BitVec 32 := 1#32
  let v177 : BitVec 32 := Scalar.subi v162 c1_i32_104
  let v178 : BitVec 32 := Scalar.select v176 v177 v162
  v178
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_99 : BitVec 32 := 0#32
  let v163 : BitVec 1 := Scalar.cmpi .sgt v2 c0_i32_99
  let v164 : BitVec 32 := Scalar.extui v163
  let c0_i32_100 : BitVec 32 := 0#32
  let v165 : BitVec 1 := Scalar.cmpi .slt v2 c0_i32_100
  let v166 : BitVec 32 := Scalar.extui v165
  let v167 : BitVec 32 := Scalar.subi v164 v166
  let c2_i32_98 : BitVec 32 := 2#32
  let c0_i32_101 : BitVec 32 := 0#32
  let v168 : BitVec 1 := Scalar.cmpi .sgt c2_i32_98 c0_i32_101
  let v169 : BitVec 32 := Scalar.extui v168
  let c0_i32_102 : BitVec 32 := 0#32
  let v170 : BitVec 1 := Scalar.cmpi .slt c2_i32_98 c0_i32_102
  let v171 : BitVec 32 := Scalar.extui v170
  let v172 : BitVec 32 := Scalar.subi v169 v171
  let v173 : BitVec 1 := Scalar.cmpi .ne v167 v172
  let v174 : BitVec 32 := Scalar.remsi v2 c2_i32_98
  let c0_i32_103 : BitVec 32 := 0#32
  let v175 : BitVec 1 := Scalar.cmpi .ne v174 c0_i32_103
  let v176 : BitVec 1 := Scalar.andi v173 v175
  let v162 : BitVec 32 := Scalar.divsi v2 c2_i32_98
  let c1_i32_104 : BitVec 32 := 1#32
  let v177 : BitVec 32 := Scalar.subi v162 c1_i32_104
  let v178 : BitVec 32 := Scalar.select v176 v177 v162
  let v179 : BitVec 32 := v178
  let c0_i32_105_r2 : BitVec 32 := 0#32
  ![v179.toNat, 0]
abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S64x12544 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S64x12544 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S12544x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![2, 16], ![false, false]⟩

def k3_off1 (i : grid3.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k3_mult1 (i : grid3.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_41 : BitVec 32 := 0#32
  let v77 : BitVec 1 := Scalar.cmpi .sgt v2 c0_i32_41
  let v78 : BitVec 32 := Scalar.extui v77
  let c0_i32_42 : BitVec 32 := 0#32
  let v79 : BitVec 1 := Scalar.cmpi .slt v2 c0_i32_42
  let v80 : BitVec 32 := Scalar.extui v79
  let v81 : BitVec 32 := Scalar.subi v78 v80
  let c2_i32_40 : BitVec 32 := 2#32
  let c0_i32_43 : BitVec 32 := 0#32
  let v82 : BitVec 1 := Scalar.cmpi .sgt c2_i32_40 c0_i32_43
  let v83 : BitVec 32 := Scalar.extui v82
  let c0_i32_44 : BitVec 32 := 0#32
  let v84 : BitVec 1 := Scalar.cmpi .slt c2_i32_40 c0_i32_44
  let v85 : BitVec 32 := Scalar.extui v84
  let v86 : BitVec 32 := Scalar.subi v83 v85
  let v87 : BitVec 1 := Scalar.cmpi .ne v81 v86
  let v88 : BitVec 32 := Scalar.remsi v2 c2_i32_40
  let c0_i32_45 : BitVec 32 := 0#32
  let v89 : BitVec 1 := Scalar.cmpi .ne v88 c0_i32_45
  let v90 : BitVec 1 := Scalar.andi v87 v89
  let v76 : BitVec 32 := Scalar.divsi v2 c2_i32_40
  let c1_i32 : BitVec 32 := 1#32
  let v91 : BitVec 32 := Scalar.subi v76 c1_i32
  let v92 : BitVec 32 := Scalar.select v90 v91 v76
  v92
def k3_off2 (i : grid3.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_41 : BitVec 32 := 0#32
  let v77 : BitVec 1 := Scalar.cmpi .sgt v2 c0_i32_41
  let v78 : BitVec 32 := Scalar.extui v77
  let c0_i32_42 : BitVec 32 := 0#32
  let v79 : BitVec 1 := Scalar.cmpi .slt v2 c0_i32_42
  let v80 : BitVec 32 := Scalar.extui v79
  let v81 : BitVec 32 := Scalar.subi v78 v80
  let c2_i32_40 : BitVec 32 := 2#32
  let c0_i32_43 : BitVec 32 := 0#32
  let v82 : BitVec 1 := Scalar.cmpi .sgt c2_i32_40 c0_i32_43
  let v83 : BitVec 32 := Scalar.extui v82
  let c0_i32_44 : BitVec 32 := 0#32
  let v84 : BitVec 1 := Scalar.cmpi .slt c2_i32_40 c0_i32_44
  let v85 : BitVec 32 := Scalar.extui v84
  let v86 : BitVec 32 := Scalar.subi v83 v85
  let v87 : BitVec 1 := Scalar.cmpi .ne v81 v86
  let v88 : BitVec 32 := Scalar.remsi v2 c2_i32_40
  let c0_i32_45 : BitVec 32 := 0#32
  let v89 : BitVec 1 := Scalar.cmpi .ne v88 c0_i32_45
  let v90 : BitVec 1 := Scalar.andi v87 v89
  let v76 : BitVec 32 := Scalar.divsi v2 c2_i32_40
  let c1_i32 : BitVec 32 := 1#32
  let v91 : BitVec 32 := Scalar.subi v76 c1_i32
  let v92 : BitVec 32 := Scalar.select v90 v91 v76
  let v93 : BitVec 32 := v92
  let c0_i32_46 : BitVec 32 := 0#32
  ![v93.toNat, 0]
@[reducible] def k3_t1_loop : Scf.Loop 32 :=
  let c0_i32_54 : BitVec 32 := 0#32
  let c8_i32 : BitVec 32 := 8#32
  let v109 : BitVec 32 := Scalar.addi c0_i32_54 c8_i32
  let c1_i32_55 : BitVec 32 := 1#32
  ⟨c0_i32_54, v109, c1_i32_55⟩
def k3_off3 (k3_t1 : Fin k3_t1_loop.trips) : Fin 1 → Nat :=
  let c0_i32_54 : BitVec 32 := 0#32
  let c1_i32_55 : BitVec 32 := 1#32
  let arg13 : BitVec 32 := Scf.iv c0_i32_54 c1_i32_55 k3_t1
  let c16_i32 : BitVec 32 := 16#32
  let v110 : BitVec 32 := Scalar.muli arg13 c16_i32
  let v118 : Index := Scalar.indexCast v110
  ![v118.toNat]

def k3_chk1 (v113 : IVec S16 32) (v130 : IVec S16 32) : Prop :=
  (∀ a x, ((![v113, v130] : Fin 2 → IVec S16 32) a x).toNat < S128x128.size a)
instance k3_chk1.dec : ∀ (v113 : IVec S16 32) (v130 : IVec S16 32), Decidable (k3_chk1 v113 v130) := fun v113 v130 => decidable_of_iff' _ (Iff.of_eq (k3_chk1.eq_1 v113 v130))
theorem k3_idx1_inb : ∀ (v113 : IVec S16 32) (v130 : IVec S16 32) (k3_hw1 : k3_chk1 v113 v130), ∀ a x, ((![v113, v130] : Fin 2 → IVec S16 32) a x).toNat < S128x128.size a := fun v113 v130 k3_hw1 => k3_hw1

def k3_chk2 (v115 : IVec S16 32) (v132 : IVec S16 32) : Prop :=
  (∀ a x, ((![v115, v132] : Fin 2 → IVec S16 32) a x).toNat < S64x128.size a)
instance k3_chk2.dec : ∀ (v115 : IVec S16 32) (v132 : IVec S16 32), Decidable (k3_chk2 v115 v132) := fun v115 v132 => decidable_of_iff' _ (Iff.of_eq (k3_chk2.eq_1 v115 v132))
theorem k3_idx2_inb : ∀ (v115 : IVec S16 32) (v132 : IVec S16 32) (k3_hw2 : k3_chk2 v115 v132), ∀ a x, ((![v115, v132] : Fin 2 → IVec S16 32) a x).toNat < S64x128.size a := fun v115 v132 k3_hw2 => k3_hw2

def k3_chk3 (v113 : IVec S16 32) (v141 : IVec S16 32) : Prop :=
  (∀ a x, ((![v113, v141] : Fin 2 → IVec S16 32) a x).toNat < S128x128.size a)
instance k3_chk3.dec : ∀ (v113 : IVec S16 32) (v141 : IVec S16 32), Decidable (k3_chk3 v113 v141) := fun v113 v141 => decidable_of_iff' _ (Iff.of_eq (k3_chk3.eq_1 v113 v141))
theorem k3_idx3_inb : ∀ (v113 : IVec S16 32) (v141 : IVec S16 32) (k3_hw3 : k3_chk3 v113 v141), ∀ a x, ((![v113, v141] : Fin 2 → IVec S16 32) a x).toNat < S128x128.size a := fun v113 v141 k3_hw3 => k3_hw3

def k3_chk4 (v115 : IVec S16 32) (v143 : IVec S16 32) : Prop :=
  (∀ a x, ((![v115, v143] : Fin 2 → IVec S16 32) a x).toNat < S64x128.size a)
instance k3_chk4.dec : ∀ (v115 : IVec S16 32) (v143 : IVec S16 32), Decidable (k3_chk4 v115 v143) := fun v115 v143 => decidable_of_iff' _ (Iff.of_eq (k3_chk4.eq_1 v115 v143))
theorem k3_idx4_inb : ∀ (v115 : IVec S16 32) (v143 : IVec S16 32) (k3_hw4 : k3_chk4 v115 v143), ∀ a x, ((![v115, v143] : Fin 2 → IVec S16 32) a x).toNat < S64x128.size a := fun v115 v143 k3_hw4 => k3_hw4

def k3_chk5 (v113 : IVec S16 32) (v152 : IVec S16 32) : Prop :=
  (∀ a x, ((![v113, v152] : Fin 2 → IVec S16 32) a x).toNat < S128x128.size a)
instance k3_chk5.dec : ∀ (v113 : IVec S16 32) (v152 : IVec S16 32), Decidable (k3_chk5 v113 v152) := fun v113 v152 => decidable_of_iff' _ (Iff.of_eq (k3_chk5.eq_1 v113 v152))
theorem k3_idx5_inb : ∀ (v113 : IVec S16 32) (v152 : IVec S16 32) (k3_hw5 : k3_chk5 v113 v152), ∀ a x, ((![v113, v152] : Fin 2 → IVec S16 32) a x).toNat < S128x128.size a := fun v113 v152 k3_hw5 => k3_hw5

def k3_chk6 (v115 : IVec S16 32) (v154 : IVec S16 32) : Prop :=
  (∀ a x, ((![v115, v154] : Fin 2 → IVec S16 32) a x).toNat < S64x128.size a)
instance k3_chk6.dec : ∀ (v115 : IVec S16 32) (v154 : IVec S16 32), Decidable (k3_chk6 v115 v154) := fun v115 v154 => decidable_of_iff' _ (Iff.of_eq (k3_chk6.eq_1 v115 v154))
theorem k3_idx6_inb : ∀ (v115 : IVec S16 32) (v154 : IVec S16 32) (k3_hw6 : k3_chk6 v115 v154), ∀ a x, ((![v115, v154] : Fin 2 → IVec S16 32) a x).toNat < S64x128.size a := fun v115 v154 k3_hw6 => k3_hw6

def k3_chk7 (v113 : IVec S16 32) (v163 : IVec S16 32) : Prop :=
  (∀ a x, ((![v113, v163] : Fin 2 → IVec S16 32) a x).toNat < S128x128.size a)
instance k3_chk7.dec : ∀ (v113 : IVec S16 32) (v163 : IVec S16 32), Decidable (k3_chk7 v113 v163) := fun v113 v163 => decidable_of_iff' _ (Iff.of_eq (k3_chk7.eq_1 v113 v163))
theorem k3_idx7_inb : ∀ (v113 : IVec S16 32) (v163 : IVec S16 32) (k3_hw7 : k3_chk7 v113 v163), ∀ a x, ((![v113, v163] : Fin 2 → IVec S16 32) a x).toNat < S128x128.size a := fun v113 v163 k3_hw7 => k3_hw7

def k3_chk8 (v115 : IVec S16 32) (v165 : IVec S16 32) : Prop :=
  (∀ a x, ((![v115, v165] : Fin 2 → IVec S16 32) a x).toNat < S64x128.size a)
instance k3_chk8.dec : ∀ (v115 : IVec S16 32) (v165 : IVec S16 32), Decidable (k3_chk8 v115 v165) := fun v115 v165 => decidable_of_iff' _ (Iff.of_eq (k3_chk8.eq_1 v115 v165))
theorem k3_idx8_inb : ∀ (v115 : IVec S16 32) (v165 : IVec S16 32) (k3_hw8 : k3_chk8 v115 v165), ∀ a x, ((![v115, v165] : Fin 2 → IVec S16 32) a x).toNat < S64x128.size a := fun v115 v165 k3_hw8 => k3_hw8

def k3_chk9 (v113 : IVec S16 32) (v174 : IVec S16 32) : Prop :=
  (∀ a x, ((![v113, v174] : Fin 2 → IVec S16 32) a x).toNat < S128x128.size a)
instance k3_chk9.dec : ∀ (v113 : IVec S16 32) (v174 : IVec S16 32), Decidable (k3_chk9 v113 v174) := fun v113 v174 => decidable_of_iff' _ (Iff.of_eq (k3_chk9.eq_1 v113 v174))
theorem k3_idx9_inb : ∀ (v113 : IVec S16 32) (v174 : IVec S16 32) (k3_hw9 : k3_chk9 v113 v174), ∀ a x, ((![v113, v174] : Fin 2 → IVec S16 32) a x).toNat < S128x128.size a := fun v113 v174 k3_hw9 => k3_hw9

def k3_chk10 (v115 : IVec S16 32) (v176 : IVec S16 32) : Prop :=
  (∀ a x, ((![v115, v176] : Fin 2 → IVec S16 32) a x).toNat < S64x128.size a)
instance k3_chk10.dec : ∀ (v115 : IVec S16 32) (v176 : IVec S16 32), Decidable (k3_chk10 v115 v176) := fun v115 v176 => decidable_of_iff' _ (Iff.of_eq (k3_chk10.eq_1 v115 v176))
theorem k3_idx10_inb : ∀ (v115 : IVec S16 32) (v176 : IVec S16 32) (k3_hw10 : k3_chk10 v115 v176), ∀ a x, ((![v115, v176] : Fin 2 → IVec S16 32) a x).toNat < S64x128.size a := fun v115 v176 k3_hw10 => k3_hw10

def k3_chk11 (v113 : IVec S16 32) (v185 : IVec S16 32) : Prop :=
  (∀ a x, ((![v113, v185] : Fin 2 → IVec S16 32) a x).toNat < S128x128.size a)
instance k3_chk11.dec : ∀ (v113 : IVec S16 32) (v185 : IVec S16 32), Decidable (k3_chk11 v113 v185) := fun v113 v185 => decidable_of_iff' _ (Iff.of_eq (k3_chk11.eq_1 v113 v185))
theorem k3_idx11_inb : ∀ (v113 : IVec S16 32) (v185 : IVec S16 32) (k3_hw11 : k3_chk11 v113 v185), ∀ a x, ((![v113, v185] : Fin 2 → IVec S16 32) a x).toNat < S128x128.size a := fun v113 v185 k3_hw11 => k3_hw11

def k3_chk12 (v115 : IVec S16 32) (v187 : IVec S16 32) : Prop :=
  (∀ a x, ((![v115, v187] : Fin 2 → IVec S16 32) a x).toNat < S64x128.size a)
instance k3_chk12.dec : ∀ (v115 : IVec S16 32) (v187 : IVec S16 32), Decidable (k3_chk12 v115 v187) := fun v115 v187 => decidable_of_iff' _ (Iff.of_eq (k3_chk12.eq_1 v115 v187))
theorem k3_idx12_inb : ∀ (v115 : IVec S16 32) (v187 : IVec S16 32) (k3_hw12 : k3_chk12 v115 v187), ∀ a x, ((![v115, v187] : Fin 2 → IVec S16 32) a x).toNat < S64x128.size a := fun v115 v187 k3_hw12 => k3_hw12

def k3_chk13 (v113 : IVec S16 32) (v196 : IVec S16 32) : Prop :=
  (∀ a x, ((![v113, v196] : Fin 2 → IVec S16 32) a x).toNat < S128x128.size a)
instance k3_chk13.dec : ∀ (v113 : IVec S16 32) (v196 : IVec S16 32), Decidable (k3_chk13 v113 v196) := fun v113 v196 => decidable_of_iff' _ (Iff.of_eq (k3_chk13.eq_1 v113 v196))
theorem k3_idx13_inb : ∀ (v113 : IVec S16 32) (v196 : IVec S16 32) (k3_hw13 : k3_chk13 v113 v196), ∀ a x, ((![v113, v196] : Fin 2 → IVec S16 32) a x).toNat < S128x128.size a := fun v113 v196 k3_hw13 => k3_hw13

def k3_chk14 (v115 : IVec S16 32) (v198 : IVec S16 32) : Prop :=
  (∀ a x, ((![v115, v198] : Fin 2 → IVec S16 32) a x).toNat < S64x128.size a)
instance k3_chk14.dec : ∀ (v115 : IVec S16 32) (v198 : IVec S16 32), Decidable (k3_chk14 v115 v198) := fun v115 v198 => decidable_of_iff' _ (Iff.of_eq (k3_chk14.eq_1 v115 v198))
theorem k3_idx14_inb : ∀ (v115 : IVec S16 32) (v198 : IVec S16 32) (k3_hw14 : k3_chk14 v115 v198), ∀ a x, ((![v115, v198] : Fin 2 → IVec S16 32) a x).toNat < S64x128.size a := fun v115 v198 k3_hw14 => k3_hw14

def k3_chk15 (v113 : IVec S16 32) (v207 : IVec S16 32) : Prop :=
  (∀ a x, ((![v113, v207] : Fin 2 → IVec S16 32) a x).toNat < S128x128.size a)
instance k3_chk15.dec : ∀ (v113 : IVec S16 32) (v207 : IVec S16 32), Decidable (k3_chk15 v113 v207) := fun v113 v207 => decidable_of_iff' _ (Iff.of_eq (k3_chk15.eq_1 v113 v207))
theorem k3_idx15_inb : ∀ (v113 : IVec S16 32) (v207 : IVec S16 32) (k3_hw15 : k3_chk15 v113 v207), ∀ a x, ((![v113, v207] : Fin 2 → IVec S16 32) a x).toNat < S128x128.size a := fun v113 v207 k3_hw15 => k3_hw15

def k3_chk16 (v115 : IVec S16 32) (v209 : IVec S16 32) : Prop :=
  (∀ a x, ((![v115, v209] : Fin 2 → IVec S16 32) a x).toNat < S64x128.size a)
instance k3_chk16.dec : ∀ (v115 : IVec S16 32) (v209 : IVec S16 32), Decidable (k3_chk16 v115 v209) := fun v115 v209 => decidable_of_iff' _ (Iff.of_eq (k3_chk16.eq_1 v115 v209))
theorem k3_idx16_inb : ∀ (v115 : IVec S16 32) (v209 : IVec S16 32) (k3_hw16 : k3_chk16 v115 v209), ∀ a x, ((![v115, v209] : Fin 2 → IVec S16 32) a x).toNat < S64x128.size a := fun v115 v209 k3_hw16 => k3_hw16

def k3_chk17 (v113 : IVec S16 32) (v218 : IVec S16 32) : Prop :=
  (∀ a x, ((![v113, v218] : Fin 2 → IVec S16 32) a x).toNat < S128x128.size a)
instance k3_chk17.dec : ∀ (v113 : IVec S16 32) (v218 : IVec S16 32), Decidable (k3_chk17 v113 v218) := fun v113 v218 => decidable_of_iff' _ (Iff.of_eq (k3_chk17.eq_1 v113 v218))
theorem k3_idx17_inb : ∀ (v113 : IVec S16 32) (v218 : IVec S16 32) (k3_hw17 : k3_chk17 v113 v218), ∀ a x, ((![v113, v218] : Fin 2 → IVec S16 32) a x).toNat < S128x128.size a := fun v113 v218 k3_hw17 => k3_hw17

def k3_chk18 (v115 : IVec S16 32) (v220 : IVec S16 32) : Prop :=
  (∀ a x, ((![v115, v220] : Fin 2 → IVec S16 32) a x).toNat < S64x128.size a)
instance k3_chk18.dec : ∀ (v115 : IVec S16 32) (v220 : IVec S16 32), Decidable (k3_chk18 v115 v220) := fun v115 v220 => decidable_of_iff' _ (Iff.of_eq (k3_chk18.eq_1 v115 v220))
theorem k3_idx18_inb : ∀ (v115 : IVec S16 32) (v220 : IVec S16 32) (k3_hw18 : k3_chk18 v115 v220), ∀ a x, ((![v115, v220] : Fin 2 → IVec S16 32) a x).toNat < S64x128.size a := fun v115 v220 k3_hw18 => k3_hw18

def k3_chk19 (v113 : IVec S16 32) (v229 : IVec S16 32) : Prop :=
  (∀ a x, ((![v113, v229] : Fin 2 → IVec S16 32) a x).toNat < S128x128.size a)
instance k3_chk19.dec : ∀ (v113 : IVec S16 32) (v229 : IVec S16 32), Decidable (k3_chk19 v113 v229) := fun v113 v229 => decidable_of_iff' _ (Iff.of_eq (k3_chk19.eq_1 v113 v229))
theorem k3_idx19_inb : ∀ (v113 : IVec S16 32) (v229 : IVec S16 32) (k3_hw19 : k3_chk19 v113 v229), ∀ a x, ((![v113, v229] : Fin 2 → IVec S16 32) a x).toNat < S128x128.size a := fun v113 v229 k3_hw19 => k3_hw19

def k3_chk20 (v115 : IVec S16 32) (v231 : IVec S16 32) : Prop :=
  (∀ a x, ((![v115, v231] : Fin 2 → IVec S16 32) a x).toNat < S64x128.size a)
instance k3_chk20.dec : ∀ (v115 : IVec S16 32) (v231 : IVec S16 32), Decidable (k3_chk20 v115 v231) := fun v115 v231 => decidable_of_iff' _ (Iff.of_eq (k3_chk20.eq_1 v115 v231))
theorem k3_idx20_inb : ∀ (v115 : IVec S16 32) (v231 : IVec S16 32) (k3_hw20 : k3_chk20 v115 v231), ∀ a x, ((![v115, v231] : Fin 2 → IVec S16 32) a x).toNat < S64x128.size a := fun v115 v231 k3_hw20 => k3_hw20

def k3_chk21 (v113 : IVec S16 32) (v240 : IVec S16 32) : Prop :=
  (∀ a x, ((![v113, v240] : Fin 2 → IVec S16 32) a x).toNat < S128x128.size a)
instance k3_chk21.dec : ∀ (v113 : IVec S16 32) (v240 : IVec S16 32), Decidable (k3_chk21 v113 v240) := fun v113 v240 => decidable_of_iff' _ (Iff.of_eq (k3_chk21.eq_1 v113 v240))
theorem k3_idx21_inb : ∀ (v113 : IVec S16 32) (v240 : IVec S16 32) (k3_hw21 : k3_chk21 v113 v240), ∀ a x, ((![v113, v240] : Fin 2 → IVec S16 32) a x).toNat < S128x128.size a := fun v113 v240 k3_hw21 => k3_hw21

def k3_chk22 (v115 : IVec S16 32) (v242 : IVec S16 32) : Prop :=
  (∀ a x, ((![v115, v242] : Fin 2 → IVec S16 32) a x).toNat < S64x128.size a)
instance k3_chk22.dec : ∀ (v115 : IVec S16 32) (v242 : IVec S16 32), Decidable (k3_chk22 v115 v242) := fun v115 v242 => decidable_of_iff' _ (Iff.of_eq (k3_chk22.eq_1 v115 v242))
theorem k3_idx22_inb : ∀ (v115 : IVec S16 32) (v242 : IVec S16 32) (k3_hw22 : k3_chk22 v115 v242), ∀ a x, ((![v115, v242] : Fin 2 → IVec S16 32) a x).toNat < S64x128.size a := fun v115 v242 k3_hw22 => k3_hw22

def k3_chk23 (v113 : IVec S16 32) (v251 : IVec S16 32) : Prop :=
  (∀ a x, ((![v113, v251] : Fin 2 → IVec S16 32) a x).toNat < S128x128.size a)
instance k3_chk23.dec : ∀ (v113 : IVec S16 32) (v251 : IVec S16 32), Decidable (k3_chk23 v113 v251) := fun v113 v251 => decidable_of_iff' _ (Iff.of_eq (k3_chk23.eq_1 v113 v251))
theorem k3_idx23_inb : ∀ (v113 : IVec S16 32) (v251 : IVec S16 32) (k3_hw23 : k3_chk23 v113 v251), ∀ a x, ((![v113, v251] : Fin 2 → IVec S16 32) a x).toNat < S128x128.size a := fun v113 v251 k3_hw23 => k3_hw23

def k3_chk24 (v115 : IVec S16 32) (v253 : IVec S16 32) : Prop :=
  (∀ a x, ((![v115, v253] : Fin 2 → IVec S16 32) a x).toNat < S64x128.size a)
instance k3_chk24.dec : ∀ (v115 : IVec S16 32) (v253 : IVec S16 32), Decidable (k3_chk24 v115 v253) := fun v115 v253 => decidable_of_iff' _ (Iff.of_eq (k3_chk24.eq_1 v115 v253))
theorem k3_idx24_inb : ∀ (v115 : IVec S16 32) (v253 : IVec S16 32) (k3_hw24 : k3_chk24 v115 v253), ∀ a x, ((![v115, v253] : Fin 2 → IVec S16 32) a x).toNat < S64x128.size a := fun v115 v253 k3_hw24 => k3_hw24

def k3_chk25 (v113 : IVec S16 32) (v262 : IVec S16 32) : Prop :=
  (∀ a x, ((![v113, v262] : Fin 2 → IVec S16 32) a x).toNat < S128x128.size a)
instance k3_chk25.dec : ∀ (v113 : IVec S16 32) (v262 : IVec S16 32), Decidable (k3_chk25 v113 v262) := fun v113 v262 => decidable_of_iff' _ (Iff.of_eq (k3_chk25.eq_1 v113 v262))
theorem k3_idx25_inb : ∀ (v113 : IVec S16 32) (v262 : IVec S16 32) (k3_hw25 : k3_chk25 v113 v262), ∀ a x, ((![v113, v262] : Fin 2 → IVec S16 32) a x).toNat < S128x128.size a := fun v113 v262 k3_hw25 => k3_hw25

def k3_chk26 (v115 : IVec S16 32) (v264 : IVec S16 32) : Prop :=
  (∀ a x, ((![v115, v264] : Fin 2 → IVec S16 32) a x).toNat < S64x128.size a)
instance k3_chk26.dec : ∀ (v115 : IVec S16 32) (v264 : IVec S16 32), Decidable (k3_chk26 v115 v264) := fun v115 v264 => decidable_of_iff' _ (Iff.of_eq (k3_chk26.eq_1 v115 v264))
theorem k3_idx26_inb : ∀ (v115 : IVec S16 32) (v264 : IVec S16 32) (k3_hw26 : k3_chk26 v115 v264), ∀ a x, ((![v115, v264] : Fin 2 → IVec S16 32) a x).toNat < S64x128.size a := fun v115 v264 k3_hw26 => k3_hw26

def k3_chk27 (v113 : IVec S16 32) (v273 : IVec S16 32) : Prop :=
  (∀ a x, ((![v113, v273] : Fin 2 → IVec S16 32) a x).toNat < S128x128.size a)
instance k3_chk27.dec : ∀ (v113 : IVec S16 32) (v273 : IVec S16 32), Decidable (k3_chk27 v113 v273) := fun v113 v273 => decidable_of_iff' _ (Iff.of_eq (k3_chk27.eq_1 v113 v273))
theorem k3_idx27_inb : ∀ (v113 : IVec S16 32) (v273 : IVec S16 32) (k3_hw27 : k3_chk27 v113 v273), ∀ a x, ((![v113, v273] : Fin 2 → IVec S16 32) a x).toNat < S128x128.size a := fun v113 v273 k3_hw27 => k3_hw27

def k3_chk28 (v115 : IVec S16 32) (v275 : IVec S16 32) : Prop :=
  (∀ a x, ((![v115, v275] : Fin 2 → IVec S16 32) a x).toNat < S64x128.size a)
instance k3_chk28.dec : ∀ (v115 : IVec S16 32) (v275 : IVec S16 32), Decidable (k3_chk28 v115 v275) := fun v115 v275 => decidable_of_iff' _ (Iff.of_eq (k3_chk28.eq_1 v115 v275))
theorem k3_idx28_inb : ∀ (v115 : IVec S16 32) (v275 : IVec S16 32) (k3_hw28 : k3_chk28 v115 v275), ∀ a x, ((![v115, v275] : Fin 2 → IVec S16 32) a x).toNat < S64x128.size a := fun v115 v275 k3_hw28 => k3_hw28

def k3_chk29 (v113 : IVec S16 32) (v284 : IVec S16 32) : Prop :=
  (∀ a x, ((![v113, v284] : Fin 2 → IVec S16 32) a x).toNat < S128x128.size a)
instance k3_chk29.dec : ∀ (v113 : IVec S16 32) (v284 : IVec S16 32), Decidable (k3_chk29 v113 v284) := fun v113 v284 => decidable_of_iff' _ (Iff.of_eq (k3_chk29.eq_1 v113 v284))
theorem k3_idx29_inb : ∀ (v113 : IVec S16 32) (v284 : IVec S16 32) (k3_hw29 : k3_chk29 v113 v284), ∀ a x, ((![v113, v284] : Fin 2 → IVec S16 32) a x).toNat < S128x128.size a := fun v113 v284 k3_hw29 => k3_hw29

def k3_chk30 (v115 : IVec S16 32) (v286 : IVec S16 32) : Prop :=
  (∀ a x, ((![v115, v286] : Fin 2 → IVec S16 32) a x).toNat < S64x128.size a)
instance k3_chk30.dec : ∀ (v115 : IVec S16 32) (v286 : IVec S16 32), Decidable (k3_chk30 v115 v286) := fun v115 v286 => decidable_of_iff' _ (Iff.of_eq (k3_chk30.eq_1 v115 v286))
theorem k3_idx30_inb : ∀ (v115 : IVec S16 32) (v286 : IVec S16 32) (k3_hw30 : k3_chk30 v115 v286), ∀ a x, ((![v115, v286] : Fin 2 → IVec S16 32) a x).toNat < S64x128.size a := fun v115 v286 k3_hw30 => k3_hw30

def k3_chk31 (v113 : IVec S16 32) (v295 : IVec S16 32) : Prop :=
  (∀ a x, ((![v113, v295] : Fin 2 → IVec S16 32) a x).toNat < S128x128.size a)
instance k3_chk31.dec : ∀ (v113 : IVec S16 32) (v295 : IVec S16 32), Decidable (k3_chk31 v113 v295) := fun v113 v295 => decidable_of_iff' _ (Iff.of_eq (k3_chk31.eq_1 v113 v295))
theorem k3_idx31_inb : ∀ (v113 : IVec S16 32) (v295 : IVec S16 32) (k3_hw31 : k3_chk31 v113 v295), ∀ a x, ((![v113, v295] : Fin 2 → IVec S16 32) a x).toNat < S128x128.size a := fun v113 v295 k3_hw31 => k3_hw31

def k3_chk32 (v115 : IVec S16 32) (v297 : IVec S16 32) : Prop :=
  (∀ a x, ((![v115, v297] : Fin 2 → IVec S16 32) a x).toNat < S64x128.size a)
instance k3_chk32.dec : ∀ (v115 : IVec S16 32) (v297 : IVec S16 32), Decidable (k3_chk32 v115 v297) := fun v115 v297 => decidable_of_iff' _ (Iff.of_eq (k3_chk32.eq_1 v115 v297))
theorem k3_idx32_inb : ∀ (v115 : IVec S16 32) (v297 : IVec S16 32) (k3_hw32 : k3_chk32 v115 v297), ∀ a x, ((![v115, v297] : Fin 2 → IVec S16 32) a x).toNat < S64x128.size a := fun v115 v297 k3_hw32 => k3_hw32

def k3_chk33 (v113 : IVec S16 32) (v306 : IVec S16 32) : Prop :=
  (∀ a x, ((![v113, v306] : Fin 2 → IVec S16 32) a x).toNat < S128x128.size a)
instance k3_chk33.dec : ∀ (v113 : IVec S16 32) (v306 : IVec S16 32), Decidable (k3_chk33 v113 v306) := fun v113 v306 => decidable_of_iff' _ (Iff.of_eq (k3_chk33.eq_1 v113 v306))
theorem k3_idx33_inb : ∀ (v113 : IVec S16 32) (v306 : IVec S16 32) (k3_hw33 : k3_chk33 v113 v306), ∀ a x, ((![v113, v306] : Fin 2 → IVec S16 32) a x).toNat < S128x128.size a := fun v113 v306 k3_hw33 => k3_hw33

def k3_chk34 (v115 : IVec S16 32) (v308 : IVec S16 32) : Prop :=
  (∀ a x, ((![v115, v308] : Fin 2 → IVec S16 32) a x).toNat < S64x128.size a)
instance k3_chk34.dec : ∀ (v115 : IVec S16 32) (v308 : IVec S16 32), Decidable (k3_chk34 v115 v308) := fun v115 v308 => decidable_of_iff' _ (Iff.of_eq (k3_chk34.eq_1 v115 v308))
theorem k3_idx34_inb : ∀ (v115 : IVec S16 32) (v308 : IVec S16 32) (k3_hw34 : k3_chk34 v115 v308), ∀ a x, ((![v115, v308] : Fin 2 → IVec S16 32) a x).toNat < S64x128.size a := fun v115 v308 k3_hw34 => k3_hw34

def k3_chk35 (v113 : IVec S16 32) (v317 : IVec S16 32) : Prop :=
  (∀ a x, ((![v113, v317] : Fin 2 → IVec S16 32) a x).toNat < S128x128.size a)
instance k3_chk35.dec : ∀ (v113 : IVec S16 32) (v317 : IVec S16 32), Decidable (k3_chk35 v113 v317) := fun v113 v317 => decidable_of_iff' _ (Iff.of_eq (k3_chk35.eq_1 v113 v317))
theorem k3_idx35_inb : ∀ (v113 : IVec S16 32) (v317 : IVec S16 32) (k3_hw35 : k3_chk35 v113 v317), ∀ a x, ((![v113, v317] : Fin 2 → IVec S16 32) a x).toNat < S128x128.size a := fun v113 v317 k3_hw35 => k3_hw35

def k3_chk36 (v115 : IVec S16 32) (v319 : IVec S16 32) : Prop :=
  (∀ a x, ((![v115, v319] : Fin 2 → IVec S16 32) a x).toNat < S64x128.size a)
instance k3_chk36.dec : ∀ (v115 : IVec S16 32) (v319 : IVec S16 32), Decidable (k3_chk36 v115 v319) := fun v115 v319 => decidable_of_iff' _ (Iff.of_eq (k3_chk36.eq_1 v115 v319))
theorem k3_idx36_inb : ∀ (v115 : IVec S16 32) (v319 : IVec S16 32) (k3_hw36 : k3_chk36 v115 v319), ∀ a x, ((![v115, v319] : Fin 2 → IVec S16 32) a x).toNat < S64x128.size a := fun v115 v319 k3_hw36 => k3_hw36

def k3_chk37 (v113 : IVec S16 32) (v328 : IVec S16 32) : Prop :=
  (∀ a x, ((![v113, v328] : Fin 2 → IVec S16 32) a x).toNat < S128x128.size a)
instance k3_chk37.dec : ∀ (v113 : IVec S16 32) (v328 : IVec S16 32), Decidable (k3_chk37 v113 v328) := fun v113 v328 => decidable_of_iff' _ (Iff.of_eq (k3_chk37.eq_1 v113 v328))
theorem k3_idx37_inb : ∀ (v113 : IVec S16 32) (v328 : IVec S16 32) (k3_hw37 : k3_chk37 v113 v328), ∀ a x, ((![v113, v328] : Fin 2 → IVec S16 32) a x).toNat < S128x128.size a := fun v113 v328 k3_hw37 => k3_hw37

def k3_chk38 (v115 : IVec S16 32) (v330 : IVec S16 32) : Prop :=
  (∀ a x, ((![v115, v330] : Fin 2 → IVec S16 32) a x).toNat < S64x128.size a)
instance k3_chk38.dec : ∀ (v115 : IVec S16 32) (v330 : IVec S16 32), Decidable (k3_chk38 v115 v330) := fun v115 v330 => decidable_of_iff' _ (Iff.of_eq (k3_chk38.eq_1 v115 v330))
theorem k3_idx38_inb : ∀ (v115 : IVec S16 32) (v330 : IVec S16 32) (k3_hw38 : k3_chk38 v115 v330), ∀ a x, ((![v115, v330] : Fin 2 → IVec S16 32) a x).toNat < S64x128.size a := fun v115 v330 k3_hw38 => k3_hw38

def k3_chk39 (v113 : IVec S16 32) (v339 : IVec S16 32) : Prop :=
  (∀ a x, ((![v113, v339] : Fin 2 → IVec S16 32) a x).toNat < S128x128.size a)
instance k3_chk39.dec : ∀ (v113 : IVec S16 32) (v339 : IVec S16 32), Decidable (k3_chk39 v113 v339) := fun v113 v339 => decidable_of_iff' _ (Iff.of_eq (k3_chk39.eq_1 v113 v339))
theorem k3_idx39_inb : ∀ (v113 : IVec S16 32) (v339 : IVec S16 32) (k3_hw39 : k3_chk39 v113 v339), ∀ a x, ((![v113, v339] : Fin 2 → IVec S16 32) a x).toNat < S128x128.size a := fun v113 v339 k3_hw39 => k3_hw39

def k3_chk40 (v115 : IVec S16 32) (v341 : IVec S16 32) : Prop :=
  (∀ a x, ((![v115, v341] : Fin 2 → IVec S16 32) a x).toNat < S64x128.size a)
instance k3_chk40.dec : ∀ (v115 : IVec S16 32) (v341 : IVec S16 32), Decidable (k3_chk40 v115 v341) := fun v115 v341 => decidable_of_iff' _ (Iff.of_eq (k3_chk40.eq_1 v115 v341))
theorem k3_idx40_inb : ∀ (v115 : IVec S16 32) (v341 : IVec S16 32) (k3_hw40 : k3_chk40 v115 v341), ∀ a x, ((![v115, v341] : Fin 2 → IVec S16 32) a x).toNat < S64x128.size a := fun v115 v341 k3_hw40 => k3_hw40

def k3_chk41 (v113 : IVec S16 32) (v350 : IVec S16 32) : Prop :=
  (∀ a x, ((![v113, v350] : Fin 2 → IVec S16 32) a x).toNat < S128x128.size a)
instance k3_chk41.dec : ∀ (v113 : IVec S16 32) (v350 : IVec S16 32), Decidable (k3_chk41 v113 v350) := fun v113 v350 => decidable_of_iff' _ (Iff.of_eq (k3_chk41.eq_1 v113 v350))
theorem k3_idx41_inb : ∀ (v113 : IVec S16 32) (v350 : IVec S16 32) (k3_hw41 : k3_chk41 v113 v350), ∀ a x, ((![v113, v350] : Fin 2 → IVec S16 32) a x).toNat < S128x128.size a := fun v113 v350 k3_hw41 => k3_hw41

def k3_chk42 (v115 : IVec S16 32) (v352 : IVec S16 32) : Prop :=
  (∀ a x, ((![v115, v352] : Fin 2 → IVec S16 32) a x).toNat < S64x128.size a)
instance k3_chk42.dec : ∀ (v115 : IVec S16 32) (v352 : IVec S16 32), Decidable (k3_chk42 v115 v352) := fun v115 v352 => decidable_of_iff' _ (Iff.of_eq (k3_chk42.eq_1 v115 v352))
theorem k3_idx42_inb : ∀ (v115 : IVec S16 32) (v352 : IVec S16 32) (k3_hw42 : k3_chk42 v115 v352), ∀ a x, ((![v115, v352] : Fin 2 → IVec S16 32) a x).toNat < S64x128.size a := fun v115 v352 k3_hw42 => k3_hw42

def k3_chk43 (v113 : IVec S16 32) (v361 : IVec S16 32) : Prop :=
  (∀ a x, ((![v113, v361] : Fin 2 → IVec S16 32) a x).toNat < S128x128.size a)
instance k3_chk43.dec : ∀ (v113 : IVec S16 32) (v361 : IVec S16 32), Decidable (k3_chk43 v113 v361) := fun v113 v361 => decidable_of_iff' _ (Iff.of_eq (k3_chk43.eq_1 v113 v361))
theorem k3_idx43_inb : ∀ (v113 : IVec S16 32) (v361 : IVec S16 32) (k3_hw43 : k3_chk43 v113 v361), ∀ a x, ((![v113, v361] : Fin 2 → IVec S16 32) a x).toNat < S128x128.size a := fun v113 v361 k3_hw43 => k3_hw43

def k3_chk44 (v115 : IVec S16 32) (v363 : IVec S16 32) : Prop :=
  (∀ a x, ((![v115, v363] : Fin 2 → IVec S16 32) a x).toNat < S64x128.size a)
instance k3_chk44.dec : ∀ (v115 : IVec S16 32) (v363 : IVec S16 32), Decidable (k3_chk44 v115 v363) := fun v115 v363 => decidable_of_iff' _ (Iff.of_eq (k3_chk44.eq_1 v115 v363))
theorem k3_idx44_inb : ∀ (v115 : IVec S16 32) (v363 : IVec S16 32) (k3_hw44 : k3_chk44 v115 v363), ∀ a x, ((![v115, v363] : Fin 2 → IVec S16 32) a x).toNat < S64x128.size a := fun v115 v363 k3_hw44 => k3_hw44

def k3_chk45 (v113 : IVec S16 32) (v372 : IVec S16 32) : Prop :=
  (∀ a x, ((![v113, v372] : Fin 2 → IVec S16 32) a x).toNat < S128x128.size a)
instance k3_chk45.dec : ∀ (v113 : IVec S16 32) (v372 : IVec S16 32), Decidable (k3_chk45 v113 v372) := fun v113 v372 => decidable_of_iff' _ (Iff.of_eq (k3_chk45.eq_1 v113 v372))
theorem k3_idx45_inb : ∀ (v113 : IVec S16 32) (v372 : IVec S16 32) (k3_hw45 : k3_chk45 v113 v372), ∀ a x, ((![v113, v372] : Fin 2 → IVec S16 32) a x).toNat < S128x128.size a := fun v113 v372 k3_hw45 => k3_hw45

def k3_chk46 (v115 : IVec S16 32) (v374 : IVec S16 32) : Prop :=
  (∀ a x, ((![v115, v374] : Fin 2 → IVec S16 32) a x).toNat < S64x128.size a)
instance k3_chk46.dec : ∀ (v115 : IVec S16 32) (v374 : IVec S16 32), Decidable (k3_chk46 v115 v374) := fun v115 v374 => decidable_of_iff' _ (Iff.of_eq (k3_chk46.eq_1 v115 v374))
theorem k3_idx46_inb : ∀ (v115 : IVec S16 32) (v374 : IVec S16 32) (k3_hw46 : k3_chk46 v115 v374), ∀ a x, ((![v115, v374] : Fin 2 → IVec S16 32) a x).toNat < S64x128.size a := fun v115 v374 k3_hw46 => k3_hw46

def k3_chk47 (v113 : IVec S16 32) (v383 : IVec S16 32) : Prop :=
  (∀ a x, ((![v113, v383] : Fin 2 → IVec S16 32) a x).toNat < S128x128.size a)
instance k3_chk47.dec : ∀ (v113 : IVec S16 32) (v383 : IVec S16 32), Decidable (k3_chk47 v113 v383) := fun v113 v383 => decidable_of_iff' _ (Iff.of_eq (k3_chk47.eq_1 v113 v383))
theorem k3_idx47_inb : ∀ (v113 : IVec S16 32) (v383 : IVec S16 32) (k3_hw47 : k3_chk47 v113 v383), ∀ a x, ((![v113, v383] : Fin 2 → IVec S16 32) a x).toNat < S128x128.size a := fun v113 v383 k3_hw47 => k3_hw47

def k3_chk48 (v115 : IVec S16 32) (v385 : IVec S16 32) : Prop :=
  (∀ a x, ((![v115, v385] : Fin 2 → IVec S16 32) a x).toNat < S64x128.size a)
instance k3_chk48.dec : ∀ (v115 : IVec S16 32) (v385 : IVec S16 32), Decidable (k3_chk48 v115 v385) := fun v115 v385 => decidable_of_iff' _ (Iff.of_eq (k3_chk48.eq_1 v115 v385))
theorem k3_idx48_inb : ∀ (v115 : IVec S16 32) (v385 : IVec S16 32) (k3_hw48 : k3_chk48 v115 v385), ∀ a x, ((![v115, v385] : Fin 2 → IVec S16 32) a x).toNat < S64x128.size a := fun v115 v385 k3_hw48 => k3_hw48

def k3_chk49 (v113 : IVec S16 32) (v394 : IVec S16 32) : Prop :=
  (∀ a x, ((![v113, v394] : Fin 2 → IVec S16 32) a x).toNat < S128x128.size a)
instance k3_chk49.dec : ∀ (v113 : IVec S16 32) (v394 : IVec S16 32), Decidable (k3_chk49 v113 v394) := fun v113 v394 => decidable_of_iff' _ (Iff.of_eq (k3_chk49.eq_1 v113 v394))
theorem k3_idx49_inb : ∀ (v113 : IVec S16 32) (v394 : IVec S16 32) (k3_hw49 : k3_chk49 v113 v394), ∀ a x, ((![v113, v394] : Fin 2 → IVec S16 32) a x).toNat < S128x128.size a := fun v113 v394 k3_hw49 => k3_hw49

def k3_chk50 (v115 : IVec S16 32) (v396 : IVec S16 32) : Prop :=
  (∀ a x, ((![v115, v396] : Fin 2 → IVec S16 32) a x).toNat < S64x128.size a)
instance k3_chk50.dec : ∀ (v115 : IVec S16 32) (v396 : IVec S16 32), Decidable (k3_chk50 v115 v396) := fun v115 v396 => decidable_of_iff' _ (Iff.of_eq (k3_chk50.eq_1 v115 v396))
theorem k3_idx50_inb : ∀ (v115 : IVec S16 32) (v396 : IVec S16 32) (k3_hw50 : k3_chk50 v115 v396), ∀ a x, ((![v115, v396] : Fin 2 → IVec S16 32) a x).toNat < S64x128.size a := fun v115 v396 k3_hw50 => k3_hw50

def k3_chk51 (v113 : IVec S16 32) (v405 : IVec S16 32) : Prop :=
  (∀ a x, ((![v113, v405] : Fin 2 → IVec S16 32) a x).toNat < S128x128.size a)
instance k3_chk51.dec : ∀ (v113 : IVec S16 32) (v405 : IVec S16 32), Decidable (k3_chk51 v113 v405) := fun v113 v405 => decidable_of_iff' _ (Iff.of_eq (k3_chk51.eq_1 v113 v405))
theorem k3_idx51_inb : ∀ (v113 : IVec S16 32) (v405 : IVec S16 32) (k3_hw51 : k3_chk51 v113 v405), ∀ a x, ((![v113, v405] : Fin 2 → IVec S16 32) a x).toNat < S128x128.size a := fun v113 v405 k3_hw51 => k3_hw51

def k3_chk52 (v115 : IVec S16 32) (v407 : IVec S16 32) : Prop :=
  (∀ a x, ((![v115, v407] : Fin 2 → IVec S16 32) a x).toNat < S64x128.size a)
instance k3_chk52.dec : ∀ (v115 : IVec S16 32) (v407 : IVec S16 32), Decidable (k3_chk52 v115 v407) := fun v115 v407 => decidable_of_iff' _ (Iff.of_eq (k3_chk52.eq_1 v115 v407))
theorem k3_idx52_inb : ∀ (v115 : IVec S16 32) (v407 : IVec S16 32) (k3_hw52 : k3_chk52 v115 v407), ∀ a x, ((![v115, v407] : Fin 2 → IVec S16 32) a x).toNat < S64x128.size a := fun v115 v407 k3_hw52 => k3_hw52

def k3_chk53 (v113 : IVec S16 32) (v416 : IVec S16 32) : Prop :=
  (∀ a x, ((![v113, v416] : Fin 2 → IVec S16 32) a x).toNat < S128x128.size a)
instance k3_chk53.dec : ∀ (v113 : IVec S16 32) (v416 : IVec S16 32), Decidable (k3_chk53 v113 v416) := fun v113 v416 => decidable_of_iff' _ (Iff.of_eq (k3_chk53.eq_1 v113 v416))
theorem k3_idx53_inb : ∀ (v113 : IVec S16 32) (v416 : IVec S16 32) (k3_hw53 : k3_chk53 v113 v416), ∀ a x, ((![v113, v416] : Fin 2 → IVec S16 32) a x).toNat < S128x128.size a := fun v113 v416 k3_hw53 => k3_hw53

def k3_chk54 (v115 : IVec S16 32) (v418 : IVec S16 32) : Prop :=
  (∀ a x, ((![v115, v418] : Fin 2 → IVec S16 32) a x).toNat < S64x128.size a)
instance k3_chk54.dec : ∀ (v115 : IVec S16 32) (v418 : IVec S16 32), Decidable (k3_chk54 v115 v418) := fun v115 v418 => decidable_of_iff' _ (Iff.of_eq (k3_chk54.eq_1 v115 v418))
theorem k3_idx54_inb : ∀ (v115 : IVec S16 32) (v418 : IVec S16 32) (k3_hw54 : k3_chk54 v115 v418), ∀ a x, ((![v115, v418] : Fin 2 → IVec S16 32) a x).toNat < S64x128.size a := fun v115 v418 k3_hw54 => k3_hw54

def k3_chk55 (v113 : IVec S16 32) (v427 : IVec S16 32) : Prop :=
  (∀ a x, ((![v113, v427] : Fin 2 → IVec S16 32) a x).toNat < S128x128.size a)
instance k3_chk55.dec : ∀ (v113 : IVec S16 32) (v427 : IVec S16 32), Decidable (k3_chk55 v113 v427) := fun v113 v427 => decidable_of_iff' _ (Iff.of_eq (k3_chk55.eq_1 v113 v427))
theorem k3_idx55_inb : ∀ (v113 : IVec S16 32) (v427 : IVec S16 32) (k3_hw55 : k3_chk55 v113 v427), ∀ a x, ((![v113, v427] : Fin 2 → IVec S16 32) a x).toNat < S128x128.size a := fun v113 v427 k3_hw55 => k3_hw55

def k3_chk56 (v115 : IVec S16 32) (v429 : IVec S16 32) : Prop :=
  (∀ a x, ((![v115, v429] : Fin 2 → IVec S16 32) a x).toNat < S64x128.size a)
instance k3_chk56.dec : ∀ (v115 : IVec S16 32) (v429 : IVec S16 32), Decidable (k3_chk56 v115 v429) := fun v115 v429 => decidable_of_iff' _ (Iff.of_eq (k3_chk56.eq_1 v115 v429))
theorem k3_idx56_inb : ∀ (v115 : IVec S16 32) (v429 : IVec S16 32) (k3_hw56 : k3_chk56 v115 v429), ∀ a x, ((![v115, v429] : Fin 2 → IVec S16 32) a x).toNat < S64x128.size a := fun v115 v429 k3_hw56 => k3_hw56

def k3_chk57 (v113 : IVec S16 32) (v438 : IVec S16 32) : Prop :=
  (∀ a x, ((![v113, v438] : Fin 2 → IVec S16 32) a x).toNat < S128x128.size a)
instance k3_chk57.dec : ∀ (v113 : IVec S16 32) (v438 : IVec S16 32), Decidable (k3_chk57 v113 v438) := fun v113 v438 => decidable_of_iff' _ (Iff.of_eq (k3_chk57.eq_1 v113 v438))
theorem k3_idx57_inb : ∀ (v113 : IVec S16 32) (v438 : IVec S16 32) (k3_hw57 : k3_chk57 v113 v438), ∀ a x, ((![v113, v438] : Fin 2 → IVec S16 32) a x).toNat < S128x128.size a := fun v113 v438 k3_hw57 => k3_hw57

def k3_chk58 (v115 : IVec S16 32) (v440 : IVec S16 32) : Prop :=
  (∀ a x, ((![v115, v440] : Fin 2 → IVec S16 32) a x).toNat < S64x128.size a)
instance k3_chk58.dec : ∀ (v115 : IVec S16 32) (v440 : IVec S16 32), Decidable (k3_chk58 v115 v440) := fun v115 v440 => decidable_of_iff' _ (Iff.of_eq (k3_chk58.eq_1 v115 v440))
theorem k3_idx58_inb : ∀ (v115 : IVec S16 32) (v440 : IVec S16 32) (k3_hw58 : k3_chk58 v115 v440), ∀ a x, ((![v115, v440] : Fin 2 → IVec S16 32) a x).toNat < S64x128.size a := fun v115 v440 k3_hw58 => k3_hw58

def k3_chk59 (v113 : IVec S16 32) (v449 : IVec S16 32) : Prop :=
  (∀ a x, ((![v113, v449] : Fin 2 → IVec S16 32) a x).toNat < S128x128.size a)
instance k3_chk59.dec : ∀ (v113 : IVec S16 32) (v449 : IVec S16 32), Decidable (k3_chk59 v113 v449) := fun v113 v449 => decidable_of_iff' _ (Iff.of_eq (k3_chk59.eq_1 v113 v449))
theorem k3_idx59_inb : ∀ (v113 : IVec S16 32) (v449 : IVec S16 32) (k3_hw59 : k3_chk59 v113 v449), ∀ a x, ((![v113, v449] : Fin 2 → IVec S16 32) a x).toNat < S128x128.size a := fun v113 v449 k3_hw59 => k3_hw59

def k3_chk60 (v115 : IVec S16 32) (v451 : IVec S16 32) : Prop :=
  (∀ a x, ((![v115, v451] : Fin 2 → IVec S16 32) a x).toNat < S64x128.size a)
instance k3_chk60.dec : ∀ (v115 : IVec S16 32) (v451 : IVec S16 32), Decidable (k3_chk60 v115 v451) := fun v115 v451 => decidable_of_iff' _ (Iff.of_eq (k3_chk60.eq_1 v115 v451))
theorem k3_idx60_inb : ∀ (v115 : IVec S16 32) (v451 : IVec S16 32) (k3_hw60 : k3_chk60 v115 v451), ∀ a x, ((![v115, v451] : Fin 2 → IVec S16 32) a x).toNat < S64x128.size a := fun v115 v451 k3_hw60 => k3_hw60

def k3_chk61 (v113 : IVec S16 32) (v460 : IVec S16 32) : Prop :=
  (∀ a x, ((![v113, v460] : Fin 2 → IVec S16 32) a x).toNat < S128x128.size a)
instance k3_chk61.dec : ∀ (v113 : IVec S16 32) (v460 : IVec S16 32), Decidable (k3_chk61 v113 v460) := fun v113 v460 => decidable_of_iff' _ (Iff.of_eq (k3_chk61.eq_1 v113 v460))
theorem k3_idx61_inb : ∀ (v113 : IVec S16 32) (v460 : IVec S16 32) (k3_hw61 : k3_chk61 v113 v460), ∀ a x, ((![v113, v460] : Fin 2 → IVec S16 32) a x).toNat < S128x128.size a := fun v113 v460 k3_hw61 => k3_hw61

def k3_chk62 (v115 : IVec S16 32) (v462 : IVec S16 32) : Prop :=
  (∀ a x, ((![v115, v462] : Fin 2 → IVec S16 32) a x).toNat < S64x128.size a)
instance k3_chk62.dec : ∀ (v115 : IVec S16 32) (v462 : IVec S16 32), Decidable (k3_chk62 v115 v462) := fun v115 v462 => decidable_of_iff' _ (Iff.of_eq (k3_chk62.eq_1 v115 v462))
theorem k3_idx62_inb : ∀ (v115 : IVec S16 32) (v462 : IVec S16 32) (k3_hw62 : k3_chk62 v115 v462), ∀ a x, ((![v115, v462] : Fin 2 → IVec S16 32) a x).toNat < S64x128.size a := fun v115 v462 k3_hw62 => k3_hw62

def k3_chk63 (v113 : IVec S16 32) (v471 : IVec S16 32) : Prop :=
  (∀ a x, ((![v113, v471] : Fin 2 → IVec S16 32) a x).toNat < S128x128.size a)
instance k3_chk63.dec : ∀ (v113 : IVec S16 32) (v471 : IVec S16 32), Decidable (k3_chk63 v113 v471) := fun v113 v471 => decidable_of_iff' _ (Iff.of_eq (k3_chk63.eq_1 v113 v471))
theorem k3_idx63_inb : ∀ (v113 : IVec S16 32) (v471 : IVec S16 32) (k3_hw63 : k3_chk63 v113 v471), ∀ a x, ((![v113, v471] : Fin 2 → IVec S16 32) a x).toNat < S128x128.size a := fun v113 v471 k3_hw63 => k3_hw63

def k3_chk64 (v115 : IVec S16 32) (v473 : IVec S16 32) : Prop :=
  (∀ a x, ((![v115, v473] : Fin 2 → IVec S16 32) a x).toNat < S64x128.size a)
instance k3_chk64.dec : ∀ (v115 : IVec S16 32) (v473 : IVec S16 32), Decidable (k3_chk64 v115 v473) := fun v115 v473 => decidable_of_iff' _ (Iff.of_eq (k3_chk64.eq_1 v115 v473))
theorem k3_idx64_inb : ∀ (v115 : IVec S16 32) (v473 : IVec S16 32) (k3_hw64 : k3_chk64 v115 v473), ∀ a x, ((![v115, v473] : Fin 2 → IVec S16 32) a x).toNat < S64x128.size a := fun v115 v473 k3_hw64 => k3_hw64

def k3_chk65 (v113 : IVec S16 32) (v482 : IVec S16 32) : Prop :=
  (∀ a x, ((![v113, v482] : Fin 2 → IVec S16 32) a x).toNat < S128x128.size a)
instance k3_chk65.dec : ∀ (v113 : IVec S16 32) (v482 : IVec S16 32), Decidable (k3_chk65 v113 v482) := fun v113 v482 => decidable_of_iff' _ (Iff.of_eq (k3_chk65.eq_1 v113 v482))
theorem k3_idx65_inb : ∀ (v113 : IVec S16 32) (v482 : IVec S16 32) (k3_hw65 : k3_chk65 v113 v482), ∀ a x, ((![v113, v482] : Fin 2 → IVec S16 32) a x).toNat < S128x128.size a := fun v113 v482 k3_hw65 => k3_hw65

def k3_chk66 (v115 : IVec S16 32) (v484 : IVec S16 32) : Prop :=
  (∀ a x, ((![v115, v484] : Fin 2 → IVec S16 32) a x).toNat < S64x128.size a)
instance k3_chk66.dec : ∀ (v115 : IVec S16 32) (v484 : IVec S16 32), Decidable (k3_chk66 v115 v484) := fun v115 v484 => decidable_of_iff' _ (Iff.of_eq (k3_chk66.eq_1 v115 v484))
theorem k3_idx66_inb : ∀ (v115 : IVec S16 32) (v484 : IVec S16 32) (k3_hw66 : k3_chk66 v115 v484), ∀ a x, ((![v115, v484] : Fin 2 → IVec S16 32) a x).toNat < S64x128.size a := fun v115 v484 k3_hw66 => k3_hw66

def k3_chk67 (v113 : IVec S16 32) (v493 : IVec S16 32) : Prop :=
  (∀ a x, ((![v113, v493] : Fin 2 → IVec S16 32) a x).toNat < S128x128.size a)
instance k3_chk67.dec : ∀ (v113 : IVec S16 32) (v493 : IVec S16 32), Decidable (k3_chk67 v113 v493) := fun v113 v493 => decidable_of_iff' _ (Iff.of_eq (k3_chk67.eq_1 v113 v493))
theorem k3_idx67_inb : ∀ (v113 : IVec S16 32) (v493 : IVec S16 32) (k3_hw67 : k3_chk67 v113 v493), ∀ a x, ((![v113, v493] : Fin 2 → IVec S16 32) a x).toNat < S128x128.size a := fun v113 v493 k3_hw67 => k3_hw67

def k3_chk68 (v115 : IVec S16 32) (v495 : IVec S16 32) : Prop :=
  (∀ a x, ((![v115, v495] : Fin 2 → IVec S16 32) a x).toNat < S64x128.size a)
instance k3_chk68.dec : ∀ (v115 : IVec S16 32) (v495 : IVec S16 32), Decidable (k3_chk68 v115 v495) := fun v115 v495 => decidable_of_iff' _ (Iff.of_eq (k3_chk68.eq_1 v115 v495))
theorem k3_idx68_inb : ∀ (v115 : IVec S16 32) (v495 : IVec S16 32) (k3_hw68 : k3_chk68 v115 v495), ∀ a x, ((![v115, v495] : Fin 2 → IVec S16 32) a x).toNat < S64x128.size a := fun v115 v495 k3_hw68 => k3_hw68

def k3_chk69 (v113 : IVec S16 32) (v504 : IVec S16 32) : Prop :=
  (∀ a x, ((![v113, v504] : Fin 2 → IVec S16 32) a x).toNat < S128x128.size a)
instance k3_chk69.dec : ∀ (v113 : IVec S16 32) (v504 : IVec S16 32), Decidable (k3_chk69 v113 v504) := fun v113 v504 => decidable_of_iff' _ (Iff.of_eq (k3_chk69.eq_1 v113 v504))
theorem k3_idx69_inb : ∀ (v113 : IVec S16 32) (v504 : IVec S16 32) (k3_hw69 : k3_chk69 v113 v504), ∀ a x, ((![v113, v504] : Fin 2 → IVec S16 32) a x).toNat < S128x128.size a := fun v113 v504 k3_hw69 => k3_hw69

def k3_chk70 (v115 : IVec S16 32) (v506 : IVec S16 32) : Prop :=
  (∀ a x, ((![v115, v506] : Fin 2 → IVec S16 32) a x).toNat < S64x128.size a)
instance k3_chk70.dec : ∀ (v115 : IVec S16 32) (v506 : IVec S16 32), Decidable (k3_chk70 v115 v506) := fun v115 v506 => decidable_of_iff' _ (Iff.of_eq (k3_chk70.eq_1 v115 v506))
theorem k3_idx70_inb : ∀ (v115 : IVec S16 32) (v506 : IVec S16 32) (k3_hw70 : k3_chk70 v115 v506), ∀ a x, ((![v115, v506] : Fin 2 → IVec S16 32) a x).toNat < S64x128.size a := fun v115 v506 k3_hw70 => k3_hw70

def k3_chk71 (v113 : IVec S16 32) (v515 : IVec S16 32) : Prop :=
  (∀ a x, ((![v113, v515] : Fin 2 → IVec S16 32) a x).toNat < S128x128.size a)
instance k3_chk71.dec : ∀ (v113 : IVec S16 32) (v515 : IVec S16 32), Decidable (k3_chk71 v113 v515) := fun v113 v515 => decidable_of_iff' _ (Iff.of_eq (k3_chk71.eq_1 v113 v515))
theorem k3_idx71_inb : ∀ (v113 : IVec S16 32) (v515 : IVec S16 32) (k3_hw71 : k3_chk71 v113 v515), ∀ a x, ((![v113, v515] : Fin 2 → IVec S16 32) a x).toNat < S128x128.size a := fun v113 v515 k3_hw71 => k3_hw71

def k3_chk72 (v115 : IVec S16 32) (v517 : IVec S16 32) : Prop :=
  (∀ a x, ((![v115, v517] : Fin 2 → IVec S16 32) a x).toNat < S64x128.size a)
instance k3_chk72.dec : ∀ (v115 : IVec S16 32) (v517 : IVec S16 32), Decidable (k3_chk72 v115 v517) := fun v115 v517 => decidable_of_iff' _ (Iff.of_eq (k3_chk72.eq_1 v115 v517))
theorem k3_idx72_inb : ∀ (v115 : IVec S16 32) (v517 : IVec S16 32) (k3_hw72 : k3_chk72 v115 v517), ∀ a x, ((![v115, v517] : Fin 2 → IVec S16 32) a x).toNat < S64x128.size a := fun v115 v517 k3_hw72 => k3_hw72

def k3_chk73 (v113 : IVec S16 32) (v526 : IVec S16 32) : Prop :=
  (∀ a x, ((![v113, v526] : Fin 2 → IVec S16 32) a x).toNat < S128x128.size a)
instance k3_chk73.dec : ∀ (v113 : IVec S16 32) (v526 : IVec S16 32), Decidable (k3_chk73 v113 v526) := fun v113 v526 => decidable_of_iff' _ (Iff.of_eq (k3_chk73.eq_1 v113 v526))
theorem k3_idx73_inb : ∀ (v113 : IVec S16 32) (v526 : IVec S16 32) (k3_hw73 : k3_chk73 v113 v526), ∀ a x, ((![v113, v526] : Fin 2 → IVec S16 32) a x).toNat < S128x128.size a := fun v113 v526 k3_hw73 => k3_hw73

def k3_chk74 (v115 : IVec S16 32) (v528 : IVec S16 32) : Prop :=
  (∀ a x, ((![v115, v528] : Fin 2 → IVec S16 32) a x).toNat < S64x128.size a)
instance k3_chk74.dec : ∀ (v115 : IVec S16 32) (v528 : IVec S16 32), Decidable (k3_chk74 v115 v528) := fun v115 v528 => decidable_of_iff' _ (Iff.of_eq (k3_chk74.eq_1 v115 v528))
theorem k3_idx74_inb : ∀ (v115 : IVec S16 32) (v528 : IVec S16 32) (k3_hw74 : k3_chk74 v115 v528), ∀ a x, ((![v115, v528] : Fin 2 → IVec S16 32) a x).toNat < S64x128.size a := fun v115 v528 k3_hw74 => k3_hw74

def k3_chk75 (v113 : IVec S16 32) (v537 : IVec S16 32) : Prop :=
  (∀ a x, ((![v113, v537] : Fin 2 → IVec S16 32) a x).toNat < S128x128.size a)
instance k3_chk75.dec : ∀ (v113 : IVec S16 32) (v537 : IVec S16 32), Decidable (k3_chk75 v113 v537) := fun v113 v537 => decidable_of_iff' _ (Iff.of_eq (k3_chk75.eq_1 v113 v537))
theorem k3_idx75_inb : ∀ (v113 : IVec S16 32) (v537 : IVec S16 32) (k3_hw75 : k3_chk75 v113 v537), ∀ a x, ((![v113, v537] : Fin 2 → IVec S16 32) a x).toNat < S128x128.size a := fun v113 v537 k3_hw75 => k3_hw75

def k3_chk76 (v115 : IVec S16 32) (v539 : IVec S16 32) : Prop :=
  (∀ a x, ((![v115, v539] : Fin 2 → IVec S16 32) a x).toNat < S64x128.size a)
instance k3_chk76.dec : ∀ (v115 : IVec S16 32) (v539 : IVec S16 32), Decidable (k3_chk76 v115 v539) := fun v115 v539 => decidable_of_iff' _ (Iff.of_eq (k3_chk76.eq_1 v115 v539))
theorem k3_idx76_inb : ∀ (v115 : IVec S16 32) (v539 : IVec S16 32) (k3_hw76 : k3_chk76 v115 v539), ∀ a x, ((![v115, v539] : Fin 2 → IVec S16 32) a x).toNat < S64x128.size a := fun v115 v539 k3_hw76 => k3_hw76

def k3_chk77 (v113 : IVec S16 32) (v548 : IVec S16 32) : Prop :=
  (∀ a x, ((![v113, v548] : Fin 2 → IVec S16 32) a x).toNat < S128x128.size a)
instance k3_chk77.dec : ∀ (v113 : IVec S16 32) (v548 : IVec S16 32), Decidable (k3_chk77 v113 v548) := fun v113 v548 => decidable_of_iff' _ (Iff.of_eq (k3_chk77.eq_1 v113 v548))
theorem k3_idx77_inb : ∀ (v113 : IVec S16 32) (v548 : IVec S16 32) (k3_hw77 : k3_chk77 v113 v548), ∀ a x, ((![v113, v548] : Fin 2 → IVec S16 32) a x).toNat < S128x128.size a := fun v113 v548 k3_hw77 => k3_hw77

def k3_chk78 (v115 : IVec S16 32) (v550 : IVec S16 32) : Prop :=
  (∀ a x, ((![v115, v550] : Fin 2 → IVec S16 32) a x).toNat < S64x128.size a)
instance k3_chk78.dec : ∀ (v115 : IVec S16 32) (v550 : IVec S16 32), Decidable (k3_chk78 v115 v550) := fun v115 v550 => decidable_of_iff' _ (Iff.of_eq (k3_chk78.eq_1 v115 v550))
theorem k3_idx78_inb : ∀ (v115 : IVec S16 32) (v550 : IVec S16 32) (k3_hw78 : k3_chk78 v115 v550), ∀ a x, ((![v115, v550] : Fin 2 → IVec S16 32) a x).toNat < S64x128.size a := fun v115 v550 k3_hw78 => k3_hw78

def k3_chk79 (v113 : IVec S16 32) (v559 : IVec S16 32) : Prop :=
  (∀ a x, ((![v113, v559] : Fin 2 → IVec S16 32) a x).toNat < S128x128.size a)
instance k3_chk79.dec : ∀ (v113 : IVec S16 32) (v559 : IVec S16 32), Decidable (k3_chk79 v113 v559) := fun v113 v559 => decidable_of_iff' _ (Iff.of_eq (k3_chk79.eq_1 v113 v559))
theorem k3_idx79_inb : ∀ (v113 : IVec S16 32) (v559 : IVec S16 32) (k3_hw79 : k3_chk79 v113 v559), ∀ a x, ((![v113, v559] : Fin 2 → IVec S16 32) a x).toNat < S128x128.size a := fun v113 v559 k3_hw79 => k3_hw79

def k3_chk80 (v115 : IVec S16 32) (v561 : IVec S16 32) : Prop :=
  (∀ a x, ((![v115, v561] : Fin 2 → IVec S16 32) a x).toNat < S64x128.size a)
instance k3_chk80.dec : ∀ (v115 : IVec S16 32) (v561 : IVec S16 32), Decidable (k3_chk80 v115 v561) := fun v115 v561 => decidable_of_iff' _ (Iff.of_eq (k3_chk80.eq_1 v115 v561))
theorem k3_idx80_inb : ∀ (v115 : IVec S16 32) (v561 : IVec S16 32) (k3_hw80 : k3_chk80 v115 v561), ∀ a x, ((![v115, v561] : Fin 2 → IVec S16 32) a x).toNat < S64x128.size a := fun v115 v561 k3_hw80 => k3_hw80

def k3_chk81 (v113 : IVec S16 32) (v570 : IVec S16 32) : Prop :=
  (∀ a x, ((![v113, v570] : Fin 2 → IVec S16 32) a x).toNat < S128x128.size a)
instance k3_chk81.dec : ∀ (v113 : IVec S16 32) (v570 : IVec S16 32), Decidable (k3_chk81 v113 v570) := fun v113 v570 => decidable_of_iff' _ (Iff.of_eq (k3_chk81.eq_1 v113 v570))
theorem k3_idx81_inb : ∀ (v113 : IVec S16 32) (v570 : IVec S16 32) (k3_hw81 : k3_chk81 v113 v570), ∀ a x, ((![v113, v570] : Fin 2 → IVec S16 32) a x).toNat < S128x128.size a := fun v113 v570 k3_hw81 => k3_hw81

def k3_chk82 (v115 : IVec S16 32) (v572 : IVec S16 32) : Prop :=
  (∀ a x, ((![v115, v572] : Fin 2 → IVec S16 32) a x).toNat < S64x128.size a)
instance k3_chk82.dec : ∀ (v115 : IVec S16 32) (v572 : IVec S16 32), Decidable (k3_chk82 v115 v572) := fun v115 v572 => decidable_of_iff' _ (Iff.of_eq (k3_chk82.eq_1 v115 v572))
theorem k3_idx82_inb : ∀ (v115 : IVec S16 32) (v572 : IVec S16 32) (k3_hw82 : k3_chk82 v115 v572), ∀ a x, ((![v115, v572] : Fin 2 → IVec S16 32) a x).toNat < S64x128.size a := fun v115 v572 k3_hw82 => k3_hw82

def k3_chk83 (v113 : IVec S16 32) (v581 : IVec S16 32) : Prop :=
  (∀ a x, ((![v113, v581] : Fin 2 → IVec S16 32) a x).toNat < S128x128.size a)
instance k3_chk83.dec : ∀ (v113 : IVec S16 32) (v581 : IVec S16 32), Decidable (k3_chk83 v113 v581) := fun v113 v581 => decidable_of_iff' _ (Iff.of_eq (k3_chk83.eq_1 v113 v581))
theorem k3_idx83_inb : ∀ (v113 : IVec S16 32) (v581 : IVec S16 32) (k3_hw83 : k3_chk83 v113 v581), ∀ a x, ((![v113, v581] : Fin 2 → IVec S16 32) a x).toNat < S128x128.size a := fun v113 v581 k3_hw83 => k3_hw83

def k3_chk84 (v115 : IVec S16 32) (v583 : IVec S16 32) : Prop :=
  (∀ a x, ((![v115, v583] : Fin 2 → IVec S16 32) a x).toNat < S64x128.size a)
instance k3_chk84.dec : ∀ (v115 : IVec S16 32) (v583 : IVec S16 32), Decidable (k3_chk84 v115 v583) := fun v115 v583 => decidable_of_iff' _ (Iff.of_eq (k3_chk84.eq_1 v115 v583))
theorem k3_idx84_inb : ∀ (v115 : IVec S16 32) (v583 : IVec S16 32) (k3_hw84 : k3_chk84 v115 v583), ∀ a x, ((![v115, v583] : Fin 2 → IVec S16 32) a x).toNat < S64x128.size a := fun v115 v583 k3_hw84 => k3_hw84

def k3_chk85 (v113 : IVec S16 32) (v592 : IVec S16 32) : Prop :=
  (∀ a x, ((![v113, v592] : Fin 2 → IVec S16 32) a x).toNat < S128x128.size a)
instance k3_chk85.dec : ∀ (v113 : IVec S16 32) (v592 : IVec S16 32), Decidable (k3_chk85 v113 v592) := fun v113 v592 => decidable_of_iff' _ (Iff.of_eq (k3_chk85.eq_1 v113 v592))
theorem k3_idx85_inb : ∀ (v113 : IVec S16 32) (v592 : IVec S16 32) (k3_hw85 : k3_chk85 v113 v592), ∀ a x, ((![v113, v592] : Fin 2 → IVec S16 32) a x).toNat < S128x128.size a := fun v113 v592 k3_hw85 => k3_hw85

def k3_chk86 (v115 : IVec S16 32) (v594 : IVec S16 32) : Prop :=
  (∀ a x, ((![v115, v594] : Fin 2 → IVec S16 32) a x).toNat < S64x128.size a)
instance k3_chk86.dec : ∀ (v115 : IVec S16 32) (v594 : IVec S16 32), Decidable (k3_chk86 v115 v594) := fun v115 v594 => decidable_of_iff' _ (Iff.of_eq (k3_chk86.eq_1 v115 v594))
theorem k3_idx86_inb : ∀ (v115 : IVec S16 32) (v594 : IVec S16 32) (k3_hw86 : k3_chk86 v115 v594), ∀ a x, ((![v115, v594] : Fin 2 → IVec S16 32) a x).toNat < S64x128.size a := fun v115 v594 k3_hw86 => k3_hw86

def k3_chk87 (v113 : IVec S16 32) (v603 : IVec S16 32) : Prop :=
  (∀ a x, ((![v113, v603] : Fin 2 → IVec S16 32) a x).toNat < S128x128.size a)
instance k3_chk87.dec : ∀ (v113 : IVec S16 32) (v603 : IVec S16 32), Decidable (k3_chk87 v113 v603) := fun v113 v603 => decidable_of_iff' _ (Iff.of_eq (k3_chk87.eq_1 v113 v603))
theorem k3_idx87_inb : ∀ (v113 : IVec S16 32) (v603 : IVec S16 32) (k3_hw87 : k3_chk87 v113 v603), ∀ a x, ((![v113, v603] : Fin 2 → IVec S16 32) a x).toNat < S128x128.size a := fun v113 v603 k3_hw87 => k3_hw87

def k3_chk88 (v115 : IVec S16 32) (v605 : IVec S16 32) : Prop :=
  (∀ a x, ((![v115, v605] : Fin 2 → IVec S16 32) a x).toNat < S64x128.size a)
instance k3_chk88.dec : ∀ (v115 : IVec S16 32) (v605 : IVec S16 32), Decidable (k3_chk88 v115 v605) := fun v115 v605 => decidable_of_iff' _ (Iff.of_eq (k3_chk88.eq_1 v115 v605))
theorem k3_idx88_inb : ∀ (v115 : IVec S16 32) (v605 : IVec S16 32) (k3_hw88 : k3_chk88 v115 v605), ∀ a x, ((![v115, v605] : Fin 2 → IVec S16 32) a x).toNat < S64x128.size a := fun v115 v605 k3_hw88 => k3_hw88

def k3_chk89 (v113 : IVec S16 32) (v614 : IVec S16 32) : Prop :=
  (∀ a x, ((![v113, v614] : Fin 2 → IVec S16 32) a x).toNat < S128x128.size a)
instance k3_chk89.dec : ∀ (v113 : IVec S16 32) (v614 : IVec S16 32), Decidable (k3_chk89 v113 v614) := fun v113 v614 => decidable_of_iff' _ (Iff.of_eq (k3_chk89.eq_1 v113 v614))
theorem k3_idx89_inb : ∀ (v113 : IVec S16 32) (v614 : IVec S16 32) (k3_hw89 : k3_chk89 v113 v614), ∀ a x, ((![v113, v614] : Fin 2 → IVec S16 32) a x).toNat < S128x128.size a := fun v113 v614 k3_hw89 => k3_hw89

def k3_chk90 (v115 : IVec S16 32) (v616 : IVec S16 32) : Prop :=
  (∀ a x, ((![v115, v616] : Fin 2 → IVec S16 32) a x).toNat < S64x128.size a)
instance k3_chk90.dec : ∀ (v115 : IVec S16 32) (v616 : IVec S16 32), Decidable (k3_chk90 v115 v616) := fun v115 v616 => decidable_of_iff' _ (Iff.of_eq (k3_chk90.eq_1 v115 v616))
theorem k3_idx90_inb : ∀ (v115 : IVec S16 32) (v616 : IVec S16 32) (k3_hw90 : k3_chk90 v115 v616), ∀ a x, ((![v115, v616] : Fin 2 → IVec S16 32) a x).toNat < S64x128.size a := fun v115 v616 k3_hw90 => k3_hw90

def k3_chk91 (v113 : IVec S16 32) (v625 : IVec S16 32) : Prop :=
  (∀ a x, ((![v113, v625] : Fin 2 → IVec S16 32) a x).toNat < S128x128.size a)
instance k3_chk91.dec : ∀ (v113 : IVec S16 32) (v625 : IVec S16 32), Decidable (k3_chk91 v113 v625) := fun v113 v625 => decidable_of_iff' _ (Iff.of_eq (k3_chk91.eq_1 v113 v625))
theorem k3_idx91_inb : ∀ (v113 : IVec S16 32) (v625 : IVec S16 32) (k3_hw91 : k3_chk91 v113 v625), ∀ a x, ((![v113, v625] : Fin 2 → IVec S16 32) a x).toNat < S128x128.size a := fun v113 v625 k3_hw91 => k3_hw91

def k3_chk92 (v115 : IVec S16 32) (v627 : IVec S16 32) : Prop :=
  (∀ a x, ((![v115, v627] : Fin 2 → IVec S16 32) a x).toNat < S64x128.size a)
instance k3_chk92.dec : ∀ (v115 : IVec S16 32) (v627 : IVec S16 32), Decidable (k3_chk92 v115 v627) := fun v115 v627 => decidable_of_iff' _ (Iff.of_eq (k3_chk92.eq_1 v115 v627))
theorem k3_idx92_inb : ∀ (v115 : IVec S16 32) (v627 : IVec S16 32) (k3_hw92 : k3_chk92 v115 v627), ∀ a x, ((![v115, v627] : Fin 2 → IVec S16 32) a x).toNat < S64x128.size a := fun v115 v627 k3_hw92 => k3_hw92

def k3_chk93 (v113 : IVec S16 32) (v636 : IVec S16 32) : Prop :=
  (∀ a x, ((![v113, v636] : Fin 2 → IVec S16 32) a x).toNat < S128x128.size a)
instance k3_chk93.dec : ∀ (v113 : IVec S16 32) (v636 : IVec S16 32), Decidable (k3_chk93 v113 v636) := fun v113 v636 => decidable_of_iff' _ (Iff.of_eq (k3_chk93.eq_1 v113 v636))
theorem k3_idx93_inb : ∀ (v113 : IVec S16 32) (v636 : IVec S16 32) (k3_hw93 : k3_chk93 v113 v636), ∀ a x, ((![v113, v636] : Fin 2 → IVec S16 32) a x).toNat < S128x128.size a := fun v113 v636 k3_hw93 => k3_hw93

def k3_chk94 (v115 : IVec S16 32) (v638 : IVec S16 32) : Prop :=
  (∀ a x, ((![v115, v638] : Fin 2 → IVec S16 32) a x).toNat < S64x128.size a)
instance k3_chk94.dec : ∀ (v115 : IVec S16 32) (v638 : IVec S16 32), Decidable (k3_chk94 v115 v638) := fun v115 v638 => decidable_of_iff' _ (Iff.of_eq (k3_chk94.eq_1 v115 v638))
theorem k3_idx94_inb : ∀ (v115 : IVec S16 32) (v638 : IVec S16 32) (k3_hw94 : k3_chk94 v115 v638), ∀ a x, ((![v115, v638] : Fin 2 → IVec S16 32) a x).toNat < S64x128.size a := fun v115 v638 k3_hw94 => k3_hw94

def k3_chk95 (v113 : IVec S16 32) (v647 : IVec S16 32) : Prop :=
  (∀ a x, ((![v113, v647] : Fin 2 → IVec S16 32) a x).toNat < S128x128.size a)
instance k3_chk95.dec : ∀ (v113 : IVec S16 32) (v647 : IVec S16 32), Decidable (k3_chk95 v113 v647) := fun v113 v647 => decidable_of_iff' _ (Iff.of_eq (k3_chk95.eq_1 v113 v647))
theorem k3_idx95_inb : ∀ (v113 : IVec S16 32) (v647 : IVec S16 32) (k3_hw95 : k3_chk95 v113 v647), ∀ a x, ((![v113, v647] : Fin 2 → IVec S16 32) a x).toNat < S128x128.size a := fun v113 v647 k3_hw95 => k3_hw95

def k3_chk96 (v115 : IVec S16 32) (v649 : IVec S16 32) : Prop :=
  (∀ a x, ((![v115, v649] : Fin 2 → IVec S16 32) a x).toNat < S64x128.size a)
instance k3_chk96.dec : ∀ (v115 : IVec S16 32) (v649 : IVec S16 32), Decidable (k3_chk96 v115 v649) := fun v115 v649 => decidable_of_iff' _ (Iff.of_eq (k3_chk96.eq_1 v115 v649))
theorem k3_idx96_inb : ∀ (v115 : IVec S16 32) (v649 : IVec S16 32) (k3_hw96 : k3_chk96 v115 v649), ∀ a x, ((![v115, v649] : Fin 2 → IVec S16 32) a x).toNat < S64x128.size a := fun v115 v649 k3_hw96 => k3_hw96

def k3_chk97 (v113 : IVec S16 32) (v658 : IVec S16 32) : Prop :=
  (∀ a x, ((![v113, v658] : Fin 2 → IVec S16 32) a x).toNat < S128x128.size a)
instance k3_chk97.dec : ∀ (v113 : IVec S16 32) (v658 : IVec S16 32), Decidable (k3_chk97 v113 v658) := fun v113 v658 => decidable_of_iff' _ (Iff.of_eq (k3_chk97.eq_1 v113 v658))
theorem k3_idx97_inb : ∀ (v113 : IVec S16 32) (v658 : IVec S16 32) (k3_hw97 : k3_chk97 v113 v658), ∀ a x, ((![v113, v658] : Fin 2 → IVec S16 32) a x).toNat < S128x128.size a := fun v113 v658 k3_hw97 => k3_hw97

def k3_chk98 (v115 : IVec S16 32) (v660 : IVec S16 32) : Prop :=
  (∀ a x, ((![v115, v660] : Fin 2 → IVec S16 32) a x).toNat < S64x128.size a)
instance k3_chk98.dec : ∀ (v115 : IVec S16 32) (v660 : IVec S16 32), Decidable (k3_chk98 v115 v660) := fun v115 v660 => decidable_of_iff' _ (Iff.of_eq (k3_chk98.eq_1 v115 v660))
theorem k3_idx98_inb : ∀ (v115 : IVec S16 32) (v660 : IVec S16 32) (k3_hw98 : k3_chk98 v115 v660), ∀ a x, ((![v115, v660] : Fin 2 → IVec S16 32) a x).toNat < S64x128.size a := fun v115 v660 k3_hw98 => k3_hw98

def k3_chk99 (v113 : IVec S16 32) (v669 : IVec S16 32) : Prop :=
  (∀ a x, ((![v113, v669] : Fin 2 → IVec S16 32) a x).toNat < S128x128.size a)
instance k3_chk99.dec : ∀ (v113 : IVec S16 32) (v669 : IVec S16 32), Decidable (k3_chk99 v113 v669) := fun v113 v669 => decidable_of_iff' _ (Iff.of_eq (k3_chk99.eq_1 v113 v669))
theorem k3_idx99_inb : ∀ (v113 : IVec S16 32) (v669 : IVec S16 32) (k3_hw99 : k3_chk99 v113 v669), ∀ a x, ((![v113, v669] : Fin 2 → IVec S16 32) a x).toNat < S128x128.size a := fun v113 v669 k3_hw99 => k3_hw99

def k3_chk100 (v115 : IVec S16 32) (v671 : IVec S16 32) : Prop :=
  (∀ a x, ((![v115, v671] : Fin 2 → IVec S16 32) a x).toNat < S64x128.size a)
instance k3_chk100.dec : ∀ (v115 : IVec S16 32) (v671 : IVec S16 32), Decidable (k3_chk100 v115 v671) := fun v115 v671 => decidable_of_iff' _ (Iff.of_eq (k3_chk100.eq_1 v115 v671))
theorem k3_idx100_inb : ∀ (v115 : IVec S16 32) (v671 : IVec S16 32) (k3_hw100 : k3_chk100 v115 v671), ∀ a x, ((![v115, v671] : Fin 2 → IVec S16 32) a x).toNat < S64x128.size a := fun v115 v671 k3_hw100 => k3_hw100

def k3_chk101 (v113 : IVec S16 32) (v680 : IVec S16 32) : Prop :=
  (∀ a x, ((![v113, v680] : Fin 2 → IVec S16 32) a x).toNat < S128x128.size a)
instance k3_chk101.dec : ∀ (v113 : IVec S16 32) (v680 : IVec S16 32), Decidable (k3_chk101 v113 v680) := fun v113 v680 => decidable_of_iff' _ (Iff.of_eq (k3_chk101.eq_1 v113 v680))
theorem k3_idx101_inb : ∀ (v113 : IVec S16 32) (v680 : IVec S16 32) (k3_hw101 : k3_chk101 v113 v680), ∀ a x, ((![v113, v680] : Fin 2 → IVec S16 32) a x).toNat < S128x128.size a := fun v113 v680 k3_hw101 => k3_hw101

def k3_chk102 (v115 : IVec S16 32) (v682 : IVec S16 32) : Prop :=
  (∀ a x, ((![v115, v682] : Fin 2 → IVec S16 32) a x).toNat < S64x128.size a)
instance k3_chk102.dec : ∀ (v115 : IVec S16 32) (v682 : IVec S16 32), Decidable (k3_chk102 v115 v682) := fun v115 v682 => decidable_of_iff' _ (Iff.of_eq (k3_chk102.eq_1 v115 v682))
theorem k3_idx102_inb : ∀ (v115 : IVec S16 32) (v682 : IVec S16 32) (k3_hw102 : k3_chk102 v115 v682), ∀ a x, ((![v115, v682] : Fin 2 → IVec S16 32) a x).toNat < S64x128.size a := fun v115 v682 k3_hw102 => k3_hw102

def k3_chk103 (v113 : IVec S16 32) (v691 : IVec S16 32) : Prop :=
  (∀ a x, ((![v113, v691] : Fin 2 → IVec S16 32) a x).toNat < S128x128.size a)
instance k3_chk103.dec : ∀ (v113 : IVec S16 32) (v691 : IVec S16 32), Decidable (k3_chk103 v113 v691) := fun v113 v691 => decidable_of_iff' _ (Iff.of_eq (k3_chk103.eq_1 v113 v691))
theorem k3_idx103_inb : ∀ (v113 : IVec S16 32) (v691 : IVec S16 32) (k3_hw103 : k3_chk103 v113 v691), ∀ a x, ((![v113, v691] : Fin 2 → IVec S16 32) a x).toNat < S128x128.size a := fun v113 v691 k3_hw103 => k3_hw103

def k3_chk104 (v115 : IVec S16 32) (v693 : IVec S16 32) : Prop :=
  (∀ a x, ((![v115, v693] : Fin 2 → IVec S16 32) a x).toNat < S64x128.size a)
instance k3_chk104.dec : ∀ (v115 : IVec S16 32) (v693 : IVec S16 32), Decidable (k3_chk104 v115 v693) := fun v115 v693 => decidable_of_iff' _ (Iff.of_eq (k3_chk104.eq_1 v115 v693))
theorem k3_idx104_inb : ∀ (v115 : IVec S16 32) (v693 : IVec S16 32) (k3_hw104 : k3_chk104 v115 v693), ∀ a x, ((![v115, v693] : Fin 2 → IVec S16 32) a x).toNat < S64x128.size a := fun v115 v693 k3_hw104 => k3_hw104

def k3_chk105 (v113 : IVec S16 32) (v702 : IVec S16 32) : Prop :=
  (∀ a x, ((![v113, v702] : Fin 2 → IVec S16 32) a x).toNat < S128x128.size a)
instance k3_chk105.dec : ∀ (v113 : IVec S16 32) (v702 : IVec S16 32), Decidable (k3_chk105 v113 v702) := fun v113 v702 => decidable_of_iff' _ (Iff.of_eq (k3_chk105.eq_1 v113 v702))
theorem k3_idx105_inb : ∀ (v113 : IVec S16 32) (v702 : IVec S16 32) (k3_hw105 : k3_chk105 v113 v702), ∀ a x, ((![v113, v702] : Fin 2 → IVec S16 32) a x).toNat < S128x128.size a := fun v113 v702 k3_hw105 => k3_hw105

def k3_chk106 (v115 : IVec S16 32) (v704 : IVec S16 32) : Prop :=
  (∀ a x, ((![v115, v704] : Fin 2 → IVec S16 32) a x).toNat < S64x128.size a)
instance k3_chk106.dec : ∀ (v115 : IVec S16 32) (v704 : IVec S16 32), Decidable (k3_chk106 v115 v704) := fun v115 v704 => decidable_of_iff' _ (Iff.of_eq (k3_chk106.eq_1 v115 v704))
theorem k3_idx106_inb : ∀ (v115 : IVec S16 32) (v704 : IVec S16 32) (k3_hw106 : k3_chk106 v115 v704), ∀ a x, ((![v115, v704] : Fin 2 → IVec S16 32) a x).toNat < S64x128.size a := fun v115 v704 k3_hw106 => k3_hw106

def k3_chk107 (v113 : IVec S16 32) (v713 : IVec S16 32) : Prop :=
  (∀ a x, ((![v113, v713] : Fin 2 → IVec S16 32) a x).toNat < S128x128.size a)
instance k3_chk107.dec : ∀ (v113 : IVec S16 32) (v713 : IVec S16 32), Decidable (k3_chk107 v113 v713) := fun v113 v713 => decidable_of_iff' _ (Iff.of_eq (k3_chk107.eq_1 v113 v713))
theorem k3_idx107_inb : ∀ (v113 : IVec S16 32) (v713 : IVec S16 32) (k3_hw107 : k3_chk107 v113 v713), ∀ a x, ((![v113, v713] : Fin 2 → IVec S16 32) a x).toNat < S128x128.size a := fun v113 v713 k3_hw107 => k3_hw107

def k3_chk108 (v115 : IVec S16 32) (v715 : IVec S16 32) : Prop :=
  (∀ a x, ((![v115, v715] : Fin 2 → IVec S16 32) a x).toNat < S64x128.size a)
instance k3_chk108.dec : ∀ (v115 : IVec S16 32) (v715 : IVec S16 32), Decidable (k3_chk108 v115 v715) := fun v115 v715 => decidable_of_iff' _ (Iff.of_eq (k3_chk108.eq_1 v115 v715))
theorem k3_idx108_inb : ∀ (v115 : IVec S16 32) (v715 : IVec S16 32) (k3_hw108 : k3_chk108 v115 v715), ∀ a x, ((![v115, v715] : Fin 2 → IVec S16 32) a x).toNat < S64x128.size a := fun v115 v715 k3_hw108 => k3_hw108

def k3_chk109 (v113 : IVec S16 32) (v724 : IVec S16 32) : Prop :=
  (∀ a x, ((![v113, v724] : Fin 2 → IVec S16 32) a x).toNat < S128x128.size a)
instance k3_chk109.dec : ∀ (v113 : IVec S16 32) (v724 : IVec S16 32), Decidable (k3_chk109 v113 v724) := fun v113 v724 => decidable_of_iff' _ (Iff.of_eq (k3_chk109.eq_1 v113 v724))
theorem k3_idx109_inb : ∀ (v113 : IVec S16 32) (v724 : IVec S16 32) (k3_hw109 : k3_chk109 v113 v724), ∀ a x, ((![v113, v724] : Fin 2 → IVec S16 32) a x).toNat < S128x128.size a := fun v113 v724 k3_hw109 => k3_hw109

def k3_chk110 (v115 : IVec S16 32) (v726 : IVec S16 32) : Prop :=
  (∀ a x, ((![v115, v726] : Fin 2 → IVec S16 32) a x).toNat < S64x128.size a)
instance k3_chk110.dec : ∀ (v115 : IVec S16 32) (v726 : IVec S16 32), Decidable (k3_chk110 v115 v726) := fun v115 v726 => decidable_of_iff' _ (Iff.of_eq (k3_chk110.eq_1 v115 v726))
theorem k3_idx110_inb : ∀ (v115 : IVec S16 32) (v726 : IVec S16 32) (k3_hw110 : k3_chk110 v115 v726), ∀ a x, ((![v115, v726] : Fin 2 → IVec S16 32) a x).toNat < S64x128.size a := fun v115 v726 k3_hw110 => k3_hw110

def k3_chk111 (v113 : IVec S16 32) (v735 : IVec S16 32) : Prop :=
  (∀ a x, ((![v113, v735] : Fin 2 → IVec S16 32) a x).toNat < S128x128.size a)
instance k3_chk111.dec : ∀ (v113 : IVec S16 32) (v735 : IVec S16 32), Decidable (k3_chk111 v113 v735) := fun v113 v735 => decidable_of_iff' _ (Iff.of_eq (k3_chk111.eq_1 v113 v735))
theorem k3_idx111_inb : ∀ (v113 : IVec S16 32) (v735 : IVec S16 32) (k3_hw111 : k3_chk111 v113 v735), ∀ a x, ((![v113, v735] : Fin 2 → IVec S16 32) a x).toNat < S128x128.size a := fun v113 v735 k3_hw111 => k3_hw111

def k3_chk112 (v115 : IVec S16 32) (v737 : IVec S16 32) : Prop :=
  (∀ a x, ((![v115, v737] : Fin 2 → IVec S16 32) a x).toNat < S64x128.size a)
instance k3_chk112.dec : ∀ (v115 : IVec S16 32) (v737 : IVec S16 32), Decidable (k3_chk112 v115 v737) := fun v115 v737 => decidable_of_iff' _ (Iff.of_eq (k3_chk112.eq_1 v115 v737))
theorem k3_idx112_inb : ∀ (v115 : IVec S16 32) (v737 : IVec S16 32) (k3_hw112 : k3_chk112 v115 v737), ∀ a x, ((![v115, v737] : Fin 2 → IVec S16 32) a x).toNat < S64x128.size a := fun v115 v737 k3_hw112 => k3_hw112

def k3_chk113 (v113 : IVec S16 32) (v746 : IVec S16 32) : Prop :=
  (∀ a x, ((![v113, v746] : Fin 2 → IVec S16 32) a x).toNat < S128x128.size a)
instance k3_chk113.dec : ∀ (v113 : IVec S16 32) (v746 : IVec S16 32), Decidable (k3_chk113 v113 v746) := fun v113 v746 => decidable_of_iff' _ (Iff.of_eq (k3_chk113.eq_1 v113 v746))
theorem k3_idx113_inb : ∀ (v113 : IVec S16 32) (v746 : IVec S16 32) (k3_hw113 : k3_chk113 v113 v746), ∀ a x, ((![v113, v746] : Fin 2 → IVec S16 32) a x).toNat < S128x128.size a := fun v113 v746 k3_hw113 => k3_hw113

def k3_chk114 (v115 : IVec S16 32) (v748 : IVec S16 32) : Prop :=
  (∀ a x, ((![v115, v748] : Fin 2 → IVec S16 32) a x).toNat < S64x128.size a)
instance k3_chk114.dec : ∀ (v115 : IVec S16 32) (v748 : IVec S16 32), Decidable (k3_chk114 v115 v748) := fun v115 v748 => decidable_of_iff' _ (Iff.of_eq (k3_chk114.eq_1 v115 v748))
theorem k3_idx114_inb : ∀ (v115 : IVec S16 32) (v748 : IVec S16 32) (k3_hw114 : k3_chk114 v115 v748), ∀ a x, ((![v115, v748] : Fin 2 → IVec S16 32) a x).toNat < S64x128.size a := fun v115 v748 k3_hw114 => k3_hw114

def k3_chk115 (v113 : IVec S16 32) (v757 : IVec S16 32) : Prop :=
  (∀ a x, ((![v113, v757] : Fin 2 → IVec S16 32) a x).toNat < S128x128.size a)
instance k3_chk115.dec : ∀ (v113 : IVec S16 32) (v757 : IVec S16 32), Decidable (k3_chk115 v113 v757) := fun v113 v757 => decidable_of_iff' _ (Iff.of_eq (k3_chk115.eq_1 v113 v757))
theorem k3_idx115_inb : ∀ (v113 : IVec S16 32) (v757 : IVec S16 32) (k3_hw115 : k3_chk115 v113 v757), ∀ a x, ((![v113, v757] : Fin 2 → IVec S16 32) a x).toNat < S128x128.size a := fun v113 v757 k3_hw115 => k3_hw115

def k3_chk116 (v115 : IVec S16 32) (v759 : IVec S16 32) : Prop :=
  (∀ a x, ((![v115, v759] : Fin 2 → IVec S16 32) a x).toNat < S64x128.size a)
instance k3_chk116.dec : ∀ (v115 : IVec S16 32) (v759 : IVec S16 32), Decidable (k3_chk116 v115 v759) := fun v115 v759 => decidable_of_iff' _ (Iff.of_eq (k3_chk116.eq_1 v115 v759))
theorem k3_idx116_inb : ∀ (v115 : IVec S16 32) (v759 : IVec S16 32) (k3_hw116 : k3_chk116 v115 v759), ∀ a x, ((![v115, v759] : Fin 2 → IVec S16 32) a x).toNat < S64x128.size a := fun v115 v759 k3_hw116 => k3_hw116

def k3_chk117 (v113 : IVec S16 32) (v768 : IVec S16 32) : Prop :=
  (∀ a x, ((![v113, v768] : Fin 2 → IVec S16 32) a x).toNat < S128x128.size a)
instance k3_chk117.dec : ∀ (v113 : IVec S16 32) (v768 : IVec S16 32), Decidable (k3_chk117 v113 v768) := fun v113 v768 => decidable_of_iff' _ (Iff.of_eq (k3_chk117.eq_1 v113 v768))
theorem k3_idx117_inb : ∀ (v113 : IVec S16 32) (v768 : IVec S16 32) (k3_hw117 : k3_chk117 v113 v768), ∀ a x, ((![v113, v768] : Fin 2 → IVec S16 32) a x).toNat < S128x128.size a := fun v113 v768 k3_hw117 => k3_hw117

def k3_chk118 (v115 : IVec S16 32) (v770 : IVec S16 32) : Prop :=
  (∀ a x, ((![v115, v770] : Fin 2 → IVec S16 32) a x).toNat < S64x128.size a)
instance k3_chk118.dec : ∀ (v115 : IVec S16 32) (v770 : IVec S16 32), Decidable (k3_chk118 v115 v770) := fun v115 v770 => decidable_of_iff' _ (Iff.of_eq (k3_chk118.eq_1 v115 v770))
theorem k3_idx118_inb : ∀ (v115 : IVec S16 32) (v770 : IVec S16 32) (k3_hw118 : k3_chk118 v115 v770), ∀ a x, ((![v115, v770] : Fin 2 → IVec S16 32) a x).toNat < S64x128.size a := fun v115 v770 k3_hw118 => k3_hw118

def k3_chk119 (v113 : IVec S16 32) (v779 : IVec S16 32) : Prop :=
  (∀ a x, ((![v113, v779] : Fin 2 → IVec S16 32) a x).toNat < S128x128.size a)
instance k3_chk119.dec : ∀ (v113 : IVec S16 32) (v779 : IVec S16 32), Decidable (k3_chk119 v113 v779) := fun v113 v779 => decidable_of_iff' _ (Iff.of_eq (k3_chk119.eq_1 v113 v779))
theorem k3_idx119_inb : ∀ (v113 : IVec S16 32) (v779 : IVec S16 32) (k3_hw119 : k3_chk119 v113 v779), ∀ a x, ((![v113, v779] : Fin 2 → IVec S16 32) a x).toNat < S128x128.size a := fun v113 v779 k3_hw119 => k3_hw119

def k3_chk120 (v115 : IVec S16 32) (v781 : IVec S16 32) : Prop :=
  (∀ a x, ((![v115, v781] : Fin 2 → IVec S16 32) a x).toNat < S64x128.size a)
instance k3_chk120.dec : ∀ (v115 : IVec S16 32) (v781 : IVec S16 32), Decidable (k3_chk120 v115 v781) := fun v115 v781 => decidable_of_iff' _ (Iff.of_eq (k3_chk120.eq_1 v115 v781))
theorem k3_idx120_inb : ∀ (v115 : IVec S16 32) (v781 : IVec S16 32) (k3_hw120 : k3_chk120 v115 v781), ∀ a x, ((![v115, v781] : Fin 2 → IVec S16 32) a x).toNat < S64x128.size a := fun v115 v781 k3_hw120 => k3_hw120

def k3_chk121 (v113 : IVec S16 32) (v790 : IVec S16 32) : Prop :=
  (∀ a x, ((![v113, v790] : Fin 2 → IVec S16 32) a x).toNat < S128x128.size a)
instance k3_chk121.dec : ∀ (v113 : IVec S16 32) (v790 : IVec S16 32), Decidable (k3_chk121 v113 v790) := fun v113 v790 => decidable_of_iff' _ (Iff.of_eq (k3_chk121.eq_1 v113 v790))
theorem k3_idx121_inb : ∀ (v113 : IVec S16 32) (v790 : IVec S16 32) (k3_hw121 : k3_chk121 v113 v790), ∀ a x, ((![v113, v790] : Fin 2 → IVec S16 32) a x).toNat < S128x128.size a := fun v113 v790 k3_hw121 => k3_hw121

def k3_chk122 (v115 : IVec S16 32) (v792 : IVec S16 32) : Prop :=
  (∀ a x, ((![v115, v792] : Fin 2 → IVec S16 32) a x).toNat < S64x128.size a)
instance k3_chk122.dec : ∀ (v115 : IVec S16 32) (v792 : IVec S16 32), Decidable (k3_chk122 v115 v792) := fun v115 v792 => decidable_of_iff' _ (Iff.of_eq (k3_chk122.eq_1 v115 v792))
theorem k3_idx122_inb : ∀ (v115 : IVec S16 32) (v792 : IVec S16 32) (k3_hw122 : k3_chk122 v115 v792), ∀ a x, ((![v115, v792] : Fin 2 → IVec S16 32) a x).toNat < S64x128.size a := fun v115 v792 k3_hw122 => k3_hw122

def k3_chk123 (v113 : IVec S16 32) (v801 : IVec S16 32) : Prop :=
  (∀ a x, ((![v113, v801] : Fin 2 → IVec S16 32) a x).toNat < S128x128.size a)
instance k3_chk123.dec : ∀ (v113 : IVec S16 32) (v801 : IVec S16 32), Decidable (k3_chk123 v113 v801) := fun v113 v801 => decidable_of_iff' _ (Iff.of_eq (k3_chk123.eq_1 v113 v801))
theorem k3_idx123_inb : ∀ (v113 : IVec S16 32) (v801 : IVec S16 32) (k3_hw123 : k3_chk123 v113 v801), ∀ a x, ((![v113, v801] : Fin 2 → IVec S16 32) a x).toNat < S128x128.size a := fun v113 v801 k3_hw123 => k3_hw123

def k3_chk124 (v115 : IVec S16 32) (v803 : IVec S16 32) : Prop :=
  (∀ a x, ((![v115, v803] : Fin 2 → IVec S16 32) a x).toNat < S64x128.size a)
instance k3_chk124.dec : ∀ (v115 : IVec S16 32) (v803 : IVec S16 32), Decidable (k3_chk124 v115 v803) := fun v115 v803 => decidable_of_iff' _ (Iff.of_eq (k3_chk124.eq_1 v115 v803))
theorem k3_idx124_inb : ∀ (v115 : IVec S16 32) (v803 : IVec S16 32) (k3_hw124 : k3_chk124 v115 v803), ∀ a x, ((![v115, v803] : Fin 2 → IVec S16 32) a x).toNat < S64x128.size a := fun v115 v803 k3_hw124 => k3_hw124

def k3_chk125 (v113 : IVec S16 32) (v812 : IVec S16 32) : Prop :=
  (∀ a x, ((![v113, v812] : Fin 2 → IVec S16 32) a x).toNat < S128x128.size a)
instance k3_chk125.dec : ∀ (v113 : IVec S16 32) (v812 : IVec S16 32), Decidable (k3_chk125 v113 v812) := fun v113 v812 => decidable_of_iff' _ (Iff.of_eq (k3_chk125.eq_1 v113 v812))
theorem k3_idx125_inb : ∀ (v113 : IVec S16 32) (v812 : IVec S16 32) (k3_hw125 : k3_chk125 v113 v812), ∀ a x, ((![v113, v812] : Fin 2 → IVec S16 32) a x).toNat < S128x128.size a := fun v113 v812 k3_hw125 => k3_hw125

def k3_chk126 (v115 : IVec S16 32) (v814 : IVec S16 32) : Prop :=
  (∀ a x, ((![v115, v814] : Fin 2 → IVec S16 32) a x).toNat < S64x128.size a)
instance k3_chk126.dec : ∀ (v115 : IVec S16 32) (v814 : IVec S16 32), Decidable (k3_chk126 v115 v814) := fun v115 v814 => decidable_of_iff' _ (Iff.of_eq (k3_chk126.eq_1 v115 v814))
theorem k3_idx126_inb : ∀ (v115 : IVec S16 32) (v814 : IVec S16 32) (k3_hw126 : k3_chk126 v115 v814), ∀ a x, ((![v115, v814] : Fin 2 → IVec S16 32) a x).toNat < S64x128.size a := fun v115 v814 k3_hw126 => k3_hw126

def k3_chk127 (v113 : IVec S16 32) (v823 : IVec S16 32) : Prop :=
  (∀ a x, ((![v113, v823] : Fin 2 → IVec S16 32) a x).toNat < S128x128.size a)
instance k3_chk127.dec : ∀ (v113 : IVec S16 32) (v823 : IVec S16 32), Decidable (k3_chk127 v113 v823) := fun v113 v823 => decidable_of_iff' _ (Iff.of_eq (k3_chk127.eq_1 v113 v823))
theorem k3_idx127_inb : ∀ (v113 : IVec S16 32) (v823 : IVec S16 32) (k3_hw127 : k3_chk127 v113 v823), ∀ a x, ((![v113, v823] : Fin 2 → IVec S16 32) a x).toNat < S128x128.size a := fun v113 v823 k3_hw127 => k3_hw127

def k3_chk128 (v115 : IVec S16 32) (v825 : IVec S16 32) : Prop :=
  (∀ a x, ((![v115, v825] : Fin 2 → IVec S16 32) a x).toNat < S64x128.size a)
instance k3_chk128.dec : ∀ (v115 : IVec S16 32) (v825 : IVec S16 32), Decidable (k3_chk128 v115 v825) := fun v115 v825 => decidable_of_iff' _ (Iff.of_eq (k3_chk128.eq_1 v115 v825))
theorem k3_idx128_inb : ∀ (v115 : IVec S16 32) (v825 : IVec S16 32) (k3_hw128 : k3_chk128 v115 v825), ∀ a x, ((![v115, v825] : Fin 2 → IVec S16 32) a x).toNat < S64x128.size a := fun v115 v825 k3_hw128 => k3_hw128
def k3_off4 (k3_t1 : Fin k3_t1_loop.trips) : Fin 1 → Nat :=
  let c0_i32_54 : BitVec 32 := 0#32
  let c1_i32_55 : BitVec 32 := 1#32
  let arg13 : BitVec 32 := Scf.iv c0_i32_54 c1_i32_55 k3_t1
  let c16_i32 : BitVec 32 := 16#32
  let v110 : BitVec 32 := Scalar.muli arg13 c16_i32
  let v829 : Index := Scalar.indexCast v110
  ![v829.toNat]
abbrev grid4 : Pipeline.Grid := .none

abbrev stage4_0 : Fin 1 → Memref sig .tc .vmem S32x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))

abbrev stage4_1 : Fin 1 → Memref sig .tc .smem S1x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))

class Facts₀ : Prop where
  shapeCasts_S4096x1_S4096 : S4096x1.ShapeCasts S4096
  slices_S4096x2_S4096x1_0_0 : S4096x2.Slices ![0, 0] S4096x1
  slices_S4096x2_S4096x1_0_1 : S4096x2.Slices ![0, 1] S4096x1
  transposes_S100000x64_S64x100000_1_0 : S100000x64.Transposes [1, 0] S64x100000
  iota_S64x64_d0_w32 : S64x64.Iotas .tc 32 [0]
  iota_S64x64_d1_w32 : S64x64.Iotas .tc 32 [1]
  natLt_1_32 : 1 < 32
  bitsLt_bf16_f32 : FTy.bits .bf16 < FTy.bits .f32
  inb_S64x12544_S64x12544_0_0 : ∀ a, (![0, 0] : Fin 2 → Nat) a + S64x12544.size a ≤ S64x12544.size a
  h_S64x12544 : 0 < S64x12544.numel
  shapeCasts_S64x12544_S64x12544 : S64x12544.ShapeCasts S64x12544
  concatenates_S12544x64_S12544x64_S12544x128_d1 : Shape.Concatenates [S12544x64, S12544x64] S12544x128 1
  inb_S12544x128_S12544x128_0_0 : ∀ a, (![0, 0] : Fin 2 → Nat) a + S12544x128.size a ≤ S12544x128.size a
  h_S12544x128 : 0 < S12544x128.numel
  inb_S128_S16_0 : ∀ a, (![0] : Fin 1 → Nat) a + S16.size a ≤ S128.size a
  h_S16 : 0 < S16.numel
  inb_S128_S16_16 : ∀ a, (![16] : Fin 1 → Nat) a + S16.size a ≤ S128.size a
  inb_S128_S16_32 : ∀ a, (![32] : Fin 1 → Nat) a + S16.size a ≤ S128.size a
  inb_S128_S16_48 : ∀ a, (![48] : Fin 1 → Nat) a + S16.size a ≤ S128.size a
  inb_S128_S16_64 : ∀ a, (![64] : Fin 1 → Nat) a + S16.size a ≤ S128.size a
  inb_S128_S16_80 : ∀ a, (![80] : Fin 1 → Nat) a + S16.size a ≤ S128.size a
  inb_S128_S16_96 : ∀ a, (![96] : Fin 1 → Nat) a + S16.size a ≤ S128.size a
  inb_S128_S16_112 : ∀ a, (![112] : Fin 1 → Nat) a + S16.size a ≤ S128.size a
  inb_S50176x128_S50176x128_0_0 : ∀ a, (![0, 0] : Fin 2 → Nat) a + S50176x128.size a ≤ S50176x128.size a
  gathers_S50176x128_S128x128 : S50176x128.Gathers 0 S128x128
  iota_S16_d0_w32_scVector : S16.Iotas .scVector 32 [0]
  h_S128x128 : 0 < S128x128.numel
  h_S64x128 : 0 < S64x128.numel
  shapeCasts_S4096_S32x128 : S4096.ShapeCasts S32x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  shapeCasts_S32x128_S1x32x128 : S32x128.ShapeCasts S1x32x128
  reduces_S1x32x128_S1 : S1x32x128.Reduces [1, 2] S1
  shapeCasts_S1_S1x1x1 : S1.ShapeCasts S1x1x1
  inpos_S1x1x1_p0_0_0 : ∀ a, (![0, 0, 0] : Fin 3 → Nat) a < S1x1x1.size a
  inb_S1x1_S1x1_0_0 : ∀ a, (![0, 0] : Fin 2 → Nat) a + S1x1.size a ≤ S1x1.size a
  numel1_S1x1 : S1x1.numel = 1
  shapeCasts_S1x1_S_ : S1x1.ShapeCasts S_
  dot_S64x12544_S64x64_S12544x64_0_0_1_1_n_n_wf : DotDims.WF S64x12544 S64x64 S12544x64 [0] [0] [1] [1] [] []
  hcc1_scratch7 : 6 + S_.numel ≤ 23
  hcc1_scratch8 : 7 + S_.numel ≤ 23
  hcc1_scoped0 : 8 + S_.numel ≤ 23
  hcc1_scoped1 : 9 + S_.numel ≤ 23
  hcc1_scoped2 : 10 + S_.numel ≤ 23
  hcc3_scratch5 : 17 + S_.numel ≤ 23
  hcc3_scratch6 : 18 + S_.numel ≤ 23
  hcc3_scoped0 : 19 + S_.numel ≤ 23
  hcc3_scoped1 : 20 + S_.numel ≤ 23
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x12544.size a < S64x100000.size a
  hwx0_0 : ∀ i : grid0.Coords, EltTy.bits .f32 = 32 ∨ (Rect.unit (s := S64x100000) (fun a => cc0_transform_0 i a * S64x12544.size a) (fun a => (Pipeline.Clip.of (cc0_transform_0 i a) (S64x12544.size a) (S64x100000.size a)).extent (S64x12544.size a)) fun a => Pipeline.Clip.inb (Pipeline.Clip.ok_of (hstart0_0 i a))).WholeWords (EltTy.packing .f32)
  hwxs0_0 : ∀ i : grid0.Coords, EltTy.bits .f32 = 32 ∨ (Rect.unit (s := S64x12544) (fun _ => 0) (fun a => (Pipeline.Clip.of (cc0_transform_0 i a) (S64x12544.size a) (S64x100000.size a)).extent (S64x12544.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x12544.size a < S64x100000.size a
  hwx0_1 : ∀ i : grid0.Coords, EltTy.bits .f32 = 32 ∨ (Rect.unit (s := S64x100000) (fun a => cc0_transform_1 i a * S64x12544.size a) (fun a => (Pipeline.Clip.of (cc0_transform_1 i a) (S64x12544.size a) (S64x100000.size a)).extent (S64x12544.size a)) fun a => Pipeline.Clip.inb (Pipeline.Clip.ok_of (hstart0_1 i a))).WholeWords (EltTy.packing .f32)
  hwxs0_1 : ∀ i : grid0.Coords, EltTy.bits .f32 = 32 ∨ (Rect.unit (s := S64x12544) (fun _ => 0) (fun a => (Pipeline.Clip.of (cc0_transform_1 i a) (S64x12544.size a) (S64x100000.size a)).extent (S64x12544.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S12544x128.size a ≤ S50176x128.size a
  hwx0_2 : ∀ i : grid0.Coords, EltTy.bits .f32 = 32 ∨ (Rect.block (s := S50176x128) S12544x128.size (cc0_transform_2 i) (hinb0_2 i)).WholeWords (EltTy.packing .f32)
  hcore1 : grid1.bound 0 ≤ τ.nSC
  hsub1 : grid1.bound 1 ≤ τ.nSub
  k1_off1_inb : ∀ i : grid1.Coords, ∀ a, (k1_off1 i) a + S128.size a ≤ S4096.size a
  k1_t1_ok : k1_t1_loop.OK
  k1_off2_inb : ∀ k1_t1 : Fin k1_t1_loop.trips, ∀ a, (k1_off2 k1_t1) a + S16.size a ≤ S128.size a
  k1_mult1_dvd : ∀ i : grid1.Coords, 8 ∣ (k1_mult1 i).toNat
  k1_off3_inb : ∀ i : grid1.Coords, ∀ a, (k1_off3 i) a + S64x128.size a ≤ S2048x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hstart2_0 : ∀ (i : grid2.Coords) a, cc2_transform_0 i a * S64x12544.size a < S64x100000.size a
  hwx2_0 : ∀ i : grid2.Coords, EltTy.bits .f32 = 32 ∨ (Rect.unit (s := S64x100000) (fun a => cc2_transform_0 i a * S64x12544.size a) (fun a => (Pipeline.Clip.of (cc2_transform_0 i a) (S64x12544.size a) (S64x100000.size a)).extent (S64x12544.size a)) fun a => Pipeline.Clip.inb (Pipeline.Clip.ok_of (hstart2_0 i a))).WholeWords (EltTy.packing .f32)
  hwxs2_0 : ∀ i : grid2.Coords, EltTy.bits .f32 = 32 ∨ (Rect.unit (s := S64x12544) (fun _ => 0) (fun a => (Pipeline.Clip.of (cc2_transform_0 i a) (S64x12544.size a) (S64x100000.size a)).extent (S64x12544.size a)) fun a => (Nat.zero_add _).trans_le (Pipeline.Clip.extent_le (Pipeline.Clip.ok_of (hstart2_0 i a)))).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hstart2_1 : ∀ (i : grid2.Coords) a, cc2_transform_1 i a * S64x12544.size a < S64x100000.size a
  hwx2_1 : ∀ i : grid2.Coords, EltTy.bits .f32 = 32 ∨ (Rect.unit (s := S64x100000) (fun a => cc2_transform_1 i a * S64x12544.size a) (fun a => (Pipeline.Clip.of (cc2_transform_1 i a) (S64x12544.size a) (S64x100000.size a)).extent (S64x12544.size a)) fun a => Pipeline.Clip.inb (Pipeline.Clip.ok_of (hstart2_1 i a))).WholeWords (EltTy.packing .f32)
  hwxs2_1 : ∀ i : grid2.Coords, EltTy.bits .f32 = 32 ∨ (Rect.unit (s := S64x12544) (fun _ => 0) (fun a => (Pipeline.Clip.of (cc2_transform_1 i a) (S64x12544.size a) (S64x100000.size a)).extent (S64x12544.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S12544x128.size a ≤ S50176x128.size a
  hwx2_2 : ∀ i : grid2.Coords, EltTy.bits .f32 = 32 ∨ (Rect.block (s := S50176x128) S12544x128.size (cc2_transform_2 i) (hinb2_2 i)).WholeWords (EltTy.packing .f32)
  hcore3 : grid3.bound 0 ≤ τ.nSC
  hsub3 : grid3.bound 1 ≤ τ.nSub
  k3_off1_inb : ∀ i : grid3.Coords, ∀ a, (k3_off1 i) a + S128.size a ≤ S4096.size a
  k3_mult1_dvd : ∀ i : grid3.Coords, 8 ∣ (k3_mult1 i).toNat
  k3_off2_inb : ∀ i : grid3.Coords, ∀ a, (k3_off2 i) a + S64x128.size a ≤ S2048x128.size a
  k3_t1_ok : k3_t1_loop.OK
  k3_off3_inb : ∀ k3_t1 : Fin k3_t1_loop.trips, ∀ a, (k3_off3 k3_t1) a + S16.size a ≤ S128.size a
  k3_off4_inb : ∀ k3_t1 : Fin k3_t1_loop.trips, ∀ a, (k3_off4 k3_t1) a + S16.size a ≤ S128.size a
  hstage4_0 : ∀ j, (stage4_0 j).IsWhole
  hstage4_1 : ∀ j, (stage4_1 j).IsWhole

variable [Facts₀]

abbrev cc1_scratch7 : DmaSems sig S_ := SemArray.consecutive 6 S_ hcc1_scratch7
abbrev cc1_scratch8 : DmaSems sig S_ := SemArray.consecutive 7 S_ hcc1_scratch8
abbrev cc1_scoped0 : DmaSems sig S_ := SemArray.consecutive 8 S_ hcc1_scoped0
abbrev cc1_scoped1 : DmaSems sig S_ := SemArray.consecutive 9 S_ hcc1_scoped1
abbrev cc1_scoped2 : DmaSems sig S_ := SemArray.consecutive 10 S_ hcc1_scoped2
abbrev cc3_scratch5 : DmaSems sig S_ := SemArray.consecutive 17 S_ hcc3_scratch5
abbrev cc3_scratch6 : DmaSems sig S_ := SemArray.consecutive 18 S_ hcc3_scratch6
abbrev cc3_scoped0 : DmaSems sig S_ := SemArray.consecutive 19 S_ hcc3_scoped0
abbrev cc3_scoped1 : DmaSems sig S_ := SemArray.consecutive 20 S_ hcc3_scoped1
def dot_S64x12544_S64x64_S12544x64_0_0_1_1_n_n : DotDims S64x12544 S64x64 S12544x64 where
  lhsContracting := [0]
  rhsContracting := [0]
  lhsNonContracting := [1]
  rhsNonContracting := [1]
  lhsBatch := []
  rhsBatch := []
  wf := dot_S64x12544_S64x64_S12544x64_0_0_1_1_n_n_wf

abbrev win0_0 : Pipeline.Window sig grid0 :=
  Pipeline.Window.ofSpecClip (Memref.whole main_v5) S64x12544.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v5) S64x12544.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v6) S12544x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win2_0 : Pipeline.Window sig grid2 :=
  Pipeline.Window.ofSpecClip (Memref.whole main_v8) S64x12544.size cc2_transform_0 reads2_0 false false 2 stage2_0 sem2_0
    hrank2 hreads2_0 hstart2_0 nbuf2_0 (Memref.isWhole_whole _) hwx2_0 hwxs2_0 hstage2_0

abbrev win2_1 : Pipeline.Window sig grid2 :=
  Pipeline.Window.ofSpecClip (Memref.whole main_v8) S64x12544.size cc2_transform_1 reads2_1 false false 2 stage2_1 sem2_1
    hrank2 hreads2_1 hstart2_1 nbuf2_1 (Memref.isWhole_whole _) hwx2_1 hwxs2_1 hstage2_1

abbrev win2_2 : Pipeline.Window sig grid2 :=
  Pipeline.Window.ofSpec (Memref.whole main_v9) S12544x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win4_0 : Pipeline.Window sig grid4 :=
  Pipeline.Window.whole (Memref.whole main_v11) false false (stage4_0 0) (sem4_0 0) (Memref.isWhole_whole _) (hstage4_0 0)

abbrev win4_1 : Pipeline.Window sig grid4 :=
  Pipeline.Window.whole (Memref.whole main_v12) true false (stage4_1 0) (sem4_1 0) (Memref.isWhole_whole _) (hstage4_1 0)

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S4096x1 : Shape := ⟨2, ![4096, 1]⟩
abbrev S4096x2 : Shape := ⟨2, ![4096, 2]⟩
abbrev S100000x64 : Shape := ⟨2, ![100000, 64]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S4096x1x64 : Shape := ⟨3, ![4096, 1, 64]⟩
abbrev S4096x2x1 : Shape := ⟨3, ![4096, 2, 1]⟩
abbrev S4096x2x64 : Shape := ⟨3, ![4096, 2, 64]⟩
abbrev S4096 : Shape := ⟨1, ![4096]⟩

abbrev nBuf : Space → Nat
  | .hbm => 75
  | .vmem => 0
  | .smem => 0
  | _ => 0

abbrev bufTy : (tb : Table) → Fin (tcTables nBuf tb) → BufTy
  | .hbm, ⟨0, _⟩ => ⟨S4096x1, .i32⟩
  | .hbm, ⟨1, _⟩ => ⟨S4096x2, .i32⟩
  | .hbm, ⟨2, _⟩ => ⟨S100000x64, .f32⟩
  | .hbm, ⟨3, _⟩ => ⟨S100000x64, .f32⟩
  | .hbm, ⟨4, _⟩ => ⟨S_, .i32⟩
  | .hbm, ⟨5, _⟩ => ⟨S4096x1, .i32⟩
  | .hbm, ⟨6, _⟩ => ⟨S4096x1, .i1⟩
  | .hbm, ⟨7, _⟩ => ⟨S_, .i32⟩
  | .hbm, ⟨8, _⟩ => ⟨S4096x1, .i32⟩
  | .hbm, ⟨9, _⟩ => ⟨S4096x1, .i32⟩
  | .hbm, ⟨10, _⟩ => ⟨S4096x1, .i32⟩
  | .hbm, ⟨11, _⟩ => ⟨S4096x1x1, .i32⟩
  | .hbm, ⟨12, _⟩ => ⟨S1, .i32⟩
  | .hbm, ⟨13, _⟩ => ⟨S_, .i32⟩
  | .hbm, ⟨14, _⟩ => ⟨S4096x1x1, .i32⟩
  | .hbm, ⟨15, _⟩ => ⟨S4096x1x1, .i1⟩
  | .hbm, ⟨16, _⟩ => ⟨S1x1x1, .i32⟩
  | .hbm, ⟨17, _⟩ => ⟨S4096x1x1, .i32⟩
  | .hbm, ⟨18, _⟩ => ⟨S4096x1x1, .i1⟩
  | .hbm, ⟨19, _⟩ => ⟨S4096x1x1, .i1⟩
  | .hbm, ⟨20, _⟩ => ⟨S_, .i1⟩
  | .hbm, ⟨21, _⟩ => ⟨S4096x1, .i1⟩
  | .hbm, ⟨22, _⟩ => ⟨S4096x1x64, .f32⟩
  | .hbm, ⟨23, _⟩ => ⟨S4096x1x64, .i1⟩
  | .hbm, ⟨24, _⟩ => ⟨S_, .f32⟩
  | .hbm, ⟨25, _⟩ => ⟨S4096x1x64, .f32⟩
  | .hbm, ⟨26, _⟩ => ⟨S4096x1x64, .f32⟩
  | .hbm, ⟨27, _⟩ => ⟨S_, .i32⟩
  | .hbm, ⟨28, _⟩ => ⟨S4096x2, .i32⟩
  | .hbm, ⟨29, _⟩ => ⟨S4096x2, .i1⟩
  | .hbm, ⟨30, _⟩ => ⟨S_, .i32⟩
  | .hbm, ⟨31, _⟩ => ⟨S4096x2, .i32⟩
  | .hbm, ⟨32, _⟩ => ⟨S4096x2, .i32⟩
  | .hbm, ⟨33, _⟩ => ⟨S4096x2, .i32⟩
  | .hbm, ⟨34, _⟩ => ⟨S4096x2x1, .i32⟩
  | .hbm, ⟨35, _⟩ => ⟨S1, .i32⟩
  | .hbm, ⟨36, _⟩ => ⟨S_, .i32⟩
  | .hbm, ⟨37, _⟩ => ⟨S4096x2x1, .i32⟩
  | .hbm, ⟨38, _⟩ => ⟨S4096x2x1, .i1⟩
  | .hbm, ⟨39, _⟩ => ⟨S1x1x1, .i32⟩
  | .hbm, ⟨40, _⟩ => ⟨S4096x2x1, .i32⟩
  | .hbm, ⟨41, _⟩ => ⟨S4096x2x1, .i1⟩
  | .hbm, ⟨42, _⟩ => ⟨S4096x2x1, .i1⟩
  | .hbm, ⟨43, _⟩ => ⟨S_, .i1⟩
  | .hbm, ⟨44, _⟩ => ⟨S4096x2, .i1⟩
  | .hbm, ⟨45, _⟩ => ⟨S4096x2x64, .f32⟩
  | .hbm, ⟨46, _⟩ => ⟨S4096x2x64, .i1⟩
  | .hbm, ⟨47, _⟩ => ⟨S_, .f32⟩
  | .hbm, ⟨48, _⟩ => ⟨S4096x2x64, .f32⟩
  | .hbm, ⟨49, _⟩ => ⟨S4096x2x64, .f32⟩
  | .hbm, ⟨50, _⟩ => ⟨S4096x2x64, .f32⟩
  | .hbm, ⟨51, _⟩ => ⟨S4096x2x64, .f32⟩
  | .hbm, ⟨52, _⟩ => ⟨S_, .f32⟩
  | .hbm, ⟨53, _⟩ => ⟨S4096x2, .f32⟩
  | .hbm, ⟨54, _⟩ => ⟨S4096x1, .f32⟩
  | .hbm, ⟨55, _⟩ => ⟨S4096, .f32⟩
  | .hbm, ⟨56, _⟩ => ⟨S4096x1, .f32⟩
  | .hbm, ⟨57, _⟩ => ⟨S4096x1, .f32⟩
  | .hbm, ⟨58, _⟩ => ⟨S4096, .f32⟩
  | .hbm, ⟨59, _⟩ => ⟨S4096x1, .f32⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | _, _ => ⟨S4096x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩
abbrev main_cst : Ref sig .tc := ⟨.hbm, 52, rfl⟩
abbrev main_v4 : Ref sig .tc := ⟨.hbm, 53, rfl⟩
abbrev main_v5 : Ref sig .tc := ⟨.hbm, 54, rfl⟩
abbrev main_v6 : Ref sig .tc := ⟨.hbm, 55, rfl⟩
abbrev main_v7 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_cst_0 : Ref sig .tc := ⟨.hbm, 63, rfl⟩
abbrev main_v14 : Ref sig .tc := ⟨.hbm, 64, rfl⟩
abbrev main_v15 : Ref sig .tc := ⟨.hbm, 65, rfl⟩
abbrev main_cst_1 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_cst_2 : Ref sig .tc := ⟨.hbm, 71, rfl⟩
abbrev main_v20 : Ref sig .tc := ⟨.hbm, 72, rfl⟩
abbrev main_cst_3 : Ref sig .tc := ⟨.hbm, 73, rfl⟩
abbrev main_v21 : Ref sig .tc := ⟨.hbm, 74, rfl⟩

abbrev nD : Nat := 1
abbrev τ : Topo := Topo.v7x

variable {F : FTy → Type} [FloatOps F]

class Facts₀ : Prop where
  bcast_S_S4096x1 : S_.BroadcastsInDim S4096x1 (![] : Fin 0 → Fin S4096x1.rank)
  bcast_S4096x1_S4096x1x1_0_1 : S4096x1.BroadcastsInDim S4096x1x1 (![0, 1] : Fin 2 → Fin S4096x1x1.rank)
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  bcast_S4096x1_S4096x1x64_0_1 : S4096x1.BroadcastsInDim S4096x1x64 (![0, 1] : Fin 2 → Fin S4096x1x64.rank)
  bcast_S_S4096x1x64 : S_.BroadcastsInDim S4096x1x64 (![] : Fin 0 → Fin S4096x1x64.rank)
  bcast_S_S4096x2 : S_.BroadcastsInDim S4096x2 (![] : Fin 0 → Fin S4096x2.rank)
  bcast_S4096x2_S4096x2x1_0_1 : S4096x2.BroadcastsInDim S4096x2x1 (![0, 1] : Fin 2 → Fin S4096x2x1.rank)
  bcast_S_S4096x2x1 : S_.BroadcastsInDim S4096x2x1 (![] : Fin 0 → Fin S4096x2x1.rank)
  bcast_S1x1x1_S4096x2x1_0_1_2 : S1x1x1.BroadcastsInDim S4096x2x1 (![0, 1, 2] : Fin 3 → Fin S4096x2x1.rank)
  reducesTo_S4096x2x1_S4096x2_d2 : S4096x2x1.ReducesTo [2] S4096x2
  bcast_S4096x2_S4096x2x64_0_1 : S4096x2.BroadcastsInDim S4096x2x64 (![0, 1] : Fin 2 → Fin S4096x2x64.rank)
  bcast_S_S4096x2x64 : S_.BroadcastsInDim S4096x2x64 (![] : Fin 0 → Fin S4096x2x64.rank)
  bcast_S4096x1x64_S4096x2x64_0_1_2 : S4096x1x64.BroadcastsInDim S4096x2x64 (![0, 1, 2] : Fin 3 → Fin S4096x2x64.rank)
  reducesTo_S4096x2x64_S4096x2_d2 : S4096x2x64.ReducesTo [2] S4096x2
  slices_S4096x2_S4096x1_0_1 : S4096x2.Slices ![0, 1] S4096x1
  shapeCasts_S4096x1_S4096 : S4096x1.ShapeCasts S4096
  bcast_S4096_S4096x1_0 : S4096.BroadcastsInDim S4096x1 (![0] : Fin 1 → Fin S4096x1.rank)
  slices_S4096x2_S4096x1_0_0 : S4096x2.Slices ![0, 0] S4096x1
  reducesTo_S4096x1_S_d0_1 : S4096x1.ReducesTo [0, 1] S_
  gather_S100000x64_S4096x1x1_S4096x1x64_2_0_n_n_0_2_164_wf : GatherDims.WF S100000x64 S4096x1x1 S4096x1x64 [2] [0] [] [0] [] 2 ![1, 64]
  gather_S100000x64_S4096x2x1_S4096x2x64_2_0_n_n_0_2_164_wf : GatherDims.WF S100000x64 S4096x2x1 S4096x2x64 [2] [0] [] [0] [] 2 ![1, 64]

variable [Facts₀]

def gather_S100000x64_S4096x1x1_S4096x1x64_2_0_n_n_0_2_164 : GatherDims S100000x64 S4096x1x1 S4096x1x64 where
  offsetDims := [2]
  collapsedSliceDims := [0]
  operandBatchingDims := []
  startIndicesBatchingDims := []
  startIndexMap := [0]
  indexVectorDim := 2
  sliceSizes := ![1, 64]
  wf := gather_S100000x64_S4096x1x1_S4096x1x64_2_0_n_n_0_2_164_wf
def gather_S100000x64_S4096x2x1_S4096x2x64_2_0_n_n_0_2_164 : GatherDims S100000x64 S4096x2x1 S4096x2x64 where
  offsetDims := [2]
  collapsedSliceDims := [0]
  operandBatchingDims := []
  startIndicesBatchingDims := []
  startIndexMap := [0]
  indexVectorDim := 2
  sliceSizes := ![1, 64]
  wf := gather_S100000x64_S4096x2x1_S4096x2x64_2_0_n_n_0_2_164_wf

class Facts : Prop extends Facts₀ where

variable [Facts]
-- ==== Proof.BprSpec.lean ====
/-
  The specification: the mean, over 4096 (user, positive item, negative item) triples, of the pairwise ranking loss
  `softplus (⟨u, n⟩ - ⟨u, p⟩)`, stated as ONE function of the four argument arrays at the ideal values (floats are
  extended reals, every operation exact). It is written in the arrangement that takes one dot product per triple —
  the user's row against the DIFFERENCE of the negative and the positive item's rows — then the overflow-free
  softplus `max x 0 + log1p (exp (0 - |x|))`, the sum over the triples, and the product with `2⁻¹²`. No program is
  imported: the shapes are declared here as the literal shapes the programs use.
-/
import Idealize.ShloMosaic.PureOps.Ideal
import Idealize.ShloMosaic.Lib.ValueIdx

noncomputable section

open scoped BigOperators

namespace Cert.BprSpec

open Idealize.ShloMosaic Idealize.ShloMosaic.ValueIdx

/-- The users' index column: one index per triple. -/
abbrev S4096x1 : Shape := ⟨2, ![4096, 1]⟩
/-- The items' index table: per triple the positive item's index, then the negative item's. -/
abbrev S4096x2 : Shape := ⟨2, ![4096, 2]⟩
/-- A feature table: 100000 rows of 64 entries. -/
abbrev S100000x64 : Shape := ⟨2, ![100000, 64]⟩
/-- The scalar shape of the result. -/
abbrev S_ : Shape := ⟨0, ![]⟩

/-- THE ROW AN INDEX WORD NAMES: the word read as a signed integer and clamped into `[0, 99999]` — a total reading
    (it is how a gather reads a start index); for a word in range it is the word's value (`row_val_of_range`). -/
def row (w : BitVec 32) : Fin 100000 := ⟨min w.toInt.toNat 99999, by omega⟩

/-- The row's number. -/
theorem row_val (w : BitVec 32) : (row w).val = min w.toInt.toNat 99999 := rfl

/-- For a word whose signed value is in `[0, 99999]` the row is that value, which is also the word's unsigned value. -/
theorem row_val_of_range (w : BitVec 32) (h0 : 0 ≤ w.toInt) (h1 : w.toInt ≤ 99999) :
    ((row w).val : Int) = w.toInt ∧ (row w).val = w.toNat := by
  have hlt : w.toNat < 2 ^ 32 := w.isLt
  have e : w.toInt = (w.toNat : Int) := by
    rw [BitVec.toInt_eq_toNat_cond] at h0 ⊢
    split
    · rfl
    · rename_i hge
      rw [if_neg hge] at h0
      omega
  rw [row_val]
  omega

/-- The overflow-free softplus `log (1 + eˣ)`, in the ideal operations: `maximumf x 0 + log1p (exp (0 - absf x))`, where the
    ideal `maximumf` is `max`, the ideal `absf x` is `max x (-x)` and the ideal subtraction the extended reals'. -/
def softplus (x : EReal) : EReal := max x 0 + Ideal.log1p (Ideal.exp (0 - max x (-x)))

theorem softplus_def (x : EReal) : softplus x = max x 0 + Ideal.log1p (Ideal.exp (0 - max x (-x))) := rfl

/-- The softplus in the instance's own fields, as a program's term spells it. -/
theorem softplus_fields (x : Ideal .f32) :
    FloatOps.addf (FloatOps.maximumf x (0 : Ideal .f32))
        (FloatOps.log1p (FloatOps.exp (FloatOps.subf (0 : Ideal .f32) (FloatOps.absf x))))
      = softplus x := rfl

/-- THE SCORE DIFFERENCE of triple `b`: the dot product, over the 64 features, of the user's row with the negative item's
    row minus the positive item's row. -/
def score (users : IVec S4096x1 32) (items : IVec S4096x2 32) (uf itf : FVec Ideal S100000x64 .f32) (b : Fin 4096) : EReal :=
  ∑ j : Fin 64, uf (ix2 (row (users (ix2 b (0 : Fin 1)))) j)
    * (itf (ix2 (row (items (ix2 b (1 : Fin 2)))) j) - itf (ix2 (row (items (ix2 b (0 : Fin 2)))) j))

theorem score_def (users : IVec S4096x1 32) (items : IVec S4096x2 32) (uf itf : FVec Ideal S100000x64 .f32) (b : Fin 4096) :
    score users items uf itf b
      = ∑ j : Fin 64, uf (ix2 (row (users (ix2 b (0 : Fin 1)))) j)
          * (itf (ix2 (row (items (ix2 b (1 : Fin 2)))) j) - itf (ix2 (row (items (ix2 b (0 : Fin 2)))) j)) := rfl

/-- THE SPECIFICATION: the sum over the 4096 triples of the softplus of the score difference, times the word
    `0x39800000` (which denotes `2⁻¹²`: the mean over 4096). -/
def G (users : IVec S4096x1 32) (items : IVec S4096x2 32) (uf itf : FVec Ideal S100000x64 .f32) : FVec Ideal S_ .f32 :=
  fun _ => (∑ b : Fin 4096, softplus (score users items uf itf b)) * Ideal.ofBits .f32 0x39800000#32

theorem G_apply (users : IVec S4096x1 32) (items : IVec S4096x2 32) (uf itf : FVec Ideal S100000x64 .f32) (i : S_.Idx) :
    G users items uf itf i
      = (∑ b : Fin 4096, softplus (score users items uf itf b)) * Ideal.ofBits .f32 0x39800000#32 := rfl

end Cert.BprSpec

end
-- ==== Proof.KCommon.lean ====
/-
  THE SHARED SET-UP of the kernel program's SparseCore proofs: the program as the launch theorem sees it (its label
  signature, its SparseCore configuration, its body table, the variants), the configuration's facts, the resource
  algebra (the handshakes' rounds beside the pipeline library's staging cells and the transfers' counters: both SparseCore kernels only make local copies and wait
  for them, so no schedule is needed), the tiles' grid coordinates and the label table's two SparseCore rows.
-/
import proofs.«203895_g52347061404180_cont_8to1_c_859_34_alg».proof.KernelIdeal
import proofs.«203895_g52347061404180_cont_8to1_c_859_34_alg».proof.Proof.Gen.KernelIdeal
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.KernelIdeal.KCommon

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 3) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nSub_one : (K (F := F)).nSub 1 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library beside the transfers' counters -/

abbrev UH : Type := URounds (GSem nD τ sig) ℕ
/-- The pipeline library's staging cells (the TensorCore regions inside the program fund theirs from this component). -/
abbrev UP : Type := UR sig nD τ
abbrev UU : Type := UH × (UP × Counters)

/-- The handshakes' rounds library, the left factor; the transfers' counters are found by instance in the right. -/
abbrev EH : Emb UH (MT nD τ sig (HIx 2) (Elt F) ℕ UU ℕ) := embL

/-- The pipeline library's component: the left of the right factor. -/
abbrev EP : Emb UP (MT nD τ sig (HIx 2) (Elt F) ℕ UU ℕ) := (Emb.inl : Emb UP (UP × Counters)).trans embR

instance EP_landsIn : (EP (F := F)).LandsIn (upEmb : UEmb _ (MT nD τ sig (HIx 2) (Elt F) ℕ UU ℕ)) := by
  unfold EP; infer_instance

/-! ## The tiles' coordinates and the label table's SparseCore rows -/

/-- The grid point of vector subcore `s` of SparseCore `c` in the first SparseCore kernel's grid. -/
def coordsV1 (c : Fin (grid1.bound 0)) (s : Fin (grid1.bound 1)) : grid1.Coords :=
  fun | 0 => c | 1 => s | ⟨_ + 2, h⟩ => absurd h (Nat.not_lt.2 (Nat.le_add_left _ _))

/-- The grid point of vector subcore `s` of SparseCore `c` in the second SparseCore kernel's grid. -/
def coordsV3 (c : Fin (grid3.bound 0)) (s : Fin (grid3.bound 1)) : grid3.Coords :=
  fun | 0 => c | 1 => s | ⟨_ + 2, h⟩ => absurd h (Nat.not_lt.2 (Nat.le_add_left _ _))

/-- The label table's row 1 on a vector subcore: the first SparseCore kernel's function at the tile's grid point, on the
    whole arrays and the tile's scratch. -/
theorem defs₀_vector1 (c : Fin τ.nSC) (s : Fin τ.nSub) :
    defs₀ (F := F) (.scVector c s) 1 ()
      = SparseCore.onTile hcore1 hsub1 (fun c s => cc1__sc_g_body (coordsV1 c s)
          (Memref.whole main_v6_scv) (Memref.isWhole_whole _) (Memref.whole main_v2_scv) (Memref.isWhole_whole _)
          (Memref.whole main_v4_scv) (Memref.isWhole_whole _) (Memref.whole main_v7_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _) (Memref.whole cc1_scratch5) (Memref.isWhole_whole _)
          (Memref.whole cc1_scratch6) (Memref.isWhole_whole _) cc1_scratch7 cc1_scratch8 cc1_scoped0 cc1_scoped1 cc1_scoped2) ⟨⟩ c s := rfl

/-- The label table's row 3 on a vector subcore: the second SparseCore kernel's function at the tile's grid point. -/
theorem defs₀_vector3 (c : Fin τ.nSC) (s : Fin τ.nSub) :
    defs₀ (F := F) (.scVector c s) 3 ()
      = SparseCore.onTile hcore3 hsub3 (fun c s => cc3__sc_dot_body (coordsV3 c s)
          (Memref.whole main_v9_scv) (Memref.isWhole_whole _) (Memref.whole main_v0_scv) (Memref.isWhole_whole _)
          (Memref.whole main_v7_scv) (Memref.isWhole_whole _) (Memref.whole main_v10_scv) (Memref.isWhole_whole _)
          (Memref.whole cc3_scratch0) (Memref.isWhole_whole _) (Memref.whole cc3_scratch1) (Memref.isWhole_whole _)
          (Memref.whole cc3_scratch2) (Memref.isWhole_whole _) (Memref.whole cc3_scratch3) (Memref.isWhole_whole _)
          (Memref.whole cc3_scratch4) (Memref.isWhole_whole _) cc3_scratch5 cc3_scratch6 cc3_scoped0 cc3_scoped1) ⟨⟩ c s := rfl

end Cert.KernelIdeal.KCommon

end
-- ==== Proof.LaunchApply.lean ====
/-
  The SparseCore launch theorem applied to this program.

  The printed kernel program IS the launch theorem's kind of program: its threads are the configuration's threads of
  its @main, its body table the configuration's extension of the pipelines' table, its two SparseCore calls both
  vector-subcore kernels (no scalar-subcore kernel owes anything), its handshake semaphores distinct and unscoped
  (`KCommon.facts`). So the program's run, to any post `Q'` read off the final memory, follows from: the two tile
  obligations, the two splits of a SparseCore's operands among its sixteen tiles, the launch element, @main on the
  TensorCore, and the reading of the final memory. Nothing here looks inside a kernel or a region.
-/
import proofs.«203895_g52347061404180_cont_8to1_c_859_34_alg».proof.Proof.KCommon

noncomputable section

namespace Cert.KernelIdeal.LaunchApply

open Cert.KernelIdeal Cert.KernelIdeal.Gen Cert.KernelIdeal.KCommon

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- Both SparseCore calls are vector-subcore kernels. -/
theorem kind_vector (q : Fin 2) : (K (F := F)).kind q = .scVector := by
  match q with
  | 0 => rfl
  | 1 => rfl

/-- The program's run from the launch theorem's obligations. -/
theorem run_of [∀ e, Nonempty (Elt F e)]
    (P : (K (F := F)).Pay (nD := nD) (Val := Elt F) (Name := ℕ) (U := UU)) [P.IsStorable]
    (hheld : P.held = ∅)
    (htile : ∀ q, (K (F := F)).TileObl (D (F := F)) 𝒱 P v₀ q)
    (hvec : ∀ q, (K (F := F)).VecSplit P q)
    (m : (ℓ : Loc nD τ sig) → Buf (Elt F) ℓ) (g : Dev nD → PrngReg)
    (G FIN : Dev nD → sProp 𝕄) (u₀ : UU)
    (hu₀ : iprop(ownU u₀ ∗ P.oxCred ∗ (K (F := F)).freeSems0) ⊢ |={Set.univ}=> iprop(BI.own (EH (initOf (K (F := F)).hsCells (K (F := F)).hsToks))
      ∗ bigSep Finset.univ G ∗ bigSep Finset.univ fun thr : Thread nD τ => bigSep Finset.univ fun q : Fin 2 => P.x q thr))
    (hmain : ∀ (κ : GSem nD τ sig → ℕ) (d : Dev nD),
      iprop((K (F := F)).ctx EH P κ (K (F := F)).lev ∗ (K (F := F)).tcSt EH d 0 ∗ (K (F := F)).tcRes m g d ∗ G d)
        ⊢ wp frame (wpE ((K (F := F)).defs (D (F := F))) 𝒱 (SparseCore.T d) none) Set.univ (main (F := F) d)
            fun _ => iprop((K (F := F)).tcSt EH d 2 ∗ FIN d))
    (fq : Dev nD → Phys nD τ sig (Elt F) → Prop) (hfin : ∀ d s', iprop(FIN d ∗ SI s') ⊢ (⌜fq d s'⌝ : sProp 𝕄))
    (Q' : PUnit × MemSt nD τ sig (Elt F) → Prop) (hQ : ∀ s', (∀ d, fq d s') → Q' (⟨⟩, s'.mem)) :
    θ_run (Cert.KernelIdeal.defs (F := F)) (Cert.KernelIdeal.threads (F := F)) ⟨m, fun _ => 0, g⟩ Q' :=
  SparseCore.Cfg.θ_run_sc (K := K (F := F)) (D := D (F := F)) (𝒱 := 𝒱) (EH := EH) (P := P) facts v₀
    (fun q hq => absurd ((kind_vector (F := F) q).symm.trans hq) (by decide))
    (fun q _ => htile q) (fun q _ => hvec q)
    m g main G FIN u₀ hu₀ hmain fq hfin Q' hQ hheld

end Cert.KernelIdeal.LaunchApply

end
-- ==== Proof.TileCommon.lean ====
/-
  A VECTOR SUBCORE'S OWN SEMAPHORES AND BUFFERS, NAMED. What the launch hands a tile — its scoped semaphores at zero, its
  scoped buffers at some contents — split into the nine DMA semaphores and the twelve scratch buffers the two SparseCore
  kernels name, and the rest.
-/
import proofs.«203895_g52347061404180_cont_8to1_c_859_34_alg».proof.Proof.KCommon

noncomputable section

namespace Cert.KernelIdeal.TileCommon

open Cert.KernelIdeal Cert.KernelIdeal.Gen Cert.KernelIdeal.KCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-- The cell of a tile's DMA semaphore. -/
abbrev cell (d : Dev nD) (c : Fin τ.nSC) (i : Fin τ.nSub) (s : DmaSems sig S_) : GSem nD τ sig := (V d c i, .dma s.sem)

/-- The tile's own cells but the nine named ones. -/
abbrev restCells (d : Dev nD) (c : Fin τ.nSC) (i : Fin τ.nSub) : Finset (GSem nD τ sig) :=
  ((((((((((ownCells (V d c i)).erase (cell d c i cc1_scratch7)).erase (cell d c i cc1_scratch8)).erase (cell d c i cc1_scoped0)).erase (cell d c i cc1_scoped1)).erase (cell d c i cc1_scoped2)).erase (cell d c i cc3_scratch5)).erase (cell d c i cc3_scratch6)).erase (cell d c i cc3_scoped0)).erase (cell d c i cc3_scoped1))

/-- The tile's own buffers but the twelve named ones. -/
abbrev restRefs (c : Fin τ.nSC) (i : Fin τ.nSub) : Finset (DevRef τ sig) :=
  (((((((((((((ownRefs (τ := τ) (.scVector c i)).erase ((Proc.scVector c i).devRef cc1_scratch0)).erase ((Proc.scVector c i).devRef cc1_scratch1)).erase ((Proc.scVector c i).devRef cc1_scratch2)).erase ((Proc.scVector c i).devRef cc1_scratch3)).erase ((Proc.scVector c i).devRef cc1_scratch4)).erase ((Proc.scVector c i).devRef cc1_scratch5)).erase ((Proc.scVector c i).devRef cc1_scratch6)).erase ((Proc.scVector c i).devRef cc3_scratch0)).erase ((Proc.scVector c i).devRef cc3_scratch1)).erase ((Proc.scVector c i).devRef cc3_scratch2)).erase ((Proc.scVector c i).devRef cc3_scratch3)).erase ((Proc.scVector c i).devRef cc3_scratch4))

/-- A tile's own semaphores at zero: the nine DMA semaphores the two kernels name, each at zero, and the rest. -/
theorem ownSems0_V (d : Dev nD) (c : Fin τ.nSC) (i : Fin τ.nSub) :
    (ownSems0 (V d c i) : sProp 𝕄)
      = iprop(semVal (cell d c i cc1_scratch7) 0
          ∗ semVal (cell d c i cc1_scratch8) 0
          ∗ semVal (cell d c i cc1_scoped0) 0
          ∗ semVal (cell d c i cc1_scoped1) 0
          ∗ semVal (cell d c i cc1_scoped2) 0
          ∗ semVal (cell d c i cc3_scratch5) 0
          ∗ semVal (cell d c i cc3_scratch6) 0
          ∗ semVal (cell d c i cc3_scoped0) 0
          ∗ semVal (cell d c i cc3_scoped1) 0
          ∗ bigSep (restCells d c i) fun g => semVal g 0) := by
  unfold SparseCore.Cfg.ownSems0
  rw [SparseCore.bigSep_erase' ((mem_ownCells (g := cell d c i cc1_scratch7)).mpr ⟨rfl, by show (SemLoc.dma cc1_scratch7.sem : SemLoc sig).isScoped .scVector = true; decide⟩),
    SparseCore.bigSep_erase' (Finset.mem_erase.mpr ⟨fun e => absurd (congrArg Prod.snd e) (show (SemLoc.dma cc1_scratch8.sem : SemLoc sig) ≠ SemLoc.dma cc1_scratch7.sem by decide), (mem_ownCells (g := cell d c i cc1_scratch8)).mpr ⟨rfl, by show (SemLoc.dma cc1_scratch8.sem : SemLoc sig).isScoped .scVector = true; decide⟩⟩),
    SparseCore.bigSep_erase' (Finset.mem_erase.mpr ⟨fun e => absurd (congrArg Prod.snd e) (show (SemLoc.dma cc1_scoped0.sem : SemLoc sig) ≠ SemLoc.dma cc1_scratch8.sem by decide), Finset.mem_erase.mpr ⟨fun e => absurd (congrArg Prod.snd e) (show (SemLoc.dma cc1_scoped0.sem : SemLoc sig) ≠ SemLoc.dma cc1_scratch7.sem by decide), (mem_ownCells (g := cell d c i cc1_scoped0)).mpr ⟨rfl, by show (SemLoc.dma cc1_scoped0.sem : SemLoc sig).isScoped .scVector = true; decide⟩⟩⟩),
    SparseCore.bigSep_erase' (Finset.mem_erase.mpr ⟨fun e => absurd (congrArg Prod.snd e) (show (SemLoc.dma cc1_scoped1.sem : SemLoc sig) ≠ SemLoc.dma cc1_scoped0.sem by decide), Finset.mem_erase.mpr ⟨fun e => absurd (congrArg Prod.snd e) (show (SemLoc.dma cc1_scoped1.sem : SemLoc sig) ≠ SemLoc.dma cc1_scratch8.sem by decide), Finset.mem_erase.mpr ⟨fun e => absurd (congrArg Prod.snd e) (show (SemLoc.dma cc1_scoped1.sem : SemLoc sig) ≠ SemLoc.dma cc1_scratch7.sem by decide), (mem_ownCells (g := cell d c i cc1_scoped1)).mpr ⟨rfl, by show (SemLoc.dma cc1_scoped1.sem : SemLoc sig).isScoped .scVector = true; decide⟩⟩⟩⟩),
    SparseCore.bigSep_erase' (Finset.mem_erase.mpr ⟨fun e => absurd (congrArg Prod.snd e) (show (SemLoc.dma cc1_scoped2.sem : SemLoc sig) ≠ SemLoc.dma cc1_scoped1.sem by decide), Finset.mem_erase.mpr ⟨fun e => absurd (congrArg Prod.snd e) (show (SemLoc.dma cc1_scoped2.sem : SemLoc sig) ≠ SemLoc.dma cc1_scoped0.sem by decide), Finset.mem_erase.mpr ⟨fun e => absurd (congrArg Prod.snd e) (show (SemLoc.dma cc1_scoped2.sem : SemLoc sig) ≠ SemLoc.dma cc1_scratch8.sem by decide), Finset.mem_erase.mpr ⟨fun e => absurd (congrArg Prod.snd e) (show (SemLoc.dma cc1_scoped2.sem : SemLoc sig) ≠ SemLoc.dma cc1_scratch7.sem by decide), (mem_ownCells (g := cell d c i cc1_scoped2)).mpr ⟨rfl, by show (SemLoc.dma cc1_scoped2.sem : SemLoc sig).isScoped .scVector = true; decide⟩⟩⟩⟩⟩),
    SparseCore.bigSep_erase' (Finset.mem_erase.mpr ⟨fun e => absurd (congrArg Prod.snd e) (show (SemLoc.dma cc3_scratch5.sem : SemLoc sig) ≠ SemLoc.dma cc1_scoped2.sem by decide), Finset.mem_erase.mpr ⟨fun e => absurd (congrArg Prod.snd e) (show (SemLoc.dma cc3_scratch5.sem : SemLoc sig) ≠ SemLoc.dma cc1_scoped1.sem by decide), Finset.mem_erase.mpr ⟨fun e => absurd (congrArg Prod.snd e) (show (SemLoc.dma cc3_scratch5.sem : SemLoc sig) ≠ SemLoc.dma cc1_scoped0.sem by decide), Finset.mem_erase.mpr ⟨fun e => absurd (congrArg Prod.snd e) (show (SemLoc.dma cc3_scratch5.sem : SemLoc sig) ≠ SemLoc.dma cc1_scratch8.sem by decide), Finset.mem_erase.mpr ⟨fun e => absurd (congrArg Prod.snd e) (show (SemLoc.dma cc3_scratch5.sem : SemLoc sig) ≠ SemLoc.dma cc1_scratch7.sem by decide), (mem_ownCells (g := cell d c i cc3_scratch5)).mpr ⟨rfl, by show (SemLoc.dma cc3_scratch5.sem : SemLoc sig).isScoped .scVector = true; decide⟩⟩⟩⟩⟩⟩),
    SparseCore.bigSep_erase' (Finset.mem_erase.mpr ⟨fun e => absurd (congrArg Prod.snd e) (show (SemLoc.dma cc3_scratch6.sem : SemLoc sig) ≠ SemLoc.dma cc3_scratch5.sem by decide), Finset.mem_erase.mpr ⟨fun e => absurd (congrArg Prod.snd e) (show (SemLoc.dma cc3_scratch6.sem : SemLoc sig) ≠ SemLoc.dma cc1_scoped2.sem by decide), Finset.mem_erase.mpr ⟨fun e => absurd (congrArg Prod.snd e) (show (SemLoc.dma cc3_scratch6.sem : SemLoc sig) ≠ SemLoc.dma cc1_scoped1.sem by decide), Finset.mem_erase.mpr ⟨fun e => absurd (congrArg Prod.snd e) (show (SemLoc.dma cc3_scratch6.sem : SemLoc sig) ≠ SemLoc.dma cc1_scoped0.sem by decide), Finset.mem_erase.mpr ⟨fun e => absurd (congrArg Prod.snd e) (show (SemLoc.dma cc3_scratch6.sem : SemLoc sig) ≠ SemLoc.dma cc1_scratch8.sem by decide), Finset.mem_erase.mpr ⟨fun e => absurd (congrArg Prod.snd e) (show (SemLoc.dma cc3_scratch6.sem : SemLoc sig) ≠ SemLoc.dma cc1_scratch7.sem by decide), (mem_ownCells (g := cell d c i cc3_scratch6)).mpr ⟨rfl, by show (SemLoc.dma cc3_scratch6.sem : SemLoc sig).isScoped .scVector = true; decide⟩⟩⟩⟩⟩⟩⟩),
    SparseCore.bigSep_erase' (Finset.mem_erase.mpr ⟨fun e => absurd (congrArg Prod.snd e) (show (SemLoc.dma cc3_scoped0.sem : SemLoc sig) ≠ SemLoc.dma cc3_scratch6.sem by decide), Finset.mem_erase.mpr ⟨fun e => absurd (congrArg Prod.snd e) (show (SemLoc.dma cc3_scoped0.sem : SemLoc sig) ≠ SemLoc.dma cc3_scratch5.sem by decide), Finset.mem_erase.mpr ⟨fun e => absurd (congrArg Prod.snd e) (show (SemLoc.dma cc3_scoped0.sem : SemLoc sig) ≠ SemLoc.dma cc1_scoped2.sem by decide), Finset.mem_erase.mpr ⟨fun e => absurd (congrArg Prod.snd e) (show (SemLoc.dma cc3_scoped0.sem : SemLoc sig) ≠ SemLoc.dma cc1_scoped1.sem by decide), Finset.mem_erase.mpr ⟨fun e => absurd (congrArg Prod.snd e) (show (SemLoc.dma cc3_scoped0.sem : SemLoc sig) ≠ SemLoc.dma cc1_scoped0.sem by decide), Finset.mem_erase.mpr ⟨fun e => absurd (congrArg Prod.snd e) (show (SemLoc.dma cc3_scoped0.sem : SemLoc sig) ≠ SemLoc.dma cc1_scratch8.sem by decide), Finset.mem_erase.mpr ⟨fun e => absurd (congrArg Prod.snd e) (show (SemLoc.dma cc3_scoped0.sem : SemLoc sig) ≠ SemLoc.dma cc1_scratch7.sem by decide), (mem_ownCells (g := cell d c i cc3_scoped0)).mpr ⟨rfl, by show (SemLoc.dma cc3_scoped0.sem : SemLoc sig).isScoped .scVector = true; decide⟩⟩⟩⟩⟩⟩⟩⟩),
    SparseCore.bigSep_erase' (Finset.mem_erase.mpr ⟨fun e => absurd (congrArg Prod.snd e) (show (SemLoc.dma cc3_scoped1.sem : SemLoc sig) ≠ SemLoc.dma cc3_scoped0.sem by decide), Finset.mem_erase.mpr ⟨fun e => absurd (congrArg Prod.snd e) (show (SemLoc.dma cc3_scoped1.sem : SemLoc sig) ≠ SemLoc.dma cc3_scratch6.sem by decide), Finset.mem_erase.mpr ⟨fun e => absurd (congrArg Prod.snd e) (show (SemLoc.dma cc3_scoped1.sem : SemLoc sig) ≠ SemLoc.dma cc3_scratch5.sem by decide), Finset.mem_erase.mpr ⟨fun e => absurd (congrArg Prod.snd e) (show (SemLoc.dma cc3_scoped1.sem : SemLoc sig) ≠ SemLoc.dma cc1_scoped2.sem by decide), Finset.mem_erase.mpr ⟨fun e => absurd (congrArg Prod.snd e) (show (SemLoc.dma cc3_scoped1.sem : SemLoc sig) ≠ SemLoc.dma cc1_scoped1.sem by decide), Finset.mem_erase.mpr ⟨fun e => absurd (congrArg Prod.snd e) (show (SemLoc.dma cc3_scoped1.sem : SemLoc sig) ≠ SemLoc.dma cc1_scoped0.sem by decide), Finset.mem_erase.mpr ⟨fun e => absurd (congrArg Prod.snd e) (show (SemLoc.dma cc3_scoped1.sem : SemLoc sig) ≠ SemLoc.dma cc1_scratch8.sem by decide), Finset.mem_erase.mpr ⟨fun e => absurd (congrArg Prod.snd e) (show (SemLoc.dma cc3_scoped1.sem : SemLoc sig) ≠ SemLoc.dma cc1_scratch7.sem by decide), (mem_ownCells (g := cell d c i cc3_scoped1)).mpr ⟨rfl, by show (SemLoc.dma cc3_scoped1.sem : SemLoc sig).isScoped .scVector = true; decide⟩⟩⟩⟩⟩⟩⟩⟩⟩)]

/-- A tile's own buffers: the twelve scratch buffers the two kernels name, each at some contents, and the rest. -/
theorem ownBufs_V (d : Dev nD) (c : Fin τ.nSC) (i : Fin τ.nSub) :
    (ownBufs (V d c i) : sProp 𝕄)
      = iprop((∃ f, (V d c i).loc cc1_scratch0 ↦{fullShare} f)
          ∗ (∃ f, (V d c i).loc cc1_scratch1 ↦{fullShare} f)
          ∗ (∃ f, (V d c i).loc cc1_scratch2 ↦{fullShare} f)
          ∗ (∃ f, (V d c i).loc cc1_scratch3 ↦{fullShare} f)
          ∗ (∃ f, (V d c i).loc cc1_scratch4 ↦{fullShare} f)
          ∗ (∃ f, (V d c i).loc cc1_scratch5 ↦{fullShare} f)
          ∗ (∃ f, (V d c i).loc cc1_scratch6 ↦{fullShare} f)
          ∗ (∃ f, (V d c i).loc cc3_scratch0 ↦{fullShare} f)
          ∗ (∃ f, (V d c i).loc cc3_scratch1 ↦{fullShare} f)
          ∗ (∃ f, (V d c i).loc cc3_scratch2 ↦{fullShare} f)
          ∗ (∃ f, (V d c i).loc cc3_scratch3 ↦{fullShare} f)
          ∗ (∃ f, (V d c i).loc cc3_scratch4 ↦{fullShare} f)
          ∗ bigSep (restRefs c i) fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := ((Proc.scVector c i).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector c i) (b := ((Proc.scVector c i).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector c i) (b := ((Proc.scVector c i).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector c i) (b := ((Proc.scVector c i).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector c i) (b := ((Proc.scVector c i).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector c i) (b := ((Proc.scVector c i).devRef cc1_scratch5)) rfl⟩⟩⟩⟩⟩),
    SparseCore.bigSep_erase' (Finset.mem_erase.mpr ⟨fun e => absurd (Proc.devRef_injective _ e) (show (cc1_scratch6 : Ref sig .scVector) ≠ cc1_scratch5 by decide), Finset.mem_erase.mpr ⟨fun e => absurd (Proc.devRef_injective _ e) (show (cc1_scratch6 : Ref sig .scVector) ≠ cc1_scratch4 by decide), Finset.mem_erase.mpr ⟨fun e => absurd (Proc.devRef_injective _ e) (show (cc1_scratch6 : Ref sig .scVector) ≠ cc1_scratch3 by decide), Finset.mem_erase.mpr ⟨fun e => absurd (Proc.devRef_injective _ e) (show (cc1_scratch6 : Ref sig .scVector) ≠ cc1_scratch2 by decide), Finset.mem_erase.mpr ⟨fun e => absurd (Proc.devRef_injective _ e) (show (cc1_scratch6 : Ref sig .scVector) ≠ cc1_scratch1 by decide), Finset.mem_erase.mpr ⟨fun e => absurd (Proc.devRef_injective _ e) (show (cc1_scratch6 : Ref sig .scVector) ≠ cc1_scratch0 by decide), SparseCore.Cfg.mem_ownRefs_of_owner (p := Proc.scVector c i) (b := ((Proc.scVector c i).devRef cc1_scratch6)) rfl⟩⟩⟩⟩⟩⟩),
    SparseCore.bigSep_erase' (Finset.mem_erase.mpr ⟨fun e => absurd (Proc.devRef_injective _ e) (show (cc3_scratch0 : Ref sig .scVector) ≠ cc1_scratch6 by decide), Finset.mem_erase.mpr ⟨fun e => absurd (Proc.devRef_injective _ e) (show (cc3_scratch0 : Ref sig .scVector) ≠ cc1_scratch5 by decide), Finset.mem_erase.mpr ⟨fun e => absurd (Proc.devRef_injective _ e) (show (cc3_scratch0 : Ref sig .scVector) ≠ cc1_scratch4 by decide), Finset.mem_erase.mpr ⟨fun e => absurd (Proc.devRef_injective _ e) (show (cc3_scratch0 : Ref sig .scVector) ≠ cc1_scratch3 by decide), Finset.mem_erase.mpr ⟨fun e => absurd (Proc.devRef_injective _ e) (show (cc3_scratch0 : Ref sig .scVector) ≠ cc1_scratch2 by decide), Finset.mem_erase.mpr ⟨fun e => absurd (Proc.devRef_injective _ e) (show (cc3_scratch0 : Ref sig .scVector) ≠ cc1_scratch1 by decide), Finset.mem_erase.mpr ⟨fun e => absurd (Proc.devRef_injective _ e) (show (cc3_scratch0 : Ref sig .scVector) ≠ cc1_scratch0 by decide), SparseCore.Cfg.mem_ownRefs_of_owner (p := Proc.scVector c i) (b := ((Proc.scVector c i).devRef cc3_scratch0)) rfl⟩⟩⟩⟩⟩⟩⟩),
    SparseCore.bigSep_erase' (Finset.mem_erase.mpr ⟨fun e => absurd (Proc.devRef_injective _ e) (show (cc3_scratch1 : Ref sig .scVector) ≠ cc3_scratch0 by decide), Finset.mem_erase.mpr ⟨fun e => absurd (Proc.devRef_injective _ e) (show (cc3_scratch1 : Ref sig .scVector) ≠ cc1_scratch6 by decide), Finset.mem_erase.mpr ⟨fun e => absurd (Proc.devRef_injective _ e) (show (cc3_scratch1 : Ref sig .scVector) ≠ cc1_scratch5 by decide), Finset.mem_erase.mpr ⟨fun e => absurd (Proc.devRef_injective _ e) (show (cc3_scratch1 : Ref sig .scVector) ≠ cc1_scratch4 by decide), Finset.mem_erase.mpr ⟨fun e => absurd (Proc.devRef_injective _ e) (show (cc3_scratch1 : Ref sig .scVector) ≠ cc1_scratch3 by decide), Finset.mem_erase.mpr ⟨fun e => absurd (Proc.devRef_injective _ e) (show (cc3_scratch1 : Ref sig .scVector) ≠ cc1_scratch2 by decide), Finset.mem_erase.mpr ⟨fun e => absurd (Proc.devRef_injective _ e) (show (cc3_scratch1 : Ref sig .scVector) ≠ cc1_scratch1 by decide), Finset.mem_erase.mpr ⟨fun e => absurd (Proc.devRef_injective _ e) (show (cc3_scratch1 : Ref sig .scVector) ≠ cc1_scratch0 by decide), SparseCore.Cfg.mem_ownRefs_of_owner (p := Proc.scVector c i) (b := ((Proc.scVector c i).devRef cc3_scratch1)) rfl⟩⟩⟩⟩⟩⟩⟩⟩),
    SparseCore.bigSep_erase' (Finset.mem_erase.mpr ⟨fun e => absurd (Proc.devRef_injective _ e) (show (cc3_scratch2 : Ref sig .scVector) ≠ cc3_scratch1 by decide), Finset.mem_erase.mpr ⟨fun e => absurd (Proc.devRef_injective _ e) (show (cc3_scratch2 : Ref sig .scVector) ≠ cc3_scratch0 by decide), Finset.mem_erase.mpr ⟨fun e => absurd (Proc.devRef_injective _ e) (show (cc3_scratch2 : Ref sig .scVector) ≠ cc1_scratch6 by decide), Finset.mem_erase.mpr ⟨fun e => absurd (Proc.devRef_injective _ e) (show (cc3_scratch2 : Ref sig .scVector) ≠ cc1_scratch5 by decide), Finset.mem_erase.mpr ⟨fun e => absurd (Proc.devRef_injective _ e) (show (cc3_scratch2 : Ref sig .scVector) ≠ cc1_scratch4 by decide), Finset.mem_erase.mpr ⟨fun e => absurd (Proc.devRef_injective _ e) (show (cc3_scratch2 : Ref sig .scVector) ≠ cc1_scratch3 by decide), Finset.mem_erase.mpr ⟨fun e => absurd (Proc.devRef_injective _ e) (show (cc3_scratch2 : Ref sig .scVector) ≠ cc1_scratch2 by decide), Finset.mem_erase.mpr ⟨fun e => absurd (Proc.devRef_injective _ e) (show (cc3_scratch2 : Ref sig .scVector) ≠ cc1_scratch1 by decide), Finset.mem_erase.mpr ⟨fun e => absurd (Proc.devRef_injective _ e) (show (cc3_scratch2 : Ref sig .scVector) ≠ cc1_scratch0 by decide), SparseCore.Cfg.mem_ownRefs_of_owner (p := Proc.scVector c i) (b := ((Proc.scVector c i).devRef cc3_scratch2)) rfl⟩⟩⟩⟩⟩⟩⟩⟩⟩),
    SparseCore.bigSep_erase' (Finset.mem_erase.mpr ⟨fun e => absurd (Proc.devRef_injective _ e) (show (cc3_scratch3 : Ref sig .scVector) ≠ cc3_scratch2 by decide), Finset.mem_erase.mpr ⟨fun e => absurd (Proc.devRef_injective _ e) (show (cc3_scratch3 : Ref sig .scVector) ≠ cc3_scratch1 by decide), Finset.mem_erase.mpr ⟨fun e => absurd (Proc.devRef_injective _ e) (show (cc3_scratch3 : Ref sig .scVector) ≠ cc3_scratch0 by decide), Finset.mem_erase.mpr ⟨fun e => absurd (Proc.devRef_injective _ e) (show (cc3_scratch3 : Ref sig .scVector) ≠ cc1_scratch6 by decide), Finset.mem_erase.mpr ⟨fun e => absurd (Proc.devRef_injective _ e) (show (cc3_scratch3 : Ref sig .scVector) ≠ cc1_scratch5 by decide), Finset.mem_erase.mpr ⟨fun e => absurd (Proc.devRef_injective _ e) (show (cc3_scratch3 : Ref sig .scVector) ≠ cc1_scratch4 by decide), Finset.mem_erase.mpr ⟨fun e => absurd (Proc.devRef_injective _ e) (show (cc3_scratch3 : Ref sig .scVector) ≠ cc1_scratch3 by decide), Finset.mem_erase.mpr ⟨fun e => absurd (Proc.devRef_injective _ e) (show (cc3_scratch3 : Ref sig .scVector) ≠ cc1_scratch2 by decide), Finset.mem_erase.mpr ⟨fun e => absurd (Proc.devRef_injective _ e) (show (cc3_scratch3 : Ref sig .scVector) ≠ cc1_scratch1 by decide), Finset.mem_erase.mpr ⟨fun e => absurd (Proc.devRef_injective _ e) (show (cc3_scratch3 : Ref sig .scVector) ≠ cc1_scratch0 by decide), SparseCore.Cfg.mem_ownRefs_of_owner (p := Proc.scVector c i) (b := ((Proc.scVector c i).devRef cc3_scratch3)) rfl⟩⟩⟩⟩⟩⟩⟩⟩⟩⟩),
    SparseCore.bigSep_erase' (Finset.mem_erase.mpr ⟨fun e => absurd (Proc.devRef_injective _ e) (show (cc3_scratch4 : Ref sig .scVector) ≠ cc3_scratch3 by decide), Finset.mem_erase.mpr ⟨fun e => absurd (Proc.devRef_injective _ e) (show (cc3_scratch4 : Ref sig .scVector) ≠ cc3_scratch2 by decide), Finset.mem_erase.mpr ⟨fun e => absurd (Proc.devRef_injective _ e) (show (cc3_scratch4 : Ref sig .scVector) ≠ cc3_scratch1 by decide), Finset.mem_erase.mpr ⟨fun e => absurd (Proc.devRef_injective _ e) (show (cc3_scratch4 : Ref sig .scVector) ≠ cc3_scratch0 by decide), Finset.mem_erase.mpr ⟨fun e => absurd (Proc.devRef_injective _ e) (show (cc3_scratch4 : Ref sig .scVector) ≠ cc1_scratch6 by decide), Finset.mem_erase.mpr ⟨fun e => absurd (Proc.devRef_injective _ e) (show (cc3_scratch4 : Ref sig .scVector) ≠ cc1_scratch5 by decide), Finset.mem_erase.mpr ⟨fun e => absurd (Proc.devRef_injective _ e) (show (cc3_scratch4 : Ref sig .scVector) ≠ cc1_scratch4 by decide), Finset.mem_erase.mpr ⟨fun e => absurd (Proc.devRef_injective _ e) (show (cc3_scratch4 : Ref sig .scVector) ≠ cc1_scratch3 by decide), Finset.mem_erase.mpr ⟨fun e => absurd (Proc.devRef_injective _ e) (show (cc3_scratch4 : Ref sig .scVector) ≠ cc1_scratch2 by decide), Finset.mem_erase.mpr ⟨fun e => absurd (Proc.devRef_injective _ e) (show (cc3_scratch4 : Ref sig .scVector) ≠ cc1_scratch1 by decide), Finset.mem_erase.mpr ⟨fun e => absurd (Proc.devRef_injective _ e) (show (cc3_scratch4 : Ref sig .scVector) ≠ cc1_scratch0 by decide), SparseCore.Cfg.mem_ownRefs_of_owner (p := Proc.scVector c i) (b := ((Proc.scVector c i).devRef cc3_scratch4)) rfl⟩⟩⟩⟩⟩⟩⟩⟩⟩⟩⟩)]

end Cert.KernelIdeal.TileCommon

end
-- ==== Proof.TileDotDefs.lean ====
/-
  The second SparseCore kernel's task at a symbolic place, its vocabulary: the SparseCore and vector subcore of a grid
  point, the four arrays and the five scratch buffers as the body table passes them, the tile's slices of the
  difference rows, the index words and the result as the program slices them, what the task is handed and hands back
  (read shares of the packed user table, of the index array and of its 64 difference rows; its own 128 result entries),
  and the scratch buffers' points-to as their memrefs address them.
-/
import proofs.«203895_g52347061404180_cont_8to1_c_859_34_alg».proof.Proof.TileCommon

noncomputable section

namespace Cert.KernelIdeal.TileDotDefs

open Cert.KernelIdeal Cert.KernelIdeal.Gen Cert.KernelIdeal.KCommon Cert.KernelIdeal.TileCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The place and the buffers -/

/-- The SparseCore and the vector subcore of grid point `L`. -/
abbrev cV (L : grid3.Coords) : Fin τ.nSC := (L 0).castLE hcore3
abbrev jV (L : grid3.Coords) : Fin τ.nSub := (L 1).castLE hsub3

variable (d : Dev nD) (L : grid3.Coords)

/-- The four arrays in HBM, as the body table passes them. -/
abbrev puM : Memref sig .scVector .hbm S50176x128 .f32 := Memref.whole main_v9_scv
abbrev uiM : Memref sig .scVector .hbm S4096 .i32 := Memref.whole main_v0_scv
abbrev gpM : Memref sig .scVector .hbm S2048x128 .f32 := Memref.whole main_v7_scv
abbrev outM : Memref sig .scVector .hbm S4096 .f32 := Memref.whole main_v10_scv
/-- The tile's five scratch buffers. -/
abbrev urawM : Memref sig .scVector .vmem S128 .i32 := Memref.whole cc3_scratch0
abbrev uidxM : Memref sig .scVector .vmem S128 .i32 := Memref.whole cc3_scratch1
abbrev urowsM : Memref sig .scVector .vmem S128x128 .f32 := Memref.whole cc3_scratch2
abbrev gpvM : Memref sig .scVector .vmem S64x128 .f32 := Memref.whole cc3_scratch3
abbrev diffsM : Memref sig .scVector .vmem S128 .f32 := Memref.whole cc3_scratch4

/-- The tile's 64 difference rows and its 128 result entries, sliced as the program slices them. -/
abbrev gpSl (L : grid3.Coords) : Memref sig .scVector .hbm S64x128 .f32 :=
  (gpM).slice (Rect.unit (s := S2048x128) (k3_off2 L) S64x128.size (k3_off2_inb L)) (fun _ => rfl)
abbrev outSl (L : grid3.Coords) : Memref sig .scVector .hbm S128 .f32 :=
  (outM).slice (Rect.unit (s := S4096) (k3_off1 L) S128.size (k3_off1_inb L)) (fun _ => rfl)
abbrev uiSl (L : grid3.Coords) : Memref sig .scVector .hbm S128 .i32 :=
  (uiM).slice (Rect.unit (s := S4096) (k3_off1 L) S128.size (k3_off1_inb L)) (fun _ => rfl)

variable [FloatOps F]

/-- What the task is handed: read shares of the packed user table and of the index array, whole; a read share of its
    64 difference rows; its 128 result entries outright. -/
def goDot (q9 q0 q7 : PosShare TreeShare)
    (f9 : Buf (Elt F) ((puM).view.loc (V d (cV L) (jV L)))) (f0 : Buf (Elt F) ((uiM).view.loc (V d (cV L) (jV L))))
    (f7 : Buf (Elt F) ((gpSl L).view.loc (V d (cV L) (jV L)))) : sProp 𝕄 :=
  iprop(((puM).view.loc (V d (cV L) (jV L)) ↦{q9} f9)
    ∗ ((uiM).view.loc (V d (cV L) (jV L)) ↦{q0} f0)
    ∗ ((gpSl L).view.loc (V d (cV L) (jV L)) ↦[(gpSl L).view.set]{q7} f7)
    ∗ ∃ f, (outSl L).view.loc (V d (cV L) (jV L)) ↦[(outSl L).view.set]{fullShare} f)

/-! ## The scratch buffers as their memrefs address them -/

omit [FloatOps F] in
theorem pts_s0 (f : Buf (Elt F) ((V d (cV L) (jV L)).loc cc3_scratch0)) :
    ((urawM).view.loc (V d (cV L) (jV L)) ↦{fullShare} f : sProp 𝕄) = (V d (cV L) (jV L)).loc cc3_scratch0 ↦{fullShare} f := rfl
omit [FloatOps F] in
theorem pts_s1 (f : Buf (Elt F) ((V d (cV L) (jV L)).loc cc3_scratch1)) :
    ((uidxM).view.loc (V d (cV L) (jV L)) ↦{fullShare} f : sProp 𝕄) = (V d (cV L) (jV L)).loc cc3_scratch1 ↦{fullShare} f := rfl
omit [FloatOps F] in
theorem pts_s2 (f : Buf (Elt F) ((V d (cV L) (jV L)).loc cc3_scratch2)) :
    ((urowsM).view.loc (V d (cV L) (jV L)) ↦{fullShare} f : sProp 𝕄) = (V d (cV L) (jV L)).loc cc3_scratch2 ↦{fullShare} f := rfl
omit [FloatOps F] in
theorem pts_s3 (f : Buf (Elt F) ((V d (cV L) (jV L)).loc cc3_scratch3)) :
    ((gpvM).view.loc (V d (cV L) (jV L)) ↦{fullShare} f : sProp 𝕄) = (V d (cV L) (jV L)).loc cc3_scratch3 ↦{fullShare} f := rfl
omit [FloatOps F] in
theorem pts_s4 (f : Buf (Elt F) ((V d (cV L) (jV L)).loc cc3_scratch4)) :
    ((diffsM).view.loc (V d (cV L) (jV L)) ↦{fullShare} f : sProp 𝕄) = (V d (cV L) (jV L)).loc cc3_scratch4 ↦{fullShare} f := rfl

end Cert.KernelIdeal.TileDotDefs

end
-- ==== Proof.TileGDefs.lean ====
/-
  ONE TILE'S TASK of the first SparseCore kernel: the place, the arrays and scratch buffers as the body table passes
  them, the tile's slice of the result, and what the task is handed and hands back. Nothing here runs the program.
-/
import proofs.«203895_g52347061404180_cont_8to1_c_859_34_alg».proof.Proof.TileCommon

noncomputable section

namespace Cert.KernelIdeal.TileG

open Cert.KernelIdeal Cert.KernelIdeal.Gen Cert.KernelIdeal.KCommon Cert.KernelIdeal.TileCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The place and the buffers -/

/-- The SparseCore and the vector subcore of grid point `L`. -/
abbrev cV (L : grid1.Coords) : Fin τ.nSC := (L 0).castLE hcore1
abbrev jV (L : grid1.Coords) : Fin τ.nSub := (L 1).castLE hsub1

/-- The four arrays in HBM, as the body table passes them: the packed item table, the positive and the negative items'
    index arrays, the result (the rows of differences). -/
abbrev tblM : Memref sig .scVector .hbm S50176x128 .f32 := Memref.whole main_v6_scv
abbrev posM : Memref sig .scVector .hbm S4096 .i32 := Memref.whole main_v2_scv
abbrev negM : Memref sig .scVector .hbm S4096 .i32 := Memref.whole main_v4_scv
abbrev gpM : Memref sig .scVector .hbm S2048x128 .f32 := Memref.whole main_v7_scv
/-- The tile's seven scratch buffers: the raw and the repacked index words of each sign, the gathered rows of each sign,
    the differences. -/
abbrev rawPM : Memref sig .scVector .vmem S128 .i32 := Memref.whole cc1_scratch0
abbrev rawNM : Memref sig .scVector .vmem S128 .i32 := Memref.whole cc1_scratch1
abbrev idxPM : Memref sig .scVector .vmem S128 .i32 := Memref.whole cc1_scratch2
abbrev idxNM : Memref sig .scVector .vmem S128 .i32 := Memref.whole cc1_scratch3
abbrev rowsPM : Memref sig .scVector .vmem S128x128 .f32 := Memref.whole cc1_scratch4
abbrev rowsNM : Memref sig .scVector .vmem S128x128 .f32 := Memref.whole cc1_scratch5
abbrev diffM : Memref sig .scVector .vmem S64x128 .f32 := Memref.whole cc1_scratch6

/-- The tile's 64 rows of the result, sliced as the program slices them. -/
abbrev gpSl (L : grid1.Coords) : Memref sig .scVector .hbm S64x128 .f32 :=
  (Memref.whole main_v7_scv : Memref sig .scVector .hbm S2048x128 .f32).slice
    (Rect.unit (s := S2048x128) (k1_off3 L) S64x128.size (k1_off3_inb L)) (fun _ => rfl)

variable (d : Dev nD) (L : grid1.Coords)

/-- What the task is handed, and hands back: two read shares of the packed table, whole (its two gathers are in flight
    together, one share each), a read share of each index array, whole, and the tile's 64 rows of the result outright, at
    some contents. Spelt over the arrays' memrefs as the body table passes them. -/
def goG (q6a q6b q2 q4 : PosShare TreeShare)
    (f6 : Buf (Elt F) ((Memref.whole main_v6_scv : Memref sig .scVector .hbm S50176x128 .f32).view.loc (V d (cV L) (jV L))))
    (f2 : Buf (Elt F) ((Memref.whole main_v2_scv : Memref sig .scVector .hbm S4096 .i32).view.loc (V d (cV L) (jV L))))
    (f4 : Buf (Elt F) ((Memref.whole main_v4_scv : Memref sig .scVector .hbm S4096 .i32).view.loc (V d (cV L) (jV L)))) : sProp 𝕄 :=
  iprop(((Memref.whole main_v6_scv : Memref sig .scVector .hbm S50176x128 .f32).view.loc (V d (cV L) (jV L)) ↦{q6a} f6)
    ∗ ((Memref.whole main_v6_scv : Memref sig .scVector .hbm S50176x128 .f32).view.loc (V d (cV L) (jV L)) ↦{q6b} f6)
    ∗ ((Memref.whole main_v2_scv : Memref sig .scVector .hbm S4096 .i32).view.loc (V d (cV L) (jV L)) ↦{q2} f2)
    ∗ ((Memref.whole main_v4_scv : Memref sig .scVector .hbm S4096 .i32).view.loc (V d (cV L) (jV L)) ↦{q4} f4)
    ∗ ∃ f, (gpSl L).view.loc (V d (cV L) (jV L)) ↦[(gpSl L).view.set]{fullShare} f)

/-- THE LOOP'S INVARIANT (frame form): the two raw-index scratches, the two gathered-row scratches and the difference
    scratch, each whole at some contents — everything a trip of the loop touches. -/
def invG (_ : Nat) (_ : Unit) : sProp 𝕄 :=
  iprop((∃ f, (Memref.whole cc1_scratch0 : Memref sig .scVector .vmem S128 .i32).view.loc (V d (cV L) (jV L)) ↦{fullShare} f)
    ∗ (∃ f, (Memref.whole cc1_scratch1 : Memref sig .scVector .vmem S128 .i32).view.loc (V d (cV L) (jV L)) ↦{fullShare} f)
    ∗ (∃ f, (Memref.whole cc1_scratch4 : Memref sig .scVector .vmem S128x128 .f32).view.loc (V d (cV L) (jV L)) ↦{fullShare} f)
    ∗ (∃ f, (Memref.whole cc1_scratch5 : Memref sig .scVector .vmem S128x128 .f32).view.loc (V d (cV L) (jV L)) ↦{fullShare} f)
    ∗ ∃ f, (Memref.whole cc1_scratch6 : Memref sig .scVector .vmem S64x128 .f32).view.loc (V d (cV L) (jV L)) ↦{fullShare} f)

/-! ## The scratch buffers as their memrefs address them -/

theorem pts_s0 (f : Buf (Elt F) ((V d (cV L) (jV L)).loc cc1_scratch0)) :
    ((Memref.whole cc1_scratch0 : Memref sig .scVector .vmem S128 .i32).view.loc (V d (cV L) (jV L)) ↦{fullShare} f : sProp 𝕄)
      = (V d (cV L) (jV L)).loc cc1_scratch0 ↦{fullShare} f := rfl
theorem pts_s1 (f : Buf (Elt F) ((V d (cV L) (jV L)).loc cc1_scratch1)) :
    ((Memref.whole cc1_scratch1 : Memref sig .scVector .vmem S128 .i32).view.loc (V d (cV L) (jV L)) ↦{fullShare} f : sProp 𝕄)
      = (V d (cV L) (jV L)).loc cc1_scratch1 ↦{fullShare} f := rfl
theorem pts_s2 (f : Buf (Elt F) ((V d (cV L) (jV L)).loc cc1_scratch2)) :
    ((Memref.whole cc1_scratch2 : Memref sig .scVector .vmem S128 .i32).view.loc (V d (cV L) (jV L)) ↦{fullShare} f : sProp 𝕄)
      = (V d (cV L) (jV L)).loc cc1_scratch2 ↦{fullShare} f := rfl
theorem pts_s3 (f : Buf (Elt F) ((V d (cV L) (jV L)).loc cc1_scratch3)) :
    ((Memref.whole cc1_scratch3 : Memref sig .scVector .vmem S128 .i32).view.loc (V d (cV L) (jV L)) ↦{fullShare} f : sProp 𝕄)
      = (V d (cV L) (jV L)).loc cc1_scratch3 ↦{fullShare} f := rfl
theorem pts_s4 (f : Buf (Elt F) ((V d (cV L) (jV L)).loc cc1_scratch4)) :
    ((Memref.whole cc1_scratch4 : Memref sig .scVector .vmem S128x128 .f32).view.loc (V d (cV L) (jV L)) ↦{fullShare} f : sProp 𝕄)
      = (V d (cV L) (jV L)).loc cc1_scratch4 ↦{fullShare} f := rfl
theorem pts_s5 (f : Buf (Elt F) ((V d (cV L) (jV L)).loc cc1_scratch5)) :
    ((Memref.whole cc1_scratch5 : Memref sig .scVector .vmem S128x128 .f32).view.loc (V d (cV L) (jV L)) ↦{fullShare} f : sProp 𝕄)
      = (V d (cV L) (jV L)).loc cc1_scratch5 ↦{fullShare} f := rfl
theorem pts_s6 (f : Buf (Elt F) ((V d (cV L) (jV L)).loc cc1_scratch6)) :
    ((Memref.whole cc1_scratch6 : Memref sig .scVector .vmem S64x128 .f32).view.loc (V d (cV L) (jV L)) ↦{fullShare} f : sProp 𝕄)
      = (V d (cV L) (jV L)).loc cc1_scratch6 ↦{fullShare} f := rfl

end Cert.KernelIdeal.TileG

end
-- ==== Proof.LaunchPay.lean ====
/-
  What the launch's handshakes carry for the two SparseCore calls.

  A call's operands go from the TensorCore to the two SparseCores' sequencers and on to their sixteen tiles each, and
  come back the same way. Here a sequencer is handed exactly the product of its tiles' tasks and hands back the product
  of their results, so the split of a SparseCore's operands among its tasks is the identity; the arrays are cut up once,
  on the TensorCore, when @main meets the call. A task's payload does not fix the arrays' contents in advance — the
  packed tables and the differences are produced while the program runs — but says what the tile's proof needs of
  them: that the index words it is handed name table rows.

  Tile `i` of SparseCore `c` is the tile number `2 i + c` of the 32; it reads the whole tables through read-share
  token number `2 i + c`.
-/
import proofs.«203895_g52347061404180_cont_8to1_c_859_34_alg».proof.Proof.KCommon
import proofs.«203895_g52347061404180_cont_8to1_c_859_34_alg».proof.Proof.TileDotDefs
import proofs.«203895_g52347061404180_cont_8to1_c_859_34_alg».proof.Proof.TileGDefs

noncomputable section

namespace Cert.KernelIdeal.LaunchPay

open Cert.KernelIdeal Cert.KernelIdeal.Gen Cert.KernelIdeal.KCommon
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The number of tile `i` of SparseCore `c` among the 32. -/
abbrev tileNo (c : Fin 2) (i : Fin 16) : Fin 32 := ⟨2 * i.val + c.val, by have := c.isLt; have := i.isLt; omega⟩

/-- The read share a tile holds of an array all 32 read whole. -/
abbrev tileShare (c : Fin 2) (i : Fin 16) : PosShare TreeShare := Transfers.shareTok fullShare 32 (tileNo c i)

/-- SECOND SparseCore call, tile `(c, i)`: read shares of the packed user table and of the flattened user indices
    (whole), its 64 difference rows, its 128 result entries; the index words name table rows. -/
def goDotP (d : Dev nD) (c : Fin 2) (i : Fin 16) : sProp 𝕄 :=
  iprop(∃ f9 f0 f7, ⌜∀ j, 0 ≤ (f0 j).toInt ∧ (f0 j).toInt ≤ 99999⌝
    ∗ TileDotDefs.goDot (F := F) d (coordsV3 c i) (tileShare c i) (tileShare c i) fullShare f9 f0 f7)

/-- The two read shares a tile holds of the packed item table, whose two gathers are in flight together. -/
abbrev tileShareA (c : Fin 2) (i : Fin 16) : PosShare TreeShare :=
  Transfers.shareTok fullShare 64 ⟨2 * (tileNo c i).val, by have := (tileNo c i).isLt; omega⟩
abbrev tileShareB (c : Fin 2) (i : Fin 16) : PosShare TreeShare :=
  Transfers.shareTok fullShare 64 ⟨2 * (tileNo c i).val + 1, by have := (tileNo c i).isLt; omega⟩

/-- FIRST SparseCore call, tile `(c, i)`: two read shares of the packed item table, read shares of the two flattened
    item index arrays (whole), its 64 rows of the differences; the index words name table rows. -/
def goGP (d : Dev nD) (c : Fin 2) (i : Fin 16) : sProp 𝕄 :=
  iprop(∃ f6 f2 f4, ⌜(∀ j, 0 ≤ (f2 j).toInt ∧ (f2 j).toInt ≤ 99999) ∧ (∀ j, 0 ≤ (f4 j).toInt ∧ (f4 j).toInt ≤ 99999)⌝
    ∗ TileG.goG (F := F) d (coordsV1 c i) (tileShareA c i) (tileShareB c i) (tileShare c i) (tileShare c i) f6 f2 f4)

/-- What call `q` hands tile `i` of SparseCore `c`, and what the tile hands back (the same arrays, the result entries
    rewritten: a payload keeps its result under an existential). -/
def goP : Fin 2 → Dev nD → Fin 2 → Fin 16 → sProp 𝕄
  | 0 => goGP (F := F)
  | 1 => goDotP (F := F)

theorem goP_zero : goP (F := F) 0 = goGP (F := F) := rfl
theorem goP_one : goP (F := F) 1 = goDotP (F := F) := rfl

/-- Both calls run on two SparseCores of sixteen vector subcores. -/
theorem nCore_eq (q : Fin 2) : (K (F := F)).nCore q = 2 := by match q with | 0 => rfl | 1 => rfl
theorem nSub_eq (q : Fin 2) : (K (F := F)).nSub q = 16 := by match q with | 0 => rfl | 1 => rfl
/-- A call's SparseCore and vector subcore numbers as numbers below 2 and 16. -/
abbrev castC (q : Fin 2) (c : Fin ((K (F := F)).nCore q)) : Fin 2 := Fin.cast (nCore_eq (F := F) q) c
abbrev castI (q : Fin 2) (i : Fin ((K (F := F)).nSub q)) : Fin 16 := Fin.cast (nSub_eq (F := F) q) i

/-- The payloads: a sequencer is handed its tiles' tasks and hands back their results; nothing is consumed from the launch. -/
def P : (K (F := F)).Pay (nD := nD) (Val := Elt F) (Name := ℕ) (U := UU) where
  st := fun q d c => bigSep Finset.univ fun i : Fin 16 => goP (F := F) q d (castC (F := F) q c) i
  dn := fun q d c => bigSep Finset.univ fun i : Fin 16 => goP (F := F) q d (castC (F := F) q c) i
  go := fun q d c i => goP (F := F) q d (castC (F := F) q c) (castI (F := F) q i)
  td := fun q d c i => goP (F := F) q d (castC (F := F) q c) (castI (F := F) q i)
  x := fun _ _ => iprop(emp)

set_option synthInstance.maxHeartbeats 4000000 in
set_option maxHeartbeats 4000000 in
instance goGP_storable (d : Dev nD) (c : Fin 2) (i : Fin 16) : BI.Storable (upEmb : UEmb _ 𝕄) (goGP (F := F) d c i) := by
  unfold goGP TileG.goG; infer_instance
set_option synthInstance.maxHeartbeats 4000000 in
set_option maxHeartbeats 4000000 in
instance goDotP_storable (d : Dev nD) (c : Fin 2) (i : Fin 16) : BI.Storable (upEmb : UEmb _ 𝕄) (goDotP (F := F) d c i) := by
  unfold goDotP TileDotDefs.goDot; infer_instance
instance goP_storable (q : Fin 2) (d : Dev nD) (c : Fin 2) (i : Fin 16) : BI.Storable (upEmb : UEmb _ 𝕄) (goP (F := F) q d c i) := by
  match q with
  | 0 => rw [goP_zero]; infer_instance
  | 1 => rw [goP_one]; infer_instance

instance P_storable : (P (F := F)).IsStorable where
  st _ _ _ := by unfold P; infer_instance
  dn _ _ _ := by unfold P; infer_instance
  go _ _ _ _ := by unfold P; infer_instance
  td _ _ _ _ := by unfold P; infer_instance

/-- The sixteen tasks of a SparseCore, re-indexed over the call's own count of vector subcores. -/
theorem bigSep_tasks (q : Fin 2) (Φ : Fin 16 → sProp 𝕄) :
    (bigSep Finset.univ fun i : Fin ((K (F := F)).nSub q) => Φ (castI (F := F) q i)) = bigSep Finset.univ Φ := by
  match q with
  | 0 => exact bigSep_congr fun _ _ => congrArg Φ (Fin.ext rfl)
  | 1 => exact bigSep_congr fun _ _ => congrArg Φ (Fin.ext rfl)

/-- A SparseCore's operands ARE its tiles' tasks: the split is the identity. -/
theorem vecSplit (q : Fin 2) : (K (F := F)).VecSplit' (P (F := F)) q := by
  intro d c
  show (bigSep Finset.univ fun i : Fin 16 => goP (F := F) q d (castC (F := F) q c) i) ⊢ |={Set.univ}=> iprop(
      (bigSep Finset.univ fun i : Fin ((K (F := F)).nSub q) => (fun i' => goP (F := F) q d (castC (F := F) q c) i') (castI (F := F) q i))
      ∗ ((bigSep Finset.univ fun i : Fin ((K (F := F)).nSub q) => (fun i' => goP (F := F) q d (castC (F := F) q c) i') (castI (F := F) q i))
          -∗ bigSep Finset.univ fun i : Fin 16 => goP (F := F) q d (castC (F := F) q c) i))
  rw [bigSep_tasks (F := F) q (fun i' => goP (F := F) q d (castC (F := F) q c) i')]
  iintro H; imodintro
  isplitl [H]; · iexact H
  iintro H; iexact H

end Cert.KernelIdeal.LaunchPay

end
-- ==== Proof.TilePayV.lean ====
/-
  The tiles' payloads with the result's contents exposed.

  The frame's payloads keep a tile's result slice at contents not named ("at some contents"). For the value the same
  payloads are needed with the result slice at NAMED contents, so that a pure statement can speak of them: the first
  kernel's (`goGV`) and the second kernel's (`goDotV`). The frame's payload is "for some contents, this one"
  (`goG_iff`, `goDot_iff`).
-/
import proofs.«203895_g52347061404180_cont_8to1_c_859_34_alg».proof.Proof.TileGDefs
import proofs.«203895_g52347061404180_cont_8to1_c_859_34_alg».proof.Proof.TileDotDefs

noncomputable section

namespace Cert.KernelIdeal.TilePayV

open Cert.KernelIdeal Cert.KernelIdeal.Gen Cert.KernelIdeal.KCommon
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- The first kernel's task payload with the tile's 64 result rows at contents `fo`. -/
def goGV (d : Dev nD) (L : grid1.Coords) (q6a q6b q2 q4 : PosShare TreeShare)
    (f6 : Buf (Elt F) ((Memref.whole main_v6_scv : Memref sig .scVector .hbm S50176x128 .f32).view.loc (V d (TileG.cV L) (TileG.jV L))))
    (f2 : Buf (Elt F) ((Memref.whole main_v2_scv : Memref sig .scVector .hbm S4096 .i32).view.loc (V d (TileG.cV L) (TileG.jV L))))
    (f4 : Buf (Elt F) ((Memref.whole main_v4_scv : Memref sig .scVector .hbm S4096 .i32).view.loc (V d (TileG.cV L) (TileG.jV L))))
    (fo : Buf (Elt F) ((TileG.gpSl L).view.loc (V d (TileG.cV L) (TileG.jV L)))) : sProp 𝕄 :=
  iprop(((Memref.whole main_v6_scv : Memref sig .scVector .hbm S50176x128 .f32).view.loc (V d (TileG.cV L) (TileG.jV L)) ↦{q6a} f6)
    ∗ ((Memref.whole main_v6_scv : Memref sig .scVector .hbm S50176x128 .f32).view.loc (V d (TileG.cV L) (TileG.jV L)) ↦{q6b} f6)
    ∗ ((Memref.whole main_v2_scv : Memref sig .scVector .hbm S4096 .i32).view.loc (V d (TileG.cV L) (TileG.jV L)) ↦{q2} f2)
    ∗ ((Memref.whole main_v4_scv : Memref sig .scVector .hbm S4096 .i32).view.loc (V d (TileG.cV L) (TileG.jV L)) ↦{q4} f4)
    ∗ ((TileG.gpSl L).view.loc (V d (TileG.cV L) (TileG.jV L)) ↦[(TileG.gpSl L).view.set]{fullShare} fo))

/-- The frame's payload is this one at some result contents. -/
theorem goG_iff (d : Dev nD) (L : grid1.Coords) (q6a q6b q2 q4 : PosShare TreeShare) (f6) (f2) (f4) :
    (TileG.goG (F := F) d L q6a q6b q2 q4 f6 f2 f4 : sProp 𝕄) ⊣⊢ iprop(∃ fo, goGV (F := F) d L q6a q6b q2 q4 f6 f2 f4 fo) := by
  unfold TileG.goG goGV
  constructor
  · iintro ⟨H1, H2, H3, H4, %fo, H5⟩
    iexists fo
    isplitl [H1]; · iexact H1
    isplitl [H2]; · iexact H2
    isplitl [H3]; · iexact H3
    isplitl [H4]; · iexact H4
    iexact H5
  · iintro ⟨%fo, H1, H2, H3, H4, H5⟩
    isplitl [H1]; · iexact H1
    isplitl [H2]; · iexact H2
    isplitl [H3]; · iexact H3
    isplitl [H4]; · iexact H4
    iexists fo; iexact H5

/-- The second kernel's task payload with the tile's 128 result entries at contents `fo`. -/
def goDotV (d : Dev nD) (L : grid3.Coords) (q9 q0 q7 : PosShare TreeShare)
    (f9 : Buf (Elt F) ((TileDotDefs.puM).view.loc (V d (TileDotDefs.cV L) (TileDotDefs.jV L))))
    (f0 : Buf (Elt F) ((TileDotDefs.uiM).view.loc (V d (TileDotDefs.cV L) (TileDotDefs.jV L))))
    (f7 : Buf (Elt F) ((TileDotDefs.gpSl L).view.loc (V d (TileDotDefs.cV L) (TileDotDefs.jV L))))
    (fo : Buf (Elt F) ((TileDotDefs.outSl L).view.loc (V d (TileDotDefs.cV L) (TileDotDefs.jV L)))) : sProp 𝕄 :=
  iprop(((TileDotDefs.puM).view.loc (V d (TileDotDefs.cV L) (TileDotDefs.jV L)) ↦{q9} f9)
    ∗ ((TileDotDefs.uiM).view.loc (V d (TileDotDefs.cV L) (TileDotDefs.jV L)) ↦{q0} f0)
    ∗ ((TileDotDefs.gpSl L).view.loc (V d (TileDotDefs.cV L) (TileDotDefs.jV L)) ↦[(TileDotDefs.gpSl L).view.set]{q7} f7)
    ∗ ((TileDotDefs.outSl L).view.loc (V d (TileDotDefs.cV L) (TileDotDefs.jV L)) ↦[(TileDotDefs.outSl L).view.set]{fullShare} fo))

theorem goDot_iff (d : Dev nD) (L : grid3.Coords) (q9 q0 q7 : PosShare TreeShare) (f9) (f0) (f7) :
    (TileDotDefs.goDot (F := F) d L q9 q0 q7 f9 f0 f7 : sProp 𝕄) ⊣⊢ iprop(∃ fo, goDotV (F := F) d L q9 q0 q7 f9 f0 f7 fo) := by
  unfold TileDotDefs.goDot goDotV
  constructor
  · iintro ⟨H1, H2, H3, %fo, H4⟩
    iexists fo
    isplitl [H1]; · iexact H1
    isplitl [H2]; · iexact H2
    isplitl [H3]; · iexact H3
    iexact H4
  · iintro ⟨%fo, H1, H2, H3, H4⟩
    isplitl [H1]; · iexact H1
    isplitl [H2]; · iexact H2
    isplitl [H3]; · iexact H3
    iexists fo; iexact H4

/-- The tile number of a grid point: `2 s + c`. -/
def wid1 (L : grid1.Coords) : Fin 32 :=
  ⟨2 * (L 1).val + (L 0).val, by have h0 : (L 0).val < 2 := (L 0).isLt; have h1 : (L 1).val < 16 := (L 1).isLt; omega⟩
def wid3 (L : grid3.Coords) : Fin 32 :=
  ⟨2 * (L 1).val + (L 0).val, by have h0 : (L 0).val < 2 := (L 0).isLt; have h1 : (L 1).val < 16 := (L 1).isLt; omega⟩

end Cert.KernelIdeal.TilePayV

end
-- ==== Proof.TileSpec.lean ====
/-
  What a tile's task leaves in its slice of the result, as a function of what it read — at any float instance.

  Tile number `w < 32` owns triples `128 w + t`, `t < 128`. An index word `x` in `[0, 99999]` names packed row
  `prowW x` (the word, less 50176 from there on) and half `halfW x` (64 from 50176 on, else 0) of a packed table.

  * FIRST kernel (`OutG`): for every `t` and feature `j < 64`, entry `(64 w + t / 2, 64 (t mod 2) + j)` of the differences
    array holds the packed item table's entry for the negative item minus its entry for the positive item, feature `j`.
  * SECOND kernel (`OutDot`): for every `t`, entry `128 w + t` of the scores array holds the accumulator that starts at
    the zero word and, for `k = 0, …, 63` in this order, adds the packed user table's entry at feature
    `σ k = (9 (t mod 16) mod 64 + k) mod 64` times the differences array's entry `(64 w + t / 2, 64 (t mod 2) + σ k)`.
  Both are stated over whole-array contents, constraining only the tile's own slice.
-/
import Idealize.ShloMosaic.PureOps
import Idealize.ShloMosaic.Lib.ValueIdx

noncomputable section

namespace Cert.TileSpec

open Idealize.ShloMosaic Idealize.ShloMosaic.ValueIdx

abbrev S4096 : Shape := ⟨1, ![4096]⟩
abbrev S50176x128 : Shape := ⟨2, ![50176, 128]⟩
abbrev S2048x128 : Shape := ⟨2, ![2048, 128]⟩

variable {F : FTy → Type} [FloatOps F]

/-- The packed row an index word names: the word's value, less 50176 from 50176 on (clamped into the table: a total
    reading; for a word in `[0, 99999]` the clamp does nothing). -/
def prowW (x : BitVec 32) : Fin 50176 :=
  ⟨min (if 50176 ≤ x.toInt then x.toNat - 50176 else x.toNat) 50175, by omega⟩

/-- The half of the packed row: 64 for the words from 50176 on. -/
def halfW (x : BitVec 32) : ℕ := if 50176 ≤ x.toInt then 64 else 0

theorem halfW_le (x : BitVec 32) : halfW x ≤ 64 := by unfold halfW; split <;> omega

/-- The packed column of feature `j` for index word `x`. -/
def pcolW (x : BitVec 32) (j : Fin 64) : Fin 128 := ⟨halfW x + j.val, by have := halfW_le x; have := j.isLt; omega⟩

/-- The triple `t` of tile `w`. -/
def tri (w : Fin 32) (t : Fin 128) : Fin 4096 := ⟨128 * w.val + t.val, by have := w.isLt; have := t.isLt; omega⟩
/-- Its row and column `c` in the differences array. -/
def dRow (w : Fin 32) (t : Fin 128) : Fin 2048 := ⟨64 * w.val + t.val / 2, by have := w.isLt; have := t.isLt; omega⟩
def dCol (t : Fin 128) (c : Fin 64) : Fin 128 := ⟨64 * (t.val % 2) + c.val, by have := c.isLt; omega⟩
/-- The column lane `t mod 16` touches at step `k`. -/
def sigma (t : Fin 128) (k : Fin 64) : Fin 64 := ⟨(9 * (t.val % 16) % 64 + k.val) % 64, Nat.mod_lt _ (by norm_num)⟩

/-- What the first kernel's tile `w` leaves: the differences of its 128 triples. -/
def OutG (w : Fin 32) (tbl : FVec F S50176x128 .f32) (pos neg : IVec S4096 32) (out : FVec F S2048x128 .f32) : Prop :=
  ∀ (t : Fin 128) (j : Fin 64),
    out (ix2 (dRow w t) (dCol t j))
      = FloatOps.subf (tbl (ix2 (prowW (neg (ix1 (tri w t)))) (pcolW (neg (ix1 (tri w t))) j)))
          (tbl (ix2 (prowW (pos (ix1 (tri w t)))) (pcolW (pos (ix1 (tri w t))) j)))

/-- The accumulator of triple `t` of tile `w`: from the zero word, the 64 products added in step order. -/
def accDot (w : Fin 32) (tbl : FVec F S50176x128 .f32) (uidx : IVec S4096 32) (gp : FVec F S2048x128 .f32) (t : Fin 128) : F .f32 :=
  (List.finRange 64).foldl (fun acc k =>
      FloatOps.addf acc (FloatOps.mulf (tbl (ix2 (prowW (uidx (ix1 (tri w t)))) (pcolW (uidx (ix1 (tri w t))) (sigma t k))))
        (gp (ix2 (dRow w t) (dCol t (sigma t k))))))
    (Scalar.ofBits .f32 0x00000000#32)

/-- What the second kernel's tile `w` leaves: the scores of its 128 triples. -/
def OutDot (w : Fin 32) (tbl : FVec F S50176x128 .f32) (uidx : IVec S4096 32) (gp : FVec F S2048x128 .f32) (out : FVec F S4096 .f32) : Prop :=
  ∀ t : Fin 128, out (ix1 (tri w t)) = accDot w tbl uidx gp t

end Cert.TileSpec

end
-- ==== Proof.LibEyeDot.lean ====
/-
  Two small facts about sums on the extended reals that a "transpose by multiplying with the identity matrix" and a
  "running accumulator over an unrolled loop" reduce to.

  * Contracting a column `a` against column `j` of the identity matrix selects `a j`:
    `∑ k, a k * (if k = j then 1 else 0) = a j`. On the extended reals multiplication does not distribute over
    addition, but `x * 0 = 0` and `x * 1 = x` hold for EVERY extended real (infinite ones too), and that is all
    the fact needs: no finiteness hypothesis (`sum_mul_eye`, `sum_eye_mul`).
  * An accumulator that starts at `a` and adds `f k` for `k` along a list ends at `a` plus the list's sum; along
    all of `Fin n` in order it is `a + ∑ k, f k` (`foldl_add`, `foldl_add_finRange`): addition of extended reals is
    commutative and associative, so the order of an unrolled accumulation does not matter.
-/
import Idealize.ShloMosaic.PureOps.Ideal

namespace Cert.LibEyeDot

/-- A column contracted against column `j` of the identity matrix is its entry `j`: only the term `k = j`
    survives, since `x * 0 = 0` for every extended real. -/
theorem sum_mul_eye {n : ℕ} (a : Fin n → EReal) (j : Fin n) :
    ∑ k : Fin n, a k * (if k = j then (1 : EReal) else 0) = a j := by
  rw [Finset.sum_eq_single j]
  · rw [if_pos rfl, mul_one]
  · intro k _ hk
    rw [if_neg hk, mul_zero]
  · intro h
    exact absurd (Finset.mem_univ j) h

/-- The same with the identity on the left. -/
theorem sum_eye_mul {n : ℕ} (a : Fin n → EReal) (j : Fin n) :
    ∑ k : Fin n, (if k = j then (1 : EReal) else 0) * a k = a j := by
  rw [Finset.sum_eq_single j]
  · rw [if_pos rfl, one_mul]
  · intro k _ hk
    rw [if_neg hk, zero_mul]
  · intro h
    exact absurd (Finset.mem_univ j) h

/-- An accumulator run along a list: the start plus the sum of the terms. -/
theorem foldl_add {M ι : Type*} [AddCommMonoid M] (f : ι → M) (l : List ι) (a : M) :
    l.foldl (fun acc k => acc + f k) a = a + (l.map f).sum := by
  induction l generalizing a with
  | nil => simp
  | cons x l ih =>
    rw [List.foldl_cons, ih, List.map_cons, List.sum_cons, add_assoc]

/-- Along every index in order: the start plus the whole sum. -/
theorem foldl_add_finRange {M : Type*} [AddCommMonoid M] {n : ℕ} (f : Fin n → M) (a : M) :
    (List.finRange n).foldl (fun acc k => acc + f k) a = a + ∑ k : Fin n, f k := by
  rw [foldl_add, Fin.sum_univ_def]

end Cert.LibEyeDot
-- ==== Proof.PackValue.lean ====
/-
  What one grid point of a table-packing call writes, at the ideal values, entry by entry.

  The body loads two [64, 12544] blocks `lo`, `hi` of the TRANSPOSED feature table (64 features by 12544 table rows),
  multiplies each, contracted over the feature axis, with the 64 x 64 identity matrix — built as the comparison of a row
  iota with a column iota, widened and converted — and stores the two [12544, 64] products side by side as one
  [12544, 128] block. At the ideal values a change of float format is the identity and
  `∑ k, lo (k, r) * [k = c] = lo (c, r)` holds for every extended real (`Cert.LibEyeDot.sum_mul_eye`: no finiteness
  is needed, so entries of a block's clipped overhang, whatever they hold, do no harm to the other rows). Hence entry
  `(r, c)` of the stored block is `lo (c, r)` for `c < 64` and `hi (c - 64, r)` for `c ≥ 64`: the block holds the two
  blocks transposed, side by side.
-/
import proofs.«203895_g52347061404180_cont_8to1_c_859_34_alg».proof.Proof.Gen.KernelIdeal.Skeleton
import proofs.«203895_g52347061404180_cont_8to1_c_859_34_alg».proof.Proof.LibEyeDot
import Idealize.ShloMosaic.Lib.ValueIdx
import Idealize.ShloMosaic.Lib.Pipeline.Value
import Idealize.ShloMosaic.PureOps.Ideal.Laws

noncomputable section

namespace Cert.KernelIdeal.PackValue

open Cert.KernelIdeal Cert.KernelIdeal.Gen Idealize.ShloMosaic Idealize.ShloMosaic.ValueIdx

/-- The 64 x 64 identity matrix as the body builds it: `[row iota = column iota]`, widened to a word, converted to a
    float, its format changed. -/
def eye : FVec Ideal S64x64 .bf16 :=
  truncf .bf16 (sitofp .f32 (extui 32 (cmpi .eq (iota .tc S64x64 32 [0] iota_S64x64_d0_w32) (iota .tc S64x64 32 [1] iota_S64x64_d1_w32)) natLt_1_32)) bitsLt_bf16_f32

/-- Two coordinates below 64 are equal as 32-bit words exactly when they are equal. -/
theorem ofNat_inj64 (k c : Fin 64) : BitVec.ofNat 32 k.val = BitVec.ofNat 32 c.val ↔ k = c := by
  constructor
  · intro h
    have := congrArg BitVec.toNat h
    simp only [BitVec.toNat_ofNat] at this
    apply Fin.ext
    have hk := k.isLt; have hc := c.isLt
    omega
  · rintro rfl; rfl

/-- Its entries at the ideal values: `1` on the diagonal, `0` off it. -/
theorem eye_apply (k c : Fin 64) : eye (ix2 k c) = if k = c then (1 : EReal) else 0 := by
  unfold eye
  rw [truncf_apply, sitofp_apply, extui_apply]
  show FloatOps.sitofp .f32 ((IntOp.cmpi .eq (iota .tc S64x64 32 [0] iota_S64x64_d0_w32 (ix2 k c)) (iota .tc S64x64 32 [1] iota_S64x64_d1_w32 (ix2 k c))).setWidth 32) = _
  rw [iota_single_apply, iota_single_apply]
  show FloatOps.sitofp .f32 ((IntOp.cmpi .eq (BitVec.ofNat 32 k.val) (BitVec.ofNat 32 c.val)).setWidth 32) = _
  by_cases h : k = c
  · subst h
    rw [if_pos rfl]
    have e : IntOp.cmpi .eq (BitVec.ofNat 32 k.val) (BitVec.ofNat 32 k.val) = 1#1 := by simp [IntOp.cmpi]
    rw [e]
    show (((BitVec.setWidth 32 (1#1)).toInt : ℝ) : EReal) = 1
    have : (BitVec.setWidth 32 (1#1)).toInt = 1 := by decide
    rw [this]; norm_num
  · rw [if_neg h]
    have hne : BitVec.ofNat 32 k.val ≠ BitVec.ofNat 32 c.val := fun e => h ((ofNat_inj64 k c).mp e)
    have hb : (BitVec.ofNat 32 k.val == BitVec.ofNat 32 c.val) = false := beq_eq_false_iff_ne.mpr hne
    have e : IntOp.cmpi .eq (BitVec.ofNat 32 k.val) (BitVec.ofNat 32 c.val) = 0#1 := by
      show BitVec.ofBool (BitVec.ofNat 32 k.val == BitVec.ofNat 32 c.val) = 0#1
      rw [hb]; rfl
    rw [e]
    show (((BitVec.setWidth 32 (0#1)).toInt : ℝ) : EReal) = 0
    have : (BitVec.setWidth 32 (0#1)).toInt = 0 := by decide
    rw [this]; norm_num

/-- The product's left operand index keeps the output's row on its second axis. -/
theorem lhs_row (j : S12544x64.Idx) (k : (dot_S64x12544_S64x64_S12544x64_0_0_1_1_n_n).contr.Idx) :
    ((dot_S64x12544_S64x64_S12544x64_0_0_1_1_n_n).lhsIdx j k ⟨1, by decide⟩).val = (j ⟨0, by decide⟩).val := by
  simp [DotDims.lhsIdx, dot_S64x12544_S64x64_S12544x64_0_0_1_1_n_n]
  rfl

/-- The right operand index keeps the output's column on its second axis. -/
theorem rhs_col (j : S12544x64.Idx) (k : (dot_S64x12544_S64x64_S12544x64_0_0_1_1_n_n).contr.Idx) :
    ((dot_S64x12544_S64x64_S12544x64_0_0_1_1_n_n).rhsIdx j k ⟨1, by decide⟩).val = (j ⟨1, by decide⟩).val := by
  simp [DotDims.rhsIdx, dot_S64x12544_S64x64_S12544x64_0_0_1_1_n_n]
  rfl

/-- A [64, 12544] block contracted over its first axis against the identity, from a zero accumulator, is the block
    transposed: entry `(r, c)` is the block's `(c, r)`. -/
theorem matmul_eye_apply (x : FVec Ideal S64x12544 .bf16) (r : Fin 12544) (c : Fin 64) :
    matmul dot_S64x12544_S64x64_S12544x64_0_0_1_1_n_n none x eye (constant S12544x64 .f32 0x00000000#32) (ix2 r c)
      = x (ix2 c r) := by
  simp only [matmul]
  rw [Ideal.matmul_constant_zero_apply]
  rw [← Equiv.sum_comp (contrEquiv1 dot_S64x12544_S64x64_S12544x64_0_0_1_1_n_n 64 rfl rfl).symm]
  have hL : ∀ i : Fin 64, (dot_S64x12544_S64x64_S12544x64_0_0_1_1_n_n).lhsIdx (ix2 r c)
      ((contrEquiv1 dot_S64x12544_S64x64_S12544x64_0_0_1_1_n_n 64 rfl rfl).symm i) = ix2 i r := by
    intro i
    funext a
    match a with
    | ⟨0, _⟩ =>
      exact Fin.ext (((dot_S64x12544_S64x64_S12544x64_0_0_1_1_n_n).lhsIdx_val_of_single rfl _ _).trans
        (contrEquiv1_symm_val dot_S64x12544_S64x64_S12544x64_0_0_1_1_n_n 64 rfl rfl i))
    | ⟨1, _⟩ => exact Fin.ext (lhs_row _ _)
  have hR : ∀ i : Fin 64, (dot_S64x12544_S64x64_S12544x64_0_0_1_1_n_n).rhsIdx (ix2 r c)
      ((contrEquiv1 dot_S64x12544_S64x64_S12544x64_0_0_1_1_n_n 64 rfl rfl).symm i) = ix2 i c := by
    intro i
    funext a
    match a with
    | ⟨0, _⟩ =>
      exact Fin.ext (((dot_S64x12544_S64x64_S12544x64_0_0_1_1_n_n).rhsIdx_val_of_single rfl _ _).trans
        (contrEquiv1_symm_val dot_S64x12544_S64x64_S12544x64_0_0_1_1_n_n 64 rfl rfl i))
    | ⟨1, _⟩ => exact Fin.ext (rhs_col _ _)
  simp only [hL, hR, eye_apply]
  exact Cert.LibEyeDot.sum_mul_eye (fun i => x (ix2 i r)) c

/-- The stored block at a column of its FIRST half, `c < 64`: the first loaded block transposed. -/
theorem pay_left (lo hi : Vec Ideal S64x12544 .f32) (r : Fin 12544) (c : Fin 64) :
    k0_pay1 (F := Ideal) lo hi (ix2 r (⟨c.val, by omega⟩ : Fin 128)) = lo (ix2 c r) := by
  unfold k0_pay1
  dsimp only
  rw [concatenate_pair_apply_left (a := (1 : Fin S12544x128.rank)) _ _ concatenates_S12544x64_S12544x64_S12544x128_d1
    (ix2 r (⟨c.val, by omega⟩ : Fin 128)) rfl (ix2 r c)
    (fun b => by match b with | ⟨0, _⟩ => rfl | ⟨1, _⟩ => rfl)]
  exact (matmul_eye_apply _ r c).trans (by rw [truncf_apply, shapeCast_self])

/-- The stored block at a column of its SECOND half, `64 + c`: the second loaded block transposed. -/
theorem pay_right (lo hi : Vec Ideal S64x12544 .f32) (r : Fin 12544) (c : Fin 64) :
    k0_pay1 (F := Ideal) lo hi (ix2 r (⟨c.val + 64, by omega⟩ : Fin 128)) = hi (ix2 c r) := by
  unfold k0_pay1
  dsimp only
  rw [concatenate_pair_apply_right (a := (1 : Fin S12544x128.rank)) _ _ concatenates_S12544x64_S12544x64_S12544x128_d1
    (ix2 r (⟨c.val + 64, by omega⟩ : Fin 128)) rfl rfl (ix2 r c)
    (fun b hb => by match b with | ⟨0, _⟩ => rfl | ⟨1, _⟩ => exact absurd rfl hb)
    rfl]
  exact (matmul_eye_apply _ r c).trans (by rw [truncf_apply, shapeCast_self])

end Cert.KernelIdeal.PackValue

end
-- ==== Proof.LibBprLaw.lean ====
/-
  UNTRUSTED — general laws of the extended reals (the ideal float values, PureOps/Ideal.lean) that relate two spellings
  of a pairwise ranking loss. One spelling takes two dot products, their difference, and then
  `-log (1 / (1 + exp (-(pos - neg))))`; the other takes ONE dot product against the difference of the two vectors and
  then the overflow-free softplus `max x 0 + log1p (exp (0 - |x|))`. On finite (real) entries the two agree:
  distributivity, `log (1 + eˣ) = max x 0 + log (1 + e^{-|x|})`, and a division by `4096` being the product with `2⁻¹²`.
  Nothing here mentions a program: the statements are over real families coerced into the extended reals, written in the
  ideal operations' own spelling (`Ideal.log`, `Ideal.exp`, `Ideal.div`, `Ideal.log1p`, `max`, `-`) so that they rewrite a goal
  in which the instance's fields have been unfolded by their `_def` lemmas.
-/
import Idealize.ShloMosaic.PureOps.Ideal
import Idealize.ShloMosaic.PureOps.Ideal.Laws

noncomputable section

open scoped BigOperators

namespace Cert.LibBprLaw

open Idealize.ShloMosaic

/-! ## Finite sums of reals inside the extended reals -/

/-- The coercion of a finite sum of reals is the sum of the coercions. -/
theorem coe_sum {ι : Type*} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-- A dot product of real families, taken in the extended reals, is the coercion of the real dot product. -/
theorem dot_coe {ι : Type*} [Fintype ι] (u v : ι → ℝ) :
    ∑ j, (u j : EReal) * (v j : EReal) = ((∑ j, u j * v j : ℝ) : EReal) := by
  rw [coe_sum]
  exact Finset.sum_congr rfl fun j _ => (EReal.coe_mul _ _).symm

/-- A dot product against a difference of real families, taken in the extended reals, is the coercion of the
    difference of the two real dot products (distributivity, which holds because every entry is finite). -/
theorem dot_diff_coe {ι : Type*} [Fintype ι] (u p n : ι → ℝ) :
    ∑ j, (u j : EReal) * ((n j : EReal) - (p j : EReal))
      = (((∑ j, u j * n j) - (∑ j, u j * p j) : ℝ) : EReal) := by
  rw [← Finset.sum_sub_distrib, coe_sum]
  refine Finset.sum_congr rfl fun j _ => ?_
  rw [← EReal.coe_sub, ← EReal.coe_mul, mul_sub]

/-- THE DIFFERENCE OF TWO DOT PRODUCTS, each started from zero as a host sum is, is one dot product against the
    difference: `(0 + ∑ u·n) - (0 + ∑ u·p) = ∑ u·(n - p)` on real families. -/
theorem dot_sub_dot {ι : Type*} [Fintype ι] (u p n : ι → ℝ) :
    ((0 : EReal) + ∑ j, (u j : EReal) * (n j : EReal)) - (0 + ∑ j, (u j : EReal) * (p j : EReal))
      = ∑ j, (u j : EReal) * ((n j : EReal) - (p j : EReal)) := by
  rw [zero_add, zero_add, dot_coe, dot_coe, dot_diff_coe, EReal.coe_sub]

/-- The same with the fused dot product summed over another index type through a bijection (the order in which a
    sum over a finite type is taken does not matter). -/
theorem dot_sub_dot_perm {ι κ : Type*} [Fintype ι] [Fintype κ] (σ : κ ≃ ι) (u p n : ι → ℝ) :
    ((0 : EReal) + ∑ j, (u j : EReal) * (n j : EReal)) - (0 + ∑ j, (u j : EReal) * (p j : EReal))
      = ∑ k, (u (σ k) : EReal) * ((n (σ k) : EReal) - (p (σ k) : EReal)) := by
  rw [dot_sub_dot]
  exact (Equiv.sum_comp σ fun j => (u j : EReal) * ((n j : EReal) - (p j : EReal))).symm

/-- A sum over `m * k` positions taken as `m` chunks of `k` lanes: chunk `c`, lane `l` is position
    `l + k * c` (`finProdFinEquiv`, whose value is `finProdFinEquiv_val` below). -/
theorem sum_chunks {M : Type*} [AddCommMonoid M] (m k : ℕ) (f : Fin (m * k) → M) :
    ∑ c : Fin m, ∑ l : Fin k, f (finProdFinEquiv (c, l)) = ∑ j, f j := by
  rw [← Equiv.sum_comp finProdFinEquiv f, Fintype.sum_prod_type]

/-- The position of chunk `c`, lane `l`. -/
theorem finProdFinEquiv_val (m k : ℕ) (c : Fin m) (l : Fin k) :
    ((finProdFinEquiv (c, l) : Fin (m * k)) : ℕ) = l.val + k * c.val := rfl

/-! ## The softplus, two ways -/

/-- Over the reals, `log (1 + eˣ) = max x 0 + log (1 + e^{-|x|})`: for `0 ≤ x` factor `eˣ` out of `1 + eˣ`;
    for `x ≤ 0` the two sides are the same term. -/
theorem log_one_add_exp (x : ℝ) :
    Real.log (1 + Real.exp x) = max x 0 + Real.log (1 + Real.exp (-|x|)) := by
  rcases le_total 0 x with h | h
  · rw [max_eq_left h, abs_of_nonneg h]
    have e : 1 + Real.exp x = Real.exp x * (1 + Real.exp (-x)) := by
      rw [mul_add, mul_one, ← Real.exp_add, add_neg_cancel, Real.exp_zero, add_comm]
    rw [e, Real.log_mul (Real.exp_pos x).ne' (by positivity), Real.log_exp]
  · rw [max_eq_right h, abs_of_nonpos h, neg_neg, zero_add]

/-- The overflow-free softplus at a real, in the ideal operations' spelling (`absf x` is `max x (-x)`, `log1p y` is
    `log (1 + y)`): it is the real `log (1 + eˣ)`. -/
theorem softplus_coe (x : ℝ) :
    max (x : EReal) 0 + Ideal.log1p (Ideal.exp (0 - max (x : EReal) (-(x : EReal))))
      = ((Real.log (1 + Real.exp x) : ℝ) : EReal) := by
  have habs : max (x : EReal) (-(x : EReal)) = ((|x| : ℝ) : EReal) := by
    rw [abs_eq_max_neg, Monotone.map_max EReal.coe_strictMono.monotone, EReal.coe_neg]
  have hmax : max (x : EReal) 0 = ((max x 0 : ℝ) : EReal) := by
    rw [Monotone.map_max EReal.coe_strictMono.monotone, EReal.coe_zero]
  have hsub : (0 : EReal) - ((|x| : ℝ) : EReal) = ((-|x| : ℝ) : EReal) := by
    rw [EReal.coe_neg, zero_sub]
  have hone : (1 : EReal) + ((Real.exp (-|x|) : ℝ) : EReal) = ((1 + Real.exp (-|x|) : ℝ) : EReal) := by
    rw [EReal.coe_add, EReal.coe_one]
  have hpos : ¬ (1 + Real.exp (-|x|) ≤ 0) := not_le.mpr (by positivity)
  rw [habs, hmax, hsub, Ideal.exp_coe, Ideal.log1p, hone, Ideal.log_coe, if_neg hpos, ← EReal.coe_add,
    ← log_one_add_exp]

/-- The loss `-log (1 / (1 + exp (-y)))` at a real, in the ideal operations' spelling: it is the real
    `log (1 + e^{-y})` (the quotient is positive, so the logarithm has no corner). -/
theorem neg_log_logistic_coe (y : ℝ) :
    -(Ideal.log (Ideal.div 1 (1 + Ideal.exp (-(y : EReal)))))
      = ((Real.log (1 + Real.exp (-y)) : ℝ) : EReal) := by
  have hpos : (0 : ℝ) < 1 + Real.exp (-y) := by positivity
  have hone : (1 : EReal) + ((Real.exp (-y) : ℝ) : EReal) = ((1 + Real.exp (-y) : ℝ) : EReal) := by
    rw [EReal.coe_add, EReal.coe_one]
  have hdiv : Ideal.div 1 ((1 + Real.exp (-y) : ℝ) : EReal) = (((1 + Real.exp (-y))⁻¹ : ℝ) : EReal) := by
    rw [Ideal.div_coe hpos.ne', one_mul, one_div]
  have hinv : ¬ ((1 + Real.exp (-y))⁻¹ ≤ 0) := not_le.mpr (inv_pos.mpr hpos)
  rw [← EReal.coe_neg, Ideal.exp_coe, hone, hdiv, Ideal.log_coe, if_neg hinv, Real.log_inv, EReal.coe_neg, neg_neg]

/-- THE TWO SPELLINGS OF THE LOSS AGREE on reals `a` (the positive score) and `b` (the negative score):
    `-log (1 / (1 + exp (-(a - b)))) = max (b - a) 0 + log1p (exp (0 - |b - a|))`. -/
theorem neg_log_logistic_sub_eq_softplus (a b : ℝ) :
    -(Ideal.log (Ideal.div 1 (1 + Ideal.exp (-((a : EReal) - (b : EReal))))))
      = max ((b : EReal) - (a : EReal)) 0
          + Ideal.log1p (Ideal.exp (0 - max ((b : EReal) - (a : EReal)) (-((b : EReal) - (a : EReal))))) := by
  rw [← EReal.coe_sub a b, ← EReal.coe_sub b a, neg_log_logistic_coe, softplus_coe, neg_sub]

/-- ONE ROW OF THE LOSS: with the two scores taken as dot products of real families, each started from zero, the
    loss `-log (1 / (1 + exp (-(pos - neg))))` is the overflow-free softplus of the one dot product of `u` against
    `n - p`. -/
theorem loss_row {ι : Type*} [Fintype ι] (u p n : ι → ℝ) :
    -(Ideal.log (Ideal.div 1 (1 + Ideal.exp (-(((0 : EReal) + ∑ j, (u j : EReal) * (p j : EReal))
        - (0 + ∑ j, (u j : EReal) * (n j : EReal)))))))
      = max (∑ j, (u j : EReal) * ((n j : EReal) - (p j : EReal))) 0
          + Ideal.log1p (Ideal.exp (0 - max (∑ j, (u j : EReal) * ((n j : EReal) - (p j : EReal)))
              (-(∑ j, (u j : EReal) * ((n j : EReal) - (p j : EReal)))))) := by
  rw [zero_add, zero_add, dot_coe, dot_coe, dot_diff_coe, neg_log_logistic_sub_eq_softplus, EReal.coe_sub]

/-! ## The constants, and the mean over 4096 rows -/

/-- The word `0x3F800000` denotes `1`. -/
theorem ofBits_one : Ideal.ofBits .f32 0x3F800000#32 = 1 := by
  simp [Ideal.ofBits, Ideal.ieee, -EReal.coe_mul]; norm_num

/-- The word `0x45800000` denotes `4096 = 2¹²`. -/
theorem ofBits_4096 : Ideal.ofBits .f32 0x45800000#32 = ((4096 : ℝ) : EReal) := by
  simp [Ideal.ofBits, Ideal.ieee, -EReal.coe_mul]; norm_num

/-- The word `0x39800000` denotes `1 / 4096 = 2⁻¹²`, an exact dyadic. -/
theorem ofBits_inv_4096 : Ideal.ofBits .f32 0x39800000#32 = ((1 / 4096 : ℝ) : EReal) := by
  simp [Ideal.ofBits, Ideal.ieee, -EReal.coe_mul]; norm_num

/-- THE MEAN: dividing by the word of `4096` is multiplying by the word of `2⁻¹²`, at every extended real (the
    divisor is a nonzero real, so the quotient is the product with its reciprocal, infinities included). -/
theorem div_4096 (x : EReal) :
    Ideal.div x (Ideal.ofBits .f32 0x45800000#32) = x * Ideal.ofBits .f32 0x39800000#32 := by
  rw [ofBits_4096, ofBits_inv_4096, Ideal.div_coe (by norm_num)]

end Cert.LibBprLaw

end
-- ==== Proof.LossValue.lean ====
/-
  THE TAIL OF THE KERNEL PROGRAM'S VALUE. The last kernel's one stored value is a function of one `[32, 128]` block of
  score differences: the overflow-free softplus at every entry, the sum of all `32 · 128 = 4096` of them, and the product
  with the word of `2⁻¹²`. Read at the ideal values it is the sum over the block's index set; the block being the
  row-major reshape of a flat array of 4096 scores, it is the sum over that array; and when the scores are the
  specification's score differences it is the specification's result.
-/
import proofs.«203895_g52347061404180_cont_8to1_c_859_34_alg».proof.Proof.Gen.KernelIdeal.Skeleton
import proofs.«203895_g52347061404180_cont_8to1_c_859_34_alg».proof.Proof.BprSpec
import proofs.«203895_g52347061404180_cont_8to1_c_859_34_alg».proof.Proof.LibBprLaw
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.LossValue

open Cert.KernelIdeal Cert.KernelIdeal.Gen Idealize.ShloMosaic Idealize.ShloMosaic.ValueIdx

/-- The payload after its elementwise part: the block cast to `[1, 32, 128]`, summed over its last two axes into one
    element, that element extracted, times the word `0x39800000`. -/
def lossTail (v9 : FVec Ideal S32x128 .f32) : Ideal .f32 :=
  Scalar.mulf
    (extractAt ![0, 0, 0]
      (shapeCast S1x1x1
        (multiReduction (F := Ideal) .add [1, 2] S1 (shapeCast S1x32x128 v9 shapeCasts_S32x128_S1x32x128) 0x00000000#32
          reduces_S1x32x128_S1 (.inl rfl) rfl)
        shapeCasts_S1_S1x1x1)
      inpos_S1x1x1_p0_0_0)
    (Scalar.ofBits .f32 0x39800000#32)

/-- The tail is the sum over the block's index set, times the word: the reduction into a one-element shape is the
    total sum, and the cast to `[1, 32, 128]` only re-indexes it. -/
theorem lossTail_eq (v9 : FVec Ideal S32x128 .f32) :
    lossTail v9 = (∑ k : S32x128.Idx, v9 k) * Ideal.ofBits .f32 0x39800000#32 := by
  unfold lossTail
  refine congrArg (fun s : EReal => s * Ideal.ofBits .f32 0x39800000#32) ?_
  show multiReduction (F := Ideal) .add [1, 2] S1 (shapeCast S1x32x128 v9 shapeCasts_S32x128_S1x32x128) 0x00000000#32
      reduces_S1x32x128_S1 (.inl rfl) rfl (Shape.reshapeEquiv _ _) = _
  refine (Ideal.multiReduction_add_total (shapeCast S1x32x128 v9 shapeCasts_S32x128_S1x32x128) 0x00000000#32
    reduces_S1x32x128_S1 (fun b => by match b with | ⟨0, _⟩ => rfl) (.inl rfl) rfl _).trans ?_
  exact Equiv.sum_comp (Shape.reshapeEquiv shapeCasts_S32x128_S1x32x128) v9

/-- The payload is its tail applied to the elementwise softplus of the block (the block first cast to its own shape). -/
theorem k4_pay1_eq_tail (x : Vec Ideal S32x128 .f32) :
    k4_pay1 (F := Ideal) x
      = lossTail fun i =>
          FloatOps.addf
            (FloatOps.maximumf (shapeCast S32x128 x shapeCasts_S32x128_S32x128 i) (Scalar.ofBits (F := Ideal) .f32 0x00000000#32))
            (FloatOps.log1p (FloatOps.exp (FloatOps.subf (Scalar.ofBits (F := Ideal) .f32 0x00000000#32)
              (FloatOps.absf (shapeCast S32x128 x shapeCasts_S32x128_S32x128 i))))) := rfl

/-- THE PAYLOAD AS A SUM OVER THE BLOCK'S INDEX SET: the softplus of every entry, summed, times the word of `2⁻¹²`. -/
theorem loss_pay_eq_sum (x : Vec Ideal S32x128 .f32) :
    k4_pay1 (F := Ideal) x = (∑ k : S32x128.Idx, Cert.BprSpec.softplus (x k)) * Ideal.ofBits .f32 0x39800000#32 := by
  rw [k4_pay1_eq_tail, lossTail_eq, shapeCast_self]
  refine congrArg (fun s : EReal => s * Ideal.ofBits .f32 0x39800000#32) (Finset.sum_congr rfl fun k _ => ?_)
  show max (x k) (Ideal.ofBits .f32 0x00000000#32)
      + Ideal.log1p (Ideal.exp (Ideal.ofBits .f32 0x00000000#32 - max (x k) (-(x k)))) = _
  rw [Ideal.ofBits_zero_f32]
  rfl

/-- (1) THE PAYLOAD AS A DOUBLE SUM over the block's rows and lanes. -/
theorem loss_pay_eq (x : Vec Ideal S32x128 .f32) :
    k4_pay1 (F := Ideal) x
      = (∑ a : Fin 32, ∑ b : Fin 128, Cert.BprSpec.softplus (x (ix2 a b))) * Ideal.ofBits .f32 0x39800000#32 := by
  rw [loss_pay_eq_sum, sum_idx2]

/-! ## The block as the reshape of the flat score array -/

/-- A rank-1 index set is its one coordinate's range … -/
def idxEquiv1 {n : Nat} : (⟨1, ![n]⟩ : Shape).Idx ≃ Fin n where
  toFun i := i 0
  invFun t := ix1 t
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ t : Fin n, f (ix1 t) := by
  rw [← Equiv.sum_comp (idxEquiv1 (n := n)).symm f]
  rfl

/-- The `[32, 128]` reshape of a flat array of 4096 entries, read at `(a, b)`: the flat array's entry `128 a + b`
    (row-major). -/
theorem reshape_apply {α : Type} (d : S4096.Idx → α) (h : S4096.ShapeCasts S32x128) (a : Fin 32) (b : Fin 128) :
    shapeCast S32x128 d h (ix2 a b) = d (ix1 ⟨128 * a.val + b.val, by omega⟩) := by
  refine shapeCast_apply d h (ix2 a b) _ ?_
  rw [Shape.rowMajor_val_one, Shape.rowMajor_val_two]
  show 128 * a.val + b.val = a.val * 128 + b.val
  omega

/-- (2) THE PAYLOAD OF THE RESHAPED SCORE ARRAY: the softplus of each of the 4096 scores, summed, times the word of
    `2⁻¹²` — the reshape is a bijection of index sets, so the sum over the block is the sum over the flat array. -/
theorem loss_of_scores (d : FVec Ideal S4096 .f32) (h : S4096.ShapeCasts S32x128) :
    k4_pay1 (F := Ideal) (shapeCast S32x128 d h)
      = (∑ t : Fin 4096, Cert.BprSpec.softplus (d (ix1 t))) * Ideal.ofBits .f32 0x39800000#32 := by
  rw [loss_pay_eq_sum]
  refine congrArg (fun s : EReal => s * Ideal.ofBits .f32 0x39800000#32) ?_
  rw [← sum_idx1 (fun i => Cert.BprSpec.softplus (d i))]
  exact Equiv.sum_comp (Shape.reshapeEquiv h) (fun i => Cert.BprSpec.softplus (d i))

/-- (3) When the flat array holds the specification's score differences, the payload is the specification's result. -/
theorem loss_eq_G (users : IVec Cert.BprSpec.S4096x1 32) (items : IVec Cert.BprSpec.S4096x2 32)
    (uf itf : FVec Ideal Cert.BprSpec.S100000x64 .f32) (d : FVec Ideal S4096 .f32) (h : S4096.ShapeCasts S32x128)
    (hd : ∀ t : Fin 4096, d (ix1 t) = Cert.BprSpec.score users items uf itf t) :
    k4_pay1 (F := Ideal) (shapeCast S32x128 d h) = Cert.BprSpec.G users items uf itf ix0 := by
  rw [loss_of_scores, Cert.BprSpec.G_apply]
  exact congrArg (fun s : EReal => s * Ideal.ofBits .f32 0x39800000#32)
    (Finset.sum_congr rfl fun t _ => by rw [hd t])

end Cert.KernelIdeal.LossValue

end
-- ==== Proof.KernelValue.lean ====
/-
  The kernel program's value, stage by stage, as pure statements about what each intermediate array HOLDS.

  * PACKED TABLE. A [50176, 128] array `p` holds a [100000, 64] table `t` packed when table row `i` sits in row
    `i` (columns 0..63) for `i < 50176` and in row `i - 50176` (columns 64..127) for `i ≥ 50176` (`IsPacked`). Rows
    `49824..50175` have no second half inside the table; nothing is said of those entries. A packing call writes it
    block by block: grid point `g < 4` writes rows `12544 g ..` from the transposed table's column blocks `g` and
    `g + 4`, the latter clipped at column 100000 (`packed_of_blocks`: only in-range columns are used).
  * DIFFERENCES. A [2048, 128] array `gp` holds, for triple `b`, in half `b mod 2` of row `b / 2`, the 64 entries
    `n_j - p_j` read from the packed item table at the triple's negative and positive item (`IsDiffs`).
  * SCORES. A [4096] array `d` holds, for triple `b`, the sum over the 64 features of the packed user table's entry
    times the difference (`IsScores`).
  Composed (`scores_eq`): `d b` is the specification's score difference `Cert.BprSpec.score … b`, whatever the unread
  entries of the packed arrays hold; and the last call's stored scalar, computed from the scores reshaped to
  [32, 128], is then the specification itself (`result_eq_G`).
-/
import proofs.«203895_g52347061404180_cont_8to1_c_859_34_alg».proof.Proof.BprSpec
import proofs.«203895_g52347061404180_cont_8to1_c_859_34_alg».proof.Proof.PackValue
import proofs.«203895_g52347061404180_cont_8to1_c_859_34_alg».proof.Proof.LossValue

noncomputable section

open scoped BigOperators

namespace Cert.KernelValue

open Idealize.ShloMosaic Idealize.ShloMosaic.ValueIdx Cert.BprSpec

abbrev S50176x128 : Shape := ⟨2, ![50176, 128]⟩
abbrev S2048x128 : Shape := ⟨2, ![2048, 128]⟩
abbrev S4096 : Shape := ⟨1, ![4096]⟩
abbrev S64x100000 : Shape := ⟨2, ![64, 100000]⟩

/-- The packed row that holds table row `i`. -/
def prow (i : Fin 100000) : Fin 50176 :=
  ⟨if 50176 ≤ i.val then i.val - 50176 else i.val, by have := i.isLt; split <;> omega⟩

/-- The packed column that holds feature `j` of table row `i`: the second half for the rows from 50176 on. -/
def pcol (i : Fin 100000) (j : Fin 64) : Fin 128 :=
  ⟨(if 50176 ≤ i.val then 64 else 0) + j.val, by have := j.isLt; split <;> omega⟩

theorem prow_val (i : Fin 100000) : (prow i).val = if 50176 ≤ i.val then i.val - 50176 else i.val := rfl
theorem pcol_val (i : Fin 100000) (j : Fin 64) : (pcol i j).val = (if 50176 ≤ i.val then 64 else 0) + j.val := rfl

/-- `p` holds the table `t` packed, two table rows per row. -/
def IsPacked (t : FVec Ideal S100000x64 .f32) (p : FVec Ideal S50176x128 .f32) : Prop :=
  ∀ (i : Fin 100000) (j : Fin 64), p (ix2 (prow i) (pcol i j)) = t (ix2 i j)

/-- `gp` holds every triple's 64 differences (negative item's feature minus positive item's) read from the packed item
    table `p`: triple `b` in half `b mod 2` of row `b / 2`. -/
def IsDiffs (items : IVec S4096x2 32) (p : FVec Ideal S50176x128 .f32) (gp : FVec Ideal S2048x128 .f32) : Prop :=
  ∀ (b : Fin 4096) (j : Fin 64),
    gp (ix2 (⟨b.val / 2, by have := b.isLt; omega⟩ : Fin 2048) (⟨64 * (b.val % 2) + j.val, by have := j.isLt; omega⟩ : Fin 128))
      = p (ix2 (prow (row (items (ix2 b (1 : Fin 2))))) (pcol (row (items (ix2 b (1 : Fin 2)))) j))
        - p (ix2 (prow (row (items (ix2 b (0 : Fin 2))))) (pcol (row (items (ix2 b (0 : Fin 2)))) j))

/-- `d` holds every triple's dot product of its user's packed row with its differences. -/
def IsScores (users : IVec S4096x1 32) (pu : FVec Ideal S50176x128 .f32) (gp : FVec Ideal S2048x128 .f32)
    (d : FVec Ideal S4096 .f32) : Prop :=
  ∀ b : Fin 4096, d (ix1 b)
    = ∑ j : Fin 64, pu (ix2 (prow (row (users (ix2 b (0 : Fin 1))))) (pcol (row (users (ix2 b (0 : Fin 1)))) j))
        * gp (ix2 (⟨b.val / 2, by have := b.isLt; omega⟩ : Fin 2048) (⟨64 * (b.val % 2) + j.val, by have := j.isLt; omega⟩ : Fin 128))

/-- The stages composed: the scores array holds the specification's score differences. Only entries of the packed
    arrays that hold a table entry are read. -/
theorem scores_eq (users : IVec S4096x1 32) (items : IVec S4096x2 32) (uf itf : FVec Ideal S100000x64 .f32)
    (pi pu : FVec Ideal S50176x128 .f32) (gp : FVec Ideal S2048x128 .f32) (d : FVec Ideal S4096 .f32)
    (hpi : IsPacked itf pi) (hpu : IsPacked uf pu) (hgp : IsDiffs items pi gp) (hd : IsScores users pu gp d)
    (b : Fin 4096) : d (ix1 b) = score users items uf itf b := by
  rw [hd b, score_def]
  refine Finset.sum_congr rfl fun j _ => ?_
  rw [hgp b j, hpu, hpi, hpi]

/-- ONE PACKING CALL writes a packed table. The call's grid point `g < 4` writes rows `12544 g + r` of `p` with the
    body's payload of two loaded blocks: `lo g`, columns `12544 g ..` of the transposed table `tT`, and `hi g`, columns
    `50176 + 12544 g ..`, of which only those below 100000 lie inside the table (the last block is clipped, and what a
    clipped block holds past the table's edge is not constrained). Then `p` holds the table packed. -/
theorem packed_of_blocks (t : FVec Ideal S100000x64 .f32) (p : FVec Ideal S50176x128 .f32)
    (lo hi : Fin 4 → Vec Ideal Cert.KernelIdeal.S64x12544 .f32)
    (hblk : ∀ (g : Fin 4) (r : Fin 12544) (c : Fin 128),
      p (ix2 (⟨12544 * g.val + r.val, by have := g.isLt; have := r.isLt; omega⟩ : Fin 50176) c)
        = Cert.KernelIdeal.Gen.k0_pay1 (F := Ideal) (lo g) (hi g) (ix2 r c))
    (hlo : ∀ (g : Fin 4) (k : Fin 64) (r : Fin 12544),
      lo g (ix2 k r) = t (ix2 (⟨12544 * g.val + r.val, by have := g.isLt; have := r.isLt; omega⟩ : Fin 100000) k))
    (hhi : ∀ (g : Fin 4) (k : Fin 64) (r : Fin 12544) (h : 50176 + 12544 * g.val + r.val < 100000),
      hi g (ix2 k r) = t (ix2 (⟨50176 + 12544 * g.val + r.val, h⟩ : Fin 100000) k)) :
    IsPacked t p := by
  intro i j
  have hi' := i.isLt
  have hj := j.isLt
  by_cases h : 50176 ≤ i.val
  · -- second half: packed row `i - 50176 = 12544 g + r`, column `64 + j`
    obtain ⟨g, r, hgr⟩ : ∃ (g : Fin 4) (r : Fin 12544), i.val - 50176 = 12544 * g.val + r.val :=
      ⟨⟨(i.val - 50176) / 12544, by omega⟩, ⟨(i.val - 50176) % 12544, Nat.mod_lt _ (by norm_num)⟩,
        (Nat.div_add_mod _ _).symm⟩
    have hg := g.isLt
    have hr := r.isLt
    have hin : 50176 + 12544 * g.val + r.val < 100000 := by omega
    have e1 : prow i = (⟨12544 * g.val + r.val, by omega⟩ : Fin 50176) :=
      Fin.ext (by rw [prow_val, if_pos h]; exact hgr)
    have e2 : pcol i j = (⟨j.val + 64, by omega⟩ : Fin 128) :=
      Fin.ext (by rw [pcol_val, if_pos h]; exact Nat.add_comm _ _)
    have e3 : (⟨50176 + 12544 * g.val + r.val, hin⟩ : Fin 100000) = i :=
      Fin.ext (by show 50176 + 12544 * g.val + r.val = i.val; omega)
    calc p (ix2 (prow i) (pcol i j))
        = p (ix2 (⟨12544 * g.val + r.val, by omega⟩ : Fin 50176) (⟨j.val + 64, by omega⟩ : Fin 128)) := by rw [e1, e2]
      _ = Cert.KernelIdeal.Gen.k0_pay1 (F := Ideal) (lo g) (hi g) (ix2 r (⟨j.val + 64, by omega⟩ : Fin 128)) := hblk g r _
      _ = hi g (ix2 j r) := Cert.KernelIdeal.PackValue.pay_right _ _ r j
      _ = t (ix2 (⟨50176 + 12544 * g.val + r.val, hin⟩ : Fin 100000) j) := hhi g j r hin
      _ = t (ix2 i j) := by rw [e3]
  · -- first half: packed row `i = 12544 g + r`, column `j`
    have h' : i.val < 50176 := Nat.lt_of_not_le h
    obtain ⟨g, r, hgr⟩ : ∃ (g : Fin 4) (r : Fin 12544), i.val = 12544 * g.val + r.val :=
      ⟨⟨i.val / 12544, by omega⟩, ⟨i.val % 12544, Nat.mod_lt _ (by norm_num)⟩, (Nat.div_add_mod _ _).symm⟩
    have hg := g.isLt
    have hr := r.isLt
    have e1 : prow i = (⟨12544 * g.val + r.val, by omega⟩ : Fin 50176) :=
      Fin.ext (by rw [prow_val, if_neg h]; exact hgr)
    have e2 : pcol i j = (⟨j.val, by omega⟩ : Fin 128) :=
      Fin.ext (by rw [pcol_val, if_neg h]; exact Nat.zero_add _)
    have e3 : (⟨12544 * g.val + r.val, by omega⟩ : Fin 100000) = i :=
      Fin.ext (by show 12544 * g.val + r.val = i.val; omega)
    calc p (ix2 (prow i) (pcol i j))
        = p (ix2 (⟨12544 * g.val + r.val, by omega⟩ : Fin 50176) (⟨j.val, by omega⟩ : Fin 128)) := by rw [e1, e2]
      _ = Cert.KernelIdeal.Gen.k0_pay1 (F := Ideal) (lo g) (hi g) (ix2 r (⟨j.val, by omega⟩ : Fin 128)) := hblk g r _
      _ = lo g (ix2 j r) := Cert.KernelIdeal.PackValue.pay_left _ _ r j
      _ = t (ix2 (⟨12544 * g.val + r.val, by omega⟩ : Fin 100000) j) := hlo g j r
      _ = t (ix2 i j) := by rw [e3]

/-- END TO END: if the two packed tables, the differences and the scores hold what their stages say, the scalar the last
    call stores — its payload at the scores array viewed [32, 128] — is the specification of the four arguments. -/
theorem result_eq_G (users : IVec S4096x1 32) (items : IVec S4096x2 32) (uf itf : FVec Ideal S100000x64 .f32)
    (pi pu : FVec Ideal S50176x128 .f32) (gp : FVec Ideal S2048x128 .f32) (d : FVec Ideal S4096 .f32)
    (hpi : IsPacked itf pi) (hpu : IsPacked uf pu) (hgp : IsDiffs items pi gp) (hd : IsScores users pu gp d)
    (h : Cert.KernelIdeal.S4096.ShapeCasts Cert.KernelIdeal.S32x128) :
    Cert.KernelIdeal.Gen.k4_pay1 (F := Ideal) (shapeCast Cert.KernelIdeal.S32x128 d h) = G users items uf itf ix0 :=
  Cert.KernelIdeal.LossValue.loss_eq_G users items uf itf d h
    (fun t => scores_eq users items uf itf pi pu gp d hpi hpu hgp hd t)

end Cert.KernelValue

end
-- ==== Proof.LibSkew.lean ====
/-
  Skewed column addressing of a 16-lane vector unit over a row of 64 (or of two halves of 64) columns.

  Lane `x` walks the 64 columns of its row not in the order `0, 1, …, 63` but starting from its own offset
  `s x = (9·x) mod 64`: at step `k` it addresses column `(s x + k) mod 64`, so that at every step the sixteen lanes
  address sixteen different columns. The program computes that column as `base + c` with `base = sel + s` (`sel` is
  `0` or `64`: which half of a 128-wide row) and `c = ((s + k) &&& 63) - s`, all in 32-bit words. Here:

  * masking a word with `63` is reduction modulo `64` (`and63_toNat`);
  * the word `(sel + s) + (((s + k) &&& 63) - s)` is the number `sel + (s + k) mod 64` — the subtraction and the
    addition of `s` cancel in the words, wrap-around or not (`skew_col`), hence lies below `128` (`skew_col_lt`);
  * over a full turn `k = 0, …, 63` the addressed columns are each column once: a sum over the steps is the sum
    over the columns (`sum_skew`, `sum_skew_nat`);
  * the row addressed by lane `x` of group `g` (of 8 groups of 16 rows) is `16 g + x < 128`, and its half
    `(16 g + x) / 2 < 64` (`row_lt`, `half_row_lt`); two lanes of one group with the same half-row differ in
    parity (`half_row_inj`), so the sixteen lanes' targets `(half-row, (x mod 2)·64 + column)` are pairwise distinct.
-/
import Idealize.ShloMosaic.Lib.ValueIdx

namespace Cert.LibSkew

/-- Masking a 32-bit word with `63 = 2^6 - 1` keeps its value modulo `64`. -/
theorem and63_toNat (x : BitVec 32) : (x &&& 63#32).toNat = x.toNat % 64 := by
  rw [BitVec.toNat_and]
  exact Nat.and_two_pow_sub_one_eq_mod x.toNat 6

/-- The masked word is a column number: below `64`. -/
theorem and63_lt (x : BitVec 32) : (x &&& 63#32).toNat < 64 := by
  rw [and63_toNat]; exact Nat.mod_lt _ (by norm_num)

/-- The sum of two small words does not wrap. -/
theorem add_toNat_of_lt (s k : BitVec 32) (hs : s.toNat < 64) (hk : k.toNat < 64) : (s + k).toNat = s.toNat + k.toNat := by
  rw [BitVec.toNat_add]; exact Nat.mod_eq_of_lt (by omega)

/-- The column lane offset `s` addresses at step `k`, as a number: `(s + k) mod 64`. -/
theorem step_col (s k : BitVec 32) (hs : s.toNat < 64) (hk : k.toNat < 64) :
    ((s + k) &&& 63#32).toNat = (s.toNat + k.toNat) % 64 := by
  rw [and63_toNat, add_toNat_of_lt s k hs hk]

/-- In the words, `(sel + s) + (t - s) = sel + t`: the lane's offset, added into the base and subtracted from the
    step's column, cancels, whether or not the subtraction wraps. -/
theorem add_sub_cancel_word (sel s t : BitVec 32) : (sel + s) + (t - s) = sel + t := by
  bv_omega

/-- The addressed column `base + c`, `base = sel + s`, `c = ((s + k) &&& 63) - s`, is the number
    `sel + (s + k) mod 64` when `sel ≤ 64`. -/
theorem skew_col (sel s k : BitVec 32) (hs : s.toNat < 64) (hk : k.toNat < 64) (hsel : sel.toNat ≤ 64) :
    ((sel + s) + (((s + k) &&& 63#32) - s)).toNat = sel.toNat + (s.toNat + k.toNat) % 64 := by
  rw [add_sub_cancel_word, BitVec.toNat_add, step_col s k hs hk]
  have := Nat.mod_lt (s.toNat + k.toNat) (show 0 < 64 by norm_num)
  exact Nat.mod_eq_of_lt (by omega)

/-- It addresses a column of a 128-wide row. -/
theorem skew_col_lt (sel s k : BitVec 32) (hs : s.toNat < 64) (hk : k.toNat < 64) (hsel : sel.toNat ≤ 64) :
    ((sel + s) + (((s + k) &&& 63#32) - s)).toNat < 128 := by
  rw [skew_col sel s k hs hk hsel]
  have := Nat.mod_lt (s.toNat + k.toNat) (show 0 < 64 by norm_num)
  omega

/-- Over a full turn the steps' columns `(s + k) mod 64` are every column once: translation by `s` permutes
    `Fin 64`. -/
theorem sum_skew {M : Type*} [AddCommMonoid M] (s : Fin 64) (f : Fin 64 → M) :
    ∑ k : Fin 64, f (s + k) = ∑ j : Fin 64, f j :=
  Equiv.sum_comp (Equiv.addLeft s) f

/-- The same with the column spelt as a number modulo `64`. -/
theorem sum_skew_nat {M : Type*} [AddCommMonoid M] (s : ℕ) (f : Fin 64 → M) :
    ∑ k : Fin 64, f ⟨(s + k.val) % 64, Nat.mod_lt _ (by norm_num)⟩ = ∑ j : Fin 64, f j := by
  have h : ∀ k : Fin 64, (⟨(s + k.val) % 64, Nat.mod_lt _ (by norm_num)⟩ : Fin 64) = (Fin.ofNat 64 s) + k := by
    intro k
    apply Fin.ext
    rw [Fin.val_add, Fin.val_ofNat]
    exact (Nat.mod_add_mod s 64 k.val).symm
  simp only [h]
  exact sum_skew _ f

/-- Row `16 g + x` of group `g < 8`, lane `x < 16`, is a row of the 128-row block. -/
theorem row_lt (g x : ℕ) (hg : g < 8) (hx : x < 16) : 16 * g + x < 128 := by omega

/-- Its half is a row of the 64-row packed block. -/
theorem half_row_lt (g x : ℕ) (hg : g < 8) (hx : x < 16) : (16 * g + x) / 2 < 64 := by omega

/-- Two lanes of one group that fall on the same half-row and have the same parity are one lane. -/
theorem half_row_inj (g x y : ℕ) (h2 : (16 * g + x) / 2 = (16 * g + y) / 2) (hp : x % 2 = y % 2) : x = y := by omega

/-- A row and its half determine each other with the parity: `2·(r / 2) + r mod 2 = r`. -/
theorem half_row_parity (r : ℕ) : 2 * (r / 2) + r % 2 = r := by omega

end Cert.LibSkew
-- ==== Proof.TileBridge.lean ====
/-
  From the tiles' results to the specification, at the ideal values.

  A word in `[0, 99999]` names table row `Cert.BprSpec.row x`; the packed row and column `Cert.TileSpec.prowW x`,
  `pcolW x j` of the words are `Cert.KernelValue.prow` / `pcol` of that row (`prowW_eq`, `pcolW_eq`). Hence:

  * a differences array that on every tile's slice is what the tile leaves (`OutG`) — from ANY packed item table, the
    tables may differ from tile to tile — holds, for every triple `b` and feature `j`, the negative item's feature minus
    the positive item's (`diffs_of_tiles`: `DiffsOf`);
  * a scores array that on every tile's slice is what the tile leaves (`OutDot`) from any packed user table and from a
    differences array that `DiffsOf`, holds every triple's score difference `Cert.BprSpec.score` (`scores_of_tiles`): the
    accumulator from the zero word over the 64 steps is the sum over one full turn of the skewed order, which is the sum
    over the columns.
-/
import proofs.«203895_g52347061404180_cont_8to1_c_859_34_alg».proof.Proof.TileSpec
import proofs.«203895_g52347061404180_cont_8to1_c_859_34_alg».proof.Proof.KernelValue
import proofs.«203895_g52347061404180_cont_8to1_c_859_34_alg».proof.Proof.LibSkew
import proofs.«203895_g52347061404180_cont_8to1_c_859_34_alg».proof.Proof.LibEyeDot
import Idealize.ShloMosaic.PureOps.Ideal.Laws

noncomputable section

open scoped BigOperators

namespace Cert.TileBridge

open Idealize.ShloMosaic Idealize.ShloMosaic.ValueIdx Cert.BprSpec Cert.KernelValue Cert.TileSpec

/-- An index word names a table row. -/
abbrev InRangeW (x : BitVec 32) : Prop := 0 ≤ x.toInt ∧ x.toInt ≤ 99999

theorem toInt_eq_toNat (x : BitVec 32) (h : InRangeW x) : x.toInt = (x.toNat : Int) := by
  have hlt : x.toNat < 2 ^ 32 := x.isLt
  have h0 := h.1
  rw [BitVec.toInt_eq_toNat_cond] at h0 ⊢
  split
  · rfl
  · rename_i hge; rw [if_neg hge] at h0; omega

/-- For a word in range, its packed row is the packed row of the table row it names. -/
theorem prowW_eq (x : BitVec 32) (h : InRangeW x) : prowW x = prow (row x) := by
  have e := toInt_eq_toNat x h
  have hr := (row_val_of_range x h.1 h.2).2
  apply Fin.ext
  unfold prowW
  rw [prow_val, hr]
  simp only
  have h1 := h.2
  split <;> split <;> omega

/-- And its packed column. -/
theorem pcolW_eq (x : BitVec 32) (h : InRangeW x) (j : Fin 64) : pcolW x j = pcol (row x) j := by
  have e := toInt_eq_toNat x h
  have hr := (row_val_of_range x h.1 h.2).2
  apply Fin.ext
  unfold pcolW halfW
  rw [pcol_val, hr]
  simp only
  split <;> split <;> omega

/-- Every triple is a tile's. -/
theorem tri_surj (b : Fin 4096) : ∃ (w : Fin 32) (t : Fin 128), b = tri w t := by
  have hb := b.isLt
  refine ⟨⟨b.val / 128, by omega⟩, ⟨b.val % 128, by omega⟩, Fin.ext ?_⟩
  show b.val = 128 * (b.val / 128) + b.val % 128
  omega

/-- The differences array holds every triple's 64 differences of table entries. -/
def DiffsOf (items : IVec S4096x2 32) (itf : FVec Ideal S100000x64 .f32) (gp : FVec Ideal TileSpec.S2048x128 .f32) : Prop :=
  ∀ (w : Fin 32) (t : Fin 128) (j : Fin 64),
    gp (ix2 (dRow w t) (dCol t j))
      = itf (ix2 (row (items (ix2 (tri w t) (1 : Fin 2)))) j) - itf (ix2 (row (items (ix2 (tri w t) (0 : Fin 2)))) j)

/-- From the tiles' results: each tile's slice of `gp` is what the tile leaves from SOME packed item table and the
    flattened index arrays. -/
theorem diffs_of_tiles (items : IVec S4096x2 32) (itf : FVec Ideal S100000x64 .f32) (gp : FVec Ideal TileSpec.S2048x128 .f32)
    (pos neg : IVec TileSpec.S4096 32)
    (hpos : ∀ b : Fin 4096, pos (ix1 b) = items (ix2 b (0 : Fin 2))) (hneg : ∀ b : Fin 4096, neg (ix1 b) = items (ix2 b (1 : Fin 2)))
    (hrange : ∀ i, InRangeW (items i))
    (htile : ∀ w : Fin 32, ∃ (tbl : FVec Ideal TileSpec.S50176x128 .f32) (out : FVec Ideal TileSpec.S2048x128 .f32),
      IsPacked itf tbl ∧ OutG (F := Ideal) w tbl pos neg out ∧ ∀ (t : Fin 128) (j : Fin 64), gp (ix2 (dRow w t) (dCol t j)) = out (ix2 (dRow w t) (dCol t j))) :
    DiffsOf items itf gp := by
  intro w t j
  obtain ⟨tbl, out, hp, ho, hg⟩ := htile w
  rw [hg t j, ho t j, hneg, hpos, prowW_eq _ (hrange _), pcolW_eq _ (hrange _), prowW_eq _ (hrange _), pcolW_eq _ (hrange _), hp, hp]
  rfl

/-- From the tiles' results: each tile's slice of the scores is the tile's accumulators, from SOME packed user table and
    a differences array that agrees with `gp` on the tile's rows. -/
theorem scores_of_tiles (users : IVec S4096x1 32) (items : IVec S4096x2 32) (uf itf : FVec Ideal S100000x64 .f32)
    (gp : FVec Ideal TileSpec.S2048x128 .f32) (d : FVec Ideal TileSpec.S4096 .f32) (uidx : IVec TileSpec.S4096 32)
    (hu : ∀ b : Fin 4096, uidx (ix1 b) = users (ix2 b (0 : Fin 1))) (hrange : ∀ i, InRangeW (users i))
    (hgp : DiffsOf items itf gp)
    (htile : ∀ w : Fin 32, ∃ (tbl : FVec Ideal TileSpec.S50176x128 .f32) (gp' : FVec Ideal TileSpec.S2048x128 .f32) (out : FVec Ideal TileSpec.S4096 .f32),
      IsPacked uf tbl ∧ (∀ (t : Fin 128) (c : Fin 64), gp' (ix2 (dRow w t) (dCol t c)) = gp (ix2 (dRow w t) (dCol t c)))
      ∧ OutDot (F := Ideal) w tbl uidx gp' out ∧ ∀ t : Fin 128, d (ix1 (tri w t)) = out (ix1 (tri w t))) :
    ∀ b : Fin 4096, d (ix1 b) = score users items uf itf b := by
  intro b
  obtain ⟨w, t, rfl⟩ := tri_surj b
  obtain ⟨tbl, gp', out, hp, hg', ho, hd⟩ := htile w
  rw [hd t, ho t, score_def]
  unfold accDot
  rw [show (Scalar.ofBits (F := Ideal) .f32 0x00000000#32 : EReal) = 0 from Ideal.ofBits_zero_f32]
  have hfold : (List.finRange 64).foldl (fun acc k =>
        FloatOps.addf (F := Ideal) acc (FloatOps.mulf (tbl (ix2 (prowW (uidx (ix1 (tri w t)))) (pcolW (uidx (ix1 (tri w t))) (sigma t k))))
          (gp' (ix2 (dRow w t) (dCol t (sigma t k)))))) (0 : EReal)
      = 0 + ∑ k : Fin 64, tbl (ix2 (prowW (uidx (ix1 (tri w t)))) (pcolW (uidx (ix1 (tri w t))) (sigma t k)))
          * gp' (ix2 (dRow w t) (dCol t (sigma t k))) :=
    Cert.LibEyeDot.foldl_add_finRange (M := EReal)
      (fun k : Fin 64 => tbl (ix2 (prowW (uidx (ix1 (tri w t)))) (pcolW (uidx (ix1 (tri w t))) (sigma t k)))
        * gp' (ix2 (dRow w t) (dCol t (sigma t k)))) 0
  rw [hfold, zero_add]
  have hσ : ∀ k : Fin 64, sigma t k = (⟨(9 * (t.val % 16) % 64 + k.val) % 64, Nat.mod_lt _ (by norm_num)⟩ : Fin 64) := fun _ => rfl
  simp only [hσ]
  rw [Cert.LibSkew.sum_skew_nat (9 * (t.val % 16) % 64) (fun c : Fin 64 =>
    tbl (ix2 (prowW (uidx (ix1 (tri w t)))) (pcolW (uidx (ix1 (tri w t))) c)) * gp' (ix2 (dRow w t) (dCol t c)))]
  refine Finset.sum_congr rfl fun j _ => ?_
  rw [hg' t j, hgp w t j, hu, prowW_eq _ (hrange _), pcolW_eq _ (hrange _), hp]

end Cert.TileBridge

end
-- ==== Proof.LaunchElem.lean ====
/-
  The launch element of the ghost state.

  The user algebra has three components: the launch handshakes' rounds, the TensorCore pipelines' staging cells' rounds,
  and the local transfers' counters. The element owned at the launch gives the first to the launch theorem as it stands,
  funds from the second, for every device, the three pipelines' staging cells (their launch state, the owner's position,
  round 0 reached) and their duty tokens — what each TensorCore region is later entered with —, and the third is the
  counters' unit. The SparseCore kernels have no protocol of their own beyond local copies: they are dealt nothing.
-/
import proofs.«203895_g52347061404180_cont_8to1_c_859_34_alg».proof.Proof.LaunchPay
import proofs.«203895_g52347061404180_cont_8to1_c_859_34_alg».proof.Proof.Gen.KernelIdeal.Launch

noncomputable section

namespace Cert.KernelIdeal.LaunchElem

open Cert.KernelIdeal Cert.KernelIdeal.Gen Cert.KernelIdeal.KCommon Cert.KernelIdeal.LaunchPay
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The launch element: the handshakes' cells and tokens, the pipelines' staging cells and tokens, the counters' unit. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What @main's proof on device `d` starts from besides the launch's deal: the three pipelines' staging cells' ghost
    state and duty tokens. -/
def G (d : Dev nD) : sProp 𝕄 :=
  iprop((bigSep Finset.univ fun p : Fin 3 => Pipeline.cellsGhost (nD := nD) (τ := τ) cfgs (EP (F := F)) p d)
    ∗ (bigSep Finset.univ fun p : Fin 3 => Pipeline.toksInit (nD := nD) (τ := τ) cfgs (EP (F := F)) p d))

theorem bigSep_emp' {I : Type} (s : Finset I) : (bigSep s fun _ => iprop(emp)) = (iprop(emp) : sProp 𝕄) := bigSep_emp_const s

theorem hu₀ : iprop(ownU (u₀ (F := F)) ∗ (P (F := F)).oxCred ∗ (K (F := F)).freeSems0)
    ⊢ |={Set.univ}=> iprop(BI.own (EH (F := F) (initOf (K (F := F)).hsCells (K (F := F)).hsToks)) ∗ bigSep Finset.univ (G (F := F))
      ∗ bigSep Finset.univ fun thr : Thread nD τ => bigSep Finset.univ fun q : Fin 2 => (P (F := F)).x q thr) := by
  unfold u₀
  iintro ⟨Hu, -, -⟩
  ihave H := (ownU_pair _ _) $$ Hu
  icases H with ⟨HH, HR⟩
  ihave H2 := (own_pair_emb (embR : Emb (UP × Counters) 𝕄) _ _) $$ HR
  icases H2 with ⟨HP, -⟩
  imod (Pipeline.fund_ghost (nD := nD) (τ := τ) cfgs (EP (F := F)) cellOf_inj) $$ HP with ⟨Hc, Ht⟩
  imodintro
  isplitl [HH]; · iexact HH
  isplitl [Hc Ht]
  · unfold G
    rw [bigSep_sep']
    isplitl [Hc]; · iexact Hc
    iexact Ht
  · rw [show (bigSep Finset.univ fun thr : Thread nD τ => bigSep Finset.univ fun q : Fin 2 => (P (F := F)).x q thr)
        = (iprop(emp) : sProp 𝕄) from by
      show (bigSep Finset.univ fun _ : Thread nD τ => bigSep Finset.univ fun _ : Fin 2 => (iprop(emp) : sProp 𝕄)) = _
      rw [bigSep_congr fun _ _ => bigSep_emp' (F := F) _, bigSep_emp']]
    iempintro

end Cert.KernelIdeal.LaunchElem

end
-- ==== Proof.LaunchFin.lean ====
/-
  What @main leaves on a device's TensorCore, and how the final memory reads the claim off it.

  At its return @main holds the four argument arrays whole at their launch contents — no call writes them: the
  TensorCore calls read the transposed copies, the SparseCore calls the packed tables and the flattened index arrays —
  and the result array whole at contents satisfying whatever the run established of it (`Pv`: nothing for a frame, "is
  the specification of the arguments" for the value claim). A whole array held at the full share beside the state
  interpretation of a final state says the state's memory holds those contents (`SI_pointsTo_agree`).
-/
import proofs.«203895_g52347061404180_cont_8to1_c_859_34_alg».proof.Proof.KCommon

noncomputable section

namespace Cert.KernelIdeal.LaunchFin

open Cert.KernelIdeal Cert.KernelIdeal.Gen Cert.KernelIdeal.KCommon
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (m : (ℓ : Loc nD τ sig) → Buf (Elt F) ℓ)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev outLoc (d : Dev nD) : Loc nD τ sig := (SparseCore.T d).loc main_v13

/-- What @main leaves: the arguments at their launch contents, the result at contents of which `Pv d` holds. -/
def FIN (Pv : (d : Dev nD) → Buf (Elt F) (outLoc d) → Prop) (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ ∃ f, ⌜Pv d f⌝ ∗ outLoc d ↦{fullShare} f)

/-- What is read of a final state on device `d`. -/
def fq (Pv : (d : Dev nD) → Buf (Elt F) (outLoc d) → Prop) (d : Dev nD) (s' : Phys nD τ sig (Elt F)) : Prop :=
  Pv d (s'.mem.mem (outLoc d)) ∧ s'.mem.mem (a0Loc d) = m (a0Loc d) ∧ s'.mem.mem (a1Loc d) = m (a1Loc d)
    ∧ s'.mem.mem (a2Loc d) = m (a2Loc d) ∧ s'.mem.mem (a3Loc d) = m (a3Loc d)

/-- A whole array held beside the state interpretation is the state's. -/
theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

theorem hfin (Pv : (d : Dev nD) → Buf (Elt F) (outLoc d) → Prop) (d : Dev nD) (s' : Phys nD τ sig (Elt F)) :
    iprop(FIN m Pv d ∗ SI s') ⊢ (⌜fq m Pv d s'⌝ : sProp 𝕄) := by
  unfold FIN
  iintro ⟨⟨H0, H1, H2, H3, %f, %hf, Ho⟩, HSI⟩
  ihave H := (read_whole (F := F) (a0Loc d) _ s') $$ [H0 HSI]
  · isplitl [H0] <;> iassumption
  icases H with ⟨%e0, HSI⟩
  ihave H := (read_whole (F := F) (a1Loc d) _ s') $$ [H1 HSI]
  · isplitl [H1] <;> iassumption
  icases H with ⟨%e1, HSI⟩
  ihave H := (read_whole (F := F) (a2Loc d) _ s') $$ [H2 HSI]
  · isplitl [H2] <;> iassumption
  icases H with ⟨%e2, HSI⟩
  ihave H := (read_whole (F := F) (a3Loc d) _ s') $$ [H3 HSI]
  · isplitl [H3] <;> iassumption
  icases H with ⟨%e3, HSI⟩
  ihave H := (read_whole (F := F) (outLoc d) f s') $$ [Ho HSI]
  · isplitl [Ho] <;> iassumption
  icases H with ⟨%eo, -⟩
  ipureintro
  exact ⟨eo ▸ hf, e0, e1, e2, e3⟩

end Cert.KernelIdeal.LaunchFin

end
-- ==== Proof.RegionLoss.lean ====
/-
  THE LOSS CALL AS A REGION OF @main. The third TensorCore call of the kernel program reads the 32 × 128 array of score
  differences whole and writes one scalar: the mean of softplus of the differences' negation, as one function
  `k4_pay1` of the array. This module states the call's body (one load, one store), the pipeline's proof data at any
  contents of the core's buffers at entry, the body obligation, and the region as a segment of @main: entered from every
  unscoped buffer of the core at a valuation and what the TensorCore then owes the sequencers (the start signals of the
  SparseCore calls still to come, none at the index of the pipeline's own waits), left with the output array at the
  scalar and every other buffer as entered.
-/
import proofs.«203895_g52347061404180_cont_8to1_c_859_34_alg».proof.Proof.KCommon
import proofs.«203895_g52347061404180_cont_8to1_c_859_34_alg».proof.Proof.Gen.KernelIdeal.Launch
import proofs.«203895_g52347061404180_cont_8to1_c_859_34_alg».proof.Proof.Gen.KernelIdeal.Points
import proofs.«203895_g52347061404180_cont_8to1_c_859_34_alg».proof.Proof.Gen.KernelIdeal.Skeleton
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RegionLoss

open Cert.KernelIdeal Cert.KernelIdeal.Gen Cert.KernelIdeal.KCommon
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The body of the loss call: one load of its input block, one store of the scalar -/

abbrev r4_0 : Rect S32x128 := Rect.unit (s := S32x128) ![0, 0] S32x128.size inb_S32x128_S32x128_0_0
abbrev r4_1 : Rect S1x1 := Rect.unit (s := S1x1) ![0, 0] S1x1.size inb_S1x1_S1x1_0_0

/-- What the body leaves in the output window's buffer, from the input block: its one store as a piece. -/
def out4_1 (x0 : Vec F S32x128 .f32) : Vec F S1x1 .f32 :=
  View.canon [⟨r4_1, fun _ => k4_pay1 (View.ld x0 r4_0)⟩]

/-- The store covers the buffer. -/
theorem cover4_1 (p0 : r4_1.shape.Idx → Elt F .f32) (y : S1x1.Idx) :
    ∃ pc ∈ ([⟨r4_1, p0⟩] : List (View.Piece (Elt F) S1x1 .f32)), y ∈ pc.1.set :=
  View.cover_of_tiled [⟨r4_1, p0⟩] S1x1.size (by rfl) y

set_option maxHeartbeats 1000000 in
/-- The body on whole staging memrefs: the input's at read contents `x0`, the output's at anything, to the input's
    as it was and the output's at `out4_1 x0`. -/
theorem sound_kernel4 (c : Dev nD) (E : Set ℕ) (arg0 : Memref sig .tc .vmem S32x128 .f32) (harg0 : arg0.IsWhole)
    (arg1 : Memref sig .tc .smem S1x1 .f32) (harg1 : arg1.IsWhole)
    (x0 : Vec F S32x128 .f32) (Kp : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out4_1 x0)) -∗ Kp ⟨⟩))
      ⊢ wp frame (wpE (defs₀ (F := F)) Variants.none c none) E (cc4__tc_loss_body arg0 harg0 arg1 harg1) Kp := by
  simp only [cc4__tc_loss_body_eq_skeleton]; unfold cc4__tc_loss_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover4_1 _)

/-! ## The proof data of the loss call's pipeline: the input array at `x`, the output array at `y` on entry, the core
    owing what it owes after `n` SparseCore calls -/

section Region

variable (x : Vec F S32x128 .f32) (y : Vec F S1x1 .f32) (n : ℕ)

/-- The pairs a TensorCore's waits may have recorded after `n` SparseCore calls. -/
abbrev recTc (c : Dev nD) : Set (SemLoc sig × HIx 2) := {p | (K (F := F)).lev ((c : Thread nD τ), p.1) p.2 ≤ 8 * n}

/-- The input window's block at a point, read off the input array: the array itself (the window is the whole array). -/
def blk4 (c : Dev nD) (t : Fin cfg4.N) : ((cfg4.win 0).xblock (cfg4.grid.coords t)).Idx → Elt F (cfg4.win 0).elt :=
  ((cfg4.win 0).blk t).view.read (Elt F) (show Buf (Elt F) ((cfg4.win 0).arr.view.loc (c : Thread nD τ)) from x)

/-- The proof data: the arrays as the region finds them; after the body the input's buffer at its block and the output's
    at `out4_1` of it; the invariant the scoped buffers no window stages; the core owing, throughout, the start signals of
    the SparseCore calls still to come. -/
def dat4 (c : Dev nD) : Dat τ (Elt F) (HIx 2) ℕ UU ℕ cfg4 c where
  A w := match w with
    | ⟨0, _⟩ => x
    | ⟨1, _⟩ => y
  after w t := match w with
    | ⟨0, _⟩ => blk4 x c t
    | ⟨1, _⟩ => out4_1 (blk4 x c t)
  Φ _ := Pipeline.scopedRest (Ix := HIx 2) (Name := ℕ) (U := UU) (Lvl := ℕ) (Val := Elt F) spec4 c
  q _ := fullShare
  owed _ := (K (F := F)).Otc c n
  recorded _ := recTc (F := F) n c

theorem A4_0 (c : Dev nD) : (dat4 x y n c).A 0 = x := by dsimp only [dat4]
theorem A4_1 (c : Dev nD) : (dat4 x y n c).A 1 = y := by dsimp only [dat4]
theorem after4_0 (c : Dev nD) (t : Fin cfg4.N) : (dat4 x y n c).after 0 t = blk4 x c t := by dsimp only [dat4]
theorem after4_1 (c : Dev nD) (t : Fin cfg4.N) : (dat4 x y n c).after 1 t = out4_1 (blk4 x c t) := by dsimp only [dat4]

/-- The input window's staging buffer holds its block at the point. -/
theorem before4_0 (c : Dev nD) (t : Fin cfg4.N) (d) : (dat4 x y n c).before 0 t d = blk4 x c t :=
  ((dat4 x y n c).before_in_eq_fetched 0 rfl (fun _ => rfl) (fun _ _ _ => rfl)
      (fun t => by rw [after4_0]; unfold Dat.blockOf blk4; rw [A4_0]; try rfl) t d).trans
    (by unfold Dat.fetched Dat.blockOf blk4; rw [A4_0]; try rfl)

/-! ## The body obligation -/

def bodyPre4 (c : Dev nD) (t : Fin cfg4.N) : sProp 𝕄 :=
  iprop((dat4 x y n c).Φ t.castSucc ∗ (dat4 x y n c).owesAt none t.castSucc
    ∗ (∃ d, owns (c : Thread nD τ) (st4_0 t) fullShare ((dat4 x y n c).before 0 t d))
    ∗ (∃ d, owns (c : Thread nD τ) (st4_1 t) fullShare ((dat4 x y n c).before 1 t d)))

def bodyPost4 (c : Dev nD) (t : Fin cfg4.N) : sProp 𝕄 :=
  iprop((dat4 x y n c).Φ t.succ ∗ (dat4 x y n c).owesAt none t.succ
    ∗ owns (c : Thread nD τ) (st4_0 t) fullShare ((dat4 x y n c).after 0 t)
    ∗ owns (c : Thread nD τ) (st4_1 t) fullShare ((dat4 x y n c).after 1 t))

theorem sound_body4 (c : Dev nD) (t : Fin cfg4.N) :
    bodyPre4 x y n c t ⊢ wp frame (wpE (defs₀ (F := F)) Variants.none c none) Set.univ (bodyAt4 t) (fun _ => bodyPost4 x y n c t) := by
  unfold bodyPre4 bodyPost4 bodyAt4
  simp only [before4_0]
  rw [show (dat4 x y n c).Φ t.succ = (dat4 x y n c).Φ t.castSucc from rfl,
    show (dat4 x y n c).owesAt none t.succ = (dat4 x y n c).owesAt none t.castSucc from rfl,
    after4_0, after4_1]
  iintro ⟨HΦ, Ho, ⟨%d0, H0⟩, ⟨%d1, H1⟩⟩
  iapply (sound_kernel4 c Set.univ _ _ _ _ (blk4 x c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation4 (c : Dev nD) : BodyObligation (dat4 (F := F) x y n c) (defs₀ (F := F)) Variants.none none Set.univ := fun t => by
  rw [bigSep_W4, bigSep_W4]
  exact sound_body4 x y n c t

/-! ## What the pipeline leaves in the output array -/

theorem hz4 : (![0, 0] : Fin 2 → Nat) = fun _ => 0 := funext fun a => by fin_cases a <;> rfl

/-- The input's block is the input array. -/
theorem blk4_eq (c : Dev nD) (t : Fin cfg4.N) : blk4 x c t = x := by
  unfold blk4
  funext j
  show x (((cfg4.win 0).blk t).view.emb j) = x j
  congr 1
  funext a; apply Fin.ext
  match a with
  | ⟨0, _⟩ => show win4_0.index t (0 : Fin 2) * 32 + 1 * (j 0).val = (j 0).val; show 0 * 32 + 1 * (j 0).val = (j 0).val; omega
  | ⟨1, _⟩ => show win4_0.index t (1 : Fin 2) * 128 + 1 * (j 1).val = (j 1).val; show 0 * 128 + 1 * (j 1).val = (j 1).val; omega

/-- What the one point writes back is the scalar, as the block of the constant array. -/
theorem flushed4_eq (c : Dev nD) (t : Fin cfg4.N) :
    (dat4 x y n c).flushed 1 t = ((cfg4.win 1).blk t).view.read (Elt F) (fun _ => k4_pay1 x) := by
  show (cfg4.win 1).cut (grid4.coords t) ((dat4 x y n c).after 1 t) = _
  rw [after4_1, blk4_eq]
  unfold out4_1
  rw [View.canon_unit_zero hz4]
  simp only [View.ld_unit_zero (S := S32x128) hz4]
  rfl

/-- The output array after the pipeline: the scalar. -/
theorem final4 (c : Dev nD) : (dat4 x y n c).arrAt 1 cfg4.N = fun _ => k4_pay1 x :=
  (dat4 x y n c).arrAt_eq_of_cover 1 _ (fun t _ => flushed4_eq x y n c t) fun i => ⟨t4_0, flush4_1 t4_0, by
    show i ∈ ((View.whole main_v12).slice (win4_1.rect t4_0)).set
    rw [View.set_slice_whole, Rect.mem_set_unit]
    intro a
    match a with
    | ⟨0, _⟩ => show win4_1.index t4_0 (0 : Fin 2) * 1 ≤ (i 0).val ∧ (i 0).val < win4_1.index t4_0 (0 : Fin 2) * 1 + 1; show 0 * 1 ≤ (i 0).val ∧ (i 0).val < 0 * 1 + 1; have h1 : (i 0).val < 1 := (i 0).isLt; omega
    | ⟨1, _⟩ => show win4_1.index t4_0 (1 : Fin 2) * 1 ≤ (i 1).val ∧ (i 1).val < win4_1.index t4_0 (1 : Fin 2) * 1 + 1; show 0 * 1 ≤ (i 1).val ∧ (i 1).val < 0 * 1 + 1; have h1 : (i 1).val < 1 := (i 1).isLt; omega⟩

/-- The input array after the pipeline: as entered. -/
theorem final4_in (c : Dev nD) : (dat4 x y n c).arrAt 0 cfg4.N = x :=
  ((dat4 x y n c).arrAt_in 0 rfl _).trans (A4_0 x y n c)

end Region

/-! ## The region -/

section Seg

variable (x : Vec F S32x128 .f32) (y : Vec F S1x1 .f32) (n : ℕ)
variable (lv : GSem nD τ sig → HIx 2 → ℕ) (hlv : (K (F := F)).Refines lv)

/-- No pipeline has a prefetched table. -/
abbrev adm : (p : Fin 3) → (pcfgs (F := F) p).Adm := fun p => (cfgs p).toPCfg_adm

/-- Proof data that says nothing: for the pipelines this region does not run. -/
def datNone {cfg : Pipeline.Cfg sig Λ₀} (c : Dev nD) : Dat τ (Elt F) (HIx 2) ℕ UU ℕ cfg c where
  A _ := Classical.arbitrary _
  after _ _ := Classical.arbitrary _
  Φ _ := iprop(emp)
  q _ := fullShare
  owed _ := 0

/-- Every pipeline's proof data: the loss call's, nothing said of the other two. -/
def pdatsL : (p : Fin 3) → (c : Dev nD) → Dat τ (Elt F) (HIx 2) ℕ UU ℕ (Pipeline.pin (pcfgs (F := F)) adm p) c
  | ⟨0, _⟩ => fun c => datNone c
  | ⟨1, _⟩ => fun c => datNone c
  | ⟨2, _⟩ => fun c => dat4 x y n c

/-- What a TensorCore owes after `n` SparseCore calls, its recorded pairs bounded: the start signals of the calls to come. -/
abbrev owesTc (c : Dev nD) : sProp 𝕄 :=
  iprop(∃ W, ⌜(K (F := F)).WBelow (c : Thread nD τ) W (8 * n)⌝ ∗ owes (c : Thread nD τ) ((K (F := F)).Otc c n) W)

/-- Those debts are all at a call's index: none at the index of a kernel's own waits. -/
theorem Otc_none (c : Dev nD) (g : GSem nD τ sig) : (K (F := F)).Otc c n g none = 0 := by
  by_contra h
  have := SparseCore.Cfg.lev_of_Otc_pos (K := K (F := F)) (Nat.pos_of_ne_zero h)
  rw [SparseCore.Cfg.lev_none] at this; omega

set_option backward.isDefEq.respectTransparency.types false in
/-- The pipeline's arrays, one by one. -/
theorem arrays4_eq (c : Dev nD)
    (F4 : (w : Fin cfg4.W) → Buf (Elt F) ((cfg4.win w).arr.view.loc (c : Thread nD τ)))
    (f0 : Vec F S32x128 .f32) (f1 : Vec F S1x1 .f32) (h0 : F4 0 = f0) (h1 : F4 1 = f1) :
    ((pdatsL x y n 2 c).arrays F4 : sProp 𝕄)
      = iprop((((c : Thread nD τ).loc main_v11) ↦{fullShare} f0) ∗ (((c : Thread nD τ).loc main_v12) ↦{fullShare} f1)) := by
  subst h0 h1
  rw [Pipeline.arrays_eq (Pipeline.pin (pcfgs (F := F)) adm) (pdatsL x y n) 2 c launch4.arr_whole
    ((pdatsL x y n 2 c).share_full fun _ => rfl), bigSep_W4]
  rfl

set_option backward.isDefEq.respectTransparency.types false in
/-- The loss call as a region of @main on the TensorCore: entered from its input array at `x`, its output array at
    `y` and the core's debts after `n` SparseCore calls; left with the input as it was, the output at the scalar and
    the same debts. -/
def R4 : Pipeline.RegionSeg (pcfgs (F := F)) adm (pdatsL x y n) none defs₀ 𝒱₀ (K (F := F)).L lv 2 where
  win := launch4.win.to₀
  block_pos := launch4.block_pos
  stage_whole := launch4.stage_whole
  K := PEmpty
  osem k := k.elim
  ho := Pipeline.OwnSemFacts.none _
  hbody c := (body_obligation4 x y n c).loose
  hwaits c := Pipeline.cellsWaits_intro (Pipeline.pin (pcfgs (F := F)) adm) (pdatsL x y n) none 2 c
    fun w s t => (K (F := F)).mayWait_none _ (Otc_none n c) lv hlv
  pre c := iprop((((c : Thread nD τ).loc main_v11) ↦{fullShare} x) ∗ (((c : Thread nD τ).loc main_v12) ↦{fullShare} y) ∗ owesTc (F := F) n c)
  post c := iprop((((c : Thread nD τ).loc main_v11) ↦{fullShare} x) ∗ (((c : Thread nD τ).loc main_v12) ↦{fullShare} (fun _ => k4_pay1 x)) ∗ owesTc (F := F) n c)
  X c := iprop(emp)
  Y c := iprop(emp)
  Z c := iprop(emp)
  hentry c := by
    rw [Pipeline.ownSems0_none]
    have harr := arrays4_eq x y n c (fun w => (pdatsL x y n 2 c).arrAt w 0) x y (A4_0 x y n c) (A4_1 x y n c)
    iintro ⟨⟨H0, H1, HO⟩, -, -⟩
    imodintro
    isplitl [H0 H1]
    · iapply (Entails.of_eq harr.symm)
      isplitl [H0] <;> iassumption
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdatsL x y n 2 c).Φ 0 = Pipeline.scopedRest (Ix := HIx 2) (Name := ℕ) (U := UU) (Lvl := ℕ) (Val := Elt F) spec4 c from rfl]
    iintro ⟨-, -, Hr⟩
    iexact Hr
  hout c := by
    rw [Pipeline.ownSems0_none, show (pdatsL x y n 2 c).Φ (Fin.last _) = Pipeline.scopedRest (Ix := HIx 2) (Name := ℕ) (U := UU) (Lvl := ℕ) (Val := Elt F) spec4 c from rfl]
    iintro Hr
    isplitr; · iempintro
    isplitr; · iempintro
    iexact Hr
  hexit c := by
    have harr := arrays4_eq x y n c (fun w => (pdatsL x y n 2 c).arrAt w cfg4.N) x (fun _ => k4_pay1 x) (final4_in x y n c) (final4 x y n c)
    iintro ⟨Ha, HO, -, -⟩
    ihave Ha' := (Entails.of_eq harr) $$ Ha
    icases Ha' with ⟨H0, H1⟩
    imodintro
    isplitl [H0]; · iexact H0
    isplitl [H1]; · iexact H1
    unfold Pipeline.Dat.owesAt Pipeline.owesWithin
    icases HO with ⟨%W, %hW, HO⟩; iexists W; isplitr
    · ipureintro
      intro p hp
      rcases hW hp with h | ⟨w, s, rfl⟩
      · exact h
      · show (K (F := F)).lev _ none ≤ _
        rw [SparseCore.Cfg.lev_none]; exact Nat.zero_le _
    iexact HO

set_option backward.isDefEq.respectTransparency.types false in
/-- The region's rule as @main meets it: from the boundary, the region's entry state, the level facts and the
    pipeline's staging cells' launch ghost state, the call runs to the boundary and the exit state. -/
theorem region4_wp (d : Dev nD) (bd : Option (𝒱).V)
    (hv : ∀ u ∈ bd, (𝒱).lt (.inr ((Pipeline.pin (pcfgs (F := F)) adm 2).tripCount + 1)) u)
    {α : Type} (k : PUnit → Prog (TpuEff nD τ sig (Elt F) (ΛP (F := F)) .tc) α) (Q : α → sProp 𝕄) :
    iprop((iprop(boundary (d : Thread nD τ) ∗ (R4 x y n lv hlv).post d) -∗ wp frame (wpE (D (F := F)) 𝒱 (d : Thread nD τ) bd) Set.univ (k ⟨⟩) Q)
        ∗ boundary (d : Thread nD τ) ∗ (R4 x y n lv hlv).pre d ∗ levAts (K (F := F)).L lv
        ∗ Pipeline.cellsGhost (Pipeline.pin (pcfgs (F := F)) adm) EP 2 d ∗ Pipeline.toksInit (Pipeline.pin (pcfgs (F := F)) adm) EP 2 d)
      ⊢ wp frame (wpE (D (F := F)) 𝒱 (d : Thread nD τ) bd) Set.univ (.op (.customCall (Pipeline.entry 2) ()) k) Q :=
  Pipeline.RegionSeg.wp (pcfgs (F := F)) adm (pdatsL x y n) none cellOf_inj EP defs₀ 𝒱₀ (K (F := F)).L lv (R4 x y n lv hlv) d bd hv k Q

/-- The entry and exit states, spelt out. -/
theorem R4_pre (d : Dev nD) : (R4 x y n lv hlv).pre d
    = iprop((((d : Thread nD τ).loc main_v11) ↦{fullShare} x) ∗ (((d : Thread nD τ).loc main_v12) ↦{fullShare} y) ∗ owesTc (F := F) n d) := rfl
theorem R4_post (d : Dev nD) : (R4 x y n lv hlv).post d
    = iprop((((d : Thread nD τ).loc main_v11) ↦{fullShare} x) ∗ (((d : Thread nD τ).loc main_v12) ↦{fullShare} (fun _ => k4_pay1 x)) ∗ owesTc (F := F) n d) := rfl

end Seg

end Cert.KernelIdeal.RegionLoss

end
-- ==== Proof.RegionLift.lean ====
/-
  Entering a TensorCore region from @main of the whole program.

  A region's rule is proved at the pipelines' own body table: from the region boundary, the region's entry state, the
  level facts and its pipeline's staging cells' ghost state, the call runs to the boundary and the exit state. @main of
  a program with SparseCore calls runs at the extended table; a program of the inner signature, lifted, runs there as it
  runs inside. So the call, met in @main, is the inner rule lifted, and the rest of @main continues from the exit state.
-/
import proofs.«203895_g52347061404180_cont_8to1_c_859_34_alg».proof.Proof.RegionLoss
noncomputable section
namespace Cert.KernelIdeal.RegionLift
open Cert.KernelIdeal Cert.KernelIdeal.Gen Cert.KernelIdeal.KCommon
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.RegionLoss (adm)

variable {F : FTy → Type} [FloatOps F]
local notation "𝕄" => MT nD τ sig (HIx 2) (Elt F) ℕ UU ℕ

/-- A TensorCore region's rule at the pipelines' own body table, from its thread states `pre` / `post`. -/
def RegionRule (p : Fin 3) (pre post : Dev nD → sProp 𝕄) : Prop :=
  ∀ (d : Dev nD) {α : Type} (k : PUnit → Prog (TpuEff nD τ sig (Elt F) (ΛP (F := F)) .tc) α) (Q : α → sProp 𝕄),
    iprop((iprop(boundary (d.tc : Thread nD τ) ∗ post d) -∗ wp frame (wpE (D (F := F)) 𝒱 (d.tc : Thread nD τ) none) Set.univ (k ⟨⟩) Q)
        ∗ boundary (d.tc : Thread nD τ) ∗ pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE (D (F := F)) 𝒱 (d.tc : Thread nD τ) none) Set.univ (.op (.customCall (Pipeline.entry p) ()) k) Q

set_option backward.isDefEq.respectTransparency.types false in
set_option maxHeartbeats 4000000 in
/-- A region entered from @main of the whole program: the inner rule lifted to the extended body table, the rest of
    @main continuing from the region's `post`. -/
theorem region_lift (p : Fin 3) (pre post : Dev nD → sProp 𝕄) (hR : RegionRule (F := F) p pre post) (d : Dev nD) {α : Type}
    (k' : PUnit → Prog (TpuEff nD τ sig (Elt F) (SparseCore.Sig (ΛP (F := F)) 2) .tc) α) (Q : α → sProp 𝕄) :
    iprop(boundary (d.tc : Thread nD τ) ∗ pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d
        ∗ (iprop(boundary (d.tc : Thread nD τ) ∗ post d) -∗ wp frame (wpE ((K (F := F)).defs (D (F := F))) 𝒱 (d.tc : Thread nD τ) none) Set.univ (k' ⟨⟩) Q))
      ⊢ wp frame (wpE ((K (F := F)).defs (D (F := F))) 𝒱 (d.tc : Thread nD τ) none) Set.univ
          (Prog.lift (.customCall (SparseCore.inner (Pipeline.entry p)) ()) >>= k') Q := by
  rw [wp_bind]
  have h : iprop(boundary (d.tc : Thread nD τ) ∗ pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d
        ∗ (iprop(boundary (d.tc : Thread nD τ) ∗ post d) -∗ wp frame (wpE ((K (F := F)).defs (D (F := F))) 𝒱 (d.tc : Thread nD τ) none) Set.univ (k' ⟨⟩) Q))
      ⊢ wp frame (wpE (D (F := F)) 𝒱 (d.tc : Thread nD τ) none) Set.univ
          (.op (.customCall (Pipeline.entry p) ()) (fun x => .ret x) : Prog (TpuEff nD τ sig (Elt F) (ΛP (F := F)) .tc) PUnit)
          (fun a => wp frame (wpE ((K (F := F)).defs (D (F := F))) 𝒱 (d.tc : Thread nD τ) none) Set.univ (k' a) Q) := by
    iintro ⟨Hb, Hpre, Hlv, Hc, Ht, Hk⟩
    iapply (hR d (fun x => .ret x) (fun a => wp frame (wpE ((K (F := F)).defs (D (F := F))) 𝒱 (d.tc : Thread nD τ) none) Set.univ (k' a) Q))
    isplitl [Hk]
    · iintro H
      rw [wp_ret]
      imodintro
      iapply Hk
      iexact H
    isplitl [Hb]; · iexact Hb
    isplitl [Hpre]; · iexact Hpre
    isplitl [Hlv]; · iexact Hlv
    isplitl [Hc]; · iexact Hc
    iexact Ht
  exact h.trans ((K (F := F)).wp_liftProg (D (F := F)) 𝒱 (d.tc : Thread nD τ) Set.univ none
    (Prog.lift (.customCall (Pipeline.entry p) ()) : Prog (TpuEff nD τ sig (Elt F) (ΛP (F := F)) .tc) PUnit) _)

end Cert.KernelIdeal.RegionLift
end
-- ==== Proof.RegionPack.lean ====
/-
  THE FIRST PACKING CALL AS A REGION OF @main. The call reads a feature table transposed to [64, 100000] (`main_v5`)
  through two input windows — column blocks g and g + 4 of 12544 columns at grid point g < 4, the last of the second
  window clipped at column 100000 — and writes the [50176, 128] array `main_v6` in four blocks of 12544 rows: the two
  loaded blocks transposed, side by side. What a clipped block's staging buffer holds past the table's edge nothing
  names, and the stored block depends on it (only in entries no later stage reads), so the pipeline's proof data is
  relational: the body leaves the input buffers as found and the output buffer at the packing of two fetched blocks,
  each fetched into some prior contents. This module states the call's body (two loads, one store), the proof data, the
  body obligation and the region as a segment of @main: entered from the transposed table, the output array and what
  the TensorCore then owes the sequencers; left with the table as it was and the output array at some contents the
  four write-backs may leave.
-/
import proofs.«203895_g52347061404180_cont_8to1_c_859_34_alg».proof.Proof.KCommon
import proofs.«203895_g52347061404180_cont_8to1_c_859_34_alg».proof.Proof.Gen.KernelIdeal.Launch
import proofs.«203895_g52347061404180_cont_8to1_c_859_34_alg».proof.Proof.Gen.KernelIdeal.Points
import proofs.«203895_g52347061404180_cont_8to1_c_859_34_alg».proof.Proof.Gen.KernelIdeal.Skeleton
import Idealize.ShloMosaic.Lib.Pipeline.Value
import proofs.«203895_g52347061404180_cont_8to1_c_859_34_alg».proof.Proof.RegionLoss
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RegionPack

open Cert.KernelIdeal Cert.KernelIdeal.Gen Cert.KernelIdeal.KCommon
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

open Cert.KernelIdeal.RegionLoss (adm recTc owesTc Otc_none)

/-! ## The body of the packing call: two loads of its input blocks, one store of their packing -/

theorem hz2 : (![0, 0] : Fin 2 → Nat) = fun _ => 0 := funext fun a => by fin_cases a <;> rfl

abbrev r0_in : Rect S64x12544 := Rect.unit (s := S64x12544) ![0, 0] S64x12544.size inb_S64x12544_S64x12544_0_0
abbrev r0_out : Rect S12544x128 := Rect.unit (s := S12544x128) ![0, 0] S12544x128.size inb_S12544x128_S12544x128_0_0

/-- What the body leaves in the output window's buffer, from the two input buffers' contents: its one store as a piece. -/
def out0_2 (x0 x1 : Vec F S64x12544 .f32) : Vec F S12544x128 .f32 :=
  View.canon [⟨r0_out, k0_pay1 (View.ld x0 r0_in) (View.ld x1 r0_in)⟩]

/-- The store covers the buffer. -/
theorem cover0_2 (p0 : r0_out.shape.Idx → Elt F .f32) (y : S12544x128.Idx) :
    ∃ pc ∈ ([⟨r0_out, p0⟩] : List (View.Piece (Elt F) S12544x128 .f32)), y ∈ pc.1.set :=
  ⟨_, List.mem_singleton_self _, View.mem_set_unit_zero hz2 inb_S12544x128_S12544x128_0_0 y⟩

/-- The store's payload is the packing of the two buffers' contents. -/
theorem out0_2_eq (x0 x1 : Vec F S64x12544 .f32) : out0_2 x0 x1 = k0_pay1 x0 x1 := by
  unfold out0_2
  rw [View.canon_unit_zero hz2]
  simp only [View.ld_unit_zero (S := S64x12544) hz2]

set_option maxHeartbeats 1000000 in
/-- The body on whole staging memrefs: the inputs' at read contents `x0`, `x1`, the output's at anything, to the
    inputs' as they were and the output's at `out0_2 x0 x1`. -/
theorem sound_kernel0 (c : Dev nD) (E : Set ℕ) (i : grid0.Coords)
    (arg1 : Memref sig .tc .vmem S64x12544 .f32) (harg1 : arg1.IsWhole)
    (arg2 : Memref sig .tc .vmem S64x12544 .f32) (harg2 : arg2.IsWhole)
    (arg3 : Memref sig .tc .vmem S12544x128 .f32) (harg3 : arg3.IsWhole)
    (x0 x1 : Vec F S64x12544 .f32) (Kp : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ Kp ⟨⟩))
      ⊢ wp frame (wpE (defs₀ (F := F)) Variants.none c none) E (cc0__pack_body i arg1 harg1 arg2 harg2 arg3 harg3) Kp := by
  simp only [cc0__pack_body_eq_skeleton]; unfold cc0__pack_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the packing call's pipeline: the transposed table at `x5`, the output array at `y6` on entry,
    the core owing what it owes after `n` SparseCore calls. The second input window's last block runs past the table's
    edge; what its staging buffer holds there nothing names, and the output block computed from it depends on those
    words: the data is a RELATION between what a buffer held and what the body leaves. -/

section Region

variable (x5 : Vec F S64x100000 .f32) (y6 : Vec F S50176x128 .f32) (n : ℕ)

/-- The first input window's block at a point, read off the transposed table (its part inside the table). -/
def blk0_0 (c : Dev nD) (t : Fin cfg0.N) : ((cfg0.win 0).xblock (cfg0.grid.coords t)).Idx → Elt F (cfg0.win 0).elt :=
  ((cfg0.win 0).blk t).view.read (Elt F) (show Buf (Elt F) ((cfg0.win 0).arr.view.loc (c : Thread nD τ)) from x5)
/-- The second input window's. -/
def blk0_1 (c : Dev nD) (t : Fin cfg0.N) : ((cfg0.win 1).xblock (cfg0.grid.coords t)).Idx → Elt F (cfg0.win 1).elt :=
  ((cfg0.win 1).blk t).view.read (Elt F) (show Buf (Elt F) ((cfg0.win 1).arr.view.loc (c : Thread nD τ)) from x5)

/-- What the first input window's staging buffer holds once its block has landed in it, if it held `d`. -/
def fet0_0 (c : Dev nD) (t : Fin cfg0.N) (d : (cfg0.win 0).block.Idx → Elt F (cfg0.win 0).elt) :
    (cfg0.win 0).block.Idx → Elt F (cfg0.win 0).elt :=
  (cfg0.win 0).fill (cfg0.grid.coords t) d (blk0_0 x5 c t)
/-- The second input window's. -/
def fet0_1 (c : Dev nD) (t : Fin cfg0.N) (d : (cfg0.win 1).block.Idx → Elt F (cfg0.win 1).elt) :
    (cfg0.win 1).block.Idx → Elt F (cfg0.win 1).elt :=
  (cfg0.win 1).fill (cfg0.grid.coords t) d (blk0_1 x5 c t)

/-- The proof data: both input windows on the transposed table, at half the share each; the body leaves the inputs'
    buffers as it found them and the output's at the packing of two fetched blocks; the invariant the scoped buffers
    no window stages; the core owing, throughout, the start signals of the SparseCore calls still to come. -/
def rdat0 (c : Dev nD) : Pipeline.RDat τ (Elt F) (HIx 2) ℕ UU ℕ cfg0 c where
  A w := match w with
    | ⟨0, _⟩ => x5
    | ⟨1, _⟩ => x5
    | ⟨2, _⟩ => y6
  after w t := match w with
    | ⟨0, _⟩ => fun Y X => X = Y
    | ⟨1, _⟩ => fun Y X => X = Y
    | ⟨2, _⟩ => fun _ X => ∃ d0 d1, X = out0_2 (fet0_0 x5 c t d0) (fet0_1 x5 c t d1)
  Φ _ := Pipeline.scopedRest (Ix := HIx 2) (Name := ℕ) (U := UU) (Lvl := ℕ) (Val := Elt F) spec0 c
  q w := match w with
    | ⟨0, _⟩ => fullShare.left
    | ⟨1, _⟩ => fullShare.right
    | ⟨2, _⟩ => fullShare
  owed _ := (K (F := F)).Otc c n
  recorded _ := recTc (F := F) n c

theorem after0_0 (c : Dev nD) (t : Fin cfg0.N) (Y X) : (rdat0 x5 y6 n c).after 0 t Y X ↔ X = Y := Iff.rfl
theorem after0_1 (c : Dev nD) (t : Fin cfg0.N) (Y X) : (rdat0 x5 y6 n c).after 1 t Y X ↔ X = Y := Iff.rfl
theorem after0_2 (c : Dev nD) (t : Fin cfg0.N) (Y X) :
    (rdat0 x5 y6 n c).after 2 t Y X ↔ ∃ d0 d1, X = out0_2 (fet0_0 x5 c t d0) (fet0_1 x5 c t d1) := Iff.rfl

/-- What the body finds in an input window's buffer: the block just fetched, anything past the table's edge. -/
theorem finds0_0 (c : Dev nD) (t : Fin cfg0.N) (Y) : (rdat0 x5 y6 n c).Finds 0 t Y ↔ ∃ d, Y = fet0_0 x5 c t d := by
  rw [(rdat0 x5 y6 n c).finds_of_fetch (fetch0_0 t)]; exact Iff.rfl
theorem finds0_1 (c : Dev nD) (t : Fin cfg0.N) (Y) : (rdat0 x5 y6 n c).Finds 1 t Y ↔ ∃ d, Y = fet0_1 x5 c t d := by
  rw [(rdat0 x5 y6 n c).finds_of_fetch (fetch0_1 t)]; exact Iff.rfl

/-! ## The body obligation -/

set_option maxHeartbeats 1000000 in
theorem body_obligation0 (c : Dev nD) :
    (rdat0 (F := F) x5 y6 n c).BodyObligation (defs₀ (F := F)) Variants.none none Set.univ := fun t Y hY => by
  obtain ⟨d0, h0⟩ := (finds0_0 x5 y6 n c t _).mp (hY 0)
  obtain ⟨d1, h1⟩ := (finds0_1 x5 y6 n c t _).mp (hY 1)
  rw [bigSep_W0, bigSep_W0]
  show _ ⊢ wp frame (wpE (defs₀ (F := F)) Variants.none c none) Set.univ (bodyAt0 t) _
  unfold bodyAt0
  rw [show (rdat0 x5 y6 n c).Φ t.succ = (rdat0 x5 y6 n c).Φ t.castSucc from rfl,
    show (rdat0 x5 y6 n c).owesAt none t.succ = (rdat0 x5 y6 n c).owesAt none t.castSucc from rfl]
  iintro ⟨HΦ, Ho, H0, H1, H2⟩
  iapply (sound_kernel0 c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact (after0_0 x5 y6 n c t _ _).mpr rfl
    iexact H0
  isplitl [H1]
  · iexists (Y 1); isplitr; · ipureintro; exact (after0_1 x5 y6 n c t _ _).mpr rfl
    iexact H1
  iexists (out0_2 (Y 0) (Y 1)); isplitr
  · ipureintro; exact (after0_2 x5 y6 n c t _ _).mpr ⟨d0, d1, by rw [h0, h1]⟩
  iexact H2

end Region

/-! ## The region -/

section Seg

variable (x5 : Vec F S64x100000 .f32) (y6 : Vec F S50176x128 .f32) (n : ℕ)
variable (lv : GSem nD τ sig → HIx 2 → ℕ) (hlv : (K (F := F)).Refines lv)

/-- Relational proof data that says nothing: for the pipelines this region does not run. -/
def rdatNone {cfg : Pipeline.Cfg sig Λ₀} (c : Dev nD) : Pipeline.RDat τ (Elt F) (HIx 2) ℕ UU ℕ cfg c where
  A _ := Classical.arbitrary _
  after _ _ _ _ := True
  Φ _ := iprop(emp)
  q _ := fullShare
  owed _ := 0

/-- Every pipeline's proof data: the packing call's, nothing said of the other two. -/
def rdatsP : (p : Fin 3) → (c : Dev nD) → Pipeline.RDat τ (Elt F) (HIx 2) ℕ UU ℕ (Pipeline.pin (pcfgs (F := F)) adm p) c
  | ⟨0, _⟩ => fun c => rdat0 x5 y6 n c
  | ⟨1, _⟩ => fun c => rdatNone c
  | ⟨2, _⟩ => fun c => rdatNone c

/-- What the packing call may leave in its output array: the entry contents with each point's block overwritten, in
    point order, by what the body may have left in the staging buffer there. -/
abbrev Packs0 (c : Dev nD) (p : Vec F S50176x128 .f32) : Prop := (rdat0 x5 y6 n c).ArrAt 2 cfg0.N p

/-- A whole array's points-to through its memref is the buffer's. -/
theorem pts_whole (c : Dev nD) (b : Ref sig .tc) (q : PosShare TreeShare) (f : b.ty.Contents (Elt F)) :
    (((View.whole b).loc (c : Thread nD τ) ↦[(View.whole b).set]{q} f : sProp 𝕄))
      = (((c : Thread nD τ).loc b) ↦{q} f) := by
  rw [View.set_whole]

/-- The pipeline's arrays, one by one: the transposed table twice, at half the share each, and the output array. -/
theorem arrays0_eq (c : Dev nD)
    (F0 : (w : Fin cfg0.W) → Buf (Elt F) ((cfg0.win w).arr.view.loc (c : Thread nD τ)))
    (f0 f1 : Vec F S64x100000 .f32) (f2 : Vec F S50176x128 .f32) (h0 : F0 0 = f0) (h1 : F0 1 = f1) (h2 : F0 2 = f2) :
    ((rdat0 x5 y6 n c).arrays F0 : sProp 𝕄)
      = iprop((((c : Thread nD τ).loc main_v5) ↦{fullShare.left} f0) ∗ (((c : Thread nD τ).loc main_v5) ↦{fullShare.right} f1)
          ∗ (((c : Thread nD τ).loc main_v6) ↦{fullShare} f2)) := by
  subst h0 h1 h2
  unfold Pipeline.RDat.arrays
  rw [bigSep_W0]
  show iprop(((View.whole main_v5).loc (c : Thread nD τ) ↦[(View.whole main_v5).set]{fullShare.left} F0 0)
      ∗ ((View.whole main_v5).loc (c : Thread nD τ) ↦[(View.whole main_v5).set]{fullShare.right} F0 1)
      ∗ ((View.whole main_v6).loc (c : Thread nD τ) ↦[(View.whole main_v6).set]{fullShare} F0 2)) = _
  rw [pts_whole, pts_whole, pts_whole]

/-- The pipeline's arrays after the write-backs: each at some contents it may then hold. -/
theorem arraysAt0_eq (c : Dev nD) :
    ((rdat0 x5 y6 n c).arraysAt cfg0.N : sProp 𝕄)
      = iprop((∃ G, ⌜(rdat0 x5 y6 n c).ArrAt 0 cfg0.N G⌝ ∗ (((c : Thread nD τ).loc main_v5) ↦{fullShare.left} G))
          ∗ (∃ G, ⌜(rdat0 x5 y6 n c).ArrAt 1 cfg0.N G⌝ ∗ (((c : Thread nD τ).loc main_v5) ↦{fullShare.right} G))
          ∗ (∃ G, ⌜(rdat0 x5 y6 n c).ArrAt 2 cfg0.N G⌝ ∗ (((c : Thread nD τ).loc main_v6) ↦{fullShare} G))) := by
  unfold Pipeline.RDat.arraysAt
  rw [bigSep_W0]
  show iprop((∃ G, ⌜(rdat0 x5 y6 n c).ArrAt 0 cfg0.N G⌝ ∗ ((View.whole main_v5).loc (c : Thread nD τ) ↦[(View.whole main_v5).set]{fullShare.left} G))
      ∗ (∃ G, ⌜(rdat0 x5 y6 n c).ArrAt 1 cfg0.N G⌝ ∗ ((View.whole main_v5).loc (c : Thread nD τ) ↦[(View.whole main_v5).set]{fullShare.right} G))
      ∗ (∃ G, ⌜(rdat0 x5 y6 n c).ArrAt 2 cfg0.N G⌝ ∗ ((View.whole main_v6).loc (c : Thread nD τ) ↦[(View.whole main_v6).set]{fullShare} G))) = _
  simp only [View.set_whole] <;> rfl

set_option backward.isDefEq.respectTransparency.types false in
/-- The packing call as a region of @main on the TensorCore: entered from the transposed table at `x5`, the output
    array at `y6` and the core's debts after `n` SparseCore calls; left with the table as it was, the output array at
    some contents the pipeline may leave, and the same debts. -/
def R0 : Pipeline.RDat.RegionSeg (pcfgs (F := F)) adm (rdatsP x5 y6 n) none defs₀ 𝒱₀ (K (F := F)).L lv 0 where
  win := winFacts₀0
  block_pos := block_pos0
  stage_whole := stage_whole0
  K := PEmpty
  osem k := k.elim
  ho := Pipeline.OwnSemFacts.none _
  hbody c := body_obligation0 x5 y6 n c
  hwaits c := Pipeline.RDat.cellsWaits_intro (Pipeline.pin (pcfgs (F := F)) adm) (rdatsP x5 y6 n) none 0 c
    fun w s t => (K (F := F)).mayWait_none _ (Otc_none n c) lv hlv
  pre c := iprop((((c : Thread nD τ).loc main_v5) ↦{fullShare} x5) ∗ (((c : Thread nD τ).loc main_v6) ↦{fullShare} y6) ∗ owesTc (F := F) n c)
  post c := iprop((((c : Thread nD τ).loc main_v5) ↦{fullShare} x5)
    ∗ (∃ p, ⌜Packs0 x5 y6 n c p⌝ ∗ (((c : Thread nD τ).loc main_v6) ↦{fullShare} p)) ∗ owesTc (F := F) n c)
  X c := iprop(emp)
  Y c := iprop(emp)
  Z c := iprop(emp)
  hentry c := by
    rw [Pipeline.ownSems0_none]
    have harr : ((rdatsP x5 y6 n 0 c).arrays (rdatsP x5 y6 n 0 c).A : sProp 𝕄) = _ :=
      arrays0_eq x5 y6 n c (rdat0 x5 y6 n c).A x5 x5 y6 rfl rfl rfl
    iintro ⟨⟨H5, H6, HO⟩, -, -⟩
    ihave H5' := (pointsTo_share (PosShare.mem_left_op_right fullShare)).1 $$ H5
    icases H5' with ⟨H5l, H5r⟩
    imodintro
    isplitl [H5l H5r H6]
    · iapply (Entails.of_eq harr.symm)
      isplitl [H5l]; · iexact H5l
      isplitl [H5r]; · iexact H5r
      iexact H6
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr; · ipureintro; exact fun p hp => Or.inl (hW p hp)
      iexact HO
    isplitr <;> iempintro
  hin c := by
    rw [show (rdatsP x5 y6 n 0 c).Φ 0 = Pipeline.scopedRest (Ix := HIx 2) (Name := ℕ) (U := UU) (Lvl := ℕ) (Val := Elt F) spec0 c from rfl]
    iintro ⟨-, -, Hr⟩
    iexact Hr
  hout c := by
    rw [Pipeline.ownSems0_none, show (rdatsP x5 y6 n 0 c).Φ (Fin.last _) = Pipeline.scopedRest (Ix := HIx 2) (Name := ℕ) (U := UU) (Lvl := ℕ) (Val := Elt F) spec0 c from rfl]
    iintro Hr
    isplitr; · iempintro
    isplitr; · iempintro
    iexact Hr
  hexit c := by
    have harr : ((rdatsP x5 y6 n 0 c).arraysAt (Pipeline.pin (pcfgs (F := F)) adm 0).N : sProp 𝕄) = _ := arraysAt0_eq x5 y6 n c
    iintro ⟨Ha, HO, -, -⟩
    ihave Ha' := (Entails.of_eq harr) $$ Ha
    icases Ha' with ⟨⟨%G0, %hG0, H5l⟩, ⟨%G1, %hG1, H5r⟩, ⟨%G2, %hG2, H6⟩⟩
    rw [(rdat0 x5 y6 n c).ArrAt_in 0 rfl] at hG0
    rw [(rdat0 x5 y6 n c).ArrAt_in 1 rfl] at hG1
    obtain rfl : G0 = x5 := hG0
    obtain rfl : G1 = G0 := hG1
    imodintro
    isplitl [H5l H5r]
    · iapply (pointsTo_share (PosShare.mem_left_op_right fullShare)).2
      isplitl [H5l] <;> iassumption
    isplitl [H6]
    · iexists G2; isplitr; · ipureintro; exact hG2
      iexact H6
    unfold Pipeline.RDat.owesAt Pipeline.owesWithin
    icases HO with ⟨%W, %hW, HO⟩; iexists W; isplitr
    · ipureintro
      intro p hp
      rcases hW hp with h | ⟨w, s, rfl⟩
      · exact h
      · show (K (F := F)).lev _ none ≤ _
        rw [SparseCore.Cfg.lev_none]; exact Nat.zero_le _
    iexact HO

set_option backward.isDefEq.respectTransparency.types false in
/-- The region's rule as @main meets it. -/
theorem region0_wp (d : Dev nD) (bd : Option (𝒱).V)
    (hv : ∀ u ∈ bd, (𝒱).lt (.inr ((Pipeline.pin (pcfgs (F := F)) adm 0).tripCount + 1)) u)
    {α : Type} (k : PUnit → Prog (TpuEff nD τ sig (Elt F) (ΛP (F := F)) .tc) α) (Q : α → sProp 𝕄) :
    iprop((iprop(boundary (d : Thread nD τ) ∗ (R0 x5 y6 n lv hlv).post d) -∗ wp frame (wpE (D (F := F)) 𝒱 (d : Thread nD τ) bd) Set.univ (k ⟨⟩) Q)
        ∗ boundary (d : Thread nD τ) ∗ (R0 x5 y6 n lv hlv).pre d ∗ levAts (K (F := F)).L lv
        ∗ Pipeline.cellsGhost (Pipeline.pin (pcfgs (F := F)) adm) EP 0 d ∗ Pipeline.toksInit (Pipeline.pin (pcfgs (F := F)) adm) EP 0 d)
      ⊢ wp frame (wpE (D (F := F)) 𝒱 (d : Thread nD τ) bd) Set.univ (.op (.customCall (Pipeline.entry 0) ()) k) Q :=
  Pipeline.RDat.RegionSeg.wp (pcfgs (F := F)) adm (rdatsP x5 y6 n) none cellOf_inj EP defs₀ 𝒱₀ (K (F := F)).L lv (R0 x5 y6 n lv hlv) d bd hv k Q

/-- The entry and exit states, spelt out. -/
theorem R0_pre (d : Dev nD) : (R0 x5 y6 n lv hlv).pre d
    = iprop((((d : Thread nD τ).loc main_v5) ↦{fullShare} x5) ∗ (((d : Thread nD τ).loc main_v6) ↦{fullShare} y6) ∗ owesTc (F := F) n d) := rfl
theorem R0_post (d : Dev nD) : (R0 x5 y6 n lv hlv).post d
    = iprop((((d : Thread nD τ).loc main_v5) ↦{fullShare} x5)
        ∗ (∃ p, ⌜Packs0 x5 y6 n d p⌝ ∗ (((d : Thread nD τ).loc main_v6) ↦{fullShare} p)) ∗ owesTc (F := F) n d) := rfl

end Seg

end Cert.KernelIdeal.RegionPack

end
-- ==== Proof.RegionPack2.lean ====
/-
  THE SECOND PACKING CALL AS A REGION OF @main. The call reads a feature table transposed to [64, 100000] (`main_v8`)
  through two input windows — column blocks g and g + 4 of 12544 columns at grid point g < 4, the last of the second
  window clipped at column 100000 — and writes the [50176, 128] array `main_v9` in four blocks of 12544 rows: the two
  loaded blocks transposed, side by side. What a clipped block's staging buffer holds past the table's edge nothing
  names, and the stored block depends on it (only in entries no later stage reads), so the pipeline's proof data is
  relational: the body leaves the input buffers as found and the output buffer at the packing of two fetched blocks,
  each fetched into some prior contents. This module states the call's body (two loads, one store), the proof data, the
  body obligation and the region as a segment of @main: entered from the transposed table, the output array and what
  the TensorCore then owes the sequencers; left with the table as it was and the output array at some contents the
  four write-backs may leave.
-/
import proofs.«203895_g52347061404180_cont_8to1_c_859_34_alg».proof.Proof.KCommon
import proofs.«203895_g52347061404180_cont_8to1_c_859_34_alg».proof.Proof.Gen.KernelIdeal.Launch
import proofs.«203895_g52347061404180_cont_8to1_c_859_34_alg».proof.Proof.Gen.KernelIdeal.Points
import proofs.«203895_g52347061404180_cont_8to1_c_859_34_alg».proof.Proof.Gen.KernelIdeal.Skeleton
import Idealize.ShloMosaic.Lib.Pipeline.Value
import proofs.«203895_g52347061404180_cont_8to1_c_859_34_alg».proof.Proof.RegionLoss
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RegionPack2

open Cert.KernelIdeal Cert.KernelIdeal.Gen Cert.KernelIdeal.KCommon
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

open Cert.KernelIdeal.RegionLoss (adm recTc owesTc Otc_none)

/-! ## The body of the packing call: two loads of its input blocks, one store of their packing -/

theorem hz2 : (![0, 0] : Fin 2 → Nat) = fun _ => 0 := funext fun a => by fin_cases a <;> rfl

abbrev r0_in : Rect S64x12544 := Rect.unit (s := S64x12544) ![0, 0] S64x12544.size inb_S64x12544_S64x12544_0_0
abbrev r0_out : Rect S12544x128 := Rect.unit (s := S12544x128) ![0, 0] S12544x128.size inb_S12544x128_S12544x128_0_0

/-- What the body leaves in the output window's buffer, from the two input buffers' contents: its one store as a piece. -/
def out0_2 (x0 x1 : Vec F S64x12544 .f32) : Vec F S12544x128 .f32 :=
  View.canon [⟨r0_out, k2_pay1 (View.ld x0 r0_in) (View.ld x1 r0_in)⟩]

/-- The store covers the buffer. -/
theorem cover0_2 (p0 : r0_out.shape.Idx → Elt F .f32) (y : S12544x128.Idx) :
    ∃ pc ∈ ([⟨r0_out, p0⟩] : List (View.Piece (Elt F) S12544x128 .f32)), y ∈ pc.1.set :=
  ⟨_, List.mem_singleton_self _, View.mem_set_unit_zero hz2 inb_S12544x128_S12544x128_0_0 y⟩

/-- The store's payload is the packing of the two buffers' contents. -/
theorem out0_2_eq (x0 x1 : Vec F S64x12544 .f32) : out0_2 x0 x1 = k2_pay1 x0 x1 := by
  unfold out0_2
  rw [View.canon_unit_zero hz2]
  simp only [View.ld_unit_zero (S := S64x12544) hz2]

set_option maxHeartbeats 1000000 in
/-- The body on whole staging memrefs: the inputs' at read contents `x0`, `x1`, the output's at anything, to the
    inputs' as they were and the output's at `out0_2 x0 x1`. -/
theorem sound_kernel0 (c : Dev nD) (E : Set ℕ) (i : grid2.Coords)
    (arg1 : Memref sig .tc .vmem S64x12544 .f32) (harg1 : arg1.IsWhole)
    (arg2 : Memref sig .tc .vmem S64x12544 .f32) (harg2 : arg2.IsWhole)
    (arg3 : Memref sig .tc .vmem S12544x128 .f32) (harg3 : arg3.IsWhole)
    (x0 x1 : Vec F S64x12544 .f32) (Kp : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ Kp ⟨⟩))
      ⊢ wp frame (wpE (defs₀ (F := F)) Variants.none c none) E (cc2__pack_body i arg1 harg1 arg2 harg2 arg3 harg3) Kp := by
  simp only [cc2__pack_body_eq_skeleton]; unfold cc2__pack_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the packing call's pipeline: the transposed table at `x8`, the output array at `y9` on entry,
    the core owing what it owes after `n` SparseCore calls. The second input window's last block runs past the table's
    edge; what its staging buffer holds there nothing names, and the output block computed from it depends on those
    words: the data is a RELATION between what a buffer held and what the body leaves. -/

section Region

variable (x8 : Vec F S64x100000 .f32) (y9 : Vec F S50176x128 .f32) (n : ℕ)

/-- The first input window's block at a point, read off the transposed table (its part inside the table). -/
def blk0_0 (c : Dev nD) (t : Fin cfg2.N) : ((cfg2.win 0).xblock (cfg2.grid.coords t)).Idx → Elt F (cfg2.win 0).elt :=
  ((cfg2.win 0).blk t).view.read (Elt F) (show Buf (Elt F) ((cfg2.win 0).arr.view.loc (c : Thread nD τ)) from x8)
/-- The second input window's. -/
def blk0_1 (c : Dev nD) (t : Fin cfg2.N) : ((cfg2.win 1).xblock (cfg2.grid.coords t)).Idx → Elt F (cfg2.win 1).elt :=
  ((cfg2.win 1).blk t).view.read (Elt F) (show Buf (Elt F) ((cfg2.win 1).arr.view.loc (c : Thread nD τ)) from x8)

/-- What the first input window's staging buffer holds once its block has landed in it, if it held `d`. -/
def fet0_0 (c : Dev nD) (t : Fin cfg2.N) (d : (cfg2.win 0).block.Idx → Elt F (cfg2.win 0).elt) :
    (cfg2.win 0).block.Idx → Elt F (cfg2.win 0).elt :=
  (cfg2.win 0).fill (cfg2.grid.coords t) d (blk0_0 x8 c t)
/-- The second input window's. -/
def fet0_1 (c : Dev nD) (t : Fin cfg2.N) (d : (cfg2.win 1).block.Idx → Elt F (cfg2.win 1).elt) :
    (cfg2.win 1).block.Idx → Elt F (cfg2.win 1).elt :=
  (cfg2.win 1).fill (cfg2.grid.coords t) d (blk0_1 x8 c t)

/-- The proof data: both input windows on the transposed table, at half the share each; the body leaves the inputs'
    buffers as it found them and the output's at the packing of two fetched blocks; the invariant the scoped buffers
    no window stages; the core owing, throughout, the start signals of the SparseCore calls still to come. -/
def rdat0 (c : Dev nD) : Pipeline.RDat τ (Elt F) (HIx 2) ℕ UU ℕ cfg2 c where
  A w := match w with
    | ⟨0, _⟩ => x8
    | ⟨1, _⟩ => x8
    | ⟨2, _⟩ => y9
  after w t := match w with
    | ⟨0, _⟩ => fun Y X => X = Y
    | ⟨1, _⟩ => fun Y X => X = Y
    | ⟨2, _⟩ => fun _ X => ∃ d0 d1, X = out0_2 (fet0_0 x8 c t d0) (fet0_1 x8 c t d1)
  Φ _ := Pipeline.scopedRest (Ix := HIx 2) (Name := ℕ) (U := UU) (Lvl := ℕ) (Val := Elt F) spec2 c
  q w := match w with
    | ⟨0, _⟩ => fullShare.left
    | ⟨1, _⟩ => fullShare.right
    | ⟨2, _⟩ => fullShare
  owed _ := (K (F := F)).Otc c n
  recorded _ := recTc (F := F) n c

theorem after0_0 (c : Dev nD) (t : Fin cfg2.N) (Y X) : (rdat0 x8 y9 n c).after 0 t Y X ↔ X = Y := Iff.rfl
theorem after0_1 (c : Dev nD) (t : Fin cfg2.N) (Y X) : (rdat0 x8 y9 n c).after 1 t Y X ↔ X = Y := Iff.rfl
theorem after0_2 (c : Dev nD) (t : Fin cfg2.N) (Y X) :
    (rdat0 x8 y9 n c).after 2 t Y X ↔ ∃ d0 d1, X = out0_2 (fet0_0 x8 c t d0) (fet0_1 x8 c t d1) := Iff.rfl

/-- What the body finds in an input window's buffer: the block just fetched, anything past the table's edge. -/
theorem finds0_0 (c : Dev nD) (t : Fin cfg2.N) (Y) : (rdat0 x8 y9 n c).Finds 0 t Y ↔ ∃ d, Y = fet0_0 x8 c t d := by
  rw [(rdat0 x8 y9 n c).finds_of_fetch (fetch2_0 t)]; exact Iff.rfl
theorem finds0_1 (c : Dev nD) (t : Fin cfg2.N) (Y) : (rdat0 x8 y9 n c).Finds 1 t Y ↔ ∃ d, Y = fet0_1 x8 c t d := by
  rw [(rdat0 x8 y9 n c).finds_of_fetch (fetch2_1 t)]; exact Iff.rfl

/-! ## The body obligation -/

set_option maxHeartbeats 1000000 in
theorem body_obligation0 (c : Dev nD) :
    (rdat0 (F := F) x8 y9 n c).BodyObligation (defs₀ (F := F)) Variants.none none Set.univ := fun t Y hY => by
  obtain ⟨d0, h0⟩ := (finds0_0 x8 y9 n c t _).mp (hY 0)
  obtain ⟨d1, h1⟩ := (finds0_1 x8 y9 n c t _).mp (hY 1)
  rw [bigSep_W2, bigSep_W2]
  show _ ⊢ wp frame (wpE (defs₀ (F := F)) Variants.none c none) Set.univ (bodyAt2 t) _
  unfold bodyAt2
  rw [show (rdat0 x8 y9 n c).Φ t.succ = (rdat0 x8 y9 n c).Φ t.castSucc from rfl,
    show (rdat0 x8 y9 n c).owesAt none t.succ = (rdat0 x8 y9 n c).owesAt none t.castSucc from rfl]
  iintro ⟨HΦ, Ho, H0, H1, H2⟩
  iapply (sound_kernel0 c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact (after0_0 x8 y9 n c t _ _).mpr rfl
    iexact H0
  isplitl [H1]
  · iexists (Y 1); isplitr; · ipureintro; exact (after0_1 x8 y9 n c t _ _).mpr rfl
    iexact H1
  iexists (out0_2 (Y 0) (Y 1)); isplitr
  · ipureintro; exact (after0_2 x8 y9 n c t _ _).mpr ⟨d0, d1, by rw [h0, h1]⟩
  iexact H2

end Region

/-! ## The region -/

section Seg

variable (x8 : Vec F S64x100000 .f32) (y9 : Vec F S50176x128 .f32) (n : ℕ)
variable (lv : GSem nD τ sig → HIx 2 → ℕ) (hlv : (K (F := F)).Refines lv)

/-- Relational proof data that says nothing: for the pipelines this region does not run. -/
def rdatNone {cfg : Pipeline.Cfg sig Λ₀} (c : Dev nD) : Pipeline.RDat τ (Elt F) (HIx 2) ℕ UU ℕ cfg c where
  A _ := Classical.arbitrary _
  after _ _ _ _ := True
  Φ _ := iprop(emp)
  q _ := fullShare
  owed _ := 0

/-- Every pipeline's proof data: the packing call's, nothing said of the other two. -/
def rdatsP : (p : Fin 3) → (c : Dev nD) → Pipeline.RDat τ (Elt F) (HIx 2) ℕ UU ℕ (Pipeline.pin (pcfgs (F := F)) adm p) c
  | ⟨0, _⟩ => fun c => rdatNone c
  | ⟨1, _⟩ => fun c => rdat0 x8 y9 n c
  | ⟨2, _⟩ => fun c => rdatNone c

/-- What the packing call may leave in its output array: the entry contents with each point's block overwritten, in
    point order, by what the body may have left in the staging buffer there. -/
abbrev Packs2 (c : Dev nD) (p : Vec F S50176x128 .f32) : Prop := (rdat0 x8 y9 n c).ArrAt 2 cfg2.N p

/-- A whole array's points-to through its memref is the buffer's. -/
theorem pts_whole (c : Dev nD) (b : Ref sig .tc) (q : PosShare TreeShare) (f : b.ty.Contents (Elt F)) :
    (((View.whole b).loc (c : Thread nD τ) ↦[(View.whole b).set]{q} f : sProp 𝕄))
      = (((c : Thread nD τ).loc b) ↦{q} f) := by
  rw [View.set_whole]

/-- The pipeline's arrays, one by one: the transposed table twice, at half the share each, and the output array. -/
theorem arrays0_eq (c : Dev nD)
    (F0 : (w : Fin cfg2.W) → Buf (Elt F) ((cfg2.win w).arr.view.loc (c : Thread nD τ)))
    (f0 f1 : Vec F S64x100000 .f32) (f2 : Vec F S50176x128 .f32) (h0 : F0 0 = f0) (h1 : F0 1 = f1) (h2 : F0 2 = f2) :
    ((rdat0 x8 y9 n c).arrays F0 : sProp 𝕄)
      = iprop((((c : Thread nD τ).loc main_v8) ↦{fullShare.left} f0) ∗ (((c : Thread nD τ).loc main_v8) ↦{fullShare.right} f1)
          ∗ (((c : Thread nD τ).loc main_v9) ↦{fullShare} f2)) := by
  subst h0 h1 h2
  unfold Pipeline.RDat.arrays
  rw [bigSep_W2]
  show iprop(((View.whole main_v8).loc (c : Thread nD τ) ↦[(View.whole main_v8).set]{fullShare.left} F0 0)
      ∗ ((View.whole main_v8).loc (c : Thread nD τ) ↦[(View.whole main_v8).set]{fullShare.right} F0 1)
      ∗ ((View.whole main_v9).loc (c : Thread nD τ) ↦[(View.whole main_v9).set]{fullShare} F0 2)) = _
  rw [pts_whole, pts_whole, pts_whole]

/-- The pipeline's arrays after the write-backs: each at some contents it may then hold. -/
theorem arraysAt0_eq (c : Dev nD) :
    ((rdat0 x8 y9 n c).arraysAt cfg2.N : sProp 𝕄)
      = iprop((∃ G, ⌜(rdat0 x8 y9 n c).ArrAt 0 cfg2.N G⌝ ∗ (((c : Thread nD τ).loc main_v8) ↦{fullShare.left} G))
          ∗ (∃ G, ⌜(rdat0 x8 y9 n c).ArrAt 1 cfg2.N G⌝ ∗ (((c : Thread nD τ).loc main_v8) ↦{fullShare.right} G))
          ∗ (∃ G, ⌜(rdat0 x8 y9 n c).ArrAt 2 cfg2.N G⌝ ∗ (((c : Thread nD τ).loc main_v9) ↦{fullShare} G))) := by
  unfold Pipeline.RDat.arraysAt
  rw [bigSep_W2]
  show iprop((∃ G, ⌜(rdat0 x8 y9 n c).ArrAt 0 cfg2.N G⌝ ∗ ((View.whole main_v8).loc (c : Thread nD τ) ↦[(View.whole main_v8).set]{fullShare.left} G))
      ∗ (∃ G, ⌜(rdat0 x8 y9 n c).ArrAt 1 cfg2.N G⌝ ∗ ((View.whole main_v8).loc (c : Thread nD τ) ↦[(View.whole main_v8).set]{fullShare.right} G))
      ∗ (∃ G, ⌜(rdat0 x8 y9 n c).ArrAt 2 cfg2.N G⌝ ∗ ((View.whole main_v9).loc (c : Thread nD τ) ↦[(View.whole main_v9).set]{fullShare} G))) = _
  simp only [View.set_whole] <;> rfl

set_option backward.isDefEq.respectTransparency.types false in
/-- The packing call as a region of @main on the TensorCore: entered from the transposed table at `x8`, the output
    array at `y9` and the core's debts after `n` SparseCore calls; left with the table as it was, the output array at
    some contents the pipeline may leave, and the same debts. -/
def R2 : Pipeline.RDat.RegionSeg (pcfgs (F := F)) adm (rdatsP x8 y9 n) none defs₀ 𝒱₀ (K (F := F)).L lv 1 where
  win := winFacts₀2
  block_pos := block_pos2
  stage_whole := stage_whole2
  K := PEmpty
  osem k := k.elim
  ho := Pipeline.OwnSemFacts.none _
  hbody c := body_obligation0 x8 y9 n c
  hwaits c := Pipeline.RDat.cellsWaits_intro (Pipeline.pin (pcfgs (F := F)) adm) (rdatsP x8 y9 n) none 1 c
    fun w s t => (K (F := F)).mayWait_none _ (Otc_none n c) lv hlv
  pre c := iprop((((c : Thread nD τ).loc main_v8) ↦{fullShare} x8) ∗ (((c : Thread nD τ).loc main_v9) ↦{fullShare} y9) ∗ owesTc (F := F) n c)
  post c := iprop((((c : Thread nD τ).loc main_v8) ↦{fullShare} x8)
    ∗ (∃ p, ⌜Packs2 x8 y9 n c p⌝ ∗ (((c : Thread nD τ).loc main_v9) ↦{fullShare} p)) ∗ owesTc (F := F) n c)
  X c := iprop(emp)
  Y c := iprop(emp)
  Z c := iprop(emp)
  hentry c := by
    rw [Pipeline.ownSems0_none]
    have harr : ((rdatsP x8 y9 n 1 c).arrays (rdatsP x8 y9 n 1 c).A : sProp 𝕄) = _ :=
      arrays0_eq x8 y9 n c (rdat0 x8 y9 n c).A x8 x8 y9 rfl rfl rfl
    iintro ⟨⟨H5, H6, HO⟩, -, -⟩
    ihave H5' := (pointsTo_share (PosShare.mem_left_op_right fullShare)).1 $$ H5
    icases H5' with ⟨H5l, H5r⟩
    imodintro
    isplitl [H5l H5r H6]
    · iapply (Entails.of_eq harr.symm)
      isplitl [H5l]; · iexact H5l
      isplitl [H5r]; · iexact H5r
      iexact H6
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr; · ipureintro; exact fun p hp => Or.inl (hW p hp)
      iexact HO
    isplitr <;> iempintro
  hin c := by
    rw [show (rdatsP x8 y9 n 1 c).Φ 0 = Pipeline.scopedRest (Ix := HIx 2) (Name := ℕ) (U := UU) (Lvl := ℕ) (Val := Elt F) spec2 c from rfl]
    iintro ⟨-, -, Hr⟩
    iexact Hr
  hout c := by
    rw [Pipeline.ownSems0_none, show (rdatsP x8 y9 n 1 c).Φ (Fin.last _) = Pipeline.scopedRest (Ix := HIx 2) (Name := ℕ) (U := UU) (Lvl := ℕ) (Val := Elt F) spec2 c from rfl]
    iintro Hr
    isplitr; · iempintro
    isplitr; · iempintro
    iexact Hr
  hexit c := by
    have harr : ((rdatsP x8 y9 n 1 c).arraysAt (Pipeline.pin (pcfgs (F := F)) adm 1).N : sProp 𝕄) = _ := arraysAt0_eq x8 y9 n c
    iintro ⟨Ha, HO, -, -⟩
    ihave Ha' := (Entails.of_eq harr) $$ Ha
    icases Ha' with ⟨⟨%G0, %hG0, H5l⟩, ⟨%G1, %hG1, H5r⟩, ⟨%G2, %hG2, H6⟩⟩
    rw [(rdat0 x8 y9 n c).ArrAt_in 0 rfl] at hG0
    rw [(rdat0 x8 y9 n c).ArrAt_in 1 rfl] at hG1
    obtain rfl : G0 = x8 := hG0
    obtain rfl : G1 = G0 := hG1
    imodintro
    isplitl [H5l H5r]
    · iapply (pointsTo_share (PosShare.mem_left_op_right fullShare)).2
      isplitl [H5l] <;> iassumption
    isplitl [H6]
    · iexists G2; isplitr; · ipureintro; exact hG2
      iexact H6
    unfold Pipeline.RDat.owesAt Pipeline.owesWithin
    icases HO with ⟨%W, %hW, HO⟩; iexists W; isplitr
    · ipureintro
      intro p hp
      rcases hW hp with h | ⟨w, s, rfl⟩
      · exact h
      · show (K (F := F)).lev _ none ≤ _
        rw [SparseCore.Cfg.lev_none]; exact Nat.zero_le _
    iexact HO

set_option backward.isDefEq.respectTransparency.types false in
/-- The region's rule as @main meets it. -/
theorem region2_wp (d : Dev nD) (bd : Option (𝒱).V)
    (hv : ∀ u ∈ bd, (𝒱).lt (.inr ((Pipeline.pin (pcfgs (F := F)) adm 1).tripCount + 1)) u)
    {α : Type} (k : PUnit → Prog (TpuEff nD τ sig (Elt F) (ΛP (F := F)) .tc) α) (Q : α → sProp 𝕄) :
    iprop((iprop(boundary (d : Thread nD τ) ∗ (R2 x8 y9 n lv hlv).post d) -∗ wp frame (wpE (D (F := F)) 𝒱 (d : Thread nD τ) bd) Set.univ (k ⟨⟩) Q)
        ∗ boundary (d : Thread nD τ) ∗ (R2 x8 y9 n lv hlv).pre d ∗ levAts (K (F := F)).L lv
        ∗ Pipeline.cellsGhost (Pipeline.pin (pcfgs (F := F)) adm) EP 1 d ∗ Pipeline.toksInit (Pipeline.pin (pcfgs (F := F)) adm) EP 1 d)
      ⊢ wp frame (wpE (D (F := F)) 𝒱 (d : Thread nD τ) bd) Set.univ (.op (.customCall (Pipeline.entry 1) ()) k) Q :=
  Pipeline.RDat.RegionSeg.wp (pcfgs (F := F)) adm (rdatsP x8 y9 n) none cellOf_inj EP defs₀ 𝒱₀ (K (F := F)).L lv (R2 x8 y9 n lv hlv) d bd hv k Q

/-- The entry and exit states, spelt out. -/
theorem R2_pre (d : Dev nD) : (R2 x8 y9 n lv hlv).pre d
    = iprop((((d : Thread nD τ).loc main_v8) ↦{fullShare} x8) ∗ (((d : Thread nD τ).loc main_v9) ↦{fullShare} y9) ∗ owesTc (F := F) n d) := rfl
theorem R2_post (d : Dev nD) : (R2 x8 y9 n lv hlv).post d
    = iprop((((d : Thread nD τ).loc main_v8) ↦{fullShare} x8)
        ∗ (∃ p, ⌜Packs2 x8 y9 n d p⌝ ∗ (((d : Thread nD τ).loc main_v9) ↦{fullShare} p)) ∗ owesTc (F := F) n d) := rfl

end Seg

end Cert.KernelIdeal.RegionPack2

end
-- ==== Proof.MainTC.lean ====
/-
  @main on a device's TensorCore.

  @main is nine host lines around five calls: the index arrays flattened and the item table transposed; the first packing
  call; the first SparseCore call (the differences); the user table transposed; the second packing call; the second
  SparseCore call (the scores); the scores viewed [32, 128]; the softplus-mean call; the result as a scalar. The
  TensorCore starts with all its unscoped arrays whole at their launch contents. Host lines run by the straight-line rule
  over the arrays they touch. A TensorCore call is its region's rule, proved at the pipelines' body table and lifted: it
  takes the region boundary, the call's own arrays, the TensorCore's debts (it owes the later calls' start signals
  throughout), the level facts and the pipeline's staging cells' ghost state, and gives the arrays back with the output
  rewritten. A SparseCore call is the launch library's rule: the operands, cut into the 32 tiles' payloads, go out with
  the start signals and come back with the done signals, and the output array is rejoined from the tiles' slices; the
  read-only operands are not needed again and are dropped. No call writes an argument array, and the host lines write
  only their own results, so at the return the four arguments are whole at their launch contents.
-/
import proofs.«203895_g52347061404180_cont_8to1_c_859_34_alg».proof.Proof.LaunchPay
import proofs.«203895_g52347061404180_cont_8to1_c_859_34_alg».proof.Proof.LaunchElem
import proofs.«203895_g52347061404180_cont_8to1_c_859_34_alg».proof.Proof.LaunchFin
import Idealize.ShloMosaic.Lib.Pipeline.Frame
import proofs.«203895_g52347061404180_cont_8to1_c_859_34_alg».proof.Proof.RegionLift
import proofs.«203895_g52347061404180_cont_8to1_c_859_34_alg».proof.Proof.RegionPack
import proofs.«203895_g52347061404180_cont_8to1_c_859_34_alg».proof.Proof.RegionPack2
import proofs.«203895_g52347061404180_cont_8to1_c_859_34_alg».proof.Proof.RegionLoss
noncomputable section
namespace Cert.KernelIdeal.MainTC
open Cert.KernelIdeal Cert.KernelIdeal.Gen Cert.KernelIdeal.KCommon Cert.KernelIdeal.LaunchPay
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split wp_hlo_within wp_seq seq after)
open Idealize.ShloMosaic.Pipeline (ucRefs unscopedBufs_held sub_ucRefs)

variable {F : FTy → Type} [FloatOps F]
local notation "𝕄" => MT nD τ sig (HIx 2) (Elt F) ℕ UU ℕ

abbrev op0 : HloOp τ sig (Elt F) := StableHlo.reshape main_arg0 main_v0 rfl shapeCasts_S4096x1_S4096
abbrev op1 : HloOp τ sig (Elt F) := StableHlo.unary main_arg1 main_v1 ((extractStridedSlice S4096x1 ![0, 0] · slices_S4096x2_S4096x1_0_0) : (⟨S4096x2, .i32⟩ : BufTy).Contents (Elt F) → (⟨S4096x1, .i32⟩ : BufTy).Contents (Elt F))
abbrev op2 : HloOp τ sig (Elt F) := StableHlo.reshape main_v1 main_v2 rfl shapeCasts_S4096x1_S4096
abbrev op3 : HloOp τ sig (Elt F) := StableHlo.unary main_arg1 main_v3 ((extractStridedSlice S4096x1 ![0, 1] · slices_S4096x2_S4096x1_0_1) : (⟨S4096x2, .i32⟩ : BufTy).Contents (Elt F) → (⟨S4096x1, .i32⟩ : BufTy).Contents (Elt F))
abbrev op4 : HloOp τ sig (Elt F) := StableHlo.reshape main_v3 main_v4 rfl shapeCasts_S4096x1_S4096
abbrev op5 : HloOp τ sig (Elt F) := StableHlo.unary main_arg3 main_v5 ((transpose S64x100000 [1, 0] · transposes_S100000x64_S64x100000_1_0) : (⟨S100000x64, .f32⟩ : BufTy).Contents (Elt F) → (⟨S64x100000, .f32⟩ : BufTy).Contents (Elt F))
abbrev op6 : HloOp τ sig (Elt F) := StableHlo.unary main_arg2 main_v8 ((transpose S64x100000 [1, 0] · transposes_S100000x64_S64x100000_1_0) : (⟨S100000x64, .f32⟩ : BufTy).Contents (Elt F) → (⟨S64x100000, .f32⟩ : BufTy).Contents (Elt F))
abbrev op7 : HloOp τ sig (Elt F) := StableHlo.reshape main_v10 main_v11 rfl shapeCasts_S4096_S32x128
abbrev op8 : HloOp τ sig (Elt F) := StableHlo.reshape main_v12 main_v13 rfl shapeCasts_S1x1_S_
abbrev opsA : List (HloOp τ sig (Elt F)) := [op0, op1, op2, op3, op4, op5]

theorem main_eq (d : Dev nD) : main (F := F) d
    = (seq (opsA (F := F)) >>= fun _ =>
        (Prog.lift (.customCall (SparseCore.inner (Pipeline.entry 0)) ()) >>= fun _ =>
          ((K (F := F)).run d 0 >>= fun _ =>
            (seq [op6 (F := F)] >>= fun _ =>
              (Prog.lift (.customCall (SparseCore.inner (Pipeline.entry 1)) ()) >>= fun _ =>
                ((K (F := F)).run d 1 >>= fun _ =>
                  (seq [op7 (F := F)] >>= fun _ =>
                    (Prog.lift (.customCall (SparseCore.inner (Pipeline.entry 2)) ()) >>= fun _ =>
                      (seq [op8 (F := F)] >>= fun _ => pure ⟨⟩))))))))) := by
  rfl

theorem opsA_sub : ∀ op ∈ (opsA (F := F)), op.bufs ⊆ ucRefs τ sig := by
  intro op hop
  simp only [opsA, List.mem_cons, List.mem_nil_iff, _root_.or_false] at hop
  rcases hop with rfl | rfl | rfl | rfl | rfl | rfl <;> first | exact sub_ucRefs _ (StableHlo.reshape_bufs_sub ..) | exact sub_ucRefs _ (StableHlo.unary_bufs_sub ..)

theorem opsA_fresh : ∀ op ∈ (opsA (F := F)), op.fresh = ∅ := by
  intro op hop
  simp only [opsA, List.mem_cons, List.mem_nil_iff, _root_.or_false] at hop
  rcases hop with rfl | rfl | rfl | rfl | rfl | rfl <;> rfl

/-- One unscoped TensorCore array whole at a valuation. -/
abbrev pt (c : Thread nD τ) (W : Valuation τ sig (Elt F)) (r : Ref sig .tc) : sProp 𝕄 :=
  (c.1, Proc.devRef .tc r) ↦{fullShare} W (Proc.devRef .tc r)

theorem ucRefs_eq : ucRefs τ sig = ({Proc.devRef .tc main_arg0, Proc.devRef .tc main_arg1, Proc.devRef .tc main_arg2, Proc.devRef .tc main_arg3,
    Proc.devRef .tc main_v0, Proc.devRef .tc main_v1, Proc.devRef .tc main_v2, Proc.devRef .tc main_v3, Proc.devRef .tc main_v4,
    Proc.devRef .tc main_v5, Proc.devRef .tc main_v6, Proc.devRef .tc main_v7, Proc.devRef .tc main_v8, Proc.devRef .tc main_v9,
    Proc.devRef .tc main_v10, Proc.devRef .tc main_v11, Proc.devRef .tc main_v12, Proc.devRef .tc main_v13} : Finset (DevRef τ sig)) := by
  decide

/-- The unscoped arrays held at a valuation, one by one. -/
theorem held_ucRefs (c : Thread nD τ) (W : Valuation τ sig (Elt F)) :
    (held c (ucRefs τ sig) W : sProp 𝕄) = iprop(pt c W main_arg0 ∗ pt c W main_arg1 ∗ pt c W main_arg2 ∗ pt c W main_arg3
      ∗ pt c W main_v0 ∗ pt c W main_v1 ∗ pt c W main_v2 ∗ pt c W main_v3 ∗ pt c W main_v4 ∗ pt c W main_v5 ∗ pt c W main_v6
      ∗ pt c W main_v7 ∗ pt c W main_v8 ∗ pt c W main_v9 ∗ pt c W main_v10 ∗ pt c W main_v11 ∗ pt c W main_v12 ∗ pt c W main_v13) := by
  unfold held
  rw [ucRefs_eq]
  repeat rw [SparseCore.bigSep_insert' (by decide)]
  rw [bigSep_singleton]

/-- The TensorCore's handshake state: what it owes with its recorded pairs bounded, and the rest. -/
def tcRest (d : Dev nD) (n : ℕ) : sProp 𝕄 :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (SparseCore.Cfg.callsFrom n) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt (EH (F := F)) d n : sProp 𝕄) = iprop(RegionLoss.owesTc (F := F) n d ∗ tcRest (F := F) d n) := rfl

theorem refines : SparseCore.Cfg.Refines (nD := nD) (K (F := F)) (SparseCore.Cfg.lev (nD := nD) (K (F := F))) := by sl_refines_lev

/-- Two distinct arrays held at a valuation. -/
theorem held_two (c : Thread nD τ) (a b : DevRef τ sig) (hab : a ≠ b) (W : Valuation τ sig (Elt F)) :
    (held c ({a, b} : Finset (DevRef τ sig)) W : sProp 𝕄) = iprop(((c.1, a) ↦{fullShare} W a) ∗ ((c.1, b) ↦{fullShare} W b)) := by
  unfold held
  rw [SparseCore.bigSep_insert' (by simpa using hab), bigSep_singleton]

theorem op6_sub : ∀ op ∈ [op6 (F := F)], op.bufs ⊆ ({Proc.devRef .tc main_arg2, Proc.devRef .tc main_v8} : Finset (DevRef τ sig)) := by
  intro op hop; rw [List.mem_singleton] at hop; subst hop; exact Finset.Subset.refl _
theorem op7_sub : ∀ op ∈ [op7 (F := F)], op.bufs ⊆ ({Proc.devRef .tc main_v10, Proc.devRef .tc main_v11} : Finset (DevRef τ sig)) := by
  intro op hop; rw [List.mem_singleton] at hop; subst hop; exact Finset.Subset.refl _
theorem op8_sub : ∀ op ∈ [op8 (F := F)], op.bufs ⊆ ({Proc.devRef .tc main_v12, Proc.devRef .tc main_v13} : Finset (DevRef τ sig)) := by
  intro op hop; rw [List.mem_singleton] at hop; subst hop; exact Finset.Subset.refl _
theorem one_fresh (op : HloOp τ sig (Elt F)) (h : op.fresh = ∅) : ∀ o ∈ [op], o.fresh = ∅ := by
  intro o ho; rw [List.mem_singleton] at ho; subst ho; exact h

variable (m : (ℓ : Loc nD τ sig) → Buf (Elt F) ℓ) (g : Dev nD → PrngReg)

/-- The launch valuation. -/
def V0 (d : Dev nD) : Valuation τ sig (Elt F) := fun b => m (d, b)

set_option backward.isDefEq.respectTransparency.types false in
/-- The valuation after the first host stretch. -/
abbrev W1 (d : Dev nD) : Valuation τ sig (Elt F) := after (opsA (F := F)) (V0 m d)

/-- The first host stretch writes no argument array. -/
theorem W1_arg (d : Dev nD) (r : Ref sig .tc)
    (hr : ∀ y ∈ [main_v0, main_v1, main_v2, main_v3, main_v4, main_v5], (Proc.devRef (τ := τ) .tc r) ≠ Proc.devRef .tc y) :
    W1 (F := F) m d (Proc.devRef .tc r) = m (d, Proc.devRef .tc r) :=
  StableHlo.after_of_forall_not_mem (opsA (F := F)) (V0 m d) (fun op hop => by
    simp only [opsA, List.mem_cons, List.mem_nil_iff, _root_.or_false] at hop
    rcases hop with rfl | rfl | rfl | rfl | rfl | rfl <;>
      (show _ ∉ ({_} : Finset (DevRef τ sig)); rw [Finset.mem_singleton]; exact hr _ (by simp)))

/-- The transposing host line writes no argument array. -/
theorem op6_arg (W : Valuation τ sig (Elt F)) (r : Ref sig .tc) (hr : (Proc.devRef (τ := τ) .tc r) ≠ Proc.devRef .tc main_v8) :
    after [op6 (F := F)] W (Proc.devRef .tc r) = W (Proc.devRef .tc r) :=
  StableHlo.after_of_forall_not_mem [op6 (F := F)] W (fun op hop => by
    rw [List.mem_singleton] at hop; subst hop
    show _ ∉ ({_} : Finset (DevRef τ sig)); rw [Finset.mem_singleton]; exact hr)

/-- The result array at any contents is "at some contents". -/
theorem fin_out (d : Dev nD) (x : Buf (Elt F) (LaunchFin.outLoc d)) :
    (LaunchFin.outLoc d ↦{fullShare} x : sProp 𝕄) ⊢ iprop(∃ f, ⌜True⌝ ∗ LaunchFin.outLoc d ↦{fullShare} f) := by
  iintro H
  iexists x
  isplitr; · ipureintro; trivial
  iexact H

/-- An index word names a table row. -/
abbrev InRange {S : Shape} (f : S.Idx → BitVec 32) : Prop := ∀ j, 0 ≤ (f j).toInt ∧ (f j).toInt ≤ 99999

set_option backward.isDefEq.respectTransparency.types false in
set_option maxHeartbeats 4000000 in
/-- @main on a device's TensorCore: the host lines by the straight-line rule over the arrays they touch, each
    TensorCore call by its region's rule lifted, each SparseCore call by the launch library's rule with the operands cut
    into the tiles' payloads and the output rejoined. The arguments are kept; the result is left at some contents. -/
theorem hmain
    (hsplit0 : ∀ (d : Dev nD) (f6 : Vec F S50176x128 .f32) (f2 f4 : IVec S4096 32), InRange f2 → InRange f4 →
      iprop(((d.tc : Thread nD τ).loc main_v6 ↦{fullShare} f6) ∗ ((d.tc : Thread nD τ).loc main_v2 ↦{fullShare} f2)
        ∗ ((d.tc : Thread nD τ).loc main_v4 ↦{fullShare} f4) ∗ ∃ f, (d.tc : Thread nD τ).loc main_v7 ↦{fullShare} f)
        ⊢ (bigSep Finset.univ fun c : Fin ((K (F := F)).nCore 0) => (P (F := F)).st 0 d c : sProp 𝕄))
    (hjoin0 : ∀ d : Dev nD, (bigSep Finset.univ fun c : Fin ((K (F := F)).nCore 0) => (P (F := F)).dn 0 d c : sProp 𝕄)
        ⊢ iprop(∃ f, (d.tc : Thread nD τ).loc main_v7 ↦{fullShare} f))
    (hsplit1 : ∀ (d : Dev nD) (f9 : Vec F S50176x128 .f32) (f0 : IVec S4096 32) (f7 : Vec F S2048x128 .f32), InRange f0 →
      iprop(((d.tc : Thread nD τ).loc main_v9 ↦{fullShare} f9) ∗ ((d.tc : Thread nD τ).loc main_v0 ↦{fullShare} f0)
        ∗ ((d.tc : Thread nD τ).loc main_v7 ↦{fullShare} f7) ∗ ∃ f, (d.tc : Thread nD τ).loc main_v10 ↦{fullShare} f)
        ⊢ (bigSep Finset.univ fun c : Fin ((K (F := F)).nCore 1) => (P (F := F)).st 1 d c : sProp 𝕄))
    (hjoin1 : ∀ d : Dev nD, (bigSep Finset.univ fun c : Fin ((K (F := F)).nCore 1) => (P (F := F)).dn 1 d c : sProp 𝕄)
        ⊢ iprop(∃ f, (d.tc : Thread nD τ).loc main_v10 ↦{fullShare} f))
    (hr2 : ∀ d, InRange (W1 (F := F) m d (Proc.devRef .tc main_v2))) (hr4 : ∀ d, InRange (W1 (F := F) m d (Proc.devRef .tc main_v4)))
    (hr0 : ∀ d, InRange (W1 (F := F) m d (Proc.devRef .tc main_v0)))
    (κ : GSem nD τ sig → ℕ) (d : Dev nD) :
    iprop((K (F := F)).ctx EH (P (F := F)) κ (K (F := F)).lev ∗ (K (F := F)).tcSt EH d 0 ∗ (K (F := F)).tcRes m g d ∗ LaunchElem.G (F := F) d)
      ⊢ wp frame (wpE ((K (F := F)).defs (D (F := F))) 𝒱 (SparseCore.T d) none) Set.univ (main (F := F) d)
          fun _ => iprop((K (F := F)).tcSt EH d 2 ∗ LaunchFin.FIN (F := F) m (fun _ _ => True) d) := by
  unfold SparseCore.Cfg.tcRes
  rw [show (unscopedBufs d (fun b => m ((SparseCore.T d).loc b)) : sProp 𝕄) = held (d.tc : Thread nD τ) (ucRefs τ sig) (V0 m d) from
    unscopedBufs_held (Ix := HIx 2) (Name := ℕ) (U := UU) (Lvl := ℕ) d (V0 m d)]
  rw [main_eq]
  iintro ⟨#Hctx, Hst, ⟨Hb, Hheld, Hsems, Hprng⟩, HG⟩
  iapply (wp_seq 𝒱 none Set.univ d (ucRefs τ sig) _ (opsA (F := F)) opsA_sub opsA_fresh (V0 m d)) $$ [Hb Hheld]
  · isplitl [Hb]; · iexact Hb
    iexact Hheld
  iintro ⟨Hb, Hheld⟩
  ihave Hh := (Entails.of_eq (held_ucRefs (F := F) (d.tc : Thread nD τ) _)) $$ Hheld
  icases Hh with ⟨Ha0, Ha1, Ha2, Ha3, H0, H1, H2, H3, H4, H5, H6, H7, H8, H9, H10, H11, H12, H13⟩
  ihave Hst' := (Entails.of_eq (tcSt_eq (F := F) d 0)) $$ Hst
  icases Hst' with ⟨Ho, Hrest⟩
  ihave #Hlev := ((K (F := F)).ctx_levAts (EH := EH) (P := P (F := F)) κ) $$ Hctx
  unfold LaunchElem.G
  rw [Gen.bigSep_W0, Gen.bigSep_W0]
  icases HG with ⟨⟨Hc0, Hc1, Hc2⟩, ⟨Ht0, Ht1, Ht2⟩⟩
  -- the first packing call
  iapply (RegionLift.region_lift (F := F) 0 _ _
      (fun d' {_} k Q => RegionPack.region0_wp (F := F) _ _ 0 (K (F := F)).lev (refines (F := F)) d' none (fun u hu => nomatch hu) k Q) d _ _)
  isplitl [Hb]; · iexact Hb
  isplitl [H5 H6 Ho]
  · rw [RegionPack.R0_pre]
    isplitl [H5]; · iexact H5
    isplitl [H6]; · iexact H6
    iexact Ho
  isplitr; · iexact Hlev
  isplitl [Hc0]; · iexact Hc0
  isplitl [Ht0]; · iexact Ht0
  iintro ⟨Hb, Hpost⟩
  ihave Hpost' := (Entails.of_eq (RegionPack.R0_post (F := F) _ _ 0 _ _ d)) $$ Hpost
  icases Hpost' with ⟨H5, ⟨%p6, %hp6, H6⟩, Ho⟩
  -- the first SparseCore call
  ihave Hst0 := (Entails.of_eq (tcSt_eq (F := F) d 0).symm) $$ [Ho Hrest]
  · isplitl [Ho]; · iexact Ho
    iexact Hrest
  rw [wp_bind]
  iapply ((K (F := F)).wp_run (D (F := F)) 𝒱 (EH := EH) (P := P (F := F)) κ d 0)
  isplitr; · iexact Hctx
  isplitl [Hst0]; · iexact Hst0
  isplitl [H6 H2 H4 H7]
  · iapply (hsplit0 d p6 _ _ (hr2 d) (hr4 d))
    isplitl [H6]; · iexact H6
    isplitl [H2]; · iexact H2
    isplitl [H4]; · iexact H4
    iexists _; iexact H7
  iintro ⟨Hst1, Hdn⟩
  ihave Hst1 := (Entails.of_eq (show ((K (F := F)).tcSt (EH (F := F)) d ((0 : Fin 2).val + 1) : sProp 𝕄) = (K (F := F)).tcSt (EH (F := F)) d 1 from rfl)) $$ Hst1
  ihave H7 := (hjoin0 d) $$ Hdn
  icases H7 with ⟨%f7, H7⟩
  -- the users' table transposed
  iapply (wp_seq 𝒱 none Set.univ d ({Proc.devRef .tc main_arg2, Proc.devRef .tc main_v8} : Finset (DevRef τ sig)) _ [op6 (F := F)]
      op6_sub (one_fresh _ rfl) (W1 (F := F) m d)) $$ [Hb Ha2 H8]
  · isplitl [Hb]; · iexact Hb
    rw [held_two _ _ _ (by decide)]
    isplitl [Ha2]; · iexact Ha2
    iexact H8
  iintro ⟨Hb, Hh68⟩
  ihave Hh68' := (Entails.of_eq (held_two (F := F) (d.tc : Thread nD τ) _ _ (by decide) _)) $$ Hh68
  icases Hh68' with ⟨Ha2, H8⟩
  -- the second packing call
  ihave Hst' := (Entails.of_eq (tcSt_eq (F := F) d 1)) $$ Hst1
  icases Hst' with ⟨Ho, Hrest⟩
  iapply (RegionLift.region_lift (F := F) 1 _ _
      (fun d' {_} k Q => RegionPack2.region2_wp (F := F) _ _ 1 (K (F := F)).lev (refines (F := F)) d' none (fun u hu => nomatch hu) k Q) d _ _)
  isplitl [Hb]; · iexact Hb
  isplitl [H8 H9 Ho]
  · rw [RegionPack2.R2_pre]
    isplitl [H8]; · iexact H8
    isplitl [H9]; · iexact H9
    iexact Ho
  isplitr; · iexact Hlev
  isplitl [Hc1]; · iexact Hc1
  isplitl [Ht1]; · iexact Ht1
  iintro ⟨Hb, Hpost⟩
  ihave Hpost' := (Entails.of_eq (RegionPack2.R2_post (F := F) _ _ 1 _ _ d)) $$ Hpost
  icases Hpost' with ⟨H8, ⟨%p9, %hp9, H9⟩, Ho⟩
  -- the second SparseCore call
  ihave Hst1 := (Entails.of_eq (tcSt_eq (F := F) d 1).symm) $$ [Ho Hrest]
  · isplitl [Ho]; · iexact Ho
    iexact Hrest
  rw [wp_bind]
  iapply ((K (F := F)).wp_run (D (F := F)) 𝒱 (EH := EH) (P := P (F := F)) κ d 1)
  isplitr; · iexact Hctx
  isplitl [Hst1]; · iexact Hst1
  isplitl [H9 H0 H7 H10]
  · iapply (hsplit1 d p9 _ f7 (hr0 d))
    isplitl [H9]; · iexact H9
    isplitl [H0]; · iexact H0
    isplitl [H7]; · iexact H7
    iexists _; iexact H10
  iintro ⟨Hst2, Hdn⟩
  ihave Hst2 := (Entails.of_eq (show ((K (F := F)).tcSt (EH (F := F)) d ((1 : Fin 2).val + 1) : sProp 𝕄) = (K (F := F)).tcSt (EH (F := F)) d 2 from rfl)) $$ Hst2
  ihave H10 := (hjoin1 d) $$ Hdn
  icases H10 with ⟨%f10, H10⟩
  -- the scores viewed [32, 128]
  iapply (wp_seq 𝒱 none Set.univ d ({Proc.devRef .tc main_v10, Proc.devRef .tc main_v11} : Finset (DevRef τ sig)) _ [op7 (F := F)]
      op7_sub (one_fresh _ rfl) (Function.update (W1 (F := F) m d) (Proc.devRef .tc main_v10) f10)) $$ [Hb H10 H11]
  · isplitl [Hb]; · iexact Hb
    rw [held_two _ _ _ (by decide), Function.update_self, Function.update_of_ne (by decide)]
    isplitl [H10]; · iexact H10
    iexact H11
  iintro ⟨Hb, Hh⟩
  ihave Hh' := (Entails.of_eq (held_two (F := F) (d.tc : Thread nD τ) _ _ (by decide) _)) $$ Hh
  icases Hh' with ⟨H10, H11⟩
  -- the softplus-mean call
  ihave Hst' := (Entails.of_eq (tcSt_eq (F := F) d 2)) $$ Hst2
  icases Hst' with ⟨Ho, Hrest⟩
  iapply (RegionLift.region_lift (F := F) 2 _ _
      (fun d' {_} k Q => RegionLoss.region4_wp (F := F) _ _ 2 (K (F := F)).lev (refines (F := F)) d' none (fun u hu => nomatch hu) k Q) d _ _)
  isplitl [Hb]; · iexact Hb
  isplitl [H11 H12 Ho]
  · rw [RegionLoss.R4_pre]
    isplitl [H11]; · iexact H11
    isplitl [H12]; · iexact H12
    iexact Ho
  isplitr; · iexact Hlev
  isplitl [Hc2]; · iexact Hc2
  isplitl [Ht2]; · iexact Ht2
  iintro ⟨Hb, Hpost⟩
  ihave Hpost' := (Entails.of_eq (RegionLoss.R4_post (F := F) _ _ 2 _ _ d)) $$ Hpost
  icases Hpost' with ⟨H11, H12, Ho⟩
  ihave Hst2 := (Entails.of_eq (tcSt_eq (F := F) d 2).symm) $$ [Ho Hrest]
  · isplitl [Ho]; · iexact Ho
    iexact Hrest
  -- the result as a scalar
  iapply (wp_seq 𝒱 none Set.univ d ({Proc.devRef .tc main_v12, Proc.devRef .tc main_v13} : Finset (DevRef τ sig)) _ [op8 (F := F)]
      op8_sub (one_fresh _ rfl) (Function.update (W1 (F := F) m d) (Proc.devRef .tc main_v12) _)) $$ [Hb H12 H13]
  · isplitl [Hb]; · iexact Hb
    rw [held_two _ _ _ (by decide), Function.update_self, Function.update_of_ne (by decide)]
    isplitl [H12]; · iexact H12
    iexact H13
  iintro ⟨Hb, Hh⟩
  ihave Hh' := (Entails.of_eq (held_two (F := F) (d.tc : Thread nD τ) _ _ (by decide) _)) $$ Hh
  icases Hh' with ⟨H12, H13⟩
  rw [wp_pure]
  imodintro
  isplitl [Hst2]; · iexact Hst2
  unfold LaunchFin.FIN
  isplitl [Ha0]
  · rw [show m (LaunchFin.a0Loc d) = W1 (F := F) m d (Proc.devRef .tc main_arg0) from (W1_arg (F := F) m d main_arg0 (by decide)).symm]
    iexact Ha0
  isplitl [Ha1]
  · rw [show m (LaunchFin.a1Loc d) = W1 (F := F) m d (Proc.devRef .tc main_arg1) from (W1_arg (F := F) m d main_arg1 (by decide)).symm]
    iexact Ha1
  isplitl [Ha2]
  · rw [show m (LaunchFin.a2Loc d) = after [op6 (F := F)] (W1 (F := F) m d) (Proc.devRef .tc main_arg2) from
      ((op6_arg (F := F) _ main_arg2 (by decide)).trans (W1_arg (F := F) m d main_arg2 (by decide))).symm]
    iexact Ha2
  isplitl [Ha3]
  · rw [show m (LaunchFin.a3Loc d) = W1 (F := F) m d (Proc.devRef .tc main_arg3) from (W1_arg (F := F) m d main_arg3 (by decide)).symm]
    iexact Ha3
  iapply (fin_out (F := F) d _)
  iexact H13

end Cert.KernelIdeal.MainTC
end
-- ==== Proof.LaunchPayV.lean ====
/-
  The handshakes' payloads for the value claim, at the ideal values.

  As for the frame, a sequencer is handed its sixteen tiles' tasks and hands back their results. Here a task also says,
  of the contents it does not fix, what the value claim needs — in terms of the launch memory `m`, of which every
  intermediate array is a function except where a clipped block left entries nothing reads:

  * first call: the index arrays are the flattened columns of the items' indices (`f2`, `f4`: exactly
    `MainTC.W1 m d` at those buffers, in range), the table is SOME packed copy of the item table; the result: the tile's
    slice is what the tile leaves of those (`Cert.TileSpec.OutG`);
  * second call: the index array is the flattened users' indices, the table some packed copy of the user table, the 64
    difference rows hold the tile's triples' differences of item-table entries (`DiffsTile`); the result: the tile's
    accumulators (`Cert.TileSpec.OutDot`).
-/
import proofs.«203895_g52347061404180_cont_8to1_c_859_34_alg».proof.Proof.LaunchPay
import proofs.«203895_g52347061404180_cont_8to1_c_859_34_alg».proof.Proof.TilePayV
import proofs.«203895_g52347061404180_cont_8to1_c_859_34_alg».proof.Proof.TileBridge
import proofs.«203895_g52347061404180_cont_8to1_c_859_34_alg».proof.Proof.MainTC

noncomputable section

namespace Cert.KernelIdeal.LaunchPayV

open Cert.KernelIdeal Cert.KernelIdeal.Gen Cert.KernelIdeal.KCommon Cert.KernelIdeal.LaunchPay
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 2) (Elt Ideal) ℕ UU ℕ

variable (m : (ℓ : Loc nD τ sig) → Buf (Elt Ideal) ℓ)

/-- The launch contents of the four arguments on device `d`. -/
abbrev usersM (d : Dev nD) : IVec S4096x1 32 := m ((SparseCore.T d).loc main_arg0)
abbrev itemsM (d : Dev nD) : IVec S4096x2 32 := m ((SparseCore.T d).loc main_arg1)
abbrev ufM (d : Dev nD) : FVec Ideal S100000x64 .f32 := m ((SparseCore.T d).loc main_arg2)
abbrev itfM (d : Dev nD) : FVec Ideal S100000x64 .f32 := m ((SparseCore.T d).loc main_arg3)

/-- The flattened index arrays as the first host lines leave them. -/
abbrev posM (d : Dev nD) : IVec S4096 32 := MainTC.W1 (F := Ideal) m d (Proc.devRef .tc main_v2)
abbrev negM (d : Dev nD) : IVec S4096 32 := MainTC.W1 (F := Ideal) m d (Proc.devRef .tc main_v4)
abbrev uidxM (d : Dev nD) : IVec S4096 32 := MainTC.W1 (F := Ideal) m d (Proc.devRef .tc main_v0)

/-- What the first call's task knows of what it reads. -/
def In0 (d : Dev nD) (f6 : FVec Ideal S50176x128 .f32) (f2 f4 : IVec S4096 32) : Prop :=
  MainTC.InRange f2 ∧ MainTC.InRange f4 ∧ f2 = posM m d ∧ f4 = negM m d ∧ Cert.KernelValue.IsPacked (itfM m d) f6

/-- The tile's 64 difference rows hold its triples' differences of item-table entries. -/
def DiffsTile (d : Dev nD) (w : Fin 32) (f7 : FVec Ideal S2048x128 .f32) : Prop :=
  ∀ (t : Fin 128) (j : Fin 64),
    f7 (ValueIdx.ix2 (Cert.TileSpec.dRow w t) (Cert.TileSpec.dCol t j))
      = itfM m d (ValueIdx.ix2 (Cert.BprSpec.row (itemsM m d (ValueIdx.ix2 (Cert.TileSpec.tri w t) (1 : Fin 2)))) j)
        - itfM m d (ValueIdx.ix2 (Cert.BprSpec.row (itemsM m d (ValueIdx.ix2 (Cert.TileSpec.tri w t) (0 : Fin 2)))) j)

/-- What the second call's task knows of what it reads. -/
def In1 (d : Dev nD) (w : Fin 32) (f9 : FVec Ideal S50176x128 .f32) (f0 : IVec S4096 32) (f7 : FVec Ideal S2048x128 .f32) : Prop :=
  MainTC.InRange f0 ∧ f0 = uidxM m d ∧ Cert.KernelValue.IsPacked (ufM m d) f9 ∧ DiffsTile m d w f7

/-- First call, what tile `(c, i)` is handed. -/
def goGPV (d : Dev nD) (c : Fin 2) (i : Fin 16) : sProp 𝕄 :=
  iprop(∃ f6 f2 f4, ⌜In0 m d f6 f2 f4⌝
    ∗ TileG.goG (F := Ideal) d (coordsV1 c i) (tileShareA c i) (tileShareB c i) (tileShare c i) (tileShare c i) f6 f2 f4)

/-- First call, what the tile hands back: its result rows at contents satisfying the tile's specification. -/
def tdGPV (d : Dev nD) (c : Fin 2) (i : Fin 16) : sProp 𝕄 :=
  iprop(∃ f6 f2 f4 fo, ⌜In0 m d f6 f2 f4 ∧ Cert.TileSpec.OutG (F := Ideal) (tileNo c i) f6 f2 f4 fo⌝
    ∗ TilePayV.goGV (F := Ideal) d (coordsV1 c i) (tileShareA c i) (tileShareB c i) (tileShare c i) (tileShare c i) f6 f2 f4 fo)

/-- Second call, what tile `(c, i)` is handed. -/
def goDotPV (d : Dev nD) (c : Fin 2) (i : Fin 16) : sProp 𝕄 :=
  iprop(∃ f9 f0 f7, ⌜In1 m d (tileNo c i) f9 f0 f7⌝
    ∗ TileDotDefs.goDot (F := Ideal) d (coordsV3 c i) (tileShare c i) (tileShare c i) fullShare f9 f0 f7)

/-- Second call, what the tile hands back. -/
def tdDotPV (d : Dev nD) (c : Fin 2) (i : Fin 16) : sProp 𝕄 :=
  iprop(∃ f9 f0 f7 fo, ⌜In1 m d (tileNo c i) f9 f0 f7 ∧ Cert.TileSpec.OutDot (F := Ideal) (tileNo c i) f9 f0 f7 fo⌝
    ∗ TilePayV.goDotV (F := Ideal) d (coordsV3 c i) (tileShare c i) (tileShare c i) fullShare f9 f0 f7 fo)

def goPV : Fin 2 → Dev nD → Fin 2 → Fin 16 → sProp 𝕄
  | 0 => goGPV m
  | 1 => goDotPV m
def tdPV : Fin 2 → Dev nD → Fin 2 → Fin 16 → sProp 𝕄
  | 0 => tdGPV m
  | 1 => tdDotPV m

theorem goPV_zero : goPV m 0 = goGPV m := rfl
theorem goPV_one : goPV m 1 = goDotPV m := rfl
theorem tdPV_zero : tdPV m 0 = tdGPV m := rfl
theorem tdPV_one : tdPV m 1 = tdDotPV m := rfl

/-- The payloads. -/
def PV : (K (F := Ideal)).Pay (nD := nD) (Val := Elt Ideal) (Name := ℕ) (U := UU) where
  st := fun q d c => bigSep Finset.univ fun i : Fin 16 => goPV m q d (castC (F := Ideal) q c) i
  dn := fun q d c => bigSep Finset.univ fun i : Fin 16 => tdPV m q d (castC (F := Ideal) q c) i
  go := fun q d c i => goPV m q d (castC (F := Ideal) q c) (castI (F := Ideal) q i)
  td := fun q d c i => tdPV m q d (castC (F := Ideal) q c) (castI (F := Ideal) q i)
  x := fun _ _ => iprop(emp)

set_option synthInstance.maxHeartbeats 4000000 in
set_option maxHeartbeats 4000000 in
instance goGPV_storable (d : Dev nD) (c : Fin 2) (i : Fin 16) : BI.Storable (upEmb : UEmb _ 𝕄) (goGPV m d c i) := by
  unfold goGPV TileG.goG; infer_instance
set_option synthInstance.maxHeartbeats 4000000 in
set_option maxHeartbeats 4000000 in
instance tdGPV_storable (d : Dev nD) (c : Fin 2) (i : Fin 16) : BI.Storable (upEmb : UEmb _ 𝕄) (tdGPV m d c i) := by
  unfold tdGPV TilePayV.goGV; infer_instance
set_option synthInstance.maxHeartbeats 4000000 in
set_option maxHeartbeats 4000000 in
instance goDotPV_storable (d : Dev nD) (c : Fin 2) (i : Fin 16) : BI.Storable (upEmb : UEmb _ 𝕄) (goDotPV m d c i) := by
  unfold goDotPV TileDotDefs.goDot; infer_instance
set_option synthInstance.maxHeartbeats 4000000 in
set_option maxHeartbeats 4000000 in
instance tdDotPV_storable (d : Dev nD) (c : Fin 2) (i : Fin 16) : BI.Storable (upEmb : UEmb _ 𝕄) (tdDotPV m d c i) := by
  unfold tdDotPV TilePayV.goDotV; infer_instance
instance goPV_storable (q : Fin 2) (d : Dev nD) (c : Fin 2) (i : Fin 16) : BI.Storable (upEmb : UEmb _ 𝕄) (goPV m q d c i) := by
  match q with
  | 0 => rw [goPV_zero]; infer_instance
  | 1 => rw [goPV_one]; infer_instance
instance tdPV_storable (q : Fin 2) (d : Dev nD) (c : Fin 2) (i : Fin 16) : BI.Storable (upEmb : UEmb _ 𝕄) (tdPV m q d c i) := by
  match q with
  | 0 => rw [tdPV_zero]; infer_instance
  | 1 => rw [tdPV_one]; infer_instance

instance PV_storable : (PV m).IsStorable where
  st _ _ _ := by unfold PV; infer_instance
  dn _ _ _ := by unfold PV; infer_instance
  go _ _ _ _ := by unfold PV; infer_instance
  td _ _ _ _ := by unfold PV; infer_instance

/-- A SparseCore's operands ARE its tiles' tasks and its results their results: the split is the identity. -/
theorem vecSplitV (q : Fin 2) : (K (F := Ideal)).VecSplit' (PV m) q := by
  intro d c
  show (bigSep Finset.univ fun i : Fin 16 => goPV m q d (castC (F := Ideal) q c) i) ⊢ |={Set.univ}=> iprop(
      (bigSep Finset.univ fun i : Fin ((K (F := Ideal)).nSub q) => (fun i' => goPV m q d (castC (F := Ideal) q c) i') (castI (F := Ideal) q i))
      ∗ ((bigSep Finset.univ fun i : Fin ((K (F := Ideal)).nSub q) => (fun i' => tdPV m q d (castC (F := Ideal) q c) i') (castI (F := Ideal) q i))
          -∗ bigSep Finset.univ fun i : Fin 16 => tdPV m q d (castC (F := Ideal) q c) i))
  rw [bigSep_tasks (F := Ideal) q (fun i' => goPV m q d (castC (F := Ideal) q c) i'),
    bigSep_tasks (F := Ideal) q (fun i' => tdPV m q d (castC (F := Ideal) q c) i')]
  iintro H; imodintro
  isplitl [H]; · iexact H
  iintro H; iexact H

end Cert.KernelIdeal.LaunchPayV

end
-- ==== Proof.LaunchObl.lean ====
/-
  The launch theorem's tile obligations from the two tile bodies.

  The launch theorem asks, per SparseCore call, for the proof of one vector subcore's task in its own spelling: the
  thread is the call's subcore `(core q c, sub q i)`, the program the extended label table's row, lifted. A tile body
  proved at a symbolic grid point — for any read shares and any contents whose index words name table rows — is that
  obligation at the tile's point: the payload opens to its contents and its range fact, the body runs, the payload closes
  at the same contents.
-/
import proofs.«203895_g52347061404180_cont_8to1_c_859_34_alg».proof.Proof.LaunchPay

noncomputable section

namespace Cert.KernelIdeal.LaunchObl

open Cert.KernelIdeal Cert.KernelIdeal.Gen Cert.KernelIdeal.KCommon Cert.KernelIdeal.LaunchPay
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The second tile body's statement: at any grid point, any read shares, any contents with index words in range. -/
def BodyDot : Prop :=
  ∀ (d : Dev nD) (L : grid3.Coords) (q9 q0 q7 : PosShare TreeShare)
    (f9 : Buf (Elt F) ((TileDotDefs.puM).view.loc (V d (TileDotDefs.cV L) (TileDotDefs.jV L))))
    (f0 : Buf (Elt F) ((TileDotDefs.uiM).view.loc (V d (TileDotDefs.cV L) (TileDotDefs.jV L))))
    (f7 : Buf (Elt F) ((TileDotDefs.gpSl L).view.loc (V d (TileDotDefs.cV L) (TileDotDefs.jV L))))
    (hidx : ∀ j, 0 ≤ (f0 j).toInt ∧ (f0 j).toInt ≤ 99999)
    (O : CellTallies nD τ sig (HIx 2)) (W : Waits sig (HIx 2)) (hO : ∀ g, O g none = 0),
    iprop(levAts (K (F := F)).L (K (F := F)).lev ∗ emp ∗ TileDotDefs.goDot (F := F) d L q9 q0 q7 f9 f0 f7
        ∗ scopedBufs (V d (TileDotDefs.cV L) (TileDotDefs.jV L)) ∗ scopedSems0 (V d (TileDotDefs.cV L) (TileDotDefs.jV L))
        ∗ owes (V d (TileDotDefs.cV L) (TileDotDefs.jV L)) O W)
      ⊢ wp frame (wpE (defs₀ (F := F)) 𝒱₀ (V d (TileDotDefs.cV L) (TileDotDefs.jV L)) none) Set.univ
          (cc3__sc_dot_body L TileDotDefs.puM (Memref.isWhole_whole _) TileDotDefs.uiM (Memref.isWhole_whole _)
            TileDotDefs.gpM (Memref.isWhole_whole _) TileDotDefs.outM (Memref.isWhole_whole _)
            TileDotDefs.urawM (Memref.isWhole_whole _) TileDotDefs.uidxM (Memref.isWhole_whole _)
            TileDotDefs.urowsM (Memref.isWhole_whole _) TileDotDefs.gpvM (Memref.isWhole_whole _)
            TileDotDefs.diffsM (Memref.isWhole_whole _) cc3_scratch5 cc3_scratch6 cc3_scoped0 cc3_scoped1)
          fun _ => iprop(TileDotDefs.goDot (F := F) d L q9 q0 q7 f9 f0 f7
            ∗ scopedBufs (V d (TileDotDefs.cV L) (TileDotDefs.jV L)) ∗ scopedSems0 (V d (TileDotDefs.cV L) (TileDotDefs.jV L))
            ∗ ∃ W', ⌜∀ p ∈ W', p ∈ W ∨ p.2 = none⌝ ∗ owes (V d (TileDotDefs.cV L) (TileDotDefs.jV L)) O W')

/-- The post's recorded pairs, weakened to the launch theorem's form. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The second call's tile obligation. -/
theorem tileObl1 (hbody : BodyDot (F := F)) : (K (F := F)).TileObl (D (F := F)) 𝒱 (P (F := F)) v₀ 1 := by
  intro d c i O W hO _ _
  simp only [show (P (F := F)).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, and_self, ↓reduceDIte]
  show iprop(levAts (K (F := F)).L (K (F := F)).lev ∗ emp ∗ goDotP (F := F) d (castC (F := F) 1 c) (castI (F := F) 1 i) ∗ _ ∗ _ ∗ _) ⊢ _
  unfold goDotP
  iintro ⟨Hlv, He, ⟨%f9, %f0, %f7, %hidx, Hgo⟩, Hsb, Hss, HO⟩
  iapply (wp_mono frame _ _ fun _ => obl_post (q := 1))
  iapply (wp_mono frame _ _ fun _ => (show iprop(TileDotDefs.goDot (F := F) d (coordsV3 (castC (F := F) 1 c) (castI (F := F) 1 i)) _ _ _ f9 f0 f7 ∗ _ ∗ _ ∗ _)
      ⊢ iprop((∃ f9 f0 f7, ⌜∀ j, 0 ≤ (f0 j).toInt ∧ (f0 j).toInt ≤ 99999⌝ ∗ TileDotDefs.goDot (F := F) d (coordsV3 (castC (F := F) 1 c) (castI (F := F) 1 i)) (tileShare _ _) (tileShare _ _) fullShare f9 f0 f7) ∗ _ ∗ _ ∗ _) from by
    iintro ⟨Hgo, Hrest⟩
    isplitl [Hgo]
    · iexists f9; iexists f0; iexists f7; isplitr; · ipureintro; exact hidx
      iexact Hgo
    · iexact Hrest))
  iapply (hbody d (coordsV3 (castC (F := F) 1 c) (castI (F := F) 1 i)) _ _ _ f9 f0 f7 hidx O W hO)
  isplitl [Hlv]; · iexact Hlv
  isplitl [He]; · iexact He
  isplitl [Hgo]; · iexact Hgo
  isplitl [Hsb]; · iexact Hsb
  isplitl [Hss]; · iexact Hss
  iexact HO

/-- The first tile body's statement: at any grid point, any read shares, any contents with index words in range. -/
def BodyG : Prop :=
  ∀ (d : Dev nD) (L : grid1.Coords) (q6a q6b q2 q4 : PosShare TreeShare)
    (f6 : Buf (Elt F) ((Memref.whole main_v6_scv : Memref sig .scVector .hbm S50176x128 .f32).view.loc (V d (TileG.cV L) (TileG.jV L))))
    (f2 : Buf (Elt F) ((Memref.whole main_v2_scv : Memref sig .scVector .hbm S4096 .i32).view.loc (V d (TileG.cV L) (TileG.jV L))))
    (f4 : Buf (Elt F) ((Memref.whole main_v4_scv : Memref sig .scVector .hbm S4096 .i32).view.loc (V d (TileG.cV L) (TileG.jV L))))
    (hidx2 : ∀ j, 0 ≤ (f2 j).toInt ∧ (f2 j).toInt ≤ 99999) (hidx4 : ∀ j, 0 ≤ (f4 j).toInt ∧ (f4 j).toInt ≤ 99999)
    (O : CellTallies nD τ sig (HIx 2)) (W : Waits sig (HIx 2)) (hO : ∀ g, O g none = 0),
    iprop(levAts (K (F := F)).L (K (F := F)).lev ∗ emp ∗ TileG.goG (F := F) d L q6a q6b q2 q4 f6 f2 f4
        ∗ scopedBufs (V d (TileG.cV L) (TileG.jV L)) ∗ scopedSems0 (V d (TileG.cV L) (TileG.jV L))
        ∗ owes (V d (TileG.cV L) (TileG.jV L)) O W)
      ⊢ wp frame (wpE (defs₀ (F := F)) 𝒱₀ (V d (TileG.cV L) (TileG.jV L)) none) Set.univ
          (cc1__sc_g_body L TileG.tblM (Memref.isWhole_whole _) TileG.posM (Memref.isWhole_whole _)
            TileG.negM (Memref.isWhole_whole _) TileG.gpM (Memref.isWhole_whole _)
            TileG.rawPM (Memref.isWhole_whole _) TileG.rawNM (Memref.isWhole_whole _)
            TileG.idxPM (Memref.isWhole_whole _) TileG.idxNM (Memref.isWhole_whole _)
            TileG.rowsPM (Memref.isWhole_whole _) TileG.rowsNM (Memref.isWhole_whole _)
            TileG.diffM (Memref.isWhole_whole _) cc1_scratch7 cc1_scratch8 cc1_scoped0 cc1_scoped1 cc1_scoped2)
          fun _ => iprop(TileG.goG (F := F) d L q6a q6b q2 q4 f6 f2 f4
            ∗ scopedBufs (V d (TileG.cV L) (TileG.jV L)) ∗ scopedSems0 (V d (TileG.cV L) (TileG.jV L))
            ∗ ∃ W', ⌜∀ p ∈ W', p ∈ W ∨ p.2 = none⌝ ∗ owes (V d (TileG.cV L) (TileG.jV L)) O W')

/-- The first call's tile obligation. -/
theorem tileObl0 (hbody : BodyG (F := F)) : (K (F := F)).TileObl (D (F := F)) 𝒱 (P (F := F)) v₀ 0 := by
  intro d c i O W hO _ _
  simp only [show (P (F := F)).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  show iprop(levAts (K (F := F)).L (K (F := F)).lev ∗ emp ∗ goGP (F := F) d (castC (F := F) 0 c) (castI (F := F) 0 i) ∗ _ ∗ _ ∗ _) ⊢ _
  unfold goGP
  iintro ⟨Hlv, He, ⟨%f6, %f2, %f4, %hidx, Hgo⟩, Hsb, Hss, HO⟩
  iapply (wp_mono frame _ _ fun _ => obl_post (q := 0))
  iapply (wp_mono frame _ _ fun _ => (show iprop(TileG.goG (F := F) d (coordsV1 (castC (F := F) 0 c) (castI (F := F) 0 i)) _ _ _ _ f6 f2 f4 ∗ _ ∗ _ ∗ _)
      ⊢ iprop((∃ f6 f2 f4, ⌜(∀ j, 0 ≤ (f2 j).toInt ∧ (f2 j).toInt ≤ 99999) ∧ (∀ j, 0 ≤ (f4 j).toInt ∧ (f4 j).toInt ≤ 99999)⌝
          ∗ TileG.goG (F := F) d (coordsV1 (castC (F := F) 0 c) (castI (F := F) 0 i)) (tileShareA _ _) (tileShareB _ _) (tileShare _ _) (tileShare _ _) f6 f2 f4) ∗ _ ∗ _ ∗ _) from by
    iintro ⟨Hgo, Hrest⟩
    isplitl [Hgo]
    · iexists f6; iexists f2; iexists f4; isplitr; · ipureintro; exact hidx
      iexact Hgo
    · iexact Hrest))
  iapply (hbody d (coordsV1 (castC (F := F) 0 c) (castI (F := F) 0 i)) _ _ _ _ f6 f2 f4 hidx.1 hidx.2 O W hO)
  isplitl [Hlv]; · iexact Hlv
  isplitl [He]; · iexact He
  isplitl [Hgo]; · iexact Hgo
  isplitl [Hsb]; · iexact Hsb
  isplitl [Hss]; · iexact Hss
  iexact HO

end Cert.KernelIdeal.LaunchObl

end
-- ==== Proof.LaunchOblV.lean ====
/-
  The value claim's tile obligations from the two tile bodies' value forms, at the ideal values.

  The frame's obligation hands a tile its task and takes the same task back, the result slice at contents not named. For
  the value the tile's body is stated with its result NAMED: it ends with the result slice at contents satisfying the
  tile's specification of what it read (`Cert.TileSpec.OutG`, `Cert.TileSpec.OutDot`, at the tile's number). Such a body,
  proved at a symbolic grid point, is the launch theorem's obligation under the value payloads: the task opens to its
  contents and what is known of them, the body runs, and the result closes with that knowledge kept and the tile's
  specification added.
-/
import proofs.«203895_g52347061404180_cont_8to1_c_859_34_alg».proof.Proof.LaunchPayV
import proofs.«203895_g52347061404180_cont_8to1_c_859_34_alg».proof.Proof.LaunchObl

noncomputable section

namespace Cert.KernelIdeal.LaunchOblV

open Cert.KernelIdeal Cert.KernelIdeal.Gen Cert.KernelIdeal.KCommon Cert.KernelIdeal.LaunchPay Cert.KernelIdeal.LaunchPayV
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 2) (Elt Ideal) ℕ UU ℕ

/-- A tile's number is its grid point's: `2 s + c`. -/
theorem wid1_coords (c : Fin 2) (i : Fin 16) : TilePayV.wid1 (coordsV1 c i) = tileNo c i := Fin.ext rfl
theorem wid3_coords (c : Fin 2) (i : Fin 16) : TilePayV.wid3 (coordsV3 c i) = tileNo c i := Fin.ext rfl

/-- The first tile body's VALUE statement: at any grid point, any read shares, any contents with index words in range, the
    body ends with its result rows at contents that are what the tile's specification says of what it read. -/
def BodyGV : Prop :=
  ∀ (d : Dev nD) (L : grid1.Coords) (q6a q6b q2 q4 : PosShare TreeShare)
    (f6 : Buf (Elt Ideal) ((Memref.whole main_v6_scv : Memref sig .scVector .hbm S50176x128 .f32).view.loc (V d (TileG.cV L) (TileG.jV L))))
    (f2 : Buf (Elt Ideal) ((Memref.whole main_v2_scv : Memref sig .scVector .hbm S4096 .i32).view.loc (V d (TileG.cV L) (TileG.jV L))))
    (f4 : Buf (Elt Ideal) ((Memref.whole main_v4_scv : Memref sig .scVector .hbm S4096 .i32).view.loc (V d (TileG.cV L) (TileG.jV L))))
    (hidx2 : ∀ j, 0 ≤ (f2 j).toInt ∧ (f2 j).toInt ≤ 99999) (hidx4 : ∀ j, 0 ≤ (f4 j).toInt ∧ (f4 j).toInt ≤ 99999)
    (O : CellTallies nD τ sig (HIx 2)) (W : Waits sig (HIx 2)) (hO : ∀ g, O g none = 0),
    iprop(levAts (K (F := Ideal)).L (K (F := Ideal)).lev ∗ emp ∗ TileG.goG (F := Ideal) d L q6a q6b q2 q4 f6 f2 f4
        ∗ scopedBufs (V d (TileG.cV L) (TileG.jV L)) ∗ scopedSems0 (V d (TileG.cV L) (TileG.jV L))
        ∗ owes (V d (TileG.cV L) (TileG.jV L)) O W)
      ⊢ wp frame (wpE (defs₀ (F := Ideal)) 𝒱₀ (V d (TileG.cV L) (TileG.jV L)) none) Set.univ
          (cc1__sc_g_body L TileG.tblM (Memref.isWhole_whole _) TileG.posM (Memref.isWhole_whole _)
            TileG.negM (Memref.isWhole_whole _) TileG.gpM (Memref.isWhole_whole _)
            TileG.rawPM (Memref.isWhole_whole _) TileG.rawNM (Memref.isWhole_whole _)
            TileG.idxPM (Memref.isWhole_whole _) TileG.idxNM (Memref.isWhole_whole _)
            TileG.rowsPM (Memref.isWhole_whole _) TileG.rowsNM (Memref.isWhole_whole _)
            TileG.diffM (Memref.isWhole_whole _) cc1_scratch7 cc1_scratch8 cc1_scoped0 cc1_scoped1 cc1_scoped2)
          fun _ => iprop((∃ fo, ⌜Cert.TileSpec.OutG (F := Ideal) (TilePayV.wid1 L) f6 f2 f4 fo⌝
              ∗ TilePayV.goGV (F := Ideal) d L q6a q6b q2 q4 f6 f2 f4 fo)
            ∗ scopedBufs (V d (TileG.cV L) (TileG.jV L)) ∗ scopedSems0 (V d (TileG.cV L) (TileG.jV L))
            ∗ ∃ W', ⌜∀ p ∈ W', p ∈ W ∨ p.2 = none⌝ ∗ owes (V d (TileG.cV L) (TileG.jV L)) O W')

/-- The second tile body's VALUE statement. -/
def BodyDotV : Prop :=
  ∀ (d : Dev nD) (L : grid3.Coords) (q9 q0 q7 : PosShare TreeShare)
    (f9 : Buf (Elt Ideal) ((TileDotDefs.puM).view.loc (V d (TileDotDefs.cV L) (TileDotDefs.jV L))))
    (f0 : Buf (Elt Ideal) ((TileDotDefs.uiM).view.loc (V d (TileDotDefs.cV L) (TileDotDefs.jV L))))
    (f7 : Buf (Elt Ideal) ((TileDotDefs.gpSl L).view.loc (V d (TileDotDefs.cV L) (TileDotDefs.jV L))))
    (hidx : ∀ j, 0 ≤ (f0 j).toInt ∧ (f0 j).toInt ≤ 99999)
    (O : CellTallies nD τ sig (HIx 2)) (W : Waits sig (HIx 2)) (hO : ∀ g, O g none = 0),
    iprop(levAts (K (F := Ideal)).L (K (F := Ideal)).lev ∗ emp ∗ TileDotDefs.goDot (F := Ideal) d L q9 q0 q7 f9 f0 f7
        ∗ scopedBufs (V d (TileDotDefs.cV L) (TileDotDefs.jV L)) ∗ scopedSems0 (V d (TileDotDefs.cV L) (TileDotDefs.jV L))
        ∗ owes (V d (TileDotDefs.cV L) (TileDotDefs.jV L)) O W)
      ⊢ wp frame (wpE (defs₀ (F := Ideal)) 𝒱₀ (V d (TileDotDefs.cV L) (TileDotDefs.jV L)) none) Set.univ
          (cc3__sc_dot_body L TileDotDefs.puM (Memref.isWhole_whole _) TileDotDefs.uiM (Memref.isWhole_whole _)
            TileDotDefs.gpM (Memref.isWhole_whole _) TileDotDefs.outM (Memref.isWhole_whole _)
            TileDotDefs.urawM (Memref.isWhole_whole _) TileDotDefs.uidxM (Memref.isWhole_whole _)
            TileDotDefs.urowsM (Memref.isWhole_whole _) TileDotDefs.gpvM (Memref.isWhole_whole _)
            TileDotDefs.diffsM (Memref.isWhole_whole _) cc3_scratch5 cc3_scratch6 cc3_scoped0 cc3_scoped1)
          fun _ => iprop((∃ fo, ⌜Cert.TileSpec.OutDot (F := Ideal) (TilePayV.wid3 L) f9 f0 f7 fo⌝
              ∗ TilePayV.goDotV (F := Ideal) d L q9 q0 q7 f9 f0 f7 fo)
            ∗ scopedBufs (V d (TileDotDefs.cV L) (TileDotDefs.jV L)) ∗ scopedSems0 (V d (TileDotDefs.cV L) (TileDotDefs.jV L))
            ∗ ∃ W', ⌜∀ p ∈ W', p ∈ W ∨ p.2 = none⌝ ∗ owes (V d (TileDotDefs.cV L) (TileDotDefs.jV L)) O W')

variable (m : (ℓ : Loc nD τ sig) → Buf (Elt Ideal) ℓ)

/-- The first call's tile obligation under the value payloads. -/
theorem tileOblV0 (hbody : BodyGV) : (K (F := Ideal)).TileObl (D (F := Ideal)) 𝒱 (PV m) v₀ 0 := by
  intro d c i O W hO _ _
  simp only [show (PV m).ox = fun _ _ => 0 from rfl, add_zero]
  change _ ⊢ wp _ _ _ (Pipeline.liftProg (defs₀ (F := Ideal) (.scVector ((K (F := Ideal)).core 0 c) ((K (F := Ideal)).sub 0 i)) 1 ())) _
  refine BI.Entails.trans ?_ (Pipeline.wp_liftProg (D (F := Ideal)) (Pipeline.defs_kernel pcfgs defs₀) 𝒱₀ _ Set.univ none _ _)
  have hc : ((K (F := Ideal)).core 0 c).val < grid1.bound 0 ∧ ((K (F := Ideal)).sub 0 i).val < grid1.bound 1 := ⟨c.isLt, i.isLt⟩
  rw [defs₀_vector1]; simp only [SparseCore.onTile, hc, and_self, ↓reduceDIte]
  show iprop(levAts (K (F := Ideal)).L (K (F := Ideal)).lev ∗ emp ∗ goGPV m d (castC (F := Ideal) 0 c) (castI (F := Ideal) 0 i) ∗ _ ∗ _ ∗ _) ⊢ _
  unfold goGPV
  iintro ⟨Hlv, He, ⟨%f6, %f2, %f4, %hin, Hgo⟩, Hsb, Hss, HO⟩
  iapply (wp_mono frame _ _ fun _ => LaunchObl.obl_post (F := Ideal) (q := 0))
  iapply (wp_mono frame _ _ fun _ => (show iprop((∃ fo, ⌜Cert.TileSpec.OutG (F := Ideal) (TilePayV.wid1 (coordsV1 (castC (F := Ideal) 0 c) (castI (F := Ideal) 0 i))) f6 f2 f4 fo⌝
          ∗ TilePayV.goGV (F := Ideal) d (coordsV1 (castC (F := Ideal) 0 c) (castI (F := Ideal) 0 i)) _ _ _ _ f6 f2 f4 fo) ∗ _ ∗ _ ∗ _)
      ⊢ iprop(tdGPV m d (castC (F := Ideal) 0 c) (castI (F := Ideal) 0 i) ∗ _ ∗ _ ∗ _) from by
    unfold tdGPV
    iintro ⟨⟨%fo, %hout, Hgo⟩, Hrest⟩
    isplitl [Hgo]
    · iexists f6; iexists f2; iexists f4; iexists fo; isplitr
      · ipureintro; exact ⟨hin, (wid1_coords _ _) ▸ hout⟩
      iexact Hgo
    · iexact Hrest))
  iapply (hbody d (coordsV1 (castC (F := Ideal) 0 c) (castI (F := Ideal) 0 i)) _ _ _ _ f6 f2 f4 hin.1 hin.2.1 O W hO)
  isplitl [Hlv]; · iexact Hlv
  isplitl [He]; · iexact He
  isplitl [Hgo]; · iexact Hgo
  isplitl [Hsb]; · iexact Hsb
  isplitl [Hss]; · iexact Hss
  iexact HO

/-- The second call's tile obligation under the value payloads. -/
theorem tileOblV1 (hbody : BodyDotV) : (K (F := Ideal)).TileObl (D (F := Ideal)) 𝒱 (PV m) v₀ 1 := by
  intro d c i O W hO _ _
  simp only [show (PV m).ox = fun _ _ => 0 from rfl, add_zero]
  change _ ⊢ wp _ _ _ (Pipeline.liftProg (defs₀ (F := Ideal) (.scVector ((K (F := Ideal)).core 1 c) ((K (F := Ideal)).sub 1 i)) 3 ())) _
  refine BI.Entails.trans ?_ (Pipeline.wp_liftProg (D (F := Ideal)) (Pipeline.defs_kernel pcfgs defs₀) 𝒱₀ _ Set.univ none _ _)
  have hc : ((K (F := Ideal)).core 1 c).val < grid3.bound 0 ∧ ((K (F := Ideal)).sub 1 i).val < grid3.bound 1 := ⟨c.isLt, i.isLt⟩
  rw [defs₀_vector3]; simp only [SparseCore.onTile, hc, and_self, ↓reduceDIte]
  show iprop(levAts (K (F := Ideal)).L (K (F := Ideal)).lev ∗ emp ∗ goDotPV m d (castC (F := Ideal) 1 c) (castI (F := Ideal) 1 i) ∗ _ ∗ _ ∗ _) ⊢ _
  unfold goDotPV
  iintro ⟨Hlv, He, ⟨%f9, %f0, %f7, %hin, Hgo⟩, Hsb, Hss, HO⟩
  iapply (wp_mono frame _ _ fun _ => LaunchObl.obl_post (F := Ideal) (q := 1))
  iapply (wp_mono frame _ _ fun _ => (show iprop((∃ fo, ⌜Cert.TileSpec.OutDot (F := Ideal) (TilePayV.wid3 (coordsV3 (castC (F := Ideal) 1 c) (castI (F := Ideal) 1 i))) f9 f0 f7 fo⌝
          ∗ TilePayV.goDotV (F := Ideal) d (coordsV3 (castC (F := Ideal) 1 c) (castI (F := Ideal) 1 i)) _ _ _ f9 f0 f7 fo) ∗ _ ∗ _ ∗ _)
      ⊢ iprop(tdDotPV m d (castC (F := Ideal) 1 c) (castI (F := Ideal) 1 i) ∗ _ ∗ _ ∗ _) from by
    unfold tdDotPV
    iintro ⟨⟨%fo, %hout, Hgo⟩, Hrest⟩
    isplitl [Hgo]
    · iexists f9; iexists f0; iexists f7; iexists fo; isplitr
      · ipureintro; exact ⟨hin, (wid3_coords _ _) ▸ hout⟩
      iexact Hgo
    · iexact Hrest))
  iapply (hbody d (coordsV3 (castC (F := Ideal) 1 c) (castI (F := Ideal) 1 i)) _ _ _ f9 f0 f7 hin.1 O W hO)
  isplitl [Hlv]; · iexact Hlv
  isplitl [He]; · iexact He
  isplitl [Hgo]; · iexact Hgo
  isplitl [Hsb]; · iexact Hsb
  isplitl [Hss]; · iexact Hss
  iexact HO

end Cert.KernelIdeal.LaunchOblV

end
-- ==== Proof.LaunchSplit.lean ====
/-
  CUTTING THE ARRAYS AMONG THE 32 TILES, AND JOINING THE RESULTS.

  At each of the two SparseCore calls the TensorCore holds the call's arrays whole. A tile's task wants a read share
  of every array all tiles read whole, the tile's own rows of an array the tiles divide among themselves, and its own
  slice of the result at some contents. Here the whole arrays are cut so (`split0`, `split1`) and the result slices
  put together again (`join0`, `join1`). No program is run: this is separation logic over points-to assertions.

  Tile `(c, i)` has number `n = 2 i + c`. An array read whole by all is shared by splitting 32 (or 64) read tokens
  off the full share; the remainder is dropped. The [2048,128] array of differences is cut into the 32 blocks of 64 rows,
  the [4096] result into the 32 blocks of 128 entries: the slices the program takes at its printed offsets
  `128 i + 64 c = 64 n` and `256 i + 128 c = 128 n` are the 32 equal parts along axis 0, which are pairwise disjoint
  and cover the array.
-/
import proofs.«203895_g52347061404180_cont_8to1_c_859_34_alg».proof.Proof.LaunchPay

noncomputable section

namespace Cert.KernelIdeal.LaunchSplit

open Cert.KernelIdeal Cert.KernelIdeal.Gen Cert.KernelIdeal.KCommon Cert.KernelIdeal.LaunchPay
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split)

variable {F : FTy → Type} [FloatOps F]

local notation "𝕄" => MT nD τ sig (HIx 2) (Elt F) ℕ UU ℕ

/-! ## The 32 tiles as pairs, and a family over them as an iterated one -/

/-- The 32 tiles are the pairs (SparseCore, vector subcore): `(c, i) ↦ 2 i + c`. -/
def tileEquiv : Fin 2 × Fin 16 ≃ Fin 32 where
  toFun p := tileNo p.1 p.2
  invFun n := (⟨n.val % 2, Nat.mod_lt _ (by decide)⟩, ⟨n.val / 2, by have := n.isLt; omega⟩)
  left_inv p := by
    obtain ⟨c, i⟩ := p
    have hc := c.isLt; have hi := i.isLt
    refine Prod.ext (Fin.ext ?_) (Fin.ext ?_)
    · show (2 * i.val + c.val) % 2 = c.val; omega
    · show (2 * i.val + c.val) / 2 = i.val; omega
  right_inv n := by
    refine Fin.ext ?_
    show 2 * (n.val / 2) + n.val % 2 = n.val; omega

/-- A family over the 32 tile numbers is the iterated family over SparseCores and vector subcores. -/
theorem bigSep_tiles (Φ : Fin 32 → sProp 𝕄) :
    bigSep Finset.univ Φ = bigSep Finset.univ fun c : Fin 2 => bigSep Finset.univ fun i : Fin 16 => Φ (tileNo c i) := by
  rw [bigSep_univ_equiv tileEquiv Φ, bigSep_univ_prod]; rfl

/-- The 64 halves of the tiles: `(n, b) ↦ 2 n + b`. -/
def halfEquiv : Fin 32 × Fin 2 ≃ Fin 64 where
  toFun p := ⟨2 * p.1.val + p.2.val, by have := p.1.isLt; have := p.2.isLt; omega⟩
  invFun m := (⟨m.val / 2, by have := m.isLt; omega⟩, ⟨m.val % 2, Nat.mod_lt _ (by decide)⟩)
  left_inv p := by
    obtain ⟨n, b⟩ := p
    have hn := n.isLt; have hb := b.isLt
    refine Prod.ext (Fin.ext ?_) (Fin.ext ?_)
    · show (2 * n.val + b.val) / 2 = n.val; omega
    · show (2 * n.val + b.val) % 2 = b.val; omega
  right_inv m := by
    refine Fin.ext ?_
    show 2 * (m.val / 2) + m.val % 2 = m.val; omega

/-- A family over 64 is the family over 32 of the pairs `2 n`, `2 n + 1`. -/
theorem bigSep_halves (Φ : Fin 64 → sProp 𝕄) :
    bigSep Finset.univ Φ = bigSep Finset.univ fun n : Fin 32 =>
      iprop(Φ ⟨2 * n.val, by have := n.isLt; omega⟩ ∗ Φ ⟨2 * n.val + 1, by have := n.isLt; omega⟩) := by
  rw [bigSep_univ_equiv halfEquiv Φ, bigSep_univ_prod]
  refine bigSep_congr fun n _ => ?_
  rw [bigSep_univ_two]; rfl

/-! ## The slices the tiles take are the 32 equal parts along axis 0 -/

theorem hdiv7 : 32 ∣ S2048x128.size 0 := ⟨64, rfl⟩
theorem hdiv10 : 32 ∣ S4096.size 0 := ⟨128, rfl⟩

/-- Tile `n`'s 64 rows of the differences, and its 128 entries of the result. -/
abbrev rows7 (n : Fin 32) : Finset S2048x128.Idx := (Rect.part (s := S2048x128) (a₀ := 0) hdiv7 n).set
abbrev ents10 (n : Fin 32) : Finset S4096.Idx := (Rect.part (s := S4096) (a₀ := 0) hdiv10 n).set

theorem rows7_disjoint : ∀ n ∈ (Finset.univ : Finset (Fin 32)), ∀ n' ∈ (Finset.univ : Finset (Fin 32)), n ≠ n' → Disjoint (rows7 n) (rows7 n') :=
  fun _ _ _ _ h => Rect.part_disjoint hdiv7 h
theorem rows7_cover : (Finset.univ : Finset (Fin 32)).biUnion rows7 = Finset.univ := Rect.biUnion_part hdiv7
theorem ents10_disjoint : ∀ n ∈ (Finset.univ : Finset (Fin 32)), ∀ n' ∈ (Finset.univ : Finset (Fin 32)), n ≠ n' → Disjoint (ents10 n) (ents10 n') :=
  fun _ _ _ _ h => Rect.part_disjoint hdiv10 h
theorem ents10_cover : (Finset.univ : Finset (Fin 32)).biUnion ents10 = Finset.univ := Rect.biUnion_part hdiv10

/-- Unit-stride rectangles at equal offsets and sizes are equal, whatever their in-bounds evidence. -/
theorem unit_eq {s : Shape} {off off' size size' : Fin s.rank → Nat} (ho : off = off') (hs : size = size')
    (p : ∀ a, off a + size a ≤ s.size a) (p' : ∀ a, off' a + size' a ≤ s.size a) :
    Rect.unit (s := s) off size p = Rect.unit off' size' p' := by
  subst ho; subst hs; rfl

/-- The first call's slice of the differences at tile `(c, i)`: offset `128 i + 64 c = 64 (2 i + c)`. -/
theorem rect_g7 (c : Fin 2) (i : Fin 16) :
    Rect.unit (s := S2048x128) (k1_off3 (coordsV1 c i)) S64x128.size (k1_off3_inb (coordsV1 c i))
      = Rect.part (s := S2048x128) (a₀ := 0) hdiv7 (tileNo c i) := by
  refine unit_eq ?_ ?_ _ _
  · rw [k1_off3_eq]; funext a
    match a with
    | 0 => simp [Shape.partIx, Shape.partSize, coordsV1]; omega
    | 1 => simp [Shape.partIx, Shape.partSize]
  · funext a
    match a with
    | 0 => simp [Shape.partSize]
    | 1 => simp [Shape.partSize]

/-- The second call's slice of the differences: the same rows. -/
theorem rect_d7 (c : Fin 2) (i : Fin 16) :
    Rect.unit (s := S2048x128) (k3_off2 (coordsV3 c i)) S64x128.size (k3_off2_inb (coordsV3 c i))
      = Rect.part (s := S2048x128) (a₀ := 0) hdiv7 (tileNo c i) := by
  refine unit_eq ?_ ?_ _ _
  · rw [k3_off2_eq]; funext a
    match a with
    | 0 => simp [Shape.partIx, Shape.partSize, coordsV3]; omega
    | 1 => simp [Shape.partIx, Shape.partSize]
  · funext a
    match a with
    | 0 => simp [Shape.partSize]
    | 1 => simp [Shape.partSize]

/-- The second call's slice of the result at tile `(c, i)`: offset `256 i + 128 c = 128 (2 i + c)`. -/
theorem rect_d10 (c : Fin 2) (i : Fin 16) :
    Rect.unit (s := S4096) (k3_off1 (coordsV3 c i)) S128.size (k3_off1_inb (coordsV3 c i))
      = Rect.part (s := S4096) (a₀ := 0) hdiv10 (tileNo c i) := by
  refine unit_eq ?_ ?_ _ _
  · rw [k3_off1_eq]; funext a
    match a with
    | 0 => simp [Shape.partIx, Shape.partSize, coordsV3]; omega
  · funext a
    match a with
    | 0 => simp [Shape.partSize]

/-- The element sets of the tiles' slices. -/
theorem set_g7 (c : Fin 2) (i : Fin 16) : (TileG.gpSl (coordsV1 c i)).view.set = rows7 (tileNo c i) := by
  show ((View.whole (main_v7_scv : Ref sig .scVector)).slice _).set = _
  rw [View.set_slice_whole, rect_g7]
theorem set_d7 (c : Fin 2) (i : Fin 16) : (TileDotDefs.gpSl (coordsV3 c i)).view.set = rows7 (tileNo c i) := by
  show ((View.whole (main_v7_scv : Ref sig .scVector)).slice _).set = _
  rw [View.set_slice_whole, rect_d7]
theorem set_d10 (c : Fin 2) (i : Fin 16) : (TileDotDefs.outSl (coordsV3 c i)).view.set = ents10 (tileNo c i) := by
  show ((View.whole (main_v10_scv : Ref sig .scVector)).slice _).set = _
  rw [View.set_slice_whole, rect_d10]

/-! ## The arrays' locations, as the TensorCore names them -/

abbrev ℓ6 (d : Dev nD) : Loc nD τ sig := (SparseCore.T d).loc main_v6
abbrev ℓ2 (d : Dev nD) : Loc nD τ sig := (SparseCore.T d).loc main_v2
abbrev ℓ4 (d : Dev nD) : Loc nD τ sig := (SparseCore.T d).loc main_v4
abbrev ℓ7 (d : Dev nD) : Loc nD τ sig := (SparseCore.T d).loc main_v7
abbrev ℓ9 (d : Dev nD) : Loc nD τ sig := (SparseCore.T d).loc main_v9
abbrev ℓ0 (d : Dev nD) : Loc nD τ sig := (SparseCore.T d).loc main_v0
abbrev ℓ10 (d : Dev nD) : Loc nD τ sig := (SparseCore.T d).loc main_v10

/-! ## The second SparseCore call -/

/-- Tile `(c, i)`'s task from its shares spelt at the TensorCore: the locations are the same from every thread, the
    slices' element sets are the parts. -/
theorem tile1 (d : Dev nD) (c : Fin 2) (i : Fin 16) (f9 : Buf (Elt F) (ℓ9 d)) (f0 : Buf (Elt F) (ℓ0 d))
    (f7 : Buf (Elt F) (ℓ7 d)) (hidx : ∀ j, 0 ≤ (f0 j).toInt ∧ (f0 j).toInt ≤ 99999) :
    iprop((ℓ9 d ↦{tileShare c i} f9) ∗ (ℓ0 d ↦{tileShare c i} f0)
        ∗ (ℓ7 d ↦[rows7 (tileNo c i)]{fullShare} f7) ∗ ∃ f, ℓ10 d ↦[ents10 (tileNo c i)]{fullShare} f)
      ⊢ (goDotP (F := F) d c i : sProp 𝕄) := by
  unfold goDotP TileDotDefs.goDot
  rw [set_d7, set_d10]
  iintro ⟨H9, H0, H7, %f, H10⟩
  iexists f9, f0, f7
  isplitr
  · ipureintro; exact hidx
  isplitl [H9]; · iexact H9
  isplitl [H0]; · iexact H0
  isplitl [H7]; · iexact H7
  iexists f; iexact H10

/-- A tile's task gives back its slice of the result. -/
theorem tile1_out (d : Dev nD) (c : Fin 2) (i : Fin 16) :
    (goDotP (F := F) d c i : sProp 𝕄) ⊢ iprop(∃ f, ℓ10 d ↦[ents10 (tileNo c i)]{fullShare} f) := by
  unfold goDotP TileDotDefs.goDot
  rw [set_d10]
  iintro ⟨%f9, %f0, %f7, -, -, -, -, %f, H10⟩
  iexists f; iexact H10

/-- An array held whole, as the 32 tiles' parts of it. -/
theorem pts7_parts (d : Dev nD) (q : PosShare TreeShare) (f : Buf (Elt F) (ℓ7 d)) :
    (ℓ7 d ↦{q} f : sProp 𝕄) = bigSep Finset.univ fun n : Fin 32 => ℓ7 d ↦[rows7 n]{q} f := by
  rw [← pointsTo_biUnion Finset.univ (ℓ := ℓ7 d) rows7 rows7_disjoint, rows7_cover]
theorem pts10_parts (d : Dev nD) (q : PosShare TreeShare) (f : Buf (Elt F) (ℓ10 d)) :
    (ℓ10 d ↦{q} f : sProp 𝕄) = bigSep Finset.univ fun n : Fin 32 => ℓ10 d ↦[ents10 n]{q} f := by
  rw [← pointsTo_biUnion Finset.univ (ℓ := ℓ10 d) ents10 ents10_disjoint, ents10_cover]

/-- An array held whole gives each of `n` readers a read token of it (the remainder is dropped). -/
theorem toks_of_whole {ℓ : Loc nD τ sig} (n : ℕ) (f : Buf (Elt F) ℓ) :
    (ℓ ↦{fullShare} f : sProp 𝕄) ⊢ bigSep Finset.univ fun k : Fin n => ℓ ↦{shareTok fullShare n k} f := by
  refine (pointsTo_toks_split fullShare n).trans ?_
  iintro ⟨-, H⟩; iexact H

theorem some10 (d : Dev nD) (n : Fin 32) (f : Buf (Elt F) (ℓ10 d)) :
    (ℓ10 d ↦[ents10 n]{fullShare} f : sProp 𝕄) ⊢ iprop(∃ f, ℓ10 d ↦[ents10 n]{fullShare} f) := by
  iintro H; iexists f; iexact H

/-- The result array held whole at some contents, as the 32 tiles' slices of it, each at some contents. -/
theorem out10_parts (d : Dev nD) :
    (iprop(∃ f, ℓ10 d ↦{fullShare} f) : sProp 𝕄) ⊢ bigSep Finset.univ fun n : Fin 32 => iprop(∃ f, ℓ10 d ↦[ents10 n]{fullShare} f) := by
  iintro ⟨%f, H⟩
  ihave H' := (Entails.of_eq (pts10_parts d fullShare f)) $$ H
  have hm : (bigSep Finset.univ fun n : Fin 32 => (ℓ10 d ↦[ents10 n]{fullShare} f : sProp 𝕄))
      ⊢ bigSep Finset.univ fun n : Fin 32 => iprop(∃ f, ℓ10 d ↦[ents10 n]{fullShare} f) :=
    bigSep_mono fun n _ => some10 d n f
  iapply hm; iexact H'

/-- The second call's arrays cut among the 32 tile numbers. -/
theorem split1_flat (d : Dev nD) (f9 : Buf (Elt F) (ℓ9 d)) (f0 : Buf (Elt F) (ℓ0 d)) (f7 : Buf (Elt F) (ℓ7 d)) :
    iprop((ℓ9 d ↦{fullShare} f9) ∗ (ℓ0 d ↦{fullShare} f0) ∗ (ℓ7 d ↦{fullShare} f7) ∗ ∃ f, ℓ10 d ↦{fullShare} f)
      ⊢ (bigSep Finset.univ fun n : Fin 32 =>
          iprop((ℓ9 d ↦{shareTok fullShare 32 n} f9) ∗ (ℓ0 d ↦{shareTok fullShare 32 n} f0)
            ∗ (ℓ7 d ↦[rows7 n]{fullShare} f7) ∗ ∃ f, ℓ10 d ↦[ents10 n]{fullShare} f) : sProp 𝕄) := by
  rw [bigSep_sep', bigSep_sep', bigSep_sep']
  iintro ⟨H9, H0, H7, H10⟩
  isplitl [H9]; · iapply (toks_of_whole 32 f9); iexact H9
  isplitl [H0]; · iapply (toks_of_whole 32 f0); iexact H0
  isplitl [H7]; · rw [← pts7_parts]; iexact H7
  iapply (out10_parts d); iexact H10

/-- The second call's arrays cut among the 32 tiles: read tokens of the packed user table and of the user indices,
    the differences' rows outright, the result's entries at some contents. -/
theorem split1 (d : Dev nD) (f9 : Buf (Elt F) (ℓ9 d)) (f0 : Buf (Elt F) (ℓ0 d)) (f7 : Buf (Elt F) (ℓ7 d))
    (hidx : ∀ j, 0 ≤ (f0 j).toInt ∧ (f0 j).toInt ≤ 99999) :
    iprop((ℓ9 d ↦{fullShare} f9) ∗ (ℓ0 d ↦{fullShare} f0) ∗ (ℓ7 d ↦{fullShare} f7) ∗ ∃ f, ℓ10 d ↦{fullShare} f)
      ⊢ (bigSep Finset.univ fun c : Fin 2 => bigSep Finset.univ fun i : Fin 16 => goDotP (F := F) d c i : sProp 𝕄) :=
  (split1_flat d f9 f0 f7).trans ((Entails.of_eq (bigSep_tiles _)).trans
    (bigSep_mono fun c _ => bigSep_mono fun i _ => tile1 d c i f9 f0 f7 hidx))

/-- The 32 result slices, each at some contents, are the result array whole at some contents. -/
theorem out10_join (d : Dev nD) :
    (bigSep Finset.univ fun n : Fin 32 => iprop(∃ f, ℓ10 d ↦[ents10 n]{fullShare} f)) ⊢ (iprop(∃ f, ℓ10 d ↦{fullShare} f) : sProp 𝕄) := by
  refine (bigSep_exists_pi Finset.univ (fun (n : Fin 32) (f : Buf (Elt F) (ℓ10 d)) => (ℓ10 d ↦[ents10 n]{fullShare} f : sProp 𝕄))).trans ?_
  iintro ⟨%fs, H⟩
  ihave H' := (pointsTo_biUnion_join Finset.univ ents10 fs (fs 0) ents10_disjoint) $$ H
  icases H' with ⟨%g, -, Hg⟩
  rw [ents10_cover]
  iexists g; iexact Hg

/-- After the second call: the tiles' tasks give back the result array whole, at some contents. -/
theorem join1 (d : Dev nD) :
    (bigSep Finset.univ fun c : Fin 2 => bigSep Finset.univ fun i : Fin 16 => goDotP (F := F) d c i)
      ⊢ (iprop(∃ f, ℓ10 d ↦{fullShare} f) : sProp 𝕄) :=
  (bigSep_mono fun c _ => bigSep_mono fun i _ => tile1_out d c i).trans
    ((Entails.of_eq (bigSep_tiles fun n : Fin 32 => iprop(∃ f, ℓ10 d ↦[ents10 n]{fullShare} f)).symm).trans (out10_join d))

/-! ## The first SparseCore call -/

/-- Tile `(c, i)`'s task from its shares spelt at the TensorCore. -/
theorem tile0 (d : Dev nD) (c : Fin 2) (i : Fin 16) (f6 : Buf (Elt F) (ℓ6 d)) (f2 : Buf (Elt F) (ℓ2 d)) (f4 : Buf (Elt F) (ℓ4 d))
    (hidx2 : ∀ j, 0 ≤ (f2 j).toInt ∧ (f2 j).toInt ≤ 99999) (hidx4 : ∀ j, 0 ≤ (f4 j).toInt ∧ (f4 j).toInt ≤ 99999) :
    iprop(((ℓ6 d ↦{tileShareA c i} f6) ∗ (ℓ6 d ↦{tileShareB c i} f6)) ∗ (ℓ2 d ↦{tileShare c i} f2) ∗ (ℓ4 d ↦{tileShare c i} f4)
        ∗ ∃ f, ℓ7 d ↦[rows7 (tileNo c i)]{fullShare} f)
      ⊢ (goGP (F := F) d c i : sProp 𝕄) := by
  unfold goGP TileG.goG
  rw [set_g7]
  iintro ⟨⟨H6a, H6b⟩, H2, H4, %f, H7⟩
  iexists f6, f2, f4
  isplitr
  · ipureintro; exact ⟨hidx2, hidx4⟩
  isplitl [H6a]; · iexact H6a
  isplitl [H6b]; · iexact H6b
  isplitl [H2]; · iexact H2
  isplitl [H4]; · iexact H4
  iexists f; iexact H7

/-- A tile's task gives back its rows of the differences. -/
theorem tile0_out (d : Dev nD) (c : Fin 2) (i : Fin 16) :
    (goGP (F := F) d c i : sProp 𝕄) ⊢ iprop(∃ f, ℓ7 d ↦[rows7 (tileNo c i)]{fullShare} f) := by
  unfold goGP TileG.goG
  rw [set_g7]
  iintro ⟨%f6, %f2, %f4, -, -, -, -, -, %f, H7⟩
  iexists f; iexact H7

theorem some7 (d : Dev nD) (n : Fin 32) (f : Buf (Elt F) (ℓ7 d)) :
    (ℓ7 d ↦[rows7 n]{fullShare} f : sProp 𝕄) ⊢ iprop(∃ f, ℓ7 d ↦[rows7 n]{fullShare} f) := by
  iintro H; iexists f; iexact H

/-- The array of differences held whole at some contents, as the 32 tiles' rows of it, each at some contents. -/
theorem out7_parts (d : Dev nD) :
    (iprop(∃ f, ℓ7 d ↦{fullShare} f) : sProp 𝕄) ⊢ bigSep Finset.univ fun n : Fin 32 => iprop(∃ f, ℓ7 d ↦[rows7 n]{fullShare} f) := by
  iintro ⟨%f, H⟩
  ihave H' := (Entails.of_eq (pts7_parts d fullShare f)) $$ H
  have hm : (bigSep Finset.univ fun n : Fin 32 => (ℓ7 d ↦[rows7 n]{fullShare} f : sProp 𝕄))
      ⊢ bigSep Finset.univ fun n : Fin 32 => iprop(∃ f, ℓ7 d ↦[rows7 n]{fullShare} f) :=
    bigSep_mono fun n _ => some7 d n f
  iapply hm; iexact H'

/-- The packed item table held whole gives each tile two read tokens of it: tile `n` the tokens `2 n` and `2 n + 1` of 64. -/
theorem toks6_pairs (d : Dev nD) (f6 : Buf (Elt F) (ℓ6 d)) :
    (ℓ6 d ↦{fullShare} f6 : sProp 𝕄) ⊢ bigSep Finset.univ fun n : Fin 32 =>
      iprop((ℓ6 d ↦{shareTok fullShare 64 ⟨2 * n.val, by have := n.isLt; omega⟩} f6)
        ∗ (ℓ6 d ↦{shareTok fullShare 64 ⟨2 * n.val + 1, by have := n.isLt; omega⟩} f6)) :=
  (toks_of_whole 64 f6).trans (Entails.of_eq (bigSep_halves fun k : Fin 64 => (ℓ6 d ↦{shareTok fullShare 64 k} f6 : sProp 𝕄)))

/-- The first call's arrays cut among the 32 tile numbers. -/
theorem split0_flat (d : Dev nD) (f6 : Buf (Elt F) (ℓ6 d)) (f2 : Buf (Elt F) (ℓ2 d)) (f4 : Buf (Elt F) (ℓ4 d)) :
    iprop((ℓ6 d ↦{fullShare} f6) ∗ (ℓ2 d ↦{fullShare} f2) ∗ (ℓ4 d ↦{fullShare} f4) ∗ ∃ f, ℓ7 d ↦{fullShare} f)
      ⊢ (bigSep Finset.univ fun n : Fin 32 =>
          iprop(((ℓ6 d ↦{shareTok fullShare 64 ⟨2 * n.val, by have := n.isLt; omega⟩} f6)
              ∗ (ℓ6 d ↦{shareTok fullShare 64 ⟨2 * n.val + 1, by have := n.isLt; omega⟩} f6))
            ∗ (ℓ2 d ↦{shareTok fullShare 32 n} f2) ∗ (ℓ4 d ↦{shareTok fullShare 32 n} f4)
            ∗ ∃ f, ℓ7 d ↦[rows7 n]{fullShare} f) : sProp 𝕄) := by
  rw [bigSep_sep', bigSep_sep', bigSep_sep', bigSep_sep']
  iintro ⟨H6, H2, H4, H7⟩
  isplitl [H6]; · rw [← bigSep_sep']; iapply (toks6_pairs d f6); iexact H6
  isplitl [H2]; · iapply (toks_of_whole 32 f2); iexact H2
  isplitl [H4]; · iapply (toks_of_whole 32 f4); iexact H4
  iapply (out7_parts d); iexact H7

/-- The first call's arrays cut among the 32 tiles: two read tokens each of the packed item table, a read token of each
    item index array, the differences' rows at some contents. -/
theorem split0 (d : Dev nD) (f6 : Buf (Elt F) (ℓ6 d)) (f2 : Buf (Elt F) (ℓ2 d)) (f4 : Buf (Elt F) (ℓ4 d))
    (hidx2 : ∀ j, 0 ≤ (f2 j).toInt ∧ (f2 j).toInt ≤ 99999) (hidx4 : ∀ j, 0 ≤ (f4 j).toInt ∧ (f4 j).toInt ≤ 99999) :
    iprop((ℓ6 d ↦{fullShare} f6) ∗ (ℓ2 d ↦{fullShare} f2) ∗ (ℓ4 d ↦{fullShare} f4) ∗ ∃ f, ℓ7 d ↦{fullShare} f)
      ⊢ (bigSep Finset.univ fun c : Fin 2 => bigSep Finset.univ fun i : Fin 16 => goGP (F := F) d c i : sProp 𝕄) :=
  (split0_flat d f6 f2 f4).trans ((Entails.of_eq (bigSep_tiles _)).trans
    (bigSep_mono fun c _ => bigSep_mono fun i _ => tile0 d c i f6 f2 f4 hidx2 hidx4))

/-- The 32 tiles' rows of the differences, each at some contents, are the array whole at some contents. -/
theorem out7_join (d : Dev nD) :
    (bigSep Finset.univ fun n : Fin 32 => iprop(∃ f, ℓ7 d ↦[rows7 n]{fullShare} f)) ⊢ (iprop(∃ f, ℓ7 d ↦{fullShare} f) : sProp 𝕄) := by
  refine (bigSep_exists_pi Finset.univ (fun (n : Fin 32) (f : Buf (Elt F) (ℓ7 d)) => (ℓ7 d ↦[rows7 n]{fullShare} f : sProp 𝕄))).trans ?_
  iintro ⟨%fs, H⟩
  ihave H' := (pointsTo_biUnion_join Finset.univ rows7 fs (fs 0) rows7_disjoint) $$ H
  icases H' with ⟨%g, -, Hg⟩
  rw [rows7_cover]
  iexists g; iexact Hg

/-- After the first call: the tiles' tasks give back the array of differences whole, at some contents. -/
theorem join0 (d : Dev nD) :
    (bigSep Finset.univ fun c : Fin 2 => bigSep Finset.univ fun i : Fin 16 => goGP (F := F) d c i)
      ⊢ (iprop(∃ f, ℓ7 d ↦{fullShare} f) : sProp 𝕄) :=
  (bigSep_mono fun c _ => bigSep_mono fun i _ => tile0_out d c i).trans
    ((Entails.of_eq (bigSep_tiles fun n : Fin 32 => iprop(∃ f, ℓ7 d ↦[rows7 n]{fullShare} f)).symm).trans (out7_join d))

end Cert.KernelIdeal.LaunchSplit

end
-- ==== Proof.LaunchSplitV.lean ====
/-
  CUTTING THE ARRAYS AMONG THE 32 TILES AND JOINING THE RESULTS, FOR THE VALUE CLAIM.

  The same cuts and joins as for the frame, at the ideal values, with the pure facts the value claim needs carried
  along. Going in, what is known of the arrays' contents is put under every tile's task. Coming back, each tile's task
  names the contents `fo` of its slice of the result and says what they are; the joined array agrees with each tile's
  `fo` on that tile's slice, and the entries a tile's specification speaks of lie in its slice: rows
  `64 w + t / 2` of the differences (`t < 128`) are among the rows `[64 w, 64 w + 64)`, entries `128 w + t` of the
  result among `[128 w, 128 w + 128)`.
-/
import proofs.«203895_g52347061404180_cont_8to1_c_859_34_alg».proof.Proof.LaunchPayV
import proofs.«203895_g52347061404180_cont_8to1_c_859_34_alg».proof.Proof.LaunchSplit

noncomputable section

namespace Cert.KernelIdeal.LaunchSplitV

open Cert.KernelIdeal Cert.KernelIdeal.Gen Cert.KernelIdeal.KCommon Cert.KernelIdeal.LaunchPay Cert.KernelIdeal.LaunchSplit
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split)

local notation "𝕄" => MT nD τ sig (HIx 2) (Elt Ideal) ℕ UU ℕ

variable (m : (ℓ : Loc nD τ sig) → Buf (Elt Ideal) ℓ)

/-! ## The entries a tile's specification speaks of lie in its slice -/

/-- Entry `(64 w + t / 2, 64 (t mod 2) + j)` of the differences is in tile `w`'s 64 rows. -/
theorem mem_rows7 (w : Fin 32) (t : Fin 128) (j : Fin 64) :
    (ValueIdx.ix2 (Cert.TileSpec.dRow w t) (Cert.TileSpec.dCol t j) : S2048x128.Idx) ∈ rows7 w := by
  refine Rect.mem_set_unit.mpr fun a => ?_
  have hw := w.isLt; have ht := t.isLt; have hj := j.isLt
  match a with
  | 0 =>
    simp only [Shape.partIx, Shape.partSize, Cert.TileSpec.dRow]
    simp
    omega
  | 1 =>
    simp only [Shape.partIx, Shape.partSize, Cert.TileSpec.dCol]
    simp
    omega

/-- Entry `128 w + t` of the result is among tile `w`'s 128 entries. -/
theorem mem_ents10 (w : Fin 32) (t : Fin 128) :
    (ValueIdx.ix1 (Cert.TileSpec.tri w t) : S4096.Idx) ∈ ents10 w := by
  refine Rect.mem_set_unit.mpr fun a => ?_
  have hw := w.isLt; have ht := t.isLt
  match a with
  | 0 =>
    simp only [Shape.partIx, Shape.partSize, Cert.TileSpec.tri]
    simp
    omega

/-! ## The first SparseCore call -/

/-- Tile `(c, i)`'s task from its shares spelt at the TensorCore, the facts about the contents under its binder. -/
theorem tile0V (d : Dev nD) (c : Fin 2) (i : Fin 16) (f6 : Buf (Elt Ideal) (ℓ6 d)) (f2 : Buf (Elt Ideal) (ℓ2 d)) (f4 : Buf (Elt Ideal) (ℓ4 d))
    (h : LaunchPayV.In0 m d f6 f2 f4) :
    iprop(((ℓ6 d ↦{tileShareA c i} f6) ∗ (ℓ6 d ↦{tileShareB c i} f6)) ∗ (ℓ2 d ↦{tileShare c i} f2) ∗ (ℓ4 d ↦{tileShare c i} f4)
        ∗ ∃ f, ℓ7 d ↦[rows7 (tileNo c i)]{fullShare} f)
      ⊢ (LaunchPayV.goGPV m d c i : sProp 𝕄) := by
  unfold LaunchPayV.goGPV TileG.goG
  rw [set_g7]
  iintro ⟨⟨H6a, H6b⟩, H2, H4, %f, H7⟩
  iexists f6, f2, f4
  isplitr
  · ipureintro; exact h
  isplitl [H6a]; · iexact H6a
  isplitl [H6b]; · iexact H6b
  isplitl [H2]; · iexact H2
  isplitl [H4]; · iexact H4
  iexists f; iexact H7

/-- The first call's arrays cut among the 32 tiles, what is known of their contents under each tile's task. -/
theorem split0V (d : Dev nD) (f6 : Buf (Elt Ideal) (ℓ6 d)) (f2 : Buf (Elt Ideal) (ℓ2 d)) (f4 : Buf (Elt Ideal) (ℓ4 d))
    (h : LaunchPayV.In0 m d f6 f2 f4) :
    iprop((ℓ6 d ↦{fullShare} f6) ∗ (ℓ2 d ↦{fullShare} f2) ∗ (ℓ4 d ↦{fullShare} f4) ∗ ∃ f, ℓ7 d ↦{fullShare} f)
      ⊢ (bigSep Finset.univ fun c : Fin 2 => bigSep Finset.univ fun i : Fin 16 => LaunchPayV.goGPV m d c i : sProp 𝕄) :=
  (split0_flat d f6 f2 f4).trans ((Entails.of_eq (bigSep_tiles _)).trans
    (bigSep_mono fun c _ => bigSep_mono fun i _ => tile0V m d c i f6 f2 f4 h))

/-- What tile `w`'s rows of the differences hold when its task is done: what the tile leaves of some contents
    satisfying the call's facts. -/
def Done0 (d : Dev nD) (w : Fin 32) (fo : Buf (Elt Ideal) (ℓ7 d)) : Prop :=
  ∃ f6 f2 f4, LaunchPayV.In0 m d f6 f2 f4 ∧ Cert.TileSpec.OutG (F := Ideal) w f6 f2 f4 fo

/-- A tile's finished task gives back its rows of the differences, at contents of which `Done0` holds. -/
theorem tile0V_out (d : Dev nD) (c : Fin 2) (i : Fin 16) :
    (LaunchPayV.tdGPV m d c i : sProp 𝕄) ⊢ iprop(∃ fo, ⌜Done0 m d (tileNo c i) fo⌝ ∗ ℓ7 d ↦[rows7 (tileNo c i)]{fullShare} fo) := by
  unfold LaunchPayV.tdGPV TilePayV.goGV
  rw [set_g7]
  iintro ⟨%f6, %f2, %f4, %fo, %h, -, -, -, -, H7⟩
  iexists fo
  isplitr
  · ipureintro; exact ⟨f6, f2, f4, h.1, h.2⟩
  iexact H7

/-- The 32 tiles' rows, each at contents of which `Done0` holds, are the array whole at contents agreeing with each
    tile's on that tile's rows. -/
theorem out7_joinV (d : Dev nD) :
    (bigSep Finset.univ fun n : Fin 32 => iprop(∃ fo, ⌜Done0 m d n fo⌝ ∗ ℓ7 d ↦[rows7 n]{fullShare} fo))
      ⊢ (iprop(∃ g7 : Buf (Elt Ideal) (ℓ7 d), ⌜∀ n : Fin 32, ∃ fo, Done0 m d n fo ∧ ∀ x ∈ rows7 n, g7 x = fo x⌝ ∗ ℓ7 d ↦{fullShare} g7) : sProp 𝕄) := by
  refine (bigSep_exists_pi Finset.univ (fun (n : Fin 32) (fo : Buf (Elt Ideal) (ℓ7 d)) =>
    (iprop(⌜Done0 m d n fo⌝ ∗ ℓ7 d ↦[rows7 n]{fullShare} fo) : sProp 𝕄))).trans ?_
  iintro ⟨%fs, H⟩
  ihave H1 := (bigSep_pure_sep Finset.univ (fun n : Fin 32 => Done0 m d n (fs n))
    (fun n : Fin 32 => (ℓ7 d ↦[rows7 n]{fullShare} fs n : sProp 𝕄))) $$ H
  icases H1 with ⟨%hd, H2⟩
  ihave H' := (pointsTo_biUnion_join Finset.univ rows7 fs (fs 0) rows7_disjoint) $$ H2
  icases H' with ⟨%g, %hg, Hg⟩
  rw [rows7_cover]
  iexists g
  isplitr
  · ipureintro; exact fun n => ⟨fs n, hd n (Finset.mem_univ n), fun x hx => hg n (Finset.mem_univ n) x hx⟩
  iexact Hg

/-- After the first call: the array of differences whole, at contents that on every tile's entries are what the tile
    leaves of contents satisfying the call's facts. -/
theorem join0V (d : Dev nD) :
    (bigSep Finset.univ fun c : Fin 2 => bigSep Finset.univ fun i : Fin 16 => LaunchPayV.tdGPV m d c i)
      ⊢ (iprop(∃ g7 : Buf (Elt Ideal) (ℓ7 d), ⌜∀ (c : Fin 2) (i : Fin 16), ∃ f6 f2 f4 fo, LaunchPayV.In0 m d f6 f2 f4
            ∧ Cert.TileSpec.OutG (F := Ideal) (tileNo c i) f6 f2 f4 fo
            ∧ ∀ (t : Fin 128) (j : Fin 64),
                g7 (ValueIdx.ix2 (Cert.TileSpec.dRow (tileNo c i) t) (Cert.TileSpec.dCol t j))
                  = fo (ValueIdx.ix2 (Cert.TileSpec.dRow (tileNo c i) t) (Cert.TileSpec.dCol t j))⌝
          ∗ ℓ7 d ↦{fullShare} g7) : sProp 𝕄) := by
  refine (bigSep_mono fun c _ => bigSep_mono fun i _ => tile0V_out m d c i).trans
    ((Entails.of_eq (bigSep_tiles fun n : Fin 32 =>
      iprop(∃ fo, ⌜Done0 m d n fo⌝ ∗ ℓ7 d ↦[rows7 n]{fullShare} fo)).symm).trans ((out7_joinV m d).trans ?_))
  iintro ⟨%g7, %hg, H⟩
  iexists g7
  isplitr
  · ipureintro
    intro c i
    obtain ⟨fo, ⟨f6, f2, f4, hin, hout⟩, hag⟩ := hg (tileNo c i)
    exact ⟨f6, f2, f4, fo, hin, hout, fun t j => hag _ (mem_rows7 (tileNo c i) t j)⟩
  iexact H

/-! ## The second SparseCore call -/

/-- Tile `(c, i)`'s task from its shares spelt at the TensorCore, the facts about the contents under its binder. -/
theorem tile1V (d : Dev nD) (c : Fin 2) (i : Fin 16) (f9 : Buf (Elt Ideal) (ℓ9 d)) (f0 : Buf (Elt Ideal) (ℓ0 d)) (f7 : Buf (Elt Ideal) (ℓ7 d))
    (h : LaunchPayV.In1 m d (tileNo c i) f9 f0 f7) :
    iprop((ℓ9 d ↦{tileShare c i} f9) ∗ (ℓ0 d ↦{tileShare c i} f0)
        ∗ (ℓ7 d ↦[rows7 (tileNo c i)]{fullShare} f7) ∗ ∃ f, ℓ10 d ↦[ents10 (tileNo c i)]{fullShare} f)
      ⊢ (LaunchPayV.goDotPV m d c i : sProp 𝕄) := by
  unfold LaunchPayV.goDotPV TileDotDefs.goDot
  rw [set_d7, set_d10]
  iintro ⟨H9, H0, H7, %f, H10⟩
  iexists f9, f0, f7
  isplitr
  · ipureintro; exact h
  isplitl [H9]; · iexact H9
  isplitl [H0]; · iexact H0
  isplitl [H7]; · iexact H7
  iexists f; iexact H10

/-- The second call's arrays cut among the 32 tiles, what is known of their contents under each tile's task. -/
theorem split1V (d : Dev nD) (f9 : Buf (Elt Ideal) (ℓ9 d)) (f0 : Buf (Elt Ideal) (ℓ0 d)) (f7 : Buf (Elt Ideal) (ℓ7 d))
    (h : ∀ (c : Fin 2) (i : Fin 16), LaunchPayV.In1 m d (tileNo c i) f9 f0 f7) :
    iprop((ℓ9 d ↦{fullShare} f9) ∗ (ℓ0 d ↦{fullShare} f0) ∗ (ℓ7 d ↦{fullShare} f7) ∗ ∃ f, ℓ10 d ↦{fullShare} f)
      ⊢ (bigSep Finset.univ fun c : Fin 2 => bigSep Finset.univ fun i : Fin 16 => LaunchPayV.goDotPV m d c i : sProp 𝕄) :=
  (split1_flat d f9 f0 f7).trans ((Entails.of_eq (bigSep_tiles _)).trans
    (bigSep_mono fun c _ => bigSep_mono fun i _ => tile1V m d c i f9 f0 f7 (h c i)))

/-- What tile `w`'s entries of the result hold when its task is done. -/
def Done1 (d : Dev nD) (w : Fin 32) (fo : Buf (Elt Ideal) (ℓ10 d)) : Prop :=
  ∃ f9 f0 f7, LaunchPayV.In1 m d w f9 f0 f7 ∧ Cert.TileSpec.OutDot (F := Ideal) w f9 f0 f7 fo

/-- A tile's finished task gives back its entries of the result, at contents of which `Done1` holds. -/
theorem tile1V_out (d : Dev nD) (c : Fin 2) (i : Fin 16) :
    (LaunchPayV.tdDotPV m d c i : sProp 𝕄) ⊢ iprop(∃ fo, ⌜Done1 m d (tileNo c i) fo⌝ ∗ ℓ10 d ↦[ents10 (tileNo c i)]{fullShare} fo) := by
  unfold LaunchPayV.tdDotPV TilePayV.goDotV
  rw [set_d10]
  iintro ⟨%f9, %f0, %f7, %fo, %h, -, -, -, H10⟩
  iexists fo
  isplitr
  · ipureintro; exact ⟨f9, f0, f7, h.1, h.2⟩
  iexact H10

/-- The 32 tiles' entries, each at contents of which `Done1` holds, are the result whole at contents agreeing with
    each tile's on that tile's entries. -/
theorem out10_joinV (d : Dev nD) :
    (bigSep Finset.univ fun n : Fin 32 => iprop(∃ fo, ⌜Done1 m d n fo⌝ ∗ ℓ10 d ↦[ents10 n]{fullShare} fo))
      ⊢ (iprop(∃ g10 : Buf (Elt Ideal) (ℓ10 d), ⌜∀ n : Fin 32, ∃ fo, Done1 m d n fo ∧ ∀ x ∈ ents10 n, g10 x = fo x⌝ ∗ ℓ10 d ↦{fullShare} g10) : sProp 𝕄) := by
  refine (bigSep_exists_pi Finset.univ (fun (n : Fin 32) (fo : Buf (Elt Ideal) (ℓ10 d)) =>
    (iprop(⌜Done1 m d n fo⌝ ∗ ℓ10 d ↦[ents10 n]{fullShare} fo) : sProp 𝕄))).trans ?_
  iintro ⟨%fs, H⟩
  ihave H1 := (bigSep_pure_sep Finset.univ (fun n : Fin 32 => Done1 m d n (fs n))
    (fun n : Fin 32 => (ℓ10 d ↦[ents10 n]{fullShare} fs n : sProp 𝕄))) $$ H
  icases H1 with ⟨%hd, H2⟩
  ihave H' := (pointsTo_biUnion_join Finset.univ ents10 fs (fs 0) ents10_disjoint) $$ H2
  icases H' with ⟨%g, %hg, Hg⟩
  rw [ents10_cover]
  iexists g
  isplitr
  · ipureintro; exact fun n => ⟨fs n, hd n (Finset.mem_univ n), fun x hx => hg n (Finset.mem_univ n) x hx⟩
  iexact Hg

/-- After the second call: the result whole, at contents that on every tile's entries are what the tile leaves of
    contents satisfying the call's facts. -/
theorem join1V (d : Dev nD) :
    (bigSep Finset.univ fun c : Fin 2 => bigSep Finset.univ fun i : Fin 16 => LaunchPayV.tdDotPV m d c i)
      ⊢ (iprop(∃ g10 : Buf (Elt Ideal) (ℓ10 d), ⌜∀ (c : Fin 2) (i : Fin 16), ∃ f9 f0 f7 fo, LaunchPayV.In1 m d (tileNo c i) f9 f0 f7
            ∧ Cert.TileSpec.OutDot (F := Ideal) (tileNo c i) f9 f0 f7 fo
            ∧ ∀ t : Fin 128, g10 (ValueIdx.ix1 (Cert.TileSpec.tri (tileNo c i) t)) = fo (ValueIdx.ix1 (Cert.TileSpec.tri (tileNo c i) t))⌝
          ∗ ℓ10 d ↦{fullShare} g10) : sProp 𝕄) := by
  refine (bigSep_mono fun c _ => bigSep_mono fun i _ => tile1V_out m d c i).trans
    ((Entails.of_eq (bigSep_tiles fun n : Fin 32 =>
      iprop(∃ fo, ⌜Done1 m d n fo⌝ ∗ ℓ10 d ↦[ents10 n]{fullShare} fo)).symm).trans ((out10_joinV m d).trans ?_))
  iintro ⟨%g10, %hg, H⟩
  iexists g10
  isplitr
  · ipureintro
    intro c i
    obtain ⟨fo, ⟨f9, f0, f7, hin, hout⟩, hag⟩ := hg (tileNo c i)
    exact ⟨f9, f0, f7, fo, hin, hout, fun t => hag _ (mem_ents10 (tileNo c i) t)⟩
  iexact H

end Cert.KernelIdeal.LaunchSplitV

end
-- ==== Proof.HostGlue.lean ====
/-
  THE KERNEL PROGRAM'S HOST LINES, READ AT AN INDEX. Between its kernels the program only moves words: it flattens the
  users' index column, slices the items' index table into its two columns and flattens each, transposes each feature
  table, reshapes the flat score array into a block (read in the module of the loss value) and reads the one-element
  result as a scalar. Each is stated for values of any type — no arithmetic is involved — and with its shape fact a
  variable, so that it applies whichever proof of the fact the program's line cites.
-/
import proofs.«203895_g52347061404180_cont_8to1_c_859_34_alg».proof.KernelIdeal
import Idealize.ShloMosaic.Lib.ValueIdx
import Idealize.ShloMosaic.Lib.Pipeline.Value
import Idealize.ShloMosaic.Lib.ValueLayout

noncomputable section

namespace Cert.KernelIdeal.HostGlue

open Cert.KernelIdeal Idealize.ShloMosaic Idealize.ShloMosaic.ValueIdx

variable {α : Type}

/-- (a) The users' index column `[4096, 1]` flattened to `[4096]`: entry `b` is the column's entry `(b, 0)`. -/
theorem users_flat (u : S4096x1.Idx → α) (h : S4096x1.ShapeCasts S4096) (b : Fin 4096) :
    shapeCast S4096 u h (ix1 b) = u (ix2 b (0 : Fin 1)) := by
  refine shapeCast_apply u h (ix1 b) (ix2 b (0 : Fin 1)) ?_
  rw [Shape.rowMajor_val_two, Shape.rowMajor_val_one]
  show b.val * 1 + 0 = b.val
  omega

/-- A column slice `[0:4096, c:c+1]` of the items' index table read at `(b, 0)`: the table's entry `(b, c)`. -/
theorem column_apply (items : S4096x2.Idx → α) (c : Fin 2) (hs : S4096x2.Slices ![0, c.val] S4096x1) (b : Fin 4096)
    (z : Fin 1) : extractStridedSlice S4096x1 ![0, c.val] items hs (ix2 b z) = items (ix2 b c) := by
  refine extractStridedSlice_apply _ items hs (ix2 b z) (ix2 b c) fun a => ?_
  have hz : z.val = 0 := by omega
  match a with
  | ⟨0, _⟩ => show b.val = 0 + b.val; omega
  | ⟨1, _⟩ => show c.val = c.val + z.val; omega

/-- (b) The positive items' indices: column 0 of the table, flattened; entry `b` is the table's entry `(b, 0)`. -/
theorem pos_flat (items : S4096x2.Idx → α) (hs : S4096x2.Slices ![0, 0] S4096x1) (h : S4096x1.ShapeCasts S4096)
    (b : Fin 4096) :
    shapeCast S4096 (extractStridedSlice S4096x1 ![0, 0] items hs) h (ix1 b) = items (ix2 b (0 : Fin 2)) :=
  (users_flat _ h b).trans (column_apply items (0 : Fin 2) hs b 0)

/-- (b) The negative items' indices: column 1 of the table, flattened; entry `b` is the table's entry `(b, 1)`. -/
theorem neg_flat (items : S4096x2.Idx → α) (hs : S4096x2.Slices ![0, 1] S4096x1) (h : S4096x1.ShapeCasts S4096)
    (b : Fin 4096) :
    shapeCast S4096 (extractStridedSlice S4096x1 ![0, 1] items hs) h (ix1 b) = items (ix2 b (1 : Fin 2)) :=
  (users_flat _ h b).trans (column_apply items (1 : Fin 2) hs b 0)

/-- (c) A feature table transposed to `[64, 100000]`: its entry `(k, r)` is the table's entry `(r, k)`. -/
theorem transposed_apply (t : S100000x64.Idx → α) (h : S100000x64.Transposes [1, 0] S64x100000) (k : Fin 64)
    (r : Fin 100000) : transpose S64x100000 [1, 0] t h (ix2 k r) = t (ix2 r k) := by
  refine transpose_apply [1, 0] t h (ix2 k r) (ix2 r k) fun b => ?_
  match b with
  | ⟨0, _⟩ => rfl
  | ⟨1, _⟩ => rfl

/-- (d) The one-element `[1, 1]` result read as a scalar: its entry `(0, 0)`. -/
theorem scalar_of_unit (x : S1x1.Idx → α) (h : S1x1.ShapeCasts S_) (j : S_.Idx) :
    shapeCast S_ x h j = x (ix2 (0 : Fin 1) (0 : Fin 1)) := by
  refine shapeCast_apply x h j (ix2 (0 : Fin 1) (0 : Fin 1)) ?_
  rw [Shape.rowMajor_val_two]
  have hj : (S_.rowMajor j).val < 1 := (S_.rowMajor j).isLt
  show 0 * 1 + 0 = (S_.rowMajor j).val
  omega

end Cert.KernelIdeal.HostGlue

end
-- ==== Proof.FlatRange.lean ====
/-
  THE INDEX ARRAYS THE SPARSECORE CALLS READ NAME TABLE ROWS. The program's first host lines flatten the users' index
  column and the two columns of the items' index table; the input domain says every index word of the two argument
  arrays is in [0, 99999] as a signed word. Moving words keeps them: the three flattened arrays hold words in that
  range. The integer half of the input domain is read back whatever the float type (the two conjuncts on the feature
  tables are not needed here and are dropped).
-/
import proofs.«203895_g52347061404180_cont_8to1_c_859_34_alg».proof.Proof.MainTC
import proofs.«203895_g52347061404180_cont_8to1_c_859_34_alg».proof.Pre_input_domain
import proofs.«203895_g52347061404180_cont_8to1_c_859_34_alg».proof.Proof.Gen.Pre_input_domain
import proofs.«203895_g52347061404180_cont_8to1_c_859_34_alg».proof.Proof.HostGlue
import Idealize.ShloMosaic.Lib.ReduceAll
import Idealize.ShloMosaic.Lib.ValueIdx
import Idealize.ShloMosaic.Lib.StableHlo.Run

noncomputable section

namespace Cert.KernelIdeal.FlatRange

open Cert.KernelIdeal Cert.KernelIdeal.Gen Cert.KernelIdeal.MainTC
open Idealize.ShloMosaic Idealize.ShloMosaic.ValueIdx

variable {F : FTy → Type} [FloatOps F]

/-! ## The integer half of the input domain, whatever the float type -/

/-- The scalar shape has one index. -/
instance : Subsingleton Cert.Pre_input_domain.S_.Idx := ⟨fun a b => funext fun d => d.elim0⟩

theorem toInt_zero32 : (0#32 : BitVec 32).toInt = 0 := by decide
theorem toInt_99999 : (99999#32 : BitVec 32).toInt = 99999 := by decide

/-- An index word that passes the two signed comparisons is in `[0, 99999]`. -/
theorem range_of_cmp (w : BitVec 32)
    (h : IntOp.andi (IntOp.cmpi .sge w 0#32) (IntOp.cmpi .sle w 99999#32) = 1#1) : 0 ≤ w.toInt ∧ w.toInt ≤ 99999 := by
  obtain ⟨h0, h1⟩ := IntOp.andi_eq_one.mp h
  have a := IntOp.cmpi_sge.mp h0
  have b := IntOp.cmpi_sle.mp h1
  rw [toInt_zero32] at a
  rw [toInt_99999] at b
  exact ⟨a, b⟩

/-- Where the printed predicate is true, every user and item index word is in `[0, 99999]` (signed). -/
theorem int_facts [Cert.Pre_input_domain.Facts] (users : IVec Cert.Pre_input_domain.S4096x1 32) (items : IVec Cert.Pre_input_domain.S4096x2 32)
    (uf itf : FVec F Cert.Pre_input_domain.S100000x64 .f32)
    (h : Cert.Pre_input_domain.fn (F := F) users items uf itf = (fun _ => 1#1)) :
    (∀ i, 0 ≤ (users i).toInt ∧ (users i).toInt ≤ 99999) ∧ (∀ i, 0 ≤ (items i).toInt ∧ (items i).toInt ≤ 99999) := by
  have h0 := congrFun h ix0
  dsimp only [Cert.Pre_input_domain.fn, Cert.Pre_input_domain.fn_part1] at h0
  obtain ⟨h15, h21⟩ := IntOp.andi_eq_one.mp h0
  obtain ⟨h8, h14⟩ := IntOp.andi_eq_one.mp h15
  exact ⟨fun i => range_of_cmp (users i) (Host.reduce_andi_all _ _ _ _ _ h14 i),
    fun i => range_of_cmp (items i) (Host.reduce_andi_all _ _ _ _ _ h21 i)⟩

/-! ## The flattened arrays after the first host lines -/

section Flat

variable (m : (ℓ : Loc nD τ sig) → Buf (Elt F) ℓ)

set_option backward.isDefEq.respectTransparency.types false in
/-- The flattened users' indices: the users' column reshaped. -/
theorem W1_v0 (d : Dev nD) : W1 (F := F) m d (Proc.devRef .tc main_v0)
    = shapeCast S4096 (m (d, Proc.devRef .tc main_arg0)) shapeCasts_S4096x1_S4096 := by
  unfold W1 opsA
  after_results
  rfl

set_option backward.isDefEq.respectTransparency.types false in
/-- The flattened positive items' indices: column 0 of the items' table, reshaped. -/
theorem W1_v2 (d : Dev nD) : W1 (F := F) m d (Proc.devRef .tc main_v2)
    = shapeCast S4096 (extractStridedSlice S4096x1 ![0, 0] (m (d, Proc.devRef .tc main_arg1)) slices_S4096x2_S4096x1_0_0) shapeCasts_S4096x1_S4096 := by
  unfold W1 opsA
  after_results
  rfl

set_option backward.isDefEq.respectTransparency.types false in
/-- The flattened negative items' indices: column 1 of the items' table, reshaped. -/
theorem W1_v4 (d : Dev nD) : W1 (F := F) m d (Proc.devRef .tc main_v4)
    = shapeCast S4096 (extractStridedSlice S4096x1 ![0, 1] (m (d, Proc.devRef .tc main_arg1)) slices_S4096x2_S4096x1_0_1) shapeCasts_S4096x1_S4096 := by
  unfold W1 opsA
  after_results
  rfl

/-- A flat array whose every entry is in range is in range. -/
theorem range_flat (u : S4096.Idx → BitVec 32) (h : ∀ b : Fin 4096, 0 ≤ (u (ix1 b)).toInt ∧ (u (ix1 b)).toInt ≤ 99999) :
    InRange u := fun j => by rw [eq_ix1 j]; exact h _

/-- THE THREE FLATTENED INDEX ARRAYS HOLD TABLE ROWS' NAMES, on every device, under the input domain. -/
theorem flat_ranges [Cert.Pre_input_domain.Facts]
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) = (fun _ => 1#1)) (d : Dev nD) :
    InRange (W1 (F := F) m d (Proc.devRef .tc main_v2)) ∧ InRange (W1 (F := F) m d (Proc.devRef .tc main_v4))
      ∧ InRange (W1 (F := F) m d (Proc.devRef .tc main_v0)) := by
  obtain ⟨hu, hi⟩ := int_facts (F := F) _ _ _ _ (hpre d)
  refine ⟨?_, ?_, ?_⟩
  · rw [W1_v2]; exact range_flat _ fun b => by rw [HostGlue.pos_flat]; exact hi _
  · rw [W1_v4]; exact range_flat _ fun b => by rw [HostGlue.neg_flat]; exact hi _
  · rw [W1_v0]; exact range_flat _ fun b => by rw [HostGlue.users_flat]; exact hu _

end Flat

end Cert.KernelIdeal.FlatRange

end
-- ==== Proof.RegionPackValue.lean ====
/-
  WHAT A PACKING CALL LEAVES IN ITS OUTPUT ARRAY, READ. The pipeline's relational proof data says the array `main_v6` ends as
  its entry contents overwritten, point by point, through each point's block of 12544 rows by what the body may have
  left in the staging buffer there: the packing of the two blocks fetched at the point. Read at an index: row
  `12544 g + r` holds that packing's row `r` at grid point `g` (the four blocks are disjoint and in order), and a
  fetched block's entry at a column inside the table is the transposed table's entry `main_v5` holds. At the ideal values
  this is the table packed, two table rows per row.
-/
import proofs.«203895_g52347061404180_cont_8to1_c_859_34_alg».proof.Proof.KCommon
import proofs.«203895_g52347061404180_cont_8to1_c_859_34_alg».proof.Proof.Gen.KernelIdeal.Launch
import proofs.«203895_g52347061404180_cont_8to1_c_859_34_alg».proof.Proof.Gen.KernelIdeal.Points
import proofs.«203895_g52347061404180_cont_8to1_c_859_34_alg».proof.Proof.Gen.KernelIdeal.Skeleton
import Idealize.ShloMosaic.Lib.Pipeline.Value
import Idealize.ShloMosaic.Lib.ValueIdx
import proofs.«203895_g52347061404180_cont_8to1_c_859_34_alg».proof.Proof.RegionPack
import proofs.«203895_g52347061404180_cont_8to1_c_859_34_alg».proof.Proof.KernelValue
import proofs.«203895_g52347061404180_cont_8to1_c_859_34_alg».proof.Proof.HostGlue
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RegionPackValue

open Cert.KernelIdeal Cert.KernelIdeal.Gen Cert.KernelIdeal.KCommon
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

open Cert.KernelIdeal.RegionPack
open Idealize.ShloMosaic.ValueIdx

section Value

variable (x5 : Vec F S64x100000 .f32) (y6 : Vec F S50176x128 .f32) (n : ℕ)

/-- An index of the output array is in a point's block iff each coordinate is in the block's range on its axis. -/
theorem mem_blk0_2 (t : Fin cfg0.N) (i : S50176x128.Idx) :
    i ∈ ((cfg0.win 2).blk t).view.set ↔ ∀ a : Fin 2, win0_2.index t a * S12544x128.size a ≤ (i a).val ∧ (i a).val < win0_2.index t a * S12544x128.size a + S12544x128.size a := by
  show i ∈ ((View.whole main_v6).slice (win0_2.rect t)).set ↔ _
  rw [View.set_slice_whole, Rect.mem_set_unit]
  exact Iff.rfl

/-- The output window's block index at a point: the point along the rows, zero along the columns. -/
theorem idx0_2 : ∀ t : Fin cfg0.N, win0_2.index t (0 : Fin 2) = t.val ∧ win0_2.index t (1 : Fin 2) = 0 :=
  (by decide +kernel : ∀ t : Fin grid0.N, _)

/-- One write-back read at an index outside the point's rows: as before. -/
theorem step_of_not_mem (c : Dev nD) (t : Fin cfg0.N) (G₀ : Buf (Elt F) ((cfg0.win 2).arr.view.loc (c : Thread nD τ)))
    (X : (cfg0.win 2).block.Idx → Elt F (cfg0.win 2).elt) (i : S50176x128.Idx)
    (h : ¬ (t.val * 12544 ≤ (i 0).val ∧ (i 0).val < t.val * 12544 + 12544)) :
    ((cfg0.win 2).blk t).view.write (Elt F) G₀ ((cfg0.win 2).cut (cfg0.grid.coords t) X) Finset.univ i = G₀ i := by
  refine View.write_of_not_mem _ _ _ ?_
  rw [View.setOn_univ, mem_blk0_2]
  intro hm
  have h0 := hm 0
  obtain ⟨e0, -⟩ := idx0_2 t
  rw [e0] at h0
  exact h h0

/-- One write-back read at an index in the point's rows: what the body left there. -/
theorem step_of_mem (c : Dev nD) (t : Fin cfg0.N) (G₀ : Buf (Elt F) ((cfg0.win 2).arr.view.loc (c : Thread nD τ)))
    (X : Vec F S12544x128 .f32) (r : Fin 12544) (k : Fin 128) (hr : t.val * 12544 + r.val < 50176) :
    ((cfg0.win 2).blk t).view.write (Elt F) G₀ ((cfg0.win 2).cut (cfg0.grid.coords t) X) Finset.univ
        (ix2 (⟨t.val * 12544 + r.val, hr⟩ : Fin 50176) k) = X (ix2 r k) := by
  have he : ((cfg0.win 2).blk t).view.emb (ix2 r k) = ix2 (⟨t.val * 12544 + r.val, hr⟩ : Fin 50176) k := by
    obtain ⟨e0, e1⟩ := idx0_2 t
    funext a; apply Fin.ext
    match a with
    | ⟨0, _⟩ => show win0_2.index t (0 : Fin 2) * 12544 + 1 * r.val = t.val * 12544 + r.val; rw [e0]; omega
    | ⟨1, _⟩ => show win0_2.index t (1 : Fin 2) * 128 + 1 * k.val = k.val; rw [e1]; omega
  rw [← he, View.write_emb_of_mem _ _ (Finset.mem_univ _)]
  rfl

end Value

section Fetched

variable (x5 : Vec F S64x100000 .f32)

/-- The input windows' block indices and cut sizes, decided over the grid: the first window reads column block `t`, never
    cut; the second column block `t + 4`, cut at the table's 100000 columns. -/
theorem in_facts0 : ∀ t : Fin cfg0.N,
    win0_0.index t (0 : Fin 2) = 0 ∧ win0_0.index t (1 : Fin 2) = t.val
    ∧ win0_0.xsize (grid0.coords t) (0 : Fin 2) = 64 ∧ win0_0.xsize (grid0.coords t) (1 : Fin 2) = 12544
    ∧ win0_1.index t (0 : Fin 2) = 0 ∧ win0_1.index t (1 : Fin 2) = t.val + 4
    ∧ win0_1.xsize (grid0.coords t) (0 : Fin 2) = 64
    ∧ win0_1.xsize (grid0.coords t) (1 : Fin 2) = min 12544 (100000 - (t.val + 4) * 12544) :=
  (by decide +kernel : ∀ t : Fin grid0.N, _)

/-- The first input window's fetched buffer at row `k`, column `r`: the transposed table's entry in column block `t`. -/
theorem fet0_0_apply (c : Dev nD) (t : Fin cfg0.N) (d) (k : Fin 64) (r : Fin 12544) (h : t.val * 12544 + r.val < 100000) :
    fet0_0 x5 c t d (ix2 k r) = x5 (ix2 k (⟨t.val * 12544 + r.val, h⟩ : Fin 100000)) := by
  obtain ⟨e0, e1, s0, s1, -⟩ := in_facts0 t
  have hm : (cfg0.win 0).moved (cfg0.grid.coords t) (ix2 k r) = true := ((cfg0.win 0).moved_iff _ _).mpr fun a => by
    match a with
    | ⟨0, _⟩ => show k.val < win0_0.xsize (grid0.coords t) (0 : Fin 2); rw [s0]; exact k.isLt
    | ⟨1, _⟩ => show r.val < win0_0.xsize (grid0.coords t) (1 : Fin 2); rw [s1]; exact r.isLt
  unfold fet0_0 Pipeline.Window.fill
  rw [dif_pos hm]
  unfold blk0_0
  show x5 (((cfg0.win 0).blk t).view.emb _) = _
  congr 1
  funext a; apply Fin.ext
  match a with
  | ⟨0, _⟩ => show win0_0.index t (0 : Fin 2) * 64 + 1 * k.val = k.val; rw [e0]; omega
  | ⟨1, _⟩ => show win0_0.index t (1 : Fin 2) * 12544 + 1 * r.val = t.val * 12544 + r.val; rw [e1]; omega

/-- The second input window's, where the column lies inside the table: the entry in column block `t + 4`. -/
theorem fet0_1_apply (c : Dev nD) (t : Fin cfg0.N) (d) (k : Fin 64) (r : Fin 12544) (h : (t.val + 4) * 12544 + r.val < 100000) :
    fet0_1 x5 c t d (ix2 k r) = x5 (ix2 k (⟨(t.val + 4) * 12544 + r.val, h⟩ : Fin 100000)) := by
  obtain ⟨-, -, -, -, e0, e1, s0, s1⟩ := in_facts0 t
  have hm : (cfg0.win 1).moved (cfg0.grid.coords t) (ix2 k r) = true := ((cfg0.win 1).moved_iff _ _).mpr fun a => by
    match a with
    | ⟨0, _⟩ => show k.val < win0_1.xsize (grid0.coords t) (0 : Fin 2); rw [s0]; exact k.isLt
    | ⟨1, _⟩ => show r.val < win0_1.xsize (grid0.coords t) (1 : Fin 2); rw [s1]; have := r.isLt; omega
  unfold fet0_1 Pipeline.Window.fill
  rw [dif_pos hm]
  unfold blk0_1
  show x5 (((cfg0.win 1).blk t).view.emb _) = _
  congr 1
  funext a; apply Fin.ext
  match a with
  | ⟨0, _⟩ => show win0_1.index t (0 : Fin 2) * 64 + 1 * k.val = k.val; rw [e0]; omega
  | ⟨1, _⟩ => show win0_1.index t (1 : Fin 2) * 12544 + 1 * r.val = (t.val + 4) * 12544 + r.val; rw [e1]; omega

end Fetched

section Blocks

variable (x5 : Vec F S64x100000 .f32) (y6 : Vec F S50176x128 .f32) (n : ℕ)

/-- What the body may leave in the output window's buffer at a point: the packing of two fetched blocks. -/
theorem leaves0_2 (c : Dev nD) (t : Fin cfg0.N) (X) (h : (rdat0 x5 y6 n c).Leaves 2 t X) :
    ∃ d0 d1, X = k0_pay1 (fet0_0 x5 c t d0) (fet0_1 x5 c t d1) := by
  obtain ⟨Y, -, ha⟩ := h
  obtain ⟨d0, d1, e⟩ := (after0_2 x5 y6 n c t Y X).mp ha
  exact ⟨d0, d1, e.trans (out0_2_eq _ _)⟩

/-- WHAT THE FOUR WRITE-BACKS LEAVE: rows `12544 g ..` of the output array hold the packing of two blocks fetched at
    grid point `g` — column block `g` of the transposed table, and column block `g + 4` in whatever the buffer held
    before past the table's edge. -/
theorem packs0_blocks (c : Dev nD) (p : Vec F S50176x128 .f32) (hp : Packs0 x5 y6 n c p) :
    ∃ (dlo : Fin 4 → (cfg0.win 0).block.Idx → Elt F (cfg0.win 0).elt) (dhi : Fin 4 → (cfg0.win 1).block.Idx → Elt F (cfg0.win 1).elt),
      ∀ (g : Fin 4) (r : Fin 12544) (k : Fin 128),
        p (ix2 (⟨12544 * g.val + r.val, by have := g.isLt; have := r.isLt; omega⟩ : Fin 50176) k)
          = k0_pay1 (fet0_0 x5 c (⟨g.val, g.isLt⟩ : Fin cfg0.N) (dlo g)) (fet0_1 x5 c (⟨g.val, g.isLt⟩ : Fin cfg0.N) (dhi g)) (ix2 r k) := by
  unfold Packs0 at hp
  rw [show cfg0.N = t0_3.val + 1 from rfl, (rdat0 x5 y6 n c).ArrAt_succ 2 t0_3, if_pos (flush0_2 t0_3)] at hp
  obtain ⟨G3, X3, hG3, hL3, rfl⟩ := hp
  rw [show t0_3.val = t0_2.val + 1 from rfl, (rdat0 x5 y6 n c).ArrAt_succ 2 t0_2, if_pos (flush0_2 t0_2)] at hG3
  obtain ⟨G2, X2, hG2, hL2, rfl⟩ := hG3
  rw [show t0_2.val = t0_1.val + 1 from rfl, (rdat0 x5 y6 n c).ArrAt_succ 2 t0_1, if_pos (flush0_2 t0_1)] at hG2
  obtain ⟨G1, X1, hG1, hL1, rfl⟩ := hG2
  rw [show t0_1.val = t0_0.val + 1 from rfl, (rdat0 x5 y6 n c).ArrAt_succ 2 t0_0, if_pos (flush0_2 t0_0)] at hG1
  obtain ⟨G0, X0, -, hL0, rfl⟩ := hG1
  obtain ⟨a0, b0, rfl⟩ := leaves0_2 x5 y6 n c t0_0 X0 hL0
  obtain ⟨a1, b1, rfl⟩ := leaves0_2 x5 y6 n c t0_1 X1 hL1
  obtain ⟨a2, b2, rfl⟩ := leaves0_2 x5 y6 n c t0_2 X2 hL2
  obtain ⟨a3, b3, rfl⟩ := leaves0_2 x5 y6 n c t0_3 X3 hL3
  refine ⟨fun | ⟨0, _⟩ => a0 | ⟨1, _⟩ => a1 | ⟨2, _⟩ => a2 | ⟨3, _⟩ => a3, fun | ⟨0, _⟩ => b0 | ⟨1, _⟩ => b1 | ⟨2, _⟩ => b2 | ⟨3, _⟩ => b3, ?_⟩
  intro g r k
  have hr := r.isLt
  match g with
  | ⟨0, _⟩ =>
    rw [step_of_not_mem c t0_3 _ _ _ (by show ¬ (3 * 12544 ≤ 12544 * 0 + r.val ∧ _); omega),
      step_of_not_mem c t0_2 _ _ _ (by show ¬ (2 * 12544 ≤ 12544 * 0 + r.val ∧ _); omega),
      step_of_not_mem c t0_1 _ _ _ (by show ¬ (1 * 12544 ≤ 12544 * 0 + r.val ∧ _); omega)]
    exact (congrArg _ (show ix2 (⟨12544 * 0 + r.val, _⟩ : Fin 50176) k = ix2 (⟨t0_0.val * 12544 + r.val, by show 0 * 12544 + r.val < 50176; omega⟩ : Fin 50176) k from
      congrArg (fun z => ix2 z k) (Fin.ext (by show 12544 * 0 + r.val = 0 * 12544 + r.val; omega)))).trans (step_of_mem c t0_0 _ _ r k _)
  | ⟨1, _⟩ =>
    rw [step_of_not_mem c t0_3 _ _ _ (by show ¬ (3 * 12544 ≤ 12544 * 1 + r.val ∧ _); omega),
      step_of_not_mem c t0_2 _ _ _ (by show ¬ (2 * 12544 ≤ 12544 * 1 + r.val ∧ _); omega)]
    exact (congrArg _ (show ix2 (⟨12544 * 1 + r.val, _⟩ : Fin 50176) k = ix2 (⟨t0_1.val * 12544 + r.val, by show 1 * 12544 + r.val < 50176; omega⟩ : Fin 50176) k from
      congrArg (fun z => ix2 z k) (Fin.ext (by show 12544 * 1 + r.val = 1 * 12544 + r.val; omega)))).trans (step_of_mem c t0_1 _ _ r k _)
  | ⟨2, _⟩ =>
    rw [step_of_not_mem c t0_3 _ _ _ (by show ¬ (3 * 12544 ≤ 12544 * 2 + r.val ∧ _); omega)]
    exact (congrArg _ (show ix2 (⟨12544 * 2 + r.val, _⟩ : Fin 50176) k = ix2 (⟨t0_2.val * 12544 + r.val, by show 2 * 12544 + r.val < 50176; omega⟩ : Fin 50176) k from
      congrArg (fun z => ix2 z k) (Fin.ext (by show 12544 * 2 + r.val = 2 * 12544 + r.val; omega)))).trans (step_of_mem c t0_2 _ _ r k _)
  | ⟨3, _⟩ =>
    exact (congrArg _ (show ix2 (⟨12544 * 3 + r.val, _⟩ : Fin 50176) k = ix2 (⟨t0_3.val * 12544 + r.val, by show 3 * 12544 + r.val < 50176; omega⟩ : Fin 50176) k from
      congrArg (fun z => ix2 z k) (Fin.ext (by show 12544 * 3 + r.val = 3 * 12544 + r.val; omega)))).trans (step_of_mem c t0_3 _ _ r k _)

end Blocks

/-! ## At the ideal values -/

section AtIdeal

/-- WHAT THE PACKING CALL LEAVES OF A TABLE'S TRANSPOSE IS THE TABLE PACKED: table row `i` in row `i` (columns 0..63)
    for `i < 50176`, in row `i - 50176` (columns 64..127) from there on. The entries computed from a clipped block's
    words past the table's edge are those the packing says nothing of. -/
theorem packs0_isPacked (t : FVec Ideal S100000x64 .f32) (h : S100000x64.Transposes [1, 0] S64x100000)
    (y6 : Vec Ideal S50176x128 .f32) (n : ℕ) (c : Dev nD) (p : Vec Ideal S50176x128 .f32)
    (hp : Packs0 (F := Ideal) (transpose S64x100000 [1, 0] t h) y6 n c p) : Cert.KernelValue.IsPacked t p := by
  obtain ⟨dlo, dhi, hblk⟩ := packs0_blocks _ y6 n c p hp
  refine Cert.KernelValue.packed_of_blocks t p
    (fun g => fet0_0 (transpose S64x100000 [1, 0] t h) c ⟨g.val, g.isLt⟩ (dlo g))
    (fun g => fet0_1 (transpose S64x100000 [1, 0] t h) c ⟨g.val, g.isLt⟩ (dhi g)) hblk ?_ ?_
  · intro g k r
    have hg := g.isLt; have hr := r.isLt
    rw [fet0_0_apply _ c ⟨g.val, g.isLt⟩ _ k r (by show g.val * 12544 + r.val < 100000; omega), HostGlue.transposed_apply]
    exact congrArg (fun z => t (ix2 z k)) (Fin.ext (by show g.val * 12544 + r.val = 12544 * g.val + r.val; omega))
  · intro g k r hin
    have hg := g.isLt; have hr := r.isLt
    rw [fet0_1_apply _ c ⟨g.val, g.isLt⟩ _ k r (by show (g.val + 4) * 12544 + r.val < 100000; omega), HostGlue.transposed_apply]
    exact congrArg (fun z => t (ix2 z k)) (Fin.ext (by show (g.val + 4) * 12544 + r.val = 50176 + 12544 * g.val + r.val; omega))

end AtIdeal

end Cert.KernelIdeal.RegionPackValue

end
-- ==== Proof.RegionPack2Value.lean ====
/-
  WHAT A PACKING CALL LEAVES IN ITS OUTPUT ARRAY, READ. The pipeline's relational proof data says the array `main_v9` ends as
  its entry contents overwritten, point by point, through each point's block of 12544 rows by what the body may have
  left in the staging buffer there: the packing of the two blocks fetched at the point. Read at an index: row
  `12544 g + r` holds that packing's row `r` at grid point `g` (the four blocks are disjoint and in order), and a
  fetched block's entry at a column inside the table is the transposed table's entry `main_v8` holds. At the ideal values
  this is the table packed, two table rows per row.
-/
import proofs.«203895_g52347061404180_cont_8to1_c_859_34_alg».proof.Proof.KCommon
import proofs.«203895_g52347061404180_cont_8to1_c_859_34_alg».proof.Proof.Gen.KernelIdeal.Launch
import proofs.«203895_g52347061404180_cont_8to1_c_859_34_alg».proof.Proof.Gen.KernelIdeal.Points
import proofs.«203895_g52347061404180_cont_8to1_c_859_34_alg».proof.Proof.Gen.KernelIdeal.Skeleton
import Idealize.ShloMosaic.Lib.Pipeline.Value
import Idealize.ShloMosaic.Lib.ValueIdx
import proofs.«203895_g52347061404180_cont_8to1_c_859_34_alg».proof.Proof.RegionPack2
import proofs.«203895_g52347061404180_cont_8to1_c_859_34_alg».proof.Proof.KernelValue
import proofs.«203895_g52347061404180_cont_8to1_c_859_34_alg».proof.Proof.HostGlue
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RegionPack2Value

open Cert.KernelIdeal Cert.KernelIdeal.Gen Cert.KernelIdeal.KCommon
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

open Cert.KernelIdeal.RegionPack2
open Idealize.ShloMosaic.ValueIdx

section Value

variable (x8 : Vec F S64x100000 .f32) (y9 : Vec F S50176x128 .f32) (n : ℕ)

/-- An index of the output array is in a point's block iff each coordinate is in the block's range on its axis. -/
theorem mem_blk0_2 (t : Fin cfg2.N) (i : S50176x128.Idx) :
    i ∈ ((cfg2.win 2).blk t).view.set ↔ ∀ a : Fin 2, win2_2.index t a * S12544x128.size a ≤ (i a).val ∧ (i a).val < win2_2.index t a * S12544x128.size a + S12544x128.size a := by
  show i ∈ ((View.whole main_v9).slice (win2_2.rect t)).set ↔ _
  rw [View.set_slice_whole, Rect.mem_set_unit]
  exact Iff.rfl

/-- The output window's block index at a point: the point along the rows, zero along the columns. -/
theorem idx0_2 : ∀ t : Fin cfg2.N, win2_2.index t (0 : Fin 2) = t.val ∧ win2_2.index t (1 : Fin 2) = 0 :=
  (by decide +kernel : ∀ t : Fin grid2.N, _)

/-- One write-back read at an index outside the point's rows: as before. -/
theorem step_of_not_mem (c : Dev nD) (t : Fin cfg2.N) (G₀ : Buf (Elt F) ((cfg2.win 2).arr.view.loc (c : Thread nD τ)))
    (X : (cfg2.win 2).block.Idx → Elt F (cfg2.win 2).elt) (i : S50176x128.Idx)
    (h : ¬ (t.val * 12544 ≤ (i 0).val ∧ (i 0).val < t.val * 12544 + 12544)) :
    ((cfg2.win 2).blk t).view.write (Elt F) G₀ ((cfg2.win 2).cut (cfg2.grid.coords t) X) Finset.univ i = G₀ i := by
  refine View.write_of_not_mem _ _ _ ?_
  rw [View.setOn_univ, mem_blk0_2]
  intro hm
  have h0 := hm 0
  obtain ⟨e0, -⟩ := idx0_2 t
  rw [e0] at h0
  exact h h0

/-- One write-back read at an index in the point's rows: what the body left there. -/
theorem step_of_mem (c : Dev nD) (t : Fin cfg2.N) (G₀ : Buf (Elt F) ((cfg2.win 2).arr.view.loc (c : Thread nD τ)))
    (X : Vec F S12544x128 .f32) (r : Fin 12544) (k : Fin 128) (hr : t.val * 12544 + r.val < 50176) :
    ((cfg2.win 2).blk t).view.write (Elt F) G₀ ((cfg2.win 2).cut (cfg2.grid.coords t) X) Finset.univ
        (ix2 (⟨t.val * 12544 + r.val, hr⟩ : Fin 50176) k) = X (ix2 r k) := by
  have he : ((cfg2.win 2).blk t).view.emb (ix2 r k) = ix2 (⟨t.val * 12544 + r.val, hr⟩ : Fin 50176) k := by
    obtain ⟨e0, e1⟩ := idx0_2 t
    funext a; apply Fin.ext
    match a with
    | ⟨0, _⟩ => show win2_2.index t (0 : Fin 2) * 12544 + 1 * r.val = t.val * 12544 + r.val; rw [e0]; omega
    | ⟨1, _⟩ => show win2_2.index t (1 : Fin 2) * 128 + 1 * k.val = k.val; rw [e1]; omega
  rw [← he, View.write_emb_of_mem _ _ (Finset.mem_univ _)]
  rfl

end Value

section Fetched

variable (x8 : Vec F S64x100000 .f32)

/-- The input windows' block indices and cut sizes, decided over the grid: the first window reads column block `t`, never
    cut; the second column block `t + 4`, cut at the table's 100000 columns. -/
theorem in_facts0 : ∀ t : Fin cfg2.N,
    win2_0.index t (0 : Fin 2) = 0 ∧ win2_0.index t (1 : Fin 2) = t.val
    ∧ win2_0.xsize (grid2.coords t) (0 : Fin 2) = 64 ∧ win2_0.xsize (grid2.coords t) (1 : Fin 2) = 12544
    ∧ win2_1.index t (0 : Fin 2) = 0 ∧ win2_1.index t (1 : Fin 2) = t.val + 4
    ∧ win2_1.xsize (grid2.coords t) (0 : Fin 2) = 64
    ∧ win2_1.xsize (grid2.coords t) (1 : Fin 2) = min 12544 (100000 - (t.val + 4) * 12544) :=
  (by decide +kernel : ∀ t : Fin grid2.N, _)

/-- The first input window's fetched buffer at row `k`, column `r`: the transposed table's entry in column block `t`. -/
theorem fet0_0_apply (c : Dev nD) (t : Fin cfg2.N) (d) (k : Fin 64) (r : Fin 12544) (h : t.val * 12544 + r.val < 100000) :
    fet0_0 x8 c t d (ix2 k r) = x8 (ix2 k (⟨t.val * 12544 + r.val, h⟩ : Fin 100000)) := by
  obtain ⟨e0, e1, s0, s1, -⟩ := in_facts0 t
  have hm : (cfg2.win 0).moved (cfg2.grid.coords t) (ix2 k r) = true := ((cfg2.win 0).moved_iff _ _).mpr fun a => by
    match a with
    | ⟨0, _⟩ => show k.val < win2_0.xsize (grid2.coords t) (0 : Fin 2); rw [s0]; exact k.isLt
    | ⟨1, _⟩ => show r.val < win2_0.xsize (grid2.coords t) (1 : Fin 2); rw [s1]; exact r.isLt
  unfold fet0_0 Pipeline.Window.fill
  rw [dif_pos hm]
  unfold blk0_0
  show x8 (((cfg2.win 0).blk t).view.emb _) = _
  congr 1
  funext a; apply Fin.ext
  match a with
  | ⟨0, _⟩ => show win2_0.index t (0 : Fin 2) * 64 + 1 * k.val = k.val; rw [e0]; omega
  | ⟨1, _⟩ => show win2_0.index t (1 : Fin 2) * 12544 + 1 * r.val = t.val * 12544 + r.val; rw [e1]; omega

/-- The second input window's, where the column lies inside the table: the entry in column block `t + 4`. -/
theorem fet0_1_apply (c : Dev nD) (t : Fin cfg2.N) (d) (k : Fin 64) (r : Fin 12544) (h : (t.val + 4) * 12544 + r.val < 100000) :
    fet0_1 x8 c t d (ix2 k r) = x8 (ix2 k (⟨(t.val + 4) * 12544 + r.val, h⟩ : Fin 100000)) := by
  obtain ⟨-, -, -, -, e0, e1, s0, s1⟩ := in_facts0 t
  have hm : (cfg2.win 1).moved (cfg2.grid.coords t) (ix2 k r) = true := ((cfg2.win 1).moved_iff _ _).mpr fun a => by
    match a with
    | ⟨0, _⟩ => show k.val < win2_1.xsize (grid2.coords t) (0 : Fin 2); rw [s0]; exact k.isLt
    | ⟨1, _⟩ => show r.val < win2_1.xsize (grid2.coords t) (1 : Fin 2); rw [s1]; have := r.isLt; omega
  unfold fet0_1 Pipeline.Window.fill
  rw [dif_pos hm]
  unfold blk0_1
  show x8 (((cfg2.win 1).blk t).view.emb _) = _
  congr 1
  funext a; apply Fin.ext
  match a with
  | ⟨0, _⟩ => show win2_1.index t (0 : Fin 2) * 64 + 1 * k.val = k.val; rw [e0]; omega
  | ⟨1, _⟩ => show win2_1.index t (1 : Fin 2) * 12544 + 1 * r.val = (t.val + 4) * 12544 + r.val; rw [e1]; omega

end Fetched

section Blocks

variable (x8 : Vec F S64x100000 .f32) (y9 : Vec F S50176x128 .f32) (n : ℕ)

/-- What the body may leave in the output window's buffer at a point: the packing of two fetched blocks. -/
theorem leaves0_2 (c : Dev nD) (t : Fin cfg2.N) (X) (h : (rdat0 x8 y9 n c).Leaves 2 t X) :
    ∃ d0 d1, X = k2_pay1 (fet0_0 x8 c t d0) (fet0_1 x8 c t d1) := by
  obtain ⟨Y, -, ha⟩ := h
  obtain ⟨d0, d1, e⟩ := (after0_2 x8 y9 n c t Y X).mp ha
  exact ⟨d0, d1, e.trans (out0_2_eq _ _)⟩

/-- WHAT THE FOUR WRITE-BACKS LEAVE: rows `12544 g ..` of the output array hold the packing of two blocks fetched at
    grid point `g` — column block `g` of the transposed table, and column block `g + 4` in whatever the buffer held
    before past the table's edge. -/
theorem packs2_blocks (c : Dev nD) (p : Vec F S50176x128 .f32) (hp : Packs2 x8 y9 n c p) :
    ∃ (dlo : Fin 4 → (cfg2.win 0).block.Idx → Elt F (cfg2.win 0).elt) (dhi : Fin 4 → (cfg2.win 1).block.Idx → Elt F (cfg2.win 1).elt),
      ∀ (g : Fin 4) (r : Fin 12544) (k : Fin 128),
        p (ix2 (⟨12544 * g.val + r.val, by have := g.isLt; have := r.isLt; omega⟩ : Fin 50176) k)
          = k2_pay1 (fet0_0 x8 c (⟨g.val, g.isLt⟩ : Fin cfg2.N) (dlo g)) (fet0_1 x8 c (⟨g.val, g.isLt⟩ : Fin cfg2.N) (dhi g)) (ix2 r k) := by
  unfold Packs2 at hp
  rw [show cfg2.N = t2_3.val + 1 from rfl, (rdat0 x8 y9 n c).ArrAt_succ 2 t2_3, if_pos (flush2_2 t2_3)] at hp
  obtain ⟨G3, X3, hG3, hL3, rfl⟩ := hp
  rw [show t2_3.val = t2_2.val + 1 from rfl, (rdat0 x8 y9 n c).ArrAt_succ 2 t2_2, if_pos (flush2_2 t2_2)] at hG3
  obtain ⟨G2, X2, hG2, hL2, rfl⟩ := hG3
  rw [show t2_2.val = t2_1.val + 1 from rfl, (rdat0 x8 y9 n c).ArrAt_succ 2 t2_1, if_pos (flush2_2 t2_1)] at hG2
  obtain ⟨G1, X1, hG1, hL1, rfl⟩ := hG2
  rw [show t2_1.val = t2_0.val + 1 from rfl, (rdat0 x8 y9 n c).ArrAt_succ 2 t2_0, if_pos (flush2_2 t2_0)] at hG1
  obtain ⟨G0, X0, -, hL0, rfl⟩ := hG1
  obtain ⟨a0, b0, rfl⟩ := leaves0_2 x8 y9 n c t2_0 X0 hL0
  obtain ⟨a1, b1, rfl⟩ := leaves0_2 x8 y9 n c t2_1 X1 hL1
  obtain ⟨a2, b2, rfl⟩ := leaves0_2 x8 y9 n c t2_2 X2 hL2
  obtain ⟨a3, b3, rfl⟩ := leaves0_2 x8 y9 n c t2_3 X3 hL3
  refine ⟨fun | ⟨0, _⟩ => a0 | ⟨1, _⟩ => a1 | ⟨2, _⟩ => a2 | ⟨3, _⟩ => a3, fun | ⟨0, _⟩ => b0 | ⟨1, _⟩ => b1 | ⟨2, _⟩ => b2 | ⟨3, _⟩ => b3, ?_⟩
  intro g r k
  have hr := r.isLt
  match g with
  | ⟨0, _⟩ =>
    rw [step_of_not_mem c t2_3 _ _ _ (by show ¬ (3 * 12544 ≤ 12544 * 0 + r.val ∧ _); omega),
      step_of_not_mem c t2_2 _ _ _ (by show ¬ (2 * 12544 ≤ 12544 * 0 + r.val ∧ _); omega),
      step_of_not_mem c t2_1 _ _ _ (by show ¬ (1 * 12544 ≤ 12544 * 0 + r.val ∧ _); omega)]
    exact (congrArg _ (show ix2 (⟨12544 * 0 + r.val, _⟩ : Fin 50176) k = ix2 (⟨t2_0.val * 12544 + r.val, by show 0 * 12544 + r.val < 50176; omega⟩ : Fin 50176) k from
      congrArg (fun z => ix2 z k) (Fin.ext (by show 12544 * 0 + r.val = 0 * 12544 + r.val; omega)))).trans (step_of_mem c t2_0 _ _ r k _)
  | ⟨1, _⟩ =>
    rw [step_of_not_mem c t2_3 _ _ _ (by show ¬ (3 * 12544 ≤ 12544 * 1 + r.val ∧ _); omega),
      step_of_not_mem c t2_2 _ _ _ (by show ¬ (2 * 12544 ≤ 12544 * 1 + r.val ∧ _); omega)]
    exact (congrArg _ (show ix2 (⟨12544 * 1 + r.val, _⟩ : Fin 50176) k = ix2 (⟨t2_1.val * 12544 + r.val, by show 1 * 12544 + r.val < 50176; omega⟩ : Fin 50176) k from
      congrArg (fun z => ix2 z k) (Fin.ext (by show 12544 * 1 + r.val = 1 * 12544 + r.val; omega)))).trans (step_of_mem c t2_1 _ _ r k _)
  | ⟨2, _⟩ =>
    rw [step_of_not_mem c t2_3 _ _ _ (by show ¬ (3 * 12544 ≤ 12544 * 2 + r.val ∧ _); omega)]
    exact (congrArg _ (show ix2 (⟨12544 * 2 + r.val, _⟩ : Fin 50176) k = ix2 (⟨t2_2.val * 12544 + r.val, by show 2 * 12544 + r.val < 50176; omega⟩ : Fin 50176) k from
      congrArg (fun z => ix2 z k) (Fin.ext (by show 12544 * 2 + r.val = 2 * 12544 + r.val; omega)))).trans (step_of_mem c t2_2 _ _ r k _)
  | ⟨3, _⟩ =>
    exact (congrArg _ (show ix2 (⟨12544 * 3 + r.val, _⟩ : Fin 50176) k = ix2 (⟨t2_3.val * 12544 + r.val, by show 3 * 12544 + r.val < 50176; omega⟩ : Fin 50176) k from
      congrArg (fun z => ix2 z k) (Fin.ext (by show 12544 * 3 + r.val = 3 * 12544 + r.val; omega)))).trans (step_of_mem c t2_3 _ _ r k _)

end Blocks

/-! ## At the ideal values -/

section AtIdeal

/-- WHAT THE PACKING CALL LEAVES OF A TABLE'S TRANSPOSE IS THE TABLE PACKED: table row `i` in row `i` (columns 0..63)
    for `i < 50176`, in row `i - 50176` (columns 64..127) from there on. The entries computed from a clipped block's
    words past the table's edge are those the packing says nothing of. -/
theorem packs2_isPacked (t : FVec Ideal S100000x64 .f32) (h : S100000x64.Transposes [1, 0] S64x100000)
    (y9 : Vec Ideal S50176x128 .f32) (n : ℕ) (c : Dev nD) (p : Vec Ideal S50176x128 .f32)
    (hp : Packs2 (F := Ideal) (transpose S64x100000 [1, 0] t h) y9 n c p) : Cert.KernelValue.IsPacked t p := by
  obtain ⟨dlo, dhi, hblk⟩ := packs2_blocks _ y9 n c p hp
  -- the two packing calls' payloads are one function
  rw [show @k2_pay1 Ideal _ = @k0_pay1 Ideal _ from rfl] at hblk
  refine Cert.KernelValue.packed_of_blocks t p
    (fun g => fet0_0 (transpose S64x100000 [1, 0] t h) c ⟨g.val, g.isLt⟩ (dlo g))
    (fun g => fet0_1 (transpose S64x100000 [1, 0] t h) c ⟨g.val, g.isLt⟩ (dhi g)) hblk ?_ ?_
  · intro g k r
    have hg := g.isLt; have hr := r.isLt
    rw [fet0_0_apply _ c ⟨g.val, g.isLt⟩ _ k r (by show g.val * 12544 + r.val < 100000; omega), HostGlue.transposed_apply]
    exact congrArg (fun z => t (ix2 z k)) (Fin.ext (by show g.val * 12544 + r.val = 12544 * g.val + r.val; omega))
  · intro g k r hin
    have hg := g.isLt; have hr := r.isLt
    rw [fet0_1_apply _ c ⟨g.val, g.isLt⟩ _ k r (by show (g.val + 4) * 12544 + r.val < 100000; omega), HostGlue.transposed_apply]
    exact congrArg (fun z => t (ix2 z k)) (Fin.ext (by show (g.val + 4) * 12544 + r.val = 50176 + 12544 * g.val + r.val; omega))

end AtIdeal

end Cert.KernelIdeal.RegionPack2Value

end
-- ==== Proof.MainTCV.lean ====
/-
  @main on a device's TensorCore, with the value.

  The same walk through @main as for the frame, at the ideal values, now saying what each array holds. The host lines
  are read at the launch memory: the flattened index arrays are columns of the index tables, the transposed tables are
  the tables' transposes. Each packing call leaves SOME packed copy of its table (its clipped block's overhang is not a
  function of the launch memory, and is never read). The first SparseCore call is entered with those facts under each
  tile's payload and returns, per tile, the tile's specification of its slice; joined, the differences array holds every
  triple's differences of item-table entries. The second call is entered with that and returns the tiles' accumulators;
  joined, the scores array holds every triple's score difference. The last call's stored scalar is its payload at the
  scores viewed [32, 128], which is the specification `Cert.BprSpec.G` of the four arguments.
-/
import proofs.«203895_g52347061404180_cont_8to1_c_859_34_alg».proof.Proof.MainTC
import proofs.«203895_g52347061404180_cont_8to1_c_859_34_alg».proof.Proof.LaunchPayV
import proofs.«203895_g52347061404180_cont_8to1_c_859_34_alg».proof.Proof.FlatRange
import proofs.«203895_g52347061404180_cont_8to1_c_859_34_alg».proof.Proof.RegionPackValue
import proofs.«203895_g52347061404180_cont_8to1_c_859_34_alg».proof.Proof.RegionPack2Value
import proofs.«203895_g52347061404180_cont_8to1_c_859_34_alg».proof.Proof.LossValue

noncomputable section

namespace Cert.KernelIdeal.MainTCV

open Cert.KernelIdeal Cert.KernelIdeal.Gen Cert.KernelIdeal.KCommon Cert.KernelIdeal.LaunchPay Cert.KernelIdeal.LaunchPayV
open Cert.KernelIdeal.MainTC
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split wp_hlo_within wp_seq seq after)
open Idealize.ShloMosaic.Pipeline (ucRefs unscopedBufs_held sub_ucRefs)
open Idealize.ShloMosaic.ValueIdx

local notation "𝕄" => MT nD τ sig (HIx 2) (Elt Ideal) ℕ UU ℕ

variable (m : (ℓ : Loc nD τ sig) → Buf (Elt Ideal) ℓ) (g : Dev nD → PrngReg)

/-! ## The host lines at the launch memory -/

set_option backward.isDefEq.respectTransparency.types false in
/-- The item table transposed. -/
theorem W1_v5 (d : Dev nD) : W1 (F := Ideal) m d (Proc.devRef .tc main_v5)
    = transpose S64x100000 [1, 0] (m (d, Proc.devRef .tc main_arg3)) transposes_S100000x64_S64x100000_1_0 := by
  unfold W1 opsA
  after_results
  rfl

set_option backward.isDefEq.respectTransparency.types false in
/-- The user table transposed. -/
theorem op6_v8 (W : Valuation τ sig (Elt Ideal)) : after [op6 (F := Ideal)] W (Proc.devRef .tc main_v8)
    = transpose S64x100000 [1, 0] (W (Proc.devRef .tc main_arg2)) transposes_S100000x64_S64x100000_1_0 := by
  after_results <;> rfl

set_option backward.isDefEq.respectTransparency.types false in
/-- The scores viewed [32, 128]. -/
theorem op7_v11 (W : Valuation τ sig (Elt Ideal)) : after [op7 (F := Ideal)] W (Proc.devRef .tc main_v11)
    = shapeCast S32x128 (W (Proc.devRef .tc main_v10)) shapeCasts_S4096_S32x128 := by
  after_results <;> rfl

set_option backward.isDefEq.respectTransparency.types false in
/-- The result as a scalar. -/
theorem op8_v13 (W : Valuation τ sig (Elt Ideal)) : after [op8 (F := Ideal)] W (Proc.devRef .tc main_v13)
    = shapeCast S_ (W (Proc.devRef .tc main_v12)) shapeCasts_S1x1_S_ := by
  after_results <;> rfl

/-- The specification of the launch memory's arguments on device `d`. -/
abbrev Gm (d : Dev nD) : FVec Ideal S_ .f32 := Cert.BprSpec.G (usersM m d) (itemsM m d) (ufM m d) (itfM m d)

/-- The tile a number names. -/
theorem tile_of (w : Fin 32) : ∃ (c : Fin 2) (i : Fin 16), tileNo c i = w :=
  ⟨⟨w.val % 2, Nat.mod_lt _ (by norm_num)⟩, ⟨w.val / 2, by have := w.isLt; omega⟩, Fin.ext (by show 2 * (w.val / 2) + w.val % 2 = w.val; omega)⟩

/-- The launch element for the value payloads: as for the frame (nothing is dealt the SparseCore kernels). -/
theorem hu₀V : iprop(ownU (LaunchElem.u₀ (F := Ideal)) ∗ (PV m).oxCred ∗ (K (F := Ideal)).freeSems0)
    ⊢ |={Set.univ}=> iprop(BI.own (EH (F := Ideal) (initOf (K (F := Ideal)).hsCells (K (F := Ideal)).hsToks)) ∗ bigSep Finset.univ (LaunchElem.G (F := Ideal))
      ∗ bigSep Finset.univ fun thr : Thread nD τ => bigSep Finset.univ fun q : Fin 2 => (PV m).x q thr) := by
  unfold LaunchElem.u₀
  iintro ⟨Hu, -, -⟩
  ihave H := (ownU_pair _ _) $$ Hu
  icases H with ⟨HH, HR⟩
  ihave H2 := (own_pair_emb (embR : Emb (UP × Counters) 𝕄) _ _) $$ HR
  icases H2 with ⟨HP, -⟩
  imod (Pipeline.fund_ghost (nD := nD) (τ := τ) cfgs (EP (F := Ideal)) cellOf_inj) $$ HP with ⟨Hc, Ht⟩
  imodintro
  isplitl [HH]; · iexact HH
  isplitl [Hc Ht]
  · unfold LaunchElem.G
    rw [bigSep_sep']
    isplitl [Hc]; · iexact Hc
    iexact Ht
  · rw [show (bigSep Finset.univ fun thr : Thread nD τ => bigSep Finset.univ fun q : Fin 2 => (PV m).x q thr)
        = (iprop(emp) : sProp 𝕄) from by
      show (bigSep Finset.univ fun _ : Thread nD τ => bigSep Finset.univ fun _ : Fin 2 => (iprop(emp) : sProp 𝕄)) = _
      rw [bigSep_congr fun _ _ => LaunchElem.bigSep_emp' (F := Ideal) _, LaunchElem.bigSep_emp']]
    iempintro

/-- The result array at the specification. -/
theorem fin_outV (d : Dev nD) (x : Buf (Elt Ideal) (LaunchFin.outLoc d)) (hx : x = Gm m d) :
    (LaunchFin.outLoc d ↦{fullShare} x : sProp 𝕄) ⊢ iprop(∃ f, ⌜f = Gm m d⌝ ∗ LaunchFin.outLoc d ↦{fullShare} f) := by
  iintro H
  iexists x
  isplitr; · ipureintro; exact hx
  iexact H

set_option backward.isDefEq.respectTransparency.types false in
set_option maxHeartbeats 8000000 in
/-- @main on a device's TensorCore, at the ideal values: the arguments kept, the result left at the specification. -/
theorem hmainV [Cert.Pre_input_domain.Facts]
    (hpre : ∀ c : Dev nD, Cert.Pre_input_domain.fn (F := Ideal) (m ((c.tc : Thread nD τ).loc main_arg0)) (m ((c.tc : Thread nD τ).loc main_arg1))
      (m ((c.tc : Thread nD τ).loc main_arg2)) (m ((c.tc : Thread nD τ).loc main_arg3)) = (fun _ => 1#1))
    (hsplit0 : ∀ (d : Dev nD) (f6 : FVec Ideal S50176x128 .f32) (f2 f4 : IVec S4096 32), In0 m d f6 f2 f4 →
      iprop(((d.tc : Thread nD τ).loc main_v6 ↦{fullShare} f6) ∗ ((d.tc : Thread nD τ).loc main_v2 ↦{fullShare} f2)
        ∗ ((d.tc : Thread nD τ).loc main_v4 ↦{fullShare} f4) ∗ ∃ f, (d.tc : Thread nD τ).loc main_v7 ↦{fullShare} f)
        ⊢ (bigSep Finset.univ fun c : Fin ((K (F := Ideal)).nCore 0) => (PV m).st 0 d c : sProp 𝕄))
    (hjoin0 : ∀ d : Dev nD, (bigSep Finset.univ fun c : Fin ((K (F := Ideal)).nCore 0) => (PV m).dn 0 d c : sProp 𝕄)
        ⊢ iprop(∃ g7 : FVec Ideal S2048x128 .f32, ⌜∀ (c : Fin 2) (i : Fin 16), ∃ (f6 : FVec Ideal S50176x128 .f32) (f2 f4 : IVec S4096 32) (fo : FVec Ideal S2048x128 .f32),
            In0 m d f6 f2 f4 ∧ Cert.TileSpec.OutG (F := Ideal) (tileNo c i) f6 f2 f4 fo
            ∧ ∀ (t : Fin 128) (j : Fin 64), g7 (ix2 (Cert.TileSpec.dRow (tileNo c i) t) (Cert.TileSpec.dCol t j)) = fo (ix2 (Cert.TileSpec.dRow (tileNo c i) t) (Cert.TileSpec.dCol t j))⌝
          ∗ (d.tc : Thread nD τ).loc main_v7 ↦{fullShare} g7))
    (hsplit1 : ∀ (d : Dev nD) (f9 : FVec Ideal S50176x128 .f32) (f0 : IVec S4096 32) (f7 : FVec Ideal S2048x128 .f32),
      (∀ (c : Fin 2) (i : Fin 16), In1 m d (tileNo c i) f9 f0 f7) →
      iprop(((d.tc : Thread nD τ).loc main_v9 ↦{fullShare} f9) ∗ ((d.tc : Thread nD τ).loc main_v0 ↦{fullShare} f0)
        ∗ ((d.tc : Thread nD τ).loc main_v7 ↦{fullShare} f7) ∗ ∃ f, (d.tc : Thread nD τ).loc main_v10 ↦{fullShare} f)
        ⊢ (bigSep Finset.univ fun c : Fin ((K (F := Ideal)).nCore 1) => (PV m).st 1 d c : sProp 𝕄))
    (hjoin1 : ∀ d : Dev nD, (bigSep Finset.univ fun c : Fin ((K (F := Ideal)).nCore 1) => (PV m).dn 1 d c : sProp 𝕄)
        ⊢ iprop(∃ g10 : FVec Ideal S4096 .f32, ⌜∀ (c : Fin 2) (i : Fin 16), ∃ (f9 : FVec Ideal S50176x128 .f32) (f0 : IVec S4096 32) (f7 : FVec Ideal S2048x128 .f32) (fo : FVec Ideal S4096 .f32),
            In1 m d (tileNo c i) f9 f0 f7 ∧ Cert.TileSpec.OutDot (F := Ideal) (tileNo c i) f9 f0 f7 fo
            ∧ ∀ t : Fin 128, g10 (ix1 (Cert.TileSpec.tri (tileNo c i) t)) = fo (ix1 (Cert.TileSpec.tri (tileNo c i) t))⌝
          ∗ (d.tc : Thread nD τ).loc main_v10 ↦{fullShare} g10))
    (κ : GSem nD τ sig → ℕ) (d : Dev nD) :
    iprop((K (F := Ideal)).ctx EH (PV m) κ (K (F := Ideal)).lev ∗ (K (F := Ideal)).tcSt EH d 0 ∗ (K (F := Ideal)).tcRes m g d ∗ LaunchElem.G (F := Ideal) d)
      ⊢ wp frame (wpE ((K (F := Ideal)).defs (D (F := Ideal))) 𝒱 (SparseCore.T d) none) Set.univ (main (F := Ideal) d)
          fun _ => iprop((K (F := Ideal)).tcSt EH d 2 ∗ LaunchFin.FIN (F := Ideal) m (fun d f => f = Gm m d) d) := by
  -- the pure facts of the launch memory
  obtain ⟨hr2, hr4, hr0⟩ := FlatRange.flat_ranges (F := Ideal) m hpre d
  obtain ⟨hru, hri⟩ := FlatRange.int_facts (F := Ideal) _ _ _ _ (hpre d)
  have hpos : ∀ b : Fin 4096, posM m d (ix1 b) = itemsM m d (ix2 b (0 : Fin 2)) := fun b => by
    show W1 (F := Ideal) m d (Proc.devRef .tc main_v2) (ix1 b) = _
    rw [FlatRange.W1_v2, HostGlue.pos_flat]
  have hneg : ∀ b : Fin 4096, negM m d (ix1 b) = itemsM m d (ix2 b (1 : Fin 2)) := fun b => by
    show W1 (F := Ideal) m d (Proc.devRef .tc main_v4) (ix1 b) = _
    rw [FlatRange.W1_v4, HostGlue.neg_flat]
  have hus : ∀ b : Fin 4096, uidxM m d (ix1 b) = usersM m d (ix2 b (0 : Fin 1)) := fun b => by
    show W1 (F := Ideal) m d (Proc.devRef .tc main_v0) (ix1 b) = _
    rw [FlatRange.W1_v0, HostGlue.users_flat]
  unfold SparseCore.Cfg.tcRes
  rw [show (unscopedBufs d (fun b => m ((SparseCore.T d).loc b)) : sProp 𝕄) = held (d.tc : Thread nD τ) (ucRefs τ sig) (V0 m d) from
    unscopedBufs_held (Ix := HIx 2) (Name := ℕ) (U := UU) (Lvl := ℕ) d (V0 m d)]
  rw [main_eq]
  iintro ⟨#Hctx, Hst, ⟨Hb, Hheld, Hsems, Hprng⟩, HG⟩
  iapply (wp_seq 𝒱 none Set.univ d (ucRefs τ sig) _ (opsA (F := Ideal)) opsA_sub opsA_fresh (V0 m d)) $$ [Hb Hheld]
  · isplitl [Hb]; · iexact Hb
    iexact Hheld
  iintro ⟨Hb, Hheld⟩
  ihave Hh := (Entails.of_eq (held_ucRefs (F := Ideal) (d.tc : Thread nD τ) _)) $$ Hheld
  icases Hh with ⟨Ha0, Ha1, Ha2, Ha3, H0, H1, H2, H3, H4, H5, H6, H7, H8, H9, H10, H11, H12, H13⟩
  ihave Hst' := (Entails.of_eq (tcSt_eq (F := Ideal) d 0)) $$ Hst
  icases Hst' with ⟨Ho, Hrest⟩
  ihave #Hlev := ((K (F := Ideal)).ctx_levAts (EH := EH) (P := PV m) κ) $$ Hctx
  unfold LaunchElem.G
  rw [Gen.bigSep_W0, Gen.bigSep_W0]
  icases HG with ⟨⟨Hc0, Hc1, Hc2⟩, ⟨Ht0, Ht1, Ht2⟩⟩
  -- the first packing call
  iapply (RegionLift.region_lift (F := Ideal) 0 _ _
      (fun d' {_} k Q => RegionPack.region0_wp (F := Ideal) _ _ 0 (K (F := Ideal)).lev (refines (F := Ideal)) d' none (fun u hu => nomatch hu) k Q) d _ _)
  isplitl [Hb]; · iexact Hb
  isplitl [H5 H6 Ho]
  · rw [RegionPack.R0_pre]
    isplitl [H5]; · iexact H5
    isplitl [H6]; · iexact H6
    iexact Ho
  isplitr; · iexact Hlev
  isplitl [Hc0]; · iexact Hc0
  isplitl [Ht0]; · iexact Ht0
  iintro ⟨Hb, Hpost⟩
  ihave Hpost' := (Entails.of_eq (RegionPack.R0_post (F := Ideal) _ _ 0 _ _ d)) $$ Hpost
  icases Hpost' with ⟨H5, ⟨%p6, %hp6, H6⟩, Ho⟩
  have hpk6 : Cert.KernelValue.IsPacked (itfM m d) p6 :=
    RegionPackValue.packs0_isPacked (itfM m d) transposes_S100000x64_S64x100000_1_0 _ 0 d p6 (by rw [← W1_v5 m d]; exact hp6)
  -- the first SparseCore call
  ihave Hst0 := (Entails.of_eq (tcSt_eq (F := Ideal) d 0).symm) $$ [Ho Hrest]
  · isplitl [Ho]; · iexact Ho
    iexact Hrest
  rw [wp_bind]
  iapply ((K (F := Ideal)).wp_run (D (F := Ideal)) 𝒱 (EH := EH) (P := PV m) κ d 0)
  isplitr; · iexact Hctx
  isplitl [Hst0]; · iexact Hst0
  isplitl [H6 H2 H4 H7]
  · iapply (hsplit0 d p6 _ _ ⟨hr2, hr4, rfl, rfl, hpk6⟩)
    isplitl [H6]; · iexact H6
    isplitl [H2]; · iexact H2
    isplitl [H4]; · iexact H4
    iexists _; iexact H7
  iintro ⟨Hst1, Hdn⟩
  ihave Hst1 := (Entails.of_eq (show ((K (F := Ideal)).tcSt (EH (F := Ideal)) d ((0 : Fin 2).val + 1) : sProp 𝕄) = (K (F := Ideal)).tcSt (EH (F := Ideal)) d 1 from rfl)) $$ Hst1
  ihave H7 := (hjoin0 d) $$ Hdn
  icases H7 with ⟨%g7, %h7, H7⟩
  have hD : Cert.TileBridge.DiffsOf (itemsM m d) (itfM m d) g7 :=
    Cert.TileBridge.diffs_of_tiles (itemsM m d) (itfM m d) g7 (posM m d) (negM m d) hpos hneg hri (fun w => by
      obtain ⟨c, i, rfl⟩ := tile_of w
      obtain ⟨f6, f2, f4, fo, hin, hout, hag⟩ := h7 c i
      obtain ⟨-, -, e2, e4, hp⟩ := hin
      subst e2; subst e4
      exact ⟨f6, fo, hp, hout, hag⟩)
  -- the users' table transposed
  iapply (wp_seq 𝒱 none Set.univ d ({Proc.devRef .tc main_arg2, Proc.devRef .tc main_v8} : Finset (DevRef τ sig)) _ [op6 (F := Ideal)]
      op6_sub (one_fresh _ rfl) (W1 (F := Ideal) m d)) $$ [Hb Ha2 H8]
  · isplitl [Hb]; · iexact Hb
    rw [held_two _ _ _ (by decide)]
    isplitl [Ha2]; · iexact Ha2
    iexact H8
  iintro ⟨Hb, Hh68⟩
  ihave Hh68' := (Entails.of_eq (held_two (F := Ideal) (d.tc : Thread nD τ) _ _ (by decide) _)) $$ Hh68
  icases Hh68' with ⟨Ha2, H8⟩
  -- the second packing call
  ihave Hst' := (Entails.of_eq (tcSt_eq (F := Ideal) d 1)) $$ Hst1
  icases Hst' with ⟨Ho, Hrest⟩
  iapply (RegionLift.region_lift (F := Ideal) 1 _ _
      (fun d' {_} k Q => RegionPack2.region2_wp (F := Ideal) _ _ 1 (K (F := Ideal)).lev (refines (F := Ideal)) d' none (fun u hu => nomatch hu) k Q) d _ _)
  isplitl [Hb]; · iexact Hb
  isplitl [H8 H9 Ho]
  · rw [RegionPack2.R2_pre]
    isplitl [H8]; · iexact H8
    isplitl [H9]; · iexact H9
    iexact Ho
  isplitr; · iexact Hlev
  isplitl [Hc1]; · iexact Hc1
  isplitl [Ht1]; · iexact Ht1
  iintro ⟨Hb, Hpost⟩
  ihave Hpost' := (Entails.of_eq (RegionPack2.R2_post (F := Ideal) _ _ 1 _ _ d)) $$ Hpost
  icases Hpost' with ⟨H8, ⟨%p9, %hp9, H9⟩, Ho⟩
  have hpk9 : Cert.KernelValue.IsPacked (ufM m d) p9 :=
    RegionPack2Value.packs2_isPacked (ufM m d) transposes_S100000x64_S64x100000_1_0 _ 1 d p9 (by
      have e := op6_v8 (W1 (F := Ideal) m d)
      rw [W1_arg (F := Ideal) m d main_arg2 (by decide)] at e
      rw [← e]; exact hp9)
  -- the second SparseCore call
  ihave Hst1 := (Entails.of_eq (tcSt_eq (F := Ideal) d 1).symm) $$ [Ho Hrest]
  · isplitl [Ho]; · iexact Ho
    iexact Hrest
  rw [wp_bind]
  iapply ((K (F := Ideal)).wp_run (D (F := Ideal)) 𝒱 (EH := EH) (P := PV m) κ d 1)
  isplitr; · iexact Hctx
  isplitl [Hst1]; · iexact Hst1
  isplitl [H9 H0 H7 H10]
  · iapply (hsplit1 d p9 _ g7 (fun c i => ⟨hr0, rfl, hpk9, hD (tileNo c i)⟩))
    isplitl [H9]; · iexact H9
    isplitl [H0]; · iexact H0
    isplitl [H7]; · iexact H7
    iexists _; iexact H10
  iintro ⟨Hst2, Hdn⟩
  ihave Hst2 := (Entails.of_eq (show ((K (F := Ideal)).tcSt (EH (F := Ideal)) d ((1 : Fin 2).val + 1) : sProp 𝕄) = (K (F := Ideal)).tcSt (EH (F := Ideal)) d 2 from rfl)) $$ Hst2
  ihave H10 := (hjoin1 d) $$ Hdn
  icases H10 with ⟨%g10, %h10, H10⟩
  have hS : ∀ b : Fin 4096, g10 (ix1 b) = Cert.BprSpec.score (usersM m d) (itemsM m d) (ufM m d) (itfM m d) b :=
    Cert.TileBridge.scores_of_tiles (usersM m d) (itemsM m d) (ufM m d) (itfM m d) g7 g10 (uidxM m d) hus hru hD (fun w => by
      obtain ⟨c, i, rfl⟩ := tile_of w
      obtain ⟨f9, f0, f7, fo, hin, hout, hag⟩ := h10 c i
      obtain ⟨-, e0, hp, hd7⟩ := hin
      subst e0
      exact ⟨f9, f7, fo, hp, fun t c' => (hd7 t c').trans (hD (tileNo c i) t c').symm, hout, hag⟩)
  -- the scores viewed [32, 128]
  iapply (wp_seq 𝒱 none Set.univ d ({Proc.devRef .tc main_v10, Proc.devRef .tc main_v11} : Finset (DevRef τ sig)) _ [op7 (F := Ideal)]
      op7_sub (one_fresh _ rfl) (Function.update (W1 (F := Ideal) m d) (Proc.devRef .tc main_v10) g10)) $$ [Hb H10 H11]
  · isplitl [Hb]; · iexact Hb
    rw [held_two _ _ _ (by decide), Function.update_self, Function.update_of_ne (by decide)]
    isplitl [H10]; · iexact H10
    iexact H11
  iintro ⟨Hb, Hh⟩
  ihave Hh' := (Entails.of_eq (held_two (F := Ideal) (d.tc : Thread nD τ) _ _ (by decide) _)) $$ Hh
  icases Hh' with ⟨H10, H11⟩
  -- the softplus-mean call
  ihave Hst' := (Entails.of_eq (tcSt_eq (F := Ideal) d 2)) $$ Hst2
  icases Hst' with ⟨Ho, Hrest⟩
  iapply (RegionLift.region_lift (F := Ideal) 2 _ _
      (fun d' {_} k Q => RegionLoss.region4_wp (F := Ideal) _ _ 2 (K (F := Ideal)).lev (refines (F := Ideal)) d' none (fun u hu => nomatch hu) k Q) d _ _)
  isplitl [Hb]; · iexact Hb
  isplitl [H11 H12 Ho]
  · rw [RegionLoss.R4_pre]
    isplitl [H11]; · iexact H11
    isplitl [H12]; · iexact H12
    iexact Ho
  isplitr; · iexact Hlev
  isplitl [Hc2]; · iexact Hc2
  isplitl [Ht2]; · iexact Ht2
  iintro ⟨Hb, Hpost⟩
  ihave Hpost' := (Entails.of_eq (RegionLoss.R4_post (F := Ideal) _ _ 2 _ _ d)) $$ Hpost
  icases Hpost' with ⟨H11, H12, Ho⟩
  ihave Hst2 := (Entails.of_eq (tcSt_eq (F := Ideal) d 2).symm) $$ [Ho Hrest]
  · isplitl [Ho]; · iexact Ho
    iexact Hrest
  -- the result as a scalar
  iapply (wp_seq 𝒱 none Set.univ d ({Proc.devRef .tc main_v12, Proc.devRef .tc main_v13} : Finset (DevRef τ sig)) _ [op8 (F := Ideal)]
      op8_sub (one_fresh _ rfl) (Function.update (W1 (F := Ideal) m d) (Proc.devRef .tc main_v12) _)) $$ [Hb H12 H13]
  · isplitl [Hb]; · iexact Hb
    rw [held_two _ _ _ (by decide), Function.update_self, Function.update_of_ne (by decide)]
    isplitl [H12]; · iexact H12
    iexact H13
  iintro ⟨Hb, Hh⟩
  ihave Hh' := (Entails.of_eq (held_two (F := Ideal) (d.tc : Thread nD τ) _ _ (by decide) _)) $$ Hh
  icases Hh' with ⟨H12, H13⟩
  rw [wp_pure]
  imodintro
  isplitl [Hst2]; · iexact Hst2
  unfold LaunchFin.FIN
  isplitl [Ha0]
  · rw [show m (LaunchFin.a0Loc d) = W1 (F := Ideal) m d (Proc.devRef .tc main_arg0) from (W1_arg (F := Ideal) m d main_arg0 (by decide)).symm]
    iexact Ha0
  isplitl [Ha1]
  · rw [show m (LaunchFin.a1Loc d) = W1 (F := Ideal) m d (Proc.devRef .tc main_arg1) from (W1_arg (F := Ideal) m d main_arg1 (by decide)).symm]
    iexact Ha1
  isplitl [Ha2]
  · rw [show m (LaunchFin.a2Loc d) = after [op6 (F := Ideal)] (W1 (F := Ideal) m d) (Proc.devRef .tc main_arg2) from
      ((op6_arg (F := Ideal) _ main_arg2 (by decide)).trans (W1_arg (F := Ideal) m d main_arg2 (by decide))).symm]
    iexact Ha2
  isplitl [Ha3]
  · rw [show m (LaunchFin.a3Loc d) = W1 (F := Ideal) m d (Proc.devRef .tc main_arg3) from (W1_arg (F := Ideal) m d main_arg3 (by decide)).symm]
    iexact Ha3
  have hx : after [op8 (F := Ideal)]
        (Function.update (W1 (F := Ideal) m d) (Proc.devRef .tc main_v12) (fun _ =>
          k4_pay1 (F := Ideal) (after [op7 (F := Ideal)] (Function.update (W1 (F := Ideal) m d) (Proc.devRef .tc main_v10) g10) (Proc.devRef .tc main_v11))))
        (Proc.devRef .tc main_v13) = Gm m d := by
    rw [op8_v13, Function.update_self]
    funext i
    rw [HostGlue.scalar_of_unit, op7_v11, Function.update_self]
    rw [LossValue.loss_eq_G (usersM m d) (itemsM m d) (ufM m d) (itfM m d) g10 shapeCasts_S4096_S32x128 hS]
    show Cert.BprSpec.G (usersM m d) (itemsM m d) (ufM m d) (itfM m d) ix0 = Cert.BprSpec.G (usersM m d) (itemsM m d) (ufM m d) (itfM m d) i
    rw [Cert.BprSpec.G_apply, Cert.BprSpec.G_apply]
  iapply (fin_outV m d _ hx)
  iexact H13

end Cert.KernelIdeal.MainTCV

end
-- ==== Proof.KernelValueRun.lean ====
/-
  The idealized kernel program's run with its value, from the two tile bodies.

  By the launch theorem, with the value payloads: every weakly fair execution terminates, faults nowhere, leaves the
  arguments unchanged and the result at the specification `Cert.BprSpec.G` of the arguments — given the two tile bodies
  in their value form (each tile leaves in its slice what `Cert.TileSpec` says of what it read).
-/
import proofs.«203895_g52347061404180_cont_8to1_c_859_34_alg».proof.Proof.LaunchApply
import proofs.«203895_g52347061404180_cont_8to1_c_859_34_alg».proof.Proof.LaunchOblV
import proofs.«203895_g52347061404180_cont_8to1_c_859_34_alg».proof.Proof.LaunchSplitV
import proofs.«203895_g52347061404180_cont_8to1_c_859_34_alg».proof.Proof.MainTCV

noncomputable section

namespace Cert.KernelIdeal.KernelValueRun

open Cert.KernelIdeal Cert.KernelIdeal.Gen Cert.KernelIdeal.KCommon Cert.KernelIdeal.LaunchPay Cert.KernelIdeal.LaunchPayV
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

local notation "𝕄" => MT nD τ sig (HIx 2) (Elt Ideal) ℕ UU ℕ

variable (m : (ℓ : Loc nD τ sig) → Buf (Elt Ideal) ℓ) (g : Dev nD → PrngReg)

set_option maxHeartbeats 4000000 in
theorem st0_eq (d : Dev nD) : (bigSep Finset.univ fun c : Fin ((K (F := Ideal)).nCore 0) => (PV m).st 0 d c : sProp 𝕄)
    = bigSep Finset.univ fun c : Fin 2 => bigSep Finset.univ fun i : Fin 16 => goGPV m d c i := rfl
set_option maxHeartbeats 4000000 in
theorem st1_eq (d : Dev nD) : (bigSep Finset.univ fun c : Fin ((K (F := Ideal)).nCore 1) => (PV m).st 1 d c : sProp 𝕄)
    = bigSep Finset.univ fun c : Fin 2 => bigSep Finset.univ fun i : Fin 16 => goDotPV m d c i := rfl
set_option maxHeartbeats 4000000 in
theorem dn0_eq (d : Dev nD) : (bigSep Finset.univ fun c : Fin ((K (F := Ideal)).nCore 0) => (PV m).dn 0 d c : sProp 𝕄)
    = bigSep Finset.univ fun c : Fin 2 => bigSep Finset.univ fun i : Fin 16 => tdGPV m d c i := rfl
set_option maxHeartbeats 4000000 in
theorem dn1_eq (d : Dev nD) : (bigSep Finset.univ fun c : Fin ((K (F := Ideal)).nCore 1) => (PV m).dn 1 d c : sProp 𝕄)
    = bigSep Finset.univ fun c : Fin 2 => bigSep Finset.univ fun i : Fin 16 => tdDotPV m d c i := rfl

/-- The claim's post: the result at the specification of the launch arguments, the arguments unchanged. -/
def QV : PUnit × MemSt nD τ sig (Elt Ideal) → Prop := fun r => ∀ c : Dev nD,
  r.2.mem ((c.tc : Thread nD τ).loc main_v13)
      = Cert.BprSpec.G (m ((c.tc : Thread nD τ).loc main_arg0)) (m ((c.tc : Thread nD τ).loc main_arg1))
          (m ((c.tc : Thread nD τ).loc main_arg2)) (m ((c.tc : Thread nD τ).loc main_arg3))
  ∧ r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

set_option maxHeartbeats 4000000 in
theorem run_value [∀ e, Nonempty (Elt Ideal e)] [Cert.Pre_input_domain.Facts]
    (hGV : LaunchOblV.BodyGV) (hDotV : LaunchOblV.BodyDotV)
    (hpre : ∀ c : Dev nD, Cert.Pre_input_domain.fn (F := Ideal) (m ((c.tc : Thread nD τ).loc main_arg0)) (m ((c.tc : Thread nD τ).loc main_arg1))
      (m ((c.tc : Thread nD τ).loc main_arg2)) (m ((c.tc : Thread nD τ).loc main_arg3)) = (fun _ => 1#1)) :
    θ_run (Cert.KernelIdeal.defs (F := Ideal)) (Cert.KernelIdeal.threads (F := Ideal)) ⟨m, fun _ => 0, g⟩ (QV m) :=
  LaunchApply.run_of (F := Ideal) (PV m) rfl
    (fun q => match q with | 0 => LaunchOblV.tileOblV0 m hGV | 1 => LaunchOblV.tileOblV1 m hDotV)
    (fun q => SparseCore.Cfg.VecSplit.of_plain (vecSplitV m q))
    m g (LaunchElem.G (F := Ideal)) (LaunchFin.FIN (F := Ideal) m (fun d f => f = MainTCV.Gm m d)) (LaunchElem.u₀ (F := Ideal)) (MainTCV.hu₀V m)
    (MainTCV.hmainV m g hpre
      (fun d f6 f2 f4 h => (LaunchSplitV.split0V m d f6 f2 f4 h).trans (Entails.of_eq (st0_eq m d).symm))
      (fun d => (Entails.of_eq (dn0_eq m d)).trans (LaunchSplitV.join0V m d))
      (fun d f9 f0 f7 h => (LaunchSplitV.split1V m d f9 f0 f7 h).trans (Entails.of_eq (st1_eq m d).symm))
      (fun d => (Entails.of_eq (dn1_eq m d)).trans (LaunchSplitV.join1V m d)))
    (LaunchFin.fq (F := Ideal) m (fun d f => f = MainTCV.Gm m d)) (LaunchFin.hfin (F := Ideal) m (fun d f => f = MainTCV.Gm m d))
    (QV m) (fun s' h c => h c)

end Cert.KernelIdeal.KernelValueRun

end
-- ==== Proof.KCommonK.lean ====
/-
  THE SHARED SET-UP of the kernel program's SparseCore proofs: the program as the launch theorem sees it (its label
  signature, its SparseCore configuration, its body table, the variants), the configuration's facts, the resource
  algebra (the handshakes' rounds beside the pipeline library's staging cells and the transfers' counters: both SparseCore kernels only make local copies and wait
  for them, so no schedule is needed), the tiles' grid coordinates and the label table's two SparseCore rows.
-/
import proofs.«203895_g52347061404180_cont_8to1_c_859_34_alg».proof.Kernel
import proofs.«203895_g52347061404180_cont_8to1_c_859_34_alg».proof.Proof.Gen.Kernel
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic

noncomputable section

namespace Cert.Kernel.KCommon

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 3) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nSub_one : (K (F := F)).nSub 1 = 16 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library beside the transfers' counters -/

abbrev UH : Type := URounds (GSem nD τ sig) ℕ
/-- The pipeline library's staging cells (the TensorCore regions inside the program fund theirs from this component). -/
abbrev UP : Type := UR sig nD τ
abbrev UU : Type := UH × (UP × Counters)

/-- The handshakes' rounds library, the left factor; the transfers' counters are found by instance in the right. -/
abbrev EH : Emb UH (MT nD τ sig (HIx 2) (Elt F) ℕ UU ℕ) := embL

/-- The pipeline library's component: the left of the right factor. -/
abbrev EP : Emb UP (MT nD τ sig (HIx 2) (Elt F) ℕ UU ℕ) := (Emb.inl : Emb UP (UP × Counters)).trans embR

instance EP_landsIn : (EP (F := F)).LandsIn (upEmb : UEmb _ (MT nD τ sig (HIx 2) (Elt F) ℕ UU ℕ)) := by
  unfold EP; infer_instance

/-! ## The tiles' coordinates and the label table's SparseCore rows -/

/-- The grid point of vector subcore `s` of SparseCore `c` in the first SparseCore kernel's grid. -/
def coordsV1 (c : Fin (grid1.bound 0)) (s : Fin (grid1.bound 1)) : grid1.Coords :=
  fun | 0 => c | 1 => s | ⟨_ + 2, h⟩ => absurd h (Nat.not_lt.2 (Nat.le_add_left _ _))

/-- The grid point of vector subcore `s` of SparseCore `c` in the second SparseCore kernel's grid. -/
def coordsV3 (c : Fin (grid3.bound 0)) (s : Fin (grid3.bound 1)) : grid3.Coords :=
  fun | 0 => c | 1 => s | ⟨_ + 2, h⟩ => absurd h (Nat.not_lt.2 (Nat.le_add_left _ _))

/-- The label table's row 1 on a vector subcore: the first SparseCore kernel's function at the tile's grid point, on the
    whole arrays and the tile's scratch. -/
theorem defs₀_vector1 (c : Fin τ.nSC) (s : Fin τ.nSub) :
    defs₀ (F := F) (.scVector c s) 1 ()
      = SparseCore.onTile hcore1 hsub1 (fun c s => cc1__sc_g_body (coordsV1 c s)
          (Memref.whole main_v6_scv) (Memref.isWhole_whole _) (Memref.whole main_v2_scv) (Memref.isWhole_whole _)
          (Memref.whole main_v4_scv) (Memref.isWhole_whole _) (Memref.whole main_v7_scv) (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          (Memref.whole cc1_scratch4) (Memref.isWhole_whole _) (Memref.whole cc1_scratch5) (Memref.isWhole_whole _)
          (Memref.whole cc1_scratch6) (Memref.isWhole_whole _) cc1_scratch7 cc1_scratch8 cc1_scoped0 cc1_scoped1 cc1_scoped2) ⟨⟩ c s := rfl

/-- The label table's row 3 on a vector subcore: the second SparseCore kernel's function at the tile's grid point. -/
theorem defs₀_vector3 (c : Fin τ.nSC) (s : Fin τ.nSub) :
    defs₀ (F := F) (.scVector c s) 3 ()
      = SparseCore.onTile hcore3 hsub3 (fun c s => cc3__sc_dot_body (coordsV3 c s)
          (Memref.whole main_v9_scv) (Memref.isWhole_whole _) (Memref.whole main_v0_scv) (Memref.isWhole_whole _)
          (Memref.whole main_v7_scv) (Memref.isWhole_whole _) (Memref.whole main_v10_scv) (Memref.isWhole_whole _)
          (Memref.whole cc3_scratch0) (Memref.isWhole_whole _) (Memref.whole cc3_scratch1) (Memref.isWhole_whole _)
          (Memref.whole cc3_scratch2) (Memref.isWhole_whole _) (Memref.whole cc3_scratch3) (Memref.isWhole_whole _)
          (Memref.whole cc3_scratch4) (Memref.isWhole_whole _) cc3_scratch5 cc3_scratch6 cc3_scoped0 cc3_scoped1) ⟨⟩ c s := rfl

end Cert.Kernel.KCommon

end
-- ==== Proof.LaunchApplyK.lean ====
/-
  The SparseCore launch theorem applied to this program.

  The printed kernel program IS the launch theorem's kind of program: its threads are the configuration's threads of
  its @main, its body table the configuration's extension of the pipelines' table, its two SparseCore calls both
  vector-subcore kernels (no scalar-subcore kernel owes anything), its handshake semaphores distinct and unscoped
  (`KCommon.facts`). So the program's run, to any post `Q'` read off the final memory, follows from: the two tile
  obligations, the two splits of a SparseCore's operands among its sixteen tiles, the launch element, @main on the
  TensorCore, and the reading of the final memory. Nothing here looks inside a kernel or a region.
-/
import proofs.«203895_g52347061404180_cont_8to1_c_859_34_alg».proof.Proof.KCommonK

noncomputable section

namespace Cert.Kernel.LaunchApply

open Cert.Kernel Cert.Kernel.Gen Cert.Kernel.KCommon

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- Both SparseCore calls are vector-subcore kernels. -/
theorem kind_vector (q : Fin 2) : (K (F := F)).kind q = .scVector := by
  match q with
  | 0 => rfl
  | 1 => rfl

/-- The program's run from the launch theorem's obligations. -/
theorem run_of [∀ e, Nonempty (Elt F e)]
    (P : (K (F := F)).Pay (nD := nD) (Val := Elt F) (Name := ℕ) (U := UU)) [P.IsStorable]
    (hheld : P.held = ∅)
    (htile : ∀ q, (K (F := F)).TileObl (D (F := F)) 𝒱 P v₀ q)
    (hvec : ∀ q, (K (F := F)).VecSplit P q)
    (m : (ℓ : Loc nD τ sig) → Buf (Elt F) ℓ) (g : Dev nD → PrngReg)
    (G FIN : Dev nD → sProp 𝕄) (u₀ : UU)
    (hu₀ : iprop(ownU u₀ ∗ P.oxCred ∗ (K (F := F)).freeSems0) ⊢ |={Set.univ}=> iprop(BI.own (EH (initOf (K (F := F)).hsCells (K (F := F)).hsToks))
      ∗ bigSep Finset.univ G ∗ bigSep Finset.univ fun thr : Thread nD τ => bigSep Finset.univ fun q : Fin 2 => P.x q thr))
    (hmain : ∀ (κ : GSem nD τ sig → ℕ) (d : Dev nD),
      iprop((K (F := F)).ctx EH P κ (K (F := F)).lev ∗ (K (F := F)).tcSt EH d 0 ∗ (K (F := F)).tcRes m g d ∗ G d)
        ⊢ wp frame (wpE ((K (F := F)).defs (D (F := F))) 𝒱 (SparseCore.T d) none) Set.univ (main (F := F) d)
            fun _ => iprop((K (F := F)).tcSt EH d 2 ∗ FIN d))
    (fq : Dev nD → Phys nD τ sig (Elt F) → Prop) (hfin : ∀ d s', iprop(FIN d ∗ SI s') ⊢ (⌜fq d s'⌝ : sProp 𝕄))
    (Q' : PUnit × MemSt nD τ sig (Elt F) → Prop) (hQ : ∀ s', (∀ d, fq d s') → Q' (⟨⟩, s'.mem)) :
    θ_run (Cert.Kernel.defs (F := F)) (Cert.Kernel.threads (F := F)) ⟨m, fun _ => 0, g⟩ Q' :=
  SparseCore.Cfg.θ_run_sc (K := K (F := F)) (D := D (F := F)) (𝒱 := 𝒱) (EH := EH) (P := P) facts v₀
    (fun q hq => absurd ((kind_vector (F := F) q).symm.trans hq) (by decide))
    (fun q _ => htile q) (fun q _ => hvec q)
    m g main G FIN u₀ hu₀ hmain fq hfin Q' hQ hheld

end Cert.Kernel.LaunchApply

end
-- ==== Proof.TileCommonK.lean ====
/-
  A VECTOR SUBCORE'S OWN SEMAPHORES AND BUFFERS, NAMED. What the launch hands a tile — its scoped semaphores at zero, its
  scoped buffers at some contents — split into the nine DMA semaphores and the twelve scratch buffers the two SparseCore
  kernels name, and the rest.
-/
import proofs.«203895_g52347061404180_cont_8to1_c_859_34_alg».proof.Proof.KCommonK

noncomputable section

namespace Cert.Kernel.TileCommon

open Cert.Kernel Cert.Kernel.Gen Cert.Kernel.KCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-- The cell of a tile's DMA semaphore. -/
abbrev cell (d : Dev nD) (c : Fin τ.nSC) (i : Fin τ.nSub) (s : DmaSems sig S_) : GSem nD τ sig := (V d c i, .dma s.sem)

/-- The tile's own cells but the nine named ones. -/
abbrev restCells (d : Dev nD) (c : Fin τ.nSC) (i : Fin τ.nSub) : Finset (GSem nD τ sig) :=
  ((((((((((ownCells (V d c i)).erase (cell d c i cc1_scratch7)).erase (cell d c i cc1_scratch8)).erase (cell d c i cc1_scoped0)).erase (cell d c i cc1_scoped1)).erase (cell d c i cc1_scoped2)).erase (cell d c i cc3_scratch5)).erase (cell d c i cc3_scratch6)).erase (cell d c i cc3_scoped0)).erase (cell d c i cc3_scoped1))

/-- The tile's own buffers but the twelve named ones. -/
abbrev restRefs (c : Fin τ.nSC) (i : Fin τ.nSub) : Finset (DevRef τ sig) :=
  (((((((((((((ownRefs (τ := τ) (.scVector c i)).erase ((Proc.scVector c i).devRef cc1_scratch0)).erase ((Proc.scVector c i).devRef cc1_scratch1)).erase ((Proc.scVector c i).devRef cc1_scratch2)).erase ((Proc.scVector c i).devRef cc1_scratch3)).erase ((Proc.scVector c i).devRef cc1_scratch4)).erase ((Proc.scVector c i).devRef cc1_scratch5)).erase ((Proc.scVector c i).devRef cc1_scratch6)).erase ((Proc.scVector c i).devRef cc3_scratch0)).erase ((Proc.scVector c i).devRef cc3_scratch1)).erase ((Proc.scVector c i).devRef cc3_scratch2)).erase ((Proc.scVector c i).devRef cc3_scratch3)).erase ((Proc.scVector c i).devRef cc3_scratch4))

/-- A tile's own semaphores at zero: the nine DMA semaphores the two kernels name, each at zero, and the rest. -/
theorem ownSems0_V (d : Dev nD) (c : Fin τ.nSC) (i : Fin τ.nSub) :
    (ownSems0 (V d c i) : sProp 𝕄)
      = iprop(semVal (cell d c i cc1_scratch7) 0
          ∗ semVal (cell d c i cc1_scratch8) 0
          ∗ semVal (cell d c i cc1_scoped0) 0
          ∗ semVal (cell d c i cc1_scoped1) 0
          ∗ semVal (cell d c i cc1_scoped2) 0
          ∗ semVal (cell d c i cc3_scratch5) 0
          ∗ semVal (cell d c i cc3_scratch6) 0
          ∗ semVal (cell d c i cc3_scoped0) 0
          ∗ semVal (cell d c i cc3_scoped1) 0
          ∗ bigSep (restCells d c i) fun g => semVal g 0) := by
  unfold SparseCore.Cfg.ownSems0
  rw [SparseCore.bigSep_erase' ((mem_ownCells (g := cell d c i cc1_scratch7)).mpr ⟨rfl, by show (SemLoc.dma cc1_scratch7.sem : SemLoc sig).isScoped .scVector = true; decide⟩),
    SparseCore.bigSep_erase' (Finset.mem_erase.mpr ⟨fun e => absurd (congrArg Prod.snd e) (show (SemLoc.dma cc1_scratch8.sem : SemLoc sig) ≠ SemLoc.dma cc1_scratch7.sem by decide), (mem_ownCells (g := cell d c i cc1_scratch8)).mpr ⟨rfl, by show (SemLoc.dma cc1_scratch8.sem : SemLoc sig).isScoped .scVector = true; decide⟩⟩),
    SparseCore.bigSep_erase' (Finset.mem_erase.mpr ⟨fun e => absurd (congrArg Prod.snd e) (show (SemLoc.dma cc1_scoped0.sem : SemLoc sig) ≠ SemLoc.dma cc1_scratch8.sem by decide), Finset.mem_erase.mpr ⟨fun e => absurd (congrArg Prod.snd e) (show (SemLoc.dma cc1_scoped0.sem : SemLoc sig) ≠ SemLoc.dma cc1_scratch7.sem by decide), (mem_ownCells (g := cell d c i cc1_scoped0)).mpr ⟨rfl, by show (SemLoc.dma cc1_scoped0.sem : SemLoc sig).isScoped .scVector = true; decide⟩⟩⟩),
    SparseCore.bigSep_erase' (Finset.mem_erase.mpr ⟨fun e => absurd (congrArg Prod.snd e) (show (SemLoc.dma cc1_scoped1.sem : SemLoc sig) ≠ SemLoc.dma cc1_scoped0.sem by decide), Finset.mem_erase.mpr ⟨fun e => absurd (congrArg Prod.snd e) (show (SemLoc.dma cc1_scoped1.sem : SemLoc sig) ≠ SemLoc.dma cc1_scratch8.sem by decide), Finset.mem_erase.mpr ⟨fun e => absurd (congrArg Prod.snd e) (show (SemLoc.dma cc1_scoped1.sem : SemLoc sig) ≠ SemLoc.dma cc1_scratch7.sem by decide), (mem_ownCells (g := cell d c i cc1_scoped1)).mpr ⟨rfl, by show (SemLoc.dma cc1_scoped1.sem : SemLoc sig).isScoped .scVector = true; decide⟩⟩⟩⟩),
    SparseCore.bigSep_erase' (Finset.mem_erase.mpr ⟨fun e => absurd (congrArg Prod.snd e) (show (SemLoc.dma cc1_scoped2.sem : SemLoc sig) ≠ SemLoc.dma cc1_scoped1.sem by decide), Finset.mem_erase.mpr ⟨fun e => absurd (congrArg Prod.snd e) (show (SemLoc.dma cc1_scoped2.sem : SemLoc sig) ≠ SemLoc.dma cc1_scoped0.sem by decide), Finset.mem_erase.mpr ⟨fun e => absurd (congrArg Prod.snd e) (show (SemLoc.dma cc1_scoped2.sem : SemLoc sig) ≠ SemLoc.dma cc1_scratch8.sem by decide), Finset.mem_erase.mpr ⟨fun e => absurd (congrArg Prod.snd e) (show (SemLoc.dma cc1_scoped2.sem : SemLoc sig) ≠ SemLoc.dma cc1_scratch7.sem by decide), (mem_ownCells (g := cell d c i cc1_scoped2)).mpr ⟨rfl, by show (SemLoc.dma cc1_scoped2.sem : SemLoc sig).isScoped .scVector = true; decide⟩⟩⟩⟩⟩),
    SparseCore.bigSep_erase' (Finset.mem_erase.mpr ⟨fun e => absurd (congrArg Prod.snd e) (show (SemLoc.dma cc3_scratch5.sem : SemLoc sig) ≠ SemLoc.dma cc1_scoped2.sem by decide), Finset.mem_erase.mpr ⟨fun e => absurd (congrArg Prod.snd e) (show (SemLoc.dma cc3_scratch5.sem : SemLoc sig) ≠ SemLoc.dma cc1_scoped1.sem by decide), Finset.mem_erase.mpr ⟨fun e => absurd (congrArg Prod.snd e) (show (SemLoc.dma cc3_scratch5.sem : SemLoc sig) ≠ SemLoc.dma cc1_scoped0.sem by decide), Finset.mem_erase.mpr ⟨fun e => absurd (congrArg Prod.snd e) (show (SemLoc.dma cc3_scratch5.sem : SemLoc sig) ≠ SemLoc.dma cc1_scratch8.sem by decide), Finset.mem_erase.mpr ⟨fun e => absurd (congrArg Prod.snd e) (show (SemLoc.dma cc3_scratch5.sem : SemLoc sig) ≠ SemLoc.dma cc1_scratch7.sem by decide), (mem_ownCells (g := cell d c i cc3_scratch5)).mpr ⟨rfl, by show (SemLoc.dma cc3_scratch5.sem : SemLoc sig).isScoped .scVector = true; decide⟩⟩⟩⟩⟩⟩),
    SparseCore.bigSep_erase' (Finset.mem_erase.mpr ⟨fun e => absurd (congrArg Prod.snd e) (show (SemLoc.dma cc3_scratch6.sem : SemLoc sig) ≠ SemLoc.dma cc3_scratch5.sem by decide), Finset.mem_erase.mpr ⟨fun e => absurd (congrArg Prod.snd e) (show (SemLoc.dma cc3_scratch6.sem : SemLoc sig) ≠ SemLoc.dma cc1_scoped2.sem by decide), Finset.mem_erase.mpr ⟨fun e => absurd (congrArg Prod.snd e) (show (SemLoc.dma cc3_scratch6.sem : SemLoc sig) ≠ SemLoc.dma cc1_scoped1.sem by decide), Finset.mem_erase.mpr ⟨fun e => absurd (congrArg Prod.snd e) (show (SemLoc.dma cc3_scratch6.sem : SemLoc sig) ≠ SemLoc.dma cc1_scoped0.sem by decide), Finset.mem_erase.mpr ⟨fun e => absurd (congrArg Prod.snd e) (show (SemLoc.dma cc3_scratch6.sem : SemLoc sig) ≠ SemLoc.dma cc1_scratch8.sem by decide), Finset.mem_erase.mpr ⟨fun e => absurd (congrArg Prod.snd e) (show (SemLoc.dma cc3_scratch6.sem : SemLoc sig) ≠ SemLoc.dma cc1_scratch7.sem by decide), (mem_ownCells (g := cell d c i cc3_scratch6)).mpr ⟨rfl, by show (SemLoc.dma cc3_scratch6.sem : SemLoc sig).isScoped .scVector = true; decide⟩⟩⟩⟩⟩⟩⟩),
    SparseCore.bigSep_erase' (Finset.mem_erase.mpr ⟨fun e => absurd (congrArg Prod.snd e) (show (SemLoc.dma cc3_scoped0.sem : SemLoc sig) ≠ SemLoc.dma cc3_scratch6.sem by decide), Finset.mem_erase.mpr ⟨fun e => absurd (congrArg Prod.snd e) (show (SemLoc.dma cc3_scoped0.sem : SemLoc sig) ≠ SemLoc.dma cc3_scratch5.sem by decide), Finset.mem_erase.mpr ⟨fun e => absurd (congrArg Prod.snd e) (show (SemLoc.dma cc3_scoped0.sem : SemLoc sig) ≠ SemLoc.dma cc1_scoped2.sem by decide), Finset.mem_erase.mpr ⟨fun e => absurd (congrArg Prod.snd e) (show (SemLoc.dma cc3_scoped0.sem : SemLoc sig) ≠ SemLoc.dma cc1_scoped1.sem by decide), Finset.mem_erase.mpr ⟨fun e => absurd (congrArg Prod.snd e) (show (SemLoc.dma cc3_scoped0.sem : SemLoc sig) ≠ SemLoc.dma cc1_scoped0.sem by decide), Finset.mem_erase.mpr ⟨fun e => absurd (congrArg Prod.snd e) (show (SemLoc.dma cc3_scoped0.sem : SemLoc sig) ≠ SemLoc.dma cc1_scratch8.sem by decide), Finset.mem_erase.mpr ⟨fun e => absurd (congrArg Prod.snd e) (show (SemLoc.dma cc3_scoped0.sem : SemLoc sig) ≠ SemLoc.dma cc1_scratch7.sem by decide), (mem_ownCells (g := cell d c i cc3_scoped0)).mpr ⟨rfl, by show (SemLoc.dma cc3_scoped0.sem : SemLoc sig).isScoped .scVector = true; decide⟩⟩⟩⟩⟩⟩⟩⟩),
    SparseCore.bigSep_erase' (Finset.mem_erase.mpr ⟨fun e => absurd (congrArg Prod.snd e) (show (SemLoc.dma cc3_scoped1.sem : SemLoc sig) ≠ SemLoc.dma cc3_scoped0.sem by decide), Finset.mem_erase.mpr ⟨fun e => absurd (congrArg Prod.snd e) (show (SemLoc.dma cc3_scoped1.sem : SemLoc sig) ≠ SemLoc.dma cc3_scratch6.sem by decide), Finset.mem_erase.mpr ⟨fun e => absurd (congrArg Prod.snd e) (show (SemLoc.dma cc3_scoped1.sem : SemLoc sig) ≠ SemLoc.dma cc3_scratch5.sem by decide), Finset.mem_erase.mpr ⟨fun e => absurd (congrArg Prod.snd e) (show (SemLoc.dma cc3_scoped1.sem : SemLoc sig) ≠ SemLoc.dma cc1_scoped2.sem by decide), Finset.mem_erase.mpr ⟨fun e => absurd (congrArg Prod.snd e) (show (SemLoc.dma cc3_scoped1.sem : SemLoc sig) ≠ SemLoc.dma cc1_scoped1.sem by decide), Finset.mem_erase.mpr ⟨fun e => absurd (congrArg Prod.snd e) (show (SemLoc.dma cc3_scoped1.sem : SemLoc sig) ≠ SemLoc.dma cc1_scoped0.sem by decide), Finset.mem_erase.mpr ⟨fun e => absurd (congrArg Prod.snd e) (show (SemLoc.dma cc3_scoped1.sem : SemLoc sig) ≠ SemLoc.dma cc1_scratch8.sem by decide), Finset.mem_erase.mpr ⟨fun e => absurd (congrArg Prod.snd e) (show (SemLoc.dma cc3_scoped1.sem : SemLoc sig) ≠ SemLoc.dma cc1_scratch7.sem by decide), (mem_ownCells (g := cell d c i cc3_scoped1)).mpr ⟨rfl, by show (SemLoc.dma cc3_scoped1.sem : SemLoc sig).isScoped .scVector = true; decide⟩⟩⟩⟩⟩⟩⟩⟩⟩)]

/-- A tile's own buffers: the twelve scratch buffers the two kernels name, each at some contents, and the rest. -/
theorem ownBufs_V (d : Dev nD) (c : Fin τ.nSC) (i : Fin τ.nSub) :
    (ownBufs (V d c i) : sProp 𝕄)
      = iprop((∃ f, (V d c i).loc cc1_scratch0 ↦{fullShare} f)
          ∗ (∃ f, (V d c i).loc cc1_scratch1 ↦{fullShare} f)
          ∗ (∃ f, (V d c i).loc cc1_scratch2 ↦{fullShare} f)
          ∗ (∃ f, (V d c i).loc cc1_scratch3 ↦{fullShare} f)
          ∗ (∃ f, (V d c i).loc cc1_scratch4 ↦{fullShare} f)
          ∗ (∃ f, (V d c i).loc cc1_scratch5 ↦{fullShare} f)
          ∗ (∃ f, (V d c i).loc cc1_scratch6 ↦{fullShare} f)
          ∗ (∃ f, (V d c i).loc cc3_scratch0 ↦{fullShare} f)
          ∗ (∃ f, (V d c i).loc cc3_scratch1 ↦{fullShare} f)
          ∗ (∃ f, (V d c i).loc cc3_scratch2 ↦{fullShare} f)
          ∗ (∃ f, (V d c i).loc cc3_scratch3 ↦{fullShare} f)
          ∗ (∃ f, (V d c i).loc cc3_scratch4 ↦{fullShare} f)
          ∗ bigSep (restRefs c i) fun b => iprop(∃ f, ((d, b) : Loc nD τ sig) ↦{fullShare} f)) := by
  unfold SparseCore.Cfg.ownBufs
  refine (SparseCore.bigSep_erase' (SparseCore.Cfg.mem_ownRefs_of_owner (p := Proc.scVector c i) (b := ((Proc.scVector c i).devRef cc1_scratch0)) rfl)).trans ?_
  rw [SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector c i) (b := ((Proc.scVector c i).devRef cc1_scratch1)) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector c i) (b := ((Proc.scVector c i).devRef cc1_scratch2)) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector c i) (b := ((Proc.scVector c i).devRef cc1_scratch3)) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector c i) (b := ((Proc.scVector c i).devRef cc1_scratch4)) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector c i) (b := ((Proc.scVector c i).devRef cc1_scratch5)) rfl⟩⟩⟩⟩⟩),
    SparseCore.bigSep_erase' (Finset.mem_erase.mpr ⟨fun e => absurd (Proc.devRef_injective _ e) (show (cc1_scratch6 : Ref sig .scVector) ≠ cc1_scratch5 by decide), Finset.mem_erase.mpr ⟨fun e => absurd (Proc.devRef_injective _ e) (show (cc1_scratch6 : Ref sig .scVector) ≠ cc1_scratch4 by decide), Finset.mem_erase.mpr ⟨fun e => absurd (Proc.devRef_injective _ e) (show (cc1_scratch6 : Ref sig .scVector) ≠ cc1_scratch3 by decide), Finset.mem_erase.mpr ⟨fun e => absurd (Proc.devRef_injective _ e) (show (cc1_scratch6 : Ref sig .scVector) ≠ cc1_scratch2 by decide), Finset.mem_erase.mpr ⟨fun e => absurd (Proc.devRef_injective _ e) (show (cc1_scratch6 : Ref sig .scVector) ≠ cc1_scratch1 by decide), Finset.mem_erase.mpr ⟨fun e => absurd (Proc.devRef_injective _ e) (show (cc1_scratch6 : Ref sig .scVector) ≠ cc1_scratch0 by decide), SparseCore.Cfg.mem_ownRefs_of_owner (p := Proc.scVector c i) (b := ((Proc.scVector c i).devRef cc1_scratch6)) rfl⟩⟩⟩⟩⟩⟩),
    SparseCore.bigSep_erase' (Finset.mem_erase.mpr ⟨fun e => absurd (Proc.devRef_injective _ e) (show (cc3_scratch0 : Ref sig .scVector) ≠ cc1_scratch6 by decide), Finset.mem_erase.mpr ⟨fun e => absurd (Proc.devRef_injective _ e) (show (cc3_scratch0 : Ref sig .scVector) ≠ cc1_scratch5 by decide), Finset.mem_erase.mpr ⟨fun e => absurd (Proc.devRef_injective _ e) (show (cc3_scratch0 : Ref sig .scVector) ≠ cc1_scratch4 by decide), Finset.mem_erase.mpr ⟨fun e => absurd (Proc.devRef_injective _ e) (show (cc3_scratch0 : Ref sig .scVector) ≠ cc1_scratch3 by decide), Finset.mem_erase.mpr ⟨fun e => absurd (Proc.devRef_injective _ e) (show (cc3_scratch0 : Ref sig .scVector) ≠ cc1_scratch2 by decide), Finset.mem_erase.mpr ⟨fun e => absurd (Proc.devRef_injective _ e) (show (cc3_scratch0 : Ref sig .scVector) ≠ cc1_scratch1 by decide), Finset.mem_erase.mpr ⟨fun e => absurd (Proc.devRef_injective _ e) (show (cc3_scratch0 : Ref sig .scVector) ≠ cc1_scratch0 by decide), SparseCore.Cfg.mem_ownRefs_of_owner (p := Proc.scVector c i) (b := ((Proc.scVector c i).devRef cc3_scratch0)) rfl⟩⟩⟩⟩⟩⟩⟩),
    SparseCore.bigSep_erase' (Finset.mem_erase.mpr ⟨fun e => absurd (Proc.devRef_injective _ e) (show (cc3_scratch1 : Ref sig .scVector) ≠ cc3_scratch0 by decide), Finset.mem_erase.mpr ⟨fun e => absurd (Proc.devRef_injective _ e) (show (cc3_scratch1 : Ref sig .scVector) ≠ cc1_scratch6 by decide), Finset.mem_erase.mpr ⟨fun e => absurd (Proc.devRef_injective _ e) (show (cc3_scratch1 : Ref sig .scVector) ≠ cc1_scratch5 by decide), Finset.mem_erase.mpr ⟨fun e => absurd (Proc.devRef_injective _ e) (show (cc3_scratch1 : Ref sig .scVector) ≠ cc1_scratch4 by decide), Finset.mem_erase.mpr ⟨fun e => absurd (Proc.devRef_injective _ e) (show (cc3_scratch1 : Ref sig .scVector) ≠ cc1_scratch3 by decide), Finset.mem_erase.mpr ⟨fun e => absurd (Proc.devRef_injective _ e) (show (cc3_scratch1 : Ref sig .scVector) ≠ cc1_scratch2 by decide), Finset.mem_erase.mpr ⟨fun e => absurd (Proc.devRef_injective _ e) (show (cc3_scratch1 : Ref sig .scVector) ≠ cc1_scratch1 by decide), Finset.mem_erase.mpr ⟨fun e => absurd (Proc.devRef_injective _ e) (show (cc3_scratch1 : Ref sig .scVector) ≠ cc1_scratch0 by decide), SparseCore.Cfg.mem_ownRefs_of_owner (p := Proc.scVector c i) (b := ((Proc.scVector c i).devRef cc3_scratch1)) rfl⟩⟩⟩⟩⟩⟩⟩⟩),
    SparseCore.bigSep_erase' (Finset.mem_erase.mpr ⟨fun e => absurd (Proc.devRef_injective _ e) (show (cc3_scratch2 : Ref sig .scVector) ≠ cc3_scratch1 by decide), Finset.mem_erase.mpr ⟨fun e => absurd (Proc.devRef_injective _ e) (show (cc3_scratch2 : Ref sig .scVector) ≠ cc3_scratch0 by decide), Finset.mem_erase.mpr ⟨fun e => absurd (Proc.devRef_injective _ e) (show (cc3_scratch2 : Ref sig .scVector) ≠ cc1_scratch6 by decide), Finset.mem_erase.mpr ⟨fun e => absurd (Proc.devRef_injective _ e) (show (cc3_scratch2 : Ref sig .scVector) ≠ cc1_scratch5 by decide), Finset.mem_erase.mpr ⟨fun e => absurd (Proc.devRef_injective _ e) (show (cc3_scratch2 : Ref sig .scVector) ≠ cc1_scratch4 by decide), Finset.mem_erase.mpr ⟨fun e => absurd (Proc.devRef_injective _ e) (show (cc3_scratch2 : Ref sig .scVector) ≠ cc1_scratch3 by decide), Finset.mem_erase.mpr ⟨fun e => absurd (Proc.devRef_injective _ e) (show (cc3_scratch2 : Ref sig .scVector) ≠ cc1_scratch2 by decide), Finset.mem_erase.mpr ⟨fun e => absurd (Proc.devRef_injective _ e) (show (cc3_scratch2 : Ref sig .scVector) ≠ cc1_scratch1 by decide), Finset.mem_erase.mpr ⟨fun e => absurd (Proc.devRef_injective _ e) (show (cc3_scratch2 : Ref sig .scVector) ≠ cc1_scratch0 by decide), SparseCore.Cfg.mem_ownRefs_of_owner (p := Proc.scVector c i) (b := ((Proc.scVector c i).devRef cc3_scratch2)) rfl⟩⟩⟩⟩⟩⟩⟩⟩⟩),
    SparseCore.bigSep_erase' (Finset.mem_erase.mpr ⟨fun e => absurd (Proc.devRef_injective _ e) (show (cc3_scratch3 : Ref sig .scVector) ≠ cc3_scratch2 by decide), Finset.mem_erase.mpr ⟨fun e => absurd (Proc.devRef_injective _ e) (show (cc3_scratch3 : Ref sig .scVector) ≠ cc3_scratch1 by decide), Finset.mem_erase.mpr ⟨fun e => absurd (Proc.devRef_injective _ e) (show (cc3_scratch3 : Ref sig .scVector) ≠ cc3_scratch0 by decide), Finset.mem_erase.mpr ⟨fun e => absurd (Proc.devRef_injective _ e) (show (cc3_scratch3 : Ref sig .scVector) ≠ cc1_scratch6 by decide), Finset.mem_erase.mpr ⟨fun e => absurd (Proc.devRef_injective _ e) (show (cc3_scratch3 : Ref sig .scVector) ≠ cc1_scratch5 by decide), Finset.mem_erase.mpr ⟨fun e => absurd (Proc.devRef_injective _ e) (show (cc3_scratch3 : Ref sig .scVector) ≠ cc1_scratch4 by decide), Finset.mem_erase.mpr ⟨fun e => absurd (Proc.devRef_injective _ e) (show (cc3_scratch3 : Ref sig .scVector) ≠ cc1_scratch3 by decide), Finset.mem_erase.mpr ⟨fun e => absurd (Proc.devRef_injective _ e) (show (cc3_scratch3 : Ref sig .scVector) ≠ cc1_scratch2 by decide), Finset.mem_erase.mpr ⟨fun e => absurd (Proc.devRef_injective _ e) (show (cc3_scratch3 : Ref sig .scVector) ≠ cc1_scratch1 by decide), Finset.mem_erase.mpr ⟨fun e => absurd (Proc.devRef_injective _ e) (show (cc3_scratch3 : Ref sig .scVector) ≠ cc1_scratch0 by decide), SparseCore.Cfg.mem_ownRefs_of_owner (p := Proc.scVector c i) (b := ((Proc.scVector c i).devRef cc3_scratch3)) rfl⟩⟩⟩⟩⟩⟩⟩⟩⟩⟩),
    SparseCore.bigSep_erase' (Finset.mem_erase.mpr ⟨fun e => absurd (Proc.devRef_injective _ e) (show (cc3_scratch4 : Ref sig .scVector) ≠ cc3_scratch3 by decide), Finset.mem_erase.mpr ⟨fun e => absurd (Proc.devRef_injective _ e) (show (cc3_scratch4 : Ref sig .scVector) ≠ cc3_scratch2 by decide), Finset.mem_erase.mpr ⟨fun e => absurd (Proc.devRef_injective _ e) (show (cc3_scratch4 : Ref sig .scVector) ≠ cc3_scratch1 by decide), Finset.mem_erase.mpr ⟨fun e => absurd (Proc.devRef_injective _ e) (show (cc3_scratch4 : Ref sig .scVector) ≠ cc3_scratch0 by decide), Finset.mem_erase.mpr ⟨fun e => absurd (Proc.devRef_injective _ e) (show (cc3_scratch4 : Ref sig .scVector) ≠ cc1_scratch6 by decide), Finset.mem_erase.mpr ⟨fun e => absurd (Proc.devRef_injective _ e) (show (cc3_scratch4 : Ref sig .scVector) ≠ cc1_scratch5 by decide), Finset.mem_erase.mpr ⟨fun e => absurd (Proc.devRef_injective _ e) (show (cc3_scratch4 : Ref sig .scVector) ≠ cc1_scratch4 by decide), Finset.mem_erase.mpr ⟨fun e => absurd (Proc.devRef_injective _ e) (show (cc3_scratch4 : Ref sig .scVector) ≠ cc1_scratch3 by decide), Finset.mem_erase.mpr ⟨fun e => absurd (Proc.devRef_injective _ e) (show (cc3_scratch4 : Ref sig .scVector) ≠ cc1_scratch2 by decide), Finset.mem_erase.mpr ⟨fun e => absurd (Proc.devRef_injective _ e) (show (cc3_scratch4 : Ref sig .scVector) ≠ cc1_scratch1 by decide), Finset.mem_erase.mpr ⟨fun e => absurd (Proc.devRef_injective _ e) (show (cc3_scratch4 : Ref sig .scVector) ≠ cc1_scratch0 by decide), SparseCore.Cfg.mem_ownRefs_of_owner (p := Proc.scVector c i) (b := ((Proc.scVector c i).devRef cc3_scratch4)) rfl⟩⟩⟩⟩⟩⟩⟩⟩⟩⟩⟩)]

end Cert.Kernel.TileCommon

end
-- ==== Proof.TileDotDefsK.lean ====
/-
  The second SparseCore kernel's task at a symbolic place, its vocabulary: the SparseCore and vector subcore of a grid
  point, the four arrays and the five scratch buffers as the body table passes them, the tile's slices of the
  difference rows, the index words and the result as the program slices them, what the task is handed and hands back
  (read shares of the packed user table, of the index array and of its 64 difference rows; its own 128 result entries),
  and the scratch buffers' points-to as their memrefs address them.
-/
import proofs.«203895_g52347061404180_cont_8to1_c_859_34_alg».proof.Proof.TileCommonK

noncomputable section

namespace Cert.Kernel.TileDotDefs

open Cert.Kernel Cert.Kernel.Gen Cert.Kernel.KCommon Cert.Kernel.TileCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The place and the buffers -/

/-- The SparseCore and the vector subcore of grid point `L`. -/
abbrev cV (L : grid3.Coords) : Fin τ.nSC := (L 0).castLE hcore3
abbrev jV (L : grid3.Coords) : Fin τ.nSub := (L 1).castLE hsub3

variable (d : Dev nD) (L : grid3.Coords)

/-- The four arrays in HBM, as the body table passes them. -/
abbrev puM : Memref sig .scVector .hbm S50176x128 .f32 := Memref.whole main_v9_scv
abbrev uiM : Memref sig .scVector .hbm S4096 .i32 := Memref.whole main_v0_scv
abbrev gpM : Memref sig .scVector .hbm S2048x128 .f32 := Memref.whole main_v7_scv
abbrev outM : Memref sig .scVector .hbm S4096 .f32 := Memref.whole main_v10_scv
/-- The tile's five scratch buffers. -/
abbrev urawM : Memref sig .scVector .vmem S128 .i32 := Memref.whole cc3_scratch0
abbrev uidxM : Memref sig .scVector .vmem S128 .i32 := Memref.whole cc3_scratch1
abbrev urowsM : Memref sig .scVector .vmem S128x128 .f32 := Memref.whole cc3_scratch2
abbrev gpvM : Memref sig .scVector .vmem S64x128 .f32 := Memref.whole cc3_scratch3
abbrev diffsM : Memref sig .scVector .vmem S128 .f32 := Memref.whole cc3_scratch4

/-- The tile's 64 difference rows and its 128 result entries, sliced as the program slices them. -/
abbrev gpSl (L : grid3.Coords) : Memref sig .scVector .hbm S64x128 .f32 :=
  (gpM).slice (Rect.unit (s := S2048x128) (k3_off2 L) S64x128.size (k3_off2_inb L)) (fun _ => rfl)
abbrev outSl (L : grid3.Coords) : Memref sig .scVector .hbm S128 .f32 :=
  (outM).slice (Rect.unit (s := S4096) (k3_off1 L) S128.size (k3_off1_inb L)) (fun _ => rfl)
abbrev uiSl (L : grid3.Coords) : Memref sig .scVector .hbm S128 .i32 :=
  (uiM).slice (Rect.unit (s := S4096) (k3_off1 L) S128.size (k3_off1_inb L)) (fun _ => rfl)

variable [FloatOps F]

/-- What the task is handed: read shares of the packed user table and of the index array, whole; a read share of its
    64 difference rows; its 128 result entries outright. -/
def goDot (q9 q0 q7 : PosShare TreeShare)
    (f9 : Buf (Elt F) ((puM).view.loc (V d (cV L) (jV L)))) (f0 : Buf (Elt F) ((uiM).view.loc (V d (cV L) (jV L))))
    (f7 : Buf (Elt F) ((gpSl L).view.loc (V d (cV L) (jV L)))) : sProp 𝕄 :=
  iprop(((puM).view.loc (V d (cV L) (jV L)) ↦{q9} f9)
    ∗ ((uiM).view.loc (V d (cV L) (jV L)) ↦{q0} f0)
    ∗ ((gpSl L).view.loc (V d (cV L) (jV L)) ↦[(gpSl L).view.set]{q7} f7)
    ∗ ∃ f, (outSl L).view.loc (V d (cV L) (jV L)) ↦[(outSl L).view.set]{fullShare} f)

/-! ## The scratch buffers as their memrefs address them -/

omit [FloatOps F] in
theorem pts_s0 (f : Buf (Elt F) ((V d (cV L) (jV L)).loc cc3_scratch0)) :
    ((urawM).view.loc (V d (cV L) (jV L)) ↦{fullShare} f : sProp 𝕄) = (V d (cV L) (jV L)).loc cc3_scratch0 ↦{fullShare} f := rfl
omit [FloatOps F] in
theorem pts_s1 (f : Buf (Elt F) ((V d (cV L) (jV L)).loc cc3_scratch1)) :
    ((uidxM).view.loc (V d (cV L) (jV L)) ↦{fullShare} f : sProp 𝕄) = (V d (cV L) (jV L)).loc cc3_scratch1 ↦{fullShare} f := rfl
omit [FloatOps F] in
theorem pts_s2 (f : Buf (Elt F) ((V d (cV L) (jV L)).loc cc3_scratch2)) :
    ((urowsM).view.loc (V d (cV L) (jV L)) ↦{fullShare} f : sProp 𝕄) = (V d (cV L) (jV L)).loc cc3_scratch2 ↦{fullShare} f := rfl
omit [FloatOps F] in
theorem pts_s3 (f : Buf (Elt F) ((V d (cV L) (jV L)).loc cc3_scratch3)) :
    ((gpvM).view.loc (V d (cV L) (jV L)) ↦{fullShare} f : sProp 𝕄) = (V d (cV L) (jV L)).loc cc3_scratch3 ↦{fullShare} f := rfl
omit [FloatOps F] in
theorem pts_s4 (f : Buf (Elt F) ((V d (cV L) (jV L)).loc cc3_scratch4)) :
    ((diffsM).view.loc (V d (cV L) (jV L)) ↦{fullShare} f : sProp 𝕄) = (V d (cV L) (jV L)).loc cc3_scratch4 ↦{fullShare} f := rfl

end Cert.Kernel.TileDotDefs

end
-- ==== Proof.TileGDefsK.lean ====
/-
  ONE TILE'S TASK of the first SparseCore kernel: the place, the arrays and scratch buffers as the body table passes
  them, the tile's slice of the result, and what the task is handed and hands back. Nothing here runs the program.
-/
import proofs.«203895_g52347061404180_cont_8to1_c_859_34_alg».proof.Proof.TileCommonK

noncomputable section

namespace Cert.Kernel.TileG

open Cert.Kernel Cert.Kernel.Gen Cert.Kernel.KCommon Cert.Kernel.TileCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 2) (Elt F) ℕ UU ℕ

/-! ## The place and the buffers -/

/-- The SparseCore and the vector subcore of grid point `L`. -/
abbrev cV (L : grid1.Coords) : Fin τ.nSC := (L 0).castLE hcore1
abbrev jV (L : grid1.Coords) : Fin τ.nSub := (L 1).castLE hsub1

/-- The four arrays in HBM, as the body table passes them: the packed item table, the positive and the negative items'
    index arrays, the result (the rows of differences). -/
abbrev tblM : Memref sig .scVector .hbm S50176x128 .f32 := Memref.whole main_v6_scv
abbrev posM : Memref sig .scVector .hbm S4096 .i32 := Memref.whole main_v2_scv
abbrev negM : Memref sig .scVector .hbm S4096 .i32 := Memref.whole main_v4_scv
abbrev gpM : Memref sig .scVector .hbm S2048x128 .f32 := Memref.whole main_v7_scv
/-- The tile's seven scratch buffers: the raw and the repacked index words of each sign, the gathered rows of each sign,
    the differences. -/
abbrev rawPM : Memref sig .scVector .vmem S128 .i32 := Memref.whole cc1_scratch0
abbrev rawNM : Memref sig .scVector .vmem S128 .i32 := Memref.whole cc1_scratch1
abbrev idxPM : Memref sig .scVector .vmem S128 .i32 := Memref.whole cc1_scratch2
abbrev idxNM : Memref sig .scVector .vmem S128 .i32 := Memref.whole cc1_scratch3
abbrev rowsPM : Memref sig .scVector .vmem S128x128 .f32 := Memref.whole cc1_scratch4
abbrev rowsNM : Memref sig .scVector .vmem S128x128 .f32 := Memref.whole cc1_scratch5
abbrev diffM : Memref sig .scVector .vmem S64x128 .f32 := Memref.whole cc1_scratch6

/-- The tile's 64 rows of the result, sliced as the program slices them. -/
abbrev gpSl (L : grid1.Coords) : Memref sig .scVector .hbm S64x128 .f32 :=
  (Memref.whole main_v7_scv : Memref sig .scVector .hbm S2048x128 .f32).slice
    (Rect.unit (s := S2048x128) (k1_off3 L) S64x128.size (k1_off3_inb L)) (fun _ => rfl)

variable (d : Dev nD) (L : grid1.Coords)

/-- What the task is handed, and hands back: two read shares of the packed table, whole (its two gathers are in flight
    together, one share each), a read share of each index array, whole, and the tile's 64 rows of the result outright, at
    some contents. Spelt over the arrays' memrefs as the body table passes them. -/
def goG (q6a q6b q2 q4 : PosShare TreeShare)
    (f6 : Buf (Elt F) ((Memref.whole main_v6_scv : Memref sig .scVector .hbm S50176x128 .f32).view.loc (V d (cV L) (jV L))))
    (f2 : Buf (Elt F) ((Memref.whole main_v2_scv : Memref sig .scVector .hbm S4096 .i32).view.loc (V d (cV L) (jV L))))
    (f4 : Buf (Elt F) ((Memref.whole main_v4_scv : Memref sig .scVector .hbm S4096 .i32).view.loc (V d (cV L) (jV L)))) : sProp 𝕄 :=
  iprop(((Memref.whole main_v6_scv : Memref sig .scVector .hbm S50176x128 .f32).view.loc (V d (cV L) (jV L)) ↦{q6a} f6)
    ∗ ((Memref.whole main_v6_scv : Memref sig .scVector .hbm S50176x128 .f32).view.loc (V d (cV L) (jV L)) ↦{q6b} f6)
    ∗ ((Memref.whole main_v2_scv : Memref sig .scVector .hbm S4096 .i32).view.loc (V d (cV L) (jV L)) ↦{q2} f2)
    ∗ ((Memref.whole main_v4_scv : Memref sig .scVector .hbm S4096 .i32).view.loc (V d (cV L) (jV L)) ↦{q4} f4)
    ∗ ∃ f, (gpSl L).view.loc (V d (cV L) (jV L)) ↦[(gpSl L).view.set]{fullShare} f)

/-- THE LOOP'S INVARIANT (frame form): the two raw-index scratches, the two gathered-row scratches and the difference
    scratch, each whole at some contents — everything a trip of the loop touches. -/
def invG (_ : Nat) (_ : Unit) : sProp 𝕄 :=
  iprop((∃ f, (Memref.whole cc1_scratch0 : Memref sig .scVector .vmem S128 .i32).view.loc (V d (cV L) (jV L)) ↦{fullShare} f)
    ∗ (∃ f, (Memref.whole cc1_scratch1 : Memref sig .scVector .vmem S128 .i32).view.loc (V d (cV L) (jV L)) ↦{fullShare} f)
    ∗ (∃ f, (Memref.whole cc1_scratch4 : Memref sig .scVector .vmem S128x128 .f32).view.loc (V d (cV L) (jV L)) ↦{fullShare} f)
    ∗ (∃ f, (Memref.whole cc1_scratch5 : Memref sig .scVector .vmem S128x128 .f32).view.loc (V d (cV L) (jV L)) ↦{fullShare} f)
    ∗ ∃ f, (Memref.whole cc1_scratch6 : Memref sig .scVector .vmem S64x128 .f32).view.loc (V d (cV L) (jV L)) ↦{fullShare} f)

/-! ## The scratch buffers as their memrefs address them -/

theorem pts_s0 (f : Buf (Elt F) ((V d (cV L) (jV L)).loc cc1_scratch0)) :
    ((Memref.whole cc1_scratch0 : Memref sig .scVector .vmem S128 .i32).view.loc (V d (cV L) (jV L)) ↦{fullShare} f : sProp 𝕄)
      = (V d (cV L) (jV L)).loc cc1_scratch0 ↦{fullShare} f := rfl
theorem pts_s1 (f : Buf (Elt F) ((V d (cV L) (jV L)).loc cc1_scratch1)) :
    ((Memref.whole cc1_scratch1 : Memref sig .scVector .vmem S128 .i32).view.loc (V d (cV L) (jV L)) ↦{fullShare} f : sProp 𝕄)
      = (V d (cV L) (jV L)).loc cc1_scratch1 ↦{fullShare} f := rfl
theorem pts_s2 (f : Buf (Elt F) ((V d (cV L) (jV L)).loc cc1_scratch2)) :
    ((Memref.whole cc1_scratch2 : Memref sig .scVector .vmem S128 .i32).view.loc (V d (cV L) (jV L)) ↦{fullShare} f : sProp 𝕄)
      = (V d (cV L) (jV L)).loc cc1_scratch2 ↦{fullShare} f := rfl
theorem pts_s3 (f : Buf (Elt F) ((V d (cV L) (jV L)).loc cc1_scratch3)) :
    ((Memref.whole cc1_scratch3 : Memref sig .scVector .vmem S128 .i32).view.loc (V d (cV L) (jV L)) ↦{fullShare} f : sProp 𝕄)
      = (V d (cV L) (jV L)).loc cc1_scratch3 ↦{fullShare} f := rfl
theorem pts_s4 (f : Buf (Elt F) ((V d (cV L) (jV L)).loc cc1_scratch4)) :
    ((Memref.whole cc1_scratch4 : Memref sig .scVector .vmem S128x128 .f32).view.loc (V d (cV L) (jV L)) ↦{fullShare} f : sProp 𝕄)
      = (V d (cV L) (jV L)).loc cc1_scratch4 ↦{fullShare} f := rfl
theorem pts_s5 (f : Buf (Elt F) ((V d (cV L) (jV L)).loc cc1_scratch5)) :
    ((Memref.whole cc1_scratch5 : Memref sig .scVector .vmem S128x128 .f32).view.loc (V d (cV L) (jV L)) ↦{fullShare} f : sProp 𝕄)
      = (V d (cV L) (jV L)).loc cc1_scratch5 ↦{fullShare} f := rfl
theorem pts_s6 (f : Buf (Elt F) ((V d (cV L) (jV L)).loc cc1_scratch6)) :
    ((Memref.whole cc1_scratch6 : Memref sig .scVector .vmem S64x128 .f32).view.loc (V d (cV L) (jV L)) ↦{fullShare} f : sProp 𝕄)
      = (V d (cV L) (jV L)).loc cc1_scratch6 ↦{fullShare} f := rfl

end Cert.Kernel.TileG

end
-- ==== Proof.LaunchPayK.lean ====
/-
  What the launch's handshakes carry for the two SparseCore calls.

  A call's operands go from the TensorCore to the two SparseCores' sequencers and on to their sixteen tiles each, and
  come back the same way. Here a sequencer is handed exactly the product of its tiles' tasks and hands back the product
  of their results, so the split of a SparseCore's operands among its tasks is the identity; the arrays are cut up once,
  on the TensorCore, when @main meets the call. A task's payload does not fix the arrays' contents in advance — the
  packed tables and the differences are produced while the program runs — but says what the tile's proof needs of
  them: that the index words it is handed name table rows.

  Tile `i` of SparseCore `c` is the tile number `2 i + c` of the 32; it reads the whole tables through read-share
  token number `2 i + c`.
-/
import proofs.«203895_g52347061404180_cont_8to1_c_859_34_alg».proof.Proof.KCommonK
import proofs.«203895_g52347061404180_cont_8to1_c_859_34_alg».proof.Proof.TileDotDefsK
import proofs.«203895_g52347061404180_cont_8to1_c_859_34_alg».proof.Proof.TileGDefsK

noncomputable section

namespace Cert.Kernel.LaunchPay

open Cert.Kernel Cert.Kernel.Gen Cert.Kernel.KCommon
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The number of tile `i` of SparseCore `c` among the 32. -/
abbrev tileNo (c : Fin 2) (i : Fin 16) : Fin 32 := ⟨2 * i.val + c.val, by have := c.isLt; have := i.isLt; omega⟩

/-- The read share a tile holds of an array all 32 read whole. -/
abbrev tileShare (c : Fin 2) (i : Fin 16) : PosShare TreeShare := Transfers.shareTok fullShare 32 (tileNo c i)

/-- SECOND SparseCore call, tile `(c, i)`: read shares of the packed user table and of the flattened user indices
    (whole), its 64 difference rows, its 128 result entries; the index words name table rows. -/
def goDotP (d : Dev nD) (c : Fin 2) (i : Fin 16) : sProp 𝕄 :=
  iprop(∃ f9 f0 f7, ⌜∀ j, 0 ≤ (f0 j).toInt ∧ (f0 j).toInt ≤ 99999⌝
    ∗ TileDotDefs.goDot (F := F) d (coordsV3 c i) (tileShare c i) (tileShare c i) fullShare f9 f0 f7)

/-- The two read shares a tile holds of the packed item table, whose two gathers are in flight together. -/
abbrev tileShareA (c : Fin 2) (i : Fin 16) : PosShare TreeShare :=
  Transfers.shareTok fullShare 64 ⟨2 * (tileNo c i).val, by have := (tileNo c i).isLt; omega⟩
abbrev tileShareB (c : Fin 2) (i : Fin 16) : PosShare TreeShare :=
  Transfers.shareTok fullShare 64 ⟨2 * (tileNo c i).val + 1, by have := (tileNo c i).isLt; omega⟩

/-- FIRST SparseCore call, tile `(c, i)`: two read shares of the packed item table, read shares of the two flattened
    item index arrays (whole), its 64 rows of the differences; the index words name table rows. -/
def goGP (d : Dev nD) (c : Fin 2) (i : Fin 16) : sProp 𝕄 :=
  iprop(∃ f6 f2 f4, ⌜(∀ j, 0 ≤ (f2 j).toInt ∧ (f2 j).toInt ≤ 99999) ∧ (∀ j, 0 ≤ (f4 j).toInt ∧ (f4 j).toInt ≤ 99999)⌝
    ∗ TileG.goG (F := F) d (coordsV1 c i) (tileShareA c i) (tileShareB c i) (tileShare c i) (tileShare c i) f6 f2 f4)

/-- What call `q` hands tile `i` of SparseCore `c`, and what the tile hands back (the same arrays, the result entries
    rewritten: a payload keeps its result under an existential). -/
def goP : Fin 2 → Dev nD → Fin 2 → Fin 16 → sProp 𝕄
  | 0 => goGP (F := F)
  | 1 => goDotP (F := F)

theorem goP_zero : goP (F := F) 0 = goGP (F := F) := rfl
theorem goP_one : goP (F := F) 1 = goDotP (F := F) := rfl

/-- Both calls run on two SparseCores of sixteen vector subcores. -/
theorem nCore_eq (q : Fin 2) : (K (F := F)).nCore q = 2 := by match q with | 0 => rfl | 1 => rfl
theorem nSub_eq (q : Fin 2) : (K (F := F)).nSub q = 16 := by match q with | 0 => rfl | 1 => rfl
/-- A call's SparseCore and vector subcore numbers as numbers below 2 and 16. -/
abbrev castC (q : Fin 2) (c : Fin ((K (F := F)).nCore q)) : Fin 2 := Fin.cast (nCore_eq (F := F) q) c
abbrev castI (q : Fin 2) (i : Fin ((K (F := F)).nSub q)) : Fin 16 := Fin.cast (nSub_eq (F := F) q) i

/-- The payloads: a sequencer is handed its tiles' tasks and hands back their results; nothing is consumed from the launch. -/
def P : (K (F := F)).Pay (nD := nD) (Val := Elt F) (Name := ℕ) (U := UU) where
  st := fun q d c => bigSep Finset.univ fun i : Fin 16 => goP (F := F) q d (castC (F := F) q c) i
  dn := fun q d c => bigSep Finset.univ fun i : Fin 16 => goP (F := F) q d (castC (F := F) q c) i
  go := fun q d c i => goP (F := F) q d (castC (F := F) q c) (castI (F := F) q i)
  td := fun q d c i => goP (F := F) q d (castC (F := F) q c) (castI (F := F) q i)
  x := fun _ _ => iprop(emp)

set_option synthInstance.maxHeartbeats 4000000 in
set_option maxHeartbeats 4000000 in
instance goGP_storable (d : Dev nD) (c : Fin 2) (i : Fin 16) : BI.Storable (upEmb : UEmb _ 𝕄) (goGP (F := F) d c i) := by
  unfold goGP TileG.goG; infer_instance
set_option synthInstance.maxHeartbeats 4000000 in
set_option maxHeartbeats 4000000 in
instance goDotP_storable (d : Dev nD) (c : Fin 2) (i : Fin 16) : BI.Storable (upEmb : UEmb _ 𝕄) (goDotP (F := F) d c i) := by
  unfold goDotP TileDotDefs.goDot; infer_instance
instance goP_storable (q : Fin 2) (d : Dev nD) (c : Fin 2) (i : Fin 16) : BI.Storable (upEmb : UEmb _ 𝕄) (goP (F := F) q d c i) := by
  match q with
  | 0 => rw [goP_zero]; infer_instance
  | 1 => rw [goP_one]; infer_instance

instance P_storable : (P (F := F)).IsStorable where
  st _ _ _ := by unfold P; infer_instance
  dn _ _ _ := by unfold P; infer_instance
  go _ _ _ _ := by unfold P; infer_instance
  td _ _ _ _ := by unfold P; infer_instance

/-- The sixteen tasks of a SparseCore, re-indexed over the call's own count of vector subcores. -/
theorem bigSep_tasks (q : Fin 2) (Φ : Fin 16 → sProp 𝕄) :
    (bigSep Finset.univ fun i : Fin ((K (F := F)).nSub q) => Φ (castI (F := F) q i)) = bigSep Finset.univ Φ := by
  match q with
  | 0 => exact bigSep_congr fun _ _ => congrArg Φ (Fin.ext rfl)
  | 1 => exact bigSep_congr fun _ _ => congrArg Φ (Fin.ext rfl)

/-- A SparseCore's operands ARE its tiles' tasks: the split is the identity. -/
theorem vecSplit (q : Fin 2) : (K (F := F)).VecSplit' (P (F := F)) q := by
  intro d c
  show (bigSep Finset.univ fun i : Fin 16 => goP (F := F) q d (castC (F := F) q c) i) ⊢ |={Set.univ}=> iprop(
      (bigSep Finset.univ fun i : Fin ((K (F := F)).nSub q) => (fun i' => goP (F := F) q d (castC (F := F) q c) i') (castI (F := F) q i))
      ∗ ((bigSep Finset.univ fun i : Fin ((K (F := F)).nSub q) => (fun i' => goP (F := F) q d (castC (F := F) q c) i') (castI (F := F) q i))
          -∗ bigSep Finset.univ fun i : Fin 16 => goP (F := F) q d (castC (F := F) q c) i))
  rw [bigSep_tasks (F := F) q (fun i' => goP (F := F) q d (castC (F := F) q c) i')]
  iintro H; imodintro
  isplitl [H]; · iexact H
  iintro H; iexact H

end Cert.Kernel.LaunchPay

end
-- ==== Proof.LaunchOblK.lean ====
/-
  The launch theorem's tile obligations from the two tile bodies.

  The launch theorem asks, per SparseCore call, for the proof of one vector subcore's task in its own spelling: the
  thread is the call's subcore `(core q c, sub q i)`, the program the extended label table's row, lifted. A tile body
  proved at a symbolic grid point — for any read shares and any contents whose index words name table rows — is that
  obligation at the tile's point: the payload opens to its contents and its range fact, the body runs, the payload closes
  at the same contents.
-/
import proofs.«203895_g52347061404180_cont_8to1_c_859_34_alg».proof.Proof.LaunchPayK

noncomputable section

namespace Cert.Kernel.LaunchObl

open Cert.Kernel Cert.Kernel.Gen Cert.Kernel.KCommon Cert.Kernel.LaunchPay
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The second tile body's statement: at any grid point, any read shares, any contents with index words in range. -/
def BodyDot : Prop :=
  ∀ (d : Dev nD) (L : grid3.Coords) (q9 q0 q7 : PosShare TreeShare)
    (f9 : Buf (Elt F) ((TileDotDefs.puM).view.loc (V d (TileDotDefs.cV L) (TileDotDefs.jV L))))
    (f0 : Buf (Elt F) ((TileDotDefs.uiM).view.loc (V d (TileDotDefs.cV L) (TileDotDefs.jV L))))
    (f7 : Buf (Elt F) ((TileDotDefs.gpSl L).view.loc (V d (TileDotDefs.cV L) (TileDotDefs.jV L))))
    (hidx : ∀ j, 0 ≤ (f0 j).toInt ∧ (f0 j).toInt ≤ 99999)
    (O : CellTallies nD τ sig (HIx 2)) (W : Waits sig (HIx 2)) (hO : ∀ g, O g none = 0),
    iprop(levAts (K (F := F)).L (K (F := F)).lev ∗ emp ∗ TileDotDefs.goDot (F := F) d L q9 q0 q7 f9 f0 f7
        ∗ scopedBufs (V d (TileDotDefs.cV L) (TileDotDefs.jV L)) ∗ scopedSems0 (V d (TileDotDefs.cV L) (TileDotDefs.jV L))
        ∗ owes (V d (TileDotDefs.cV L) (TileDotDefs.jV L)) O W)
      ⊢ wp frame (wpE (defs₀ (F := F)) 𝒱₀ (V d (TileDotDefs.cV L) (TileDotDefs.jV L)) none) Set.univ
          (cc3__sc_dot_body L TileDotDefs.puM (Memref.isWhole_whole _) TileDotDefs.uiM (Memref.isWhole_whole _)
            TileDotDefs.gpM (Memref.isWhole_whole _) TileDotDefs.outM (Memref.isWhole_whole _)
            TileDotDefs.urawM (Memref.isWhole_whole _) TileDotDefs.uidxM (Memref.isWhole_whole _)
            TileDotDefs.urowsM (Memref.isWhole_whole _) TileDotDefs.gpvM (Memref.isWhole_whole _)
            TileDotDefs.diffsM (Memref.isWhole_whole _) cc3_scratch5 cc3_scratch6 cc3_scoped0 cc3_scoped1)
          fun _ => iprop(TileDotDefs.goDot (F := F) d L q9 q0 q7 f9 f0 f7
            ∗ scopedBufs (V d (TileDotDefs.cV L) (TileDotDefs.jV L)) ∗ scopedSems0 (V d (TileDotDefs.cV L) (TileDotDefs.jV L))
            ∗ ∃ W', ⌜∀ p ∈ W', p ∈ W ∨ p.2 = none⌝ ∗ owes (V d (TileDotDefs.cV L) (TileDotDefs.jV L)) O W')

/-- The post's recorded pairs, weakened to the launch theorem's form. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The second call's tile obligation. -/
theorem tileObl1 (hbody : BodyDot (F := F)) : (K (F := F)).TileObl (D (F := F)) 𝒱 (P (F := F)) v₀ 1 := by
  intro d c i O W hO _ _
  simp only [show (P (F := F)).ox = fun _ _ => 0 from rfl, add_zero]
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  have hc : ((K (F := F)).core 1 c).val < grid3.bound 0 ∧ ((K (F := F)).sub 1 i).val < grid3.bound 1 := ⟨c.isLt, i.isLt⟩
  rw [defs₀_vector3]; simp only [SparseCore.onTile, hc, and_self, ↓reduceDIte]
  show iprop(levAts (K (F := F)).L (K (F := F)).lev ∗ emp ∗ goDotP (F := F) d (castC (F := F) 1 c) (castI (F := F) 1 i) ∗ _ ∗ _ ∗ _) ⊢ _
  unfold goDotP
  iintro ⟨Hlv, He, ⟨%f9, %f0, %f7, %hidx, Hgo⟩, Hsb, Hss, HO⟩
  iapply (wp_mono frame _ _ fun _ => obl_post (q := 1))
  iapply (wp_mono frame _ _ fun _ => (show iprop(TileDotDefs.goDot (F := F) d (coordsV3 (castC (F := F) 1 c) (castI (F := F) 1 i)) _ _ _ f9 f0 f7 ∗ _ ∗ _ ∗ _)
      ⊢ iprop((∃ f9 f0 f7, ⌜∀ j, 0 ≤ (f0 j).toInt ∧ (f0 j).toInt ≤ 99999⌝ ∗ TileDotDefs.goDot (F := F) d (coordsV3 (castC (F := F) 1 c) (castI (F := F) 1 i)) (tileShare _ _) (tileShare _ _) fullShare f9 f0 f7) ∗ _ ∗ _ ∗ _) from by
    iintro ⟨Hgo, Hrest⟩
    isplitl [Hgo]
    · iexists f9; iexists f0; iexists f7; isplitr; · ipureintro; exact hidx
      iexact Hgo
    · iexact Hrest))
  iapply (hbody d (coordsV3 (castC (F := F) 1 c) (castI (F := F) 1 i)) _ _ _ f9 f0 f7 hidx O W hO)
  isplitl [Hlv]; · iexact Hlv
  isplitl [He]; · iexact He
  isplitl [Hgo]; · iexact Hgo
  isplitl [Hsb]; · iexact Hsb
  isplitl [Hss]; · iexact Hss
  iexact HO

/-- The first tile body's statement: at any grid point, any read shares, any contents with index words in range. -/
def BodyG : Prop :=
  ∀ (d : Dev nD) (L : grid1.Coords) (q6a q6b q2 q4 : PosShare TreeShare)
    (f6 : Buf (Elt F) ((Memref.whole main_v6_scv : Memref sig .scVector .hbm S50176x128 .f32).view.loc (V d (TileG.cV L) (TileG.jV L))))
    (f2 : Buf (Elt F) ((Memref.whole main_v2_scv : Memref sig .scVector .hbm S4096 .i32).view.loc (V d (TileG.cV L) (TileG.jV L))))
    (f4 : Buf (Elt F) ((Memref.whole main_v4_scv : Memref sig .scVector .hbm S4096 .i32).view.loc (V d (TileG.cV L) (TileG.jV L))))
    (hidx2 : ∀ j, 0 ≤ (f2 j).toInt ∧ (f2 j).toInt ≤ 99999) (hidx4 : ∀ j, 0 ≤ (f4 j).toInt ∧ (f4 j).toInt ≤ 99999)
    (O : CellTallies nD τ sig (HIx 2)) (W : Waits sig (HIx 2)) (hO : ∀ g, O g none = 0),
    iprop(levAts (K (F := F)).L (K (F := F)).lev ∗ emp ∗ TileG.goG (F := F) d L q6a q6b q2 q4 f6 f2 f4
        ∗ scopedBufs (V d (TileG.cV L) (TileG.jV L)) ∗ scopedSems0 (V d (TileG.cV L) (TileG.jV L))
        ∗ owes (V d (TileG.cV L) (TileG.jV L)) O W)
      ⊢ wp frame (wpE (defs₀ (F := F)) 𝒱₀ (V d (TileG.cV L) (TileG.jV L)) none) Set.univ
          (cc1__sc_g_body L TileG.tblM (Memref.isWhole_whole _) TileG.posM (Memref.isWhole_whole _)
            TileG.negM (Memref.isWhole_whole _) TileG.gpM (Memref.isWhole_whole _)
            TileG.rawPM (Memref.isWhole_whole _) TileG.rawNM (Memref.isWhole_whole _)
            TileG.idxPM (Memref.isWhole_whole _) TileG.idxNM (Memref.isWhole_whole _)
            TileG.rowsPM (Memref.isWhole_whole _) TileG.rowsNM (Memref.isWhole_whole _)
            TileG.diffM (Memref.isWhole_whole _) cc1_scratch7 cc1_scratch8 cc1_scoped0 cc1_scoped1 cc1_scoped2)
          fun _ => iprop(TileG.goG (F := F) d L q6a q6b q2 q4 f6 f2 f4
            ∗ scopedBufs (V d (TileG.cV L) (TileG.jV L)) ∗ scopedSems0 (V d (TileG.cV L) (TileG.jV L))
            ∗ ∃ W', ⌜∀ p ∈ W', p ∈ W ∨ p.2 = none⌝ ∗ owes (V d (TileG.cV L) (TileG.jV L)) O W')

/-- The first call's tile obligation. -/
theorem tileObl0 (hbody : BodyG (F := F)) : (K (F := F)).TileObl (D (F := F)) 𝒱 (P (F := F)) v₀ 0 := by
  intro d c i O W hO _ _
  simp only [show (P (F := F)).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector1]; simp only [SparseCore.onTile, hc, and_self, ↓reduceDIte]
  show iprop(levAts (K (F := F)).L (K (F := F)).lev ∗ emp ∗ goGP (F := F) d (castC (F := F) 0 c) (castI (F := F) 0 i) ∗ _ ∗ _ ∗ _) ⊢ _
  unfold goGP
  iintro ⟨Hlv, He, ⟨%f6, %f2, %f4, %hidx, Hgo⟩, Hsb, Hss, HO⟩
  iapply (wp_mono frame _ _ fun _ => obl_post (q := 0))
  iapply (wp_mono frame _ _ fun _ => (show iprop(TileG.goG (F := F) d (coordsV1 (castC (F := F) 0 c) (castI (F := F) 0 i)) _ _ _ _ f6 f2 f4 ∗ _ ∗ _ ∗ _)
      ⊢ iprop((∃ f6 f2 f4, ⌜(∀ j, 0 ≤ (f2 j).toInt ∧ (f2 j).toInt ≤ 99999) ∧ (∀ j, 0 ≤ (f4 j).toInt ∧ (f4 j).toInt ≤ 99999)⌝
          ∗ TileG.goG (F := F) d (coordsV1 (castC (F := F) 0 c) (castI (F := F) 0 i)) (tileShareA _ _) (tileShareB _ _) (tileShare _ _) (tileShare _ _) f6 f2 f4) ∗ _ ∗ _ ∗ _) from by
    iintro ⟨Hgo, Hrest⟩
    isplitl [Hgo]
    · iexists f6; iexists f2; iexists f4; isplitr; · ipureintro; exact hidx
      iexact Hgo
    · iexact Hrest))
  iapply (hbody d (coordsV1 (castC (F := F) 0 c) (castI (F := F) 0 i)) _ _ _ _ f6 f2 f4 hidx.1 hidx.2 O W hO)
  isplitl [Hlv]; · iexact Hlv
  isplitl [He]; · iexact He
  isplitl [Hgo]; · iexact Hgo
  isplitl [Hsb]; · iexact Hsb
  isplitl [Hss]; · iexact Hss
  iexact HO

end Cert.Kernel.LaunchObl

end
-- ==== Proof.LaunchElemK.lean ====
/-
  The launch element of the ghost state.

  The user algebra has three components: the launch handshakes' rounds, the TensorCore pipelines' staging cells' rounds,
  and the local transfers' counters. The element owned at the launch gives the first to the launch theorem as it stands,
  funds from the second, for every device, the three pipelines' staging cells (their launch state, the owner's position,
  round 0 reached) and their duty tokens — what each TensorCore region is later entered with —, and the third is the
  counters' unit. The SparseCore kernels have no protocol of their own beyond local copies: they are dealt nothing.
-/
import proofs.«203895_g52347061404180_cont_8to1_c_859_34_alg».proof.Proof.LaunchPayK
import proofs.«203895_g52347061404180_cont_8to1_c_859_34_alg».proof.Proof.Gen.Kernel.Launch

noncomputable section

namespace Cert.Kernel.LaunchElem

open Cert.Kernel Cert.Kernel.Gen Cert.Kernel.KCommon Cert.Kernel.LaunchPay
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- The launch element: the handshakes' cells and tokens, the pipelines' staging cells and tokens, the counters' unit. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

/-- What @main's proof on device `d` starts from besides the launch's deal: the three pipelines' staging cells' ghost
    state and duty tokens. -/
def G (d : Dev nD) : sProp 𝕄 :=
  iprop((bigSep Finset.univ fun p : Fin 3 => Pipeline.cellsGhost (nD := nD) (τ := τ) cfgs (EP (F := F)) p d)
    ∗ (bigSep Finset.univ fun p : Fin 3 => Pipeline.toksInit (nD := nD) (τ := τ) cfgs (EP (F := F)) p d))

theorem bigSep_emp' {I : Type} (s : Finset I) : (bigSep s fun _ => iprop(emp)) = (iprop(emp) : sProp 𝕄) := bigSep_emp_const s

theorem hu₀ : iprop(ownU (u₀ (F := F)) ∗ (P (F := F)).oxCred ∗ (K (F := F)).freeSems0)
    ⊢ |={Set.univ}=> iprop(BI.own (EH (F := F) (initOf (K (F := F)).hsCells (K (F := F)).hsToks)) ∗ bigSep Finset.univ (G (F := F))
      ∗ bigSep Finset.univ fun thr : Thread nD τ => bigSep Finset.univ fun q : Fin 2 => (P (F := F)).x q thr) := by
  unfold u₀
  iintro ⟨Hu, -, -⟩
  ihave H := (ownU_pair _ _) $$ Hu
  icases H with ⟨HH, HR⟩
  ihave H2 := (own_pair_emb (embR : Emb (UP × Counters) 𝕄) _ _) $$ HR
  icases H2 with ⟨HP, -⟩
  imod (Pipeline.fund_ghost (nD := nD) (τ := τ) cfgs (EP (F := F)) cellOf_inj) $$ HP with ⟨Hc, Ht⟩
  imodintro
  isplitl [HH]; · iexact HH
  isplitl [Hc Ht]
  · unfold G
    rw [bigSep_sep']
    isplitl [Hc]; · iexact Hc
    iexact Ht
  · rw [show (bigSep Finset.univ fun thr : Thread nD τ => bigSep Finset.univ fun q : Fin 2 => (P (F := F)).x q thr)
        = (iprop(emp) : sProp 𝕄) from by
      show (bigSep Finset.univ fun _ : Thread nD τ => bigSep Finset.univ fun _ : Fin 2 => (iprop(emp) : sProp 𝕄)) = _
      rw [bigSep_congr fun _ _ => bigSep_emp' (F := F) _, bigSep_emp']]
    iempintro

end Cert.Kernel.LaunchElem

end
-- ==== Proof.LaunchFinK.lean ====
/-
  What @main leaves on a device's TensorCore, and how the final memory reads the claim off it.

  At its return @main holds the four argument arrays whole at their launch contents — no call writes them: the
  TensorCore calls read the transposed copies, the SparseCore calls the packed tables and the flattened index arrays —
  and the result array whole at contents satisfying whatever the run established of it (`Pv`: nothing for a frame, "is
  the specification of the arguments" for the value claim). A whole array held at the full share beside the state
  interpretation of a final state says the state's memory holds those contents (`SI_pointsTo_agree`).
-/
import proofs.«203895_g52347061404180_cont_8to1_c_859_34_alg».proof.Proof.KCommonK

noncomputable section

namespace Cert.Kernel.LaunchFin

open Cert.Kernel Cert.Kernel.Gen Cert.Kernel.KCommon
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

variable (m : (ℓ : Loc nD τ sig) → Buf (Elt F) ℓ)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev outLoc (d : Dev nD) : Loc nD τ sig := (SparseCore.T d).loc main_v13

/-- What @main leaves: the arguments at their launch contents, the result at contents of which `Pv d` holds. -/
def FIN (Pv : (d : Dev nD) → Buf (Elt F) (outLoc d) → Prop) (d : Dev nD) : sProp 𝕄 :=
  iprop((a0Loc d ↦{fullShare} m (a0Loc d)) ∗ (a1Loc d ↦{fullShare} m (a1Loc d)) ∗ (a2Loc d ↦{fullShare} m (a2Loc d))
    ∗ (a3Loc d ↦{fullShare} m (a3Loc d)) ∗ ∃ f, ⌜Pv d f⌝ ∗ outLoc d ↦{fullShare} f)

/-- What is read of a final state on device `d`. -/
def fq (Pv : (d : Dev nD) → Buf (Elt F) (outLoc d) → Prop) (d : Dev nD) (s' : Phys nD τ sig (Elt F)) : Prop :=
  Pv d (s'.mem.mem (outLoc d)) ∧ s'.mem.mem (a0Loc d) = m (a0Loc d) ∧ s'.mem.mem (a1Loc d) = m (a1Loc d)
    ∧ s'.mem.mem (a2Loc d) = m (a2Loc d) ∧ s'.mem.mem (a3Loc d) = m (a3Loc d)

/-- A whole array held beside the state interpretation is the state's. -/
theorem read_whole (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  iintro ⟨Hp, HSI⟩
  ihave H := (persistent_entails_right (SI_pointsTo_agree (st := s') (ℓ := ℓ) (I := Finset.univ) (q := fullShare) (f := f))) $$ [HSI Hp]
  · isplitl [HSI] <;> iassumption
  icases H with ⟨%h, HSI, -⟩
  isplitr
  · ipureintro; exact funext fun i => h i (Finset.mem_univ i)
  · iexact HSI

theorem hfin (Pv : (d : Dev nD) → Buf (Elt F) (outLoc d) → Prop) (d : Dev nD) (s' : Phys nD τ sig (Elt F)) :
    iprop(FIN m Pv d ∗ SI s') ⊢ (⌜fq m Pv d s'⌝ : sProp 𝕄) := by
  unfold FIN
  iintro ⟨⟨H0, H1, H2, H3, %f, %hf, Ho⟩, HSI⟩
  ihave H := (read_whole (F := F) (a0Loc d) _ s') $$ [H0 HSI]
  · isplitl [H0] <;> iassumption
  icases H with ⟨%e0, HSI⟩
  ihave H := (read_whole (F := F) (a1Loc d) _ s') $$ [H1 HSI]
  · isplitl [H1] <;> iassumption
  icases H with ⟨%e1, HSI⟩
  ihave H := (read_whole (F := F) (a2Loc d) _ s') $$ [H2 HSI]
  · isplitl [H2] <;> iassumption
  icases H with ⟨%e2, HSI⟩
  ihave H := (read_whole (F := F) (a3Loc d) _ s') $$ [H3 HSI]
  · isplitl [H3] <;> iassumption
  icases H with ⟨%e3, HSI⟩
  ihave H := (read_whole (F := F) (outLoc d) f s') $$ [Ho HSI]
  · isplitl [Ho] <;> iassumption
  icases H with ⟨%eo, -⟩
  ipureintro
  exact ⟨eo ▸ hf, e0, e1, e2, e3⟩

end Cert.Kernel.LaunchFin

end
-- ==== Proof.RegionLossK.lean ====
/-
  THE LOSS CALL AS A REGION OF @main. The third TensorCore call of the kernel program reads the 32 × 128 array of score
  differences whole and writes one scalar: the mean of softplus of the differences' negation, as one function
  `k4_pay1` of the array. This module states the call's body (one load, one store), the pipeline's proof data at any
  contents of the core's buffers at entry, the body obligation, and the region as a segment of @main: entered from every
  unscoped buffer of the core at a valuation and what the TensorCore then owes the sequencers (the start signals of the
  SparseCore calls still to come, none at the index of the pipeline's own waits), left with the output array at the
  scalar and every other buffer as entered.
-/
import proofs.«203895_g52347061404180_cont_8to1_c_859_34_alg».proof.Proof.KCommonK
import proofs.«203895_g52347061404180_cont_8to1_c_859_34_alg».proof.Proof.Gen.Kernel.Launch
import proofs.«203895_g52347061404180_cont_8to1_c_859_34_alg».proof.Proof.Gen.Kernel.Points
import proofs.«203895_g52347061404180_cont_8to1_c_859_34_alg».proof.Proof.Gen.Kernel.Skeleton
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.RegionLoss

open Cert.Kernel Cert.Kernel.Gen Cert.Kernel.KCommon
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

/-! ## The body of the loss call: one load of its input block, one store of the scalar -/

abbrev r4_0 : Rect S32x128 := Rect.unit (s := S32x128) ![0, 0] S32x128.size inb_S32x128_S32x128_0_0
abbrev r4_1 : Rect S1x1 := Rect.unit (s := S1x1) ![0, 0] S1x1.size inb_S1x1_S1x1_0_0

/-- What the body leaves in the output window's buffer, from the input block: its one store as a piece. -/
def out4_1 (x0 : Vec F S32x128 .f32) : Vec F S1x1 .f32 :=
  View.canon [⟨r4_1, fun _ => k4_pay1 (View.ld x0 r4_0)⟩]

/-- The store covers the buffer. -/
theorem cover4_1 (p0 : r4_1.shape.Idx → Elt F .f32) (y : S1x1.Idx) :
    ∃ pc ∈ ([⟨r4_1, p0⟩] : List (View.Piece (Elt F) S1x1 .f32)), y ∈ pc.1.set :=
  View.cover_of_tiled [⟨r4_1, p0⟩] S1x1.size (by rfl) y

set_option maxHeartbeats 1000000 in
/-- The body on whole staging memrefs: the input's at read contents `x0`, the output's at anything, to the input's
    as it was and the output's at `out4_1 x0`. -/
theorem sound_kernel4 (c : Dev nD) (E : Set ℕ) (arg0 : Memref sig .tc .vmem S32x128 .f32) (harg0 : arg0.IsWhole)
    (arg1 : Memref sig .tc .smem S1x1 .f32) (harg1 : arg1.IsWhole)
    (x0 : Vec F S32x128 .f32) (Kp : PUnit → sProp 𝕄) :
    iprop(owns (c : Thread nD τ) arg0 fullShare x0 ∗ (∃ d, owns (c : Thread nD τ) arg1 fullShare d)
        ∗ (iprop(owns (c : Thread nD τ) arg0 fullShare x0 ∗ owns (c : Thread nD τ) arg1 fullShare (out4_1 x0)) -∗ Kp ⟨⟩))
      ⊢ wp frame (wpE (defs₀ (F := F)) Variants.none c none) E (cc4__tc_loss_body arg0 harg0 arg1 harg1) Kp := by
  simp only [cc4__tc_loss_body_eq_skeleton]; unfold cc4__tc_loss_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover4_1 _)

/-! ## The proof data of the loss call's pipeline: the input array at `x`, the output array at `y` on entry, the core
    owing what it owes after `n` SparseCore calls -/

section Region

variable (x : Vec F S32x128 .f32) (y : Vec F S1x1 .f32) (n : ℕ)

/-- The pairs a TensorCore's waits may have recorded after `n` SparseCore calls. -/
abbrev recTc (c : Dev nD) : Set (SemLoc sig × HIx 2) := {p | (K (F := F)).lev ((c : Thread nD τ), p.1) p.2 ≤ 8 * n}

/-- The input window's block at a point, read off the input array: the array itself (the window is the whole array). -/
def blk4 (c : Dev nD) (t : Fin cfg4.N) : ((cfg4.win 0).xblock (cfg4.grid.coords t)).Idx → Elt F (cfg4.win 0).elt :=
  ((cfg4.win 0).blk t).view.read (Elt F) (show Buf (Elt F) ((cfg4.win 0).arr.view.loc (c : Thread nD τ)) from x)

/-- The proof data: the arrays as the region finds them; after the body the input's buffer at its block and the output's
    at `out4_1` of it; the invariant the scoped buffers no window stages; the core owing, throughout, the start signals of
    the SparseCore calls still to come. -/
def dat4 (c : Dev nD) : Dat τ (Elt F) (HIx 2) ℕ UU ℕ cfg4 c where
  A w := match w with
    | ⟨0, _⟩ => x
    | ⟨1, _⟩ => y
  after w t := match w with
    | ⟨0, _⟩ => blk4 x c t
    | ⟨1, _⟩ => out4_1 (blk4 x c t)
  Φ _ := Pipeline.scopedRest (Ix := HIx 2) (Name := ℕ) (U := UU) (Lvl := ℕ) (Val := Elt F) spec4 c
  q _ := fullShare
  owed _ := (K (F := F)).Otc c n
  recorded _ := recTc (F := F) n c

theorem A4_0 (c : Dev nD) : (dat4 x y n c).A 0 = x := by dsimp only [dat4]
theorem A4_1 (c : Dev nD) : (dat4 x y n c).A 1 = y := by dsimp only [dat4]
theorem after4_0 (c : Dev nD) (t : Fin cfg4.N) : (dat4 x y n c).after 0 t = blk4 x c t := by dsimp only [dat4]
theorem after4_1 (c : Dev nD) (t : Fin cfg4.N) : (dat4 x y n c).after 1 t = out4_1 (blk4 x c t) := by dsimp only [dat4]

/-- The input window's staging buffer holds its block at the point. -/
theorem before4_0 (c : Dev nD) (t : Fin cfg4.N) (d) : (dat4 x y n c).before 0 t d = blk4 x c t :=
  ((dat4 x y n c).before_in_eq_fetched 0 rfl (fun _ => rfl) (fun _ _ _ => rfl)
      (fun t => by rw [after4_0]; unfold Dat.blockOf blk4; rw [A4_0]; try rfl) t d).trans
    (by unfold Dat.fetched Dat.blockOf blk4; rw [A4_0]; try rfl)

/-! ## The body obligation -/

def bodyPre4 (c : Dev nD) (t : Fin cfg4.N) : sProp 𝕄 :=
  iprop((dat4 x y n c).Φ t.castSucc ∗ (dat4 x y n c).owesAt none t.castSucc
    ∗ (∃ d, owns (c : Thread nD τ) (st4_0 t) fullShare ((dat4 x y n c).before 0 t d))
    ∗ (∃ d, owns (c : Thread nD τ) (st4_1 t) fullShare ((dat4 x y n c).before 1 t d)))

def bodyPost4 (c : Dev nD) (t : Fin cfg4.N) : sProp 𝕄 :=
  iprop((dat4 x y n c).Φ t.succ ∗ (dat4 x y n c).owesAt none t.succ
    ∗ owns (c : Thread nD τ) (st4_0 t) fullShare ((dat4 x y n c).after 0 t)
    ∗ owns (c : Thread nD τ) (st4_1 t) fullShare ((dat4 x y n c).after 1 t))

theorem sound_body4 (c : Dev nD) (t : Fin cfg4.N) :
    bodyPre4 x y n c t ⊢ wp frame (wpE (defs₀ (F := F)) Variants.none c none) Set.univ (bodyAt4 t) (fun _ => bodyPost4 x y n c t) := by
  unfold bodyPre4 bodyPost4 bodyAt4
  simp only [before4_0]
  rw [show (dat4 x y n c).Φ t.succ = (dat4 x y n c).Φ t.castSucc from rfl,
    show (dat4 x y n c).owesAt none t.succ = (dat4 x y n c).owesAt none t.castSucc from rfl,
    after4_0, after4_1]
  iintro ⟨HΦ, Ho, ⟨%d0, H0⟩, ⟨%d1, H1⟩⟩
  iapply (sound_kernel4 c Set.univ _ _ _ _ (blk4 x c t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation4 (c : Dev nD) : BodyObligation (dat4 (F := F) x y n c) (defs₀ (F := F)) Variants.none none Set.univ := fun t => by
  rw [bigSep_W4, bigSep_W4]
  exact sound_body4 x y n c t

/-! ## What the pipeline leaves in the output array -/

theorem hz4 : (![0, 0] : Fin 2 → Nat) = fun _ => 0 := funext fun a => by fin_cases a <;> rfl

/-- The input's block is the input array. -/
theorem blk4_eq (c : Dev nD) (t : Fin cfg4.N) : blk4 x c t = x := by
  unfold blk4
  funext j
  show x (((cfg4.win 0).blk t).view.emb j) = x j
  congr 1
  funext a; apply Fin.ext
  match a with
  | ⟨0, _⟩ => show win4_0.index t (0 : Fin 2) * 32 + 1 * (j 0).val = (j 0).val; show 0 * 32 + 1 * (j 0).val = (j 0).val; omega
  | ⟨1, _⟩ => show win4_0.index t (1 : Fin 2) * 128 + 1 * (j 1).val = (j 1).val; show 0 * 128 + 1 * (j 1).val = (j 1).val; omega

/-- What the one point writes back is the scalar, as the block of the constant array. -/
theorem flushed4_eq (c : Dev nD) (t : Fin cfg4.N) :
    (dat4 x y n c).flushed 1 t = ((cfg4.win 1).blk t).view.read (Elt F) (fun _ => k4_pay1 x) := by
  show (cfg4.win 1).cut (grid4.coords t) ((dat4 x y n c).after 1 t) = _
  rw [after4_1, blk4_eq]
  unfold out4_1
  rw [View.canon_unit_zero hz4]
  simp only [View.ld_unit_zero (S := S32x128) hz4]
  rfl

/-- The output array after the pipeline: the scalar. -/
theorem final4 (c : Dev nD) : (dat4 x y n c).arrAt 1 cfg4.N = fun _ => k4_pay1 x :=
  (dat4 x y n c).arrAt_eq_of_cover 1 _ (fun t _ => flushed4_eq x y n c t) fun i => ⟨t4_0, flush4_1 t4_0, by
    show i ∈ ((View.whole main_v12).slice (win4_1.rect t4_0)).set
    rw [View.set_slice_whole, Rect.mem_set_unit]
    intro a
    match a with
    | ⟨0, _⟩ => show win4_1.index t4_0 (0 : Fin 2) * 1 ≤ (i 0).val ∧ (i 0).val < win4_1.index t4_0 (0 : Fin 2) * 1 + 1; show 0 * 1 ≤ (i 0).val ∧ (i 0).val < 0 * 1 + 1; have h1 : (i 0).val < 1 := (i 0).isLt; omega
    | ⟨1, _⟩ => show win4_1.index t4_0 (1 : Fin 2) * 1 ≤ (i 1).val ∧ (i 1).val < win4_1.index t4_0 (1 : Fin 2) * 1 + 1; show 0 * 1 ≤ (i 1).val ∧ (i 1).val < 0 * 1 + 1; have h1 : (i 1).val < 1 := (i 1).isLt; omega⟩

/-- The input array after the pipeline: as entered. -/
theorem final4_in (c : Dev nD) : (dat4 x y n c).arrAt 0 cfg4.N = x :=
  ((dat4 x y n c).arrAt_in 0 rfl _).trans (A4_0 x y n c)

end Region

/-! ## The region -/

section Seg

variable (x : Vec F S32x128 .f32) (y : Vec F S1x1 .f32) (n : ℕ)
variable (lv : GSem nD τ sig → HIx 2 → ℕ) (hlv : (K (F := F)).Refines lv)

/-- No pipeline has a prefetched table. -/
abbrev adm : (p : Fin 3) → (pcfgs (F := F) p).Adm := fun p => (cfgs p).toPCfg_adm

/-- Proof data that says nothing: for the pipelines this region does not run. -/
def datNone {cfg : Pipeline.Cfg sig Λ₀} (c : Dev nD) : Dat τ (Elt F) (HIx 2) ℕ UU ℕ cfg c where
  A _ := Classical.arbitrary _
  after _ _ := Classical.arbitrary _
  Φ _ := iprop(emp)
  q _ := fullShare
  owed _ := 0

/-- Every pipeline's proof data: the loss call's, nothing said of the other two. -/
def pdatsL : (p : Fin 3) → (c : Dev nD) → Dat τ (Elt F) (HIx 2) ℕ UU ℕ (Pipeline.pin (pcfgs (F := F)) adm p) c
  | ⟨0, _⟩ => fun c => datNone c
  | ⟨1, _⟩ => fun c => datNone c
  | ⟨2, _⟩ => fun c => dat4 x y n c

/-- What a TensorCore owes after `n` SparseCore calls, its recorded pairs bounded: the start signals of the calls to come. -/
abbrev owesTc (c : Dev nD) : sProp 𝕄 :=
  iprop(∃ W, ⌜(K (F := F)).WBelow (c : Thread nD τ) W (8 * n)⌝ ∗ owes (c : Thread nD τ) ((K (F := F)).Otc c n) W)

/-- Those debts are all at a call's index: none at the index of a kernel's own waits. -/
theorem Otc_none (c : Dev nD) (g : GSem nD τ sig) : (K (F := F)).Otc c n g none = 0 := by
  by_contra h
  have := SparseCore.Cfg.lev_of_Otc_pos (K := K (F := F)) (Nat.pos_of_ne_zero h)
  rw [SparseCore.Cfg.lev_none] at this; omega

set_option backward.isDefEq.respectTransparency.types false in
/-- The pipeline's arrays, one by one. -/
theorem arrays4_eq (c : Dev nD)
    (F4 : (w : Fin cfg4.W) → Buf (Elt F) ((cfg4.win w).arr.view.loc (c : Thread nD τ)))
    (f0 : Vec F S32x128 .f32) (f1 : Vec F S1x1 .f32) (h0 : F4 0 = f0) (h1 : F4 1 = f1) :
    ((pdatsL x y n 2 c).arrays F4 : sProp 𝕄)
      = iprop((((c : Thread nD τ).loc main_v11) ↦{fullShare} f0) ∗ (((c : Thread nD τ).loc main_v12) ↦{fullShare} f1)) := by
  subst h0 h1
  rw [Pipeline.arrays_eq (Pipeline.pin (pcfgs (F := F)) adm) (pdatsL x y n) 2 c launch4.arr_whole
    ((pdatsL x y n 2 c).share_full fun _ => rfl), bigSep_W4]
  rfl

set_option backward.isDefEq.respectTransparency.types false in
/-- The loss call as a region of @main on the TensorCore: entered from its input array at `x`, its output array at
    `y` and the core's debts after `n` SparseCore calls; left with the input as it was, the output at the scalar and
    the same debts. -/
def R4 : Pipeline.RegionSeg (pcfgs (F := F)) adm (pdatsL x y n) none defs₀ 𝒱₀ (K (F := F)).L lv 2 where
  win := launch4.win.to₀
  block_pos := launch4.block_pos
  stage_whole := launch4.stage_whole
  K := PEmpty
  osem k := k.elim
  ho := Pipeline.OwnSemFacts.none _
  hbody c := (body_obligation4 x y n c).loose
  hwaits c := Pipeline.cellsWaits_intro (Pipeline.pin (pcfgs (F := F)) adm) (pdatsL x y n) none 2 c
    fun w s t => (K (F := F)).mayWait_none _ (Otc_none n c) lv hlv
  pre c := iprop((((c : Thread nD τ).loc main_v11) ↦{fullShare} x) ∗ (((c : Thread nD τ).loc main_v12) ↦{fullShare} y) ∗ owesTc (F := F) n c)
  post c := iprop((((c : Thread nD τ).loc main_v11) ↦{fullShare} x) ∗ (((c : Thread nD τ).loc main_v12) ↦{fullShare} (fun _ => k4_pay1 x)) ∗ owesTc (F := F) n c)
  X c := iprop(emp)
  Y c := iprop(emp)
  Z c := iprop(emp)
  hentry c := by
    rw [Pipeline.ownSems0_none]
    have harr := arrays4_eq x y n c (fun w => (pdatsL x y n 2 c).arrAt w 0) x y (A4_0 x y n c) (A4_1 x y n c)
    iintro ⟨⟨H0, H1, HO⟩, -, -⟩
    imodintro
    isplitl [H0 H1]
    · iapply (Entails.of_eq harr.symm)
      isplitl [H0] <;> iassumption
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr <;> iempintro
  hin c := by
    rw [show (pdatsL x y n 2 c).Φ 0 = Pipeline.scopedRest (Ix := HIx 2) (Name := ℕ) (U := UU) (Lvl := ℕ) (Val := Elt F) spec4 c from rfl]
    iintro ⟨-, -, Hr⟩
    iexact Hr
  hout c := by
    rw [Pipeline.ownSems0_none, show (pdatsL x y n 2 c).Φ (Fin.last _) = Pipeline.scopedRest (Ix := HIx 2) (Name := ℕ) (U := UU) (Lvl := ℕ) (Val := Elt F) spec4 c from rfl]
    iintro Hr
    isplitr; · iempintro
    isplitr; · iempintro
    iexact Hr
  hexit c := by
    have harr := arrays4_eq x y n c (fun w => (pdatsL x y n 2 c).arrAt w cfg4.N) x (fun _ => k4_pay1 x) (final4_in x y n c) (final4 x y n c)
    iintro ⟨Ha, HO, -, -⟩
    ihave Ha' := (Entails.of_eq harr) $$ Ha
    icases Ha' with ⟨H0, H1⟩
    imodintro
    isplitl [H0]; · iexact H0
    isplitl [H1]; · iexact H1
    unfold Pipeline.Dat.owesAt Pipeline.owesWithin
    icases HO with ⟨%W, %hW, HO⟩; iexists W; isplitr
    · ipureintro
      intro p hp
      rcases hW hp with h | ⟨w, s, rfl⟩
      · exact h
      · show (K (F := F)).lev _ none ≤ _
        rw [SparseCore.Cfg.lev_none]; exact Nat.zero_le _
    iexact HO

set_option backward.isDefEq.respectTransparency.types false in
/-- The region's rule as @main meets it: from the boundary, the region's entry state, the level facts and the
    pipeline's staging cells' launch ghost state, the call runs to the boundary and the exit state. -/
theorem region4_wp (d : Dev nD) (bd : Option (𝒱).V)
    (hv : ∀ u ∈ bd, (𝒱).lt (.inr ((Pipeline.pin (pcfgs (F := F)) adm 2).tripCount + 1)) u)
    {α : Type} (k : PUnit → Prog (TpuEff nD τ sig (Elt F) (ΛP (F := F)) .tc) α) (Q : α → sProp 𝕄) :
    iprop((iprop(boundary (d : Thread nD τ) ∗ (R4 x y n lv hlv).post d) -∗ wp frame (wpE (D (F := F)) 𝒱 (d : Thread nD τ) bd) Set.univ (k ⟨⟩) Q)
        ∗ boundary (d : Thread nD τ) ∗ (R4 x y n lv hlv).pre d ∗ levAts (K (F := F)).L lv
        ∗ Pipeline.cellsGhost (Pipeline.pin (pcfgs (F := F)) adm) EP 2 d ∗ Pipeline.toksInit (Pipeline.pin (pcfgs (F := F)) adm) EP 2 d)
      ⊢ wp frame (wpE (D (F := F)) 𝒱 (d : Thread nD τ) bd) Set.univ (.op (.customCall (Pipeline.entry 2) ()) k) Q :=
  Pipeline.RegionSeg.wp (pcfgs (F := F)) adm (pdatsL x y n) none cellOf_inj EP defs₀ 𝒱₀ (K (F := F)).L lv (R4 x y n lv hlv) d bd hv k Q

/-- The entry and exit states, spelt out. -/
theorem R4_pre (d : Dev nD) : (R4 x y n lv hlv).pre d
    = iprop((((d : Thread nD τ).loc main_v11) ↦{fullShare} x) ∗ (((d : Thread nD τ).loc main_v12) ↦{fullShare} y) ∗ owesTc (F := F) n d) := rfl
theorem R4_post (d : Dev nD) : (R4 x y n lv hlv).post d
    = iprop((((d : Thread nD τ).loc main_v11) ↦{fullShare} x) ∗ (((d : Thread nD τ).loc main_v12) ↦{fullShare} (fun _ => k4_pay1 x)) ∗ owesTc (F := F) n d) := rfl

end Seg

end Cert.Kernel.RegionLoss

end
-- ==== Proof.RegionLiftK.lean ====
/-
  Entering a TensorCore region from @main of the whole program.

  A region's rule is proved at the pipelines' own body table: from the region boundary, the region's entry state, the
  level facts and its pipeline's staging cells' ghost state, the call runs to the boundary and the exit state. @main of
  a program with SparseCore calls runs at the extended table; a program of the inner signature, lifted, runs there as it
  runs inside. So the call, met in @main, is the inner rule lifted, and the rest of @main continues from the exit state.
-/
import proofs.«203895_g52347061404180_cont_8to1_c_859_34_alg».proof.Proof.RegionLossK
noncomputable section
namespace Cert.Kernel.RegionLift
open Cert.Kernel Cert.Kernel.Gen Cert.Kernel.KCommon
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.RegionLoss (adm)

variable {F : FTy → Type} [FloatOps F]
local notation "𝕄" => MT nD τ sig (HIx 2) (Elt F) ℕ UU ℕ

/-- A TensorCore region's rule at the pipelines' own body table, from its thread states `pre` / `post`. -/
def RegionRule (p : Fin 3) (pre post : Dev nD → sProp 𝕄) : Prop :=
  ∀ (d : Dev nD) {α : Type} (k : PUnit → Prog (TpuEff nD τ sig (Elt F) (ΛP (F := F)) .tc) α) (Q : α → sProp 𝕄),
    iprop((iprop(boundary (d.tc : Thread nD τ) ∗ post d) -∗ wp frame (wpE (D (F := F)) 𝒱 (d.tc : Thread nD τ) none) Set.univ (k ⟨⟩) Q)
        ∗ boundary (d.tc : Thread nD τ) ∗ pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d)
      ⊢ wp frame (wpE (D (F := F)) 𝒱 (d.tc : Thread nD τ) none) Set.univ (.op (.customCall (Pipeline.entry p) ()) k) Q

set_option backward.isDefEq.respectTransparency.types false in
set_option maxHeartbeats 4000000 in
/-- A region entered from @main of the whole program: the inner rule lifted to the extended body table, the rest of
    @main continuing from the region's `post`. -/
theorem region_lift (p : Fin 3) (pre post : Dev nD → sProp 𝕄) (hR : RegionRule (F := F) p pre post) (d : Dev nD) {α : Type}
    (k' : PUnit → Prog (TpuEff nD τ sig (Elt F) (SparseCore.Sig (ΛP (F := F)) 2) .tc) α) (Q : α → sProp 𝕄) :
    iprop(boundary (d.tc : Thread nD τ) ∗ pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d
        ∗ (iprop(boundary (d.tc : Thread nD τ) ∗ post d) -∗ wp frame (wpE ((K (F := F)).defs (D (F := F))) 𝒱 (d.tc : Thread nD τ) none) Set.univ (k' ⟨⟩) Q))
      ⊢ wp frame (wpE ((K (F := F)).defs (D (F := F))) 𝒱 (d.tc : Thread nD τ) none) Set.univ
          (Prog.lift (.customCall (SparseCore.inner (Pipeline.entry p)) ()) >>= k') Q := by
  rw [wp_bind]
  have h : iprop(boundary (d.tc : Thread nD τ) ∗ pre d ∗ levAts (K (F := F)).L (K (F := F)).lev
        ∗ Pipeline.cellsGhost (Pipeline.pin (pcfgs (F := F)) adm) (EP (F := F)) p d ∗ Pipeline.toksInit (Pipeline.pin (pcfgs (F := F)) adm) (EP (F := F)) p d
        ∗ (iprop(boundary (d.tc : Thread nD τ) ∗ post d) -∗ wp frame (wpE ((K (F := F)).defs (D (F := F))) 𝒱 (d.tc : Thread nD τ) none) Set.univ (k' ⟨⟩) Q))
      ⊢ wp frame (wpE (D (F := F)) 𝒱 (d.tc : Thread nD τ) none) Set.univ
          (.op (.customCall (Pipeline.entry p) ()) (fun x => .ret x) : Prog (TpuEff nD τ sig (Elt F) (ΛP (F := F)) .tc) PUnit)
          (fun a => wp frame (wpE ((K (F := F)).defs (D (F := F))) 𝒱 (d.tc : Thread nD τ) none) Set.univ (k' a) Q) := by
    iintro ⟨Hb, Hpre, Hlv, Hc, Ht, Hk⟩
    iapply (hR d (fun x => .ret x) (fun a => wp frame (wpE ((K (F := F)).defs (D (F := F))) 𝒱 (d.tc : Thread nD τ) none) Set.univ (k' a) Q))
    isplitl [Hk]
    · iintro H
      rw [wp_ret]
      imodintro
      iapply Hk
      iexact H
    isplitl [Hb]; · iexact Hb
    isplitl [Hpre]; · iexact Hpre
    isplitl [Hlv]; · iexact Hlv
    isplitl [Hc]; · iexact Hc
    iexact Ht
  exact h.trans ((K (F := F)).wp_liftProg (D (F := F)) 𝒱 (d.tc : Thread nD τ) Set.univ none
    (Prog.lift (.customCall (Pipeline.entry p) ()) : Prog (TpuEff nD τ sig (Elt F) (ΛP (F := F)) .tc) PUnit) _)

end Cert.Kernel.RegionLift
end
-- ==== Proof.RegionPackK.lean ====
/-
  THE FIRST PACKING CALL AS A REGION OF @main. The call reads a feature table transposed to [64, 100000] (`main_v5`)
  through two input windows — column blocks g and g + 4 of 12544 columns at grid point g < 4, the last of the second
  window clipped at column 100000 — and writes the [50176, 128] array `main_v6` in four blocks of 12544 rows: the two
  loaded blocks transposed, side by side. What a clipped block's staging buffer holds past the table's edge nothing
  names, and the stored block depends on it (only in entries no later stage reads), so the pipeline's proof data is
  relational: the body leaves the input buffers as found and the output buffer at the packing of two fetched blocks,
  each fetched into some prior contents. This module states the call's body (two loads, one store), the proof data, the
  body obligation and the region as a segment of @main: entered from the transposed table, the output array and what
  the TensorCore then owes the sequencers; left with the table as it was and the output array at some contents the
  four write-backs may leave.
-/
import proofs.«203895_g52347061404180_cont_8to1_c_859_34_alg».proof.Proof.KCommonK
import proofs.«203895_g52347061404180_cont_8to1_c_859_34_alg».proof.Proof.Gen.Kernel.Launch
import proofs.«203895_g52347061404180_cont_8to1_c_859_34_alg».proof.Proof.Gen.Kernel.Points
import proofs.«203895_g52347061404180_cont_8to1_c_859_34_alg».proof.Proof.Gen.Kernel.Skeleton
import Idealize.ShloMosaic.Lib.Pipeline.Value
import proofs.«203895_g52347061404180_cont_8to1_c_859_34_alg».proof.Proof.RegionLossK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.RegionPack

open Cert.Kernel Cert.Kernel.Gen Cert.Kernel.KCommon
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

open Cert.Kernel.RegionLoss (adm recTc owesTc Otc_none)

/-! ## The body of the packing call: two loads of its input blocks, one store of their packing -/

theorem hz2 : (![0, 0] : Fin 2 → Nat) = fun _ => 0 := funext fun a => by fin_cases a <;> rfl

abbrev r0_in : Rect S64x12544 := Rect.unit (s := S64x12544) ![0, 0] S64x12544.size inb_S64x12544_S64x12544_0_0
abbrev r0_out : Rect S12544x128 := Rect.unit (s := S12544x128) ![0, 0] S12544x128.size inb_S12544x128_S12544x128_0_0

/-- What the body leaves in the output window's buffer, from the two input buffers' contents: its one store as a piece. -/
def out0_2 (x0 x1 : Vec F S64x12544 .f32) : Vec F S12544x128 .f32 :=
  View.canon [⟨r0_out, k0_pay1 (View.ld x0 r0_in) (View.ld x1 r0_in)⟩]

/-- The store covers the buffer. -/
theorem cover0_2 (p0 : r0_out.shape.Idx → Elt F .f32) (y : S12544x128.Idx) :
    ∃ pc ∈ ([⟨r0_out, p0⟩] : List (View.Piece (Elt F) S12544x128 .f32)), y ∈ pc.1.set :=
  ⟨_, List.mem_singleton_self _, View.mem_set_unit_zero hz2 inb_S12544x128_S12544x128_0_0 y⟩

/-- The store's payload is the packing of the two buffers' contents. -/
theorem out0_2_eq (x0 x1 : Vec F S64x12544 .f32) : out0_2 x0 x1 = k0_pay1 x0 x1 := by
  unfold out0_2
  rw [View.canon_unit_zero hz2]
  simp only [View.ld_unit_zero (S := S64x12544) hz2]

set_option maxHeartbeats 1000000 in
/-- The body on whole staging memrefs: the inputs' at read contents `x0`, `x1`, the output's at anything, to the
    inputs' as they were and the output's at `out0_2 x0 x1`. -/
theorem sound_kernel0 (c : Dev nD) (E : Set ℕ) (i : grid0.Coords)
    (arg1 : Memref sig .tc .vmem S64x12544 .f32) (harg1 : arg1.IsWhole)
    (arg2 : Memref sig .tc .vmem S64x12544 .f32) (harg2 : arg2.IsWhole)
    (arg3 : Memref sig .tc .vmem S12544x128 .f32) (harg3 : arg3.IsWhole)
    (x0 x1 : Vec F S64x12544 .f32) (Kp : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ Kp ⟨⟩))
      ⊢ wp frame (wpE (defs₀ (F := F)) Variants.none c none) E (cc0__pack_body i arg1 harg1 arg2 harg2 arg3 harg3) Kp := by
  simp only [cc0__pack_body_eq_skeleton]; unfold cc0__pack_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the packing call's pipeline: the transposed table at `x5`, the output array at `y6` on entry,
    the core owing what it owes after `n` SparseCore calls. The second input window's last block runs past the table's
    edge; what its staging buffer holds there nothing names, and the output block computed from it depends on those
    words: the data is a RELATION between what a buffer held and what the body leaves. -/

section Region

variable (x5 : Vec F S64x100000 .f32) (y6 : Vec F S50176x128 .f32) (n : ℕ)

/-- The first input window's block at a point, read off the transposed table (its part inside the table). -/
def blk0_0 (c : Dev nD) (t : Fin cfg0.N) : ((cfg0.win 0).xblock (cfg0.grid.coords t)).Idx → Elt F (cfg0.win 0).elt :=
  ((cfg0.win 0).blk t).view.read (Elt F) (show Buf (Elt F) ((cfg0.win 0).arr.view.loc (c : Thread nD τ)) from x5)
/-- The second input window's. -/
def blk0_1 (c : Dev nD) (t : Fin cfg0.N) : ((cfg0.win 1).xblock (cfg0.grid.coords t)).Idx → Elt F (cfg0.win 1).elt :=
  ((cfg0.win 1).blk t).view.read (Elt F) (show Buf (Elt F) ((cfg0.win 1).arr.view.loc (c : Thread nD τ)) from x5)

/-- What the first input window's staging buffer holds once its block has landed in it, if it held `d`. -/
def fet0_0 (c : Dev nD) (t : Fin cfg0.N) (d : (cfg0.win 0).block.Idx → Elt F (cfg0.win 0).elt) :
    (cfg0.win 0).block.Idx → Elt F (cfg0.win 0).elt :=
  (cfg0.win 0).fill (cfg0.grid.coords t) d (blk0_0 x5 c t)
/-- The second input window's. -/
def fet0_1 (c : Dev nD) (t : Fin cfg0.N) (d : (cfg0.win 1).block.Idx → Elt F (cfg0.win 1).elt) :
    (cfg0.win 1).block.Idx → Elt F (cfg0.win 1).elt :=
  (cfg0.win 1).fill (cfg0.grid.coords t) d (blk0_1 x5 c t)

/-- The proof data: both input windows on the transposed table, at half the share each; the body leaves the inputs'
    buffers as it found them and the output's at the packing of two fetched blocks; the invariant the scoped buffers
    no window stages; the core owing, throughout, the start signals of the SparseCore calls still to come. -/
def rdat0 (c : Dev nD) : Pipeline.RDat τ (Elt F) (HIx 2) ℕ UU ℕ cfg0 c where
  A w := match w with
    | ⟨0, _⟩ => x5
    | ⟨1, _⟩ => x5
    | ⟨2, _⟩ => y6
  after w t := match w with
    | ⟨0, _⟩ => fun Y X => X = Y
    | ⟨1, _⟩ => fun Y X => X = Y
    | ⟨2, _⟩ => fun _ X => ∃ d0 d1, X = out0_2 (fet0_0 x5 c t d0) (fet0_1 x5 c t d1)
  Φ _ := Pipeline.scopedRest (Ix := HIx 2) (Name := ℕ) (U := UU) (Lvl := ℕ) (Val := Elt F) spec0 c
  q w := match w with
    | ⟨0, _⟩ => fullShare.left
    | ⟨1, _⟩ => fullShare.right
    | ⟨2, _⟩ => fullShare
  owed _ := (K (F := F)).Otc c n
  recorded _ := recTc (F := F) n c

theorem after0_0 (c : Dev nD) (t : Fin cfg0.N) (Y X) : (rdat0 x5 y6 n c).after 0 t Y X ↔ X = Y := Iff.rfl
theorem after0_1 (c : Dev nD) (t : Fin cfg0.N) (Y X) : (rdat0 x5 y6 n c).after 1 t Y X ↔ X = Y := Iff.rfl
theorem after0_2 (c : Dev nD) (t : Fin cfg0.N) (Y X) :
    (rdat0 x5 y6 n c).after 2 t Y X ↔ ∃ d0 d1, X = out0_2 (fet0_0 x5 c t d0) (fet0_1 x5 c t d1) := Iff.rfl

/-- What the body finds in an input window's buffer: the block just fetched, anything past the table's edge. -/
theorem finds0_0 (c : Dev nD) (t : Fin cfg0.N) (Y) : (rdat0 x5 y6 n c).Finds 0 t Y ↔ ∃ d, Y = fet0_0 x5 c t d := by
  rw [(rdat0 x5 y6 n c).finds_of_fetch (fetch0_0 t)]; exact Iff.rfl
theorem finds0_1 (c : Dev nD) (t : Fin cfg0.N) (Y) : (rdat0 x5 y6 n c).Finds 1 t Y ↔ ∃ d, Y = fet0_1 x5 c t d := by
  rw [(rdat0 x5 y6 n c).finds_of_fetch (fetch0_1 t)]; exact Iff.rfl

/-! ## The body obligation -/

set_option maxHeartbeats 1000000 in
theorem body_obligation0 (c : Dev nD) :
    (rdat0 (F := F) x5 y6 n c).BodyObligation (defs₀ (F := F)) Variants.none none Set.univ := fun t Y hY => by
  obtain ⟨d0, h0⟩ := (finds0_0 x5 y6 n c t _).mp (hY 0)
  obtain ⟨d1, h1⟩ := (finds0_1 x5 y6 n c t _).mp (hY 1)
  rw [bigSep_W0, bigSep_W0]
  show _ ⊢ wp frame (wpE (defs₀ (F := F)) Variants.none c none) Set.univ (bodyAt0 t) _
  unfold bodyAt0
  rw [show (rdat0 x5 y6 n c).Φ t.succ = (rdat0 x5 y6 n c).Φ t.castSucc from rfl,
    show (rdat0 x5 y6 n c).owesAt none t.succ = (rdat0 x5 y6 n c).owesAt none t.castSucc from rfl]
  iintro ⟨HΦ, Ho, H0, H1, H2⟩
  iapply (sound_kernel0 c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact (after0_0 x5 y6 n c t _ _).mpr rfl
    iexact H0
  isplitl [H1]
  · iexists (Y 1); isplitr; · ipureintro; exact (after0_1 x5 y6 n c t _ _).mpr rfl
    iexact H1
  iexists (out0_2 (Y 0) (Y 1)); isplitr
  · ipureintro; exact (after0_2 x5 y6 n c t _ _).mpr ⟨d0, d1, by rw [h0, h1]⟩
  iexact H2

end Region

/-! ## The region -/

section Seg

variable (x5 : Vec F S64x100000 .f32) (y6 : Vec F S50176x128 .f32) (n : ℕ)
variable (lv : GSem nD τ sig → HIx 2 → ℕ) (hlv : (K (F := F)).Refines lv)

/-- Relational proof data that says nothing: for the pipelines this region does not run. -/
def rdatNone {cfg : Pipeline.Cfg sig Λ₀} (c : Dev nD) : Pipeline.RDat τ (Elt F) (HIx 2) ℕ UU ℕ cfg c where
  A _ := Classical.arbitrary _
  after _ _ _ _ := True
  Φ _ := iprop(emp)
  q _ := fullShare
  owed _ := 0

/-- Every pipeline's proof data: the packing call's, nothing said of the other two. -/
def rdatsP : (p : Fin 3) → (c : Dev nD) → Pipeline.RDat τ (Elt F) (HIx 2) ℕ UU ℕ (Pipeline.pin (pcfgs (F := F)) adm p) c
  | ⟨0, _⟩ => fun c => rdat0 x5 y6 n c
  | ⟨1, _⟩ => fun c => rdatNone c
  | ⟨2, _⟩ => fun c => rdatNone c

/-- What the packing call may leave in its output array: the entry contents with each point's block overwritten, in
    point order, by what the body may have left in the staging buffer there. -/
abbrev Packs0 (c : Dev nD) (p : Vec F S50176x128 .f32) : Prop := (rdat0 x5 y6 n c).ArrAt 2 cfg0.N p

/-- A whole array's points-to through its memref is the buffer's. -/
theorem pts_whole (c : Dev nD) (b : Ref sig .tc) (q : PosShare TreeShare) (f : b.ty.Contents (Elt F)) :
    (((View.whole b).loc (c : Thread nD τ) ↦[(View.whole b).set]{q} f : sProp 𝕄))
      = (((c : Thread nD τ).loc b) ↦{q} f) := by
  rw [View.set_whole]

/-- The pipeline's arrays, one by one: the transposed table twice, at half the share each, and the output array. -/
theorem arrays0_eq (c : Dev nD)
    (F0 : (w : Fin cfg0.W) → Buf (Elt F) ((cfg0.win w).arr.view.loc (c : Thread nD τ)))
    (f0 f1 : Vec F S64x100000 .f32) (f2 : Vec F S50176x128 .f32) (h0 : F0 0 = f0) (h1 : F0 1 = f1) (h2 : F0 2 = f2) :
    ((rdat0 x5 y6 n c).arrays F0 : sProp 𝕄)
      = iprop((((c : Thread nD τ).loc main_v5) ↦{fullShare.left} f0) ∗ (((c : Thread nD τ).loc main_v5) ↦{fullShare.right} f1)
          ∗ (((c : Thread nD τ).loc main_v6) ↦{fullShare} f2)) := by
  subst h0 h1 h2
  unfold Pipeline.RDat.arrays
  rw [bigSep_W0]
  show iprop(((View.whole main_v5).loc (c : Thread nD τ) ↦[(View.whole main_v5).set]{fullShare.left} F0 0)
      ∗ ((View.whole main_v5).loc (c : Thread nD τ) ↦[(View.whole main_v5).set]{fullShare.right} F0 1)
      ∗ ((View.whole main_v6).loc (c : Thread nD τ) ↦[(View.whole main_v6).set]{fullShare} F0 2)) = _
  rw [pts_whole, pts_whole, pts_whole]

/-- The pipeline's arrays after the write-backs: each at some contents it may then hold. -/
theorem arraysAt0_eq (c : Dev nD) :
    ((rdat0 x5 y6 n c).arraysAt cfg0.N : sProp 𝕄)
      = iprop((∃ G, ⌜(rdat0 x5 y6 n c).ArrAt 0 cfg0.N G⌝ ∗ (((c : Thread nD τ).loc main_v5) ↦{fullShare.left} G))
          ∗ (∃ G, ⌜(rdat0 x5 y6 n c).ArrAt 1 cfg0.N G⌝ ∗ (((c : Thread nD τ).loc main_v5) ↦{fullShare.right} G))
          ∗ (∃ G, ⌜(rdat0 x5 y6 n c).ArrAt 2 cfg0.N G⌝ ∗ (((c : Thread nD τ).loc main_v6) ↦{fullShare} G))) := by
  unfold Pipeline.RDat.arraysAt
  rw [bigSep_W0]
  show iprop((∃ G, ⌜(rdat0 x5 y6 n c).ArrAt 0 cfg0.N G⌝ ∗ ((View.whole main_v5).loc (c : Thread nD τ) ↦[(View.whole main_v5).set]{fullShare.left} G))
      ∗ (∃ G, ⌜(rdat0 x5 y6 n c).ArrAt 1 cfg0.N G⌝ ∗ ((View.whole main_v5).loc (c : Thread nD τ) ↦[(View.whole main_v5).set]{fullShare.right} G))
      ∗ (∃ G, ⌜(rdat0 x5 y6 n c).ArrAt 2 cfg0.N G⌝ ∗ ((View.whole main_v6).loc (c : Thread nD τ) ↦[(View.whole main_v6).set]{fullShare} G))) = _
  simp only [View.set_whole] <;> rfl

set_option backward.isDefEq.respectTransparency.types false in
/-- The packing call as a region of @main on the TensorCore: entered from the transposed table at `x5`, the output
    array at `y6` and the core's debts after `n` SparseCore calls; left with the table as it was, the output array at
    some contents the pipeline may leave, and the same debts. -/
def R0 : Pipeline.RDat.RegionSeg (pcfgs (F := F)) adm (rdatsP x5 y6 n) none defs₀ 𝒱₀ (K (F := F)).L lv 0 where
  win := winFacts₀0
  block_pos := block_pos0
  stage_whole := stage_whole0
  K := PEmpty
  osem k := k.elim
  ho := Pipeline.OwnSemFacts.none _
  hbody c := body_obligation0 x5 y6 n c
  hwaits c := Pipeline.RDat.cellsWaits_intro (Pipeline.pin (pcfgs (F := F)) adm) (rdatsP x5 y6 n) none 0 c
    fun w s t => (K (F := F)).mayWait_none _ (Otc_none n c) lv hlv
  pre c := iprop((((c : Thread nD τ).loc main_v5) ↦{fullShare} x5) ∗ (((c : Thread nD τ).loc main_v6) ↦{fullShare} y6) ∗ owesTc (F := F) n c)
  post c := iprop((((c : Thread nD τ).loc main_v5) ↦{fullShare} x5)
    ∗ (∃ p, ⌜Packs0 x5 y6 n c p⌝ ∗ (((c : Thread nD τ).loc main_v6) ↦{fullShare} p)) ∗ owesTc (F := F) n c)
  X c := iprop(emp)
  Y c := iprop(emp)
  Z c := iprop(emp)
  hentry c := by
    rw [Pipeline.ownSems0_none]
    have harr : ((rdatsP x5 y6 n 0 c).arrays (rdatsP x5 y6 n 0 c).A : sProp 𝕄) = _ :=
      arrays0_eq x5 y6 n c (rdat0 x5 y6 n c).A x5 x5 y6 rfl rfl rfl
    iintro ⟨⟨H5, H6, HO⟩, -, -⟩
    ihave H5' := (pointsTo_share (PosShare.mem_left_op_right fullShare)).1 $$ H5
    icases H5' with ⟨H5l, H5r⟩
    imodintro
    isplitl [H5l H5r H6]
    · iapply (Entails.of_eq harr.symm)
      isplitl [H5l]; · iexact H5l
      isplitl [H5r]; · iexact H5r
      iexact H6
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr; · ipureintro; exact fun p hp => Or.inl (hW p hp)
      iexact HO
    isplitr <;> iempintro
  hin c := by
    rw [show (rdatsP x5 y6 n 0 c).Φ 0 = Pipeline.scopedRest (Ix := HIx 2) (Name := ℕ) (U := UU) (Lvl := ℕ) (Val := Elt F) spec0 c from rfl]
    iintro ⟨-, -, Hr⟩
    iexact Hr
  hout c := by
    rw [Pipeline.ownSems0_none, show (rdatsP x5 y6 n 0 c).Φ (Fin.last _) = Pipeline.scopedRest (Ix := HIx 2) (Name := ℕ) (U := UU) (Lvl := ℕ) (Val := Elt F) spec0 c from rfl]
    iintro Hr
    isplitr; · iempintro
    isplitr; · iempintro
    iexact Hr
  hexit c := by
    have harr : ((rdatsP x5 y6 n 0 c).arraysAt (Pipeline.pin (pcfgs (F := F)) adm 0).N : sProp 𝕄) = _ := arraysAt0_eq x5 y6 n c
    iintro ⟨Ha, HO, -, -⟩
    ihave Ha' := (Entails.of_eq harr) $$ Ha
    icases Ha' with ⟨⟨%G0, %hG0, H5l⟩, ⟨%G1, %hG1, H5r⟩, ⟨%G2, %hG2, H6⟩⟩
    rw [(rdat0 x5 y6 n c).ArrAt_in 0 rfl] at hG0
    rw [(rdat0 x5 y6 n c).ArrAt_in 1 rfl] at hG1
    obtain rfl : G0 = x5 := hG0
    obtain rfl : G1 = G0 := hG1
    imodintro
    isplitl [H5l H5r]
    · iapply (pointsTo_share (PosShare.mem_left_op_right fullShare)).2
      isplitl [H5l] <;> iassumption
    isplitl [H6]
    · iexists G2; isplitr; · ipureintro; exact hG2
      iexact H6
    unfold Pipeline.RDat.owesAt Pipeline.owesWithin
    icases HO with ⟨%W, %hW, HO⟩; iexists W; isplitr
    · ipureintro
      intro p hp
      rcases hW hp with h | ⟨w, s, rfl⟩
      · exact h
      · show (K (F := F)).lev _ none ≤ _
        rw [SparseCore.Cfg.lev_none]; exact Nat.zero_le _
    iexact HO

set_option backward.isDefEq.respectTransparency.types false in
/-- The region's rule as @main meets it. -/
theorem region0_wp (d : Dev nD) (bd : Option (𝒱).V)
    (hv : ∀ u ∈ bd, (𝒱).lt (.inr ((Pipeline.pin (pcfgs (F := F)) adm 0).tripCount + 1)) u)
    {α : Type} (k : PUnit → Prog (TpuEff nD τ sig (Elt F) (ΛP (F := F)) .tc) α) (Q : α → sProp 𝕄) :
    iprop((iprop(boundary (d : Thread nD τ) ∗ (R0 x5 y6 n lv hlv).post d) -∗ wp frame (wpE (D (F := F)) 𝒱 (d : Thread nD τ) bd) Set.univ (k ⟨⟩) Q)
        ∗ boundary (d : Thread nD τ) ∗ (R0 x5 y6 n lv hlv).pre d ∗ levAts (K (F := F)).L lv
        ∗ Pipeline.cellsGhost (Pipeline.pin (pcfgs (F := F)) adm) EP 0 d ∗ Pipeline.toksInit (Pipeline.pin (pcfgs (F := F)) adm) EP 0 d)
      ⊢ wp frame (wpE (D (F := F)) 𝒱 (d : Thread nD τ) bd) Set.univ (.op (.customCall (Pipeline.entry 0) ()) k) Q :=
  Pipeline.RDat.RegionSeg.wp (pcfgs (F := F)) adm (rdatsP x5 y6 n) none cellOf_inj EP defs₀ 𝒱₀ (K (F := F)).L lv (R0 x5 y6 n lv hlv) d bd hv k Q

/-- The entry and exit states, spelt out. -/
theorem R0_pre (d : Dev nD) : (R0 x5 y6 n lv hlv).pre d
    = iprop((((d : Thread nD τ).loc main_v5) ↦{fullShare} x5) ∗ (((d : Thread nD τ).loc main_v6) ↦{fullShare} y6) ∗ owesTc (F := F) n d) := rfl
theorem R0_post (d : Dev nD) : (R0 x5 y6 n lv hlv).post d
    = iprop((((d : Thread nD τ).loc main_v5) ↦{fullShare} x5)
        ∗ (∃ p, ⌜Packs0 x5 y6 n d p⌝ ∗ (((d : Thread nD τ).loc main_v6) ↦{fullShare} p)) ∗ owesTc (F := F) n d) := rfl

end Seg

end Cert.Kernel.RegionPack

end
-- ==== Proof.RegionPack2K.lean ====
/-
  THE SECOND PACKING CALL AS A REGION OF @main. The call reads a feature table transposed to [64, 100000] (`main_v8`)
  through two input windows — column blocks g and g + 4 of 12544 columns at grid point g < 4, the last of the second
  window clipped at column 100000 — and writes the [50176, 128] array `main_v9` in four blocks of 12544 rows: the two
  loaded blocks transposed, side by side. What a clipped block's staging buffer holds past the table's edge nothing
  names, and the stored block depends on it (only in entries no later stage reads), so the pipeline's proof data is
  relational: the body leaves the input buffers as found and the output buffer at the packing of two fetched blocks,
  each fetched into some prior contents. This module states the call's body (two loads, one store), the proof data, the
  body obligation and the region as a segment of @main: entered from the transposed table, the output array and what
  the TensorCore then owes the sequencers; left with the table as it was and the output array at some contents the
  four write-backs may leave.
-/
import proofs.«203895_g52347061404180_cont_8to1_c_859_34_alg».proof.Proof.KCommonK
import proofs.«203895_g52347061404180_cont_8to1_c_859_34_alg».proof.Proof.Gen.Kernel.Launch
import proofs.«203895_g52347061404180_cont_8to1_c_859_34_alg».proof.Proof.Gen.Kernel.Points
import proofs.«203895_g52347061404180_cont_8to1_c_859_34_alg».proof.Proof.Gen.Kernel.Skeleton
import Idealize.ShloMosaic.Lib.Pipeline.Value
import proofs.«203895_g52347061404180_cont_8to1_c_859_34_alg».proof.Proof.RegionLossK
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.RegionPack2

open Cert.Kernel Cert.Kernel.Gen Cert.Kernel.KCommon
open Idealize.ShloMosaic Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 2) (Elt F) ℕ UU ℕ

open Cert.Kernel.RegionLoss (adm recTc owesTc Otc_none)

/-! ## The body of the packing call: two loads of its input blocks, one store of their packing -/

theorem hz2 : (![0, 0] : Fin 2 → Nat) = fun _ => 0 := funext fun a => by fin_cases a <;> rfl

abbrev r0_in : Rect S64x12544 := Rect.unit (s := S64x12544) ![0, 0] S64x12544.size inb_S64x12544_S64x12544_0_0
abbrev r0_out : Rect S12544x128 := Rect.unit (s := S12544x128) ![0, 0] S12544x128.size inb_S12544x128_S12544x128_0_0

/-- What the body leaves in the output window's buffer, from the two input buffers' contents: its one store as a piece. -/
def out0_2 (x0 x1 : Vec F S64x12544 .f32) : Vec F S12544x128 .f32 :=
  View.canon [⟨r0_out, k2_pay1 (View.ld x0 r0_in) (View.ld x1 r0_in)⟩]

/-- The store covers the buffer. -/
theorem cover0_2 (p0 : r0_out.shape.Idx → Elt F .f32) (y : S12544x128.Idx) :
    ∃ pc ∈ ([⟨r0_out, p0⟩] : List (View.Piece (Elt F) S12544x128 .f32)), y ∈ pc.1.set :=
  ⟨_, List.mem_singleton_self _, View.mem_set_unit_zero hz2 inb_S12544x128_S12544x128_0_0 y⟩

/-- The store's payload is the packing of the two buffers' contents. -/
theorem out0_2_eq (x0 x1 : Vec F S64x12544 .f32) : out0_2 x0 x1 = k2_pay1 x0 x1 := by
  unfold out0_2
  rw [View.canon_unit_zero hz2]
  simp only [View.ld_unit_zero (S := S64x12544) hz2]

set_option maxHeartbeats 1000000 in
/-- The body on whole staging memrefs: the inputs' at read contents `x0`, `x1`, the output's at anything, to the
    inputs' as they were and the output's at `out0_2 x0 x1`. -/
theorem sound_kernel0 (c : Dev nD) (E : Set ℕ) (i : grid2.Coords)
    (arg1 : Memref sig .tc .vmem S64x12544 .f32) (harg1 : arg1.IsWhole)
    (arg2 : Memref sig .tc .vmem S64x12544 .f32) (harg2 : arg2.IsWhole)
    (arg3 : Memref sig .tc .vmem S12544x128 .f32) (harg3 : arg3.IsWhole)
    (x0 x1 : Vec F S64x12544 .f32) (Kp : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ Kp ⟨⟩))
      ⊢ wp frame (wpE (defs₀ (F := F)) Variants.none c none) E (cc2__pack_body i arg1 harg1 arg2 harg2 arg3 harg3) Kp := by
  simp only [cc2__pack_body_eq_skeleton]; unfold cc2__pack_body_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The proof data of the packing call's pipeline: the transposed table at `x8`, the output array at `y9` on entry,
    the core owing what it owes after `n` SparseCore calls. The second input window's last block runs past the table's
    edge; what its staging buffer holds there nothing names, and the output block computed from it depends on those
    words: the data is a RELATION between what a buffer held and what the body leaves. -/

section Region

variable (x8 : Vec F S64x100000 .f32) (y9 : Vec F S50176x128 .f32) (n : ℕ)

/-- The first input window's block at a point, read off the transposed table (its part inside the table). -/
def blk0_0 (c : Dev nD) (t : Fin cfg2.N) : ((cfg2.win 0).xblock (cfg2.grid.coords t)).Idx → Elt F (cfg2.win 0).elt :=
  ((cfg2.win 0).blk t).view.read (Elt F) (show Buf (Elt F) ((cfg2.win 0).arr.view.loc (c : Thread nD τ)) from x8)
/-- The second input window's. -/
def blk0_1 (c : Dev nD) (t : Fin cfg2.N) : ((cfg2.win 1).xblock (cfg2.grid.coords t)).Idx → Elt F (cfg2.win 1).elt :=
  ((cfg2.win 1).blk t).view.read (Elt F) (show Buf (Elt F) ((cfg2.win 1).arr.view.loc (c : Thread nD τ)) from x8)

/-- What the first input window's staging buffer holds once its block has landed in it, if it held `d`. -/
def fet0_0 (c : Dev nD) (t : Fin cfg2.N) (d : (cfg2.win 0).block.Idx → Elt F (cfg2.win 0).elt) :
    (cfg2.win 0).block.Idx → Elt F (cfg2.win 0).elt :=
  (cfg2.win 0).fill (cfg2.grid.coords t) d (blk0_0 x8 c t)
/-- The second input window's. -/
def fet0_1 (c : Dev nD) (t : Fin cfg2.N) (d : (cfg2.win 1).block.Idx → Elt F (cfg2.win 1).elt) :
    (cfg2.win 1).block.Idx → Elt F (cfg2.win 1).elt :=
  (cfg2.win 1).fill (cfg2.grid.coords t) d (blk0_1 x8 c t)

/-- The proof data: both input windows on the transposed table, at half the share each; the body leaves the inputs'
    buffers as it found them and the output's at the packing of two fetched blocks; the invariant the scoped buffers
    no window stages; the core owing, throughout, the start signals of the SparseCore calls still to come. -/
def rdat0 (c : Dev nD) : Pipeline.RDat τ (Elt F) (HIx 2) ℕ UU ℕ cfg2 c where
  A w := match w with
    | ⟨0, _⟩ => x8
    | ⟨1, _⟩ => x8
    | ⟨2, _⟩ => y9
  after w t := match w with
    | ⟨0, _⟩ => fun Y X => X = Y
    | ⟨1, _⟩ => fun Y X => X = Y
    | ⟨2, _⟩ => fun _ X => ∃ d0 d1, X = out0_2 (fet0_0 x8 c t d0) (fet0_1 x8 c t d1)
  Φ _ := Pipeline.scopedRest (Ix := HIx 2) (Name := ℕ) (U := UU) (Lvl := ℕ) (Val := Elt F) spec2 c
  q w := match w with
    | ⟨0, _⟩ => fullShare.left
    | ⟨1, _⟩ => fullShare.right
    | ⟨2, _⟩ => fullShare
  owed _ := (K (F := F)).Otc c n
  recorded _ := recTc (F := F) n c

theorem after0_0 (c : Dev nD) (t : Fin cfg2.N) (Y X) : (rdat0 x8 y9 n c).after 0 t Y X ↔ X = Y := Iff.rfl
theorem after0_1 (c : Dev nD) (t : Fin cfg2.N) (Y X) : (rdat0 x8 y9 n c).after 1 t Y X ↔ X = Y := Iff.rfl
theorem after0_2 (c : Dev nD) (t : Fin cfg2.N) (Y X) :
    (rdat0 x8 y9 n c).after 2 t Y X ↔ ∃ d0 d1, X = out0_2 (fet0_0 x8 c t d0) (fet0_1 x8 c t d1) := Iff.rfl

/-- What the body finds in an input window's buffer: the block just fetched, anything past the table's edge. -/
theorem finds0_0 (c : Dev nD) (t : Fin cfg2.N) (Y) : (rdat0 x8 y9 n c).Finds 0 t Y ↔ ∃ d, Y = fet0_0 x8 c t d := by
  rw [(rdat0 x8 y9 n c).finds_of_fetch (fetch2_0 t)]; exact Iff.rfl
theorem finds0_1 (c : Dev nD) (t : Fin cfg2.N) (Y) : (rdat0 x8 y9 n c).Finds 1 t Y ↔ ∃ d, Y = fet0_1 x8 c t d := by
  rw [(rdat0 x8 y9 n c).finds_of_fetch (fetch2_1 t)]; exact Iff.rfl

/-! ## The body obligation -/

set_option maxHeartbeats 1000000 in
theorem body_obligation0 (c : Dev nD) :
    (rdat0 (F := F) x8 y9 n c).BodyObligation (defs₀ (F := F)) Variants.none none Set.univ := fun t Y hY => by
  obtain ⟨d0, h0⟩ := (finds0_0 x8 y9 n c t _).mp (hY 0)
  obtain ⟨d1, h1⟩ := (finds0_1 x8 y9 n c t _).mp (hY 1)
  rw [bigSep_W2, bigSep_W2]
  show _ ⊢ wp frame (wpE (defs₀ (F := F)) Variants.none c none) Set.univ (bodyAt2 t) _
  unfold bodyAt2
  rw [show (rdat0 x8 y9 n c).Φ t.succ = (rdat0 x8 y9 n c).Φ t.castSucc from rfl,
    show (rdat0 x8 y9 n c).owesAt none t.succ = (rdat0 x8 y9 n c).owesAt none t.castSucc from rfl]
  iintro ⟨HΦ, Ho, H0, H1, H2⟩
  iapply (sound_kernel0 c Set.univ _ _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; exact (after0_0 x8 y9 n c t _ _).mpr rfl
    iexact H0
  isplitl [H1]
  · iexists (Y 1); isplitr; · ipureintro; exact (after0_1 x8 y9 n c t _ _).mpr rfl
    iexact H1
  iexists (out0_2 (Y 0) (Y 1)); isplitr
  · ipureintro; exact (after0_2 x8 y9 n c t _ _).mpr ⟨d0, d1, by rw [h0, h1]⟩
  iexact H2

end Region

/-! ## The region -/

section Seg

variable (x8 : Vec F S64x100000 .f32) (y9 : Vec F S50176x128 .f32) (n : ℕ)
variable (lv : GSem nD τ sig → HIx 2 → ℕ) (hlv : (K (F := F)).Refines lv)

/-- Relational proof data that says nothing: for the pipelines this region does not run. -/
def rdatNone {cfg : Pipeline.Cfg sig Λ₀} (c : Dev nD) : Pipeline.RDat τ (Elt F) (HIx 2) ℕ UU ℕ cfg c where
  A _ := Classical.arbitrary _
  after _ _ _ _ := True
  Φ _ := iprop(emp)
  q _ := fullShare
  owed _ := 0

/-- Every pipeline's proof data: the packing call's, nothing said of the other two. -/
def rdatsP : (p : Fin 3) → (c : Dev nD) → Pipeline.RDat τ (Elt F) (HIx 2) ℕ UU ℕ (Pipeline.pin (pcfgs (F := F)) adm p) c
  | ⟨0, _⟩ => fun c => rdatNone c
  | ⟨1, _⟩ => fun c => rdat0 x8 y9 n c
  | ⟨2, _⟩ => fun c => rdatNone c

/-- What the packing call may leave in its output array: the entry contents with each point's block overwritten, in
    point order, by what the body may have left in the staging buffer there. -/
abbrev Packs2 (c : Dev nD) (p : Vec F S50176x128 .f32) : Prop := (rdat0 x8 y9 n c).ArrAt 2 cfg2.N p

/-- A whole array's points-to through its memref is the buffer's. -/
theorem pts_whole (c : Dev nD) (b : Ref sig .tc) (q : PosShare TreeShare) (f : b.ty.Contents (Elt F)) :
    (((View.whole b).loc (c : Thread nD τ) ↦[(View.whole b).set]{q} f : sProp 𝕄))
      = (((c : Thread nD τ).loc b) ↦{q} f) := by
  rw [View.set_whole]

/-- The pipeline's arrays, one by one: the transposed table twice, at half the share each, and the output array. -/
theorem arrays0_eq (c : Dev nD)
    (F0 : (w : Fin cfg2.W) → Buf (Elt F) ((cfg2.win w).arr.view.loc (c : Thread nD τ)))
    (f0 f1 : Vec F S64x100000 .f32) (f2 : Vec F S50176x128 .f32) (h0 : F0 0 = f0) (h1 : F0 1 = f1) (h2 : F0 2 = f2) :
    ((rdat0 x8 y9 n c).arrays F0 : sProp 𝕄)
      = iprop((((c : Thread nD τ).loc main_v8) ↦{fullShare.left} f0) ∗ (((c : Thread nD τ).loc main_v8) ↦{fullShare.right} f1)
          ∗ (((c : Thread nD τ).loc main_v9) ↦{fullShare} f2)) := by
  subst h0 h1 h2
  unfold Pipeline.RDat.arrays
  rw [bigSep_W2]
  show iprop(((View.whole main_v8).loc (c : Thread nD τ) ↦[(View.whole main_v8).set]{fullShare.left} F0 0)
      ∗ ((View.whole main_v8).loc (c : Thread nD τ) ↦[(View.whole main_v8).set]{fullShare.right} F0 1)
      ∗ ((View.whole main_v9).loc (c : Thread nD τ) ↦[(View.whole main_v9).set]{fullShare} F0 2)) = _
  rw [pts_whole, pts_whole, pts_whole]

/-- The pipeline's arrays after the write-backs: each at some contents it may then hold. -/
theorem arraysAt0_eq (c : Dev nD) :
    ((rdat0 x8 y9 n c).arraysAt cfg2.N : sProp 𝕄)
      = iprop((∃ G, ⌜(rdat0 x8 y9 n c).ArrAt 0 cfg2.N G⌝ ∗ (((c : Thread nD τ).loc main_v8) ↦{fullShare.left} G))
          ∗ (∃ G, ⌜(rdat0 x8 y9 n c).ArrAt 1 cfg2.N G⌝ ∗ (((c : Thread nD τ).loc main_v8) ↦{fullShare.right} G))
          ∗ (∃ G, ⌜(rdat0 x8 y9 n c).ArrAt 2 cfg2.N G⌝ ∗ (((c : Thread nD τ).loc main_v9) ↦{fullShare} G))) := by
  unfold Pipeline.RDat.arraysAt
  rw [bigSep_W2]
  show iprop((∃ G, ⌜(rdat0 x8 y9 n c).ArrAt 0 cfg2.N G⌝ ∗ ((View.whole main_v8).loc (c : Thread nD τ) ↦[(View.whole main_v8).set]{fullShare.left} G))
      ∗ (∃ G, ⌜(rdat0 x8 y9 n c).ArrAt 1 cfg2.N G⌝ ∗ ((View.whole main_v8).loc (c : Thread nD τ) ↦[(View.whole main_v8).set]{fullShare.right} G))
      ∗ (∃ G, ⌜(rdat0 x8 y9 n c).ArrAt 2 cfg2.N G⌝ ∗ ((View.whole main_v9).loc (c : Thread nD τ) ↦[(View.whole main_v9).set]{fullShare} G))) = _
  simp only [View.set_whole] <;> rfl

set_option backward.isDefEq.respectTransparency.types false in
/-- The packing call as a region of @main on the TensorCore: entered from the transposed table at `x8`, the output
    array at `y9` and the core's debts after `n` SparseCore calls; left with the table as it was, the output array at
    some contents the pipeline may leave, and the same debts. -/
def R2 : Pipeline.RDat.RegionSeg (pcfgs (F := F)) adm (rdatsP x8 y9 n) none defs₀ 𝒱₀ (K (F := F)).L lv 1 where
  win := winFacts₀2
  block_pos := block_pos2
  stage_whole := stage_whole2
  K := PEmpty
  osem k := k.elim
  ho := Pipeline.OwnSemFacts.none _
  hbody c := body_obligation0 x8 y9 n c
  hwaits c := Pipeline.RDat.cellsWaits_intro (Pipeline.pin (pcfgs (F := F)) adm) (rdatsP x8 y9 n) none 1 c
    fun w s t => (K (F := F)).mayWait_none _ (Otc_none n c) lv hlv
  pre c := iprop((((c : Thread nD τ).loc main_v8) ↦{fullShare} x8) ∗ (((c : Thread nD τ).loc main_v9) ↦{fullShare} y9) ∗ owesTc (F := F) n c)
  post c := iprop((((c : Thread nD τ).loc main_v8) ↦{fullShare} x8)
    ∗ (∃ p, ⌜Packs2 x8 y9 n c p⌝ ∗ (((c : Thread nD τ).loc main_v9) ↦{fullShare} p)) ∗ owesTc (F := F) n c)
  X c := iprop(emp)
  Y c := iprop(emp)
  Z c := iprop(emp)
  hentry c := by
    rw [Pipeline.ownSems0_none]
    have harr : ((rdatsP x8 y9 n 1 c).arrays (rdatsP x8 y9 n 1 c).A : sProp 𝕄) = _ :=
      arrays0_eq x8 y9 n c (rdat0 x8 y9 n c).A x8 x8 y9 rfl rfl rfl
    iintro ⟨⟨H5, H6, HO⟩, -, -⟩
    ihave H5' := (pointsTo_share (PosShare.mem_left_op_right fullShare)).1 $$ H5
    icases H5' with ⟨H5l, H5r⟩
    imodintro
    isplitl [H5l H5r H6]
    · iapply (Entails.of_eq harr.symm)
      isplitl [H5l]; · iexact H5l
      isplitl [H5r]; · iexact H5r
      iexact H6
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, %hW, HO⟩; iexists W; isplitr; · ipureintro; exact fun p hp => Or.inl (hW p hp)
      iexact HO
    isplitr <;> iempintro
  hin c := by
    rw [show (rdatsP x8 y9 n 1 c).Φ 0 = Pipeline.scopedRest (Ix := HIx 2) (Name := ℕ) (U := UU) (Lvl := ℕ) (Val := Elt F) spec2 c from rfl]
    iintro ⟨-, -, Hr⟩
    iexact Hr
  hout c := by
    rw [Pipeline.ownSems0_none, show (rdatsP x8 y9 n 1 c).Φ (Fin.last _) = Pipeline.scopedRest (Ix := HIx 2) (Name := ℕ) (U := UU) (Lvl := ℕ) (Val := Elt F) spec2 c from rfl]
    iintro Hr
    isplitr; · iempintro
    isplitr; · iempintro
    iexact Hr
  hexit c := by
    have harr : ((rdatsP x8 y9 n 1 c).arraysAt (Pipeline.pin (pcfgs (F := F)) adm 1).N : sProp 𝕄) = _ := arraysAt0_eq x8 y9 n c
    iintro ⟨Ha, HO, -, -⟩
    ihave Ha' := (Entails.of_eq harr) $$ Ha
    icases Ha' with ⟨⟨%G0, %hG0, H5l⟩, ⟨%G1, %hG1, H5r⟩, ⟨%G2, %hG2, H6⟩⟩
    rw [(rdat0 x8 y9 n c).ArrAt_in 0 rfl] at hG0
    rw [(rdat0 x8 y9 n c).ArrAt_in 1 rfl] at hG1
    obtain rfl : G0 = x8 := hG0
    obtain rfl : G1 = G0 := hG1
    imodintro
    isplitl [H5l H5r]
    · iapply (pointsTo_share (PosShare.mem_left_op_right fullShare)).2
      isplitl [H5l] <;> iassumption
    isplitl [H6]
    · iexists G2; isplitr; · ipureintro; exact hG2
      iexact H6
    unfold Pipeline.RDat.owesAt Pipeline.owesWithin
    icases HO with ⟨%W, %hW, HO⟩; iexists W; isplitr
    · ipureintro
      intro p hp
      rcases hW hp with h | ⟨w, s, rfl⟩
      · exact h
      · show (K (F := F)).lev _ none ≤ _
        rw [SparseCore.Cfg.lev_none]; exact Nat.zero_le _
    iexact HO

set_option backward.isDefEq.respectTransparency.types false in
/-- The region's rule as @main meets it. -/
theorem region2_wp (d : Dev nD) (bd : Option (𝒱).V)
    (hv : ∀ u ∈ bd, (𝒱).lt (.inr ((Pipeline.pin (pcfgs (F := F)) adm 1).tripCount + 1)) u)
    {α : Type} (k : PUnit → Prog (TpuEff nD τ sig (Elt F) (ΛP (F := F)) .tc) α) (Q : α → sProp 𝕄) :
    iprop((iprop(boundary (d : Thread nD τ) ∗ (R2 x8 y9 n lv hlv).post d) -∗ wp frame (wpE (D (F := F)) 𝒱 (d : Thread nD τ) bd) Set.univ (k ⟨⟩) Q)
        ∗ boundary (d : Thread nD τ) ∗ (R2 x8 y9 n lv hlv).pre d ∗ levAts (K (F := F)).L lv
        ∗ Pipeline.cellsGhost (Pipeline.pin (pcfgs (F := F)) adm) EP 1 d ∗ Pipeline.toksInit (Pipeline.pin (pcfgs (F := F)) adm) EP 1 d)
      ⊢ wp frame (wpE (D (F := F)) 𝒱 (d : Thread nD τ) bd) Set.univ (.op (.customCall (Pipeline.entry 1) ()) k) Q :=
  Pipeline.RDat.RegionSeg.wp (pcfgs (F := F)) adm (rdatsP x8 y9 n) none cellOf_inj EP defs₀ 𝒱₀ (K (F := F)).L lv (R2 x8 y9 n lv hlv) d bd hv k Q

/-- The entry and exit states, spelt out. -/
theorem R2_pre (d : Dev nD) : (R2 x8 y9 n lv hlv).pre d
    = iprop((((d : Thread nD τ).loc main_v8) ↦{fullShare} x8) ∗ (((d : Thread nD τ).loc main_v9) ↦{fullShare} y9) ∗ owesTc (F := F) n d) := rfl
theorem R2_post (d : Dev nD) : (R2 x8 y9 n lv hlv).post d
    = iprop((((d : Thread nD τ).loc main_v8) ↦{fullShare} x8)
        ∗ (∃ p, ⌜Packs2 x8 y9 n d p⌝ ∗ (((d : Thread nD τ).loc main_v9) ↦{fullShare} p)) ∗ owesTc (F := F) n d) := rfl

end Seg

end Cert.Kernel.RegionPack2

end
-- ==== Proof.MainTCK.lean ====
/-
  @main on a device's TensorCore.

  @main is nine host lines around five calls: the index arrays flattened and the item table transposed; the first packing
  call; the first SparseCore call (the differences); the user table transposed; the second packing call; the second
  SparseCore call (the scores); the scores viewed [32, 128]; the softplus-mean call; the result as a scalar. The
  TensorCore starts with all its unscoped arrays whole at their launch contents. Host lines run by the straight-line rule
  over the arrays they touch. A TensorCore call is its region's rule, proved at the pipelines' body table and lifted: it
  takes the region boundary, the call's own arrays, the TensorCore's debts (it owes the later calls' start signals
  throughout), the level facts and the pipeline's staging cells' ghost state, and gives the arrays back with the output
  rewritten. A SparseCore call is the launch library's rule: the operands, cut into the 32 tiles' payloads, go out with
  the start signals and come back with the done signals, and the output array is rejoined from the tiles' slices; the
  read-only operands are not needed again and are dropped. No call writes an argument array, and the host lines write
  only their own results, so at the return the four arguments are whole at their launch contents.
-/
import proofs.«203895_g52347061404180_cont_8to1_c_859_34_alg».proof.Proof.LaunchPayK
import proofs.«203895_g52347061404180_cont_8to1_c_859_34_alg».proof.Proof.LaunchElemK
import proofs.«203895_g52347061404180_cont_8to1_c_859_34_alg».proof.Proof.LaunchFinK
import Idealize.ShloMosaic.Lib.Pipeline.Frame
import proofs.«203895_g52347061404180_cont_8to1_c_859_34_alg».proof.Proof.RegionLiftK
import proofs.«203895_g52347061404180_cont_8to1_c_859_34_alg».proof.Proof.RegionPackK
import proofs.«203895_g52347061404180_cont_8to1_c_859_34_alg».proof.Proof.RegionPack2K
import proofs.«203895_g52347061404180_cont_8to1_c_859_34_alg».proof.Proof.RegionLossK
noncomputable section
namespace Cert.Kernel.MainTC
open Cert.Kernel Cert.Kernel.Gen Cert.Kernel.KCommon Cert.Kernel.LaunchPay
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result held_sub_split wp_hlo_within wp_seq seq after)
open Idealize.ShloMosaic.Pipeline (ucRefs unscopedBufs_held sub_ucRefs)

variable {F : FTy → Type} [FloatOps F]
local notation "𝕄" => MT nD τ sig (HIx 2) (Elt F) ℕ UU ℕ

abbrev op0 : HloOp τ sig (Elt F) := StableHlo.reshape main_arg0 main_v0 rfl shapeCasts_S4096x1_S4096
abbrev op1 : HloOp τ sig (Elt F) := StableHlo.unary main_arg1 main_v1 ((extractStridedSlice S4096x1 ![0, 0] · slices_S4096x2_S4096x1_0_0) : (⟨S4096x2, .i32⟩ : BufTy).Contents (Elt F) → (⟨S4096x1, .i32⟩ : BufTy).Contents (Elt F))
abbrev op2 : HloOp τ sig (Elt F) := StableHlo.reshape main_v1 main_v2 rfl shapeCasts_S4096x1_S4096
abbrev op3 : HloOp τ sig (Elt F) := StableHlo.unary main_arg1 main_v3 ((extractStridedSlice S4096x1 ![0, 1] · slices_S4096x2_S4096x1_0_1) : (⟨S4096x2, .i32⟩ : BufTy).Contents (Elt F) → (⟨S4096x1, .i32⟩ : BufTy).Contents (Elt F))
abbrev op4 : HloOp τ sig (Elt F) := StableHlo.reshape main_v3 main_v4 rfl shapeCasts_S4096x1_S4096
abbrev op5 : HloOp τ sig (Elt F) := StableHlo.unary main_arg3 main_v5 ((transpose S64x100000 [1, 0] · transposes_S100000x64_S64x100000_1_0) : (⟨S100000x64, .f32⟩ : BufTy).Contents (Elt F) → (⟨S64x100000, .f32⟩ : BufTy).Contents (Elt F))
abbrev op6 : HloOp τ sig (Elt F) := StableHlo.unary main_arg2 main_v8 ((transpose S64x100000 [1, 0] · transposes_S100000x64_S64x100000_1_0) : (⟨S100000x64, .f32⟩ : BufTy).Contents (Elt F) → (⟨S64x100000, .f32⟩ : BufTy).Contents (Elt F))
abbrev op7 : HloOp τ sig (Elt F) := StableHlo.reshape main_v10 main_v11 rfl shapeCasts_S4096_S32x128
abbrev op8 : HloOp τ sig (Elt F) := StableHlo.reshape main_v12 main_v13 rfl shapeCasts_S1x1_S_
abbrev opsA : List (HloOp τ sig (Elt F)) := [op0, op1, op2, op3, op4, op5]

theorem main_eq (d : Dev nD) : main (F := F) d
    = (seq (opsA (F := F)) >>= fun _ =>
        (Prog.lift (.customCall (SparseCore.inner (Pipeline.entry 0)) ()) >>= fun _ =>
          ((K (F := F)).run d 0 >>= fun _ =>
            (seq [op6 (F := F)] >>= fun _ =>
              (Prog.lift (.customCall (SparseCore.inner (Pipeline.entry 1)) ()) >>= fun _ =>
                ((K (F := F)).run d 1 >>= fun _ =>
                  (seq [op7 (F := F)] >>= fun _ =>
                    (Prog.lift (.customCall (SparseCore.inner (Pipeline.entry 2)) ()) >>= fun _ =>
                      (seq [op8 (F := F)] >>= fun _ => pure ⟨⟩))))))))) := by
  rfl

theorem opsA_sub : ∀ op ∈ (opsA (F := F)), op.bufs ⊆ ucRefs τ sig := by
  intro op hop
  simp only [opsA, List.mem_cons, List.mem_nil_iff, _root_.or_false] at hop
  rcases hop with rfl | rfl | rfl | rfl | rfl | rfl <;> first | exact sub_ucRefs _ (StableHlo.reshape_bufs_sub ..) | exact sub_ucRefs _ (StableHlo.unary_bufs_sub ..)

theorem opsA_fresh : ∀ op ∈ (opsA (F := F)), op.fresh = ∅ := by
  intro op hop
  simp only [opsA, List.mem_cons, List.mem_nil_iff, _root_.or_false] at hop
  rcases hop with rfl | rfl | rfl | rfl | rfl | rfl <;> rfl

/-- One unscoped TensorCore array whole at a valuation. -/
abbrev pt (c : Thread nD τ) (W : Valuation τ sig (Elt F)) (r : Ref sig .tc) : sProp 𝕄 :=
  (c.1, Proc.devRef .tc r) ↦{fullShare} W (Proc.devRef .tc r)

theorem ucRefs_eq : ucRefs τ sig = ({Proc.devRef .tc main_arg0, Proc.devRef .tc main_arg1, Proc.devRef .tc main_arg2, Proc.devRef .tc main_arg3,
    Proc.devRef .tc main_v0, Proc.devRef .tc main_v1, Proc.devRef .tc main_v2, Proc.devRef .tc main_v3, Proc.devRef .tc main_v4,
    Proc.devRef .tc main_v5, Proc.devRef .tc main_v6, Proc.devRef .tc main_v7, Proc.devRef .tc main_v8, Proc.devRef .tc main_v9,
    Proc.devRef .tc main_v10, Proc.devRef .tc main_v11, Proc.devRef .tc main_v12, Proc.devRef .tc main_v13} : Finset (DevRef τ sig)) := by
  decide

/-- The unscoped arrays held at a valuation, one by one. -/
theorem held_ucRefs (c : Thread nD τ) (W : Valuation τ sig (Elt F)) :
    (held c (ucRefs τ sig) W : sProp 𝕄) = iprop(pt c W main_arg0 ∗ pt c W main_arg1 ∗ pt c W main_arg2 ∗ pt c W main_arg3
      ∗ pt c W main_v0 ∗ pt c W main_v1 ∗ pt c W main_v2 ∗ pt c W main_v3 ∗ pt c W main_v4 ∗ pt c W main_v5 ∗ pt c W main_v6
      ∗ pt c W main_v7 ∗ pt c W main_v8 ∗ pt c W main_v9 ∗ pt c W main_v10 ∗ pt c W main_v11 ∗ pt c W main_v12 ∗ pt c W main_v13) := by
  unfold held
  rw [ucRefs_eq]
  repeat rw [SparseCore.bigSep_insert' (by decide)]
  rw [bigSep_singleton]

/-- The TensorCore's handshake state: what it owes with its recorded pairs bounded, and the rest. -/
def tcRest (d : Dev nD) (n : ℕ) : sProp 𝕄 :=
  iprop(atPos (EH (F := F)) ((K (F := F)).doneCell d) n ∅ 0 ∗ reached (EH (F := F)) ((K (F := F)).doneCell d) n
    ∗ (bigSep Finset.univ fun c : Fin τ.nSC => reached (EH (F := F)) ((K (F := F)).startCell d c) ((K (F := F)).sRank c n))
    ∗ bigSep (SparseCore.Cfg.callsFrom n) fun q => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

theorem tcSt_eq (d : Dev nD) (n : ℕ) :
    ((K (F := F)).tcSt (EH (F := F)) d n : sProp 𝕄) = iprop(RegionLoss.owesTc (F := F) n d ∗ tcRest (F := F) d n) := rfl

theorem refines : SparseCore.Cfg.Refines (nD := nD) (K (F := F)) (SparseCore.Cfg.lev (nD := nD) (K (F := F))) := by sl_refines_lev

/-- Two distinct arrays held at a valuation. -/
theorem held_two (c : Thread nD τ) (a b : DevRef τ sig) (hab : a ≠ b) (W : Valuation τ sig (Elt F)) :
    (held c ({a, b} : Finset (DevRef τ sig)) W : sProp 𝕄) = iprop(((c.1, a) ↦{fullShare} W a) ∗ ((c.1, b) ↦{fullShare} W b)) := by
  unfold held
  rw [SparseCore.bigSep_insert' (by simpa using hab), bigSep_singleton]

theorem op6_sub : ∀ op ∈ [op6 (F := F)], op.bufs ⊆ ({Proc.devRef .tc main_arg2, Proc.devRef .tc main_v8} : Finset (DevRef τ sig)) := by
  intro op hop; rw [List.mem_singleton] at hop; subst hop; exact Finset.Subset.refl _
theorem op7_sub : ∀ op ∈ [op7 (F := F)], op.bufs ⊆ ({Proc.devRef .tc main_v10, Proc.devRef .tc main_v11} : Finset (DevRef τ sig)) := by
  intro op hop; rw [List.mem_singleton] at hop; subst hop; exact Finset.Subset.refl _
theorem op8_sub : ∀ op ∈ [op8 (F := F)], op.bufs ⊆ ({Proc.devRef .tc main_v12, Proc.devRef .tc main_v13} : Finset (DevRef τ sig)) := by
  intro op hop; rw [List.mem_singleton] at hop; subst hop; exact Finset.Subset.refl _
theorem one_fresh (op : HloOp τ sig (Elt F)) (h : op.fresh = ∅) : ∀ o ∈ [op], o.fresh = ∅ := by
  intro o ho; rw [List.mem_singleton] at ho; subst ho; exact h

variable (m : (ℓ : Loc nD τ sig) → Buf (Elt F) ℓ) (g : Dev nD → PrngReg)

/-- The launch valuation. -/
def V0 (d : Dev nD) : Valuation τ sig (Elt F) := fun b => m (d, b)

set_option backward.isDefEq.respectTransparency.types false in
/-- The valuation after the first host stretch. -/
abbrev W1 (d : Dev nD) : Valuation τ sig (Elt F) := after (opsA (F := F)) (V0 m d)

/-- The first host stretch writes no argument array. -/
theorem W1_arg (d : Dev nD) (r : Ref sig .tc)
    (hr : ∀ y ∈ [main_v0, main_v1, main_v2, main_v3, main_v4, main_v5], (Proc.devRef (τ := τ) .tc r) ≠ Proc.devRef .tc y) :
    W1 (F := F) m d (Proc.devRef .tc r) = m (d, Proc.devRef .tc r) :=
  StableHlo.after_of_forall_not_mem (opsA (F := F)) (V0 m d) (fun op hop => by
    simp only [opsA, List.mem_cons, List.mem_nil_iff, _root_.or_false] at hop
    rcases hop with rfl | rfl | rfl | rfl | rfl | rfl <;>
      (show _ ∉ ({_} : Finset (DevRef τ sig)); rw [Finset.mem_singleton]; exact hr _ (by simp)))

/-- The transposing host line writes no argument array. -/
theorem op6_arg (W : Valuation τ sig (Elt F)) (r : Ref sig .tc) (hr : (Proc.devRef (τ := τ) .tc r) ≠ Proc.devRef .tc main_v8) :
    after [op6 (F := F)] W (Proc.devRef .tc r) = W (Proc.devRef .tc r) :=
  StableHlo.after_of_forall_not_mem [op6 (F := F)] W (fun op hop => by
    rw [List.mem_singleton] at hop; subst hop
    show _ ∉ ({_} : Finset (DevRef τ sig)); rw [Finset.mem_singleton]; exact hr)

/-- The result array at any contents is "at some contents". -/
theorem fin_out (d : Dev nD) (x : Buf (Elt F) (LaunchFin.outLoc d)) :
    (LaunchFin.outLoc d ↦{fullShare} x : sProp 𝕄) ⊢ iprop(∃ f, ⌜True⌝ ∗ LaunchFin.outLoc d ↦{fullShare} f) := by
  iintro H
  iexists x
  isplitr; · ipureintro; trivial
  iexact H

/-- An index word names a table row. -/
abbrev InRange {S : Shape} (f : S.Idx → BitVec 32) : Prop := ∀ j, 0 ≤ (f j).toInt ∧ (f j).toInt ≤ 99999

set_option backward.isDefEq.respectTransparency.types false in
set_option maxHeartbeats 4000000 in
/-- @main on a device's TensorCore: the host lines by the straight-line rule over the arrays they touch, each
    TensorCore call by its region's rule lifted, each SparseCore call by the launch library's rule with the operands cut
    into the tiles' payloads and the output rejoined. The arguments are kept; the result is left at some contents. -/
theorem hmain
    (hsplit0 : ∀ (d : Dev nD) (f6 : Vec F S50176x128 .f32) (f2 f4 : IVec S4096 32), InRange f2 → InRange f4 →
      iprop(((d.tc : Thread nD τ).loc main_v6 ↦{fullShare} f6) ∗ ((d.tc : Thread nD τ).loc main_v2 ↦{fullShare} f2)
        ∗ ((d.tc : Thread nD τ).loc main_v4 ↦{fullShare} f4) ∗ ∃ f, (d.tc : Thread nD τ).loc main_v7 ↦{fullShare} f)
        ⊢ (bigSep Finset.univ fun c : Fin ((K (F := F)).nCore 0) => (P (F := F)).st 0 d c : sProp 𝕄))
    (hjoin0 : ∀ d : Dev nD, (bigSep Finset.univ fun c : Fin ((K (F := F)).nCore 0) => (P (F := F)).dn 0 d c : sProp 𝕄)
        ⊢ iprop(∃ f, (d.tc : Thread nD τ).loc main_v7 ↦{fullShare} f))
    (hsplit1 : ∀ (d : Dev nD) (f9 : Vec F S50176x128 .f32) (f0 : IVec S4096 32) (f7 : Vec F S2048x128 .f32), InRange f0 →
      iprop(((d.tc : Thread nD τ).loc main_v9 ↦{fullShare} f9) ∗ ((d.tc : Thread nD τ).loc main_v0 ↦{fullShare} f0)
        ∗ ((d.tc : Thread nD τ).loc main_v7 ↦{fullShare} f7) ∗ ∃ f, (d.tc : Thread nD τ).loc main_v10 ↦{fullShare} f)
        ⊢ (bigSep Finset.univ fun c : Fin ((K (F := F)).nCore 1) => (P (F := F)).st 1 d c : sProp 𝕄))
    (hjoin1 : ∀ d : Dev nD, (bigSep Finset.univ fun c : Fin ((K (F := F)).nCore 1) => (P (F := F)).dn 1 d c : sProp 𝕄)
        ⊢ iprop(∃ f, (d.tc : Thread nD τ).loc main_v10 ↦{fullShare} f))
    (hr2 : ∀ d, InRange (W1 (F := F) m d (Proc.devRef .tc main_v2))) (hr4 : ∀ d, InRange (W1 (F := F) m d (Proc.devRef .tc main_v4)))
    (hr0 : ∀ d, InRange (W1 (F := F) m d (Proc.devRef .tc main_v0)))
    (κ : GSem nD τ sig → ℕ) (d : Dev nD) :
    iprop((K (F := F)).ctx EH (P (F := F)) κ (K (F := F)).lev ∗ (K (F := F)).tcSt EH d 0 ∗ (K (F := F)).tcRes m g d ∗ LaunchElem.G (F := F) d)
      ⊢ wp frame (wpE ((K (F := F)).defs (D (F := F))) 𝒱 (SparseCore.T d) none) Set.univ (main (F := F) d)
          fun _ => iprop((K (F := F)).tcSt EH d 2 ∗ LaunchFin.FIN (F := F) m (fun _ _ => True) d) := by
  unfold SparseCore.Cfg.tcRes
  rw [show (unscopedBufs d (fun b => m ((SparseCore.T d).loc b)) : sProp 𝕄) = held (d.tc : Thread nD τ) (ucRefs τ sig) (V0 m d) from
    unscopedBufs_held (Ix := HIx 2) (Name := ℕ) (U := UU) (Lvl := ℕ) d (V0 m d)]
  rw [main_eq]
  iintro ⟨#Hctx, Hst, ⟨Hb, Hheld, Hsems, Hprng⟩, HG⟩
  iapply (wp_seq 𝒱 none Set.univ d (ucRefs τ sig) _ (opsA (F := F)) opsA_sub opsA_fresh (V0 m d)) $$ [Hb Hheld]
  · isplitl [Hb]; · iexact Hb
    iexact Hheld
  iintro ⟨Hb, Hheld⟩
  ihave Hh := (Entails.of_eq (held_ucRefs (F := F) (d.tc : Thread nD τ) _)) $$ Hheld
  icases Hh with ⟨Ha0, Ha1, Ha2, Ha3, H0, H1, H2, H3, H4, H5, H6, H7, H8, H9, H10, H11, H12, H13⟩
  ihave Hst' := (Entails.of_eq (tcSt_eq (F := F) d 0)) $$ Hst
  icases Hst' with ⟨Ho, Hrest⟩
  ihave #Hlev := ((K (F := F)).ctx_levAts (EH := EH) (P := P (F := F)) κ) $$ Hctx
  unfold LaunchElem.G
  rw [Gen.bigSep_W0, Gen.bigSep_W0]
  icases HG with ⟨⟨Hc0, Hc1, Hc2⟩, ⟨Ht0, Ht1, Ht2⟩⟩
  -- the first packing call
  iapply (RegionLift.region_lift (F := F) 0 _ _
      (fun d' {_} k Q => RegionPack.region0_wp (F := F) _ _ 0 (K (F := F)).lev (refines (F := F)) d' none (fun u hu => nomatch hu) k Q) d _ _)
  isplitl [Hb]; · iexact Hb
  isplitl [H5 H6 Ho]
  · rw [RegionPack.R0_pre]
    isplitl [H5]; · iexact H5
    isplitl [H6]; · iexact H6
    iexact Ho
  isplitr; · iexact Hlev
  isplitl [Hc0]; · iexact Hc0
  isplitl [Ht0]; · iexact Ht0
  iintro ⟨Hb, Hpost⟩
  ihave Hpost' := (Entails.of_eq (RegionPack.R0_post (F := F) _ _ 0 _ _ d)) $$ Hpost
  icases Hpost' with ⟨H5, ⟨%p6, %hp6, H6⟩, Ho⟩
  -- the first SparseCore call
  ihave Hst0 := (Entails.of_eq (tcSt_eq (F := F) d 0).symm) $$ [Ho Hrest]
  · isplitl [Ho]; · iexact Ho
    iexact Hrest
  rw [wp_bind]
  iapply ((K (F := F)).wp_run (D (F := F)) 𝒱 (EH := EH) (P := P (F := F)) κ d 0)
  isplitr; · iexact Hctx
  isplitl [Hst0]; · iexact Hst0
  isplitl [H6 H2 H4 H7]
  · iapply (hsplit0 d p6 _ _ (hr2 d) (hr4 d))
    isplitl [H6]; · iexact H6
    isplitl [H2]; · iexact H2
    isplitl [H4]; · iexact H4
    iexists _; iexact H7
  iintro ⟨Hst1, Hdn⟩
  ihave Hst1 := (Entails.of_eq (show ((K (F := F)).tcSt (EH (F := F)) d ((0 : Fin 2).val + 1) : sProp 𝕄) = (K (F := F)).tcSt (EH (F := F)) d 1 from rfl)) $$ Hst1
  ihave H7 := (hjoin0 d) $$ Hdn
  icases H7 with ⟨%f7, H7⟩
  -- the users' table transposed
  iapply (wp_seq 𝒱 none Set.univ d ({Proc.devRef .tc main_arg2, Proc.devRef .tc main_v8} : Finset (DevRef τ sig)) _ [op6 (F := F)]
      op6_sub (one_fresh _ rfl) (W1 (F := F) m d)) $$ [Hb Ha2 H8]
  · isplitl [Hb]; · iexact Hb
    rw [held_two _ _ _ (by decide)]
    isplitl [Ha2]; · iexact Ha2
    iexact H8
  iintro ⟨Hb, Hh68⟩
  ihave Hh68' := (Entails.of_eq (held_two (F := F) (d.tc : Thread nD τ) _ _ (by decide) _)) $$ Hh68
  icases Hh68' with ⟨Ha2, H8⟩
  -- the second packing call
  ihave Hst' := (Entails.of_eq (tcSt_eq (F := F) d 1)) $$ Hst1
  icases Hst' with ⟨Ho, Hrest⟩
  iapply (RegionLift.region_lift (F := F) 1 _ _
      (fun d' {_} k Q => RegionPack2.region2_wp (F := F) _ _ 1 (K (F := F)).lev (refines (F := F)) d' none (fun u hu => nomatch hu) k Q) d _ _)
  isplitl [Hb]; · iexact Hb
  isplitl [H8 H9 Ho]
  · rw [RegionPack2.R2_pre]
    isplitl [H8]; · iexact H8
    isplitl [H9]; · iexact H9
    iexact Ho
  isplitr; · iexact Hlev
  isplitl [Hc1]; · iexact Hc1
  isplitl [Ht1]; · iexact Ht1
  iintro ⟨Hb, Hpost⟩
  ihave Hpost' := (Entails.of_eq (RegionPack2.R2_post (F := F) _ _ 1 _ _ d)) $$ Hpost
  icases Hpost' with ⟨H8, ⟨%p9, %hp9, H9⟩, Ho⟩
  -- the second SparseCore call
  ihave Hst1 := (Entails.of_eq (tcSt_eq (F := F) d 1).symm) $$ [Ho Hrest]
  · isplitl [Ho]; · iexact Ho
    iexact Hrest
  rw [wp_bind]
  iapply ((K (F := F)).wp_run (D (F := F)) 𝒱 (EH := EH) (P := P (F := F)) κ d 1)
  isplitr; · iexact Hctx
  isplitl [Hst1]; · iexact Hst1
  isplitl [H9 H0 H7 H10]
  · iapply (hsplit1 d p9 _ f7 (hr0 d))
    isplitl [H9]; · iexact H9
    isplitl [H0]; · iexact H0
    isplitl [H7]; · iexact H7
    iexists _; iexact H10
  iintro ⟨Hst2, Hdn⟩
  ihave Hst2 := (Entails.of_eq (show ((K (F := F)).tcSt (EH (F := F)) d ((1 : Fin 2).val + 1) : sProp 𝕄) = (K (F := F)).tcSt (EH (F := F)) d 2 from rfl)) $$ Hst2
  ihave H10 := (hjoin1 d) $$ Hdn
  icases H10 with ⟨%f10, H10⟩
  -- the scores viewed [32, 128]
  iapply (wp_seq 𝒱 none Set.univ d ({Proc.devRef .tc main_v10, Proc.devRef .tc main_v11} : Finset (DevRef τ sig)) _ [op7 (F := F)]
      op7_sub (one_fresh _ rfl) (Function.update (W1 (F := F) m d) (Proc.devRef .tc main_v10) f10)) $$ [Hb H10 H11]
  · isplitl [Hb]; · iexact Hb
    rw [held_two _ _ _ (by decide), Function.update_self, Function.update_of_ne (by decide)]
    isplitl [H10]; · iexact H10
    iexact H11
  iintro ⟨Hb, Hh⟩
  ihave Hh' := (Entails.of_eq (held_two (F := F) (d.tc : Thread nD τ) _ _ (by decide) _)) $$ Hh
  icases Hh' with ⟨H10, H11⟩
  -- the softplus-mean call
  ihave Hst' := (Entails.of_eq (tcSt_eq (F := F) d 2)) $$ Hst2
  icases Hst' with ⟨Ho, Hrest⟩
  iapply (RegionLift.region_lift (F := F) 2 _ _
      (fun d' {_} k Q => RegionLoss.region4_wp (F := F) _ _ 2 (K (F := F)).lev (refines (F := F)) d' none (fun u hu => nomatch hu) k Q) d _ _)
  isplitl [Hb]; · iexact Hb
  isplitl [H11 H12 Ho]
  · rw [RegionLoss.R4_pre]
    isplitl [H11]; · iexact H11
    isplitl [H12]; · iexact H12
    iexact Ho
  isplitr; · iexact Hlev
  isplitl [Hc2]; · iexact Hc2
  isplitl [Ht2]; · iexact Ht2
  iintro ⟨Hb, Hpost⟩
  ihave Hpost' := (Entails.of_eq (RegionLoss.R4_post (F := F) _ _ 2 _ _ d)) $$ Hpost
  icases Hpost' with ⟨H11, H12, Ho⟩
  ihave Hst2 := (Entails.of_eq (tcSt_eq (F := F) d 2).symm) $$ [Ho Hrest]
  · isplitl [Ho]; · iexact Ho
    iexact Hrest
  -- the result as a scalar
  iapply (wp_seq 𝒱 none Set.univ d ({Proc.devRef .tc main_v12, Proc.devRef .tc main_v13} : Finset (DevRef τ sig)) _ [op8 (F := F)]
      op8_sub (one_fresh _ rfl) (Function.update (W1 (F := F) m d) (Proc.devRef .tc main_v12) _)) $$ [Hb H12 H13]
  · isplitl [Hb]; · iexact Hb
    rw [held_two _ _ _ (by decide), Function.update_self, Function.update_of_ne (by decide)]
    isplitl [H12]; · iexact H12
    iexact H13
  iintro ⟨Hb, Hh⟩
  ihave Hh' := (Entails.of_eq (held_two (F := F) (d.tc : Thread nD τ) _ _ (by decide) _)) $$ Hh
  icases Hh' with ⟨H12, H13⟩
  rw [wp_pure]
  imodintro
  isplitl [Hst2]; · iexact Hst2
  unfold LaunchFin.FIN
  isplitl [Ha0]
  · rw [show m (LaunchFin.a0Loc d) = W1 (F := F) m d (Proc.devRef .tc main_arg0) from (W1_arg (F := F) m d main_arg0 (by decide)).symm]
    iexact Ha0
  isplitl [Ha1]
  · rw [show m (LaunchFin.a1Loc d) = W1 (F := F) m d (Proc.devRef .tc main_arg1) from (W1_arg (F := F) m d main_arg1 (by decide)).symm]
    iexact Ha1
  isplitl [Ha2]
  · rw [show m (LaunchFin.a2Loc d) = after [op6 (F := F)] (W1 (F := F) m d) (Proc.devRef .tc main_arg2) from
      ((op6_arg (F := F) _ main_arg2 (by decide)).trans (W1_arg (F := F) m d main_arg2 (by decide))).symm]
    iexact Ha2
  isplitl [Ha3]
  · rw [show m (LaunchFin.a3Loc d) = W1 (F := F) m d (Proc.devRef .tc main_arg3) from (W1_arg (F := F) m d main_arg3 (by decide)).symm]
    iexact Ha3
  iapply (fin_out (F := F) d _)
  iexact H13

end Cert.Kernel.MainTC
end
-- ==== Proof.LaunchSplitK.lean ====
/-
  CUTTING THE ARRAYS AMONG THE 32 TILES, AND JOINING THE RESULTS.

  At each of the two SparseCore calls the TensorCore holds the call's arrays whole. A tile's task wants a read share
  of every array all tiles read whole, the tile's own rows of an array the tiles divide among themselves, and its own
  slice of the result at some contents. Here the whole arrays are cut so (`split0`, `split1`) and the result slices
  put together again (`join0`, `join1`). No program is run: this is separation logic over points-to assertions.

  Tile `(c, i)` has number `n = 2 i + c`. An array read whole by all is shared by splitting 32 (or 64) read tokens
  off the full share; the remainder is dropped. The [2048,128] array of differences is cut into the 32 blocks of 64 rows,
  the [4096] result into the 32 blocks of 128 entries: the slices the program takes at its printed offsets
  `128 i + 64 c = 64 n` and `256 i + 128 c = 128 n` are the 32 equal parts along axis 0, which are pairwise disjoint
  and cover the array.
-/
import proofs.«203895_g52347061404180_cont_8to1_c_859_34_alg».proof.Proof.LaunchPayK

noncomputable section

namespace Cert.Kernel.LaunchSplit

open Cert.Kernel Cert.Kernel.Gen Cert.Kernel.KCommon Cert.Kernel.LaunchPay
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop pointsTo_toks_split)

variable {F : FTy → Type} [FloatOps F]

local notation "𝕄" => MT nD τ sig (HIx 2) (Elt F) ℕ UU ℕ

/-! ## The 32 tiles as pairs, and a family over them as an iterated one -/

/-- The 32 tiles are the pairs (SparseCore, vector subcore): `(c, i) ↦ 2 i + c`. -/
def tileEquiv : Fin 2 × Fin 16 ≃ Fin 32 where
  toFun p := tileNo p.1 p.2
  invFun n := (⟨n.val % 2, Nat.mod_lt _ (by decide)⟩, ⟨n.val / 2, by have := n.isLt; omega⟩)
  left_inv p := by
    obtain ⟨c, i⟩ := p
    have hc := c.isLt; have hi := i.isLt
    refine Prod.ext (Fin.ext ?_) (Fin.ext ?_)
    · show (2 * i.val + c.val) % 2 = c.val; omega
    · show (2 * i.val + c.val) / 2 = i.val; omega
  right_inv n := by
    refine Fin.ext ?_
    show 2 * (n.val / 2) + n.val % 2 = n.val; omega

/-- A family over the 32 tile numbers is the iterated family over SparseCores and vector subcores. -/
theorem bigSep_tiles (Φ : Fin 32 → sProp 𝕄) :
    bigSep Finset.univ Φ = bigSep Finset.univ fun c : Fin 2 => bigSep Finset.univ fun i : Fin 16 => Φ (tileNo c i) := by
  rw [bigSep_univ_equiv tileEquiv Φ, bigSep_univ_prod]; rfl

/-- The 64 halves of the tiles: `(n, b) ↦ 2 n + b`. -/
def halfEquiv : Fin 32 × Fin 2 ≃ Fin 64 where
  toFun p := ⟨2 * p.1.val + p.2.val, by have := p.1.isLt; have := p.2.isLt; omega⟩
  invFun m := (⟨m.val / 2, by have := m.isLt; omega⟩, ⟨m.val % 2, Nat.mod_lt _ (by decide)⟩)
  left_inv p := by
    obtain ⟨n, b⟩ := p
    have hn := n.isLt; have hb := b.isLt
    refine Prod.ext (Fin.ext ?_) (Fin.ext ?_)
    · show (2 * n.val + b.val) / 2 = n.val; omega
    · show (2 * n.val + b.val) % 2 = b.val; omega
  right_inv m := by
    refine Fin.ext ?_
    show 2 * (m.val / 2) + m.val % 2 = m.val; omega

/-- A family over 64 is the family over 32 of the pairs `2 n`, `2 n + 1`. -/
theorem bigSep_halves (Φ : Fin 64 → sProp 𝕄) :
    bigSep Finset.univ Φ = bigSep Finset.univ fun n : Fin 32 =>
      iprop(Φ ⟨2 * n.val, by have := n.isLt; omega⟩ ∗ Φ ⟨2 * n.val + 1, by have := n.isLt; omega⟩) := by
  rw [bigSep_univ_equiv halfEquiv Φ, bigSep_univ_prod]
  refine bigSep_congr fun n _ => ?_
  rw [bigSep_univ_two]; rfl

/-! ## The slices the tiles take are the 32 equal parts along axis 0 -/

theorem hdiv7 : 32 ∣ S2048x128.size 0 := ⟨64, rfl⟩
theorem hdiv10 : 32 ∣ S4096.size 0 := ⟨128, rfl⟩

/-- Tile `n`'s 64 rows of the differences, and its 128 entries of the result. -/
abbrev rows7 (n : Fin 32) : Finset S2048x128.Idx := (Rect.part (s := S2048x128) (a₀ := 0) hdiv7 n).set
abbrev ents10 (n : Fin 32) : Finset S4096.Idx := (Rect.part (s := S4096) (a₀ := 0) hdiv10 n).set

theorem rows7_disjoint : ∀ n ∈ (Finset.univ : Finset (Fin 32)), ∀ n' ∈ (Finset.univ : Finset (Fin 32)), n ≠ n' → Disjoint (rows7 n) (rows7 n') :=
  fun _ _ _ _ h => Rect.part_disjoint hdiv7 h
theorem rows7_cover : (Finset.univ : Finset (Fin 32)).biUnion rows7 = Finset.univ := Rect.biUnion_part hdiv7
theorem ents10_disjoint : ∀ n ∈ (Finset.univ : Finset (Fin 32)), ∀ n' ∈ (Finset.univ : Finset (Fin 32)), n ≠ n' → Disjoint (ents10 n) (ents10 n') :=
  fun _ _ _ _ h => Rect.part_disjoint hdiv10 h
theorem ents10_cover : (Finset.univ : Finset (Fin 32)).biUnion ents10 = Finset.univ := Rect.biUnion_part hdiv10

/-- Unit-stride rectangles at equal offsets and sizes are equal, whatever their in-bounds evidence. -/
theorem unit_eq {s : Shape} {off off' size size' : Fin s.rank → Nat} (ho : off = off') (hs : size = size')
    (p : ∀ a, off a + size a ≤ s.size a) (p' : ∀ a, off' a + size' a ≤ s.size a) :
    Rect.unit (s := s) off size p = Rect.unit off' size' p' := by
  subst ho; subst hs; rfl

/-- The first call's slice of the differences at tile `(c, i)`: offset `128 i + 64 c = 64 (2 i + c)`. -/
theorem rect_g7 (c : Fin 2) (i : Fin 16) :
    Rect.unit (s := S2048x128) (k1_off3 (coordsV1 c i)) S64x128.size (k1_off3_inb (coordsV1 c i))
      = Rect.part (s := S2048x128) (a₀ := 0) hdiv7 (tileNo c i) := by
  refine unit_eq ?_ ?_ _ _
  · rw [k1_off3_eq]; funext a
    match a with
    | 0 => simp [Shape.partIx, Shape.partSize, coordsV1]; omega
    | 1 => simp [Shape.partIx, Shape.partSize]
  · funext a
    match a with
    | 0 => simp [Shape.partSize]
    | 1 => simp [Shape.partSize]

/-- The second call's slice of the differences: the same rows. -/
theorem rect_d7 (c : Fin 2) (i : Fin 16) :
    Rect.unit (s := S2048x128) (k3_off2 (coordsV3 c i)) S64x128.size (k3_off2_inb (coordsV3 c i))
      = Rect.part (s := S2048x128) (a₀ := 0) hdiv7 (tileNo c i) := by
  refine unit_eq ?_ ?_ _ _
  · rw [k3_off2_eq]; funext a
    match a with
    | 0 => simp [Shape.partIx, Shape.partSize, coordsV3]; omega
    | 1 => simp [Shape.partIx, Shape.partSize]
  · funext a
    match a with
    | 0 => simp [Shape.partSize]
    | 1 => simp [Shape.partSize]

/-- The second call's slice of the result at tile `(c, i)`: offset `256 i + 128 c = 128 (2 i + c)`. -/
theorem rect_d10 (c : Fin 2) (i : Fin 16) :
    Rect.unit (s := S4096) (k3_off1 (coordsV3 c i)) S128.size (k3_off1_inb (coordsV3 c i))
      = Rect.part (s := S4096) (a₀ := 0) hdiv10 (tileNo c i) := by
  refine unit_eq ?_ ?_ _ _
  · rw [k3_off1_eq]; funext a
    match a with
    | 0 => simp [Shape.partIx, Shape.partSize, coordsV3]; omega
  · funext a
    match a with
    | 0 => simp [Shape.partSize]

/-- The element sets of the tiles' slices. -/
theorem set_g7 (c : Fin 2) (i : Fin 16) : (TileG.gpSl (coordsV1 c i)).view.set = rows7 (tileNo c i) := by
  show ((View.whole (main_v7_scv : Ref sig .scVector)).slice _).set = _
  rw [View.set_slice_whole, rect_g7]
theorem set_d7 (c : Fin 2) (i : Fin 16) : (TileDotDefs.gpSl (coordsV3 c i)).view.set = rows7 (tileNo c i) := by
  show ((View.whole (main_v7_scv : Ref sig .scVector)).slice _).set = _
  rw [View.set_slice_whole, rect_d7]
theorem set_d10 (c : Fin 2) (i : Fin 16) : (TileDotDefs.outSl (coordsV3 c i)).view.set = ents10 (tileNo c i) := by
  show ((View.whole (main_v10_scv : Ref sig .scVector)).slice _).set = _
  rw [View.set_slice_whole, rect_d10]

/-! ## The arrays' locations, as the TensorCore names them -/

abbrev ℓ6 (d : Dev nD) : Loc nD τ sig := (SparseCore.T d).loc main_v6
abbrev ℓ2 (d : Dev nD) : Loc nD τ sig := (SparseCore.T d).loc main_v2
abbrev ℓ4 (d : Dev nD) : Loc nD τ sig := (SparseCore.T d).loc main_v4
abbrev ℓ7 (d : Dev nD) : Loc nD τ sig := (SparseCore.T d).loc main_v7
abbrev ℓ9 (d : Dev nD) : Loc nD τ sig := (SparseCore.T d).loc main_v9
abbrev ℓ0 (d : Dev nD) : Loc nD τ sig := (SparseCore.T d).loc main_v0
abbrev ℓ10 (d : Dev nD) : Loc nD τ sig := (SparseCore.T d).loc main_v10

/-! ## The second SparseCore call -/

/-- Tile `(c, i)`'s task from its shares spelt at the TensorCore: the locations are the same from every thread, the
    slices' element sets are the parts. -/
theorem tile1 (d : Dev nD) (c : Fin 2) (i : Fin 16) (f9 : Buf (Elt F) (ℓ9 d)) (f0 : Buf (Elt F) (ℓ0 d))
    (f7 : Buf (Elt F) (ℓ7 d)) (hidx : ∀ j, 0 ≤ (f0 j).toInt ∧ (f0 j).toInt ≤ 99999) :
    iprop((ℓ9 d ↦{tileShare c i} f9) ∗ (ℓ0 d ↦{tileShare c i} f0)
        ∗ (ℓ7 d ↦[rows7 (tileNo c i)]{fullShare} f7) ∗ ∃ f, ℓ10 d ↦[ents10 (tileNo c i)]{fullShare} f)
      ⊢ (goDotP (F := F) d c i : sProp 𝕄) := by
  unfold goDotP TileDotDefs.goDot
  rw [set_d7, set_d10]
  iintro ⟨H9, H0, H7, %f, H10⟩
  iexists f9, f0, f7
  isplitr
  · ipureintro; exact hidx
  isplitl [H9]; · iexact H9
  isplitl [H0]; · iexact H0
  isplitl [H7]; · iexact H7
  iexists f; iexact H10

/-- A tile's task gives back its slice of the result. -/
theorem tile1_out (d : Dev nD) (c : Fin 2) (i : Fin 16) :
    (goDotP (F := F) d c i : sProp 𝕄) ⊢ iprop(∃ f, ℓ10 d ↦[ents10 (tileNo c i)]{fullShare} f) := by
  unfold goDotP TileDotDefs.goDot
  rw [set_d10]
  iintro ⟨%f9, %f0, %f7, -, -, -, -, %f, H10⟩
  iexists f; iexact H10

/-- An array held whole, as the 32 tiles' parts of it. -/
theorem pts7_parts (d : Dev nD) (q : PosShare TreeShare) (f : Buf (Elt F) (ℓ7 d)) :
    (ℓ7 d ↦{q} f : sProp 𝕄) = bigSep Finset.univ fun n : Fin 32 => ℓ7 d ↦[rows7 n]{q} f := by
  rw [← pointsTo_biUnion Finset.univ (ℓ := ℓ7 d) rows7 rows7_disjoint, rows7_cover]
theorem pts10_parts (d : Dev nD) (q : PosShare TreeShare) (f : Buf (Elt F) (ℓ10 d)) :
    (ℓ10 d ↦{q} f : sProp 𝕄) = bigSep Finset.univ fun n : Fin 32 => ℓ10 d ↦[ents10 n]{q} f := by
  rw [← pointsTo_biUnion Finset.univ (ℓ := ℓ10 d) ents10 ents10_disjoint, ents10_cover]

/-- An array held whole gives each of `n` readers a read token of it (the remainder is dropped). -/
theorem toks_of_whole {ℓ : Loc nD τ sig} (n : ℕ) (f : Buf (Elt F) ℓ) :
    (ℓ ↦{fullShare} f : sProp 𝕄) ⊢ bigSep Finset.univ fun k : Fin n => ℓ ↦{shareTok fullShare n k} f := by
  refine (pointsTo_toks_split fullShare n).trans ?_
  iintro ⟨-, H⟩; iexact H

theorem some10 (d : Dev nD) (n : Fin 32) (f : Buf (Elt F) (ℓ10 d)) :
    (ℓ10 d ↦[ents10 n]{fullShare} f : sProp 𝕄) ⊢ iprop(∃ f, ℓ10 d ↦[ents10 n]{fullShare} f) := by
  iintro H; iexists f; iexact H

/-- The result array held whole at some contents, as the 32 tiles' slices of it, each at some contents. -/
theorem out10_parts (d : Dev nD) :
    (iprop(∃ f, ℓ10 d ↦{fullShare} f) : sProp 𝕄) ⊢ bigSep Finset.univ fun n : Fin 32 => iprop(∃ f, ℓ10 d ↦[ents10 n]{fullShare} f) := by
  iintro ⟨%f, H⟩
  ihave H' := (Entails.of_eq (pts10_parts d fullShare f)) $$ H
  have hm : (bigSep Finset.univ fun n : Fin 32 => (ℓ10 d ↦[ents10 n]{fullShare} f : sProp 𝕄))
      ⊢ bigSep Finset.univ fun n : Fin 32 => iprop(∃ f, ℓ10 d ↦[ents10 n]{fullShare} f) :=
    bigSep_mono fun n _ => some10 d n f
  iapply hm; iexact H'

/-- The second call's arrays cut among the 32 tile numbers. -/
theorem split1_flat (d : Dev nD) (f9 : Buf (Elt F) (ℓ9 d)) (f0 : Buf (Elt F) (ℓ0 d)) (f7 : Buf (Elt F) (ℓ7 d)) :
    iprop((ℓ9 d ↦{fullShare} f9) ∗ (ℓ0 d ↦{fullShare} f0) ∗ (ℓ7 d ↦{fullShare} f7) ∗ ∃ f, ℓ10 d ↦{fullShare} f)
      ⊢ (bigSep Finset.univ fun n : Fin 32 =>
          iprop((ℓ9 d ↦{shareTok fullShare 32 n} f9) ∗ (ℓ0 d ↦{shareTok fullShare 32 n} f0)
            ∗ (ℓ7 d ↦[rows7 n]{fullShare} f7) ∗ ∃ f, ℓ10 d ↦[ents10 n]{fullShare} f) : sProp 𝕄) := by
  rw [bigSep_sep', bigSep_sep', bigSep_sep']
  iintro ⟨H9, H0, H7, H10⟩
  isplitl [H9]; · iapply (toks_of_whole 32 f9); iexact H9
  isplitl [H0]; · iapply (toks_of_whole 32 f0); iexact H0
  isplitl [H7]; · rw [← pts7_parts]; iexact H7
  iapply (out10_parts d); iexact H10

/-- The second call's arrays cut among the 32 tiles: read tokens of the packed user table and of the user indices,
    the differences' rows outright, the result's entries at some contents. -/
theorem split1 (d : Dev nD) (f9 : Buf (Elt F) (ℓ9 d)) (f0 : Buf (Elt F) (ℓ0 d)) (f7 : Buf (Elt F) (ℓ7 d))
    (hidx : ∀ j, 0 ≤ (f0 j).toInt ∧ (f0 j).toInt ≤ 99999) :
    iprop((ℓ9 d ↦{fullShare} f9) ∗ (ℓ0 d ↦{fullShare} f0) ∗ (ℓ7 d ↦{fullShare} f7) ∗ ∃ f, ℓ10 d ↦{fullShare} f)
      ⊢ (bigSep Finset.univ fun c : Fin 2 => bigSep Finset.univ fun i : Fin 16 => goDotP (F := F) d c i : sProp 𝕄) :=
  (split1_flat d f9 f0 f7).trans ((Entails.of_eq (bigSep_tiles _)).trans
    (bigSep_mono fun c _ => bigSep_mono fun i _ => tile1 d c i f9 f0 f7 hidx))

/-- The 32 result slices, each at some contents, are the result array whole at some contents. -/
theorem out10_join (d : Dev nD) :
    (bigSep Finset.univ fun n : Fin 32 => iprop(∃ f, ℓ10 d ↦[ents10 n]{fullShare} f)) ⊢ (iprop(∃ f, ℓ10 d ↦{fullShare} f) : sProp 𝕄) := by
  refine (bigSep_exists_pi Finset.univ (fun (n : Fin 32) (f : Buf (Elt F) (ℓ10 d)) => (ℓ10 d ↦[ents10 n]{fullShare} f : sProp 𝕄))).trans ?_
  iintro ⟨%fs, H⟩
  ihave H' := (pointsTo_biUnion_join Finset.univ ents10 fs (fs 0) ents10_disjoint) $$ H
  icases H' with ⟨%g, -, Hg⟩
  rw [ents10_cover]
  iexists g; iexact Hg

/-- After the second call: the tiles' tasks give back the result array whole, at some contents. -/
theorem join1 (d : Dev nD) :
    (bigSep Finset.univ fun c : Fin 2 => bigSep Finset.univ fun i : Fin 16 => goDotP (F := F) d c i)
      ⊢ (iprop(∃ f, ℓ10 d ↦{fullShare} f) : sProp 𝕄) :=
  (bigSep_mono fun c _ => bigSep_mono fun i _ => tile1_out d c i).trans
    ((Entails.of_eq (bigSep_tiles fun n : Fin 32 => iprop(∃ f, ℓ10 d ↦[ents10 n]{fullShare} f)).symm).trans (out10_join d))

/-! ## The first SparseCore call -/

/-- Tile `(c, i)`'s task from its shares spelt at the TensorCore. -/
theorem tile0 (d : Dev nD) (c : Fin 2) (i : Fin 16) (f6 : Buf (Elt F) (ℓ6 d)) (f2 : Buf (Elt F) (ℓ2 d)) (f4 : Buf (Elt F) (ℓ4 d))
    (hidx2 : ∀ j, 0 ≤ (f2 j).toInt ∧ (f2 j).toInt ≤ 99999) (hidx4 : ∀ j, 0 ≤ (f4 j).toInt ∧ (f4 j).toInt ≤ 99999) :
    iprop(((ℓ6 d ↦{tileShareA c i} f6) ∗ (ℓ6 d ↦{tileShareB c i} f6)) ∗ (ℓ2 d ↦{tileShare c i} f2) ∗ (ℓ4 d ↦{tileShare c i} f4)
        ∗ ∃ f, ℓ7 d ↦[rows7 (tileNo c i)]{fullShare} f)
      ⊢ (goGP (F := F) d c i : sProp 𝕄) := by
  unfold goGP TileG.goG
  rw [set_g7]
  iintro ⟨⟨H6a, H6b⟩, H2, H4, %f, H7⟩
  iexists f6, f2, f4
  isplitr
  · ipureintro; exact ⟨hidx2, hidx4⟩
  isplitl [H6a]; · iexact H6a
  isplitl [H6b]; · iexact H6b
  isplitl [H2]; · iexact H2
  isplitl [H4]; · iexact H4
  iexists f; iexact H7

/-- A tile's task gives back its rows of the differences. -/
theorem tile0_out (d : Dev nD) (c : Fin 2) (i : Fin 16) :
    (goGP (F := F) d c i : sProp 𝕄) ⊢ iprop(∃ f, ℓ7 d ↦[rows7 (tileNo c i)]{fullShare} f) := by
  unfold goGP TileG.goG
  rw [set_g7]
  iintro ⟨%f6, %f2, %f4, -, -, -, -, -, %f, H7⟩
  iexists f; iexact H7

theorem some7 (d : Dev nD) (n : Fin 32) (f : Buf (Elt F) (ℓ7 d)) :
    (ℓ7 d ↦[rows7 n]{fullShare} f : sProp 𝕄) ⊢ iprop(∃ f, ℓ7 d ↦[rows7 n]{fullShare} f) := by
  iintro H; iexists f; iexact H

/-- The array of differences held whole at some contents, as the 32 tiles' rows of it, each at some contents. -/
theorem out7_parts (d : Dev nD) :
    (iprop(∃ f, ℓ7 d ↦{fullShare} f) : sProp 𝕄) ⊢ bigSep Finset.univ fun n : Fin 32 => iprop(∃ f, ℓ7 d ↦[rows7 n]{fullShare} f) := by
  iintro ⟨%f, H⟩
  ihave H' := (Entails.of_eq (pts7_parts d fullShare f)) $$ H
  have hm : (bigSep Finset.univ fun n : Fin 32 => (ℓ7 d ↦[rows7 n]{fullShare} f : sProp 𝕄))
      ⊢ bigSep Finset.univ fun n : Fin 32 => iprop(∃ f, ℓ7 d ↦[rows7 n]{fullShare} f) :=
    bigSep_mono fun n _ => some7 d n f
  iapply hm; iexact H'

/-- The packed item table held whole gives each tile two read tokens of it: tile `n` the tokens `2 n` and `2 n + 1` of 64. -/
theorem toks6_pairs (d : Dev nD) (f6 : Buf (Elt F) (ℓ6 d)) :
    (ℓ6 d ↦{fullShare} f6 : sProp 𝕄) ⊢ bigSep Finset.univ fun n : Fin 32 =>
      iprop((ℓ6 d ↦{shareTok fullShare 64 ⟨2 * n.val, by have := n.isLt; omega⟩} f6)
        ∗ (ℓ6 d ↦{shareTok fullShare 64 ⟨2 * n.val + 1, by have := n.isLt; omega⟩} f6)) :=
  (toks_of_whole 64 f6).trans (Entails.of_eq (bigSep_halves fun k : Fin 64 => (ℓ6 d ↦{shareTok fullShare 64 k} f6 : sProp 𝕄)))

/-- The first call's arrays cut among the 32 tile numbers. -/
theorem split0_flat (d : Dev nD) (f6 : Buf (Elt F) (ℓ6 d)) (f2 : Buf (Elt F) (ℓ2 d)) (f4 : Buf (Elt F) (ℓ4 d)) :
    iprop((ℓ6 d ↦{fullShare} f6) ∗ (ℓ2 d ↦{fullShare} f2) ∗ (ℓ4 d ↦{fullShare} f4) ∗ ∃ f, ℓ7 d ↦{fullShare} f)
      ⊢ (bigSep Finset.univ fun n : Fin 32 =>
          iprop(((ℓ6 d ↦{shareTok fullShare 64 ⟨2 * n.val, by have := n.isLt; omega⟩} f6)
              ∗ (ℓ6 d ↦{shareTok fullShare 64 ⟨2 * n.val + 1, by have := n.isLt; omega⟩} f6))
            ∗ (ℓ2 d ↦{shareTok fullShare 32 n} f2) ∗ (ℓ4 d ↦{shareTok fullShare 32 n} f4)
            ∗ ∃ f, ℓ7 d ↦[rows7 n]{fullShare} f) : sProp 𝕄) := by
  rw [bigSep_sep', bigSep_sep', bigSep_sep', bigSep_sep']
  iintro ⟨H6, H2, H4, H7⟩
  isplitl [H6]; · rw [← bigSep_sep']; iapply (toks6_pairs d f6); iexact H6
  isplitl [H2]; · iapply (toks_of_whole 32 f2); iexact H2
  isplitl [H4]; · iapply (toks_of_whole 32 f4); iexact H4
  iapply (out7_parts d); iexact H7

/-- The first call's arrays cut among the 32 tiles: two read tokens each of the packed item table, a read token of each
    item index array, the differences' rows at some contents. -/
theorem split0 (d : Dev nD) (f6 : Buf (Elt F) (ℓ6 d)) (f2 : Buf (Elt F) (ℓ2 d)) (f4 : Buf (Elt F) (ℓ4 d))
    (hidx2 : ∀ j, 0 ≤ (f2 j).toInt ∧ (f2 j).toInt ≤ 99999) (hidx4 : ∀ j, 0 ≤ (f4 j).toInt ∧ (f4 j).toInt ≤ 99999) :
    iprop((ℓ6 d ↦{fullShare} f6) ∗ (ℓ2 d ↦{fullShare} f2) ∗ (ℓ4 d ↦{fullShare} f4) ∗ ∃ f, ℓ7 d ↦{fullShare} f)
      ⊢ (bigSep Finset.univ fun c : Fin 2 => bigSep Finset.univ fun i : Fin 16 => goGP (F := F) d c i : sProp 𝕄) :=
  (split0_flat d f6 f2 f4).trans ((Entails.of_eq (bigSep_tiles _)).trans
    (bigSep_mono fun c _ => bigSep_mono fun i _ => tile0 d c i f6 f2 f4 hidx2 hidx4))

/-- The 32 tiles' rows of the differences, each at some contents, are the array whole at some contents. -/
theorem out7_join (d : Dev nD) :
    (bigSep Finset.univ fun n : Fin 32 => iprop(∃ f, ℓ7 d ↦[rows7 n]{fullShare} f)) ⊢ (iprop(∃ f, ℓ7 d ↦{fullShare} f) : sProp 𝕄) := by
  refine (bigSep_exists_pi Finset.univ (fun (n : Fin 32) (f : Buf (Elt F) (ℓ7 d)) => (ℓ7 d ↦[rows7 n]{fullShare} f : sProp 𝕄))).trans ?_
  iintro ⟨%fs, H⟩
  ihave H' := (pointsTo_biUnion_join Finset.univ rows7 fs (fs 0) rows7_disjoint) $$ H
  icases H' with ⟨%g, -, Hg⟩
  rw [rows7_cover]
  iexists g; iexact Hg

/-- After the first call: the tiles' tasks give back the array of differences whole, at some contents. -/
theorem join0 (d : Dev nD) :
    (bigSep Finset.univ fun c : Fin 2 => bigSep Finset.univ fun i : Fin 16 => goGP (F := F) d c i)
      ⊢ (iprop(∃ f, ℓ7 d ↦{fullShare} f) : sProp 𝕄) :=
  (bigSep_mono fun c _ => bigSep_mono fun i _ => tile0_out d c i).trans
    ((Entails.of_eq (bigSep_tiles fun n : Fin 32 => iprop(∃ f, ℓ7 d ↦[rows7 n]{fullShare} f)).symm).trans (out7_join d))

end Cert.Kernel.LaunchSplit

end
-- ==== Proof.HostGlueK.lean ====
/-
  THE KERNEL PROGRAM'S HOST LINES, READ AT AN INDEX. Between its kernels the program only moves words: it flattens the
  users' index column, slices the items' index table into its two columns and flattens each, transposes each feature
  table, reshapes the flat score array into a block (read in the module of the loss value) and reads the one-element
  result as a scalar. Each is stated for values of any type — no arithmetic is involved — and with its shape fact a
  variable, so that it applies whichever proof of the fact the program's line cites.
-/
import proofs.«203895_g52347061404180_cont_8to1_c_859_34_alg».proof.Kernel
import Idealize.ShloMosaic.Lib.ValueIdx
import Idealize.ShloMosaic.Lib.Pipeline.Value
import Idealize.ShloMosaic.Lib.ValueLayout

noncomputable section

namespace Cert.Kernel.HostGlue

open Cert.Kernel Idealize.ShloMosaic Idealize.ShloMosaic.ValueIdx

variable {α : Type}

/-- (a) The users' index column `[4096, 1]` flattened to `[4096]`: entry `b` is the column's entry `(b, 0)`. -/
theorem users_flat (u : S4096x1.Idx → α) (h : S4096x1.ShapeCasts S4096) (b : Fin 4096) :
    shapeCast S4096 u h (ix1 b) = u (ix2 b (0 : Fin 1)) := by
  refine shapeCast_apply u h (ix1 b) (ix2 b (0 : Fin 1)) ?_
  rw [Shape.rowMajor_val_two, Shape.rowMajor_val_one]
  show b.val * 1 + 0 = b.val
  omega

/-- A column slice `[0:4096, c:c+1]` of the items' index table read at `(b, 0)`: the table's entry `(b, c)`. -/
theorem column_apply (items : S4096x2.Idx → α) (c : Fin 2) (hs : S4096x2.Slices ![0, c.val] S4096x1) (b : Fin 4096)
    (z : Fin 1) : extractStridedSlice S4096x1 ![0, c.val] items hs (ix2 b z) = items (ix2 b c) := by
  refine extractStridedSlice_apply _ items hs (ix2 b z) (ix2 b c) fun a => ?_
  have hz : z.val = 0 := by omega
  match a with
  | ⟨0, _⟩ => show b.val = 0 + b.val; omega
  | ⟨1, _⟩ => show c.val = c.val + z.val; omega

/-- (b) The positive items' indices: column 0 of the table, flattened; entry `b` is the table's entry `(b, 0)`. -/
theorem pos_flat (items : S4096x2.Idx → α) (hs : S4096x2.Slices ![0, 0] S4096x1) (h : S4096x1.ShapeCasts S4096)
    (b : Fin 4096) :
    shapeCast S4096 (extractStridedSlice S4096x1 ![0, 0] items hs) h (ix1 b) = items (ix2 b (0 : Fin 2)) :=
  (users_flat _ h b).trans (column_apply items (0 : Fin 2) hs b 0)

/-- (b) The negative items' indices: column 1 of the table, flattened; entry `b` is the table's entry `(b, 1)`. -/
theorem neg_flat (items : S4096x2.Idx → α) (hs : S4096x2.Slices ![0, 1] S4096x1) (h : S4096x1.ShapeCasts S4096)
    (b : Fin 4096) :
    shapeCast S4096 (extractStridedSlice S4096x1 ![0, 1] items hs) h (ix1 b) = items (ix2 b (1 : Fin 2)) :=
  (users_flat _ h b).trans (column_apply items (1 : Fin 2) hs b 0)

/-- (c) A feature table transposed to `[64, 100000]`: its entry `(k, r)` is the table's entry `(r, k)`. -/
theorem transposed_apply (t : S100000x64.Idx → α) (h : S100000x64.Transposes [1, 0] S64x100000) (k : Fin 64)
    (r : Fin 100000) : transpose S64x100000 [1, 0] t h (ix2 k r) = t (ix2 r k) := by
  refine transpose_apply [1, 0] t h (ix2 k r) (ix2 r k) fun b => ?_
  match b with
  | ⟨0, _⟩ => rfl
  | ⟨1, _⟩ => rfl

/-- (d) The one-element `[1, 1]` result read as a scalar: its entry `(0, 0)`. -/
theorem scalar_of_unit (x : S1x1.Idx → α) (h : S1x1.ShapeCasts S_) (j : S_.Idx) :
    shapeCast S_ x h j = x (ix2 (0 : Fin 1) (0 : Fin 1)) := by
  refine shapeCast_apply x h j (ix2 (0 : Fin 1) (0 : Fin 1)) ?_
  rw [Shape.rowMajor_val_two]
  have hj : (S_.rowMajor j).val < 1 := (S_.rowMajor j).isLt
  show 0 * 1 + 0 = (S_.rowMajor j).val
  omega

end Cert.Kernel.HostGlue

end
-- ==== Proof.FlatRangeK.lean ====
/-
  THE INDEX ARRAYS THE SPARSECORE CALLS READ NAME TABLE ROWS. The program's first host lines flatten the users' index
  column and the two columns of the items' index table; the input domain says every index word of the two argument
  arrays is in [0, 99999] as a signed word. Moving words keeps them: the three flattened arrays hold words in that
  range. The integer half of the input domain is read back whatever the float type (the two conjuncts on the feature
  tables are not needed here and are dropped).
-/
import proofs.«203895_g52347061404180_cont_8to1_c_859_34_alg».proof.Proof.MainTCK
import proofs.«203895_g52347061404180_cont_8to1_c_859_34_alg».proof.Pre_input_domain
import proofs.«203895_g52347061404180_cont_8to1_c_859_34_alg».proof.Proof.Gen.Pre_input_domain
import proofs.«203895_g52347061404180_cont_8to1_c_859_34_alg».proof.Proof.HostGlueK
import Idealize.ShloMosaic.Lib.ReduceAll
import Idealize.ShloMosaic.Lib.ValueIdx
import Idealize.ShloMosaic.Lib.StableHlo.Run

noncomputable section

namespace Cert.Kernel.FlatRange

open Cert.Kernel Cert.Kernel.Gen Cert.Kernel.MainTC
open Idealize.ShloMosaic Idealize.ShloMosaic.ValueIdx

variable {F : FTy → Type} [FloatOps F]

/-! ## The integer half of the input domain, whatever the float type -/

/-- The scalar shape has one index. -/
instance : Subsingleton Cert.Pre_input_domain.S_.Idx := ⟨fun a b => funext fun d => d.elim0⟩

theorem toInt_zero32 : (0#32 : BitVec 32).toInt = 0 := by decide
theorem toInt_99999 : (99999#32 : BitVec 32).toInt = 99999 := by decide

/-- An index word that passes the two signed comparisons is in `[0, 99999]`. -/
theorem range_of_cmp (w : BitVec 32)
    (h : IntOp.andi (IntOp.cmpi .sge w 0#32) (IntOp.cmpi .sle w 99999#32) = 1#1) : 0 ≤ w.toInt ∧ w.toInt ≤ 99999 := by
  obtain ⟨h0, h1⟩ := IntOp.andi_eq_one.mp h
  have a := IntOp.cmpi_sge.mp h0
  have b := IntOp.cmpi_sle.mp h1
  rw [toInt_zero32] at a
  rw [toInt_99999] at b
  exact ⟨a, b⟩

/-- Where the printed predicate is true, every user and item index word is in `[0, 99999]` (signed). -/
theorem int_facts [Cert.Pre_input_domain.Facts] (users : IVec Cert.Pre_input_domain.S4096x1 32) (items : IVec Cert.Pre_input_domain.S4096x2 32)
    (uf itf : FVec F Cert.Pre_input_domain.S100000x64 .f32)
    (h : Cert.Pre_input_domain.fn (F := F) users items uf itf = (fun _ => 1#1)) :
    (∀ i, 0 ≤ (users i).toInt ∧ (users i).toInt ≤ 99999) ∧ (∀ i, 0 ≤ (items i).toInt ∧ (items i).toInt ≤ 99999) := by
  have h0 := congrFun h ix0
  dsimp only [Cert.Pre_input_domain.fn, Cert.Pre_input_domain.fn_part1] at h0
  obtain ⟨h15, h21⟩ := IntOp.andi_eq_one.mp h0
  obtain ⟨h8, h14⟩ := IntOp.andi_eq_one.mp h15
  exact ⟨fun i => range_of_cmp (users i) (Host.reduce_andi_all _ _ _ _ _ h14 i),
    fun i => range_of_cmp (items i) (Host.reduce_andi_all _ _ _ _ _ h21 i)⟩

/-! ## The flattened arrays after the first host lines -/

section Flat

variable (m : (ℓ : Loc nD τ sig) → Buf (Elt F) ℓ)

set_option backward.isDefEq.respectTransparency.types false in
/-- The flattened users' indices: the users' column reshaped. -/
theorem W1_v0 (d : Dev nD) : W1 (F := F) m d (Proc.devRef .tc main_v0)
    = shapeCast S4096 (m (d, Proc.devRef .tc main_arg0)) shapeCasts_S4096x1_S4096 := by
  unfold W1 opsA
  after_results
  rfl

set_option backward.isDefEq.respectTransparency.types false in
/-- The flattened positive items' indices: column 0 of the items' table, reshaped. -/
theorem W1_v2 (d : Dev nD) : W1 (F := F) m d (Proc.devRef .tc main_v2)
    = shapeCast S4096 (extractStridedSlice S4096x1 ![0, 0] (m (d, Proc.devRef .tc main_arg1)) slices_S4096x2_S4096x1_0_0) shapeCasts_S4096x1_S4096 := by
  unfold W1 opsA
  after_results
  rfl

set_option backward.isDefEq.respectTransparency.types false in
/-- The flattened negative items' indices: column 1 of the items' table, reshaped. -/
theorem W1_v4 (d : Dev nD) : W1 (F := F) m d (Proc.devRef .tc main_v4)
    = shapeCast S4096 (extractStridedSlice S4096x1 ![0, 1] (m (d, Proc.devRef .tc main_arg1)) slices_S4096x2_S4096x1_0_1) shapeCasts_S4096x1_S4096 := by
  unfold W1 opsA
  after_results
  rfl

/-- A flat array whose every entry is in range is in range. -/
theorem range_flat (u : S4096.Idx → BitVec 32) (h : ∀ b : Fin 4096, 0 ≤ (u (ix1 b)).toInt ∧ (u (ix1 b)).toInt ≤ 99999) :
    InRange u := fun j => by rw [eq_ix1 j]; exact h _

/-- THE THREE FLATTENED INDEX ARRAYS HOLD TABLE ROWS' NAMES, on every device, under the input domain. -/
theorem flat_ranges [Cert.Pre_input_domain.Facts]
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) = (fun _ => 1#1)) (d : Dev nD) :
    InRange (W1 (F := F) m d (Proc.devRef .tc main_v2)) ∧ InRange (W1 (F := F) m d (Proc.devRef .tc main_v4))
      ∧ InRange (W1 (F := F) m d (Proc.devRef .tc main_v0)) := by
  obtain ⟨hu, hi⟩ := int_facts (F := F) _ _ _ _ (hpre d)
  refine ⟨?_, ?_, ?_⟩
  · rw [W1_v2]; exact range_flat _ fun b => by rw [HostGlue.pos_flat]; exact hi _
  · rw [W1_v4]; exact range_flat _ fun b => by rw [HostGlue.neg_flat]; exact hi _
  · rw [W1_v0]; exact range_flat _ fun b => by rw [HostGlue.users_flat]; exact hu _

end Flat

end Cert.Kernel.FlatRange

end
-- ==== Proof.KernelFrameK.lean ====
/-
  The kernel program's frame from its parts.

  Every weakly fair execution of the device's threads terminates, faults nowhere and leaves the four argument arrays
  unchanged — by the launch theorem for a program with SparseCore calls, from: the two tile bodies (each at any grid
  point, any read shares, any contents whose index words name table rows), the identity splits of a SparseCore's operands
  among its tiles, the launch element (the handshakes' cells, the three pipelines' staging cells), @main on the TensorCore
  (with the cuts of the arrays into the tiles' payloads at the two SparseCore calls, and the index arrays' ranges, which
  the precondition gives), and the reading of the final memory. Stated at any float instance: the word-level program's
  frame is the same proof over the other printed text.
-/
import proofs.«203895_g52347061404180_cont_8to1_c_859_34_alg».proof.Proof.LaunchApplyK
import proofs.«203895_g52347061404180_cont_8to1_c_859_34_alg».proof.Proof.LaunchOblK
import proofs.«203895_g52347061404180_cont_8to1_c_859_34_alg».proof.Proof.MainTCK
import proofs.«203895_g52347061404180_cont_8to1_c_859_34_alg».proof.Proof.LaunchSplitK
import proofs.«203895_g52347061404180_cont_8to1_c_859_34_alg».proof.Proof.FlatRangeK

noncomputable section

namespace Cert.Kernel.KernelFrame

open Cert.Kernel Cert.Kernel.Gen Cert.Kernel.KCommon Cert.Kernel.LaunchPay
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- The claim's post: the arguments unchanged. -/
def QC (m : (ℓ : Loc nD τ sig) → Buf (Elt F) ℓ) : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

theorem frame_run [∀ e, Nonempty (Elt F e)]
    (hG : LaunchObl.BodyG (F := F)) (hDot : LaunchObl.BodyDot (F := F))
    (m : (ℓ : Loc nD τ sig) → Buf (Elt F) ℓ) (g : Dev nD → PrngReg)
    (hsplit0 : ∀ (d : Dev nD) (f6 : Vec F S50176x128 .f32) (f2 f4 : IVec S4096 32), MainTC.InRange f2 → MainTC.InRange f4 →
      iprop(((d.tc : Thread nD τ).loc main_v6 ↦{fullShare} f6) ∗ ((d.tc : Thread nD τ).loc main_v2 ↦{fullShare} f2)
        ∗ ((d.tc : Thread nD τ).loc main_v4 ↦{fullShare} f4) ∗ ∃ f, (d.tc : Thread nD τ).loc main_v7 ↦{fullShare} f)
        ⊢ (bigSep Finset.univ fun c : Fin ((K (F := F)).nCore 0) => (P (F := F)).st 0 d c : sProp 𝕄))
    (hjoin0 : ∀ d : Dev nD, (bigSep Finset.univ fun c : Fin ((K (F := F)).nCore 0) => (P (F := F)).dn 0 d c : sProp 𝕄)
        ⊢ iprop(∃ f, (d.tc : Thread nD τ).loc main_v7 ↦{fullShare} f))
    (hsplit1 : ∀ (d : Dev nD) (f9 : Vec F S50176x128 .f32) (f0 : IVec S4096 32) (f7 : Vec F S2048x128 .f32), MainTC.InRange f0 →
      iprop(((d.tc : Thread nD τ).loc main_v9 ↦{fullShare} f9) ∗ ((d.tc : Thread nD τ).loc main_v0 ↦{fullShare} f0)
        ∗ ((d.tc : Thread nD τ).loc main_v7 ↦{fullShare} f7) ∗ ∃ f, (d.tc : Thread nD τ).loc main_v10 ↦{fullShare} f)
        ⊢ (bigSep Finset.univ fun c : Fin ((K (F := F)).nCore 1) => (P (F := F)).st 1 d c : sProp 𝕄))
    (hjoin1 : ∀ d : Dev nD, (bigSep Finset.univ fun c : Fin ((K (F := F)).nCore 1) => (P (F := F)).dn 1 d c : sProp 𝕄)
        ⊢ iprop(∃ f, (d.tc : Thread nD τ).loc main_v10 ↦{fullShare} f))
    (hr2 : ∀ d, MainTC.InRange (MainTC.W1 (F := F) m d (Proc.devRef .tc main_v2)))
    (hr4 : ∀ d, MainTC.InRange (MainTC.W1 (F := F) m d (Proc.devRef .tc main_v4)))
    (hr0 : ∀ d, MainTC.InRange (MainTC.W1 (F := F) m d (Proc.devRef .tc main_v0))) :
    θ_run (Cert.Kernel.defs (F := F)) (Cert.Kernel.threads (F := F)) ⟨m, fun _ => 0, g⟩ (QC (F := F) m) :=
  LaunchApply.run_of (F := F) (P (F := F)) rfl
    (fun q => match q with | 0 => LaunchObl.tileObl0 (F := F) hG | 1 => LaunchObl.tileObl1 (F := F) hDot)
    (fun q => SparseCore.Cfg.VecSplit.of_plain (vecSplit (F := F) q))
    m g (LaunchElem.G (F := F)) (LaunchFin.FIN (F := F) m (fun _ _ => True)) (LaunchElem.u₀ (F := F)) (LaunchElem.hu₀ (F := F))
    (MainTC.hmain (F := F) m g hsplit0 hjoin0 hsplit1 hjoin1 hr2 hr4 hr0)
    (LaunchFin.fq (F := F) m (fun _ _ => True)) (LaunchFin.hfin (F := F) m (fun _ _ => True))
    (QC (F := F) m) (fun s' h c => (h c).2)

set_option maxHeartbeats 4000000 in
/-- A call's operands for its SparseCores are the 32 tiles' payloads. -/
theorem st0_eq (d : Dev nD) : (bigSep Finset.univ fun c : Fin ((K (F := F)).nCore 0) => (P (F := F)).st 0 d c : sProp 𝕄)
    = bigSep Finset.univ fun c : Fin 2 => bigSep Finset.univ fun i : Fin 16 => goGP (F := F) d c i := rfl
set_option maxHeartbeats 4000000 in
theorem st1_eq (d : Dev nD) : (bigSep Finset.univ fun c : Fin ((K (F := F)).nCore 1) => (P (F := F)).st 1 d c : sProp 𝕄)
    = bigSep Finset.univ fun c : Fin 2 => bigSep Finset.univ fun i : Fin 16 => goDotP (F := F) d c i := rfl
set_option maxHeartbeats 4000000 in
theorem dn0_eq (d : Dev nD) : (bigSep Finset.univ fun c : Fin ((K (F := F)).nCore 0) => (P (F := F)).dn 0 d c : sProp 𝕄)
    = bigSep Finset.univ fun c : Fin 2 => bigSep Finset.univ fun i : Fin 16 => goGP (F := F) d c i := rfl
set_option maxHeartbeats 4000000 in
theorem dn1_eq (d : Dev nD) : (bigSep Finset.univ fun c : Fin ((K (F := F)).nCore 1) => (P (F := F)).dn 1 d c : sProp 𝕄)
    = bigSep Finset.univ fun c : Fin 2 => bigSep Finset.univ fun i : Fin 16 => goDotP (F := F) d c i := rfl

set_option maxHeartbeats 4000000 in
/-- The same with the cuts of the arrays supplied: what is left are the two tile bodies and the index arrays' ranges. -/
theorem frame_run' [∀ e, Nonempty (Elt F e)]
    (hG : LaunchObl.BodyG (F := F)) (hDot : LaunchObl.BodyDot (F := F))
    (m : (ℓ : Loc nD τ sig) → Buf (Elt F) ℓ) (g : Dev nD → PrngReg)
    (hr2 : ∀ d, MainTC.InRange (MainTC.W1 (F := F) m d (Proc.devRef .tc main_v2)))
    (hr4 : ∀ d, MainTC.InRange (MainTC.W1 (F := F) m d (Proc.devRef .tc main_v4)))
    (hr0 : ∀ d, MainTC.InRange (MainTC.W1 (F := F) m d (Proc.devRef .tc main_v0))) :
    θ_run (Cert.Kernel.defs (F := F)) (Cert.Kernel.threads (F := F)) ⟨m, fun _ => 0, g⟩ (QC (F := F) m) :=
  frame_run (F := F) hG hDot m g
    (fun d f6 f2 f4 h2 h4 => (LaunchSplit.split0 (F := F) d f6 f2 f4 h2 h4).trans (Entails.of_eq (st0_eq (F := F) d).symm))
    (fun d => (Entails.of_eq (dn0_eq (F := F) d)).trans (LaunchSplit.join0 (F := F) d))
    (fun d f9 f0 f7 h0 => (LaunchSplit.split1 (F := F) d f9 f0 f7 h0).trans (Entails.of_eq (st1_eq (F := F) d).symm))
    (fun d => (Entails.of_eq (dn1_eq (F := F) d)).trans (LaunchSplit.join1 (F := F) d))
    hr2 hr4 hr0

/-- THE FRAME from the two tile bodies: under the precondition (which puts the index words in range) every weakly fair
    execution of the device's threads terminates, faults nowhere and leaves the arguments unchanged. -/
theorem frame_of_bodies [∀ e, Nonempty (Elt F e)] [Cert.Pre_input_domain.Facts]
    (hG : LaunchObl.BodyG (F := F)) (hDot : LaunchObl.BodyDot (F := F))
    (m : (ℓ : Loc nD τ sig) → Buf (Elt F) ℓ) (g : Dev nD → PrngReg)
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) = (fun _ => 1#1)) :
    θ_run (Cert.Kernel.defs (F := F)) (Cert.Kernel.threads (F := F)) ⟨m, fun _ => 0, g⟩ (QC (F := F) m) :=
  frame_run' (F := F) hG hDot m g
    (fun d => (FlatRange.flat_ranges (F := F) m hpre d).1)
    (fun d => (FlatRange.flat_ranges (F := F) m hpre d).2.1)
    (fun d => (FlatRange.flat_ranges (F := F) m hpre d).2.2)

end Cert.Kernel.KernelFrame

end
-- ==== Proof.LibSkewVec.lean ====
/-
  The index vectors of a 16-lane vector unit that walks 128 rows of 128 (or 64 packed rows of 128) entries with skewed
  columns, lane by lane, as numbers.

  Lane `x` (`0 ≤ x < 16`) of group `g` (`0 ≤ g < 8`) addresses row `16 g + x`, or its half `(16 g + x) / 2` in the
  packed block, where the parity `x mod 2` chooses the half `(x mod 2)·64` of the 128 columns. Its column starts from its
  own offset `s x = (9 x) mod 64` and at step `k` is `half + (s x + k) mod 64`, the half being `0` or `64`: by the row's
  parity in the packed block, by a test of the loaded index word (`50176 ≤ word`) in the row block. All of it is
  computed in 32-bit words by elementwise operations on vectors built from the lane sequence. Here each vector is
  named in the operations' own spelling, read at a lane as a number, and bounded: the pairs (row vector, column vector)
  address inside their blocks, the sixteen lanes' packed targets are pairwise distinct, and the index word repacked
  below `50176` is the word minus `50176` exactly when the test holds.
-/
import Idealize.ShloMosaic.PureOps
import Idealize.ShloMosaic.Lib.ValueIdx
import Idealize.ShloMosaic.Lib.Affine
import proofs.«203895_g52347061404180_cont_8to1_c_859_34_alg».proof.Proof.LibSkew

namespace Cert.LibSkewVec

open Idealize.ShloMosaic Idealize.ShloMosaic.ValueIdx

/-- One vector register of sixteen lanes. -/
abbrev S16 : Shape := ⟨1, ![16]⟩
/-- A block of 128 rows of 128 entries. -/
abbrev S128x128 : Shape := ⟨2, ![128, 128]⟩
/-- A packed block of 64 rows of 128 entries. -/
abbrev S64x128 : Shape := ⟨2, ![64, 128]⟩

/-- A lane's number is below sixteen. -/
theorem lane_lt (x : S16.Idx) : (x 0).val < 16 := (x 0).isLt

/-- Two lanes with one number are one lane. -/
theorem lane_ext {x y : S16.Idx} (h : (x 0).val = (y 0).val) : x = y := by
  funext d
  match d with
  | ⟨0, _⟩ => exact Fin.ext h

variable (hI : S16.Iotas .scVector 32 [0])

/-! ## The vectors, in the operations' spelling -/

/-- The lane sequence `[0, 1, …, 15]`. -/
def lane : IVec S16 32 := iota .scVector S16 32 [0] hI
/-- `lane` unfolded. -/
theorem lane_def : lane hI = iota .scVector S16 32 [0] hI := rfl

/-- Each lane's column offset: `9·lane`, masked with `63`. -/
def skew : IVec S16 32 := andi (muli (lane hI) (broadcast S16 9#32)) (broadcast S16 63#32)
/-- `skew` unfolded. -/
theorem skew_def : skew hI = andi (muli (lane hI) (broadcast S16 9#32)) (broadcast S16 63#32) := rfl

/-- The packed block's column base: the lane's parity times `64`, plus its offset. -/
def gbase : IVec S16 32 := addi (muli (andi (lane hI) (broadcast S16 1#32)) (broadcast S16 64#32)) (skew hI)
/-- `gbase` unfolded. -/
theorem gbase_def : gbase hI = addi (muli (andi (lane hI) (broadcast S16 1#32)) (broadcast S16 64#32)) (skew hI) := rfl

/-- The rows of group `g`: `16·g` splat, plus the lane. -/
def rows (g : BitVec 32) : IVec S16 32 := addi (broadcast S16 (Scalar.muli g 16#32)) (lane hI)
/-- `rows` unfolded. -/
theorem rows_def (g : BitVec 32) : rows hI g = addi (broadcast S16 (Scalar.muli g 16#32)) (lane hI) := rfl

/-- Their halves: the arithmetic shift right by one. -/
def grows (g : BitVec 32) : IVec S16 32 := shrsi (rows hI g) (broadcast S16 1#32)
/-- `grows` unfolded. -/
theorem grows_def (g : BitVec 32) : grows hI g = shrsi (rows hI g) (broadcast S16 1#32) := rfl

/-- Which half of a 128-wide row a loaded index word selects: `64` where the word is at least `50176` (signed), else `0`. -/
def sel (raw : IVec S16 32) : IVec S16 32 :=
  select (cmpi .sge raw (broadcast S16 50176#32)) (broadcast S16 64#32) (broadcast S16 0#32)
/-- `sel` unfolded. -/
theorem sel_def (raw : IVec S16 32) :
    sel raw = select (cmpi .sge raw (broadcast S16 50176#32)) (broadcast S16 64#32) (broadcast S16 0#32) := rfl

/-- The row block's column base: the selected half plus the lane's offset. -/
def base (raw : IVec S16 32) : IVec S16 32 := addi (sel raw) (skew hI)
/-- `base` unfolded. -/
theorem base_def (raw : IVec S16 32) : base hI raw = addi (sel raw) (skew hI) := rfl

/-- Step `k`'s column relative to the base: `((offset + k) masked with 63) - offset`. -/
def coff (k : BitVec 32) : IVec S16 32 :=
  subi (andi (addi (skew hI) (broadcast S16 k)) (broadcast S16 63#32)) (skew hI)
/-- `coff` unfolded. -/
theorem coff_def (k : BitVec 32) :
    coff hI k = subi (andi (addi (skew hI) (broadcast S16 k)) (broadcast S16 63#32)) (skew hI) := rfl

/-- Step `k`'s column in the row block. -/
def col (raw : IVec S16 32) (k : BitVec 32) : IVec S16 32 := addi (base hI raw) (coff hI k)
/-- `col` unfolded. -/
theorem col_def (raw : IVec S16 32) (k : BitVec 32) : col hI raw k = addi (base hI raw) (coff hI k) := rfl

/-- Step `k`'s column in the packed block. -/
def gcol (k : BitVec 32) : IVec S16 32 := addi (gbase hI) (coff hI k)
/-- `gcol` unfolded. -/
theorem gcol_def (k : BitVec 32) : gcol hI k = addi (gbase hI) (coff hI k) := rfl

/-- The index word repacked below `50176`: the word minus `50176` where it is at least that (signed), else the word. -/
def packed (raw : IVec S16 32) : IVec S16 32 :=
  select (cmpi .sge raw (broadcast S16 50176#32)) (subi raw (broadcast S16 50176#32)) raw
/-- `packed` unfolded. -/
theorem packed_def (raw : IVec S16 32) :
    packed raw = select (cmpi .sge raw (broadcast S16 50176#32)) (subi raw (broadcast S16 50176#32)) raw := rfl

/-! ## The lane and its offset -/

/-- The lane sequence at lane `x` is the word `x`. -/
theorem lane_apply (x : S16.Idx) : lane hI x = BitVec.ofNat 32 (x 0).val := by
  simp [lane, iota]

/-- … the number `x`. -/
theorem lane_toNat (x : S16.Idx) : (lane hI x).toNat = (x 0).val := by
  have := lane_lt x
  rw [lane_apply, BitVec.toNat_ofNat]
  omega

/-- The offset at lane `x` is the word `(9·x) masked with 63`. -/
theorem skew_word (x : S16.Idx) : skew hI x = (lane hI x * 9#32) &&& 63#32 := rfl

/-- … the number `(9 x) mod 64`. -/
theorem skew_apply (x : S16.Idx) : (skew hI x).toNat = (9 * (x 0).val) % 64 := by
  have := lane_lt x
  rw [skew_word, Cert.LibSkew.and63_toNat, BitVec.toNat_mul, lane_toNat]
  show ((x 0).val * 9 % 2 ^ 32) % 64 = _
  omega

/-- The offset is a column number. -/
theorem skew_lt (x : S16.Idx) : (skew hI x).toNat < 64 := by
  rw [skew_apply]; exact Nat.mod_lt _ (by norm_num)

/-! ## The rows -/

/-- The row of group `g` at lane `x` is the word `g·16 + x`. -/
theorem rows_word (g : BitVec 32) (x : S16.Idx) : rows hI g x = g * 16#32 + lane hI x := rfl

/-- … the number `16 g + x`, for a group below eight. -/
theorem rows_apply (g : BitVec 32) (hg : g.toNat < 8) (x : S16.Idx) : (rows hI g x).toNat = 16 * g.toNat + (x 0).val := by
  have := lane_lt x
  rw [rows_word, BitVec.toNat_add, BitVec.toNat_mul, lane_toNat]
  show (g.toNat * 16 % 2 ^ 32 + (x 0).val) % 2 ^ 32 = _
  omega

/-- It is a row of the 128-row block. -/
theorem rows_lt (g : BitVec 32) (hg : g.toNat < 8) (x : S16.Idx) : (rows hI g x).toNat < 128 := by
  rw [rows_apply hI g hg]; exact Cert.LibSkew.row_lt _ _ hg (lane_lt x)

/-- The half-row at lane `x` is the row shifted right by one, arithmetically. -/
theorem grows_word (g : BitVec 32) (x : S16.Idx) : grows hI g x = (rows hI g x).sshiftRight 1 := by
  show IntOp.shrsi .vector (rows hI g x) 1#32 = _
  rw [IntOp.shrsi, if_pos (by decide)]
  rfl

/-- … the number `(16 g + x) / 2`: the row is non-negative, so the arithmetic shift is the logical one. -/
theorem grows_apply (g : BitVec 32) (hg : g.toNat < 8) (x : S16.Idx) :
    (grows hI g x).toNat = (16 * g.toNat + (x 0).val) / 2 := by
  have hr := rows_apply hI g hg x
  have hlt := rows_lt hI g hg x
  have hm : (rows hI g x).msb = false := by rw [BitVec.msb_eq_false_iff_two_mul_lt]; omega
  rw [grows_word, BitVec.toNat_sshiftRight_of_msb_false hm, hr, Nat.shiftRight_eq_div_pow]

/-- It is a row of the 64-row packed block. -/
theorem grows_lt (g : BitVec 32) (hg : g.toNat < 8) (x : S16.Idx) : (grows hI g x).toNat < 64 := by
  rw [grows_apply hI g hg]; exact Cert.LibSkew.half_row_lt _ _ hg (lane_lt x)

/-! ## The half a loaded index word selects -/

/-- The word `50176` read signed. -/
theorem toInt_50176 : (50176#32 : BitVec 32).toInt = 50176 := by decide

/-- The signed test `50176 ≤ word`, as the comparison's bit. -/
theorem sge_50176 (w : BitVec 32) : IntOp.cmpi .sge w 50176#32 = 1#1 ↔ 50176 ≤ w.toInt := by
  rw [IntOp.cmpi_sge, toInt_50176]

/-- The selected half at lane `x`: the word `64` where `50176 ≤ raw x` (signed), else the word `0`. -/
theorem sel_word (raw : IVec S16 32) (x : S16.Idx) : sel raw x = if 50176 ≤ (raw x).toInt then 64#32 else 0#32 := by
  show Scalar.select (IntOp.cmpi .sge (raw x) 50176#32) 64#32 0#32 = _
  by_cases h : 50176 ≤ (raw x).toInt
  · rw [(sge_50176 _).mpr h, select_one, if_pos h]
  · rw [eq_zero_of_ne_one (fun e => h ((sge_50176 _).mp e)), select_zero, if_neg h]

/-- … as a number. -/
theorem sel_apply (raw : IVec S16 32) (x : S16.Idx) : (sel raw x).toNat = if 50176 ≤ (raw x).toInt then 64 else 0 := by
  rw [sel_word]; split <;> rfl

/-- It is `0` or `64`. -/
theorem sel_cases (raw : IVec S16 32) (x : S16.Idx) : (sel raw x).toNat = 0 ∨ (sel raw x).toNat = 64 := by
  rw [sel_apply]; split
  · exact Or.inr rfl
  · exact Or.inl rfl

/-- It is `64` exactly when `50176 ≤ raw x` (signed). -/
theorem sel_eq_64_iff (raw : IVec S16 32) (x : S16.Idx) : (sel raw x).toNat = 64 ↔ 50176 ≤ (raw x).toInt := by
  rw [sel_apply]; split <;> simp [*]

/-- It is `0` exactly when `raw x < 50176` (signed). -/
theorem sel_eq_zero_iff (raw : IVec S16 32) (x : S16.Idx) : (sel raw x).toNat = 0 ↔ (raw x).toInt < 50176 := by
  rw [sel_apply]; split <;> omega

/-- The selected half is at most `64`. -/
theorem sel_le (raw : IVec S16 32) (x : S16.Idx) : (sel raw x).toNat ≤ 64 := by
  rcases sel_cases raw x with h | h <;> omega

/-! ## The columns -/

/-- The row block's column at lane `x`, step `k`, in words: `(half + offset) + (((offset + k) masked with 63) - offset)`. -/
theorem col_word (raw : IVec S16 32) (k : BitVec 32) (x : S16.Idx) :
    col hI raw k x = (sel raw x + skew hI x) + (((skew hI x + k) &&& 63#32) - skew hI x) := rfl

/-- … the number `half + ((9 x) mod 64 + k) mod 64`. -/
theorem col_apply (raw : IVec S16 32) (k : BitVec 32) (hk : k.toNat < 64) (x : S16.Idx) :
    (col hI raw k x).toNat = (sel raw x).toNat + ((9 * (x 0).val) % 64 + k.toNat) % 64 := by
  rw [col_word, Cert.LibSkew.skew_col _ _ _ (skew_lt hI x) hk (sel_le raw x), skew_apply]

/-- It is a column of a 128-wide row. -/
theorem col_lt (raw : IVec S16 32) (k : BitVec 32) (hk : k.toNat < 64) (x : S16.Idx) : (col hI raw k x).toNat < 128 := by
  rw [col_word]; exact Cert.LibSkew.skew_col_lt _ _ _ (skew_lt hI x) hk (sel_le raw x)

/-- The lane's parity times `64`, as a word, is the number `(x mod 2)·64`. -/
theorem parity_toNat (x : S16.Idx) : ((lane hI x &&& 1#32) * 64#32).toNat = ((x 0).val % 2) * 64 := by
  have := lane_lt x
  rw [BitVec.toNat_mul, BitVec.toNat_and, lane_toNat]
  show ((x 0).val &&& 1) * 64 % 2 ^ 32 = _
  rw [Nat.and_one_is_mod]
  omega

/-- The packed block's column at lane `x`, step `k`, in words. -/
theorem gcol_word (k : BitVec 32) (x : S16.Idx) :
    gcol hI k x = (((lane hI x &&& 1#32) * 64#32) + skew hI x) + (((skew hI x + k) &&& 63#32) - skew hI x) := rfl

/-- … the number `(x mod 2)·64 + ((9 x) mod 64 + k) mod 64`. -/
theorem gcol_apply (k : BitVec 32) (hk : k.toNat < 64) (x : S16.Idx) :
    (gcol hI k x).toNat = ((x 0).val % 2) * 64 + ((9 * (x 0).val) % 64 + k.toNat) % 64 := by
  have hp := parity_toNat hI x
  rw [gcol_word, Cert.LibSkew.skew_col _ _ _ (skew_lt hI x) hk (by rw [hp]; omega), hp, skew_apply]

/-- It is a column of a 128-wide row. -/
theorem gcol_lt (k : BitVec 32) (hk : k.toNat < 64) (x : S16.Idx) : (gcol hI k x).toNat < 128 := by
  have hp := parity_toNat hI x
  rw [gcol_word]; exact Cert.LibSkew.skew_col_lt _ _ _ (skew_lt hI x) hk (by rw [hp]; omega)

/-! ## The accesses are inside their blocks -/

/-- Group `g`'s rows and step `k`'s columns address inside the 128 × 128 block, at every lane. -/
theorem chk_rows (g : BitVec 32) (raw : IVec S16 32) (k : BitVec 32) (hg : g.toNat < 8) (hk : k.toNat < 64) :
    ∀ a x, ((![rows hI g, col hI raw k] : Fin 2 → IVec S16 32) a x).toNat < (⟨2, ![128, 128]⟩ : Shape).size a := by
  intro a x
  match a with
  | ⟨0, _⟩ => exact rows_lt hI g hg x
  | ⟨1, _⟩ => exact col_lt hI raw k hk x

/-- Group `g`'s half-rows and step `k`'s columns address inside the packed 64 × 128 block, at every lane. -/
theorem chk_grows (g : BitVec 32) (k : BitVec 32) (hg : g.toNat < 8) (hk : k.toNat < 64) :
    ∀ a x, ((![grows hI g, gcol hI k] : Fin 2 → IVec S16 32) a x).toNat < (⟨2, ![64, 128]⟩ : Shape).size a := by
  intro a x
  match a with
  | ⟨0, _⟩ => exact grows_lt hI g hg x
  | ⟨1, _⟩ => exact gcol_lt hI k hk x

/-! ## The sixteen lanes' packed targets are pairwise distinct -/

/-- Two different lanes of one group, at one step, address different entries of the packed block: equal half-rows
    force different parities, hence different halves of the 128 columns. -/
theorem targets_ne (g : BitVec 32) (k : BitVec 32) (hg : g.toNat < 8) (hk : k.toNat < 64) {x y : S16.Idx} (hxy : x ≠ y) :
    ((grows hI g x).toNat, (gcol hI k x).toNat) ≠ ((grows hI g y).toNat, (gcol hI k y).toNat) := by
  intro e
  have e1 : (grows hI g x).toNat = (grows hI g y).toNat := congrArg Prod.fst e
  have e2 : (gcol hI k x).toNat = (gcol hI k y).toNat := congrArg Prod.snd e
  rw [grows_apply hI g hg, grows_apply hI g hg] at e1
  rw [gcol_apply hI k hk, gcol_apply hI k hk] at e2
  have cx := Nat.mod_lt ((9 * (x 0).val) % 64 + k.toNat) (show 0 < 64 by norm_num)
  have cy := Nat.mod_lt ((9 * (y 0).val) % 64 + k.toNat) (show 0 < 64 by norm_num)
  have hp : (x 0).val % 2 = (y 0).val % 2 := by omega
  exact hxy (lane_ext (Cert.LibSkew.half_row_inj _ _ _ e1 hp))

/-- The same, lane numbers compared: equal targets are one lane. -/
theorem targets_inj (g : BitVec 32) (k : BitVec 32) (hg : g.toNat < 8) (hk : k.toNat < 64) {x y : S16.Idx}
    (e1 : (grows hI g x).toNat = (grows hI g y).toNat) (e2 : (gcol hI k x).toNat = (gcol hI k y).toNat) : x = y := by
  by_contra hxy
  exact targets_ne hI g k hg hk hxy (Prod.ext e1 e2)

/-! ## The index word repacked below `50176` -/

/-- The repacked word at lane `x`: the word minus `50176` where `50176 ≤ raw x` (signed), else the word. -/
theorem packed_word (raw : IVec S16 32) (x : S16.Idx) :
    packed raw x = if 50176 ≤ (raw x).toInt then raw x - 50176#32 else raw x := by
  show Scalar.select (IntOp.cmpi .sge (raw x) 50176#32) (raw x - 50176#32) (raw x) = _
  by_cases h : 50176 ≤ (raw x).toInt
  · rw [(sge_50176 _).mpr h, select_one, if_pos h]
  · rw [eq_zero_of_ne_one (fun e => h ((sge_50176 _).mp e)), select_zero, if_neg h]

/-- A word whose signed value is non-negative has that value as its unsigned one. -/
theorem toInt_eq_toNat_of_nonneg (w : BitVec 32) (h0 : 0 ≤ w.toInt) : w.toInt = (w.toNat : Int) := by
  have hlt : w.toNat < 2 ^ 32 := w.isLt
  rw [BitVec.toInt_eq_toNat_cond] at h0 ⊢
  split
  · rfl
  · rename_i hge
    rw [if_neg hge] at h0
    omega

/-- For an index word in `[0, 99999]` (signed): the repacked word is below `50176`, and adding back `50176` exactly
    when the test held gives the word. -/
theorem packed_apply (raw : IVec S16 32) (x : S16.Idx) (h0 : 0 ≤ (raw x).toInt) (h1 : (raw x).toInt ≤ 99999) :
    (packed raw x).toNat < 50176
      ∧ (packed raw x).toNat + (if 50176 ≤ (raw x).toInt then 50176 else 0) = (raw x).toNat := by
  have hn := toInt_eq_toNat_of_nonneg (raw x) h0
  rw [packed_word]
  by_cases h : 50176 ≤ (raw x).toInt
  · rw [if_pos h, if_pos h]
    have hs : (raw x - 50176#32).toNat = (raw x).toNat - 50176 := by
      rw [BitVec.toNat_sub]
      show (2 ^ 32 - 50176 + (raw x).toNat) % 2 ^ 32 = _
      omega
    rw [hs]
    omega
  · rw [if_neg h, if_neg h]
    omega

/-- With the half the same test selects: `(sel raw x).toNat = 64` exactly where `50176` was subtracted. -/
theorem packed_sel (raw : IVec S16 32) (x : S16.Idx) (h0 : 0 ≤ (raw x).toInt) (h1 : (raw x).toInt ≤ 99999) :
    (packed raw x).toNat + (if (sel raw x).toNat = 64 then 50176 else 0) = (raw x).toNat := by
  have := (packed_apply raw x h0 h1).2
  by_cases h : 50176 ≤ (raw x).toInt
  · rw [if_pos ((sel_eq_64_iff raw x).mpr h)]; rwa [if_pos h] at this
  · rw [if_neg (fun e => h ((sel_eq_64_iff raw x).mp e))]; rwa [if_neg h] at this

end Cert.LibSkewVec
-- ==== Proof.LibWritesAll.lean ====
/-
  A property read through a list of writes. When a buffer is filled piece by piece, an element some piece covers holds
  a value of that piece's payload — so a property every payload has at every index, the buffer has at every covered
  element, whatever it held before.
-/
import Idealize.ShloMosaic.Lib.Writes

namespace Cert.LibWritesAll

open Idealize.ShloMosaic

variable {sig : RefSig} {κ : Kind} {sp : Space} {s : Shape} {e : EltTy} {Val : EltTy → Type}

/-- An element some piece covers, after writes whose payloads all satisfy `P` at every index, reads a value
    satisfying `P`: the last piece covering it decides what it reads, and that is a value of its payload. -/
theorem read_writes_forall (v : View sig κ sp s e) (f : v.ty.Contents Val) (P : Val e → Prop) :
    ∀ L : List (View.Piece Val s e), (∀ p ∈ L, ∀ x : p.1.shape.Idx, P (p.2 x)) →
      ∀ y : s.Idx, (∃ p ∈ L, y ∈ p.1.set) → P (v.read Val (v.writes Val f L) y)
  | [], _, _, h => by obtain ⟨_, hm, _⟩ := h; exact absurd hm List.not_mem_nil
  | p :: L, hG, y, h => by
    by_cases hy : y ∈ p.1.set
    · obtain ⟨x, rfl⟩ : ∃ x, p.1.emb x = y := p.1.exists_idx_of_mem hy
      obtain ⟨r, w⟩ := p
      rw [View.read_writes_cons_emb]
      exact hG ⟨r, w⟩ List.mem_cons_self x
    · have hy' : y ∉ Finset.univ.map p.1.emb := by rwa [Rect.map_emb_univ]
      rw [View.writes_cons, View.read_slice_write_of_not_mem p.1 _ _ _ hy']
      refine read_writes_forall v f P L (fun p' hp' => hG p' (List.mem_cons_of_mem _ hp')) y ?_
      obtain ⟨p', hm, hy''⟩ := h
      rcases List.mem_cons.mp hm with rfl | hm
      · exact absurd hy'' hy
      · exact ⟨p', hm, hy''⟩

/-- The same for a list that covers the shape: every element. -/
theorem read_writes_forall_of_cover (v : View sig κ sp s e) (f : v.ty.Contents Val) (P : Val e → Prop)
    (L : List (View.Piece Val s e)) (hP : ∀ p ∈ L, ∀ x : p.1.shape.Idx, P (p.2 x)) (hc : ∀ y : s.Idx, ∃ p ∈ L, y ∈ p.1.set)
    (y : s.Idx) : P (v.read Val (v.writes Val f L) y) :=
  read_writes_forall v f P L hP y (hc y)

end Cert.LibWritesAll
-- ==== Proof.TileDotPartsK.lean ====
/-
  THE PARTS OF ONE TRIP of the second SparseCore kernel's loop, each at a symbolic place, trip and accumulator: a part
  reads, per skewed step, 16 entries of the gathered user rows and 16 entries of the packed difference rows through
  index vectors that stay inside their blocks (the group's rows, the selected half plus the lane's skewed column), and
  hands on the accumulated products and the next step's column offsets. Each is stated over ITS CONTINUATION: the four
  scratch buffers are held at fixed contents throughout, and the continuation is owed at every accumulator value.
-/
import proofs.«203895_g52347061404180_cont_8to1_c_859_34_alg».proof.Proof.TileDotDefsK
import proofs.«203895_g52347061404180_cont_8to1_c_859_34_alg».proof.Proof.Gen.Kernel.Skeleton
import proofs.«203895_g52347061404180_cont_8to1_c_859_34_alg».proof.Proof.LibSkewVec

noncomputable section

namespace Cert.Kernel.TileDotParts

open Cert.Kernel Cert.Kernel.Gen Cert.Kernel.KCommon Cert.Kernel.TileCommon Cert.Kernel.TileDotDefs

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid3.Coords)
variable [FloatOps F]

/-- The trip's group number, as a word, is below eight. -/
theorem iv_lt (t : Fin k3_t1_loop.trips) : (Scf.iv (0#32 : BitVec 32) 1#32 t.val).toNat < 8 := by
  have ht : t.val < 8 := lt_of_lt_of_le t.isLt k3_t1_abs.2.1
  unfold Scf.iv
  rw [BitVec.toNat_add, BitVec.toNat_mul, BitVec.toNat_ofNat]
  show (0 + t.val % 2 ^ 32 * 1 % 2 ^ 32) % 2 ^ 32 < 8
  omega

/-- The lane sequence, as the kernel spells it. -/
abbrev laneV : IVec S16 32 := iota .scVector S16 32 [0] iota_S16_d0_w32_scVector

/-- The four scratch buffers a trip touches, at fixed contents. -/
def held (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L)))) : sProp 𝕄 :=
  iprop(((urawM).view.loc (V d (cV L) (jV L)) ↦{fullShare} g0)
    ∗ ((urowsM).view.loc (V d (cV L) (jV L)) ↦{fullShare} g2)
    ∗ ((gpvM).view.loc (V d (cV L) (jV L)) ↦{fullShare} g3)
    ∗ ((diffsM).view.loc (V d (cV L) (jV L)) ↦{fullShare} g4))

set_option maxHeartbeats 2000000 in
set_option maxRecDepth 65536 in
/-- Part 1 of a trip: the group's 16 index words read, then two skewed steps. -/
theorem part1_frame (t : Fin k3_t1_loop.trips)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type}
    (kk : (Σ' (_ : BitVec 32) (_ : IVec S16 32) (_ : IVec S16 32) (_ : IVec S16 32) (_ : FVec F S16 .f32), IVec S16 32)
      → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ
          (kk ⟨Scalar.muli (Scf.iv 0#32 1#32 t.val) 16#32, k3_pay5 laneV 0#32 1#32 t, k3_pay6 (k3_pay5 laneV 0#32 1#32 t),
            k3_pay7 (F := F) k3_pay1 ((urawM).view.readAt (Elt F) (Rect.unit (s := S128) (k3_off3 t) S16.size (k3_off3_inb t)).toLoadRect g0),
            acc', k3_pay11 k3_pay1⟩) Q) :
    held (F := F) d L g0 g2 g3 g4
      ⊢ wp frame (wpE (defs₀ (F := F)) 𝒱₀ (V d (cV L) (jV L)) none) Set.univ
          (k3_part1 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 laneV k3_pay1 k3_pay2 0#32 1#32 t >>= kk) Q := by
  have hg := iv_lt t
  rw [k3_part1_eq_skeleton]; unfold k3_part1_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 2 of a trip: four skewed steps. -/
theorem part2_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay16 k3_pay1⟩) Q) :
    held (F := F) d L g0 g2 g3 g4
      ⊢ wp frame (wpE (defs₀ (F := F)) 𝒱₀ (V d (cV L) (jV L)) none) Set.univ
          (k3_part2 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay11 k3_pay1) >>= kk) Q := by
  have hg := iv_lt t
  rw [k3_part2_eq_skeleton]; unfold k3_part2_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 3 of a trip: four skewed steps. -/
theorem part3_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay21 k3_pay1⟩) Q) :
    held (F := F) d L g0 g2 g3 g4
      ⊢ wp frame (wpE (defs₀ (F := F)) 𝒱₀ (V d (cV L) (jV L)) none) Set.univ
          (k3_part3 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay16 k3_pay1) >>= kk) Q := by
  have hg := iv_lt t
  rw [k3_part3_eq_skeleton]; unfold k3_part3_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 4 of a trip: four skewed steps. -/
theorem part4_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay26 k3_pay1⟩) Q) :
    held (F := F) d L g0 g2 g3 g4
      ⊢ wp frame (wpE (defs₀ (F := F)) 𝒱₀ (V d (cV L) (jV L)) none) Set.univ
          (k3_part4 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay21 k3_pay1) >>= kk) Q := by
  have hg := iv_lt t
  rw [k3_part4_eq_skeleton]; unfold k3_part4_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 5 of a trip: four skewed steps. -/
theorem part5_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay31 k3_pay1⟩) Q) :
    held (F := F) d L g0 g2 g3 g4
      ⊢ wp frame (wpE (defs₀ (F := F)) 𝒱₀ (V d (cV L) (jV L)) none) Set.univ
          (k3_part5 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay26 k3_pay1) >>= kk) Q := by
  have hg := iv_lt t
  rw [k3_part5_eq_skeleton]; unfold k3_part5_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 6 of a trip: four skewed steps. -/
theorem part6_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay36 k3_pay1⟩) Q) :
    held (F := F) d L g0 g2 g3 g4
      ⊢ wp frame (wpE (defs₀ (F := F)) 𝒱₀ (V d (cV L) (jV L)) none) Set.univ
          (k3_part6 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay31 k3_pay1) >>= kk) Q := by
  have hg := iv_lt t
  rw [k3_part6_eq_skeleton]; unfold k3_part6_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 7 of a trip: four skewed steps. -/
theorem part7_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay41 k3_pay1⟩) Q) :
    held (F := F) d L g0 g2 g3 g4
      ⊢ wp frame (wpE (defs₀ (F := F)) 𝒱₀ (V d (cV L) (jV L)) none) Set.univ
          (k3_part7 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay36 k3_pay1) >>= kk) Q := by
  have hg := iv_lt t
  rw [k3_part7_eq_skeleton]; unfold k3_part7_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 8 of a trip: four skewed steps. -/
theorem part8_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay46 k3_pay1⟩) Q) :
    held (F := F) d L g0 g2 g3 g4
      ⊢ wp frame (wpE (defs₀ (F := F)) 𝒱₀ (V d (cV L) (jV L)) none) Set.univ
          (k3_part8 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay41 k3_pay1) >>= kk) Q := by
  have hg := iv_lt t
  rw [k3_part8_eq_skeleton]; unfold k3_part8_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 9 of a trip: four skewed steps. -/
theorem part9_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay51 k3_pay1⟩) Q) :
    held (F := F) d L g0 g2 g3 g4
      ⊢ wp frame (wpE (defs₀ (F := F)) 𝒱₀ (V d (cV L) (jV L)) none) Set.univ
          (k3_part9 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay46 k3_pay1) >>= kk) Q := by
  have hg := iv_lt t
  rw [k3_part9_eq_skeleton]; unfold k3_part9_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 10 of a trip: four skewed steps. -/
theorem part10_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay56 k3_pay1⟩) Q) :
    held (F := F) d L g0 g2 g3 g4
      ⊢ wp frame (wpE (defs₀ (F := F)) 𝒱₀ (V d (cV L) (jV L)) none) Set.univ
          (k3_part10 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay51 k3_pay1) >>= kk) Q := by
  have hg := iv_lt t
  rw [k3_part10_eq_skeleton]; unfold k3_part10_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 11 of a trip: four skewed steps. -/
theorem part11_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay61 k3_pay1⟩) Q) :
    held (F := F) d L g0 g2 g3 g4
      ⊢ wp frame (wpE (defs₀ (F := F)) 𝒱₀ (V d (cV L) (jV L)) none) Set.univ
          (k3_part11 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay56 k3_pay1) >>= kk) Q := by
  have hg := iv_lt t
  rw [k3_part11_eq_skeleton]; unfold k3_part11_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 12 of a trip: four skewed steps. -/
theorem part12_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay66 k3_pay1⟩) Q) :
    held (F := F) d L g0 g2 g3 g4
      ⊢ wp frame (wpE (defs₀ (F := F)) 𝒱₀ (V d (cV L) (jV L)) none) Set.univ
          (k3_part12 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay61 k3_pay1) >>= kk) Q := by
  have hg := iv_lt t
  rw [k3_part12_eq_skeleton]; unfold k3_part12_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 13 of a trip: four skewed steps. -/
theorem part13_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay71 k3_pay1⟩) Q) :
    held (F := F) d L g0 g2 g3 g4
      ⊢ wp frame (wpE (defs₀ (F := F)) 𝒱₀ (V d (cV L) (jV L)) none) Set.univ
          (k3_part13 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay66 k3_pay1) >>= kk) Q := by
  have hg := iv_lt t
  rw [k3_part13_eq_skeleton]; unfold k3_part13_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 14 of a trip: four skewed steps. -/
theorem part14_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay76 k3_pay1⟩) Q) :
    held (F := F) d L g0 g2 g3 g4
      ⊢ wp frame (wpE (defs₀ (F := F)) 𝒱₀ (V d (cV L) (jV L)) none) Set.univ
          (k3_part14 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay71 k3_pay1) >>= kk) Q := by
  have hg := iv_lt t
  rw [k3_part14_eq_skeleton]; unfold k3_part14_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 15 of a trip: four skewed steps. -/
theorem part15_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay81 k3_pay1⟩) Q) :
    held (F := F) d L g0 g2 g3 g4
      ⊢ wp frame (wpE (defs₀ (F := F)) 𝒱₀ (V d (cV L) (jV L)) none) Set.univ
          (k3_part15 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay76 k3_pay1) >>= kk) Q := by
  have hg := iv_lt t
  rw [k3_part15_eq_skeleton]; unfold k3_part15_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 16 of a trip: four skewed steps. -/
theorem part16_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay86 k3_pay1⟩) Q) :
    held (F := F) d L g0 g2 g3 g4
      ⊢ wp frame (wpE (defs₀ (F := F)) 𝒱₀ (V d (cV L) (jV L)) none) Set.univ
          (k3_part16 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay81 k3_pay1) >>= kk) Q := by
  have hg := iv_lt t
  rw [k3_part16_eq_skeleton]; unfold k3_part16_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

end Cert.Kernel.TileDotParts

end
-- ==== Proof.TileDotTripK.lean ====
/-
  ONE TRIP of the second SparseCore kernel's loop over its 8 groups of 16 users, at a symbolic place and trip: the
  sixteen parts in sequence, each owed the next at every accumulator value, then the last two skewed steps and the store
  of the 16 scores. The four scratch buffers are held throughout; only the scores' buffer changes.
-/
import proofs.«203895_g52347061404180_cont_8to1_c_859_34_alg».proof.Proof.TileDotDefsK
import proofs.«203895_g52347061404180_cont_8to1_c_859_34_alg».proof.Proof.Gen.Kernel.Skeleton
import proofs.«203895_g52347061404180_cont_8to1_c_859_34_alg».proof.Proof.LibSkewVec
import proofs.«203895_g52347061404180_cont_8to1_c_859_34_alg».proof.Proof.TileDotPartsK

noncomputable section

namespace Cert.Kernel.TileDotTrip

open Cert.Kernel Cert.Kernel.Gen Cert.Kernel.KCommon Cert.Kernel.TileCommon Cert.Kernel.TileDotDefs Cert.Kernel.TileDotParts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid3.Coords)
variable [FloatOps F]

/-- What the loop holds from trip to trip: the four scratch buffers the trips touch, each at some contents. -/
def inv (_ : Nat) (_ : Unit) : sProp 𝕄 :=
  iprop((∃ g, (urawM).view.loc (V d (cV L) (jV L)) ↦{fullShare} g)
    ∗ (∃ g, (urowsM).view.loc (V d (cV L) (jV L)) ↦{fullShare} g)
    ∗ (∃ g, (gpvM).view.loc (V d (cV L) (jV L)) ↦{fullShare} g)
    ∗ ∃ g, (diffsM).view.loc (V d (cV L) (jV L)) ↦{fullShare} g)

set_option maxHeartbeats 4000000 in
set_option maxRecDepth 65536 in
/-- One trip from the four buffers at fixed contents: the sixteen parts, the last two steps, the store. -/
theorem trip_held (t : Fin k3_t1_loop.trips)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L)))) :
    held (F := F) d L g0 g2 g3 g4
      ⊢ wp frame (wpE (defs₀ (F := F)) 𝒱₀ (V d (cV L) (jV L)) none) Set.univ
          (k3_t1_body L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 laneV t ⟨⟩)
          fun _ => inv (F := F) d L (t.val + 1) ⟨⟩ := by
  have hg := iv_lt t
  unfold k3_t1_body
  simp only [SparseCore.vectorLoadIdx_bind (c := V d (cV L) (jV L))]
  refine part1_frame (F := F) d L t g0 g2 g3 g4 _ _ (fun a1 => ?_)
  refine part2_frame (F := F) d L t _ a1 g0 g2 g3 g4 _ _ (fun a2 => ?_)
  refine part3_frame (F := F) d L t _ a2 g0 g2 g3 g4 _ _ (fun a3 => ?_)
  refine part4_frame (F := F) d L t _ a3 g0 g2 g3 g4 _ _ (fun a4 => ?_)
  refine part5_frame (F := F) d L t _ a4 g0 g2 g3 g4 _ _ (fun a5 => ?_)
  refine part6_frame (F := F) d L t _ a5 g0 g2 g3 g4 _ _ (fun a6 => ?_)
  refine part7_frame (F := F) d L t _ a6 g0 g2 g3 g4 _ _ (fun a7 => ?_)
  refine part8_frame (F := F) d L t _ a7 g0 g2 g3 g4 _ _ (fun a8 => ?_)
  refine part9_frame (F := F) d L t _ a8 g0 g2 g3 g4 _ _ (fun a9 => ?_)
  refine part10_frame (F := F) d L t _ a9 g0 g2 g3 g4 _ _ (fun a10 => ?_)
  refine part11_frame (F := F) d L t _ a10 g0 g2 g3 g4 _ _ (fun a11 => ?_)
  refine part12_frame (F := F) d L t _ a11 g0 g2 g3 g4 _ _ (fun a12 => ?_)
  refine part13_frame (F := F) d L t _ a12 g0 g2 g3 g4 _ _ (fun a13 => ?_)
  refine part14_frame (F := F) d L t _ a13 g0 g2 g3 g4 _ _ (fun a14 => ?_)
  refine part15_frame (F := F) d L t _ a14 g0 g2 g3 g4 _ _ (fun a15 => ?_)
  refine part16_frame (F := F) d L t _ a15 g0 g2 g3 g4 _ _ (fun a16 => ?_)
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_step
  unfold inv
  isplitl [H0]; · iexists _; iexact H0
  isplitl [H2]; · iexists _; iexact H2
  isplitl [H3]; · iexists _; iexact H3
  iexists _; iexact H4

/-- One trip keeps what the loop holds. -/
theorem trip_dot (t : Fin k3_t1_loop.trips) :
    inv (F := F) d L t.val ⟨⟩
      ⊢ wp frame (wpE (defs₀ (F := F)) 𝒱₀ (V d (cV L) (jV L)) none) Set.univ
          (k3_t1_body L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 laneV t ⟨⟩)
          fun _ => inv (F := F) d L (t.val + 1) ⟨⟩ := by
  unfold inv
  iintro ⟨⟨%g0, H0⟩, ⟨%g2, H2⟩, ⟨%g3, H3⟩, ⟨%g4, H4⟩⟩
  iapply (trip_held (F := F) d L t g0 g2 g3 g4)
  unfold held
  isplitl [H0]; · iexact H0
  isplitl [H2]; · iexact H2
  isplitl [H3]; · iexact H3
  iexact H4

end Cert.Kernel.TileDotTrip

end
-- ==== Proof.TileDotK.lean ====
/-
  ONE TILE'S TASK of the second SparseCore kernel, at a symbolic place: vector subcore `L 1` of SparseCore `L 0` of device
  `d` takes its 128 user index words, repacks them below 50176, gathers the 128 packed user rows they name, copies its 64
  packed rows of item differences, forms per user the dot product of the selected half of the user's row with the
  selected half of the difference row — 8 groups of 16 users, 64 skewed steps each —, and writes its 128 scores out.
  The frame: from a read share of the packed user table, of the index array and of its 64 difference rows, and its own
  128 result entries, the task runs to its end and gives them back, the result entries at some contents.
-/
import proofs.«203895_g52347061404180_cont_8to1_c_859_34_alg».proof.Proof.TileDotDefsK
import proofs.«203895_g52347061404180_cont_8to1_c_859_34_alg».proof.Proof.Gen.Kernel.Skeleton
import proofs.«203895_g52347061404180_cont_8to1_c_859_34_alg».proof.Proof.LibSkewVec
import proofs.«203895_g52347061404180_cont_8to1_c_859_34_alg».proof.Proof.LibWritesAll
import proofs.«203895_g52347061404180_cont_8to1_c_859_34_alg».proof.Proof.TileDotTripK

noncomputable section

namespace Cert.Kernel.TileDot

open Cert.Kernel Cert.Kernel.Gen Cert.Kernel.KCommon Cert.Kernel.TileCommon Cert.Kernel.TileDotDefs

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid3.Coords)
variable [FloatOps F]

omit [FloatOps F] in
/-- Four waits recorded at the kernels' index beyond `W`. -/
theorem waits4 (W : Waits sig (HIx 2)) (s1 s2 s3 s4 : SemLoc sig) :
    ∀ p ∈ insert (s1, (default : HIx 2)) (insert (s2, (default : HIx 2)) (insert (s3, (default : HIx 2)) (insert (s4, (default : HIx 2)) W))),
      p ∈ W ∨ p.2 = none := by
  intro p hp
  rcases Finset.mem_insert.mp hp with rfl | hp
  · exact Or.inr rfl
  rcases Finset.mem_insert.mp hp with rfl | hp
  · exact Or.inr rfl
  rcases Finset.mem_insert.mp hp with rfl | hp
  · exact Or.inr rfl
  rcases Finset.mem_insert.mp hp with rfl | hp
  · exact Or.inr rfl
  exact Or.inl hp

set_option maxHeartbeats 4000000 in
set_option maxRecDepth 65536 in
/-- The task on vector subcore `(L 0, L 1)` of device `d`. -/
theorem tile_body_dot (hF : (K (F := F)).Facts) (q9 q0 q7 : PosShare TreeShare)
    (f9 : Buf (Elt F) ((puM).view.loc (V d (cV L) (jV L)))) (f0 : Buf (Elt F) ((uiM).view.loc (V d (cV L) (jV L))))
    (f7 : Buf (Elt F) ((gpSl L).view.loc (V d (cV L) (jV L))))
    (hidx : ∀ j, 0 ≤ (f0 j).toInt ∧ (f0 j).toInt ≤ 99999)
    (O : CellTallies nD τ sig (HIx 2)) (W : Waits sig (HIx 2)) (hO : ∀ g, O g none = 0) :
    iprop(levAts (K (F := F)).L (K (F := F)).lev ∗ emp ∗ goDot d L q9 q0 q7 f9 f0 f7
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3__sc_dot_body L puM (Memref.isWhole_whole _) uiM (Memref.isWhole_whole _) gpM (Memref.isWhole_whole _)
            outM (Memref.isWhole_whole _) urawM (Memref.isWhole_whole _) uidxM (Memref.isWhole_whole _)
            urowsM (Memref.isWhole_whole _) gpvM (Memref.isWhole_whole _) diffsM (Memref.isWhole_whole _)
            cc3_scratch5 cc3_scratch6 cc3_scoped0 cc3_scoped1)
          fun _ => iprop(goDot d L q9 q0 q7 f9 f0 f7 ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3__sc_dot_body_eq_skeleton]; unfold cc3__sc_dot_body_skel
  rw [(K (F := F)).scopedBufs_V hF d (cV L) (jV L), SparseCore.Cfg.scopedSems0_V (Val := Elt F) d (cV L) (jV L), ownSems0_V, ownBufs_V]
  unfold goDot
  iintro ⟨#Hlv, -, ⟨Hpu, Hui, Hgp, ⟨%fo, Hout⟩⟩,
    ⟨⟨%a0, Ha0⟩, ⟨%a1, Ha1⟩, ⟨%a2, Ha2⟩, ⟨%a3, Ha3⟩, ⟨%a4, Ha4⟩, ⟨%a5, Ha5⟩, ⟨%a6, Ha6⟩,
      ⟨%s0, Hs0⟩, ⟨%s1, Hs1⟩, ⟨%s2, Hs2⟩, ⟨%s3, Hs3⟩, ⟨%s4, Hs4⟩, Hbufs⟩,
    ⟨Hc17, Hc18, Hc1s0, Hc1s1, Hc1s2, Hsu, Hsg, Hr0, Hr1, Hsems⟩, HO⟩
  ihave Hmw := ((K (F := F)).mayWaits_none (thr := V d (cV L) (jV L)) hO) $$ Hlv
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hs4 := (Entails.of_eq (pts_s4 (F := F) d L _).symm) $$ Hs4
  sl_exec
  -- the index list now holds the eight repacked chunks: every word of it names a row of the packed table
  have hraw : ∀ (r : LoadRect S128) (x : r.shape.Idx),
      0 ≤ ((urawM).view.readAt (Elt F) r (View.write (Elt F) (urawM).view s0 (tile_body_dot.sl.dma0 d L f0) Finset.univ) x).toInt
        ∧ ((urawM).view.readAt (Elt F) r (View.write (Elt F) (urawM).view s0 (tile_body_dot.sl.dma0 d L f0) Finset.univ) x).toInt ≤ 99999 := by
    intro r x
    have e : (urawM).view.readAt (Elt F) r (View.write (Elt F) (urawM).view s0 (tile_body_dot.sl.dma0 d L f0) Finset.univ) x
        = f0 ((uiSl L).view.emb (r.idx x)) := by
      show (View.whole cc3_scratch0).read (Elt F) ((View.whole cc3_scratch0).write (Elt F) s0 (tile_body_dot.sl.dma0 d L f0) Finset.univ) (r.idx x) = _
      rw [View.write_whole_univ]
      rfl
    rw [e]; exact hidx _
  have hpk : ∀ (raw : IVec S16 32), (∀ x, 0 ≤ (raw x).toInt ∧ (raw x).toInt ≤ 99999) → ∀ x,
      (select (cmpi .sge raw (broadcast S16 50176#32)) (subi raw (broadcast S16 50176#32)) raw x).toNat < 50176 :=
    fun raw h x => (Cert.LibSkewVec.packed_apply raw x (h x).1 (h x).2).1
  have hpieces : (tile_body_dot.sl.Hs1_8 d L f0 s0).Forall fun p => ∀ x : p.1.shape.Idx, (p.2 x).toNat < 50176 := by
    unfold tile_body_dot.sl.Hs1_8
    exact ⟨hpk _ (hraw (Rect.unit (s := S128) ![112] S16.size inb_S128_S16_112).toLoadRect),
      hpk _ (hraw (Rect.unit (s := S128) ![96] S16.size inb_S128_S16_96).toLoadRect),
      hpk _ (hraw (Rect.unit (s := S128) ![80] S16.size inb_S128_S16_80).toLoadRect),
      hpk _ (hraw (Rect.unit (s := S128) ![64] S16.size inb_S128_S16_64).toLoadRect),
      hpk _ (hraw (Rect.unit (s := S128) ![48] S16.size inb_S128_S16_48).toLoadRect),
      hpk _ (hraw (Rect.unit (s := S128) ![32] S16.size inb_S128_S16_32).toLoadRect),
      hpk _ (hraw (Rect.unit (s := S128) ![16] S16.size inb_S128_S16_16).toLoadRect),
      hpk _ (hraw (Rect.unit (s := S128) ![0] S16.size inb_S128_S16_0).toLoadRect)⟩
  have hin : ∀ x, ((uidxM).view.read (Elt F) ((uidxM).view.writes (Elt F) (uidxM).view.junk (tile_body_dot.sl.Hs1_8 d L f0 s0)) x).toNat < 50176 :=
    fun x => Cert.LibWritesAll.read_writes_forall_of_cover (Val := Elt F) (uidxM).view (uidxM).view.junk (fun w : BitVec 32 => w.toNat < 50176)
      (tile_body_dot.sl.Hs1_8 d L f0 s0) (List.forall_iff_forall_mem.mp hpieces) (View.cover_of_tiled _ ![16] rfl) x
  sl_exec
  -- the loop over the 8 groups: each trip keeps the four scratch buffers
  sl_for (Cert.Kernel.TileDotTrip.inv (F := F) d L) $$ [Hs0 Hs2 Hs3 Hs4]
  case region =>
    intro k _
    exact Cert.Kernel.TileDotTrip.trip_dot d L k
  · unfold Cert.Kernel.TileDotTrip.inv
    isplitl [Hs0]; · iexists _; iexact Hs0
    isplitl [Hs2]; · iexists _; iexact Hs2
    isplitl [Hs3]; · iexists _; iexact Hs3
    iexists _; iexact Hs4
  iintro %_ HI
  unfold Cert.Kernel.TileDotTrip.inv
  icases HI with ⟨⟨%g0, Hs0⟩, ⟨%g2, Hs2⟩, ⟨%g3, Hs3⟩, ⟨%g4, Hs4⟩⟩
  -- the 128 scores written out to the tile's result entries, and the wait
  sl_exec
  sl_step
  -- the task's arrays, its scratch buffers, its semaphores, and the waits it recorded
  isplitl [Hpu Hui Hgp Hout]
  · isplitl [Hpu]; · iexact Hpu
    isplitl [Hui]; · iexact Hui
    isplitl [Hgp]; · iexact Hgp
    iexists _; iexact Hout
  isplitl [Ha0 Ha1 Ha2 Ha3 Ha4 Ha5 Ha6 Hs0 Hs1 Hs2 Hs3 Hs4 Hbufs]
  · isplitl [Ha0]; · iexists _; iexact Ha0
    isplitl [Ha1]; · iexists _; iexact Ha1
    isplitl [Ha2]; · iexists _; iexact Ha2
    isplitl [Ha3]; · iexists _; iexact Ha3
    isplitl [Ha4]; · iexists _; iexact Ha4
    isplitl [Ha5]; · iexists _; iexact Ha5
    isplitl [Ha6]; · iexists _; iexact Ha6
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    iexact Hbufs
  isplitl [Hc17 Hc18 Hc1s0 Hc1s1 Hc1s2 Hsu Hsg Hr0 Hr1 Hsems]
  · isplitl [Hc17]; · iexact Hc17
    isplitl [Hc18]; · iexact Hc18
    isplitl [Hc1s0]; · iexact Hc1s0
    isplitl [Hc1s1]; · iexact Hc1s1
    isplitl [Hc1s2]; · iexact Hc1s2
    isplitl [Hsu]; · iexact Hsu
    isplitl [Hsg]; · iexact Hsg
    isplitl [Hr0]; · iexact Hr0
    isplitl [Hr1]; · iexact Hr1
    iexact Hsems
  iexists _; isplitr
  pick_goal 2
  · iexact HO
  · ipureintro
    exact waits4 W _ _ _ _

end Cert.Kernel.TileDot

end
-- ==== Proof.LibWrites.lean ====
/-
  A GENERAL LEMMA on a buffer's contents after a list of unmasked writes: a property every payload has at every element
  holds of what the buffer reads at every element some piece covers (the property is of single elements, so it does not
  matter which piece wrote last).
-/
import Idealize.ShloMosaic.Lib.Writes

namespace Cert.LibWrites

open Idealize.ShloMosaic

variable {sig : RefSig} {κ : Kind} {sp : Space} {s : Shape} {e : EltTy} {Val : EltTy → Type}

/-- If every payload of the list satisfies `P` at every element, then after the writes the buffer, read through the view
    at an element some piece covers, satisfies `P`. -/
theorem read_writes_pred (v : View sig κ sp s e) (f : v.ty.Contents Val) (P : Val e → Prop) :
    ∀ L : List (View.Piece Val s e), (∀ p ∈ L, ∀ x : p.1.shape.Idx, P (p.2 x)) →
      ∀ y : s.Idx, (∃ p ∈ L, y ∈ p.1.set) → P (v.read Val (v.writes Val f L) y)
  | [], _, _, h => by obtain ⟨_, hm, _⟩ := h; exact absurd hm List.not_mem_nil
  | p :: L, hP, y, h => by
    by_cases hy : y ∈ p.1.set
    · obtain ⟨r, w⟩ := p
      obtain ⟨x, rfl⟩ : ∃ x, r.emb x = y := r.exists_idx_of_mem hy
      rw [View.read_writes_cons_emb]
      exact hP ⟨r, w⟩ List.mem_cons_self x
    · have hy' : y ∉ Finset.univ.map p.1.emb := by rwa [Rect.map_emb_univ]
      rw [View.writes_cons, View.read_slice_write_of_not_mem p.1 _ _ _ hy']
      refine read_writes_pred v f P L (fun p' hp' => hP p' (List.mem_cons_of_mem _ hp')) y ?_
      obtain ⟨p', hm, hy''⟩ := h
      rcases List.mem_cons.mp hm with rfl | hm
      · exact absurd hy'' hy
      · exact ⟨p', hm, hy''⟩

end Cert.LibWrites
-- ==== Proof.TileGFrameK.lean ====
/-
  ONE TILE'S TASK of the first SparseCore kernel, at a symbolic place: THE FRAME, from the loop's trip. The two index
  copies and their waits, the sixteen stores of repacked index chunks, the two indirect gathers (their offsets in range:
  every repacked word is below 50176, from the index words' range) and their waits, the loop at an invariant holding the
  five scratch buffers it touches, the copy of the differences out to the tile's rows of the result and its wait; the
  trip itself is a hypothesis here (`htrip`), proved part by part in its own modules.
-/
import proofs.«203895_g52347061404180_cont_8to1_c_859_34_alg».proof.Proof.TileGDefsK
import proofs.«203895_g52347061404180_cont_8to1_c_859_34_alg».proof.Proof.Gen.Kernel.Skeleton
import proofs.«203895_g52347061404180_cont_8to1_c_859_34_alg».proof.Proof.LibSkewVec
import proofs.«203895_g52347061404180_cont_8to1_c_859_34_alg».proof.Proof.LibWrites

noncomputable section

namespace Cert.Kernel.TileG

open Cert.Kernel Cert.Kernel.Gen Cert.Kernel.KCommon Cert.Kernel.TileCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "tblW" => (Memref.whole Cert.Kernel.main_v6_scv : Memref Cert.Kernel.sig Kind.scVector Space.hbm Cert.Kernel.S50176x128 EltTy.f32)
local notation "posW" => (Memref.whole Cert.Kernel.main_v2_scv : Memref Cert.Kernel.sig Kind.scVector Space.hbm Cert.Kernel.S4096 EltTy.i32)
local notation "negW" => (Memref.whole Cert.Kernel.main_v4_scv : Memref Cert.Kernel.sig Kind.scVector Space.hbm Cert.Kernel.S4096 EltTy.i32)
local notation "gpW" => (Memref.whole Cert.Kernel.main_v7_scv : Memref Cert.Kernel.sig Kind.scVector Space.hbm Cert.Kernel.S2048x128 EltTy.f32)
local notation "s0W" => (Memref.whole Cert.Kernel.cc1_scratch0 : Memref Cert.Kernel.sig Kind.scVector Space.vmem Cert.Kernel.S128 EltTy.i32)
local notation "s1W" => (Memref.whole Cert.Kernel.cc1_scratch1 : Memref Cert.Kernel.sig Kind.scVector Space.vmem Cert.Kernel.S128 EltTy.i32)
local notation "s2W" => (Memref.whole Cert.Kernel.cc1_scratch2 : Memref Cert.Kernel.sig Kind.scVector Space.vmem Cert.Kernel.S128 EltTy.i32)
local notation "s3W" => (Memref.whole Cert.Kernel.cc1_scratch3 : Memref Cert.Kernel.sig Kind.scVector Space.vmem Cert.Kernel.S128 EltTy.i32)
local notation "s4W" => (Memref.whole Cert.Kernel.cc1_scratch4 : Memref Cert.Kernel.sig Kind.scVector Space.vmem Cert.Kernel.S128x128 EltTy.f32)
local notation "s5W" => (Memref.whole Cert.Kernel.cc1_scratch5 : Memref Cert.Kernel.sig Kind.scVector Space.vmem Cert.Kernel.S128x128 EltTy.f32)
local notation "s6W" => (Memref.whole Cert.Kernel.cc1_scratch6 : Memref Cert.Kernel.sig Kind.scVector Space.vmem Cert.Kernel.S64x128 EltTy.f32)

section Tile

/-- A chunk of sixteen index words in `[0, 99999]`, repacked (minus `50176` where at least that), is below `50176`. -/
theorem repack_lt (R : IVec S16 32) (hR : ∀ z, 0 ≤ (R z).toInt ∧ (R z).toInt ≤ 99999) (y : S16.Idx) :
    (select (cmpi .sge R (broadcast S16 50176#32)) (subi R (broadcast S16 50176#32)) R y).toNat < 50176 :=
  (Cert.LibSkewVec.packed_apply R y (hR y).1 (hR y).2).1

set_option maxHeartbeats 4000000 in
theorem tile_body_g_of_trip (hF : (K (F := F)).Facts) (d : Dev nD) (L : grid1.Coords) (q6a q6b q2 q4 : PosShare TreeShare)
    (f6 : Buf (Elt F) ((tblW).view.loc (V d (cV L) (jV L))))
    (f2 : Buf (Elt F) ((posW).view.loc (V d (cV L) (jV L)))) (f4 : Buf (Elt F) ((negW).view.loc (V d (cV L) (jV L))))
    (hidx2 : ∀ j, 0 ≤ (f2 j).toInt ∧ (f2 j).toInt ≤ 99999) (hidx4 : ∀ j, 0 ≤ (f4 j).toInt ∧ (f4 j).toInt ≤ 99999)
    (htrip : ∀ (k : Fin k1_t1_loop.trips) (acc : Unit), invG (F := F) d L k.val acc
      ⊢ wp frame (wpE (defs₀ (F := F)) 𝒱₀ (V d (cV L) (jV L)) none) Set.univ
          (k1_t1_body L tblW (Memref.isWhole_whole _) posW (Memref.isWhole_whole _) negW (Memref.isWhole_whole _)
            gpW (Memref.isWhole_whole _) s0W (Memref.isWhole_whole _) s1W (Memref.isWhole_whole _) s2W (Memref.isWhole_whole _)
            s3W (Memref.isWhole_whole _) s4W (Memref.isWhole_whole _) s5W (Memref.isWhole_whole _) s6W (Memref.isWhole_whole _)
            cc1_scratch7 cc1_scratch8 cc1_scoped0 cc1_scoped1 cc1_scoped2
            (iota .scVector S16 32 [0] iota_S16_d0_w32_scVector) k1_pay164 k1_pay165 k acc)
          (fun acc' => invG (F := F) d L (k.val + 1) acc'))
    (O : CellTallies nD τ sig (HIx 2)) (W : Waits sig (HIx 2)) (hO : ∀ g, O g none = 0) :
    iprop(levAts (K (F := F)).L (K (F := F)).lev ∗ emp ∗ goG d L q6a q6b q2 q4 f6 f2 f4
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_g_body L tblM (Memref.isWhole_whole _) posM (Memref.isWhole_whole _) negM (Memref.isWhole_whole _)
            gpM (Memref.isWhole_whole _) rawPM (Memref.isWhole_whole _) rawNM (Memref.isWhole_whole _) idxPM (Memref.isWhole_whole _)
            idxNM (Memref.isWhole_whole _) rowsPM (Memref.isWhole_whole _) rowsNM (Memref.isWhole_whole _) diffM (Memref.isWhole_whole _)
            cc1_scratch7 cc1_scratch8 cc1_scoped0 cc1_scoped1 cc1_scoped2)
          fun _ => iprop(goG d L q6a q6b q2 q4 f6 f2 f4 ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_g_body_eq_skeleton]; unfold cc1__sc_g_body_skel
  unfold tblM posM negM gpM rawPM rawNM idxPM idxNM rowsPM rowsNM diffM
  rw [(K (F := F)).scopedBufs_V hF d (cV L) (jV L), SparseCore.Cfg.scopedSems0_V (Val := Elt F) d (cV L) (jV L), ownSems0_V, ownBufs_V]
  unfold goG
  iintro ⟨#Hlv, -, ⟨Htbl, Htbl2, Hpos, Hneg, %fo, Hout⟩,
    ⟨⟨%g0, Hs0⟩, ⟨%g1, Hs1⟩, ⟨%g2, Hs2⟩, ⟨%g3, Hs3⟩, ⟨%g4, Hs4⟩, ⟨%g5, Hs5⟩, ⟨%g6, Hs6⟩, Hb30, Hb31, Hb32, Hb33, Hb34, Hbufs⟩,
    ⟨Hsem7, Hsem8, Hsc0, Hsc1, Hsc2, Hr5, Hr6, Hr30, Hr31, Hsems⟩, HO⟩
  ihave Hmw := ((K (F := F)).mayWaits_none (thr := V d (cV L) (jV L)) hO) $$ Hlv
  ihave Hs0' := (Entails.of_eq (pts_s0 (F := F) d L g0).symm) $$ Hs0
  ihave Hs1' := (Entails.of_eq (pts_s1 (F := F) d L g1).symm) $$ Hs1
  ihave Hs2' := (Entails.of_eq (pts_s2 (F := F) d L g2).symm) $$ Hs2
  ihave Hs3' := (Entails.of_eq (pts_s3 (F := F) d L g3).symm) $$ Hs3
  ihave Hs4' := (Entails.of_eq (pts_s4 (F := F) d L g4).symm) $$ Hs4
  ihave Hs5' := (Entails.of_eq (pts_s5 (F := F) d L g5).symm) $$ Hs5
  ihave Hs6' := (Entails.of_eq (pts_s6 (F := F) d L g6).symm) $$ Hs6
  sl_exec
  generalize hc2 : (s2W).view.writes (Elt F) (s2W).view.junk _ = c2
  have hin2 : ∀ x, ((s2W).view.read (Elt F) c2 x).toNat < S50176x128.size (gathers_S50176x128_S128x128).axis := by
    subst hc2
    intro x
    sl_unfold_run_names
    refine Cert.LibWrites.read_writes_pred (Val := Elt F) (e := .i32) _ _ (fun w : BitVec 32 => w.toNat < 50176) _ ?_ x ?_
    · intro p hp y
      simp only [List.mem_cons, List.not_mem_nil, or_false] at hp
      rcases hp with rfl | rfl | rfl | rfl | rfl | rfl | rfl | rfl
      all_goals
        refine repack_lt _ (fun z => ?_) y
        rw [View.write_whole_univ]
        simp only [View.readAt_apply, Memref.view_whole, View.read_whole]
        first
          | exact hidx2 _
          | (have h := hidx2 (View.emb _ _); simpa [View.read_apply] using h)
    · exact View.cover_of_tiled _ ![16] rfl x
  generalize hc3 : (s3W).view.writes (Elt F) g3 _ = c3
  have hin3 : ∀ x, ((s3W).view.read (Elt F) c3 x).toNat < S50176x128.size (gathers_S50176x128_S128x128).axis := by
    subst hc3
    intro x
    sl_unfold_run_names
    refine Cert.LibWrites.read_writes_pred (Val := Elt F) (e := .i32) _ _ (fun w : BitVec 32 => w.toNat < 50176) _ ?_ x ?_
    · intro p hp y
      simp only [List.mem_cons, List.not_mem_nil, or_false] at hp
      rcases hp with rfl | rfl | rfl | rfl | rfl | rfl | rfl | rfl
      all_goals
        refine repack_lt _ (fun z => ?_) y
        rw [View.write_whole_univ]
        simp only [View.readAt_apply, Memref.view_whole, View.read_whole]
        first
          | exact hidx4 _
          | (have h := hidx4 (View.emb _ _); simpa [View.read_apply] using h)
    · exact View.cover_of_tiled _ ![16] rfl x
  sl_exec
  sl_for (invG (F := F) d L) $$ [Hs0' Hs1' Hs4' Hs5' Hs6']
  case region =>
    intro k acc
    sl_unfold_run_names
    exact htrip k acc
  · unfold invG
    isplitl [Hs0']; · iexists _; iexact Hs0'
    isplitl [Hs1']; · iexists _; iexact Hs1'
    isplitl [Hs4']; · iexists _; iexact Hs4'
    isplitl [Hs5']; · iexists _; iexact Hs5'
    iexists _; iexact Hs6'
  iintro %_ HI
  unfold invG
  icases HI with ⟨⟨%h0, H0⟩, ⟨%h1, H1⟩, ⟨%h4, H4⟩, ⟨%h5, H5⟩, ⟨%h6, H6⟩⟩
  sl_exec
  sl_step
  isplitl [Htbl Htbl2 Hpos Hneg Hout]
  · isplitl [Htbl]; · iexact Htbl
    isplitl [Htbl2]; · iexact Htbl2
    isplitl [Hpos]; · iexact Hpos
    isplitl [Hneg]; · iexact Hneg
    iexists _; iexact Hout
  isplitl [H0 H1 Hs2' Hs3' H4 H5 H6 Hb30 Hb31 Hb32 Hb33 Hb34 Hbufs]
  · isplitl [H0]; · iexists _; iapply (Entails.of_eq (pts_s0 (F := F) d L _)); iexact H0
    isplitl [H1]; · iexists _; iapply (Entails.of_eq (pts_s1 (F := F) d L _)); iexact H1
    isplitl [Hs2']; · iexists _; iapply (Entails.of_eq (pts_s2 (F := F) d L _)); iexact Hs2'
    isplitl [Hs3']; · iexists _; iapply (Entails.of_eq (pts_s3 (F := F) d L _)); iexact Hs3'
    isplitl [H4]; · iexists _; iapply (Entails.of_eq (pts_s4 (F := F) d L _)); iexact H4
    isplitl [H5]; · iexists _; iapply (Entails.of_eq (pts_s5 (F := F) d L _)); iexact H5
    isplitl [H6]; · iexists _; iapply (Entails.of_eq (pts_s6 (F := F) d L _)); iexact H6
    isplitl [Hb30]; · iexact Hb30
    isplitl [Hb31]; · iexact Hb31
    isplitl [Hb32]; · iexact Hb32
    isplitl [Hb33]; · iexact Hb33
    isplitl [Hb34]; · iexact Hb34
    iexact Hbufs
  isplitl [Hsem7 Hsem8 Hsc0 Hsc1 Hsc2 Hr5 Hr6 Hr30 Hr31 Hsems]
  · isplitl [Hsem7]; · iexact Hsem7
    isplitl [Hsem8]; · iexact Hsem8
    isplitl [Hsc0]; · iexact Hsc0
    isplitl [Hsc1]; · iexact Hsc1
    isplitl [Hsc2]; · iexact Hsc2
    isplitl [Hr5]; · iexact Hr5
    isplitl [Hr6]; · iexact Hr6
    isplitl [Hr30]; · iexact Hr30
    isplitl [Hr31]; · iexact Hr31
    iexact Hsems
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact .inl hp

end Tile

end Cert.Kernel.TileG

end
-- ==== Proof.TileGPartsK.lean ====
/-
  THE PARTS OF ONE TRIP of the first SparseCore kernel's loop, each at a symbolic place and trip: a part reads, per skewed
  step, 16 entries of the gathered positive rows and 16 of the gathered negative rows through index vectors that stay
  inside their blocks (the group's rows; the half the loaded index word selects plus the lane's skewed column), and writes
  their 16 differences into the packed difference block at the group's half-rows and the lane's parity half. Each part is
  stated over ITS CONTINUATION: the two raw-index buffers and the two gathered-row buffers are held at fixed contents
  throughout, the difference block at some contents, and the continuation is owed at whatever the part loads.
-/
import proofs.«203895_g52347061404180_cont_8to1_c_859_34_alg».proof.Proof.TileGDefsK
import proofs.«203895_g52347061404180_cont_8to1_c_859_34_alg».proof.Proof.Gen.Kernel.Skeleton
import proofs.«203895_g52347061404180_cont_8to1_c_859_34_alg».proof.Proof.LibSkewVec

noncomputable section

namespace Cert.Kernel.TileGParts

open Cert.Kernel Cert.Kernel.Gen Cert.Kernel.KCommon Cert.Kernel.TileCommon Cert.Kernel.TileG

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid1.Coords)
variable [FloatOps F]

/-- The trip's group number, as a word, is below eight. -/
theorem iv_lt (t : Fin k1_t1_loop.trips) : (Scf.iv (0#32 : BitVec 32) 1#32 t.val).toNat < 8 := by
  have ht : t.val < 8 := lt_of_lt_of_le t.isLt k1_t1_abs.2.1
  unfold Scf.iv
  rw [BitVec.toNat_add, BitVec.toNat_mul, BitVec.toNat_ofNat]
  show (0 + t.val % 2 ^ 32 * 1 % 2 ^ 32) % 2 ^ 32 < 8
  omega

/-- The lane sequence, as the kernel spells it. -/
abbrev laneV : IVec S16 32 := iota .scVector S16 32 [0] iota_S16_d0_w32_scVector

/-- What a trip holds: the raw index words of each sign and the gathered rows of each sign at fixed contents, the
    difference block at some contents. -/
def heldG (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) : sProp 𝕄 :=
  iprop(((rawPM).view.loc (V d (cV L) (jV L)) ↦{fullShare} g0)
    ∗ ((rawNM).view.loc (V d (cV L) (jV L)) ↦{fullShare} g1)
    ∗ ((rowsPM).view.loc (V d (cV L) (jV L)) ↦{fullShare} g4)
    ∗ ((rowsNM).view.loc (V d (cV L) (jV L)) ↦{fullShare} g5)
    ∗ ∃ g6, (diffM).view.loc (V d (cV L) (jV L)) ↦{fullShare} g6)

set_option maxHeartbeats 2000000 in
set_option maxRecDepth 65536 in
/-- Part 1 of a trip, owed its continuation at whatever it loads. -/
theorem part1_frame (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v183 : IVec S16 32) (v185 : IVec S16 32) (v193 : IVec S16 32) (v199 : IVec S16 32) (v217 : Vec F S16 .f32) (v219 : Vec F S16 .f32) (v220 : IVec S16 32), k1_chk6 v185 v220) → Prog (TpuEff nD τ sig (Elt F) Λ₀ (.scVector (cV L) (jV L))) α) (Q : α → sProp 𝕄)
    (hk : ∀ (x189 : Vec F S16 .i32) (x195 : Vec F S16 .i32) (x217 : Vec F S16 .f32) (x219 : Vec F S16 .f32) (h6 : k1_chk6 (k1_pay8 (k1_pay7 laneV 0#32 1#32 k)) (addi (k1_pay1 laneV k1_pay164 k1_pay165) (k1_pay15 k1_pay164))), heldG (F := F) d L g0 g1 g4 g5 ⊢ wp frame (wpE (defs₀ (F := F)) 𝒱₀ (V d (cV L) (jV L)) none) Set.univ (kk ⟨(k1_pay7 laneV 0#32 1#32 k), (k1_pay8 (k1_pay7 laneV 0#32 1#32 k)), k1_pay11 k1_pay164 x189, k1_pay12 k1_pay164 x195, x217, x219, (addi (k1_pay1 laneV k1_pay164 k1_pay165) (k1_pay15 k1_pay164)), h6⟩) Q) :
    heldG (F := F) d L g0 g1 g4 g5
      ⊢ wp frame (wpE (defs₀ (F := F)) 𝒱₀ (V d (cV L) (jV L)) none) Set.univ
          (k1_part1 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 laneV k1_pay164 (k1_pay1 laneV k1_pay164 k1_pay165) 0#32 1#32 k >>= kk) Q := by
  have hg := iv_lt k
  rw [k1_part1_eq_skeleton]; unfold k1_part1_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _ _ _ _ _)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 2 of a trip, owed its continuation at whatever it loads. -/
theorem part2_frame (k : Fin k1_t1_loop.trips) (x189 : Vec F S16 .i32) (x195 : Vec F S16 .i32) (x217 : Vec F S16 .f32) (x219 : Vec F S16 .f32) (h6 : k1_chk6 (k1_pay8 (k1_pay7 laneV 0#32 1#32 k)) (addi (k1_pay1 laneV k1_pay164 k1_pay165) (k1_pay15 k1_pay164)))
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (IVec S16 32) → Prog (TpuEff nD τ sig (Elt F) Λ₀ (.scVector (cV L) (jV L))) α) (Q : α → sProp 𝕄)
    (hk : heldG (F := F) d L g0 g1 g4 g5 ⊢ wp frame (wpE (defs₀ (F := F)) 𝒱₀ (V d (cV L) (jV L)) none) Set.univ (kk (k1_pay23 k1_pay164)) Q) :
    heldG (F := F) d L g0 g1 g4 g5
      ⊢ wp frame (wpE (defs₀ (F := F)) 𝒱₀ (V d (cV L) (jV L)) none) Set.univ
          (k1_part2 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) x217 x219 (addi (k1_pay1 laneV k1_pay164 k1_pay165) (k1_pay15 k1_pay164)) h6 >>= kk) Q := by
  have hg := iv_lt k
  rw [k1_part2_eq_skeleton]; unfold k1_part2_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 3 of a trip, owed its continuation at whatever it loads. -/
theorem part3_frame (k : Fin k1_t1_loop.trips) (x189 : Vec F S16 .i32) (x195 : Vec F S16 .i32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v297 : IVec S16 32) (k1_hw27 : k1_chk27 (k1_pay8 (k1_pay7 laneV 0#32 1#32 k)) v297), FVec F S16 .f32) → Prog (TpuEff nD τ sig (Elt F) Λ₀ (.scVector (cV L) (jV L))) α) (Q : α → sProp 𝕄)
    (hk : ∀ (h27 : k1_chk27 (k1_pay8 (k1_pay7 laneV 0#32 1#32 k)) (addi (k1_pay1 laneV k1_pay164 k1_pay165) (k1_pay29 k1_pay164))) (x294 : Vec F S16 .f32) (x296 : Vec F S16 .f32), heldG (F := F) d L g0 g1 g4 g5 ⊢ wp frame (wpE (defs₀ (F := F)) 𝒱₀ (V d (cV L) (jV L)) none) Set.univ (kk ⟨(addi (k1_pay1 laneV k1_pay164 k1_pay165) (k1_pay29 k1_pay164)), h27, k1_pay30 x294 x296⟩) Q) :
    heldG (F := F) d L g0 g1 g4 g5
      ⊢ wp frame (wpE (defs₀ (F := F)) 𝒱₀ (V d (cV L) (jV L)) none) Set.univ
          (k1_part3 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay23 k1_pay164) >>= kk) Q := by
  have hg := iv_lt k
  rw [k1_part3_eq_skeleton]; unfold k1_part3_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _ _ _)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 4 of a trip, owed its continuation at whatever it loads. -/
theorem part4_frame (k : Fin k1_t1_loop.trips) (x189 : Vec F S16 .i32) (x195 : Vec F S16 .i32) (h27 : k1_chk27 (k1_pay8 (k1_pay7 laneV 0#32 1#32 k)) (addi (k1_pay1 laneV k1_pay164 k1_pay165) (k1_pay29 k1_pay164))) (x294 : Vec F S16 .f32) (x296 : Vec F S16 .f32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v336 : IVec S16 32), IVec S16 32) → Prog (TpuEff nD τ sig (Elt F) Λ₀ (.scVector (cV L) (jV L))) α) (Q : α → sProp 𝕄)
    (hk : heldG (F := F) d L g0 g1 g4 g5 ⊢ wp frame (wpE (defs₀ (F := F)) 𝒱₀ (V d (cV L) (jV L)) none) Set.univ (kk ⟨k1_pay37 k1_pay164, k1_pay38 k1_pay164 (k1_pay11 k1_pay164 x189)⟩) Q) :
    heldG (F := F) d L g0 g1 g4 g5
      ⊢ wp frame (wpE (defs₀ (F := F)) 𝒱₀ (V d (cV L) (jV L)) none) Set.univ
          (k1_part4 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (addi (k1_pay1 laneV k1_pay164 k1_pay165) (k1_pay29 k1_pay164)) h27 (k1_pay30 x294 x296) >>= kk) Q := by
  have hg := iv_lt k
  rw [k1_part4_eq_skeleton]; unfold k1_part4_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 5 of a trip, owed its continuation at whatever it loads. -/
theorem part5_frame (k : Fin k1_t1_loop.trips) (x189 : Vec F S16 .i32) (x195 : Vec F S16 .i32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (PUnit) → Prog (TpuEff nD τ sig (Elt F) Λ₀ (.scVector (cV L) (jV L))) α) (Q : α → sProp 𝕄)
    (hk : heldG (F := F) d L g0 g1 g4 g5 ⊢ wp frame (wpE (defs₀ (F := F)) 𝒱₀ (V d (cV L) (jV L)) none) Set.univ (kk ⟨⟩) Q) :
    heldG (F := F) d L g0 g1 g4 g5
      ⊢ wp frame (wpE (defs₀ (F := F)) 𝒱₀ (V d (cV L) (jV L)) none) Set.univ
          (k1_part5 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay37 k1_pay164) (k1_pay38 k1_pay164 (k1_pay11 k1_pay164 x189)) >>= kk) Q := by
  have hg := iv_lt k
  rw [k1_part5_eq_skeleton]; unfold k1_part5_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 6 of a trip, owed its continuation at whatever it loads. -/
theorem part6_frame (k : Fin k1_t1_loop.trips) (x189 : Vec F S16 .i32) (x195 : Vec F S16 .i32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v413 : IVec S16 32) (v414 : IVec S16 32), k1_chk58 (k1_pay7 laneV 0#32 1#32 k) v414) → Prog (TpuEff nD τ sig (Elt F) Λ₀ (.scVector (cV L) (jV L))) α) (Q : α → sProp 𝕄)
    (hk : ∀ (h58 : k1_chk58 (k1_pay7 laneV 0#32 1#32 k) (addi (k1_pay11 k1_pay164 x189) (k1_pay52 k1_pay164))), heldG (F := F) d L g0 g1 g4 g5 ⊢ wp frame (wpE (defs₀ (F := F)) 𝒱₀ (V d (cV L) (jV L)) none) Set.univ (kk ⟨k1_pay52 k1_pay164, (addi (k1_pay11 k1_pay164 x189) (k1_pay52 k1_pay164)), h58⟩) Q) :
    heldG (F := F) d L g0 g1 g4 g5
      ⊢ wp frame (wpE (defs₀ (F := F)) 𝒱₀ (V d (cV L) (jV L)) none) Set.univ
          (k1_part6 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) >>= kk) Q := by
  have hg := iv_lt k
  rw [k1_part6_eq_skeleton]; unfold k1_part6_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 7 of a trip, owed its continuation at whatever it loads. -/
theorem part7_frame (k : Fin k1_t1_loop.trips) (x189 : Vec F S16 .i32) (x195 : Vec F S16 .i32) (h58 : k1_chk58 (k1_pay7 laneV 0#32 1#32 k) (addi (k1_pay11 k1_pay164 x189) (k1_pay52 k1_pay164)))
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (BitVec 32) → Prog (TpuEff nD τ sig (Elt F) Λ₀ (.scVector (cV L) (jV L))) α) (Q : α → sProp 𝕄)
    (hk : heldG (F := F) d L g0 g1 g4 g5 ⊢ wp frame (wpE (defs₀ (F := F)) 𝒱₀ (V d (cV L) (jV L)) none) Set.univ (kk 23#32) Q) :
    heldG (F := F) d L g0 g1 g4 g5
      ⊢ wp frame (wpE (defs₀ (F := F)) 𝒱₀ (V d (cV L) (jV L)) none) Set.univ
          (k1_part7 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay52 k1_pay164) (addi (k1_pay11 k1_pay164 x189) (k1_pay52 k1_pay164)) h58 >>= kk) Q := by
  have hg := iv_lt k
  rw [k1_part7_eq_skeleton]; unfold k1_part7_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 8 of a trip, owed its continuation at whatever it loads. -/
theorem part8_frame (k : Fin k1_t1_loop.trips) (x189 : Vec F S16 .i32) (x195 : Vec F S16 .i32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v490 : IVec S16 32), Vec F S16 .f32) → Prog (TpuEff nD τ sig (Elt F) Λ₀ (.scVector (cV L) (jV L))) α) (Q : α → sProp 𝕄)
    (hk : ∀ (x492 : Vec F S16 .f32), heldG (F := F) d L g0 g1 g4 g5 ⊢ wp frame (wpE (defs₀ (F := F)) 𝒱₀ (V d (cV L) (jV L)) none) Set.univ (kk ⟨k1_pay66 k1_pay164, x492⟩) Q) :
    heldG (F := F) d L g0 g1 g4 g5
      ⊢ wp frame (wpE (defs₀ (F := F)) 𝒱₀ (V d (cV L) (jV L)) none) Set.univ
          (k1_part8 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) 23#32 >>= kk) Q := by
  have hg := iv_lt k
  rw [k1_part8_eq_skeleton]; unfold k1_part8_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 9 of a trip, owed its continuation at whatever it loads. -/
theorem part9_frame (k : Fin k1_t1_loop.trips) (x189 : Vec F S16 .i32) (x195 : Vec F S16 .i32) (x492 : Vec F S16 .f32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (IVec S16 32) → Prog (TpuEff nD τ sig (Elt F) Λ₀ (.scVector (cV L) (jV L))) α) (Q : α → sProp 𝕄)
    (hk : heldG (F := F) d L g0 g1 g4 g5 ⊢ wp frame (wpE (defs₀ (F := F)) 𝒱₀ (V d (cV L) (jV L)) none) Set.univ (kk k1_pay74) Q) :
    heldG (F := F) d L g0 g1 g4 g5
      ⊢ wp frame (wpE (defs₀ (F := F)) 𝒱₀ (V d (cV L) (jV L)) none) Set.univ
          (k1_part9 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay66 k1_pay164) x492 >>= kk) Q := by
  have hg := iv_lt k
  rw [k1_part9_eq_skeleton]; unfold k1_part9_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 10 of a trip, owed its continuation at whatever it loads. -/
theorem part10_frame (k : Fin k1_t1_loop.trips) (x189 : Vec F S16 .i32) (x195 : Vec F S16 .i32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v567 : IVec S16 32) (v569 : Vec F S16 .f32), IVec S16 32) → Prog (TpuEff nD τ sig (Elt F) Λ₀ (.scVector (cV L) (jV L))) α) (Q : α → sProp 𝕄)
    (hk : ∀ (x569 : Vec F S16 .f32), heldG (F := F) d L g0 g1 g4 g5 ⊢ wp frame (wpE (defs₀ (F := F)) 𝒱₀ (V d (cV L) (jV L)) none) Set.univ (kk ⟨k1_pay81 k1_pay164, x569, k1_pay82 k1_pay164 (k1_pay12 k1_pay164 x195)⟩) Q) :
    heldG (F := F) d L g0 g1 g4 g5
      ⊢ wp frame (wpE (defs₀ (F := F)) 𝒱₀ (V d (cV L) (jV L)) none) Set.univ
          (k1_part10 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) k1_pay74 >>= kk) Q := by
  have hg := iv_lt k
  rw [k1_part10_eq_skeleton]; unfold k1_part10_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 11 of a trip, owed its continuation at whatever it loads. -/
theorem part11_frame (k : Fin k1_t1_loop.trips) (x189 : Vec F S16 .i32) (x195 : Vec F S16 .i32) (x569 : Vec F S16 .f32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (IVec S16 32) → Prog (TpuEff nD τ sig (Elt F) Λ₀ (.scVector (cV L) (jV L))) α) (Q : α → sProp 𝕄)
    (hk : heldG (F := F) d L g0 g1 g4 g5 ⊢ wp frame (wpE (defs₀ (F := F)) 𝒱₀ (V d (cV L) (jV L)) none) Set.univ (kk (k1_pay90 k1_pay164)) Q) :
    heldG (F := F) d L g0 g1 g4 g5
      ⊢ wp frame (wpE (defs₀ (F := F)) 𝒱₀ (V d (cV L) (jV L)) none) Set.univ
          (k1_part11 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay81 k1_pay164) x569 (k1_pay82 k1_pay164 (k1_pay12 k1_pay164 x195)) >>= kk) Q := by
  have hg := iv_lt k
  rw [k1_part11_eq_skeleton]; unfold k1_part11_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 12 of a trip, owed its continuation at whatever it loads. -/
theorem part12_frame (k : Fin k1_t1_loop.trips) (x189 : Vec F S16 .i32) (x195 : Vec F S16 .i32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v644 : IVec S16 32) (v646 : Vec F S16 .f32) (v647 : IVec S16 32), k1_chk122 (k1_pay7 laneV 0#32 1#32 k) v647) → Prog (TpuEff nD τ sig (Elt F) Λ₀ (.scVector (cV L) (jV L))) α) (Q : α → sProp 𝕄)
    (hk : ∀ (x646 : Vec F S16 .f32) (h122 : k1_chk122 (k1_pay7 laneV 0#32 1#32 k) (addi (k1_pay12 k1_pay164 x195) (k1_pay97 k1_pay164))), heldG (F := F) d L g0 g1 g4 g5 ⊢ wp frame (wpE (defs₀ (F := F)) 𝒱₀ (V d (cV L) (jV L)) none) Set.univ (kk ⟨k1_pay97 k1_pay164, x646, (addi (k1_pay12 k1_pay164 x195) (k1_pay97 k1_pay164)), h122⟩) Q) :
    heldG (F := F) d L g0 g1 g4 g5
      ⊢ wp frame (wpE (defs₀ (F := F)) 𝒱₀ (V d (cV L) (jV L)) none) Set.univ
          (k1_part12 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay90 k1_pay164) >>= kk) Q := by
  have hg := iv_lt k
  rw [k1_part12_eq_skeleton]; unfold k1_part12_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _ _)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 13 of a trip, owed its continuation at whatever it loads. -/
theorem part13_frame (k : Fin k1_t1_loop.trips) (x189 : Vec F S16 .i32) (x195 : Vec F S16 .i32) (x646 : Vec F S16 .f32) (h122 : k1_chk122 (k1_pay7 laneV 0#32 1#32 k) (addi (k1_pay12 k1_pay164 x195) (k1_pay97 k1_pay164)))
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v685 : IVec S16 32), BitVec 32) → Prog (TpuEff nD τ sig (Elt F) Λ₀ (.scVector (cV L) (jV L))) α) (Q : α → sProp 𝕄)
    (hk : heldG (F := F) d L g0 g1 g4 g5 ⊢ wp frame (wpE (defs₀ (F := F)) 𝒱₀ (V d (cV L) (jV L)) none) Set.univ (kk ⟨k1_pay105 k1_pay164, 63#32⟩) Q) :
    heldG (F := F) d L g0 g1 g4 g5
      ⊢ wp frame (wpE (defs₀ (F := F)) 𝒱₀ (V d (cV L) (jV L)) none) Set.univ
          (k1_part13 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay97 k1_pay164) x646 (addi (k1_pay12 k1_pay164 x195) (k1_pay97 k1_pay164)) h122 >>= kk) Q := by
  have hg := iv_lt k
  rw [k1_part13_eq_skeleton]; unfold k1_part13_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 14 of a trip, owed its continuation at whatever it loads. -/
theorem part14_frame (k : Fin k1_t1_loop.trips) (x189 : Vec F S16 .i32) (x195 : Vec F S16 .i32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v721 : IVec S16 32) (v723 : Vec F S16 .f32), Vec F S16 .f32) → Prog (TpuEff nD τ sig (Elt F) Λ₀ (.scVector (cV L) (jV L))) α) (Q : α → sProp 𝕄)
    (hk : ∀ (x723 : Vec F S16 .f32) (x725 : Vec F S16 .f32), heldG (F := F) d L g0 g1 g4 g5 ⊢ wp frame (wpE (defs₀ (F := F)) 𝒱₀ (V d (cV L) (jV L)) none) Set.univ (kk ⟨k1_pay112 k1_pay164, x723, x725⟩) Q) :
    heldG (F := F) d L g0 g1 g4 g5
      ⊢ wp frame (wpE (defs₀ (F := F)) 𝒱₀ (V d (cV L) (jV L)) none) Set.univ
          (k1_part14 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay105 k1_pay164) 63#32 >>= kk) Q := by
  have hg := iv_lt k
  rw [k1_part14_eq_skeleton]; unfold k1_part14_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _ _)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 15 of a trip, owed its continuation at whatever it loads. -/
theorem part15_frame (k : Fin k1_t1_loop.trips) (x189 : Vec F S16 .i32) (x195 : Vec F S16 .i32) (x723 : Vec F S16 .f32) (x725 : Vec F S16 .f32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v762 : IVec S16 32), IVec S16 32) → Prog (TpuEff nD τ sig (Elt F) Λ₀ (.scVector (cV L) (jV L))) α) (Q : α → sProp 𝕄)
    (hk : heldG (F := F) d L g0 g1 g4 g5 ⊢ wp frame (wpE (defs₀ (F := F)) 𝒱₀ (V d (cV L) (jV L)) none) Set.univ (kk ⟨k1_pay120 k1_pay164, k1_pay121⟩) Q) :
    heldG (F := F) d L g0 g1 g4 g5
      ⊢ wp frame (wpE (defs₀ (F := F)) 𝒱₀ (V d (cV L) (jV L)) none) Set.univ
          (k1_part15 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay112 k1_pay164) x723 x725 >>= kk) Q := by
  have hg := iv_lt k
  rw [k1_part15_eq_skeleton]; unfold k1_part15_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 16 of a trip, owed its continuation at whatever it loads. -/
theorem part16_frame (k : Fin k1_t1_loop.trips) (x189 : Vec F S16 .i32) (x195 : Vec F S16 .i32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v800 : Vec F S16 .f32) (v802 : Vec F S16 .f32), IVec S16 32) → Prog (TpuEff nD τ sig (Elt F) Λ₀ (.scVector (cV L) (jV L))) α) (Q : α → sProp 𝕄)
    (hk : ∀ (x800 : Vec F S16 .f32) (x802 : Vec F S16 .f32), heldG (F := F) d L g0 g1 g4 g5 ⊢ wp frame (wpE (defs₀ (F := F)) 𝒱₀ (V d (cV L) (jV L)) none) Set.univ (kk ⟨x800, x802, k1_pay129 k1_pay164 (k1_pay1 laneV k1_pay164 k1_pay165)⟩) Q) :
    heldG (F := F) d L g0 g1 g4 g5
      ⊢ wp frame (wpE (defs₀ (F := F)) 𝒱₀ (V d (cV L) (jV L)) none) Set.univ
          (k1_part16 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay120 k1_pay164) k1_pay121 >>= kk) Q := by
  have hg := iv_lt k
  rw [k1_part16_eq_skeleton]; unfold k1_part16_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _ _)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 17 of a trip, owed its continuation at whatever it loads. -/
theorem part17_frame (k : Fin k1_t1_loop.trips) (x189 : Vec F S16 .i32) (x195 : Vec F S16 .i32) (x800 : Vec F S16 .f32) (x802 : Vec F S16 .f32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (IVec S16 32) → Prog (TpuEff nD τ sig (Elt F) Λ₀ (.scVector (cV L) (jV L))) α) (Q : α → sProp 𝕄)
    (hk : heldG (F := F) d L g0 g1 g4 g5 ⊢ wp frame (wpE (defs₀ (F := F)) 𝒱₀ (V d (cV L) (jV L)) none) Set.univ (kk (k1_pay137 k1_pay164)) Q) :
    heldG (F := F) d L g0 g1 g4 g5
      ⊢ wp frame (wpE (defs₀ (F := F)) 𝒱₀ (V d (cV L) (jV L)) none) Set.univ
          (k1_part17 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) x800 x802 (k1_pay129 k1_pay164 (k1_pay1 laneV k1_pay164 k1_pay165)) >>= kk) Q := by
  have hg := iv_lt k
  rw [k1_part17_eq_skeleton]; unfold k1_part17_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 18 of a trip, owed its continuation at whatever it loads. -/
theorem part18_frame (k : Fin k1_t1_loop.trips) (x189 : Vec F S16 .i32) (x195 : Vec F S16 .i32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v877 : Vec F S16 .f32) (v879 : Vec F S16 .f32) (v880 : IVec S16 32), k1_chk186 (k1_pay8 (k1_pay7 laneV 0#32 1#32 k)) v880) → Prog (TpuEff nD τ sig (Elt F) Λ₀ (.scVector (cV L) (jV L))) α) (Q : α → sProp 𝕄)
    (hk : ∀ (x877 : Vec F S16 .f32) (x879 : Vec F S16 .f32) (h186 : k1_chk186 (k1_pay8 (k1_pay7 laneV 0#32 1#32 k)) (addi (k1_pay1 laneV k1_pay164 k1_pay165) (k1_pay144 k1_pay164))), heldG (F := F) d L g0 g1 g4 g5 ⊢ wp frame (wpE (defs₀ (F := F)) 𝒱₀ (V d (cV L) (jV L)) none) Set.univ (kk ⟨x877, x879, (addi (k1_pay1 laneV k1_pay164 k1_pay165) (k1_pay144 k1_pay164)), h186⟩) Q) :
    heldG (F := F) d L g0 g1 g4 g5
      ⊢ wp frame (wpE (defs₀ (F := F)) 𝒱₀ (V d (cV L) (jV L)) none) Set.univ
          (k1_part18 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay137 k1_pay164) >>= kk) Q := by
  have hg := iv_lt k
  rw [k1_part18_eq_skeleton]; unfold k1_part18_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _ _ _)
  unfold heldG
  isplitl [H0]; · iexact H0
  isplitl [H1]; · iexact H1
  isplitl [H4]; · iexact H4
  isplitl [H5]; · iexact H5
  iexists _; iexact H6

end Cert.Kernel.TileGParts

end
-- ==== Proof.TileGTripK.lean ====
/-
  ONE TRIP of the first SparseCore kernel's loop over its 8 groups of 16 triples, at a symbolic place and trip: the
  eighteen parts in sequence, each owed the next at whatever it loads, then the last skewed steps' loads and stores. The
  raw index words and the gathered rows are held at fixed contents throughout; only the difference block changes.
-/
import proofs.«203895_g52347061404180_cont_8to1_c_859_34_alg».proof.Proof.TileGDefsK
import proofs.«203895_g52347061404180_cont_8to1_c_859_34_alg».proof.Proof.Gen.Kernel.Skeleton
import proofs.«203895_g52347061404180_cont_8to1_c_859_34_alg».proof.Proof.LibSkewVec
import proofs.«203895_g52347061404180_cont_8to1_c_859_34_alg».proof.Proof.TileGPartsK

noncomputable section

namespace Cert.Kernel.TileGTrip

open Cert.Kernel Cert.Kernel.Gen Cert.Kernel.KCommon Cert.Kernel.TileCommon Cert.Kernel.TileG Cert.Kernel.TileGParts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid1.Coords)
variable [FloatOps F]

set_option maxHeartbeats 4000000 in
set_option maxRecDepth 65536 in
/-- One trip from the four read buffers at fixed contents: the eighteen parts, then the last steps. -/
theorem trip_held (k : Fin k1_t1_loop.trips) (acc : Unit)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) :
    heldG (F := F) d L g0 g1 g4 g5
      ⊢ wp frame (wpE (defs₀ (F := F)) 𝒱₀ (V d (cV L) (jV L)) none) Set.univ
          (k1_t1_body L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 (iota .scVector S16 32 [0] iota_S16_d0_w32_scVector) k1_pay164 k1_pay165 k acc)
          fun acc' => invG (F := F) d L (k.val + 1) acc' := by
  have hg := iv_lt k
  unfold k1_t1_body
  simp only [SparseCore.vectorLoadIdx_bind (c := (V d (cV L) (jV L))), SparseCore.vectorStoreIdx_bind (c := (V d (cV L) (jV L)))]
  refine part1_frame (F := F) d L k g0 g1 g4 g5 _ _ (fun x189 x195 x217 x219 h6 => ?_)
  refine part2_frame (F := F) d L k x189 x195 x217 x219 h6 g0 g1 g4 g5 _ _ ?_
  refine part3_frame (F := F) d L k x189 x195 g0 g1 g4 g5 _ _ (fun h27 x294 x296 => ?_)
  refine part4_frame (F := F) d L k x189 x195 h27 x294 x296 g0 g1 g4 g5 _ _ ?_
  refine part5_frame (F := F) d L k x189 x195 g0 g1 g4 g5 _ _ ?_
  refine part6_frame (F := F) d L k x189 x195 g0 g1 g4 g5 _ _ (fun h58 => ?_)
  refine part7_frame (F := F) d L k x189 x195 h58 g0 g1 g4 g5 _ _ ?_
  refine part8_frame (F := F) d L k x189 x195 g0 g1 g4 g5 _ _ (fun x492 => ?_)
  refine part9_frame (F := F) d L k x189 x195 x492 g0 g1 g4 g5 _ _ ?_
  refine part10_frame (F := F) d L k x189 x195 g0 g1 g4 g5 _ _ (fun x569 => ?_)
  refine part11_frame (F := F) d L k x189 x195 x569 g0 g1 g4 g5 _ _ ?_
  refine part12_frame (F := F) d L k x189 x195 g0 g1 g4 g5 _ _ (fun x646 h122 => ?_)
  refine part13_frame (F := F) d L k x189 x195 x646 h122 g0 g1 g4 g5 _ _ ?_
  refine part14_frame (F := F) d L k x189 x195 g0 g1 g4 g5 _ _ (fun x723 x725 => ?_)
  refine part15_frame (F := F) d L k x189 x195 x723 x725 g0 g1 g4 g5 _ _ ?_
  refine part16_frame (F := F) d L k x189 x195 g0 g1 g4 g5 _ _ (fun x800 x802 => ?_)
  refine part17_frame (F := F) d L k x189 x195 x800 x802 g0 g1 g4 g5 _ _ ?_
  refine part18_frame (F := F) d L k x189 x195 g0 g1 g4 g5 _ _ (fun x877 x879 h186 => ?_)
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_step
  unfold invG
  isplitl [H0]; · iexists _; iexact H0
  isplitl [H1]; · iexists _; iexact H1
  isplitl [H4]; · iexists _; iexact H4
  isplitl [H5]; · iexists _; iexact H5
  iexists _; iexact H6

/-- ONE TRIP KEEPS WHAT THE LOOP HOLDS. -/
theorem trip_g (k : Fin k1_t1_loop.trips) (acc : Unit) :
    invG (F := F) d L k.val acc
      ⊢ wp frame (wpE (defs₀ (F := F)) 𝒱₀ (V d (cV L) (jV L)) none) Set.univ
          (k1_t1_body L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 (iota .scVector S16 32 [0] iota_S16_d0_w32_scVector) k1_pay164 k1_pay165 k acc)
          fun acc' => invG (F := F) d L (k.val + 1) acc' := by
  unfold invG
  iintro ⟨⟨%g0, H0⟩, ⟨%g1, H1⟩, ⟨%g4, H4⟩, ⟨%g5, H5⟩, H6⟩
  iapply (trip_held (F := F) d L k acc g0 g1 g4 g5)
  unfold heldG
  isplitl [H0]; · iexact H0
  isplitl [H1]; · iexact H1
  isplitl [H4]; · iexact H4
  isplitl [H5]; · iexact H5
  iexact H6

end Cert.Kernel.TileGTrip

end
-- ==== Proof.TileGK.lean ====
/-
  ONE TILE'S TASK of the first SparseCore kernel, at a symbolic place: THE FRAME — the task's frame from the loop's trip
  (TileGFrame) at the trip proved part by part (TileGTrip).
-/
import proofs.«203895_g52347061404180_cont_8to1_c_859_34_alg».proof.Proof.TileGFrameK
import proofs.«203895_g52347061404180_cont_8to1_c_859_34_alg».proof.Proof.TileGTripK

noncomputable section

namespace Cert.Kernel.TileG

open Cert.Kernel Cert.Kernel.Gen Cert.Kernel.KCommon Cert.Kernel.TileCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- THE TILE'S TASK: from its payload (two read shares of the packed table, a read share of each index array whose words
    are all in `[0, 99999]`, its rows of the result outright), its scoped buffers and semaphores and what it owes, the
    task runs to its end, nothing faulting, and hands the same back with the waits it made recorded. -/
theorem tile_body_g (hF : (K (F := F)).Facts) (d : Dev nD) (L : grid1.Coords) (q6a q6b q2 q4 : PosShare TreeShare)
    (f6 : Buf (Elt F) ((Memref.whole main_v6_scv : Memref sig .scVector .hbm S50176x128 .f32).view.loc (V d (cV L) (jV L))))
    (f2 : Buf (Elt F) ((Memref.whole main_v2_scv : Memref sig .scVector .hbm S4096 .i32).view.loc (V d (cV L) (jV L))))
    (f4 : Buf (Elt F) ((Memref.whole main_v4_scv : Memref sig .scVector .hbm S4096 .i32).view.loc (V d (cV L) (jV L))))
    (hidx2 : ∀ j, 0 ≤ (f2 j).toInt ∧ (f2 j).toInt ≤ 99999) (hidx4 : ∀ j, 0 ≤ (f4 j).toInt ∧ (f4 j).toInt ≤ 99999)
    (O : CellTallies nD τ sig (HIx 2)) (W : Waits sig (HIx 2)) (hO : ∀ g, O g none = 0) :
    iprop(levAts (K (F := F)).L (K (F := F)).lev ∗ emp ∗ goG d L q6a q6b q2 q4 f6 f2 f4
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_g_body L tblM (Memref.isWhole_whole _) posM (Memref.isWhole_whole _) negM (Memref.isWhole_whole _)
            gpM (Memref.isWhole_whole _) rawPM (Memref.isWhole_whole _) rawNM (Memref.isWhole_whole _) idxPM (Memref.isWhole_whole _)
            idxNM (Memref.isWhole_whole _) rowsPM (Memref.isWhole_whole _) rowsNM (Memref.isWhole_whole _) diffM (Memref.isWhole_whole _)
            cc1_scratch7 cc1_scratch8 cc1_scoped0 cc1_scoped1 cc1_scoped2)
          fun _ => iprop(goG d L q6a q6b q2 q4 f6 f2 f4 ∗ scopedBufs (V d (cV L) (jV L)) ∗ scopedSems0 (V d (cV L) (jV L))
            ∗ ∃ W', ⌜∀ p ∈ W', p ∈ W ∨ p.2 = none⌝ ∗ owes (V d (cV L) (jV L)) O W') :=
  tile_body_g_of_trip hF d L q6a q6b q2 q4 f6 f2 f4 hidx2 hidx4
    (fun k acc => Cert.Kernel.TileGTrip.trip_g (F := F) d L k acc) O W hO

end Cert.Kernel.TileG

end
-- ==== Proof.TileDotParts.lean ====
/-
  THE PARTS OF ONE TRIP of the second SparseCore kernel's loop, each at a symbolic place, trip and accumulator: a part
  reads, per skewed step, 16 entries of the gathered user rows and 16 entries of the packed difference rows through
  index vectors that stay inside their blocks (the group's rows, the selected half plus the lane's skewed column), and
  hands on the accumulated products and the next step's column offsets. Each is stated over ITS CONTINUATION: the four
  scratch buffers are held at fixed contents throughout, and the continuation is owed at every accumulator value.
-/
import proofs.«203895_g52347061404180_cont_8to1_c_859_34_alg».proof.Proof.TileDotDefs
import proofs.«203895_g52347061404180_cont_8to1_c_859_34_alg».proof.Proof.Gen.KernelIdeal.Skeleton
import proofs.«203895_g52347061404180_cont_8to1_c_859_34_alg».proof.Proof.LibSkewVec

noncomputable section

namespace Cert.KernelIdeal.TileDotParts

open Cert.KernelIdeal Cert.KernelIdeal.Gen Cert.KernelIdeal.KCommon Cert.KernelIdeal.TileCommon Cert.KernelIdeal.TileDotDefs

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid3.Coords)
variable [FloatOps F]

/-- The trip's group number, as a word, is below eight. -/
theorem iv_lt (t : Fin k3_t1_loop.trips) : (Scf.iv (0#32 : BitVec 32) 1#32 t.val).toNat < 8 := by
  have ht : t.val < 8 := lt_of_lt_of_le t.isLt k3_t1_abs.2.1
  unfold Scf.iv
  rw [BitVec.toNat_add, BitVec.toNat_mul, BitVec.toNat_ofNat]
  show (0 + t.val % 2 ^ 32 * 1 % 2 ^ 32) % 2 ^ 32 < 8
  omega

/-- The lane sequence, as the kernel spells it. -/
abbrev laneV : IVec S16 32 := iota .scVector S16 32 [0] iota_S16_d0_w32_scVector

/-- The four scratch buffers a trip touches, at fixed contents. -/
def held (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L)))) : sProp 𝕄 :=
  iprop(((urawM).view.loc (V d (cV L) (jV L)) ↦{fullShare} g0)
    ∗ ((urowsM).view.loc (V d (cV L) (jV L)) ↦{fullShare} g2)
    ∗ ((gpvM).view.loc (V d (cV L) (jV L)) ↦{fullShare} g3)
    ∗ ((diffsM).view.loc (V d (cV L) (jV L)) ↦{fullShare} g4))

set_option maxHeartbeats 2000000 in
set_option maxRecDepth 65536 in
/-- Part 1 of a trip: the group's 16 index words read, then two skewed steps. -/
theorem part1_frame (t : Fin k3_t1_loop.trips)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type}
    (kk : (Σ' (_ : BitVec 32) (_ : IVec S16 32) (_ : IVec S16 32) (_ : IVec S16 32) (_ : FVec F S16 .f32), IVec S16 32)
      → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ
          (kk ⟨Scalar.muli (Scf.iv 0#32 1#32 t.val) 16#32, k3_pay5 laneV 0#32 1#32 t, k3_pay6 (k3_pay5 laneV 0#32 1#32 t),
            k3_pay7 (F := F) k3_pay1 ((urawM).view.readAt (Elt F) (Rect.unit (s := S128) (k3_off3 t) S16.size (k3_off3_inb t)).toLoadRect g0),
            acc', k3_pay11 k3_pay1⟩) Q) :
    held (F := F) d L g0 g2 g3 g4
      ⊢ wp frame (wpE (defs₀ (F := F)) 𝒱₀ (V d (cV L) (jV L)) none) Set.univ
          (k3_part1 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 laneV k3_pay1 k3_pay2 0#32 1#32 t >>= kk) Q := by
  have hg := iv_lt t
  rw [k3_part1_eq_skeleton]; unfold k3_part1_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 2 of a trip: four skewed steps. -/
theorem part2_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay16 k3_pay1⟩) Q) :
    held (F := F) d L g0 g2 g3 g4
      ⊢ wp frame (wpE (defs₀ (F := F)) 𝒱₀ (V d (cV L) (jV L)) none) Set.univ
          (k3_part2 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay11 k3_pay1) >>= kk) Q := by
  have hg := iv_lt t
  rw [k3_part2_eq_skeleton]; unfold k3_part2_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 3 of a trip: four skewed steps. -/
theorem part3_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay21 k3_pay1⟩) Q) :
    held (F := F) d L g0 g2 g3 g4
      ⊢ wp frame (wpE (defs₀ (F := F)) 𝒱₀ (V d (cV L) (jV L)) none) Set.univ
          (k3_part3 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay16 k3_pay1) >>= kk) Q := by
  have hg := iv_lt t
  rw [k3_part3_eq_skeleton]; unfold k3_part3_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 4 of a trip: four skewed steps. -/
theorem part4_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay26 k3_pay1⟩) Q) :
    held (F := F) d L g0 g2 g3 g4
      ⊢ wp frame (wpE (defs₀ (F := F)) 𝒱₀ (V d (cV L) (jV L)) none) Set.univ
          (k3_part4 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay21 k3_pay1) >>= kk) Q := by
  have hg := iv_lt t
  rw [k3_part4_eq_skeleton]; unfold k3_part4_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 5 of a trip: four skewed steps. -/
theorem part5_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay31 k3_pay1⟩) Q) :
    held (F := F) d L g0 g2 g3 g4
      ⊢ wp frame (wpE (defs₀ (F := F)) 𝒱₀ (V d (cV L) (jV L)) none) Set.univ
          (k3_part5 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay26 k3_pay1) >>= kk) Q := by
  have hg := iv_lt t
  rw [k3_part5_eq_skeleton]; unfold k3_part5_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 6 of a trip: four skewed steps. -/
theorem part6_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay36 k3_pay1⟩) Q) :
    held (F := F) d L g0 g2 g3 g4
      ⊢ wp frame (wpE (defs₀ (F := F)) 𝒱₀ (V d (cV L) (jV L)) none) Set.univ
          (k3_part6 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay31 k3_pay1) >>= kk) Q := by
  have hg := iv_lt t
  rw [k3_part6_eq_skeleton]; unfold k3_part6_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 7 of a trip: four skewed steps. -/
theorem part7_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay41 k3_pay1⟩) Q) :
    held (F := F) d L g0 g2 g3 g4
      ⊢ wp frame (wpE (defs₀ (F := F)) 𝒱₀ (V d (cV L) (jV L)) none) Set.univ
          (k3_part7 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay36 k3_pay1) >>= kk) Q := by
  have hg := iv_lt t
  rw [k3_part7_eq_skeleton]; unfold k3_part7_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 8 of a trip: four skewed steps. -/
theorem part8_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay46 k3_pay1⟩) Q) :
    held (F := F) d L g0 g2 g3 g4
      ⊢ wp frame (wpE (defs₀ (F := F)) 𝒱₀ (V d (cV L) (jV L)) none) Set.univ
          (k3_part8 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay41 k3_pay1) >>= kk) Q := by
  have hg := iv_lt t
  rw [k3_part8_eq_skeleton]; unfold k3_part8_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 9 of a trip: four skewed steps. -/
theorem part9_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay51 k3_pay1⟩) Q) :
    held (F := F) d L g0 g2 g3 g4
      ⊢ wp frame (wpE (defs₀ (F := F)) 𝒱₀ (V d (cV L) (jV L)) none) Set.univ
          (k3_part9 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay46 k3_pay1) >>= kk) Q := by
  have hg := iv_lt t
  rw [k3_part9_eq_skeleton]; unfold k3_part9_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 10 of a trip: four skewed steps. -/
theorem part10_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay56 k3_pay1⟩) Q) :
    held (F := F) d L g0 g2 g3 g4
      ⊢ wp frame (wpE (defs₀ (F := F)) 𝒱₀ (V d (cV L) (jV L)) none) Set.univ
          (k3_part10 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay51 k3_pay1) >>= kk) Q := by
  have hg := iv_lt t
  rw [k3_part10_eq_skeleton]; unfold k3_part10_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 11 of a trip: four skewed steps. -/
theorem part11_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay61 k3_pay1⟩) Q) :
    held (F := F) d L g0 g2 g3 g4
      ⊢ wp frame (wpE (defs₀ (F := F)) 𝒱₀ (V d (cV L) (jV L)) none) Set.univ
          (k3_part11 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay56 k3_pay1) >>= kk) Q := by
  have hg := iv_lt t
  rw [k3_part11_eq_skeleton]; unfold k3_part11_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 12 of a trip: four skewed steps. -/
theorem part12_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay66 k3_pay1⟩) Q) :
    held (F := F) d L g0 g2 g3 g4
      ⊢ wp frame (wpE (defs₀ (F := F)) 𝒱₀ (V d (cV L) (jV L)) none) Set.univ
          (k3_part12 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay61 k3_pay1) >>= kk) Q := by
  have hg := iv_lt t
  rw [k3_part12_eq_skeleton]; unfold k3_part12_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 13 of a trip: four skewed steps. -/
theorem part13_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay71 k3_pay1⟩) Q) :
    held (F := F) d L g0 g2 g3 g4
      ⊢ wp frame (wpE (defs₀ (F := F)) 𝒱₀ (V d (cV L) (jV L)) none) Set.univ
          (k3_part13 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay66 k3_pay1) >>= kk) Q := by
  have hg := iv_lt t
  rw [k3_part13_eq_skeleton]; unfold k3_part13_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 14 of a trip: four skewed steps. -/
theorem part14_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay76 k3_pay1⟩) Q) :
    held (F := F) d L g0 g2 g3 g4
      ⊢ wp frame (wpE (defs₀ (F := F)) 𝒱₀ (V d (cV L) (jV L)) none) Set.univ
          (k3_part14 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay71 k3_pay1) >>= kk) Q := by
  have hg := iv_lt t
  rw [k3_part14_eq_skeleton]; unfold k3_part14_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 15 of a trip: four skewed steps. -/
theorem part15_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay81 k3_pay1⟩) Q) :
    held (F := F) d L g0 g2 g3 g4
      ⊢ wp frame (wpE (defs₀ (F := F)) 𝒱₀ (V d (cV L) (jV L)) none) Set.univ
          (k3_part15 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay76 k3_pay1) >>= kk) Q := by
  have hg := iv_lt t
  rw [k3_part15_eq_skeleton]; unfold k3_part15_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

set_option maxHeartbeats 2000000 in
set_option maxRecDepth 65536 in
/-- Part 16 of a trip: four skewed steps. -/
theorem part16_frame (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : ∀ acc' : FVec F S16 .f32, held (F := F) d L g0 g2 g3 g4
      ⊢ wp frame (wpE (defs₀ (F := F)) 𝒱₀ (V d (cV L) (jV L)) none) Set.univ (kk ⟨acc', k3_pay86 k3_pay1⟩) Q) :
    held (F := F) d L g0 g2 g3 g4
      ⊢ wp frame (wpE (defs₀ (F := F)) 𝒱₀ (V d (cV L) (jV L)) none) Set.univ
          (k3_part16 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay81 k3_pay1) >>= kk) Q := by
  have hg := iv_lt t
  rw [k3_part16_eq_skeleton]; unfold k3_part16_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold held
  isplitl [H0]; · iexact H0
  isplitl [H2]; · iexact H2
  isplitl [H3]; · iexact H3
  iexact H4

end Cert.KernelIdeal.TileDotParts

end
-- ==== Proof.TileDotTrip.lean ====
/-
  ONE TRIP of the second SparseCore kernel's loop over its 8 groups of 16 users, at a symbolic place and trip: the
  sixteen parts in sequence, each owed the next at every accumulator value, then the last two skewed steps and the store
  of the 16 scores. The four scratch buffers are held throughout; only the scores' buffer changes.
-/
import proofs.«203895_g52347061404180_cont_8to1_c_859_34_alg».proof.Proof.TileDotDefs
import proofs.«203895_g52347061404180_cont_8to1_c_859_34_alg».proof.Proof.Gen.KernelIdeal.Skeleton
import proofs.«203895_g52347061404180_cont_8to1_c_859_34_alg».proof.Proof.LibSkewVec
import proofs.«203895_g52347061404180_cont_8to1_c_859_34_alg».proof.Proof.TileDotParts

noncomputable section

namespace Cert.KernelIdeal.TileDotTrip

open Cert.KernelIdeal Cert.KernelIdeal.Gen Cert.KernelIdeal.KCommon Cert.KernelIdeal.TileCommon Cert.KernelIdeal.TileDotDefs Cert.KernelIdeal.TileDotParts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid3.Coords)
variable [FloatOps F]

/-- What the loop holds from trip to trip: the four scratch buffers the trips touch, each at some contents. -/
def inv (_ : Nat) (_ : Unit) : sProp 𝕄 :=
  iprop((∃ g, (urawM).view.loc (V d (cV L) (jV L)) ↦{fullShare} g)
    ∗ (∃ g, (urowsM).view.loc (V d (cV L) (jV L)) ↦{fullShare} g)
    ∗ (∃ g, (gpvM).view.loc (V d (cV L) (jV L)) ↦{fullShare} g)
    ∗ ∃ g, (diffsM).view.loc (V d (cV L) (jV L)) ↦{fullShare} g)

set_option maxHeartbeats 4000000 in
set_option maxRecDepth 65536 in
/-- One trip from the four buffers at fixed contents: the sixteen parts, the last two steps, the store. -/
theorem trip_held (t : Fin k3_t1_loop.trips)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L)))) :
    held (F := F) d L g0 g2 g3 g4
      ⊢ wp frame (wpE (defs₀ (F := F)) 𝒱₀ (V d (cV L) (jV L)) none) Set.univ
          (k3_t1_body L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 laneV t ⟨⟩)
          fun _ => inv (F := F) d L (t.val + 1) ⟨⟩ := by
  have hg := iv_lt t
  unfold k3_t1_body
  simp only [SparseCore.vectorLoadIdx_bind (c := V d (cV L) (jV L))]
  refine part1_frame (F := F) d L t g0 g2 g3 g4 _ _ (fun a1 => ?_)
  refine part2_frame (F := F) d L t _ a1 g0 g2 g3 g4 _ _ (fun a2 => ?_)
  refine part3_frame (F := F) d L t _ a2 g0 g2 g3 g4 _ _ (fun a3 => ?_)
  refine part4_frame (F := F) d L t _ a3 g0 g2 g3 g4 _ _ (fun a4 => ?_)
  refine part5_frame (F := F) d L t _ a4 g0 g2 g3 g4 _ _ (fun a5 => ?_)
  refine part6_frame (F := F) d L t _ a5 g0 g2 g3 g4 _ _ (fun a6 => ?_)
  refine part7_frame (F := F) d L t _ a6 g0 g2 g3 g4 _ _ (fun a7 => ?_)
  refine part8_frame (F := F) d L t _ a7 g0 g2 g3 g4 _ _ (fun a8 => ?_)
  refine part9_frame (F := F) d L t _ a8 g0 g2 g3 g4 _ _ (fun a9 => ?_)
  refine part10_frame (F := F) d L t _ a9 g0 g2 g3 g4 _ _ (fun a10 => ?_)
  refine part11_frame (F := F) d L t _ a10 g0 g2 g3 g4 _ _ (fun a11 => ?_)
  refine part12_frame (F := F) d L t _ a11 g0 g2 g3 g4 _ _ (fun a12 => ?_)
  refine part13_frame (F := F) d L t _ a12 g0 g2 g3 g4 _ _ (fun a13 => ?_)
  refine part14_frame (F := F) d L t _ a13 g0 g2 g3 g4 _ _ (fun a14 => ?_)
  refine part15_frame (F := F) d L t _ a14 g0 g2 g3 g4 _ _ (fun a15 => ?_)
  refine part16_frame (F := F) d L t _ a15 g0 g2 g3 g4 _ _ (fun a16 => ?_)
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_step
  unfold inv
  isplitl [H0]; · iexists _; iexact H0
  isplitl [H2]; · iexists _; iexact H2
  isplitl [H3]; · iexists _; iexact H3
  iexists _; iexact H4

/-- One trip keeps what the loop holds. -/
theorem trip_dot (t : Fin k3_t1_loop.trips) :
    inv (F := F) d L t.val ⟨⟩
      ⊢ wp frame (wpE (defs₀ (F := F)) 𝒱₀ (V d (cV L) (jV L)) none) Set.univ
          (k3_t1_body L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 laneV t ⟨⟩)
          fun _ => inv (F := F) d L (t.val + 1) ⟨⟩ := by
  unfold inv
  iintro ⟨⟨%g0, H0⟩, ⟨%g2, H2⟩, ⟨%g3, H3⟩, ⟨%g4, H4⟩⟩
  iapply (trip_held (F := F) d L t g0 g2 g3 g4)
  unfold held
  isplitl [H0]; · iexact H0
  isplitl [H2]; · iexact H2
  isplitl [H3]; · iexact H3
  iexact H4

end Cert.KernelIdeal.TileDotTrip

end
-- ==== Proof.TileDotPartsV.lean ====
/-
  THE PARTS OF ONE TRIP of the second SparseCore kernel's loop, WITH THE ACCUMULATOR: a skewed step adds, lane by lane,
  the product of the entry it reads from the gathered user rows and the entry it reads from the packed difference rows;
  a part hands its continuation the accumulator after its steps. The step's update is one pure function of the two
  buffers' contents, the group, the group's index words and the step's number.
-/
import proofs.«203895_g52347061404180_cont_8to1_c_859_34_alg».proof.Proof.TileDotDefs
import proofs.«203895_g52347061404180_cont_8to1_c_859_34_alg».proof.Proof.Gen.KernelIdeal.Skeleton
import proofs.«203895_g52347061404180_cont_8to1_c_859_34_alg».proof.Proof.LibSkewVec
import proofs.«203895_g52347061404180_cont_8to1_c_859_34_alg».proof.Proof.TileDotParts

noncomputable section

namespace Cert.KernelIdeal.TileDotPartsV

open Cert.KernelIdeal Cert.KernelIdeal.Gen Cert.KernelIdeal.KCommon Cert.KernelIdeal.TileCommon Cert.KernelIdeal.TileDotDefs Cert.KernelIdeal.TileDotParts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid3.Coords)
variable [FloatOps F]

/-- What the gathered user rows' buffer and the packed difference rows' buffer read, whole. -/
abbrev R2 (g2 : Buf (Elt F) ((urowsM).view.loc (V d (cV L) (jV L)))) : Vec F S128x128 .f32 :=
  (urowsM).view.readAt (Elt F) (LoadRect.whole S128x128) g2
abbrev R3 (g3 : Buf (Elt F) ((gpvM).view.loc (V d (cV L) (jV L)))) : Vec F S64x128 .f32 :=
  (gpvM).view.readAt (Elt F) (LoadRect.whole S64x128) g3

/-- The trip's group number as a word. -/
abbrev grp (t : Fin k3_t1_loop.trips) : BitVec 32 := Scf.iv (0#32 : BitVec 32) 1#32 t.val

/-- ONE SKEWED STEP's update of the accumulator: lane by lane, the accumulator plus the product of the user rows'
    entry at (the group's row, the selected half plus the lane's column at step `k`) and the difference rows' entry at
    (the half-row, the parity's half plus that column). -/
def stepAcc (t : Fin k3_t1_loop.trips) (raw : IVec S16 32)
    (g2 : Buf (Elt F) ((urowsM).view.loc (V d (cV L) (jV L)))) (g3 : Buf (Elt F) ((gpvM).view.loc (V d (cV L) (jV L))))
    (k : BitVec 32) (hk : k.toNat < 64) (acc : FVec F S16 .f32) : FVec F S16 .f32 :=
  addf acc (mulf
    (loadIdx (R2 (F := F) d L g2) ![Cert.LibSkewVec.rows iota_S16_d0_w32_scVector (grp t), Cert.LibSkewVec.col iota_S16_d0_w32_scVector raw k]
      (Cert.LibSkewVec.chk_rows iota_S16_d0_w32_scVector (grp t) raw k (iv_lt t) hk))
    (loadIdx (R3 (F := F) d L g3) ![Cert.LibSkewVec.grows iota_S16_d0_w32_scVector (grp t), Cert.LibSkewVec.gcol iota_S16_d0_w32_scVector k]
      (Cert.LibSkewVec.chk_grows iota_S16_d0_w32_scVector (grp t) k (iv_lt t) hk)))

/-- The accumulator's start: the zero word in every lane. -/
abbrev zeroV : FVec F S16 .f32 := broadcast S16 (Scalar.ofBits .f32 0x00000000#32)

set_option maxHeartbeats 2000000 in
set_option maxRecDepth 65536 in
/-- Part 1 of a trip, with the accumulator: the group's 16 index words read, then steps 0 and 1 from the zero word. -/
theorem part1_val (t : Fin k3_t1_loop.trips)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type}
    (kk : (Σ' (_ : BitVec 32) (_ : IVec S16 32) (_ : IVec S16 32) (_ : IVec S16 32) (_ : FVec F S16 .f32), IVec S16 32)
      → Prog (TpuEff nD τ sig (Elt F) Λ₀ (.scVector (cV L) (jV L))) α)
    (Q : α → sProp 𝕄)
    (hk : held (F := F) d L g0 g2 g3 g4
      ⊢ wp frame (wpE (defs₀ (F := F)) 𝒱₀ (V d (cV L) (jV L)) none) Set.univ
          (kk ⟨Scalar.muli (Scf.iv 0#32 1#32 t.val) 16#32, k3_pay5 laneV 0#32 1#32 t, k3_pay6 (k3_pay5 laneV 0#32 1#32 t),
            k3_pay7 (F := F) k3_pay1 ((urawM).view.readAt (Elt F) (Rect.unit (s := S128) (k3_off3 t) S16.size (k3_off3_inb t)).toLoadRect g0),
            stepAcc (F := F) d L t ((urawM).view.readAt (Elt F) (Rect.unit (s := S128) (k3_off3 t) S16.size (k3_off3_inb t)).toLoadRect g0) g2 g3 1#32 (by decide) (stepAcc (F := F) d L t ((urawM).view.readAt (Elt F) (Rect.unit (s := S128) (k3_off3 t) S16.size (k3_off3_inb t)).toLoadRect g0) g2 g3 0#32 (by decide) (zeroV (F := F))),
            k3_pay11 k3_pay1⟩) Q) :
    held (F := F) d L g0 g2 g3 g4
      ⊢ wp frame (wpE (defs₀ (F := F)) 𝒱₀ (V d (cV L) (jV L)) none) Set.univ
          (k3_part1 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 laneV k3_pay1 k3_pay2 0#32 1#32 t >>= kk) Q := by
  have hg := iv_lt t
  rw [k3_part1_eq_skeleton]; unfold k3_part1_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply hk
  unfold held
  isplitl [H0]; · iexact H0
  isplitl [H2]; · iexact H2
  isplitl [H3]; · iexact H3
  iexact H4

set_option maxHeartbeats 2000000 in
set_option maxRecDepth 65536 in
/-- Part 2 of a trip, with the accumulator: steps 2 to 5. -/
theorem part2_val (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : held (F := F) d L g0 g2 g3 g4
      ⊢ wp frame (wpE (defs₀ (F := F)) 𝒱₀ (V d (cV L) (jV L)) none) Set.univ
          (kk ⟨stepAcc (F := F) d L t raw g2 g3 5#32 (by decide) (stepAcc (F := F) d L t raw g2 g3 4#32 (by decide)
            (stepAcc (F := F) d L t raw g2 g3 3#32 (by decide) (stepAcc (F := F) d L t raw g2 g3 2#32 (by decide) acc))),
            k3_pay16 k3_pay1⟩) Q) :
    held (F := F) d L g0 g2 g3 g4
      ⊢ wp frame (wpE (defs₀ (F := F)) 𝒱₀ (V d (cV L) (jV L)) none) Set.univ
          (k3_part2 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay11 k3_pay1) >>= kk) Q := by
  have hg := iv_lt t
  rw [k3_part2_eq_skeleton]; unfold k3_part2_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply hk
  unfold held
  isplitl [H0]; · iexact H0
  isplitl [H2]; · iexact H2
  isplitl [H3]; · iexact H3
  iexact H4

set_option maxHeartbeats 2000000 in
set_option maxRecDepth 65536 in
/-- Part 3 of a trip, with the accumulator: steps 6 to 9. -/
theorem part3_val (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : held (F := F) d L g0 g2 g3 g4
      ⊢ wp frame (wpE (defs₀ (F := F)) 𝒱₀ (V d (cV L) (jV L)) none) Set.univ
          (kk ⟨stepAcc (F := F) d L t raw g2 g3 9#32 (by decide) (stepAcc (F := F) d L t raw g2 g3 8#32 (by decide)
            (stepAcc (F := F) d L t raw g2 g3 7#32 (by decide) (stepAcc (F := F) d L t raw g2 g3 6#32 (by decide) acc))),
            k3_pay21 k3_pay1⟩) Q) :
    held (F := F) d L g0 g2 g3 g4
      ⊢ wp frame (wpE (defs₀ (F := F)) 𝒱₀ (V d (cV L) (jV L)) none) Set.univ
          (k3_part3 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay16 k3_pay1) >>= kk) Q := by
  have hg := iv_lt t
  rw [k3_part3_eq_skeleton]; unfold k3_part3_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply hk
  unfold held
  isplitl [H0]; · iexact H0
  isplitl [H2]; · iexact H2
  isplitl [H3]; · iexact H3
  iexact H4

set_option maxHeartbeats 2000000 in
set_option maxRecDepth 65536 in
/-- Part 4 of a trip, with the accumulator: steps 10 to 13. -/
theorem part4_val (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : held (F := F) d L g0 g2 g3 g4
      ⊢ wp frame (wpE (defs₀ (F := F)) 𝒱₀ (V d (cV L) (jV L)) none) Set.univ
          (kk ⟨stepAcc (F := F) d L t raw g2 g3 13#32 (by decide) (stepAcc (F := F) d L t raw g2 g3 12#32 (by decide)
            (stepAcc (F := F) d L t raw g2 g3 11#32 (by decide) (stepAcc (F := F) d L t raw g2 g3 10#32 (by decide) acc))),
            k3_pay26 k3_pay1⟩) Q) :
    held (F := F) d L g0 g2 g3 g4
      ⊢ wp frame (wpE (defs₀ (F := F)) 𝒱₀ (V d (cV L) (jV L)) none) Set.univ
          (k3_part4 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay21 k3_pay1) >>= kk) Q := by
  have hg := iv_lt t
  rw [k3_part4_eq_skeleton]; unfold k3_part4_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply hk
  unfold held
  isplitl [H0]; · iexact H0
  isplitl [H2]; · iexact H2
  isplitl [H3]; · iexact H3
  iexact H4

set_option maxHeartbeats 2000000 in
set_option maxRecDepth 65536 in
/-- Part 5 of a trip, with the accumulator: steps 14 to 17. -/
theorem part5_val (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : held (F := F) d L g0 g2 g3 g4
      ⊢ wp frame (wpE (defs₀ (F := F)) 𝒱₀ (V d (cV L) (jV L)) none) Set.univ
          (kk ⟨stepAcc (F := F) d L t raw g2 g3 17#32 (by decide) (stepAcc (F := F) d L t raw g2 g3 16#32 (by decide)
            (stepAcc (F := F) d L t raw g2 g3 15#32 (by decide) (stepAcc (F := F) d L t raw g2 g3 14#32 (by decide) acc))),
            k3_pay31 k3_pay1⟩) Q) :
    held (F := F) d L g0 g2 g3 g4
      ⊢ wp frame (wpE (defs₀ (F := F)) 𝒱₀ (V d (cV L) (jV L)) none) Set.univ
          (k3_part5 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay26 k3_pay1) >>= kk) Q := by
  have hg := iv_lt t
  rw [k3_part5_eq_skeleton]; unfold k3_part5_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply hk
  unfold held
  isplitl [H0]; · iexact H0
  isplitl [H2]; · iexact H2
  isplitl [H3]; · iexact H3
  iexact H4

set_option maxHeartbeats 2000000 in
set_option maxRecDepth 65536 in
/-- Part 6 of a trip, with the accumulator: steps 18 to 21. -/
theorem part6_val (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : held (F := F) d L g0 g2 g3 g4
      ⊢ wp frame (wpE (defs₀ (F := F)) 𝒱₀ (V d (cV L) (jV L)) none) Set.univ
          (kk ⟨stepAcc (F := F) d L t raw g2 g3 21#32 (by decide) (stepAcc (F := F) d L t raw g2 g3 20#32 (by decide)
            (stepAcc (F := F) d L t raw g2 g3 19#32 (by decide) (stepAcc (F := F) d L t raw g2 g3 18#32 (by decide) acc))),
            k3_pay36 k3_pay1⟩) Q) :
    held (F := F) d L g0 g2 g3 g4
      ⊢ wp frame (wpE (defs₀ (F := F)) 𝒱₀ (V d (cV L) (jV L)) none) Set.univ
          (k3_part6 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay31 k3_pay1) >>= kk) Q := by
  have hg := iv_lt t
  rw [k3_part6_eq_skeleton]; unfold k3_part6_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply hk
  unfold held
  isplitl [H0]; · iexact H0
  isplitl [H2]; · iexact H2
  isplitl [H3]; · iexact H3
  iexact H4

set_option maxHeartbeats 2000000 in
set_option maxRecDepth 65536 in
/-- Part 7 of a trip, with the accumulator: steps 22 to 25. -/
theorem part7_val (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : held (F := F) d L g0 g2 g3 g4
      ⊢ wp frame (wpE (defs₀ (F := F)) 𝒱₀ (V d (cV L) (jV L)) none) Set.univ
          (kk ⟨stepAcc (F := F) d L t raw g2 g3 25#32 (by decide) (stepAcc (F := F) d L t raw g2 g3 24#32 (by decide)
            (stepAcc (F := F) d L t raw g2 g3 23#32 (by decide) (stepAcc (F := F) d L t raw g2 g3 22#32 (by decide) acc))),
            k3_pay41 k3_pay1⟩) Q) :
    held (F := F) d L g0 g2 g3 g4
      ⊢ wp frame (wpE (defs₀ (F := F)) 𝒱₀ (V d (cV L) (jV L)) none) Set.univ
          (k3_part7 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay36 k3_pay1) >>= kk) Q := by
  have hg := iv_lt t
  rw [k3_part7_eq_skeleton]; unfold k3_part7_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply hk
  unfold held
  isplitl [H0]; · iexact H0
  isplitl [H2]; · iexact H2
  isplitl [H3]; · iexact H3
  iexact H4

set_option maxHeartbeats 2000000 in
set_option maxRecDepth 65536 in
/-- Part 8 of a trip, with the accumulator: steps 26 to 29. -/
theorem part8_val (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : held (F := F) d L g0 g2 g3 g4
      ⊢ wp frame (wpE (defs₀ (F := F)) 𝒱₀ (V d (cV L) (jV L)) none) Set.univ
          (kk ⟨stepAcc (F := F) d L t raw g2 g3 29#32 (by decide) (stepAcc (F := F) d L t raw g2 g3 28#32 (by decide)
            (stepAcc (F := F) d L t raw g2 g3 27#32 (by decide) (stepAcc (F := F) d L t raw g2 g3 26#32 (by decide) acc))),
            k3_pay46 k3_pay1⟩) Q) :
    held (F := F) d L g0 g2 g3 g4
      ⊢ wp frame (wpE (defs₀ (F := F)) 𝒱₀ (V d (cV L) (jV L)) none) Set.univ
          (k3_part8 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay41 k3_pay1) >>= kk) Q := by
  have hg := iv_lt t
  rw [k3_part8_eq_skeleton]; unfold k3_part8_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply hk
  unfold held
  isplitl [H0]; · iexact H0
  isplitl [H2]; · iexact H2
  isplitl [H3]; · iexact H3
  iexact H4

set_option maxHeartbeats 2000000 in
set_option maxRecDepth 65536 in
/-- Part 9 of a trip, with the accumulator: steps 30 to 33. -/
theorem part9_val (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : held (F := F) d L g0 g2 g3 g4
      ⊢ wp frame (wpE (defs₀ (F := F)) 𝒱₀ (V d (cV L) (jV L)) none) Set.univ
          (kk ⟨stepAcc (F := F) d L t raw g2 g3 33#32 (by decide) (stepAcc (F := F) d L t raw g2 g3 32#32 (by decide)
            (stepAcc (F := F) d L t raw g2 g3 31#32 (by decide) (stepAcc (F := F) d L t raw g2 g3 30#32 (by decide) acc))),
            k3_pay51 k3_pay1⟩) Q) :
    held (F := F) d L g0 g2 g3 g4
      ⊢ wp frame (wpE (defs₀ (F := F)) 𝒱₀ (V d (cV L) (jV L)) none) Set.univ
          (k3_part9 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay46 k3_pay1) >>= kk) Q := by
  have hg := iv_lt t
  rw [k3_part9_eq_skeleton]; unfold k3_part9_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply hk
  unfold held
  isplitl [H0]; · iexact H0
  isplitl [H2]; · iexact H2
  isplitl [H3]; · iexact H3
  iexact H4

set_option maxHeartbeats 2000000 in
set_option maxRecDepth 65536 in
/-- Part 10 of a trip, with the accumulator: steps 34 to 37. -/
theorem part10_val (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : held (F := F) d L g0 g2 g3 g4
      ⊢ wp frame (wpE (defs₀ (F := F)) 𝒱₀ (V d (cV L) (jV L)) none) Set.univ
          (kk ⟨stepAcc (F := F) d L t raw g2 g3 37#32 (by decide) (stepAcc (F := F) d L t raw g2 g3 36#32 (by decide)
            (stepAcc (F := F) d L t raw g2 g3 35#32 (by decide) (stepAcc (F := F) d L t raw g2 g3 34#32 (by decide) acc))),
            k3_pay56 k3_pay1⟩) Q) :
    held (F := F) d L g0 g2 g3 g4
      ⊢ wp frame (wpE (defs₀ (F := F)) 𝒱₀ (V d (cV L) (jV L)) none) Set.univ
          (k3_part10 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay51 k3_pay1) >>= kk) Q := by
  have hg := iv_lt t
  rw [k3_part10_eq_skeleton]; unfold k3_part10_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply hk
  unfold held
  isplitl [H0]; · iexact H0
  isplitl [H2]; · iexact H2
  isplitl [H3]; · iexact H3
  iexact H4

set_option maxHeartbeats 2000000 in
set_option maxRecDepth 65536 in
/-- Part 11 of a trip, with the accumulator: steps 38 to 41. -/
theorem part11_val (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : held (F := F) d L g0 g2 g3 g4
      ⊢ wp frame (wpE (defs₀ (F := F)) 𝒱₀ (V d (cV L) (jV L)) none) Set.univ
          (kk ⟨stepAcc (F := F) d L t raw g2 g3 41#32 (by decide) (stepAcc (F := F) d L t raw g2 g3 40#32 (by decide)
            (stepAcc (F := F) d L t raw g2 g3 39#32 (by decide) (stepAcc (F := F) d L t raw g2 g3 38#32 (by decide) acc))),
            k3_pay61 k3_pay1⟩) Q) :
    held (F := F) d L g0 g2 g3 g4
      ⊢ wp frame (wpE (defs₀ (F := F)) 𝒱₀ (V d (cV L) (jV L)) none) Set.univ
          (k3_part11 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay56 k3_pay1) >>= kk) Q := by
  have hg := iv_lt t
  rw [k3_part11_eq_skeleton]; unfold k3_part11_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply hk
  unfold held
  isplitl [H0]; · iexact H0
  isplitl [H2]; · iexact H2
  isplitl [H3]; · iexact H3
  iexact H4

set_option maxHeartbeats 2000000 in
set_option maxRecDepth 65536 in
/-- Part 12 of a trip, with the accumulator: steps 42 to 45. -/
theorem part12_val (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : held (F := F) d L g0 g2 g3 g4
      ⊢ wp frame (wpE (defs₀ (F := F)) 𝒱₀ (V d (cV L) (jV L)) none) Set.univ
          (kk ⟨stepAcc (F := F) d L t raw g2 g3 45#32 (by decide) (stepAcc (F := F) d L t raw g2 g3 44#32 (by decide)
            (stepAcc (F := F) d L t raw g2 g3 43#32 (by decide) (stepAcc (F := F) d L t raw g2 g3 42#32 (by decide) acc))),
            k3_pay66 k3_pay1⟩) Q) :
    held (F := F) d L g0 g2 g3 g4
      ⊢ wp frame (wpE (defs₀ (F := F)) 𝒱₀ (V d (cV L) (jV L)) none) Set.univ
          (k3_part12 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay61 k3_pay1) >>= kk) Q := by
  have hg := iv_lt t
  rw [k3_part12_eq_skeleton]; unfold k3_part12_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply hk
  unfold held
  isplitl [H0]; · iexact H0
  isplitl [H2]; · iexact H2
  isplitl [H3]; · iexact H3
  iexact H4

set_option maxHeartbeats 2000000 in
set_option maxRecDepth 65536 in
/-- Part 13 of a trip, with the accumulator: steps 46 to 49. -/
theorem part13_val (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : held (F := F) d L g0 g2 g3 g4
      ⊢ wp frame (wpE (defs₀ (F := F)) 𝒱₀ (V d (cV L) (jV L)) none) Set.univ
          (kk ⟨stepAcc (F := F) d L t raw g2 g3 49#32 (by decide) (stepAcc (F := F) d L t raw g2 g3 48#32 (by decide)
            (stepAcc (F := F) d L t raw g2 g3 47#32 (by decide) (stepAcc (F := F) d L t raw g2 g3 46#32 (by decide) acc))),
            k3_pay71 k3_pay1⟩) Q) :
    held (F := F) d L g0 g2 g3 g4
      ⊢ wp frame (wpE (defs₀ (F := F)) 𝒱₀ (V d (cV L) (jV L)) none) Set.univ
          (k3_part13 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay66 k3_pay1) >>= kk) Q := by
  have hg := iv_lt t
  rw [k3_part13_eq_skeleton]; unfold k3_part13_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply hk
  unfold held
  isplitl [H0]; · iexact H0
  isplitl [H2]; · iexact H2
  isplitl [H3]; · iexact H3
  iexact H4

set_option maxHeartbeats 2000000 in
set_option maxRecDepth 65536 in
/-- Part 14 of a trip, with the accumulator: steps 50 to 53. -/
theorem part14_val (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : held (F := F) d L g0 g2 g3 g4
      ⊢ wp frame (wpE (defs₀ (F := F)) 𝒱₀ (V d (cV L) (jV L)) none) Set.univ
          (kk ⟨stepAcc (F := F) d L t raw g2 g3 53#32 (by decide) (stepAcc (F := F) d L t raw g2 g3 52#32 (by decide)
            (stepAcc (F := F) d L t raw g2 g3 51#32 (by decide) (stepAcc (F := F) d L t raw g2 g3 50#32 (by decide) acc))),
            k3_pay76 k3_pay1⟩) Q) :
    held (F := F) d L g0 g2 g3 g4
      ⊢ wp frame (wpE (defs₀ (F := F)) 𝒱₀ (V d (cV L) (jV L)) none) Set.univ
          (k3_part14 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay71 k3_pay1) >>= kk) Q := by
  have hg := iv_lt t
  rw [k3_part14_eq_skeleton]; unfold k3_part14_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply hk
  unfold held
  isplitl [H0]; · iexact H0
  isplitl [H2]; · iexact H2
  isplitl [H3]; · iexact H3
  iexact H4

set_option maxHeartbeats 2000000 in
set_option maxRecDepth 65536 in
/-- Part 15 of a trip, with the accumulator: steps 54 to 57. -/
theorem part15_val (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : held (F := F) d L g0 g2 g3 g4
      ⊢ wp frame (wpE (defs₀ (F := F)) 𝒱₀ (V d (cV L) (jV L)) none) Set.univ
          (kk ⟨stepAcc (F := F) d L t raw g2 g3 57#32 (by decide) (stepAcc (F := F) d L t raw g2 g3 56#32 (by decide)
            (stepAcc (F := F) d L t raw g2 g3 55#32 (by decide) (stepAcc (F := F) d L t raw g2 g3 54#32 (by decide) acc))),
            k3_pay81 k3_pay1⟩) Q) :
    held (F := F) d L g0 g2 g3 g4
      ⊢ wp frame (wpE (defs₀ (F := F)) 𝒱₀ (V d (cV L) (jV L)) none) Set.univ
          (k3_part15 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay76 k3_pay1) >>= kk) Q := by
  have hg := iv_lt t
  rw [k3_part15_eq_skeleton]; unfold k3_part15_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply hk
  unfold held
  isplitl [H0]; · iexact H0
  isplitl [H2]; · iexact H2
  isplitl [H3]; · iexact H3
  iexact H4

set_option maxHeartbeats 2000000 in
set_option maxRecDepth 65536 in
/-- Part 16 of a trip, with the accumulator: steps 58 to 61. -/
theorem part16_val (t : Fin k3_t1_loop.trips) (raw : IVec S16 32) (acc : FVec F S16 .f32)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    {α : Type} (kk : (Σ' (_ : FVec F S16 .f32), IVec S16 32) → Prog (TpuEff nD τ sig (Elt F) Λ₀ (.scVector (cV L) (jV L))) α)
    (Q : α → sProp 𝕄)
    (hk : held (F := F) d L g0 g2 g3 g4
      ⊢ wp frame (wpE (defs₀ (F := F)) 𝒱₀ (V d (cV L) (jV L)) none) Set.univ
          (kk ⟨stepAcc (F := F) d L t raw g2 g3 61#32 (by decide) (stepAcc (F := F) d L t raw g2 g3 60#32 (by decide)
            (stepAcc (F := F) d L t raw g2 g3 59#32 (by decide) (stepAcc (F := F) d L t raw g2 g3 58#32 (by decide) acc))),
            k3_pay86 k3_pay1⟩) Q) :
    held (F := F) d L g0 g2 g3 g4
      ⊢ wp frame (wpE (defs₀ (F := F)) 𝒱₀ (V d (cV L) (jV L)) none) Set.univ
          (k3_part16 L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 k3_pay1 k3_pay2 (k3_pay5 laneV 0#32 1#32 t) (k3_pay6 (k3_pay5 laneV 0#32 1#32 t))
            (k3_pay7 (F := F) k3_pay1 raw) acc (k3_pay81 k3_pay1) >>= kk) Q := by
  have hg := iv_lt t
  rw [k3_part16_eq_skeleton]; unfold k3_part16_skel
  simp only [SparseCore.vectorLoadIdx_bind (c := V d (cV L) (jV L))]
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply hk
  unfold held
  isplitl [H0]; · iexact H0
  isplitl [H2]; · iexact H2
  isplitl [H3]; · iexact H3
  iexact H4

/-- THE GROUP'S 16 SCORES: the accumulator after the 64 skewed steps, from the zero word. -/
def accAll (t : Fin k3_t1_loop.trips) (raw : IVec S16 32)
    (g2 : Buf (Elt F) ((urowsM).view.loc (V d (cV L) (jV L)))) (g3 : Buf (Elt F) ((gpvM).view.loc (V d (cV L) (jV L)))) : FVec F S16 .f32 :=
  (stepAcc (F := F) d L t raw g2 g3 63#32 (by decide)
    (stepAcc (F := F) d L t raw g2 g3 62#32 (by decide)
    (stepAcc (F := F) d L t raw g2 g3 61#32 (by decide)
    (stepAcc (F := F) d L t raw g2 g3 60#32 (by decide)
    (stepAcc (F := F) d L t raw g2 g3 59#32 (by decide)
    (stepAcc (F := F) d L t raw g2 g3 58#32 (by decide)
    (stepAcc (F := F) d L t raw g2 g3 57#32 (by decide)
    (stepAcc (F := F) d L t raw g2 g3 56#32 (by decide)
    (stepAcc (F := F) d L t raw g2 g3 55#32 (by decide)
    (stepAcc (F := F) d L t raw g2 g3 54#32 (by decide)
    (stepAcc (F := F) d L t raw g2 g3 53#32 (by decide)
    (stepAcc (F := F) d L t raw g2 g3 52#32 (by decide)
    (stepAcc (F := F) d L t raw g2 g3 51#32 (by decide)
    (stepAcc (F := F) d L t raw g2 g3 50#32 (by decide)
    (stepAcc (F := F) d L t raw g2 g3 49#32 (by decide)
    (stepAcc (F := F) d L t raw g2 g3 48#32 (by decide)
    (stepAcc (F := F) d L t raw g2 g3 47#32 (by decide)
    (stepAcc (F := F) d L t raw g2 g3 46#32 (by decide)
    (stepAcc (F := F) d L t raw g2 g3 45#32 (by decide)
    (stepAcc (F := F) d L t raw g2 g3 44#32 (by decide)
    (stepAcc (F := F) d L t raw g2 g3 43#32 (by decide)
    (stepAcc (F := F) d L t raw g2 g3 42#32 (by decide)
    (stepAcc (F := F) d L t raw g2 g3 41#32 (by decide)
    (stepAcc (F := F) d L t raw g2 g3 40#32 (by decide)
    (stepAcc (F := F) d L t raw g2 g3 39#32 (by decide)
    (stepAcc (F := F) d L t raw g2 g3 38#32 (by decide)
    (stepAcc (F := F) d L t raw g2 g3 37#32 (by decide)
    (stepAcc (F := F) d L t raw g2 g3 36#32 (by decide)
    (stepAcc (F := F) d L t raw g2 g3 35#32 (by decide)
    (stepAcc (F := F) d L t raw g2 g3 34#32 (by decide)
    (stepAcc (F := F) d L t raw g2 g3 33#32 (by decide)
    (stepAcc (F := F) d L t raw g2 g3 32#32 (by decide)
    (stepAcc (F := F) d L t raw g2 g3 31#32 (by decide)
    (stepAcc (F := F) d L t raw g2 g3 30#32 (by decide)
    (stepAcc (F := F) d L t raw g2 g3 29#32 (by decide)
    (stepAcc (F := F) d L t raw g2 g3 28#32 (by decide)
    (stepAcc (F := F) d L t raw g2 g3 27#32 (by decide)
    (stepAcc (F := F) d L t raw g2 g3 26#32 (by decide)
    (stepAcc (F := F) d L t raw g2 g3 25#32 (by decide)
    (stepAcc (F := F) d L t raw g2 g3 24#32 (by decide)
    (stepAcc (F := F) d L t raw g2 g3 23#32 (by decide)
    (stepAcc (F := F) d L t raw g2 g3 22#32 (by decide)
    (stepAcc (F := F) d L t raw g2 g3 21#32 (by decide)
    (stepAcc (F := F) d L t raw g2 g3 20#32 (by decide)
    (stepAcc (F := F) d L t raw g2 g3 19#32 (by decide)
    (stepAcc (F := F) d L t raw g2 g3 18#32 (by decide)
    (stepAcc (F := F) d L t raw g2 g3 17#32 (by decide)
    (stepAcc (F := F) d L t raw g2 g3 16#32 (by decide)
    (stepAcc (F := F) d L t raw g2 g3 15#32 (by decide)
    (stepAcc (F := F) d L t raw g2 g3 14#32 (by decide)
    (stepAcc (F := F) d L t raw g2 g3 13#32 (by decide)
    (stepAcc (F := F) d L t raw g2 g3 12#32 (by decide)
    (stepAcc (F := F) d L t raw g2 g3 11#32 (by decide)
    (stepAcc (F := F) d L t raw g2 g3 10#32 (by decide)
    (stepAcc (F := F) d L t raw g2 g3 9#32 (by decide)
    (stepAcc (F := F) d L t raw g2 g3 8#32 (by decide)
    (stepAcc (F := F) d L t raw g2 g3 7#32 (by decide)
    (stepAcc (F := F) d L t raw g2 g3 6#32 (by decide)
    (stepAcc (F := F) d L t raw g2 g3 5#32 (by decide)
    (stepAcc (F := F) d L t raw g2 g3 4#32 (by decide)
    (stepAcc (F := F) d L t raw g2 g3 3#32 (by decide)
    (stepAcc (F := F) d L t raw g2 g3 2#32 (by decide)
    (stepAcc (F := F) d L t raw g2 g3 1#32 (by decide)
    (stepAcc (F := F) d L t raw g2 g3 0#32 (by decide)
    (zeroV (F := F))))))))))))))))))))))))))))))))))))))))))))))))))))))))))))))))))

end Cert.KernelIdeal.TileDotPartsV

end
-- ==== Proof.TileDotTripV.lean ====
/-
  ONE TRIP of the second SparseCore kernel's loop, WITH ITS VALUE: from the four scratch buffers at fixed contents the trip
  leaves three of them as they were and the scores' buffer written, at the trip's 16 entries, with the group's 64-step
  accumulator — a pure function of the user rows' buffer, the difference rows' buffer and the group's 16 index words.
-/
import proofs.«203895_g52347061404180_cont_8to1_c_859_34_alg».proof.Proof.TileDotDefs
import proofs.«203895_g52347061404180_cont_8to1_c_859_34_alg».proof.Proof.Gen.KernelIdeal.Skeleton
import proofs.«203895_g52347061404180_cont_8to1_c_859_34_alg».proof.Proof.LibSkewVec
import proofs.«203895_g52347061404180_cont_8to1_c_859_34_alg».proof.Proof.TileDotPartsV

noncomputable section

namespace Cert.KernelIdeal.TileDotTripV

open Cert.KernelIdeal Cert.KernelIdeal.Gen Cert.KernelIdeal.KCommon Cert.KernelIdeal.TileCommon Cert.KernelIdeal.TileDotDefs Cert.KernelIdeal.TileDotParts Cert.KernelIdeal.TileDotPartsV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid3.Coords)
variable [FloatOps F]

/-- The group's 16 index words, as the trip reads them from the raw index scratch. -/
abbrev rawOf (t : Fin k3_t1_loop.trips) (g0 : Buf (Elt F) ((urawM).view.loc (V d (cV L) (jV L)))) : IVec S16 32 :=
  (urawM).view.readAt (Elt F) (Rect.unit (s := S128) (k3_off3 t) S16.size (k3_off3_inb t)).toLoadRect g0

set_option maxHeartbeats 8000000 in
set_option maxRecDepth 65536 in
/-- One trip from the four buffers at fixed contents: the scores' buffer ends written with the group's accumulator. -/
theorem trip_held_val (t : Fin k3_t1_loop.trips)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L)))) :
    held (F := F) d L g0 g2 g3 g4
      ⊢ wp frame (wpE (defs₀ (F := F)) 𝒱₀ (V d (cV L) (jV L)) none) Set.univ
          (k3_t1_body L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 laneV t ⟨⟩)
          fun _ => iprop(((urawM).view.loc (V d (cV L) (jV L)) ↦{fullShare} g0)
            ∗ ((urowsM).view.loc (V d (cV L) (jV L)) ↦{fullShare} g2)
            ∗ ((gpvM).view.loc (V d (cV L) (jV L)) ↦{fullShare} g3)
            ∗ ((diffsM).view.loc (V d (cV L) (jV L)) ↦{fullShare}
                (diffsM).view.writes (Elt F) g4
                  [⟨Rect.unit (s := S128) (k3_off4 t) S16.size (k3_off4_inb t), accAll (F := F) d L t (rawOf (F := F) d L t g0) g2 g3⟩])) := by
  have hg := iv_lt t
  unfold k3_t1_body
  simp only [SparseCore.vectorLoadIdx_bind (c := V d (cV L) (jV L))]
  refine part1_val (F := F) d L t g0 g2 g3 g4 _ _ ?_
  refine part2_val (F := F) d L t _ _ g0 g2 g3 g4 _ _ ?_
  refine part3_val (F := F) d L t _ _ g0 g2 g3 g4 _ _ ?_
  refine part4_val (F := F) d L t _ _ g0 g2 g3 g4 _ _ ?_
  refine part5_val (F := F) d L t _ _ g0 g2 g3 g4 _ _ ?_
  refine part6_val (F := F) d L t _ _ g0 g2 g3 g4 _ _ ?_
  refine part7_val (F := F) d L t _ _ g0 g2 g3 g4 _ _ ?_
  refine part8_val (F := F) d L t _ _ g0 g2 g3 g4 _ _ ?_
  refine part9_val (F := F) d L t _ _ g0 g2 g3 g4 _ _ ?_
  refine part10_val (F := F) d L t _ _ g0 g2 g3 g4 _ _ ?_
  refine part11_val (F := F) d L t _ _ g0 g2 g3 g4 _ _ ?_
  refine part12_val (F := F) d L t _ _ g0 g2 g3 g4 _ _ ?_
  refine part13_val (F := F) d L t _ _ g0 g2 g3 g4 _ _ ?_
  refine part14_val (F := F) d L t _ _ g0 g2 g3 g4 _ _ ?_
  refine part15_val (F := F) d L t _ _ g0 g2 g3 g4 _ _ ?_
  refine part16_val (F := F) d L t _ _ g0 g2 g3 g4 _ _ ?_
  unfold held
  iintro ⟨H0, H2, H3, H4⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_step
  isplitl [H0]; · iexact H0
  isplitl [H2]; · iexact H2
  isplitl [H3]; · iexact H3
  iexact H4

end Cert.KernelIdeal.TileDotTripV

end
-- ==== Proof.TileDotLoopV.lean ====
/-
  THE LOOP of the second SparseCore kernel WITH ITS VALUE: before trip `n` the scores' buffer holds, at the 16 entries of
  every group below `n`, that group's 64-step accumulator; a trip writes its own group's 16 entries and leaves the
  others, so the statement passes from `n` to `n + 1`.
-/
import proofs.«203895_g52347061404180_cont_8to1_c_859_34_alg».proof.Proof.TileDotDefs
import proofs.«203895_g52347061404180_cont_8to1_c_859_34_alg».proof.Proof.Gen.KernelIdeal.Skeleton
import proofs.«203895_g52347061404180_cont_8to1_c_859_34_alg».proof.Proof.LibSkewVec
import proofs.«203895_g52347061404180_cont_8to1_c_859_34_alg».proof.Proof.TileDotTripV

noncomputable section

namespace Cert.KernelIdeal.TileDotLoopV

open Cert.KernelIdeal Cert.KernelIdeal.Gen Cert.KernelIdeal.KCommon Cert.KernelIdeal.TileCommon Cert.KernelIdeal.TileDotDefs Cert.KernelIdeal.TileDotParts Cert.KernelIdeal.TileDotPartsV Cert.KernelIdeal.TileDotTripV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid3.Coords)
variable [FloatOps F]

/-- Group `t`'s 16 entries of the scores' buffer. -/
abbrev grpRect (t : Fin k3_t1_loop.trips) : Rect S128 := Rect.unit (s := S128) (k3_off4 t) S16.size (k3_off4_inb t)

omit [FloatOps F] in
/-- They start at entry `16 t`. -/
theorem off4_val (t : Fin k3_t1_loop.trips) : (k3_off4 t) 0 = 16 * t.val := by rw [k3_off4_eq]; rfl

/-- The groups below `n` are done: each of their entries holds the group's accumulator at its lane. -/
def doneUpTo (g0 : Buf (Elt F) ((urawM).view.loc (V d (cV L) (jV L)))) (g2 : Buf (Elt F) ((urowsM).view.loc (V d (cV L) (jV L))))
    (g3 : Buf (Elt F) ((gpvM).view.loc (V d (cV L) (jV L)))) (n : Nat) (g4 : Buf (Elt F) ((diffsM).view.loc (V d (cV L) (jV L)))) : Prop :=
  ∀ (t : Fin k3_t1_loop.trips), t.val < n → ∀ x : S16.Idx,
    (diffsM).view.read (Elt F) g4 ((grpRect t).emb x) = accAll (F := F) d L t (rawOf (F := F) d L t g0) g2 g3 x

/-- A trip's store passes the statement from `t` to `t + 1`: its own entries read the stored accumulator, the lower
    groups' entries lie outside the stored rectangle. -/
theorem step_done (t : Fin k3_t1_loop.trips) (g0) (g2) (g3) (g4 : Buf (Elt F) ((diffsM).view.loc (V d (cV L) (jV L))))
    (h : doneUpTo (F := F) d L g0 g2 g3 t.val g4) :
    doneUpTo (F := F) d L g0 g2 g3 (t.val + 1)
      ((diffsM).view.writes (Elt F) g4 [⟨grpRect t, accAll (F := F) d L t (rawOf (F := F) d L t g0) g2 g3⟩]) := by
  intro t' ht' x
  by_cases e : t' = t
  · subst e
    exact View.read_writes_cons_emb (diffsM).view g4 (grpRect _) _ [] x
  · have hne : t'.val ≠ t.val := fun hv => e (Fin.ext hv)
    have hlt : t'.val < t.val := by omega
    rw [View.read_writes_apply_of_forall_not_mem _ _ _ _ (fun p hp => ?_)]
    · exact h t' hlt x
    · obtain rfl := List.mem_singleton.mp hp
      intro hm
      obtain ⟨j, hj, he⟩ := (grpRect t).mem_set.mp hm 0
      have hx : ((x 0 : Fin _) : Nat) < 16 := (x 0).isLt
      have h1 : (((grpRect t').emb x) 0 : Nat) = 16 * t'.val + (x 0 : Nat) := by
        rw [Rect.emb_apply]; show (k3_off4 t') 0 + 1 * _ = _; rw [off4_val]; omega
      have h2 : (grpRect t).off 0 = 16 * t.val := off4_val t
      have h3 : (grpRect t).stride 0 = 1 := rfl
      have h4 : (grpRect t).size 0 = 16 := rfl
      rw [h1, h2, h3] at he
      rw [h4] at hj
      omega

/-- What the loop holds before trip `n`. -/
def invV (g0 : Buf (Elt F) ((urawM).view.loc (V d (cV L) (jV L)))) (g2 : Buf (Elt F) ((urowsM).view.loc (V d (cV L) (jV L))))
    (g3 : Buf (Elt F) ((gpvM).view.loc (V d (cV L) (jV L)))) (n : Nat) (_ : Unit) : sProp 𝕄 :=
  iprop(((urawM).view.loc (V d (cV L) (jV L)) ↦{fullShare} g0)
    ∗ ((urowsM).view.loc (V d (cV L) (jV L)) ↦{fullShare} g2)
    ∗ ((gpvM).view.loc (V d (cV L) (jV L)) ↦{fullShare} g3)
    ∗ ∃ g4, ⌜doneUpTo (F := F) d L g0 g2 g3 n g4⌝ ∗ ((diffsM).view.loc (V d (cV L) (jV L)) ↦{fullShare} g4))

/-- What a trip leaves gives the loop's statement at the next trip. -/
theorem trip_post_invV (g0) (g2) (g3) (t : Fin k3_t1_loop.trips) (g4 : Buf (Elt F) ((diffsM).view.loc (V d (cV L) (jV L))))
    (hP : doneUpTo (F := F) d L g0 g2 g3 t.val g4) :
    iprop(((urawM).view.loc (V d (cV L) (jV L)) ↦{fullShare} g0)
      ∗ ((urowsM).view.loc (V d (cV L) (jV L)) ↦{fullShare} g2)
      ∗ ((gpvM).view.loc (V d (cV L) (jV L)) ↦{fullShare} g3)
      ∗ ((diffsM).view.loc (V d (cV L) (jV L)) ↦{fullShare}
          (diffsM).view.writes (Elt F) g4
            [⟨Rect.unit (s := S128) (k3_off4 t) S16.size (k3_off4_inb t), accAll (F := F) d L t (rawOf (F := F) d L t g0) g2 g3⟩]))
      ⊢ invV (F := F) d L g0 g2 g3 (t.val + 1) ⟨⟩ := by
  unfold invV
  iintro ⟨H0, H2, H3, H4⟩
  isplitl [H0]; · iexact H0
  isplitl [H2]; · iexact H2
  isplitl [H3]; · iexact H3
  iexists _; isplitr
  · ipureintro; exact step_done (F := F) d L t g0 g2 g3 g4 hP
  · iexact H4

/-- One trip passes the loop's statement on. -/
theorem trip_invV (g0) (g2) (g3) (t : Fin k3_t1_loop.trips) (a : Unit) :
    invV (F := F) d L g0 g2 g3 t.val a
      ⊢ wp frame (wpE (defs₀ (F := F)) 𝒱₀ (V d (cV L) (jV L)) none) Set.univ
          (k3_t1_body L puM (Memref.isWhole_whole _) uiM (Memref.isWhole_whole _) gpM (Memref.isWhole_whole _) outM (Memref.isWhole_whole _) urawM (Memref.isWhole_whole _) uidxM (Memref.isWhole_whole _) urowsM (Memref.isWhole_whole _) gpvM (Memref.isWhole_whole _) diffsM (Memref.isWhole_whole _) cc3_scratch5 cc3_scratch6 cc3_scoped0 cc3_scoped1 laneV t a)
          (invV (F := F) d L g0 g2 g3 (t.val + 1)) := by
  unfold invV
  iintro ⟨H0, H2, H3, %g4, %hP, H4⟩
  iapply (wp_mono frame _ _ (fun _ => trip_post_invV (F := F) d L g0 g2 g3 t g4 hP))
  iapply (trip_held_val (F := F) d L t g0 g2 g3 g4)
  unfold held
  isplitl [H0]; · iexact H0
  isplitl [H2]; · iexact H2
  isplitl [H3]; · iexact H3
  iexact H4

end Cert.KernelIdeal.TileDotLoopV

end
-- ==== Proof.LibIdxOps.lean ====
/-
  The indexed load and store of a 16-lane vector unit, read entry by entry.

  An indexed load gathers, lane by lane, the buffer's entry at the index the lane's words name. An indexed store with
  every mask bit set and no accumulation overwrites, lane by lane in ascending order, the entry the lane's words name
  with the lane's value; when the lanes' targets are pairwise distinct the outcome does not depend on the order: the
  new buffer holds lane `x`'s value at lane `x`'s target and the old entry everywhere else.

  Specialised to the skewed addressing of `Cert.LibSkewVec`: lane `x` of group `g` at step `k` addresses row
  `16 g + x`, column `half + (9 x mod 64 + k) mod 64` of a block of 128 rows, and row `(16 g + x) / 2`, column
  `(x mod 2)·64 + (9 x mod 64 + k) mod 64` of a packed block of 64 rows. Over a full turn `k = 0, …, 63` the stores of
  one group fill the group's eight packed rows: the entry at row `(16 g + x) / 2`, column `(x mod 2)·64 + j` is the
  value lane `x` stored at the one step whose column is `j`, and no other row is touched.
-/
import Idealize.ShloMosaic.Lib.SparseCore
import Idealize.ShloMosaic.PureOps
import Idealize.ShloMosaic.Lib.ValueIdx
import proofs.«203895_g52347061404180_cont_8to1_c_859_34_alg».proof.Proof.LibSkewVec

namespace Cert.LibIdxOps

open Idealize.ShloMosaic Idealize.ShloMosaic.ValueIdx Cert.LibSkewVec

variable {F : FTy → Type} [FloatOps F] {e : EltTy}

/-! ## The indexed load -/

/-- The index the lane's words name in a rank-2 buffer, as a pair of coordinates. -/
theorem idxAt_ix2 {n0 n1 : ℕ} {t : Shape} (r c : IVec t 32)
    (h : ∀ a x, ((![r, c] : Fin 2 → IVec t 32) a x).toNat < (⟨2, ![n0, n1]⟩ : Shape).size a) (x : t.Idx) :
    idxAt (s := ⟨2, ![n0, n1]⟩) ![r, c] h x = ix2 ⟨(r x).toNat, h 0 x⟩ ⟨(c x).toNat, h 1 x⟩ := by
  funext a
  match a with
  | ⟨0, _⟩ => rfl
  | ⟨1, _⟩ => rfl

/-- An indexed load from a rank-2 buffer, at lane `x`: the buffer's entry at the row and column the lane's words name,
    read unsigned. -/
theorem loadIdx_apply {n0 n1 : ℕ} {t : Shape} (f : Vec F ⟨2, ![n0, n1]⟩ e) (r c : IVec t 32)
    (h : ∀ a x, ((![r, c] : Fin 2 → IVec t 32) a x).toNat < (⟨2, ![n0, n1]⟩ : Shape).size a) (x : t.Idx) :
    loadIdx f ![r, c] h x = f (ix2 ⟨(r x).toNat, h 0 x⟩ ⟨(c x).toNat, h 1 x⟩) := by
  exact congrArg f (idxAt_ix2 r c h x)

/-! ## The indexed store, every mask bit set, no accumulation -/

section Store
variable {s : Shape} {d : Fin 1 → ℕ}

/-- A lane of a rank-one shape is the lane its one coordinate names. -/
theorem ofLane_coord (x : (⟨1, d⟩ : Shape).Idx) : Shape.ofLane (x 0) = x := by
  funext a
  have ha : a = 0 := Fin.eq_zero a
  subst ha; rfl

/-- One lane's overwrite: the buffer `g` with lane `k`'s value at lane `k`'s target. -/
def put (idxs : Fin s.rank → IVec ⟨1, d⟩ 32) (h : ∀ a x, (idxs a x).toNat < s.size a) (v : Vec F ⟨1, d⟩ e)
    (g : Vec F s e) (k : Fin (d 0)) : Vec F s e :=
  fun j => if (∀ a, (j a).val = (idxAt idxs h (Shape.ofLane k) a).val) then v (Shape.ofLane k) else g j

/-- The store is the lanes' overwrites in ascending order. -/
theorem storeIdx_eq_fold (f : Vec F s e) (idxs : Fin s.rank → IVec ⟨1, d⟩ 32) (v : Vec F ⟨1, d⟩ e)
    (h : ∀ a x, (idxs a x).toNat < s.size a) :
    storeIdx f idxs v (fun _ => 1#1) false h = (List.finRange (d 0)).foldl (put idxs h v) f := by
  unfold storeIdx
  congr 1

/-- An overwrite at another index leaves the entry. -/
theorem put_ne (idxs : Fin s.rank → IVec ⟨1, d⟩ 32) (h : ∀ a x, (idxs a x).toNat < s.size a) (v : Vec F ⟨1, d⟩ e)
    (g : Vec F s e) (k : Fin (d 0)) (j : s.Idx) (hj : idxAt idxs h (Shape.ofLane k) ≠ j) : put idxs h v g k j = g j := by
  unfold put
  rw [if_neg]
  intro hall
  exact hj (funext fun a => Fin.ext (hall a).symm)

/-- An overwrite at its own target leaves the lane's value. -/
theorem put_eq (idxs : Fin s.rank → IVec ⟨1, d⟩ 32) (h : ∀ a x, (idxs a x).toNat < s.size a) (v : Vec F ⟨1, d⟩ e)
    (g : Vec F s e) (k : Fin (d 0)) : put idxs h v g k (idxAt idxs h (Shape.ofLane k)) = v (Shape.ofLane k) := by
  unfold put
  rw [if_pos (fun _ => rfl)]

/-- Overwrites none of which targets `j` leave the entry at `j`. -/
theorem fold_miss (idxs : Fin s.rank → IVec ⟨1, d⟩ 32) (h : ∀ a x, (idxs a x).toNat < s.size a) (v : Vec F ⟨1, d⟩ e)
    (j : s.Idx) (l : List (Fin (d 0))) (hl : ∀ k ∈ l, idxAt idxs h (Shape.ofLane k) ≠ j) (g : Vec F s e) :
    l.foldl (put idxs h v) g j = g j := by
  induction l generalizing g with
  | nil => rfl
  | cons k l ih =>
    rw [List.foldl_cons, ih (fun k' hk' => hl k' (List.mem_cons_of_mem _ hk')), put_ne _ _ _ _ _ _ (hl k List.mem_cons_self)]

/-- Overwrites among which only lane `k₀` targets its target leave there lane `k₀`'s value. -/
theorem fold_hit (idxs : Fin s.rank → IVec ⟨1, d⟩ 32) (h : ∀ a x, (idxs a x).toNat < s.size a) (v : Vec F ⟨1, d⟩ e)
    (k₀ : Fin (d 0)) (l : List (Fin (d 0))) (hk₀ : k₀ ∈ l)
    (hl : ∀ k ∈ l, idxAt idxs h (Shape.ofLane k) = idxAt idxs h (Shape.ofLane k₀) → k = k₀) (g : Vec F s e) :
    l.foldl (put idxs h v) g (idxAt idxs h (Shape.ofLane k₀)) = v (Shape.ofLane k₀) := by
  induction l generalizing g with
  | nil => exact absurd hk₀ List.not_mem_nil
  | cons k l ih =>
    rw [List.foldl_cons]
    by_cases hin : k₀ ∈ l
    · exact ih hin (fun k' hk' => hl k' (List.mem_cons_of_mem _ hk')) _
    · have hk : k₀ = k := by
        rcases List.mem_cons.mp hk₀ with e | e
        · exact e
        · exact absurd e hin
      subst hk
      rw [fold_miss idxs h v _ l (fun k' hk' e' => hin ((hl k' (List.mem_cons_of_mem _ hk') e') ▸ hk')), put_eq]

/-- The store, where no lane's target is: the old entry. -/
theorem storeIdx_miss (f : Vec F s e) (idxs : Fin s.rank → IVec ⟨1, d⟩ 32) (v : Vec F ⟨1, d⟩ e)
    (h : ∀ a x, (idxs a x).toNat < s.size a) (j : s.Idx) (hj : ∀ x, idxAt idxs h x ≠ j) :
    storeIdx f idxs v (fun _ => 1#1) false h j = f j := by
  rw [storeIdx_eq_fold, fold_miss idxs h v j _ (fun k _ => hj _)]

/-- The store, at lane `x`'s target, the lanes' targets pairwise distinct: lane `x`'s value. -/
theorem storeIdx_hit (f : Vec F s e) (idxs : Fin s.rank → IVec ⟨1, d⟩ 32) (v : Vec F ⟨1, d⟩ e)
    (h : ∀ a x, (idxs a x).toNat < s.size a) (hinj : ∀ x y, idxAt idxs h x = idxAt idxs h y → x = y) (x : (⟨1, d⟩ : Shape).Idx) :
    storeIdx f idxs v (fun _ => 1#1) false h (idxAt idxs h x) = v x := by
  have hx := ofLane_coord x
  rw [storeIdx_eq_fold, ← hx, fold_hit idxs h v (x 0) _ (List.mem_finRange _)]
  intro k _ ek
  have := hinj _ _ ek
  have h0 := congrFun this 0
  exact Fin.ext (by simpa [Shape.ofLane] using congrArg Fin.val h0)

end Store

/-! ## Rank-2 buffers: the store by rows and columns -/

/-- The store into a rank-2 buffer at lane `x`'s row and column, no two lanes naming one entry: lane `x`'s value. -/
theorem storeIdx_apply_hit {n0 n1 : ℕ} {d : Fin 1 → ℕ} (f : Vec F ⟨2, ![n0, n1]⟩ e) (r c : IVec ⟨1, d⟩ 32) (v : Vec F ⟨1, d⟩ e)
    (h : ∀ a x, ((![r, c] : Fin 2 → IVec ⟨1, d⟩ 32) a x).toNat < (⟨2, ![n0, n1]⟩ : Shape).size a)
    (hinj : ∀ x y, (r x).toNat = (r y).toNat → (c x).toNat = (c y).toNat → x = y) (x : (⟨1, d⟩ : Shape).Idx) :
    storeIdx f ![r, c] v (fun _ => 1#1) false h (ix2 ⟨(r x).toNat, h 0 x⟩ ⟨(c x).toNat, h 1 x⟩) = v x := by
  exact (congrArg (storeIdx f ![r, c] v (fun _ => 1#1) false h) (idxAt_ix2 r c h x).symm).trans
    (storeIdx_hit f _ v h (fun x y e => hinj x y (congrArg (fun i => (i 0).val) e) (congrArg (fun i => (i 1).val) e)) x)

/-- The store into a rank-2 buffer at an entry no lane names: the old entry. -/
theorem storeIdx_apply_miss {n0 n1 : ℕ} {d : Fin 1 → ℕ} (f : Vec F ⟨2, ![n0, n1]⟩ e) (r c : IVec ⟨1, d⟩ 32) (v : Vec F ⟨1, d⟩ e)
    (h : ∀ a x, ((![r, c] : Fin 2 → IVec ⟨1, d⟩ 32) a x).toNat < (⟨2, ![n0, n1]⟩ : Shape).size a)
    (j : (⟨2, ![n0, n1]⟩ : Shape).Idx) (hj : ∀ x, ¬((r x).toNat = (j 0).val ∧ (c x).toNat = (j 1).val)) :
    storeIdx f ![r, c] v (fun _ => 1#1) false h j = f j :=
  storeIdx_miss f _ v h j fun x e => hj x ⟨congrArg (fun i => (i 0).val) e, congrArg (fun i => (i 1).val) e⟩

/-! ## The skewed addressing: bounds of the addressed rows and columns, as numbers -/

/-- Row `16 g + x` is a row of the block of 128. -/
theorem row_bound (g : BitVec 32) (hg : g.toNat < 8) (x : S16.Idx) : 16 * g.toNat + (x 0).val < 128 :=
  Cert.LibSkew.row_lt _ _ hg (lane_lt x)
/-- Its half is a row of the packed block of 64. -/
theorem hrow_bound (g : BitVec 32) (hg : g.toNat < 8) (x : S16.Idx) : (16 * g.toNat + (x 0).val) / 2 < 64 :=
  Cert.LibSkew.half_row_lt _ _ hg (lane_lt x)
/-- Column `half + (9 x mod 64 + k) mod 64`, the half `0` or `64` by the index word, is one of the 128. -/
theorem col_bound (raw : IVec S16 32) (k : ℕ) (x : S16.Idx) : (sel raw x).toNat + (9 * (x 0).val % 64 + k) % 64 < 128 := by
  have h1 := sel_le raw x
  have h2 := Nat.mod_lt (9 * (x 0).val % 64 + k) (show 0 < 64 by norm_num)
  omega
/-- Column `(x mod 2)·64 + (9 x mod 64 + k) mod 64` is one of the 128. -/
theorem gcol_bound (k : ℕ) (x : S16.Idx) : (x 0).val % 2 * 64 + (9 * (x 0).val % 64 + k) % 64 < 128 := by
  have h2 := Nat.mod_lt (9 * (x 0).val % 64 + k) (show 0 < 64 by norm_num)
  omega

variable (hI : S16.Iotas .scVector 32 [0])

/-! ## The skewed addressing: loads -/

/-- The indexed load from a block of 128 rows at group `g`'s rows and step `k`'s columns, at lane `x`: the entry at row
    `16 g + x`, column `half + (9 x mod 64 + k) mod 64`. -/
theorem loadIdx_rows (f : Vec F S128x128 e) (g : BitVec 32) (raw : IVec S16 32) (k : BitVec 32) (hg : g.toNat < 8) (hk : k.toNat < 64)
    (h : ∀ a x, ((![rows hI g, col hI raw k] : Fin 2 → IVec S16 32) a x).toNat < S128x128.size a) (x : S16.Idx) :
    loadIdx f ![rows hI g, col hI raw k] h x
      = f (ix2 ⟨16 * g.toNat + (x 0).val, row_bound g hg x⟩
          ⟨(sel raw x).toNat + (9 * (x 0).val % 64 + k.toNat) % 64, col_bound raw k.toNat x⟩) := by
  rw [loadIdx_apply]
  exact congrArg f (congrArg₂ (ix2 (n0 := 128) (n1 := 128)) (Fin.ext (rows_apply hI g hg x)) (Fin.ext (col_apply hI raw k hk x)))

/-- The indexed load from a packed block of 64 rows at group `g`'s half-rows and step `k`'s columns, at lane `x`: the
    entry at row `(16 g + x) / 2`, column `(x mod 2)·64 + (9 x mod 64 + k) mod 64`. -/
theorem loadIdx_grows (f : Vec F S64x128 e) (g : BitVec 32) (k : BitVec 32) (hg : g.toNat < 8) (hk : k.toNat < 64)
    (h : ∀ a x, ((![grows hI g, gcol hI k] : Fin 2 → IVec S16 32) a x).toNat < S64x128.size a) (x : S16.Idx) :
    loadIdx f ![grows hI g, gcol hI k] h x
      = f (ix2 ⟨(16 * g.toNat + (x 0).val) / 2, hrow_bound g hg x⟩
          ⟨(x 0).val % 2 * 64 + (9 * (x 0).val % 64 + k.toNat) % 64, gcol_bound k.toNat x⟩) := by
  rw [loadIdx_apply]
  exact congrArg f (congrArg₂ (ix2 (n0 := 64) (n1 := 128)) (Fin.ext (grows_apply hI g hg x)) (Fin.ext (gcol_apply hI k hk x)))

/-! ## The skewed addressing: the store into the packed block -/

/-- The indexed store into the packed block at group `g`'s half-rows and step `k`'s columns, at lane `x`'s target —
    row `(16 g + x) / 2`, column `(x mod 2)·64 + (9 x mod 64 + k) mod 64` —: lane `x`'s value (the sixteen targets are
    pairwise distinct). -/
theorem storeIdx_grows_hit (f : Vec F S64x128 e) (g : BitVec 32) (k : BitVec 32) (v : Vec F S16 e) (hg : g.toNat < 8) (hk : k.toNat < 64)
    (h : ∀ a x, ((![grows hI g, gcol hI k] : Fin 2 → IVec S16 32) a x).toNat < S64x128.size a) (x : S16.Idx) :
    storeIdx f ![grows hI g, gcol hI k] v (fun _ => 1#1) false h
        (ix2 ⟨(16 * g.toNat + (x 0).val) / 2, hrow_bound g hg x⟩
          ⟨(x 0).val % 2 * 64 + (9 * (x 0).val % 64 + k.toNat) % 64, gcol_bound k.toNat x⟩) = v x := by
  have e : (ix2 ⟨(16 * g.toNat + (x 0).val) / 2, hrow_bound g hg x⟩
        ⟨(x 0).val % 2 * 64 + (9 * (x 0).val % 64 + k.toNat) % 64, gcol_bound k.toNat x⟩ : S64x128.Idx)
      = ix2 ⟨(grows hI g x).toNat, h 0 x⟩ ⟨(gcol hI k x).toNat, h 1 x⟩ :=
    congrArg₂ (ix2 (n0 := 64) (n1 := 128)) (Fin.ext (grows_apply hI g hg x).symm) (Fin.ext (gcol_apply hI k hk x).symm)
  exact (congrArg (storeIdx f ![grows hI g, gcol hI k] v (fun _ => 1#1) false h) e).trans
    (storeIdx_apply_hit f (grows hI g) (gcol hI k) v h (fun x y e1 e2 => targets_inj hI g k hg hk e1 e2) x)

/-- The same store at an entry `(r, c)` that is no lane's target: the old entry. -/
theorem storeIdx_grows_miss (f : Vec F S64x128 e) (g : BitVec 32) (k : BitVec 32) (v : Vec F S16 e) (hg : g.toNat < 8) (hk : k.toNat < 64)
    (h : ∀ a x, ((![grows hI g, gcol hI k] : Fin 2 → IVec S16 32) a x).toNat < S64x128.size a) (r : Fin 64) (c : Fin 128)
    (hrc : ∀ x : S16.Idx, ¬((16 * g.toNat + (x 0).val) / 2 = r.val ∧ (x 0).val % 2 * 64 + (9 * (x 0).val % 64 + k.toNat) % 64 = c.val)) :
    storeIdx f ![grows hI g, gcol hI k] v (fun _ => 1#1) false h (ix2 r c) = f (ix2 r c) := by
  refine storeIdx_apply_miss f (grows hI g) (gcol hI k) v h (ix2 r c) fun x hx => hrc x ⟨?_, ?_⟩
  · rw [← grows_apply hI g hg x]; exact hx.1
  · rw [← gcol_apply hI k hk x]; exact hx.2

/-! ## A full turn: the 64 stores of one group -/

/-- Every column is some step's column: `(s + k) mod 64 = j` for `k = (j + 64 - s mod 64) mod 64`. -/
theorem exists_step (s : ℕ) (j : Fin 64) : ∃ k : Fin 64, (s + k.val) % 64 = j.val :=
  ⟨⟨(j.val + 64 - s % 64) % 64, Nat.mod_lt _ (by norm_num)⟩, by have := j.isLt; simp only; omega⟩

/-- The step is determined by its column: two steps below 64 with one column, from one offset, are one step. -/
theorem step_unique (s m n : ℕ) (hm : m < 64) (hn : n < 64) (h : (s + m) % 64 = (s + n) % 64) : m = n := by omega

/-- A step number below 64, as a word, is that number. -/
theorem step_toNat {n : ℕ} (hn : n < 64) : (BitVec.ofNat 32 n).toNat = n := by
  rw [BitVec.toNat_ofNat]; omega

/-- … and so below 64. -/
theorem step_lt {n : ℕ} (hn : n < 64) : (BitVec.ofNat 32 n).toNat < 64 := by rw [step_toNat hn]; exact hn

/-- Lane `x`'s target in the packed block at step `n` of group `g`: row `(16 g + x) / 2`, column
    `(x mod 2)·64 + (9 x mod 64 + n) mod 64`. -/
def tgt (g : BitVec 32) (hg : g.toNat < 8) (n : ℕ) (x : S16.Idx) : S64x128.Idx :=
  ix2 ⟨(16 * g.toNat + (x 0).val) / 2, hrow_bound g hg x⟩ ⟨(x 0).val % 2 * 64 + (9 * (x 0).val % 64 + n) % 64, gcol_bound n x⟩

/-- `tgt` unfolded. -/
theorem tgt_def (g : BitVec 32) (hg : g.toNat < 8) (n : ℕ) (x : S16.Idx) :
    tgt g hg n x = ix2 ⟨(16 * g.toNat + (x 0).val) / 2, hrow_bound g hg x⟩
      ⟨(x 0).val % 2 * 64 + (9 * (x 0).val % 64 + n) % 64, gcol_bound n x⟩ := rfl

/-- The packed block after the first `n` steps' stores of group `g`, step `k` storing the vector `vs k` at the group's
    half-rows and the step's columns (every mask bit set, no accumulation); from `f`. -/
def turn (g : BitVec 32) (hg : g.toNat < 8) (vs : ℕ → Vec F S16 e) (f : Vec F S64x128 e) : ℕ → Vec F S64x128 e
  | 0 => f
  | n + 1 =>
    if hn : n < 64 then
      storeIdx (turn g hg vs f n) ![grows hI g, gcol hI (BitVec.ofNat 32 n)] (vs n) (fun _ => 1#1) false
        (chk_grows hI g (BitVec.ofNat 32 n) hg (step_lt hn))
    else turn g hg vs f n

/-- Before any step: the block as it was. -/
theorem turn_zero (g : BitVec 32) (hg : g.toNat < 8) (vs : ℕ → Vec F S16 e) (f : Vec F S64x128 e) : turn hI g hg vs f 0 = f := rfl

/-- One more step: the store of step `n` into what the first `n` steps left (whatever the evidence that the store's
    indices are in range). -/
theorem turn_succ (g : BitVec 32) (hg : g.toNat < 8) (vs : ℕ → Vec F S16 e) (f : Vec F S64x128 e) {n : ℕ} (hn : n < 64)
    (h : ∀ a x, ((![grows hI g, gcol hI (BitVec.ofNat 32 n)] : Fin 2 → IVec S16 32) a x).toNat < S64x128.size a) :
    turn hI g hg vs f (n + 1)
      = storeIdx (turn hI g hg vs f n) ![grows hI g, gcol hI (BitVec.ofNat 32 n)] (vs n) (fun _ => 1#1) false h := by
  simp only [turn, dif_pos hn]

/-- Step `n`'s store, at lane `x`'s target of that step: lane `x`'s value. -/
theorem step_hit (f : Vec F S64x128 e) (g : BitVec 32) (hg : g.toNat < 8) (v : Vec F S16 e) {n : ℕ} (hn : n < 64)
    (h : ∀ a x, ((![grows hI g, gcol hI (BitVec.ofNat 32 n)] : Fin 2 → IVec S16 32) a x).toNat < S64x128.size a) (x : S16.Idx) :
    storeIdx f ![grows hI g, gcol hI (BitVec.ofNat 32 n)] v (fun _ => 1#1) false h (tgt g hg n x) = v x := by
  have := storeIdx_grows_hit hI f g (BitVec.ofNat 32 n) v hg (step_lt hn) h x
  rw [← tgt_def, step_toNat hn] at this
  exact this

/-- Step `n`'s store, at another step's target of any lane: the old entry (one row and one half of the columns make one
    lane, and one lane's columns at two steps differ). -/
theorem step_other (f : Vec F S64x128 e) (g : BitVec 32) (hg : g.toNat < 8) (v : Vec F S16 e) {m n : ℕ} (hm : m < 64) (hn : n < 64)
    (hmn : m ≠ n)
    (h : ∀ a x, ((![grows hI g, gcol hI (BitVec.ofNat 32 n)] : Fin 2 → IVec S16 32) a x).toNat < S64x128.size a) (x : S16.Idx) :
    storeIdx f ![grows hI g, gcol hI (BitVec.ofNat 32 n)] v (fun _ => 1#1) false h (tgt g hg m x) = f (tgt g hg m x) := by
  rw [tgt_def]
  refine storeIdx_grows_miss hI f g (BitVec.ofNat 32 n) v hg (step_lt hn) h _ _ fun y hy => ?_
  obtain ⟨h1, h2⟩ := hy
  rw [step_toNat hn] at h2
  have hx := lane_lt x; have hy' := lane_lt y
  simp only at h1 h2
  have cy := Nat.mod_lt (9 * (y 0).val % 64 + n) (show 0 < 64 by norm_num)
  have cx := Nat.mod_lt (9 * (x 0).val % 64 + m) (show 0 < 64 by norm_num)
  have hp : (y 0).val % 2 = (x 0).val % 2 := by omega
  have hxy : (y 0).val = (x 0).val := Cert.LibSkew.half_row_inj _ _ _ h1 hp
  rw [hxy] at h2
  exact hmn (step_unique (9 * (x 0).val % 64) m n hm hn (by omega))

/-- Step `n`'s store, at a row that is not one of the group's eight: the old entry. -/
theorem step_outside (f : Vec F S64x128 e) (g : BitVec 32) (hg : g.toNat < 8) (v : Vec F S16 e) {n : ℕ} (hn : n < 64)
    (h : ∀ a x, ((![grows hI g, gcol hI (BitVec.ofNat 32 n)] : Fin 2 → IVec S16 32) a x).toNat < S64x128.size a)
    (r : Fin 64) (c : Fin 128) (hr : r.val / 8 ≠ g.toNat) :
    storeIdx f ![grows hI g, gcol hI (BitVec.ofNat 32 n)] v (fun _ => 1#1) false h (ix2 r c) = f (ix2 r c) := by
  refine storeIdx_grows_miss hI f g (BitVec.ofNat 32 n) v hg (step_lt hn) h r c fun y hy => hr ?_
  have hy' := lane_lt y
  have := hy.1
  omega

/-- After the first `n` steps, the target of an earlier step `m < n` of lane `x` holds what lane `x` stored at step `m`. -/
theorem turn_done (g : BitVec 32) (hg : g.toNat < 8) (vs : ℕ → Vec F S16 e) (f : Vec F S64x128 e) (n : ℕ) (hn : n ≤ 64)
    (m : ℕ) (hm : m < n) (x : S16.Idx) : turn hI g hg vs f n (tgt g hg m x) = vs m x := by
  induction n with
  | zero => exact absurd hm (Nat.not_lt_zero _)
  | succ n ih =>
    have hn' : n < 64 := hn
    rw [turn_succ hI g hg vs f hn' (chk_grows hI g (BitVec.ofNat 32 n) hg (step_lt hn'))]
    by_cases hmn : m = n
    · subst hmn; exact step_hit hI _ g hg _ hn' _ x
    · rw [step_other hI _ g hg _ (by omega) hn' hmn]
      exact ih (by omega) (by omega)

/-- After any number of steps, a row that is not one of the group's eight is as it was. -/
theorem turn_outside_aux (g : BitVec 32) (hg : g.toNat < 8) (vs : ℕ → Vec F S16 e) (f : Vec F S64x128 e) (n : ℕ) (hn : n ≤ 64)
    (r : Fin 64) (c : Fin 128) (hr : r.val / 8 ≠ g.toNat) : turn hI g hg vs f n (ix2 r c) = f (ix2 r c) := by
  induction n with
  | zero => rfl
  | succ n ih =>
    have hn' : n < 64 := hn
    rw [turn_succ hI g hg vs f hn' (chk_grows hI g (BitVec.ofNat 32 n) hg (step_lt hn')), step_outside hI _ g hg _ hn' _ r c hr]
    exact ih (by omega)

/-- A FULL TURN, by steps: after the 64 stores of group `g`, the entry at row `(16 g + x) / 2`, column
    `(x mod 2)·64 + (9 x mod 64 + k) mod 64` holds what lane `x` stored at step `k`. -/
theorem turn_apply_step (g : BitVec 32) (hg : g.toNat < 8) (vs : ℕ → Vec F S16 e) (f : Vec F S64x128 e) (x : S16.Idx) (k : Fin 64) :
    turn hI g hg vs f 64 (ix2 ⟨(16 * g.toNat + (x 0).val) / 2, hrow_bound g hg x⟩
      ⟨(x 0).val % 2 * 64 + (9 * (x 0).val % 64 + k.val) % 64, gcol_bound k.val x⟩) = vs k.val x :=
  turn_done hI g hg vs f 64 (Nat.le_refl _) k.val k.isLt x

/-- A FULL TURN, by columns: the entry at row `(16 g + x) / 2`, column `(x mod 2)·64 + j` holds what lane `x` stored at
    the step `k` whose column `(9 x mod 64 + k) mod 64` is `j`. -/
theorem turn_apply_col (g : BitVec 32) (hg : g.toNat < 8) (vs : ℕ → Vec F S16 e) (f : Vec F S64x128 e) (x : S16.Idx) (j k : Fin 64)
    (hk : (9 * (x 0).val % 64 + k.val) % 64 = j.val) :
    turn hI g hg vs f 64 (ix2 ⟨(16 * g.toNat + (x 0).val) / 2, hrow_bound g hg x⟩
      ⟨(x 0).val % 2 * 64 + j.val, by have := j.isLt; omega⟩) = vs k.val x := by
  have := turn_apply_step hI g hg vs f x k
  simp only [hk] at this
  exact this

/-- … and there is such a step, for every column. -/
theorem turn_apply_exists (g : BitVec 32) (hg : g.toNat < 8) (vs : ℕ → Vec F S16 e) (f : Vec F S64x128 e) (x : S16.Idx) (j : Fin 64) :
    ∃ k : Fin 64, (9 * (x 0).val % 64 + k.val) % 64 = j.val
      ∧ turn hI g hg vs f 64 (ix2 ⟨(16 * g.toNat + (x 0).val) / 2, hrow_bound g hg x⟩
          ⟨(x 0).val % 2 * 64 + j.val, by have := j.isLt; omega⟩) = vs k.val x := by
  obtain ⟨k, hk⟩ := exists_step (9 * (x 0).val % 64) j
  exact ⟨k, hk, turn_apply_col hI g hg vs f x j k hk⟩

/-- A FULL TURN leaves every row outside the group's eight — rows `8 g, …, 8 g + 7` — as it was. -/
theorem turn_outside (g : BitVec 32) (hg : g.toNat < 8) (vs : ℕ → Vec F S16 e) (f : Vec F S64x128 e)
    (r : Fin 64) (c : Fin 128) (hr : r.val / 8 ≠ g.toNat) : turn hI g hg vs f 64 (ix2 r c) = f (ix2 r c) :=
  turn_outside_aux hI g hg vs f 64 (Nat.le_refl _) r c hr

end Cert.LibIdxOps
-- ==== Proof.LibPackBridge.lean ====
/-
  The skewed addressing's words and a tile's specification name the same entries.

  A tile's specification speaks of an index word `w` in `[0, 99999]` through the packed row `prowW w` it names
  (the word, less 50176 from 50176 on), the half `halfW w` of that row (64 from 50176 on, else 0) and the packed column
  `pcolW w j = halfW w + j` of feature `j`; of triple `t < 128` of the tile through its row `t / 2` among the tile's 64
  packed rows, its half `64 (t mod 2)` of the columns, and the column `sigma t k = (9 (t mod 16) mod 64 + k) mod 64`
  its lane touches at step `k`. The vector unit computes, for lane `x` of group `g` — triple `t = 16 g + x` —, the
  repacked word, the selected half, and the step's column from the lane's own offset `9 x mod 64`. Here: they agree.
-/
import proofs.«203895_g52347061404180_cont_8to1_c_859_34_alg».proof.Proof.LibIdxOps
import proofs.«203895_g52347061404180_cont_8to1_c_859_34_alg».proof.Proof.TileSpec

namespace Cert.LibPackBridge

open Idealize.ShloMosaic Idealize.ShloMosaic.ValueIdx Cert.LibSkewVec Cert.LibIdxOps

/-! ## The index word: repacked row and selected half -/

/-- The half the test selects is the specification's half. -/
theorem sel_halfW (raw : IVec S16 32) (x : S16.Idx) : (sel raw x).toNat = Cert.TileSpec.halfW (raw x) := by
  rw [sel_apply]; rfl

/-- For an index word in `[0, 99999]` the repacked word is the packed row the specification names. -/
theorem packed_prowW (raw : IVec S16 32) (x : S16.Idx) (h0 : 0 ≤ (raw x).toInt) (h1 : (raw x).toInt ≤ 99999) :
    (packed raw x).toNat = (Cert.TileSpec.prowW (raw x)).val := by
  obtain ⟨hlt, he⟩ := packed_apply raw x h0 h1
  have hn := toInt_eq_toNat_of_nonneg (raw x) h0
  unfold Cert.TileSpec.prowW
  simp only
  split at he <;> rename_i hc
  · rw [if_pos hc]; omega
  · rw [if_neg hc]; omega

/-- The same for a single word: its packed row as a number. -/
theorem prowW_val (w : BitVec 32) (h0 : 0 ≤ w.toInt) (h1 : w.toInt ≤ 99999) :
    (Cert.TileSpec.prowW w).val = if 50176 ≤ w.toInt then w.toNat - 50176 else w.toNat := by
  have hn := toInt_eq_toNat_of_nonneg w h0
  unfold Cert.TileSpec.prowW
  simp only
  split <;> omega

/-- A packed row below 50176 that is the specification's packed row, as an index: the two are one. -/
theorem prowW_eq (w : BitVec 32) (p : Fin 50176) (h : p.val = (Cert.TileSpec.prowW w).val) : p = Cert.TileSpec.prowW w :=
  Fin.ext h

/-! ## The step's column -/

/-- The step's column of lane `x`: `(9 x mod 64 + k) mod 64`, one of the 64. -/
def stepCol (x : S16.Idx) (k : ℕ) : Fin 64 := ⟨(9 * (x 0).val % 64 + k) % 64, Nat.mod_lt _ (by norm_num)⟩

/-- `stepCol` as a number. -/
theorem stepCol_val (x : S16.Idx) (k : ℕ) : (stepCol x k).val = (9 * (x 0).val % 64 + k) % 64 := rfl

/-- The column the vector unit addresses in a row of 128 — the selected half plus the step's column — is the
    specification's packed column of the step's column. -/
theorem col_pcolW (raw : IVec S16 32) (k : ℕ) (x : S16.Idx) :
    (⟨(sel raw x).toNat + (9 * (x 0).val % 64 + k) % 64, col_bound raw k x⟩ : Fin 128)
      = Cert.TileSpec.pcolW (raw x) (stepCol x k) := by
  apply Fin.ext
  show (sel raw x).toNat + (9 * (x 0).val % 64 + k) % 64 = Cert.TileSpec.halfW (raw x) + (9 * (x 0).val % 64 + k) % 64
  rw [sel_halfW]

/-- Triple `t = 16 g + x` of the tile, as a number below 128. -/
def triOf (g : BitVec 32) (hg : g.toNat < 8) (x : S16.Idx) : Fin 128 := ⟨16 * g.toNat + (x 0).val, row_bound g hg x⟩

/-- `triOf` as a number. -/
theorem triOf_val (g : BitVec 32) (hg : g.toNat < 8) (x : S16.Idx) : (triOf g hg x).val = 16 * g.toNat + (x 0).val := rfl

/-- Every triple of the tile is some group's some lane's. -/
theorem triOf_surj (t : Fin 128) : ∃ (g : BitVec 32) (hg : g.toNat < 8) (x : S16.Idx), t = triOf g hg x := by
  have ht := t.isLt
  have hgn : (BitVec.ofNat 32 (t.val / 16)).toNat = t.val / 16 := by rw [BitVec.toNat_ofNat]; omega
  refine ⟨BitVec.ofNat 32 (t.val / 16), by rw [hgn]; omega, ix1 ⟨t.val % 16, Nat.mod_lt _ (by norm_num)⟩, Fin.ext ?_⟩
  show t.val = 16 * (BitVec.ofNat 32 (t.val / 16)).toNat + t.val % 16
  rw [hgn]; omega

/-- The specification's step column of triple `16 g + x` is lane `x`'s. -/
theorem sigma_triOf (g : BitVec 32) (hg : g.toNat < 8) (x : S16.Idx) (k : Fin 64) :
    Cert.TileSpec.sigma (triOf g hg x) k = stepCol x k.val := by
  apply Fin.ext
  have hx := lane_lt x
  show (9 * ((16 * g.toNat + (x 0).val) % 16) % 64 + k.val) % 64 = (9 * (x 0).val % 64 + k.val) % 64
  have : (16 * g.toNat + (x 0).val) % 16 = (x 0).val := by omega
  rw [this]

/-! ## The packed block of differences: a triple's row and half -/

/-- Tile `w`'s row of triple `16 g + x` in the differences array is `64 w` plus its row in the tile's block. -/
theorem dRow_triOf (w : Fin 32) (g : BitVec 32) (hg : g.toNat < 8) (x : S16.Idx) :
    (Cert.TileSpec.dRow w (triOf g hg x)).val = 64 * w.val + (16 * g.toNat + (x 0).val) / 2 := rfl

/-- The column of feature `c` of triple `16 g + x` in the differences array: the lane's parity chooses the half. -/
theorem dCol_triOf (g : BitVec 32) (hg : g.toNat < 8) (x : S16.Idx) (c : Fin 64) :
    (Cert.TileSpec.dCol (triOf g hg x) c).val = (x 0).val % 2 * 64 + c.val := by
  have hx := lane_lt x
  show 64 * ((16 * g.toNat + (x 0).val) % 2) + c.val = (x 0).val % 2 * 64 + c.val
  omega

/-- The triple's number in the whole array: `128 w + 16 g + x`. -/
theorem tri_triOf (w : Fin 32) (g : BitVec 32) (hg : g.toNat < 8) (x : S16.Idx) :
    (Cert.TileSpec.tri w (triOf g hg x)).val = 128 * w.val + (16 * g.toNat + (x 0).val) := rfl

end Cert.LibPackBridge
-- ==== Proof.LibDotParts.lean ====
/-
  Pure facts for the second gather kernel's accumulation.

  * A value carried step by step — `a (k + 1) = f k (a k)` from `a 0 = z` — is the left fold of `f` over the steps
    `0, …, n - 1` (`natRec_eq_foldl_finRange`, `iterate_eq_foldl_finRange`).
  * What a row gather leaves: entry `(r, c)` of the gathered block of 128 rows is the source's entry `(rows r, c)`
    (`gatherPayload_apply`); the row an offset list of 128 words names for row `r` is word `r`, read unsigned (`rows_val`).
-/
import Idealize.ShloMosaic.Lib.SparseCore.Stream
import proofs.«203895_g52347061404180_cont_8to1_c_859_34_alg».proof.Proof.LibPackBridge

namespace Cert.LibDotParts

open Idealize.ShloMosaic Idealize.ShloMosaic.ValueIdx Cert.LibSkewVec Cert.LibIdxOps Cert.LibPackBridge

/-! ## A recursion over the steps is a left fold over them -/

/-- The value after `n` steps of `acc ↦ f k acc`, `k = 0, …, n - 1`, from `z`, is the left fold over `List.finRange n`. -/
theorem natRec_eq_foldl_finRange {α : Type} (n : ℕ) (f : ℕ → α → α) (z : α) :
    (Nat.rec z (fun k acc => f k acc) n : α) = (List.finRange n).foldl (fun acc k => f k.val acc) z := by
  induction n with
  | zero => rfl
  | succ n ih =>
    rw [List.finRange_succ_last, List.foldl_append, List.foldl_map]
    show f n (Nat.rec z (fun k acc => f k acc) n) = _
    rw [ih]
    rfl

/-- The same for a sequence given by its recurrence: `a 0 = z`, `a (k + 1) = f k (a k)` for `k < n`. -/
theorem seq_eq_foldl_finRange {α : Type} (n : ℕ) (f : ℕ → α → α) (z : α) (a : ℕ → α) (h0 : a 0 = z)
    (hs : ∀ k, k < n → a (k + 1) = f k (a k)) : a n = (List.finRange n).foldl (fun acc k => f k.val acc) z := by
  rw [← natRec_eq_foldl_finRange]
  induction n with
  | zero => exact h0
  | succ n ih =>
    rw [hs n (Nat.lt_succ_self n), ih fun k hk => hs k (Nat.lt_succ_of_lt hk)]

/-! ## What a row gather leaves -/

section Gather
variable {F : FTy → Type} {e : EltTy}

/-- Entry `(r, c)` of a block of `o` rows gathered along axis 0 from a table of `z` rows of the same width is the table's
    entry `(rw r, c)`, `rw r` the row the offset list names for row `r`. -/
theorem gatherPayload_apply {z o L : ℕ} (hg : (⟨2, ![z, L]⟩ : Shape).Gathers 0 ⟨2, ![o, L]⟩) (src : Vec F ⟨2, ![z, L]⟩ e)
    (rw : Fin o → Fin z) (r : Fin o) (c : Fin L) :
    SparseCore.gatherPayload (F := F) hg src rw (ix2 r c) = src (ix2 (rw r) c) := by
  show src (Shape.Gathers.idx hg rw (ix2 r c)) = _
  congr 1
  funext b
  match b with
  | ⟨0, _⟩ => exact Shape.Gathers.idx_axis hg rw (ix2 r c)
  | ⟨1, hb⟩ => exact Fin.ext (Shape.Gathers.idx_of_ne hg rw (ix2 r c) ⟨1, hb⟩ (fun h => absurd h (by norm_num)))

/-- A rank-one index from its row-major position. -/
theorem rowMajor_symm_ix1 {n : ℕ} (k : Fin n) (h : (⟨1, ![n]⟩ : Shape).numel = n) :
    (⟨1, ![n]⟩ : Shape).rowMajor.symm (k.cast h.symm) = ix1 k := by
  rw [Equiv.symm_apply_eq]
  apply Fin.ext
  show k.val = ((⟨1, ![n]⟩ : Shape).rowMajor (ix1 k)).val
  show k.val = (Shape.rowMajorPi ![n] (ix1 k)).val
  rw [Shape.rowMajorPi_succ_val]
  have h0 := (Shape.rowMajorPi (fun a : Fin 0 => (![n] : Fin 1 → ℕ) a.succ) (fun a => (ix1 k : (⟨1, ![n]⟩ : Shape).Idx) a.succ)).isLt
  simp only [Finset.univ_eq_empty, Finset.prod_empty] at h0 ⊢
  show k.val = k.val * 1 + _
  omega

/-- The row an offset list of `n` words names for row `r`: word `r`, read unsigned. -/
theorem rows_val {n z : ℕ} (v : (⟨1, ![n]⟩ : Shape).Idx → Elt F .i32) (hn : (⟨1, ![n]⟩ : Shape).numel = n)
    (hin : ∀ x, (v x).toNat < z) (r : Fin n) :
    (SparseCore.rows (F := F) v hn hin r).val = (v (ix1 r)).toNat := by
  show (v ((⟨1, ![n]⟩ : Shape).rowMajor.symm (r.cast hn.symm))).toNat = _
  rw [rowMajor_symm_ix1 r hn]

end Gather

end Cert.LibDotParts
-- ==== Proof.LibGTurns.lean ====
/-
  The first gather kernel's block of differences, filled group by group.

  The tile walks its 128 triples in 8 groups of 16 lanes. For triple `t = 16 g + x` the rows of the packed table its two
  index words name have been gathered into row `t` of two blocks of 128 rows; at step `k` lane `x` loads from each the
  entry at column `half + (9 x mod 64 + k) mod 64` — the packed column of feature column `(9 x mod 64 + k) mod 64` for that
  word — and stores the difference at row `t / 2`, column `(t mod 2)·64 +` that feature column of the packed block of 64
  rows. Here: what a gathered block's indexed load reads, in the specification's words (`load_gathered`); that a full turn of
  group `G` extends "the first `G` groups' entries are filled" to `G + 1` (`filled_turn`); and that the block filled by
  all 8 groups, copied to the tile's 64 rows of the differences array, is what the tile's specification asks
  (`outG_of_filled`).
-/
import proofs.«203895_g52347061404180_cont_8to1_c_859_34_alg».proof.Proof.LibPackBridge

namespace Cert.LibGTurns

open Idealize.ShloMosaic Idealize.ShloMosaic.ValueIdx Cert.LibSkewVec Cert.LibIdxOps Cert.LibPackBridge

variable {F : FTy → Type} [FloatOps F] {e : EltTy}
variable (hI : S16.Iotas .scVector 32 [0])

/-! ## What the indexed load reads from a gathered block -/

/-- A block whose row `t` is the packed table's row for triple `t`'s index word, loaded at group `g`'s rows and step
    `k`'s columns computed from the group's sixteen words: lane `x` reads the table's entry at the word's packed row and
    the packed column of the step's feature column. -/
theorem load_gathered (tbl : Vec F ⟨2, ![50176, 128]⟩ e) (blk : Vec F S128x128 e) (word : Fin 128 → BitVec 32)
    (hblk : ∀ (t : Fin 128) (c : Fin 128), blk (ix2 t c) = tbl (ix2 (Cert.TileSpec.prowW (word t)) c))
    (g : BitVec 32) (hg : g.toNat < 8) (raw : IVec S16 32) (hraw : ∀ x, raw x = word (triOf g hg x))
    (k : BitVec 32) (hk : k.toNat < 64)
    (h : ∀ a x, ((![rows hI g, col hI raw k] : Fin 2 → IVec S16 32) a x).toNat < S128x128.size a) (x : S16.Idx) :
    loadIdx blk ![rows hI g, col hI raw k] h x
      = tbl (ix2 (Cert.TileSpec.prowW (word (triOf g hg x)))
          (Cert.TileSpec.pcolW (word (triOf g hg x)) (stepCol x k.toNat))) := by
  rw [loadIdx_rows hI blk g raw k hg hk h x, col_pcolW, hraw x]
  exact hblk (triOf g hg x) _

/-! ## The packed block, group by group -/

/-- The packed block's entry of feature column `j` of triple `16 g + x`: row `(16 g + x) / 2`, column `(x mod 2)·64 + j`. -/
def ent (g : BitVec 32) (hg : g.toNat < 8) (x : S16.Idx) (j : Fin 64) : S64x128.Idx :=
  ix2 ⟨(16 * g.toNat + (x 0).val) / 2, hrow_bound g hg x⟩ ⟨(x 0).val % 2 * 64 + j.val, by have := j.isLt; omega⟩

/-- `ent` unfolded. -/
theorem ent_def (g : BitVec 32) (hg : g.toNat < 8) (x : S16.Idx) (j : Fin 64) :
    ent g hg x j = ix2 ⟨(16 * g.toNat + (x 0).val) / 2, hrow_bound g hg x⟩
      ⟨(x 0).val % 2 * 64 + j.val, by have := j.isLt; omega⟩ := rfl

/-- The first `G` groups' entries are filled: the entry of feature column `j` of triple `16 g + x`, `g < G`, holds what
    lane `x` stored in group `g` at the step `k` whose column is `j` (`vs g k` is the vector stored in group `g` at step `k`). -/
def Filled (G : ℕ) (f : Vec F S64x128 e) (vs : ℕ → ℕ → Vec F S16 e) : Prop :=
  ∀ (g : BitVec 32) (hg : g.toNat < 8), g.toNat < G → ∀ (x : S16.Idx) (j k : Fin 64),
    (9 * (x 0).val % 64 + k.val) % 64 = j.val → f (ent g hg x j) = vs g.toNat k.val x

/-- Before the first group nothing is asked. -/
theorem filled_zero (f : Vec F S64x128 e) (vs : ℕ → ℕ → Vec F S16 e) : Filled 0 f vs :=
  fun _ _ h => absurd h (Nat.not_lt_zero _)

/-- A full turn of group `G` — the word `gw` — fills group `G`'s entries and leaves the earlier groups' as they are. -/
theorem filled_turn (G : ℕ) (hG : G < 8) (gw : BitVec 32) (hgw : gw.toNat = G) (f : Vec F S64x128 e) (vs : ℕ → ℕ → Vec F S16 e)
    (hf : Filled G f vs) : Filled (G + 1) (turn hI gw (hgw ▸ hG) (vs G) f 64) vs := by
  intro g hg hlt x j k hk
  by_cases hgG : g.toNat = G
  · have hgg : g = gw := BitVec.eq_of_toNat_eq (hgG.trans hgw.symm)
    subst hgg
    exact (turn_apply_col hI g _ (vs G) f x j k hk).trans (by rw [hgG])
  · have hx := lane_lt x
    rw [ent_def, turn_outside hI gw (hgw ▸ hG) (vs G) f _ _ (by rw [hgw]; simp only; omega)]
    exact hf g hg (by omega) x j k hk

/-- All eight groups done, every triple's every feature column is filled, named by the triple. -/
theorem filled_all (f : Vec F S64x128 e) (vs : ℕ → ℕ → Vec F S16 e) (hf : Filled 8 f vs)
    (g : BitVec 32) (hg : g.toNat < 8) (x : S16.Idx) (j : Fin 64) :
    ∃ k : Fin 64, (9 * (x 0).val % 64 + k.val) % 64 = j.val ∧ f (ent g hg x j) = vs g.toNat k.val x := by
  obtain ⟨k, hk⟩ := exists_step (9 * (x 0).val % 64) j
  exact ⟨k, hk, hf g hg hg x j k hk⟩

/-! ## The tile's specification from the filled block -/

/-- The tile's 64 rows of the differences array are the packed block `D`, and `D` is filled by the 8 groups with, at each
    step, the table's entry for the negative item's word minus its entry for the positive item's word at the step's feature
    column: then the array holds what the tile's specification asks. -/
theorem outG_of_filled (w : Fin 32) (tbl : FVec F Cert.TileSpec.S50176x128 .f32) (pos neg : IVec Cert.TileSpec.S4096 32)
    (out : FVec F Cert.TileSpec.S2048x128 .f32) (D : Vec F S64x128 .f32) (vs : ℕ → ℕ → Vec F S16 .f32)
    (hout : ∀ (r : Fin 64) (c : Fin 128), out (ix2 ⟨64 * w.val + r.val, by have := w.isLt; have := r.isLt; omega⟩ c) = D (ix2 r c))
    (hD : Filled 8 D vs)
    (hvs : ∀ (g : BitVec 32) (hg : g.toNat < 8) (x : S16.Idx) (k : Fin 64),
      vs g.toNat k.val x
        = FloatOps.subf
            (tbl (ix2 (Cert.TileSpec.prowW (neg (ix1 (Cert.TileSpec.tri w (triOf g hg x)))))
              (Cert.TileSpec.pcolW (neg (ix1 (Cert.TileSpec.tri w (triOf g hg x)))) (stepCol x k.val))))
            (tbl (ix2 (Cert.TileSpec.prowW (pos (ix1 (Cert.TileSpec.tri w (triOf g hg x)))))
              (Cert.TileSpec.pcolW (pos (ix1 (Cert.TileSpec.tri w (triOf g hg x)))) (stepCol x k.val))))) :
    Cert.TileSpec.OutG w tbl pos neg out := by
  intro t j
  obtain ⟨g, hg, x, rfl⟩ := triOf_surj t
  obtain ⟨k, hk, hfk⟩ := filled_all D vs hD g hg x j
  have hj : stepCol x k.val = j := Fin.ext hk
  have e1 : (ix2 (Cert.TileSpec.dRow w (triOf g hg x)) (Cert.TileSpec.dCol (triOf g hg x) j) : Cert.TileSpec.S2048x128.Idx)
      = ix2 ⟨64 * w.val + (⟨(16 * g.toNat + (x 0).val) / 2, hrow_bound g hg x⟩ : Fin 64).val,
            by have := w.isLt; have := hrow_bound g hg x; simp only; omega⟩
          ⟨(x 0).val % 2 * 64 + j.val, by have := j.isLt; omega⟩ :=
    congrArg₂ (ix2 (n0 := 2048) (n1 := 128)) (Fin.ext (dRow_triOf w g hg x)) (Fin.ext (dCol_triOf g hg x j))
  rw [e1, hout, ← ent_def g hg x j, hfk, hvs g hg x k, hj]

end Cert.LibGTurns
-- ==== Proof.LibDotClose.lean ====
/-
  The second gather kernel's scores from its lanes' accumulators.

  Lane `x` of group `g` serves triple `t = 16 g + x` of the tile. At step `k` it multiplies the packed user table's entry
  for the triple's user word at the step's feature column `(9 x mod 64 + k) mod 64` with the differences' entry of the
  triple at that column, and adds the product onto its accumulator, which starts at the zero word. Here: what the load
  from the tile's 64 rows of the differences reads, in the specification's words (`load_diffs`); that an accumulator
  carried so through the 64 steps is the specification's (`accDot_of_steps`); and that the result array holding every
  lane's final accumulator at its triple is what the tile's specification asks (`outDot_of_lanes`).
-/
import proofs.«203895_g52347061404180_cont_8to1_c_859_34_alg».proof.Proof.LibDotParts
import proofs.«203895_g52347061404180_cont_8to1_c_859_34_alg».proof.Proof.LibGTurns

namespace Cert.LibDotClose

open Idealize.ShloMosaic Idealize.ShloMosaic.ValueIdx Cert.LibSkewVec Cert.LibIdxOps Cert.LibPackBridge Cert.LibDotParts

variable {F : FTy → Type} [FloatOps F] {e : EltTy}
variable (hI : S16.Iotas .scVector 32 [0])

/-- The tile's 64 rows of the differences, loaded at group `g`'s half-rows and step `k`'s columns: lane `x` reads the
    differences array's entry of triple `16 g + x` at the step's feature column. -/
theorem load_diffs (w : Fin 32) (gp : Vec F ⟨2, ![2048, 128]⟩ e) (blk : Vec F S64x128 e)
    (hblk : ∀ (r : Fin 64) (c : Fin 128), blk (ix2 r c) = gp (ix2 ⟨64 * w.val + r.val, by have := w.isLt; have := r.isLt; omega⟩ c))
    (g : BitVec 32) (hg : g.toNat < 8) (k : BitVec 32) (hk : k.toNat < 64)
    (h : ∀ a x, ((![grows hI g, gcol hI k] : Fin 2 → IVec S16 32) a x).toNat < S64x128.size a) (x : S16.Idx) :
    loadIdx blk ![grows hI g, gcol hI k] h x
      = gp (ix2 (Cert.TileSpec.dRow w (triOf g hg x)) (Cert.TileSpec.dCol (triOf g hg x) (stepCol x k.toNat))) := by
  rw [loadIdx_grows hI blk g k hg hk h x, hblk]
  exact congrArg gp (congrArg₂ (ix2 (n0 := 2048) (n1 := 128)) (Fin.ext (dRow_triOf w g hg x).symm)
    (Fin.ext (dCol_triOf g hg x (stepCol x k.toNat)).symm))

/-- An accumulator that starts at the zero word and at each of the 64 steps adds the product of the table's entry for
    the triple's word at the step's feature column with the differences' entry of the triple at that column is the
    specification's accumulator of triple `16 g + x`. -/
theorem accDot_of_steps (w : Fin 32) (tbl : FVec F Cert.TileSpec.S50176x128 .f32) (uidx : IVec Cert.TileSpec.S4096 32)
    (gp : FVec F Cert.TileSpec.S2048x128 .f32) (g : BitVec 32) (hg : g.toNat < 8) (x : S16.Idx) (acc : ℕ → F .f32)
    (h0 : acc 0 = Scalar.ofBits .f32 0x00000000#32)
    (hs : ∀ k, k < 64 → acc (k + 1) = FloatOps.addf (acc k)
      (FloatOps.mulf
        (tbl (ix2 (Cert.TileSpec.prowW (uidx (ix1 (Cert.TileSpec.tri w (triOf g hg x)))))
          (Cert.TileSpec.pcolW (uidx (ix1 (Cert.TileSpec.tri w (triOf g hg x)))) (stepCol x k))))
        (gp (ix2 (Cert.TileSpec.dRow w (triOf g hg x)) (Cert.TileSpec.dCol (triOf g hg x) (stepCol x k)))))) :
    acc 64 = Cert.TileSpec.accDot w tbl uidx gp (triOf g hg x) := by
  rw [seq_eq_foldl_finRange 64 (fun k a => FloatOps.addf a
      (FloatOps.mulf
        (tbl (ix2 (Cert.TileSpec.prowW (uidx (ix1 (Cert.TileSpec.tri w (triOf g hg x)))))
          (Cert.TileSpec.pcolW (uidx (ix1 (Cert.TileSpec.tri w (triOf g hg x)))) (stepCol x k))))
        (gp (ix2 (Cert.TileSpec.dRow w (triOf g hg x)) (Cert.TileSpec.dCol (triOf g hg x) (stepCol x k))))))
    (Scalar.ofBits .f32 0x00000000#32) acc h0 hs]
  unfold Cert.TileSpec.accDot
  congr 1
  funext a k
  rw [sigma_triOf g hg x k]

/-- The result holding, at every triple `16 g + x` of the tile, the specification's accumulator of that triple is what the
    tile's specification asks. -/
theorem outDot_of_lanes (w : Fin 32) (tbl : FVec F Cert.TileSpec.S50176x128 .f32) (uidx : IVec Cert.TileSpec.S4096 32)
    (gp : FVec F Cert.TileSpec.S2048x128 .f32) (out : FVec F Cert.TileSpec.S4096 .f32)
    (h : ∀ (g : BitVec 32) (hg : g.toNat < 8) (x : S16.Idx),
      out (ix1 (Cert.TileSpec.tri w (triOf g hg x))) = Cert.TileSpec.accDot w tbl uidx gp (triOf g hg x)) :
    Cert.TileSpec.OutDot w tbl uidx gp out := by
  intro t
  obtain ⟨g, hg, x, rfl⟩ := triOf_surj t
  exact h g hg x

end Cert.LibDotClose
-- ==== Proof.LibDotValue.lean ====
/-
  The second gather kernel's group accumulator is the specification's.

  One skewed step adds, lane by lane, the product of the entry read from the gathered user rows and the entry read
  from the tile's rows of the differences. When the gathered block's row `r` is the packed user table's row for triple
  `r`'s user word, the tile's 64 rows are the differences array's rows `64 w, …, 64 w + 63`, and the group's sixteen words
  are its triples' user words, the accumulator after the 64 steps, from the zero word, is at lane `x` the specification's
  accumulator of triple `16 g + x`: the steps' columns `(9 x mod 64 + k) mod 64` are the specification's `sigma`.
-/
import proofs.«203895_g52347061404180_cont_8to1_c_859_34_alg».proof.Proof.TileDotPartsV
import proofs.«203895_g52347061404180_cont_8to1_c_859_34_alg».proof.Proof.LibDotClose

noncomputable section

namespace Cert.KernelIdeal.LibDotValue

open Cert.KernelIdeal Cert.KernelIdeal.Gen Cert.KernelIdeal.KCommon Cert.KernelIdeal.TileCommon Cert.KernelIdeal.TileDotDefs
  Cert.KernelIdeal.TileDotParts Cert.KernelIdeal.TileDotPartsV
open Idealize.ShloMosaic Idealize.ShloMosaic.ValueIdx
open Idealize.ShloMosaic.SparseCore (S V T)
open Cert.LibSkewVec (rows grows col gcol sel)
open Cert.LibIdxOps Cert.LibPackBridge Cert.LibDotParts Cert.LibDotClose

variable {F : FTy → Type}
variable (d : Dev nD) (L : grid3.Coords)
variable [FloatOps F]

/-- ONE STEP at a lane, in the buffers' entries: the accumulator plus the product of the user rows' entry at row
    `16 g + x`, column `half + (9 x mod 64 + k) mod 64`, and the difference rows' entry at row `(16 g + x) / 2`, column
    `(x mod 2)·64 + (9 x mod 64 + k) mod 64`. -/
theorem stepAcc_apply (t : Fin k3_t1_loop.trips) (raw : IVec S16 32)
    (g2 : Buf (Elt F) ((urowsM).view.loc (V d (cV L) (jV L)))) (g3 : Buf (Elt F) ((gpvM).view.loc (V d (cV L) (jV L))))
    (k : BitVec 32) (hk : k.toNat < 64) (acc : FVec F S16 .f32) (x : S16.Idx) :
    stepAcc (F := F) d L t raw g2 g3 k hk acc x
      = FloatOps.addf (acc x) (FloatOps.mulf
          (R2 (F := F) d L g2 (ix2 ⟨16 * (grp t).toNat + (x 0).val, row_bound (grp t) (iv_lt t) x⟩
            ⟨(sel raw x).toNat + (9 * (x 0).val % 64 + k.toNat) % 64, col_bound raw k.toNat x⟩))
          (R3 (F := F) d L g3 (ix2 ⟨(16 * (grp t).toNat + (x 0).val) / 2, hrow_bound (grp t) (iv_lt t) x⟩
            ⟨(x 0).val % 2 * 64 + (9 * (x 0).val % 64 + k.toNat) % 64, gcol_bound k.toNat x⟩))) := by
  unfold stepAcc
  show FloatOps.addf (acc x) (FloatOps.mulf
    (loadIdx (F := F) (e := .f32) (R2 (F := F) d L g2) ![rows iota_S16_d0_w32_scVector (grp t), col iota_S16_d0_w32_scVector raw k] _ x : F .f32)
    (loadIdx (F := F) (e := .f32) (R3 (F := F) d L g3) ![grows iota_S16_d0_w32_scVector (grp t), gcol iota_S16_d0_w32_scVector k] _ x : F .f32)) = _
  rw [loadIdx_rows iota_S16_d0_w32_scVector _ (grp t) raw k (iv_lt t) hk, loadIdx_grows iota_S16_d0_w32_scVector _ (grp t) k (iv_lt t) hk]

section Spec
variable (w : Fin 32) (tbl : FVec F Cert.TileSpec.S50176x128 .f32) (uidx : IVec Cert.TileSpec.S4096 32)
  (gp : FVec F Cert.TileSpec.S2048x128 .f32)
  (t : Fin k3_t1_loop.trips) (raw : IVec S16 32)
  (g2 : Buf (Elt F) ((urowsM).view.loc (V d (cV L) (jV L)))) (g3 : Buf (Elt F) ((gpvM).view.loc (V d (cV L) (jV L))))

/-- ONE STEP at a lane, in the specification's words: the accumulator plus the product of the packed user table's entry
    for the triple's user word at the step's feature column and the differences' entry of the triple at that column. -/
theorem stepAcc_spec
    (hblk : ∀ r c : Fin 128, R2 (F := F) d L g2 (ix2 r c) = tbl (ix2 (Cert.TileSpec.prowW (uidx (ix1 (Cert.TileSpec.tri w r)))) c))
    (hgp : ∀ (r : Fin 64) (c : Fin 128), R3 (F := F) d L g3 (ix2 r c)
      = gp (ix2 ⟨64 * w.val + r.val, by have := w.isLt; have := r.isLt; omega⟩ c))
    (hraw : ∀ x : S16.Idx, raw x = uidx (ix1 (Cert.TileSpec.tri w (triOf (grp t) (iv_lt t) x))))
    (k : BitVec 32) (hk : k.toNat < 64) (acc : FVec F S16 .f32) (x : S16.Idx) :
    stepAcc (F := F) d L t raw g2 g3 k hk acc x
      = FloatOps.addf (acc x) (FloatOps.mulf
          (tbl (ix2 (Cert.TileSpec.prowW (uidx (ix1 (Cert.TileSpec.tri w (triOf (grp t) (iv_lt t) x)))))
            (Cert.TileSpec.pcolW (uidx (ix1 (Cert.TileSpec.tri w (triOf (grp t) (iv_lt t) x)))) (stepCol x k.toNat))))
          (gp (ix2 (Cert.TileSpec.dRow w (triOf (grp t) (iv_lt t) x))
            (Cert.TileSpec.dCol (triOf (grp t) (iv_lt t) x) (stepCol x k.toNat))))) := by
  unfold stepAcc
  show FloatOps.addf (acc x) (FloatOps.mulf
    (loadIdx (F := F) (e := .f32) (R2 (F := F) d L g2) ![rows iota_S16_d0_w32_scVector (grp t), col iota_S16_d0_w32_scVector raw k] _ x : F .f32)
    (loadIdx (F := F) (e := .f32) (R3 (F := F) d L g3) ![grows iota_S16_d0_w32_scVector (grp t), gcol iota_S16_d0_w32_scVector k] _ x : F .f32)) = _
  rw [Cert.LibGTurns.load_gathered iota_S16_d0_w32_scVector tbl (R2 (F := F) d L g2)
      (fun r => uidx (ix1 (Cert.TileSpec.tri w r))) hblk (grp t) (iv_lt t) raw hraw k hk,
    load_diffs iota_S16_d0_w32_scVector w gp (R3 (F := F) d L g3) hgp (grp t) (iv_lt t) k hk]

/-- A step number reduced modulo 64, as a word, is below 64. -/
theorem mod_step_lt (k : ℕ) : (BitVec.ofNat 32 (k % 64)).toNat < 64 := by
  rw [BitVec.toNat_ofNat]; have := Nat.mod_lt k (show 0 < 64 by norm_num); omega

/-- The accumulator after the first `n` steps, step `k` at the word `k`. -/
def accRec (n : ℕ) : FVec F S16 .f32 :=
  Nat.rec (zeroV (F := F)) (fun k a => stepAcc (F := F) d L t raw g2 g3 (BitVec.ofNat 32 (k % 64)) (mod_step_lt k) a) n

/-- One more step of the recursion. -/
theorem accRec_succ (k : ℕ) : accRec (F := F) d L t raw g2 g3 (k + 1)
    = stepAcc (F := F) d L t raw g2 g3 (BitVec.ofNat 32 (k % 64)) (mod_step_lt k) (accRec (F := F) d L t raw g2 g3 k) := rfl

/-- The 64 literal steps are the recursion's 64 steps. -/
theorem accAll_eq_accRec : accAll (F := F) d L t raw g2 g3 = accRec (F := F) d L t raw g2 g3 64 := rfl

/-- THE GROUP'S ACCUMULATORS ARE THE SPECIFICATION'S: after the 64 steps, lane `x` holds the specification's accumulator of
    triple `16 g + x` of the tile. -/
theorem accAll_eq_accDot
    (hblk : ∀ r c : Fin 128, R2 (F := F) d L g2 (ix2 r c) = tbl (ix2 (Cert.TileSpec.prowW (uidx (ix1 (Cert.TileSpec.tri w r)))) c))
    (hgp : ∀ (r : Fin 64) (c : Fin 128), R3 (F := F) d L g3 (ix2 r c)
      = gp (ix2 ⟨64 * w.val + r.val, by have := w.isLt; have := r.isLt; omega⟩ c))
    (hraw : ∀ x : S16.Idx, raw x = uidx (ix1 (Cert.TileSpec.tri w (triOf (grp t) (iv_lt t) x))))
    (x : S16.Idx) :
    accAll (F := F) d L t raw g2 g3 x = Cert.TileSpec.accDot w tbl uidx gp (triOf (grp t) (iv_lt t) x) := by
  rw [accAll_eq_accRec]
  refine accDot_of_steps w tbl uidx gp (grp t) (iv_lt t) x (fun n => accRec (F := F) d L t raw g2 g3 n x) rfl fun k hk => ?_
  show accRec (F := F) d L t raw g2 g3 (k + 1) x = _
  rw [accRec_succ, stepAcc_spec d L w tbl uidx gp t raw g2 g3 hblk hgp hraw]
  have hkk : (BitVec.ofNat 32 (k % 64)).toNat = k := by rw [BitVec.toNat_ofNat]; omega
  rw [hkk]

end Spec

end Cert.KernelIdeal.LibDotValue

end
-- ==== Proof.TileDotBridge.lean ====
/-
  FROM THE BUFFERS TO THE SPECIFICATION. Once the raw index scratch holds the tile's 128 index words, the user rows'
  scratch the packed table's rows they name, the difference scratch the tile's 64 difference rows, the scores' scratch
  every group's 64-step accumulator, and the tile's result entries the scores' scratch, the result entries are the
  specification's scores of the tile's 128 triples.
-/
import proofs.«203895_g52347061404180_cont_8to1_c_859_34_alg».proof.Proof.TileDotDefs
import proofs.«203895_g52347061404180_cont_8to1_c_859_34_alg».proof.Proof.Gen.KernelIdeal.Skeleton
import proofs.«203895_g52347061404180_cont_8to1_c_859_34_alg».proof.Proof.LibSkewVec
import proofs.«203895_g52347061404180_cont_8to1_c_859_34_alg».proof.Proof.TileDotLoopV
import proofs.«203895_g52347061404180_cont_8to1_c_859_34_alg».proof.Proof.TilePayV
import proofs.«203895_g52347061404180_cont_8to1_c_859_34_alg».proof.Proof.TileSpec
import proofs.«203895_g52347061404180_cont_8to1_c_859_34_alg».proof.Proof.LibDotValue

noncomputable section

namespace Cert.KernelIdeal.TileDotBridge

open Cert.KernelIdeal Cert.KernelIdeal.Gen Cert.KernelIdeal.KCommon Cert.KernelIdeal.TileCommon Cert.KernelIdeal.TileDotDefs Cert.KernelIdeal.TileDotParts Cert.KernelIdeal.TileDotPartsV Cert.KernelIdeal.TileDotTripV Cert.KernelIdeal.TileDotLoopV
open Idealize.ShloMosaic.ValueIdx

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid3.Coords)
variable [FloatOps F]

open Cert.LibPackBridge Cert.LibDotClose Cert.KernelIdeal.LibDotValue
open Cert.KernelIdeal.TilePayV (wid3)

/-! ## Where the tile's slices and the groups' entries start -/

omit [FloatOps F] in
/-- The loop makes eight trips. -/
theorem trips_eq : k3_t1_loop.trips = 8 := by decide

omit [FloatOps F] in
/-- A trip's group number, as a word, is the trip's number. -/
theorem grp_toNat (t : Fin k3_t1_loop.trips) : (grp t).toNat = t.val := by
  have ht : t.val < 8 := lt_of_lt_of_le t.isLt k3_t1_abs.2.1
  show (Scf.iv (0#32 : BitVec 32) 1#32 t.val).toNat = t.val
  unfold Scf.iv
  rw [BitVec.toNat_add, BitVec.toNat_mul, BitVec.toNat_ofNat]
  show (0 + t.val % 2 ^ 32 * 1 % 2 ^ 32) % 2 ^ 32 = t.val
  omega

omit [FloatOps F] in
/-- The tile's 128 index words and 128 result entries start at entry `128 w`. -/
theorem off1_val : (k3_off1 L) 0 = 128 * (wid3 L).val := by
  rw [k3_off1_eq]
  show 256 * (L 1).val + 128 * (L 0).val = 128 * (2 * (L 1).val + (L 0).val)
  omega

omit [FloatOps F] in
/-- The tile's 64 difference rows start at row `64 w`, -/
theorem off2_val0 : (k3_off2 L) 0 = 64 * (wid3 L).val := by
  rw [k3_off2_eq]
  show 128 * (L 1).val + 64 * (L 0).val = 64 * (2 * (L 1).val + (L 0).val)
  omega

omit [FloatOps F] in
/-- at column 0. -/
theorem off2_val1 : (k3_off2 L) 1 = 0 := by rw [k3_off2_eq]; rfl

omit [FloatOps F] in
/-- A group's 16 index words start at word `16 t`. -/
theorem off3_val (t : Fin k3_t1_loop.trips) : (k3_off3 t) 0 = 16 * t.val := by rw [k3_off3_eq]; rfl

omit [FloatOps F] in
/-- Every triple of the tile is some trip's some lane's. -/
theorem tri_surj (r : Fin 128) : ∃ (t : Fin k3_t1_loop.trips) (x : S16.Idx), r = triOf (grp t) (iv_lt t) x := by
  have hr := r.isLt
  refine ⟨⟨r.val / 16, by rw [trips_eq]; omega⟩, ix1 ⟨r.val % 16, Nat.mod_lt _ (by norm_num)⟩, Fin.ext ?_⟩
  show r.val = 16 * (grp ⟨r.val / 16, _⟩).toNat + r.val % 16
  rw [grp_toNat]
  show r.val = 16 * (r.val / 16) + r.val % 16
  omega

/-! ## What the slices read -/

omit [FloatOps F] in
/-- The tile's slice of the index array reads the array at the tile's triples. -/
theorem read_ui (f0 : Buf (Elt F) ((uiM).view.loc (V d (cV L) (jV L)))) (r : Fin 128) :
    (uiSl L).view.read (Elt F) f0 (ix1 r) = f0 (ix1 (Cert.TileSpec.tri (wid3 L) r)) := by
  show f0 ((Rect.unit (s := S4096) (k3_off1 L) S128.size (k3_off1_inb L)).emb (ix1 r)) = _
  congr 1
  funext a
  match a with
  | ⟨0, _⟩ =>
    apply Fin.ext
    show (k3_off1 L) 0 + 1 * r.val = 128 * (wid3 L).val + r.val
    rw [off1_val]; omega

omit [FloatOps F] in
/-- The tile's slice of the result reads the result at the tile's triples. -/
theorem read_out (FO : Buf (Elt F) ((outSl L).view.loc (V d (cV L) (jV L)))) (r : Fin 128) :
    (outSl L).view.read (Elt F) FO (ix1 r) = FO (ix1 (Cert.TileSpec.tri (wid3 L) r)) := by
  show FO ((Rect.unit (s := S4096) (k3_off1 L) S128.size (k3_off1_inb L)).emb (ix1 r)) = _
  congr 1
  funext a
  match a with
  | ⟨0, _⟩ =>
    apply Fin.ext
    show (k3_off1 L) 0 + 1 * r.val = 128 * (wid3 L).val + r.val
    rw [off1_val]; omega

omit [FloatOps F] in
/-- The tile's slice of the differences reads the array's rows `64 w, …, 64 w + 63`. -/
theorem read_gp (f7 : Buf (Elt F) ((gpSl L).view.loc (V d (cV L) (jV L)))) (r : Fin 64) (c : Fin 128) :
    (gpSl L).view.read (Elt F) f7 (ix2 r c)
      = f7 (ix2 ⟨64 * (wid3 L).val + r.val, by have := (wid3 L).isLt; have := r.isLt; omega⟩ c) := by
  show f7 ((Rect.unit (s := S2048x128) (k3_off2 L) S64x128.size (k3_off2_inb L)).emb (ix2 r c)) = _
  congr 1
  funext a
  match a with
  | ⟨0, _⟩ =>
    apply Fin.ext
    show (k3_off2 L) 0 + 1 * r.val = 64 * (wid3 L).val + r.val
    rw [off2_val0]; omega
  | ⟨1, _⟩ =>
    apply Fin.ext
    show (k3_off2 L) 1 + 1 * c.val = c.val
    rw [off2_val1]; omega

omit [FloatOps F] in
/-- A trip's 16 index words are the raw index scratch's words at the trip's triples. -/
theorem read_raw (g0 : Buf (Elt F) ((urawM).view.loc (V d (cV L) (jV L)))) (t : Fin k3_t1_loop.trips) (x : S16.Idx) :
    rawOf (F := F) d L t g0 x = (urawM).view.read (Elt F) g0 (ix1 (triOf (grp t) (iv_lt t) x)) := by
  show (urawM).view.read (Elt F) g0 ((Rect.unit (s := S128) (k3_off3 t) S16.size (k3_off3_inb t)).toLoadRect.idx x) = _
  congr 1
  funext a
  match a with
  | ⟨0, _⟩ =>
    apply Fin.ext
    show (k3_off3 t) 0 + 1 * (x 0).val = 16 * (grp t).toNat + (x 0).val
    rw [off3_val, grp_toNat]; omega

omit [FloatOps F] in
/-- A trip's 16 entries of the scores' scratch are the entries at the trip's triples. -/
theorem grp_emb (t : Fin k3_t1_loop.trips) (x : S16.Idx) : (grpRect t).emb x = ix1 (triOf (grp t) (iv_lt t) x) := by
  funext a
  match a with
  | ⟨0, _⟩ =>
    apply Fin.ext
    show (k3_off4 t) 0 + 1 * (x 0).val = 16 * (grp t).toNat + (x 0).val
    rw [off4_val, grp_toNat]; omega

/-- The bridge: the five facts about the buffers' contents give the specification of the tile's result entries. -/
theorem outDot_bridge
    (f9 : Buf (Elt F) ((puM).view.loc (V d (cV L) (jV L)))) (f0 : Buf (Elt F) ((uiM).view.loc (V d (cV L) (jV L))))
    (f7 : Buf (Elt F) ((gpSl L).view.loc (V d (cV L) (jV L))))
    (hidx : ∀ j, 0 ≤ (f0 j).toInt ∧ (f0 j).toInt ≤ 99999)
    (g0 : Buf (Elt F) ((urawM).view.loc (V d (cV L) (jV L)))) (g2 : Buf (Elt F) ((urowsM).view.loc (V d (cV L) (jV L))))
    (g3 : Buf (Elt F) ((gpvM).view.loc (V d (cV L) (jV L)))) (g4 : Buf (Elt F) ((diffsM).view.loc (V d (cV L) (jV L))))
    (FO : Buf (Elt F) ((outSl L).view.loc (V d (cV L) (jV L))))
    (h0 : ∀ i : S128.Idx, (urawM).view.read (Elt F) g0 i = (uiSl L).view.read (Elt F) f0 i)
    (h2 : ∀ r c : Fin 128, R2 (F := F) d L g2 (ix2 r c)
        = (puM).view.read (Elt F) f9 (ix2 (Cert.TileSpec.prowW ((urawM).view.read (Elt F) g0 (ix1 r))) c))
    (h3 : ∀ i : S64x128.Idx, R3 (F := F) d L g3 i = (gpSl L).view.read (Elt F) f7 i)
    (h4 : doneUpTo (F := F) d L g0 g2 g3 k3_t1_loop.trips g4)
    (hFO : ∀ i : S128.Idx, (outSl L).view.read (Elt F) FO i = (diffsM).view.read (Elt F) g4 i) :
    Cert.TileSpec.OutDot (F := F) (Cert.KernelIdeal.TilePayV.wid3 L) f9 f0 f7 FO := by
  intro r
  obtain ⟨t, x, rfl⟩ := tri_surj r
  have hblk : ∀ r c : Fin 128, R2 (F := F) d L g2 (ix2 r c)
      = f9 (ix2 (Cert.TileSpec.prowW (f0 (ix1 (Cert.TileSpec.tri (wid3 L) r)))) c) := by
    intro r c
    rw [h2 r c, h0 (ix1 r), read_ui]
    rfl
  have hgp : ∀ (r : Fin 64) (c : Fin 128), R3 (F := F) d L g3 (ix2 r c)
      = f7 (ix2 ⟨64 * (wid3 L).val + r.val, by have := (wid3 L).isLt; have := r.isLt; omega⟩ c) := by
    intro r c
    rw [h3, read_gp]
  have hraw : ∀ x : S16.Idx, rawOf (F := F) d L t g0 x
      = f0 (ix1 (Cert.TileSpec.tri (wid3 L) (triOf (grp t) (iv_lt t) x))) := by
    intro x
    rw [read_raw, h0, read_ui]
  rw [← read_out d L FO, hFO, ← grp_emb, h4 t t.isLt x]
  exact accAll_eq_accDot d L (wid3 L) f9 f0 f7 t (rawOf (F := F) d L t g0) g2 g3 hblk hgp hraw x

end Cert.KernelIdeal.TileDotBridge

end
-- ==== Proof.TileDotGather.lean ====
/-
  THE GATHERED USER ROWS, READ BACK. The index list holds, entry by entry, the raw index word repacked below 50176;
  the gather fills row `r` of the user rows' scratch with the packed table's row that entry `r` names. So entry
  `(r, c)` of the scratch is the packed table's entry `(prowW (word r), c)`.
-/
import proofs.«203895_g52347061404180_cont_8to1_c_859_34_alg».proof.Proof.TileDotDefs
import proofs.«203895_g52347061404180_cont_8to1_c_859_34_alg».proof.Proof.Gen.KernelIdeal.Skeleton
import proofs.«203895_g52347061404180_cont_8to1_c_859_34_alg».proof.Proof.LibSkewVec
import proofs.«203895_g52347061404180_cont_8to1_c_859_34_alg».proof.Proof.TileDotPartsV
import proofs.«203895_g52347061404180_cont_8to1_c_859_34_alg».proof.Proof.LibDotParts

noncomputable section

namespace Cert.KernelIdeal.TileDotGather

open Cert.KernelIdeal Cert.KernelIdeal.Gen Cert.KernelIdeal.KCommon Cert.KernelIdeal.TileCommon Cert.KernelIdeal.TileDotDefs Cert.KernelIdeal.TileDotParts Cert.KernelIdeal.TileDotPartsV
open Idealize.ShloMosaic.ValueIdx

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid3.Coords)
variable [FloatOps F]

/-- An index word repacked below 50176. -/
def packedW (w : BitVec 32) : BitVec 32 := if 50176 ≤ w.toInt then w - 50176#32 else w

omit [FloatOps F] in
/-- For a word in `[0, 99999]` the repacked word's value is the packed row's number. -/
theorem packedW_toNat (w : BitVec 32) (h0 : 0 ≤ w.toInt) (h1 : w.toInt ≤ 99999) : (packedW w).toNat = (Cert.TileSpec.prowW w).val := by
  have hn := Cert.LibSkewVec.toInt_eq_toNat_of_nonneg w h0
  rw [Cert.LibPackBridge.prowW_val w h0 h1]
  unfold packedW
  by_cases h : 50176 ≤ w.toInt
  · rw [if_pos h, if_pos h, BitVec.toNat_sub]
    show (2 ^ 32 - 50176 + w.toNat) % 2 ^ 32 = _
    omega
  · rw [if_neg h, if_neg h]

/-- The user rows' scratch after the gather, at entry `(r, c)`. -/
theorem gather_read (f9 : Buf (Elt F) ((puM).view.loc (V d (cV L) (jV L))))
    (g0 : Buf (Elt F) ((urawM).view.loc (V d (cV L) (jV L)))) (L8 : List (View.Piece (Elt F) S128 .i32))
    (hG : ∀ p ∈ L8, ∀ x : p.1.shape.Idx, p.2 x = packedW ((urawM).view.read (Elt F) g0 (p.1.emb x)))
    (hcov : ∀ y : S128.Idx, ∃ p ∈ L8, y ∈ p.1.set)
    (hrange : ∀ y : S128.Idx, 0 ≤ ((urawM).view.read (Elt F) g0 y).toInt ∧ ((urawM).view.read (Elt F) g0 y).toInt ≤ 99999)
    (hn) (hsl) (hin : ∀ x, ((uidxM).view.read (Elt F) ((uidxM).view.writes (Elt F) (uidxM).view.junk L8) x).toNat < 50176)
    (r c : Fin 128) :
    R2 (F := F) d L ((urowsM).view.writes (Elt F) (urowsM).view.junk
        [⟨Rect.whole S128x128, SparseCore.gatherPayload gathers_S50176x128_S128x128
            ((puM.slice (Rect.unit (s := S50176x128) ![0, 0] S50176x128.size hsl) (fun _ => rfl)).view.read (Elt F) f9)
            (SparseCore.rows ((uidxM).view.read (Elt F) ((uidxM).view.writes (Elt F) (uidxM).view.junk L8)) hn hin)⟩]) (ix2 r c)
      = (puM).view.read (Elt F) f9 (ix2 (Cert.TileSpec.prowW ((urawM).view.read (Elt F) g0 (ix1 r))) c) := by
  have hi : (LoadRect.whole S128x128).idx (ix2 r c) = ix2 r c := by
    funext a; apply Fin.ext; show 0 + 1 * ((ix2 r c) a).val = ((ix2 r c) a).val; omega
  have e1 := View.read_writes_cons_emb (urowsM).view (urowsM).view.junk (Rect.whole S128x128)
    (SparseCore.gatherPayload gathers_S50176x128_S128x128
      ((puM.slice (Rect.unit (s := S50176x128) ![0, 0] S50176x128.size hsl) (fun _ => rfl)).view.read (Elt F) f9)
      (SparseCore.rows ((uidxM).view.read (Elt F) ((uidxM).view.writes (Elt F) (uidxM).view.junk L8)) hn hin)) [] (ix2 r c)
  rw [Rect.emb_whole_apply] at e1
  show (urowsM).view.read (Elt F) _ ((LoadRect.whole S128x128).idx (ix2 r c)) = _
  rw [hi, e1]
  refine (Cert.LibDotParts.gatherPayload_apply gathers_S50176x128_S128x128 _ _ r c).trans ?_
  have hrow : (SparseCore.rows ((uidxM).view.read (Elt F) ((uidxM).view.writes (Elt F) (uidxM).view.junk L8)) hn hin r : Fin 50176)
      = Cert.TileSpec.prowW ((urawM).view.read (Elt F) g0 (ix1 r)) := by
    apply Cert.LibPackBridge.prowW_eq
    refine (Cert.LibDotParts.rows_val _ hn hin r).trans ?_
    rw [View.read_writes_apply_of_pieces (uidxM).view (uidxM).view.junk (fun y => packedW ((urawM).view.read (Elt F) g0 y)) L8 hG (ix1 r) (hcov _)]
    exact packedW_toNat _ (hrange _).1 (hrange _).2
  refine (congrArg (fun p : Fin 50176 =>
    (puM.slice (Rect.unit (s := S50176x128) ![0, 0] S50176x128.size hsl) (fun _ => rfl)).view.read (Elt F) f9 (ix2 p c)) hrow).trans ?_
  have he : (Rect.unit (s := S50176x128) ![0, 0] S50176x128.size hsl).emb
      (ix2 (Cert.TileSpec.prowW ((urawM).view.read (Elt F) g0 (ix1 r))) c)
      = ix2 (Cert.TileSpec.prowW ((urawM).view.read (Elt F) g0 (ix1 r))) c := by
    funext a; apply Fin.ext; rw [Rect.emb_apply]
    match a with
    | ⟨0, _⟩ => show 0 + 1 * _ = _; omega
    | ⟨1, _⟩ => show 0 + 1 * _ = _; omega
  show (puM).view.read (Elt F) f9 ((Rect.unit (s := S50176x128) ![0, 0] S50176x128.size hsl).emb _) = _
  rw [he]

end Cert.KernelIdeal.TileDotGather

end
-- ==== Proof.TileDotV.lean ====
/-
  ONE TILE'S TASK of the second SparseCore kernel WITH ITS VALUE, at a symbolic place: the same run as the frame's —
  the index copy, the eight repacked chunks, the gather of the user rows and the copy of the difference rows, the loop
  over the 8 groups, the copy out —, now with what each buffer holds: after the loop the scores' buffer holds every
  group's 64-step accumulator, which the bridge reads as the specification's scores of the tile's 128 triples.
-/
import proofs.«203895_g52347061404180_cont_8to1_c_859_34_alg».proof.Proof.TileDotDefs
import proofs.«203895_g52347061404180_cont_8to1_c_859_34_alg».proof.Proof.Gen.KernelIdeal.Skeleton
import proofs.«203895_g52347061404180_cont_8to1_c_859_34_alg».proof.Proof.LibSkewVec
import proofs.«203895_g52347061404180_cont_8to1_c_859_34_alg».proof.Proof.LibWritesAll
import proofs.«203895_g52347061404180_cont_8to1_c_859_34_alg».proof.Proof.TileDotTrip
import proofs.«203895_g52347061404180_cont_8to1_c_859_34_alg».proof.Proof.TileDotBridge
import proofs.«203895_g52347061404180_cont_8to1_c_859_34_alg».proof.Proof.TileDotGather

noncomputable section

namespace Cert.KernelIdeal.TileDotV

open Cert.KernelIdeal Cert.KernelIdeal.Gen Cert.KernelIdeal.KCommon Cert.KernelIdeal.TileCommon Cert.KernelIdeal.TileDotDefs

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid3.Coords)
variable [FloatOps F]

omit [FloatOps F] in
/-- Four waits recorded at the kernels' index beyond `W`. -/
theorem waits4 (W : Waits sig (HIx 2)) (s1 s2 s3 s4 : SemLoc sig) :
    ∀ p ∈ insert (s1, (default : HIx 2)) (insert (s2, (default : HIx 2)) (insert (s3, (default : HIx 2)) (insert (s4, (default : HIx 2)) W))),
      p ∈ W ∨ p.2 = none := by
  intro p hp
  rcases Finset.mem_insert.mp hp with rfl | hp
  · exact Or.inr rfl
  rcases Finset.mem_insert.mp hp with rfl | hp
  · exact Or.inr rfl
  rcases Finset.mem_insert.mp hp with rfl | hp
  · exact Or.inr rfl
  rcases Finset.mem_insert.mp hp with rfl | hp
  · exact Or.inr rfl
  exact Or.inl hp

set_option maxHeartbeats 4000000 in
set_option maxRecDepth 65536 in
/-- The task on vector subcore `(L 0, L 1)` of device `d`, with its value: the tile's result entries end at the
    specification's scores. -/
theorem tile_body_dot_val (hF : (K (F := F)).Facts) (q9 q0 q7 : PosShare TreeShare)
    (f9 : Buf (Elt F) ((puM).view.loc (V d (cV L) (jV L)))) (f0 : Buf (Elt F) ((uiM).view.loc (V d (cV L) (jV L))))
    (f7 : Buf (Elt F) ((gpSl L).view.loc (V d (cV L) (jV L))))
    (hidx : ∀ j, 0 ≤ (f0 j).toInt ∧ (f0 j).toInt ≤ 99999)
    (O : CellTallies nD τ sig (HIx 2)) (W : Waits sig (HIx 2)) (hO : ∀ g, O g none = 0) :
    iprop(levAts (K (F := F)).L (K (F := F)).lev ∗ emp ∗ goDot d L q9 q0 q7 f9 f0 f7
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3__sc_dot_body L puM (Memref.isWhole_whole _) uiM (Memref.isWhole_whole _) gpM (Memref.isWhole_whole _)
            outM (Memref.isWhole_whole _) urawM (Memref.isWhole_whole _) uidxM (Memref.isWhole_whole _)
            urowsM (Memref.isWhole_whole _) gpvM (Memref.isWhole_whole _) diffsM (Memref.isWhole_whole _)
            cc3_scratch5 cc3_scratch6 cc3_scoped0 cc3_scoped1)
          fun _ => iprop((∃ fo, ⌜Cert.TileSpec.OutDot (F := F) (Cert.KernelIdeal.TilePayV.wid3 L) f9 f0 f7 fo⌝
              ∗ Cert.KernelIdeal.TilePayV.goDotV (F := F) d L q9 q0 q7 f9 f0 f7 fo)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3__sc_dot_body_eq_skeleton]; unfold cc3__sc_dot_body_skel
  rw [(K (F := F)).scopedBufs_V hF d (cV L) (jV L), SparseCore.Cfg.scopedSems0_V (Val := Elt F) d (cV L) (jV L), ownSems0_V, ownBufs_V]
  unfold goDot Cert.KernelIdeal.TilePayV.goDotV
  iintro ⟨#Hlv, -, ⟨Hpu, Hui, Hgp, ⟨%fo, Hout⟩⟩,
    ⟨⟨%a0, Ha0⟩, ⟨%a1, Ha1⟩, ⟨%a2, Ha2⟩, ⟨%a3, Ha3⟩, ⟨%a4, Ha4⟩, ⟨%a5, Ha5⟩, ⟨%a6, Ha6⟩,
      ⟨%s0, Hs0⟩, ⟨%s1, Hs1⟩, ⟨%s2, Hs2⟩, ⟨%s3, Hs3⟩, ⟨%s4, Hs4⟩, Hbufs⟩,
    ⟨Hc17, Hc18, Hc1s0, Hc1s1, Hc1s2, Hsu, Hsg, Hr0, Hr1, Hsems⟩, HO⟩
  ihave Hmw := ((K (F := F)).mayWaits_none (thr := V d (cV L) (jV L)) hO) $$ Hlv
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hs4 := (Entails.of_eq (pts_s4 (F := F) d L _).symm) $$ Hs4
  sl_exec
  -- the index list now holds the eight repacked chunks: every word of it names a row of the packed table
  have hraw : ∀ (r : LoadRect S128) (x : r.shape.Idx),
      0 ≤ ((urawM).view.readAt (Elt F) r (View.write (Elt F) (urawM).view s0 (tile_body_dot_val.sl.dma0 d L f0) Finset.univ) x).toInt
        ∧ ((urawM).view.readAt (Elt F) r (View.write (Elt F) (urawM).view s0 (tile_body_dot_val.sl.dma0 d L f0) Finset.univ) x).toInt ≤ 99999 := by
    intro r x
    have e : (urawM).view.readAt (Elt F) r (View.write (Elt F) (urawM).view s0 (tile_body_dot_val.sl.dma0 d L f0) Finset.univ) x
        = f0 ((uiSl L).view.emb (r.idx x)) := by
      show (View.whole cc3_scratch0).read (Elt F) ((View.whole cc3_scratch0).write (Elt F) s0 (tile_body_dot_val.sl.dma0 d L f0) Finset.univ) (r.idx x) = _
      rw [View.write_whole_univ]
      rfl
    rw [e]; exact hidx _
  have hpk : ∀ (raw : IVec S16 32), (∀ x, 0 ≤ (raw x).toInt ∧ (raw x).toInt ≤ 99999) → ∀ x,
      (select (cmpi .sge raw (broadcast S16 50176#32)) (subi raw (broadcast S16 50176#32)) raw x).toNat < 50176 :=
    fun raw h x => (Cert.LibSkewVec.packed_apply raw x (h x).1 (h x).2).1
  have hpieces : (tile_body_dot_val.sl.Hs1_8 d L f0 s0).Forall fun p => ∀ x : p.1.shape.Idx, (p.2 x).toNat < 50176 := by
    unfold tile_body_dot_val.sl.Hs1_8
    exact ⟨hpk _ (hraw (Rect.unit (s := S128) ![112] S16.size inb_S128_S16_112).toLoadRect),
      hpk _ (hraw (Rect.unit (s := S128) ![96] S16.size inb_S128_S16_96).toLoadRect),
      hpk _ (hraw (Rect.unit (s := S128) ![80] S16.size inb_S128_S16_80).toLoadRect),
      hpk _ (hraw (Rect.unit (s := S128) ![64] S16.size inb_S128_S16_64).toLoadRect),
      hpk _ (hraw (Rect.unit (s := S128) ![48] S16.size inb_S128_S16_48).toLoadRect),
      hpk _ (hraw (Rect.unit (s := S128) ![32] S16.size inb_S128_S16_32).toLoadRect),
      hpk _ (hraw (Rect.unit (s := S128) ![16] S16.size inb_S128_S16_16).toLoadRect),
      hpk _ (hraw (Rect.unit (s := S128) ![0] S16.size inb_S128_S16_0).toLoadRect)⟩
  have hin : ∀ x, ((uidxM).view.read (Elt F) ((uidxM).view.writes (Elt F) (uidxM).view.junk (tile_body_dot_val.sl.Hs1_8 d L f0 s0)) x).toNat < 50176 :=
    fun x => Cert.LibWritesAll.read_writes_forall_of_cover (Val := Elt F) (uidxM).view (uidxM).view.junk (fun w : BitVec 32 => w.toNat < 50176)
      (tile_body_dot_val.sl.Hs1_8 d L f0 s0) (List.forall_iff_forall_mem.mp hpieces) (View.cover_of_tiled _ ![16] rfl) x
  sl_exec
  -- the loop over the 8 groups: before trip n the scores' buffer holds the accumulators of the groups below n
  sl_for (Cert.KernelIdeal.TileDotLoopV.invV (F := F) d L
      (View.write (Elt F) (urawM).view s0 (tile_body_dot_val.sl.dma0 d L f0) Finset.univ)
      ((urowsM).view.writes (Elt F) (urowsM).view.junk [⟨Rect.whole S128x128, tile_body_dot_val.sl.gather0 d L f9 f0 s0 hin⟩])
      (View.write (Elt F) (gpvM).view s3 (tile_body_dot_val.sl.dma0_1 d L f7) Finset.univ)) $$ [Hs0 Hs2 Hs3 Hs4]
  case region =>
    intro k a
    exact Cert.KernelIdeal.TileDotLoopV.trip_invV (F := F) d L _ _ _ k a
  · unfold Cert.KernelIdeal.TileDotLoopV.invV
    isplitl [Hs0]; · iexact Hs0
    isplitl [Hs2]; · iexact Hs2
    isplitl [Hs3]; · iexact Hs3
    iexists s4; isplitr
    · ipureintro; intro t ht; exact absurd ht (Nat.not_lt_zero _)
    · iexact Hs4
  iintro %_ HI
  unfold Cert.KernelIdeal.TileDotLoopV.invV
  icases HI with ⟨Hs0, Hs2, Hs3, %g4, %h4, Hs4⟩
  -- the 128 scores written out to the tile's result entries, and the wait
  sl_exec
  sl_step
  -- the task's arrays, its scratch buffers, its semaphores, and the waits it recorded
  -- what the buffers hold, as functions of the arrays read
  have h0 : ∀ i : S128.Idx, (urawM).view.read (Elt F) (View.write (Elt F) (urawM).view s0 (tile_body_dot_val.sl.dma0 d L f0) Finset.univ) i
      = (uiSl L).view.read (Elt F) f0 i := by
    intro i
    show (View.whole cc3_scratch0).read (Elt F) ((View.whole cc3_scratch0).write (Elt F) s0 (tile_body_dot_val.sl.dma0 d L f0) Finset.univ) i = _
    rw [View.write_whole_univ]
    rfl
  have h3 : ∀ i : S64x128.Idx, Cert.KernelIdeal.TileDotPartsV.R3 (F := F) d L (View.write (Elt F) (gpvM).view s3 (tile_body_dot_val.sl.dma0_1 d L f7) Finset.univ) i
      = (gpSl L).view.read (Elt F) f7 i := by
    intro i
    show (View.whole cc3_scratch3).read (Elt F) ((View.whole cc3_scratch3).write (Elt F) s3 (tile_body_dot_val.sl.dma0_1 d L f7) Finset.univ) ((LoadRect.whole S64x128).idx i) = _
    rw [View.write_whole_univ]
    have hi : (LoadRect.whole S64x128).idx i = i := by
      funext a; apply Fin.ext; show 0 + 1 * (i a).val = (i a).val; omega
    rw [hi]
    rfl
  have hFO : ∀ i : S128.Idx, (outSl L).view.read (Elt F) ((outSl L).view.writes (Elt F) fo [⟨Rect.whole S128, tile_body_dot_val.sl.dma0_2 d L g4⟩]) i
      = (diffsM).view.read (Elt F) g4 i := by
    intro i
    have := View.read_writes_cons_emb (outSl L).view fo (Rect.whole S128) (tile_body_dot_val.sl.dma0_2 d L g4) [] i
    rw [Rect.emb_whole_apply] at this
    rw [this]
    rfl
  have hrange0 : ∀ y : S128.Idx, 0 ≤ ((urawM).view.read (Elt F) (View.write (Elt F) (urawM).view s0 (tile_body_dot_val.sl.dma0 d L f0) Finset.univ) y).toInt
      ∧ ((urawM).view.read (Elt F) (View.write (Elt F) (urawM).view s0 (tile_body_dot_val.sl.dma0 d L f0) Finset.univ) y).toInt ≤ 99999 := by
    intro y
    rw [h0 y]
    have e : (uiSl L).view.read (Elt F) f0 y = f0 ((uiSl L).view.emb y) := rfl
    rw [e]; exact hidx _
  have hG8 : (tile_body_dot_val.sl.Hs1_8 d L f0 s0).Forall fun p => ∀ x : p.1.shape.Idx,
      p.2 x = Cert.KernelIdeal.TileDotGather.packedW ((urawM).view.read (Elt F) (View.write (Elt F) (urawM).view s0 (tile_body_dot_val.sl.dma0 d L f0) Finset.univ) (p.1.emb x)) := by
    unfold tile_body_dot_val.sl.Hs1_8
    exact ⟨fun x => Cert.LibSkewVec.packed_word ((urawM).view.readAt (Elt F) (Rect.unit (s := S128) ![112] S16.size inb_S128_S16_112).toLoadRect (View.write (Elt F) (urawM).view s0 (tile_body_dot_val.sl.dma0 d L f0) Finset.univ)) x,
      fun x => Cert.LibSkewVec.packed_word ((urawM).view.readAt (Elt F) (Rect.unit (s := S128) ![96] S16.size inb_S128_S16_96).toLoadRect (View.write (Elt F) (urawM).view s0 (tile_body_dot_val.sl.dma0 d L f0) Finset.univ)) x,
      fun x => Cert.LibSkewVec.packed_word ((urawM).view.readAt (Elt F) (Rect.unit (s := S128) ![80] S16.size inb_S128_S16_80).toLoadRect (View.write (Elt F) (urawM).view s0 (tile_body_dot_val.sl.dma0 d L f0) Finset.univ)) x,
      fun x => Cert.LibSkewVec.packed_word ((urawM).view.readAt (Elt F) (Rect.unit (s := S128) ![64] S16.size inb_S128_S16_64).toLoadRect (View.write (Elt F) (urawM).view s0 (tile_body_dot_val.sl.dma0 d L f0) Finset.univ)) x,
      fun x => Cert.LibSkewVec.packed_word ((urawM).view.readAt (Elt F) (Rect.unit (s := S128) ![48] S16.size inb_S128_S16_48).toLoadRect (View.write (Elt F) (urawM).view s0 (tile_body_dot_val.sl.dma0 d L f0) Finset.univ)) x,
      fun x => Cert.LibSkewVec.packed_word ((urawM).view.readAt (Elt F) (Rect.unit (s := S128) ![32] S16.size inb_S128_S16_32).toLoadRect (View.write (Elt F) (urawM).view s0 (tile_body_dot_val.sl.dma0 d L f0) Finset.univ)) x,
      fun x => Cert.LibSkewVec.packed_word ((urawM).view.readAt (Elt F) (Rect.unit (s := S128) ![16] S16.size inb_S128_S16_16).toLoadRect (View.write (Elt F) (urawM).view s0 (tile_body_dot_val.sl.dma0 d L f0) Finset.univ)) x,
      fun x => Cert.LibSkewVec.packed_word ((urawM).view.readAt (Elt F) (Rect.unit (s := S128) ![0] S16.size inb_S128_S16_0).toLoadRect (View.write (Elt F) (urawM).view s0 (tile_body_dot_val.sl.dma0 d L f0) Finset.univ)) x⟩
  have h2 : ∀ r c : Fin 128, Cert.KernelIdeal.TileDotPartsV.R2 (F := F) d L
        ((urowsM).view.writes (Elt F) (urowsM).view.junk [⟨Rect.whole S128x128, tile_body_dot_val.sl.gather0 d L f9 f0 s0 hin⟩]) (Idealize.ShloMosaic.ValueIdx.ix2 r c)
      = (puM).view.read (Elt F) f9 (Idealize.ShloMosaic.ValueIdx.ix2 (Cert.TileSpec.prowW ((urawM).view.read (Elt F)
          (View.write (Elt F) (urawM).view s0 (tile_body_dot_val.sl.dma0 d L f0) Finset.univ) (Idealize.ShloMosaic.ValueIdx.ix1 r))) c) :=
    fun r c => Cert.KernelIdeal.TileDotGather.gather_read (F := F) d L f9 (View.write (Elt F) (urawM).view s0 (tile_body_dot_val.sl.dma0 d L f0) Finset.univ) (tile_body_dot_val.sl.Hs1_8 d L f0 s0)
      (List.forall_iff_forall_mem.mp hG8) (View.cover_of_tiled _ ![16] rfl) hrange0 _ _ hin r c
  isplitl [Hpu Hui Hgp Hout]
  · iexists _; isplitr
    pick_goal 2
    · isplitl [Hpu]; · iexact Hpu
      isplitl [Hui]; · iexact Hui
      isplitl [Hgp]; · iexact Hgp
      iexact Hout
    · ipureintro
      exact Cert.KernelIdeal.TileDotBridge.outDot_bridge (F := F) d L f9 f0 f7 hidx _ _ _ g4 _ h0 h2 h3 h4 hFO
  isplitl [Ha0 Ha1 Ha2 Ha3 Ha4 Ha5 Ha6 Hs0 Hs1 Hs2 Hs3 Hs4 Hbufs]
  · isplitl [Ha0]; · iexists _; iexact Ha0
    isplitl [Ha1]; · iexists _; iexact Ha1
    isplitl [Ha2]; · iexists _; iexact Ha2
    isplitl [Ha3]; · iexists _; iexact Ha3
    isplitl [Ha4]; · iexists _; iexact Ha4
    isplitl [Ha5]; · iexists _; iexact Ha5
    isplitl [Ha6]; · iexists _; iexact Ha6
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    iexact Hbufs
  isplitl [Hc17 Hc18 Hc1s0 Hc1s1 Hc1s2 Hsu Hsg Hr0 Hr1 Hsems]
  · isplitl [Hc17]; · iexact Hc17
    isplitl [Hc18]; · iexact Hc18
    isplitl [Hc1s0]; · iexact Hc1s0
    isplitl [Hc1s1]; · iexact Hc1s1
    isplitl [Hc1s2]; · iexact Hc1s2
    isplitl [Hsu]; · iexact Hsu
    isplitl [Hsg]; · iexact Hsg
    isplitl [Hr0]; · iexact Hr0
    isplitl [Hr1]; · iexact Hr1
    iexact Hsems
  iexists _; isplitr
  pick_goal 2
  · iexact HO
  · ipureintro
    exact waits4 W _ _ _ _

end Cert.KernelIdeal.TileDotV

end
-- ==== Proof.LibGValue.lean ====
/-
  The first gather kernel's block of differences after its eight trips is what the tile's specification asks.

  In trip `G` the sixteen lanes serve triples `16 G + x`. At step `k` lane `x` stores, at its target in the packed block,
  the negative item's gathered row's entry minus the positive item's, both at the step's column in the half their index
  word selects. When each gathered block's row `r` is the packed item table's row for triple `r`'s word of that sign and
  each trip's sixteen raw words are its triples' words, the stored vector is, lane by lane, the difference the
  specification names (`diffVec_apply`); the block after the eight full turns has every triple's every feature column
  filled with it (`filled_trips`); copied to the tile's 64 rows of the differences array it meets the tile's
  specification (`outG_of_trips`).
-/
import proofs.«203895_g52347061404180_cont_8to1_c_859_34_alg».proof.Proof.LibGTurns

noncomputable section

namespace Cert.LibGValue

open Idealize.ShloMosaic Idealize.ShloMosaic.ValueIdx Cert.LibSkewVec Cert.LibIdxOps Cert.LibPackBridge Cert.LibGTurns

variable {F : FTy → Type} [FloatOps F]
variable (hI : S16.Iotas .scVector 32 [0])

/-- A step number reduced modulo 64, as a word, is below 64. -/
theorem mod_step_lt (k : ℕ) : (BitVec.ofNat 32 (k % 64)).toNat < 64 := by
  rw [BitVec.toNat_ofNat]; have := Nat.mod_lt k (show 0 < 64 by norm_num); omega

/-- … and for a step below 64 it is that step. -/
theorem mod_step_toNat {k : ℕ} (hk : k < 64) : (BitVec.ofNat 32 (k % 64)).toNat = k := by
  rw [BitVec.toNat_ofNat]; omega

/-- The vector group `g` stores at step `k`: lane by lane, the entry loaded from the negative items' gathered rows minus
    the entry loaded from the positive items', each at the group's rows and the step's columns for its own raw words. -/
def diffVec (g : BitVec 32) (hg : g.toNat < 8) (rawP rawN : IVec S16 32) (P N : Vec F S128x128 .f32) (k : ℕ) : Vec F S16 .f32 :=
  subf (φ := .f32)
    (loadIdx (e := .f32) N ![rows hI g, col hI rawN (BitVec.ofNat 32 (k % 64))] (chk_rows hI g rawN _ hg (mod_step_lt k)))
    (loadIdx (e := .f32) P ![rows hI g, col hI rawP (BitVec.ofNat 32 (k % 64))] (chk_rows hI g rawP _ hg (mod_step_lt k)))

section Spec
variable (w : Fin 32) (tbl : FVec F Cert.TileSpec.S50176x128 .f32) (pos neg : IVec Cert.TileSpec.S4096 32)
  (P N : Vec F S128x128 .f32)
  (hP : ∀ r c : Fin 128, P (ix2 r c) = tbl (ix2 (Cert.TileSpec.prowW (pos (ix1 (Cert.TileSpec.tri w r)))) c))
  (hN : ∀ r c : Fin 128, N (ix2 r c) = tbl (ix2 (Cert.TileSpec.prowW (neg (ix1 (Cert.TileSpec.tri w r)))) c))

include hP hN in
/-- The stored vector at lane `x`, step `k < 64`, in the specification's words. -/
theorem diffVec_apply (g : BitVec 32) (hg : g.toNat < 8) (rawP rawN : IVec S16 32)
    (hrawP : ∀ x, rawP x = pos (ix1 (Cert.TileSpec.tri w (triOf g hg x))))
    (hrawN : ∀ x, rawN x = neg (ix1 (Cert.TileSpec.tri w (triOf g hg x))))
    {k : ℕ} (hk : k < 64) (x : S16.Idx) :
    diffVec hI g hg rawP rawN P N k x
      = FloatOps.subf
          (tbl (ix2 (Cert.TileSpec.prowW (neg (ix1 (Cert.TileSpec.tri w (triOf g hg x)))))
            (Cert.TileSpec.pcolW (neg (ix1 (Cert.TileSpec.tri w (triOf g hg x)))) (stepCol x k))))
          (tbl (ix2 (Cert.TileSpec.prowW (pos (ix1 (Cert.TileSpec.tri w (triOf g hg x)))))
            (Cert.TileSpec.pcolW (pos (ix1 (Cert.TileSpec.tri w (triOf g hg x)))) (stepCol x k)))) := by
  unfold diffVec
  show FloatOps.subf
    (loadIdx (F := F) (e := .f32) N ![rows hI g, col hI rawN (BitVec.ofNat 32 (k % 64))] _ x : F .f32)
    (loadIdx (F := F) (e := .f32) P ![rows hI g, col hI rawP (BitVec.ofNat 32 (k % 64))] _ x : F .f32) = _
  rw [load_gathered hI tbl N (fun r => neg (ix1 (Cert.TileSpec.tri w r))) hN g hg rawN hrawN _ (mod_step_lt k),
    load_gathered hI tbl P (fun r => pos (ix1 (Cert.TileSpec.tri w r))) hP g hg rawP hrawP _ (mod_step_lt k),
    mod_step_toNat hk]

/-- The packed block after the first `G` trips, trip `G` a full turn of the group word `gw G` storing the trip's
    difference vectors; from `D0`. -/
def tripsUpTo (gw : ℕ → BitVec 32) (hgw : ∀ G, G < 8 → (gw G).toNat = G) (rawP rawN : ℕ → IVec S16 32) (D0 : Vec F S64x128 .f32) :
    ℕ → Vec F S64x128 .f32
  | 0 => D0
  | G + 1 =>
    if hG : G < 8 then
      turn hI (gw G) (by rw [hgw G hG]; exact hG) (diffVec hI (gw G) (by rw [hgw G hG]; exact hG) (rawP G) (rawN G) P N)
        (tripsUpTo gw hgw rawP rawN D0 G) 64
    else tripsUpTo gw hgw rawP rawN D0 G

/-- One more trip: a full turn (whatever the evidence that the group word is below eight). -/
theorem tripsUpTo_succ (gw : ℕ → BitVec 32) (hgw : ∀ G, G < 8 → (gw G).toNat = G) (rawP rawN : ℕ → IVec S16 32)
    (D0 : Vec F S64x128 .f32) {G : ℕ} (hG : G < 8) (hg : (gw G).toNat < 8) :
    tripsUpTo hI P N gw hgw rawP rawN D0 (G + 1)
      = turn hI (gw G) hg (diffVec hI (gw G) hg (rawP G) (rawN G) P N) (tripsUpTo hI P N gw hgw rawP rawN D0 G) 64 := by
  simp only [tripsUpTo, dif_pos hG]

/-- After `G ≤ 8` trips the first `G` groups' entries are filled with the trips' difference vectors. -/
theorem filled_trips (gw : ℕ → BitVec 32) (hgw : ∀ G, G < 8 → (gw G).toNat = G) (rawP rawN : ℕ → IVec S16 32)
    (D0 : Vec F S64x128 .f32) (G : ℕ) (hG : G ≤ 8) :
    Filled G (tripsUpTo hI P N gw hgw rawP rawN D0 G)
      (fun G' k => if h : G' < 8 then diffVec hI (gw G') (by rw [hgw G' h]; exact h) (rawP G') (rawN G') P N k else fun _ => D0 (ix2 0 0)) := by
  induction G with
  | zero => exact filled_zero _ _
  | succ G ih =>
    have hG' : G < 8 := hG
    have hg : (gw G).toNat < 8 := by rw [hgw G hG']; exact hG'
    rw [tripsUpTo_succ hI P N gw hgw rawP rawN D0 hG' hg]
    have := filled_turn hI G hG' (gw G) (hgw G hG') (tripsUpTo hI P N gw hgw rawP rawN D0 G) _ (ih (by omega))
    simp only [dif_pos hG'] at this
    exact this

include hP hN in
/-- THE TILE'S SPECIFICATION from the eight trips: the tile's 64 rows of the differences array are the packed block after
    the eight trips, each trip's raw words its triples' words of each sign. -/
theorem outG_of_trips (out : FVec F Cert.TileSpec.S2048x128 .f32)
    (gw : ℕ → BitVec 32) (hgw : ∀ G, G < 8 → (gw G).toNat = G) (rawP rawN : ℕ → IVec S16 32) (D0 : Vec F S64x128 .f32)
    (hrawP : ∀ G (hG : G < 8) x, rawP G x = pos (ix1 (Cert.TileSpec.tri w (triOf (gw G) (by rw [hgw G hG]; exact hG) x))))
    (hrawN : ∀ G (hG : G < 8) x, rawN G x = neg (ix1 (Cert.TileSpec.tri w (triOf (gw G) (by rw [hgw G hG]; exact hG) x))))
    (hout : ∀ (r : Fin 64) (c : Fin 128), out (ix2 ⟨64 * w.val + r.val, by have := w.isLt; have := r.isLt; omega⟩ c)
      = tripsUpTo hI P N gw hgw rawP rawN D0 8 (ix2 r c)) :
    Cert.TileSpec.OutG w tbl pos neg out := by
  refine outG_of_filled w tbl pos neg out _ _ hout (filled_trips hI P N gw hgw rawP rawN D0 8 (Nat.le_refl _)) ?_
  intro g hg x k
  have hgg : gw g.toNat = g := BitVec.eq_of_toNat_eq (hgw g.toNat hg)
  simp only [dif_pos hg]
  have e := diffVec_apply hI w tbl pos neg P N hP hN (gw g.toNat) (by rw [hgw _ hg]; exact hg) (rawP g.toNat) (rawN g.toNat)
    (hrawP g.toNat hg) (hrawN g.toNat hg) k.isLt x
  rw [e]
  congr 3 <;> simp only [hgg]

end Spec

end Cert.LibGValue

end
-- ==== Proof.TileGVDefs.lean ====
/-
  THE VALUE FORM of the first SparseCore kernel's tile task: the loop's invariant over the scratch buffers' contents —
  the four read-only scratches fixed, the difference scratch at the closed form of the trips done so far.
-/
import proofs.«203895_g52347061404180_cont_8to1_c_859_34_alg».proof.Proof.TileGDefs
import proofs.«203895_g52347061404180_cont_8to1_c_859_34_alg».proof.Proof.TilePayV
import proofs.«203895_g52347061404180_cont_8to1_c_859_34_alg».proof.Proof.LibGValue

noncomputable section

namespace Cert.KernelIdeal.TileGV

open Cert.KernelIdeal Cert.KernelIdeal.Gen Cert.KernelIdeal.KCommon Cert.KernelIdeal.TileCommon Cert.KernelIdeal.TileG

open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- The loop's group word at trip `G`: the induction variable `0 + G · 1`. -/
def gwG (G : ℕ) : BitVec 32 := Scf.iv 0#32 1#32 G

/-- Below eight it is `G` itself. -/
theorem hgwG : ∀ G, G < 8 → (gwG G).toNat = G := by
  intro G hG
  interval_cases G <;> rfl

/-- Sixteen consecutive words of a 128-word scratch, from word `16 G` (taken modulo 128: total in `G`). -/
def rawOf (R : IVec S128 32) (G : ℕ) : IVec Cert.LibSkewVec.S16 32 :=
  fun x => R (ix1 ⟨(16 * G + (x 0).val) % 128, Nat.mod_lt _ (by norm_num)⟩)

variable (d : Dev nD) (L : grid1.Coords)

/-- THE LOOP'S INVARIANT (value form): the two raw-index scratches and the two gathered-row scratches at their fixed
    contents, the difference scratch at what `G` trips leave in it (each trip a full turn of skewed stores of the
    difference vectors of its sixteen triples), from contents `D0`. -/
def invGV
    (R0 : Buf (Elt F) ((Memref.whole cc1_scratch0 : Memref sig .scVector .vmem S128 .i32).view.loc (V d (cV L) (jV L))))
    (R1 : Buf (Elt F) ((Memref.whole cc1_scratch1 : Memref sig .scVector .vmem S128 .i32).view.loc (V d (cV L) (jV L))))
    (B4 : Buf (Elt F) ((Memref.whole cc1_scratch4 : Memref sig .scVector .vmem S128x128 .f32).view.loc (V d (cV L) (jV L))))
    (B5 : Buf (Elt F) ((Memref.whole cc1_scratch5 : Memref sig .scVector .vmem S128x128 .f32).view.loc (V d (cV L) (jV L))))
    (D0 : Buf (Elt F) ((Memref.whole cc1_scratch6 : Memref sig .scVector .vmem S64x128 .f32).view.loc (V d (cV L) (jV L))))
    (G : Nat) (_ : Unit) : sProp 𝕄 :=
  iprop(((Memref.whole cc1_scratch0 : Memref sig .scVector .vmem S128 .i32).view.loc (V d (cV L) (jV L)) ↦{fullShare} R0)
    ∗ ((Memref.whole cc1_scratch1 : Memref sig .scVector .vmem S128 .i32).view.loc (V d (cV L) (jV L)) ↦{fullShare} R1)
    ∗ ((Memref.whole cc1_scratch4 : Memref sig .scVector .vmem S128x128 .f32).view.loc (V d (cV L) (jV L)) ↦{fullShare} B4)
    ∗ ((Memref.whole cc1_scratch5 : Memref sig .scVector .vmem S128x128 .f32).view.loc (V d (cV L) (jV L)) ↦{fullShare} B5)
    ∗ ((Memref.whole cc1_scratch6 : Memref sig .scVector .vmem S64x128 .f32).view.loc (V d (cV L) (jV L)) ↦{fullShare}
        (Cert.LibGValue.tripsUpTo iota_S16_d0_w32_scVector B4 B5 gwG hgwG (rawOf R0) (rawOf R1) D0 G)))

end Cert.KernelIdeal.TileGV

end
-- ==== Proof.TileGBridge.lean ====
/-
  FROM THE BUFFERS TO THE SPECIFICATION, first gather kernel. Once the two raw index scratches hold the tile's 128 index
  words of each sign, the two gathered-rows scratches the packed item table's rows those words name, and the tile's 64
  rows of the differences array the packed block the eight trips leave, the rows are the specification's differences of
  the tile's 128 triples.
-/
import proofs.«203895_g52347061404180_cont_8to1_c_859_34_alg».proof.Proof.TileGDefs
import proofs.«203895_g52347061404180_cont_8to1_c_859_34_alg».proof.Proof.Gen.KernelIdeal.Skeleton
import proofs.«203895_g52347061404180_cont_8to1_c_859_34_alg».proof.Proof.TilePayV
import proofs.«203895_g52347061404180_cont_8to1_c_859_34_alg».proof.Proof.LibGValue

noncomputable section

namespace Cert.KernelIdeal.TileGBridge

open Cert.KernelIdeal Cert.KernelIdeal.Gen Cert.KernelIdeal.KCommon Cert.KernelIdeal.TileCommon Cert.KernelIdeal.TileG
open Cert.KernelIdeal.TilePayV (wid1)
open Cert.LibPackBridge Cert.LibGValue
open Idealize.ShloMosaic Idealize.ShloMosaic.ValueIdx
open Idealize.ShloMosaic.SparseCore (S V T)

variable {F : FTy → Type}
variable (d : Dev nD) (L : grid1.Coords)

/-- The tile's 128 index words of each sign, sliced as the program slices them. -/
abbrev posSl (L : grid1.Coords) : Memref sig .scVector .hbm S128 .i32 :=
  (posM).slice (Rect.unit (s := S4096) (k1_off1 L) S128.size (k1_off1_inb L)) (fun _ => rfl)
abbrev negSl (L : grid1.Coords) : Memref sig .scVector .hbm S128 .i32 :=
  (negM).slice (Rect.unit (s := S4096) (k1_off1 L) S128.size (k1_off1_inb L)) (fun _ => rfl)

/-! ## Where the tile's slices start, and the trips' group words -/

/-- The loop makes eight trips. -/
theorem trips_eq : k1_t1_loop.trips = 8 := by decide

/-- Trip `G`'s group number, as a word, is `G`. -/
theorem gw_toNat (G : ℕ) (hG : G < 8) : (Scf.iv (0#32 : BitVec 32) 1#32 G).toNat = G := by
  unfold Scf.iv
  rw [BitVec.toNat_add, BitVec.toNat_mul, BitVec.toNat_ofNat]
  show (0 + G % 2 ^ 32 * 1 % 2 ^ 32) % 2 ^ 32 = G
  omega

/-- The tile's 128 index words start at word `128 w`. -/
theorem off1_val : (k1_off1 L) 0 = 128 * (wid1 L).val := by
  rw [k1_off1_eq]
  show 256 * (L 1).val + 128 * (L 0).val = 128 * (2 * (L 1).val + (L 0).val)
  omega

/-- The tile's 64 difference rows start at row `64 w`, -/
theorem off3_val0 : (k1_off3 L) 0 = 64 * (wid1 L).val := by
  rw [k1_off3_eq]
  show 128 * (L 1).val + 64 * (L 0).val = 64 * (2 * (L 1).val + (L 0).val)
  omega

/-- at column 0. -/
theorem off3_val1 : (k1_off3 L) 1 = 0 := by rw [k1_off3_eq]; rfl

/-- A trip's 16 index words start at word `16 t`. -/
theorem off2_val (t : Fin k1_t1_loop.trips) : (k1_off2 t) 0 = 16 * t.val := by rw [k1_off2_eq]; rfl

/-- A triple named by its number `16 G + x` is the group's lane's triple. -/
theorem triOf_of_val (g : BitVec 32) (hg : g.toNat < 8) (x : Cert.LibSkewVec.S16.Idx) (r : Fin 128)
    (h : r.val = 16 * g.toNat + (x 0).val) : r = triOf g hg x := Fin.ext h

/-! ## What the slices read -/

/-- The tile's slice of the positive items' index array reads the array at the tile's triples. -/
theorem read_pos (f2 : Buf (Elt F) ((posM).view.loc (V d (cV L) (jV L)))) (r : Fin 128) :
    (posSl L).view.read (Elt F) f2 (ix1 r) = f2 (ix1 (Cert.TileSpec.tri (wid1 L) r)) := by
  show f2 ((Rect.unit (s := S4096) (k1_off1 L) S128.size (k1_off1_inb L)).emb (ix1 r)) = _
  congr 1
  funext a
  match a with
  | ⟨0, _⟩ =>
    apply Fin.ext
    show (k1_off1 L) 0 + 1 * r.val = 128 * (wid1 L).val + r.val
    rw [off1_val]; omega

/-- The same for the negative items'. -/
theorem read_neg (f4 : Buf (Elt F) ((negM).view.loc (V d (cV L) (jV L)))) (r : Fin 128) :
    (negSl L).view.read (Elt F) f4 (ix1 r) = f4 (ix1 (Cert.TileSpec.tri (wid1 L) r)) := by
  show f4 ((Rect.unit (s := S4096) (k1_off1 L) S128.size (k1_off1_inb L)).emb (ix1 r)) = _
  congr 1
  funext a
  match a with
  | ⟨0, _⟩ =>
    apply Fin.ext
    show (k1_off1 L) 0 + 1 * r.val = 128 * (wid1 L).val + r.val
    rw [off1_val]; omega

/-- The tile's slice of the differences reads the array's rows `64 w, …, 64 w + 63`. -/
theorem read_gpSl (FO : Buf (Elt F) ((gpSl L).view.loc (V d (cV L) (jV L)))) (r : Fin 64) (c : Fin 128) :
    (gpSl L).view.read (Elt F) FO (ix2 r c)
      = FO (ix2 ⟨64 * (wid1 L).val + r.val, by have := (wid1 L).isLt; have := r.isLt; omega⟩ c) := by
  show FO ((Rect.unit (s := S2048x128) (k1_off3 L) S64x128.size (k1_off3_inb L)).emb (ix2 r c)) = _
  congr 1
  funext a
  match a with
  | ⟨0, _⟩ =>
    apply Fin.ext
    show (k1_off3 L) 0 + 1 * r.val = 64 * (wid1 L).val + r.val
    rw [off3_val0]; omega
  | ⟨1, _⟩ =>
    apply Fin.ext
    show (k1_off3 L) 1 + 1 * c.val = c.val
    rw [off3_val1]; omega

/-- A trip's 16 raw words of a sign are the raw scratch's words at the trip's triples. -/
theorem read_chunk (M : Memref sig .scVector .vmem S128 .i32) (g0 : Buf (Elt F) (M.view.loc (V d (cV L) (jV L))))
    (t : Fin k1_t1_loop.trips) (g : BitVec 32) (hg : g.toNat < 8) (hgt : g.toNat = t.val) (x : S16.Idx) :
    M.view.readAt (Elt F) (Rect.unit (s := S128) (k1_off2 t) S16.size (k1_off2_inb t)).toLoadRect g0 x
      = M.view.read (Elt F) g0 (ix1 (triOf g hg x)) := by
  show M.view.read (Elt F) g0 ((Rect.unit (s := S128) (k1_off2 t) S16.size (k1_off2_inb t)).toLoadRect.idx x) = _
  congr 1
  funext a
  match a with
  | ⟨0, _⟩ =>
    apply Fin.ext
    show (k1_off2 t) 0 + 1 * (x 0).val = 16 * g.toNat + (x 0).val
    rw [off2_val, hgt]; omega

variable [FloatOps F]

/-! ## The bridge -/

/-- The bridge: the facts about the buffers' contents give the specification of the tile's rows of the differences. -/
theorem outG_bridge (hI : Cert.LibSkewVec.S16.Iotas .scVector 32 [0])
    (f6 : Buf (Elt F) ((tblM).view.loc (V d (cV L) (jV L)))) (f2 : Buf (Elt F) ((posM).view.loc (V d (cV L) (jV L))))
    (f4 : Buf (Elt F) ((negM).view.loc (V d (cV L) (jV L))))
    (R0 : Buf (Elt F) ((rawPM).view.loc (V d (cV L) (jV L)))) (R1 : Buf (Elt F) ((rawNM).view.loc (V d (cV L) (jV L))))
    (P N : Vec F S128x128 .f32)
    (FO : Buf (Elt F) ((gpSl L).view.loc (V d (cV L) (jV L))))
    (gw : ℕ → BitVec 32) (hgw : ∀ G, G < 8 → (gw G).toNat = G) (rawP rawN : ℕ → IVec S16 32) (D0 : Vec F S64x128 .f32)
    (h0 : ∀ r : Fin 128, (rawPM).view.read (Elt F) R0 (ix1 r) = (posSl L).view.read (Elt F) f2 (ix1 r))
    (h1 : ∀ r : Fin 128, (rawNM).view.read (Elt F) R1 (ix1 r) = (negSl L).view.read (Elt F) f4 (ix1 r))
    (h4 : ∀ r c : Fin 128, P (ix2 r c)
      = (tblM).view.read (Elt F) f6 (ix2 (Cert.TileSpec.prowW ((rawPM).view.read (Elt F) R0 (ix1 r))) c))
    (h5 : ∀ r c : Fin 128, N (ix2 r c)
      = (tblM).view.read (Elt F) f6 (ix2 (Cert.TileSpec.prowW ((rawNM).view.read (Elt F) R1 (ix1 r))) c))
    (hrawP : ∀ G (hG : G < 8) x, rawP G x
      = (rawPM).view.read (Elt F) R0 (ix1 (triOf (gw G) (by rw [hgw G hG]; exact hG) x)))
    (hrawN : ∀ G (hG : G < 8) x, rawN G x
      = (rawNM).view.read (Elt F) R1 (ix1 (triOf (gw G) (by rw [hgw G hG]; exact hG) x)))
    (hFO : ∀ (r : Fin 64) (c : Fin 128), (gpSl L).view.read (Elt F) FO (ix2 r c)
      = tripsUpTo hI P N gw hgw rawP rawN D0 8 (ix2 r c)) :
    Cert.TileSpec.OutG (F := F) (wid1 L) f6 f2 f4 FO := by
  refine outG_of_trips hI (wid1 L) f6 f2 f4 P N ?_ ?_ FO gw hgw rawP rawN D0 ?_ ?_ ?_
  · intro r c
    rw [h4 r c, h0 r, read_pos]
    rfl
  · intro r c
    rw [h5 r c, h1 r, read_neg]
    rfl
  · intro G hG x
    rw [hrawP G hG x, h0, read_pos]
  · intro G hG x
    rw [hrawN G hG x, h1, read_neg]
  · intro r c
    rw [← read_gpSl d L FO r c, hFO]

end Cert.KernelIdeal.TileGBridge

end
-- ==== Proof.TileGBridgeV.lean ====
/-
  FROM THE BUFFERS TO THE SPECIFICATION, first gather kernel, at the loop's value invariant: the tile's 64 rows of the
  differences array read the packed block the invariant names after the eight trips.
-/
import proofs.«203895_g52347061404180_cont_8to1_c_859_34_alg».proof.Proof.TileGBridge
import proofs.«203895_g52347061404180_cont_8to1_c_859_34_alg».proof.Proof.TileGVDefs

noncomputable section

namespace Cert.KernelIdeal.TileGBridge

open Cert.KernelIdeal Cert.KernelIdeal.Gen Cert.KernelIdeal.KCommon Cert.KernelIdeal.TileCommon Cert.KernelIdeal.TileG
open Cert.KernelIdeal.TilePayV (wid1)
open Cert.KernelIdeal.TileGV (gwG hgwG rawOf)
open Cert.LibPackBridge Cert.LibGValue
open Idealize.ShloMosaic Idealize.ShloMosaic.ValueIdx
open Idealize.ShloMosaic.SparseCore (S V T)

variable {F : FTy → Type}
variable (d : Dev nD) (L : grid1.Coords)

/-- Trip `G`'s sixteen words of a raw scratch are the scratch's words at the trip's triples. -/
theorem rawOf_eq (R : IVec S128 32) (G : ℕ) (hG : G < 8) (x : Cert.LibSkewVec.S16.Idx) :
    rawOf R G x = R (ix1 (triOf (gwG G) (by rw [hgwG G hG]; exact hG) x)) := by
  have hx := Cert.LibSkewVec.lane_lt x
  show R (ix1 ⟨(16 * G + (x 0).val) % 128, _⟩) = _
  congr 2
  apply Fin.ext
  show (16 * G + (x 0).val) % 128 = 16 * (gwG G).toNat + (x 0).val
  rw [hgwG G hG]; omega

variable [FloatOps F]

/-- The bridge at the loop's invariant: the raw scratches hold the tile's index words, the gathered scratches the packed
    rows they name, the tile's rows of the differences read the difference scratch after the eight trips: then the rows
    are what the tile's specification asks. -/
theorem outG_bridgeV
    (f6 : Buf (Elt F) ((tblM).view.loc (V d (cV L) (jV L)))) (f2 : Buf (Elt F) ((posM).view.loc (V d (cV L) (jV L))))
    (f4 : Buf (Elt F) ((negM).view.loc (V d (cV L) (jV L))))
    (R0 : Buf (Elt F) ((rawPM).view.loc (V d (cV L) (jV L)))) (R1 : Buf (Elt F) ((rawNM).view.loc (V d (cV L) (jV L))))
    (B4 : Buf (Elt F) ((rowsPM).view.loc (V d (cV L) (jV L)))) (B5 : Buf (Elt F) ((rowsNM).view.loc (V d (cV L) (jV L))))
    (D0 : Buf (Elt F) ((diffM).view.loc (V d (cV L) (jV L))))
    (FO : Buf (Elt F) ((gpSl L).view.loc (V d (cV L) (jV L))))
    (h0 : ∀ y : S128.Idx, (rawPM).view.read (Elt F) R0 y = (posSl L).view.read (Elt F) f2 y)
    (h1 : ∀ y : S128.Idx, (rawNM).view.read (Elt F) R1 y = (negSl L).view.read (Elt F) f4 y)
    (h4 : ∀ r c : Fin 128, (rowsPM).view.read (Elt F) B4 (ix2 r c)
      = (tblM).view.read (Elt F) f6 (ix2 (Cert.TileSpec.prowW ((rawPM).view.read (Elt F) R0 (ix1 r))) c))
    (h5 : ∀ r c : Fin 128, (rowsNM).view.read (Elt F) B5 (ix2 r c)
      = (tblM).view.read (Elt F) f6 (ix2 (Cert.TileSpec.prowW ((rawNM).view.read (Elt F) R1 (ix1 r))) c))
    (hFO : ∀ i : S64x128.Idx, (gpSl L).view.read (Elt F) FO i
      = (diffM).view.read (Elt F) (tripsUpTo iota_S16_d0_w32_scVector B4 B5 gwG hgwG (rawOf R0) (rawOf R1) D0 8) i) :
    Cert.TileSpec.OutG (F := F) (wid1 L) f6 f2 f4 FO := by
  refine outG_bridge d L iota_S16_d0_w32_scVector f6 f2 f4 R0 R1 B4 B5 FO gwG hgwG (rawOf R0) (rawOf R1) D0
    (fun r => h0 (ix1 r)) (fun r => h1 (ix1 r)) h4 h5 ?_ ?_ (fun r c => hFO (ix2 r c))
  · intro G hG x
    exact rawOf_eq R0 G hG x
  · intro G hG x
    exact rawOf_eq R1 G hG x

end Cert.KernelIdeal.TileGBridge

end
-- ==== Proof.TileGGather.lean ====
/-
  THE GATHERED ITEM ROWS, READ BACK. For each sign, the index list holds, entry by entry, the raw index word repacked
  below 50176; the gather fills row `r` of the sign's gathered rows with the packed item table's row that entry `r` names.
  So entry `(r, c)` of the gathered rows is the packed table's entry `(prowW (word r), c)`.
-/
import proofs.«203895_g52347061404180_cont_8to1_c_859_34_alg».proof.Proof.TileGDefs
import proofs.«203895_g52347061404180_cont_8to1_c_859_34_alg».proof.Proof.Gen.KernelIdeal.Skeleton
import proofs.«203895_g52347061404180_cont_8to1_c_859_34_alg».proof.Proof.TileDotGather

noncomputable section

namespace Cert.KernelIdeal.TileGGather

open Cert.KernelIdeal Cert.KernelIdeal.Gen Cert.KernelIdeal.KCommon Cert.KernelIdeal.TileCommon Cert.KernelIdeal.TileG
open Cert.KernelIdeal.TileDotGather (packedW packedW_toNat)
open Idealize.ShloMosaic.ValueIdx

open Idealize.ShloMosaic
open Idealize.ShloMosaic.SparseCore (S V T)

variable {F : FTy → Type}
variable (d : Dev nD) (L : grid1.Coords)
variable [FloatOps F]

/-- The positive items' gathered rows after the gather, at entry `(r, c)`: the packed table's entry at the packed row
    the raw word `r` names, column `c` (whatever the two scratches held before). -/
theorem gather_readP (f6 : Buf (Elt F) ((tblM).view.loc (V d (cV L) (jV L))))
    (g0 : Buf (Elt F) ((rawPM).view.loc (V d (cV L) (jV L)))) (L8 : List (View.Piece (Elt F) S128 .i32))
    (bi : Buf (Elt F) ((idxPM).view.loc (V d (cV L) (jV L)))) (b4 : Buf (Elt F) ((rowsPM).view.loc (V d (cV L) (jV L))))
    (hG : ∀ p ∈ L8, ∀ x : p.1.shape.Idx, p.2 x = packedW ((rawPM).view.read (Elt F) g0 (p.1.emb x)))
    (hcov : ∀ y : S128.Idx, ∃ p ∈ L8, y ∈ p.1.set)
    (hrange : ∀ y : S128.Idx, 0 ≤ ((rawPM).view.read (Elt F) g0 y).toInt ∧ ((rawPM).view.read (Elt F) g0 y).toInt ≤ 99999)
    (hn) (hsl) (hin : ∀ x, ((idxPM).view.read (Elt F) ((idxPM).view.writes (Elt F) bi L8) x).toNat < 50176)
    (r c : Fin 128) :
    (rowsPM).view.readAt (Elt F) (LoadRect.whole S128x128) ((rowsPM).view.writes (Elt F) b4
        [⟨Rect.whole S128x128, SparseCore.gatherPayload gathers_S50176x128_S128x128
            ((tblM.slice (Rect.unit (s := S50176x128) ![0, 0] S50176x128.size hsl) (fun _ => rfl)).view.read (Elt F) f6)
            (SparseCore.rows ((idxPM).view.read (Elt F) ((idxPM).view.writes (Elt F) bi L8)) hn hin)⟩]) (ix2 r c)
      = (tblM).view.read (Elt F) f6 (ix2 (Cert.TileSpec.prowW ((rawPM).view.read (Elt F) g0 (ix1 r))) c) := by
  have hi : (LoadRect.whole S128x128).idx (ix2 r c) = ix2 r c := by
    funext a; apply Fin.ext; show 0 + 1 * ((ix2 r c) a).val = ((ix2 r c) a).val; omega
  have e1 := View.read_writes_cons_emb (rowsPM).view b4 (Rect.whole S128x128)
    (SparseCore.gatherPayload gathers_S50176x128_S128x128
      ((tblM.slice (Rect.unit (s := S50176x128) ![0, 0] S50176x128.size hsl) (fun _ => rfl)).view.read (Elt F) f6)
      (SparseCore.rows ((idxPM).view.read (Elt F) ((idxPM).view.writes (Elt F) bi L8)) hn hin)) [] (ix2 r c)
  rw [Rect.emb_whole_apply] at e1
  show (rowsPM).view.read (Elt F) _ ((LoadRect.whole S128x128).idx (ix2 r c)) = _
  rw [hi, e1]
  refine (Cert.LibDotParts.gatherPayload_apply gathers_S50176x128_S128x128 _ _ r c).trans ?_
  have hrow : (SparseCore.rows ((idxPM).view.read (Elt F) ((idxPM).view.writes (Elt F) bi L8)) hn hin r : Fin 50176)
      = Cert.TileSpec.prowW ((rawPM).view.read (Elt F) g0 (ix1 r)) := by
    apply Cert.LibPackBridge.prowW_eq
    refine (Cert.LibDotParts.rows_val _ hn hin r).trans ?_
    rw [View.read_writes_apply_of_pieces (idxPM).view bi (fun y => packedW ((rawPM).view.read (Elt F) g0 y)) L8 hG (ix1 r) (hcov _)]
    exact packedW_toNat _ (hrange _).1 (hrange _).2
  refine (congrArg (fun p : Fin 50176 =>
    (tblM.slice (Rect.unit (s := S50176x128) ![0, 0] S50176x128.size hsl) (fun _ => rfl)).view.read (Elt F) f6 (ix2 p c)) hrow).trans ?_
  have he : (Rect.unit (s := S50176x128) ![0, 0] S50176x128.size hsl).emb
      (ix2 (Cert.TileSpec.prowW ((rawPM).view.read (Elt F) g0 (ix1 r))) c)
      = ix2 (Cert.TileSpec.prowW ((rawPM).view.read (Elt F) g0 (ix1 r))) c := by
    funext a; apply Fin.ext; rw [Rect.emb_apply]
    match a with
    | ⟨0, _⟩ => show 0 + 1 * _ = _; omega
    | ⟨1, _⟩ => show 0 + 1 * _ = _; omega
  show (tblM).view.read (Elt F) f6 ((Rect.unit (s := S50176x128) ![0, 0] S50176x128.size hsl).emb _) = _
  rw [he]

/-- The negative items' gathered rows after the gather, at entry `(r, c)`: the packed table's entry at the packed row
    the raw word `r` names, column `c` (whatever the two scratches held before). -/
theorem gather_readN (f6 : Buf (Elt F) ((tblM).view.loc (V d (cV L) (jV L))))
    (g0 : Buf (Elt F) ((rawNM).view.loc (V d (cV L) (jV L)))) (L8 : List (View.Piece (Elt F) S128 .i32))
    (bi : Buf (Elt F) ((idxNM).view.loc (V d (cV L) (jV L)))) (b4 : Buf (Elt F) ((rowsNM).view.loc (V d (cV L) (jV L))))
    (hG : ∀ p ∈ L8, ∀ x : p.1.shape.Idx, p.2 x = packedW ((rawNM).view.read (Elt F) g0 (p.1.emb x)))
    (hcov : ∀ y : S128.Idx, ∃ p ∈ L8, y ∈ p.1.set)
    (hrange : ∀ y : S128.Idx, 0 ≤ ((rawNM).view.read (Elt F) g0 y).toInt ∧ ((rawNM).view.read (Elt F) g0 y).toInt ≤ 99999)
    (hn) (hsl) (hin : ∀ x, ((idxNM).view.read (Elt F) ((idxNM).view.writes (Elt F) bi L8) x).toNat < 50176)
    (r c : Fin 128) :
    (rowsNM).view.readAt (Elt F) (LoadRect.whole S128x128) ((rowsNM).view.writes (Elt F) b4
        [⟨Rect.whole S128x128, SparseCore.gatherPayload gathers_S50176x128_S128x128
            ((tblM.slice (Rect.unit (s := S50176x128) ![0, 0] S50176x128.size hsl) (fun _ => rfl)).view.read (Elt F) f6)
            (SparseCore.rows ((idxNM).view.read (Elt F) ((idxNM).view.writes (Elt F) bi L8)) hn hin)⟩]) (ix2 r c)
      = (tblM).view.read (Elt F) f6 (ix2 (Cert.TileSpec.prowW ((rawNM).view.read (Elt F) g0 (ix1 r))) c) := by
  have hi : (LoadRect.whole S128x128).idx (ix2 r c) = ix2 r c := by
    funext a; apply Fin.ext; show 0 + 1 * ((ix2 r c) a).val = ((ix2 r c) a).val; omega
  have e1 := View.read_writes_cons_emb (rowsNM).view b4 (Rect.whole S128x128)
    (SparseCore.gatherPayload gathers_S50176x128_S128x128
      ((tblM.slice (Rect.unit (s := S50176x128) ![0, 0] S50176x128.size hsl) (fun _ => rfl)).view.read (Elt F) f6)
      (SparseCore.rows ((idxNM).view.read (Elt F) ((idxNM).view.writes (Elt F) bi L8)) hn hin)) [] (ix2 r c)
  rw [Rect.emb_whole_apply] at e1
  show (rowsNM).view.read (Elt F) _ ((LoadRect.whole S128x128).idx (ix2 r c)) = _
  rw [hi, e1]
  refine (Cert.LibDotParts.gatherPayload_apply gathers_S50176x128_S128x128 _ _ r c).trans ?_
  have hrow : (SparseCore.rows ((idxNM).view.read (Elt F) ((idxNM).view.writes (Elt F) bi L8)) hn hin r : Fin 50176)
      = Cert.TileSpec.prowW ((rawNM).view.read (Elt F) g0 (ix1 r)) := by
    apply Cert.LibPackBridge.prowW_eq
    refine (Cert.LibDotParts.rows_val _ hn hin r).trans ?_
    rw [View.read_writes_apply_of_pieces (idxNM).view bi (fun y => packedW ((rawNM).view.read (Elt F) g0 y)) L8 hG (ix1 r) (hcov _)]
    exact packedW_toNat _ (hrange _).1 (hrange _).2
  refine (congrArg (fun p : Fin 50176 =>
    (tblM.slice (Rect.unit (s := S50176x128) ![0, 0] S50176x128.size hsl) (fun _ => rfl)).view.read (Elt F) f6 (ix2 p c)) hrow).trans ?_
  have he : (Rect.unit (s := S50176x128) ![0, 0] S50176x128.size hsl).emb
      (ix2 (Cert.TileSpec.prowW ((rawNM).view.read (Elt F) g0 (ix1 r))) c)
      = ix2 (Cert.TileSpec.prowW ((rawNM).view.read (Elt F) g0 (ix1 r))) c := by
    funext a; apply Fin.ext; rw [Rect.emb_apply]
    match a with
    | ⟨0, _⟩ => show 0 + 1 * _ = _; omega
    | ⟨1, _⟩ => show 0 + 1 * _ = _; omega
  show (tblM).view.read (Elt F) f6 ((Rect.unit (s := S50176x128) ![0, 0] S50176x128.size hsl).emb _) = _
  rw [he]

end Cert.KernelIdeal.TileGGather

end
-- ==== Proof.TileGVFrame.lean ====
/-
  ONE TILE'S TASK of the first SparseCore kernel, at a symbolic place: THE VALUE FORM, from the loop's trip. The frame's
  run with every scratch buffer's contents kept: the raw scratches hold the tile's index words (the copies of its slices of
  the index arrays), the gathered scratches the packed table's rows those words name (the gathers' payloads at the repacked
  words), the loop runs at the invariant that the difference scratch holds the closed form of the trips done, and the
  copy-out leaves that block in the tile's rows of the result; the tile's specification then follows from the buffer facts.
  The trip itself is a hypothesis here (`htrip`), proved part by part in its own modules.
-/
import proofs.«203895_g52347061404180_cont_8to1_c_859_34_alg».proof.Proof.TileGDefs
import proofs.«203895_g52347061404180_cont_8to1_c_859_34_alg».proof.Proof.Gen.KernelIdeal.Skeleton
import proofs.«203895_g52347061404180_cont_8to1_c_859_34_alg».proof.Proof.LibSkewVec
import proofs.«203895_g52347061404180_cont_8to1_c_859_34_alg».proof.Proof.LibWrites
import proofs.«203895_g52347061404180_cont_8to1_c_859_34_alg».proof.Proof.TileGVDefs
import proofs.«203895_g52347061404180_cont_8to1_c_859_34_alg».proof.Proof.TileGBridgeV
import proofs.«203895_g52347061404180_cont_8to1_c_859_34_alg».proof.Proof.TileGGather

noncomputable section

namespace Cert.KernelIdeal.TileG

open Cert.KernelIdeal Cert.KernelIdeal.Gen Cert.KernelIdeal.KCommon Cert.KernelIdeal.TileCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.KernelIdeal.TileGV
open Idealize.ShloMosaic.ValueIdx (ix1 ix2)

variable {F : FTy → Type} [FloatOps F]

local notation "𝕄" => MT nD τ sig (HIx 2) (Elt F) ℕ UU ℕ

local notation "tblW" => (Memref.whole Cert.KernelIdeal.main_v6_scv : Memref Cert.KernelIdeal.sig Kind.scVector Space.hbm Cert.KernelIdeal.S50176x128 EltTy.f32)
local notation "posW" => (Memref.whole Cert.KernelIdeal.main_v2_scv : Memref Cert.KernelIdeal.sig Kind.scVector Space.hbm Cert.KernelIdeal.S4096 EltTy.i32)
local notation "negW" => (Memref.whole Cert.KernelIdeal.main_v4_scv : Memref Cert.KernelIdeal.sig Kind.scVector Space.hbm Cert.KernelIdeal.S4096 EltTy.i32)
local notation "gpW" => (Memref.whole Cert.KernelIdeal.main_v7_scv : Memref Cert.KernelIdeal.sig Kind.scVector Space.hbm Cert.KernelIdeal.S2048x128 EltTy.f32)
local notation "s0W" => (Memref.whole Cert.KernelIdeal.cc1_scratch0 : Memref Cert.KernelIdeal.sig Kind.scVector Space.vmem Cert.KernelIdeal.S128 EltTy.i32)
local notation "s1W" => (Memref.whole Cert.KernelIdeal.cc1_scratch1 : Memref Cert.KernelIdeal.sig Kind.scVector Space.vmem Cert.KernelIdeal.S128 EltTy.i32)
local notation "s2W" => (Memref.whole Cert.KernelIdeal.cc1_scratch2 : Memref Cert.KernelIdeal.sig Kind.scVector Space.vmem Cert.KernelIdeal.S128 EltTy.i32)
local notation "s3W" => (Memref.whole Cert.KernelIdeal.cc1_scratch3 : Memref Cert.KernelIdeal.sig Kind.scVector Space.vmem Cert.KernelIdeal.S128 EltTy.i32)
local notation "s4W" => (Memref.whole Cert.KernelIdeal.cc1_scratch4 : Memref Cert.KernelIdeal.sig Kind.scVector Space.vmem Cert.KernelIdeal.S128x128 EltTy.f32)
local notation "s5W" => (Memref.whole Cert.KernelIdeal.cc1_scratch5 : Memref Cert.KernelIdeal.sig Kind.scVector Space.vmem Cert.KernelIdeal.S128x128 EltTy.f32)
local notation "s6W" => (Memref.whole Cert.KernelIdeal.cc1_scratch6 : Memref Cert.KernelIdeal.sig Kind.scVector Space.vmem Cert.KernelIdeal.S64x128 EltTy.f32)

section Tile

/-- A chunk of sixteen index words in `[0, 99999]`, repacked (minus `50176` where at least that), is below `50176`. -/
theorem repack_lt' (R : IVec S16 32) (hR : ∀ z, 0 ≤ (R z).toInt ∧ (R z).toInt ≤ 99999) (y : S16.Idx) :
    (select (cmpi .sge R (broadcast S16 50176#32)) (subi R (broadcast S16 50176#32)) R y).toNat < 50176 :=
  (Cert.LibSkewVec.packed_apply R y (hR y).1 (hR y).2).1

set_option maxHeartbeats 4000000 in
theorem tile_body_gv_of_trip (hF : (K (F := F)).Facts) (d : Dev nD) (L : grid1.Coords) (q6a q6b q2 q4 : PosShare TreeShare)
    (f6 : Buf (Elt F) ((tblW).view.loc (V d (cV L) (jV L))))
    (f2 : Buf (Elt F) ((posW).view.loc (V d (cV L) (jV L)))) (f4 : Buf (Elt F) ((negW).view.loc (V d (cV L) (jV L))))
    (hidx2 : ∀ j, 0 ≤ (f2 j).toInt ∧ (f2 j).toInt ≤ 99999) (hidx4 : ∀ j, 0 ≤ (f4 j).toInt ∧ (f4 j).toInt ≤ 99999)
    (htrip : ∀ R0 R1 B4 B5 D0 (k : Fin k1_t1_loop.trips) (acc : Unit), invGV (F := F) d L R0 R1 B4 B5 D0 k.val acc
      ⊢ wp frame (wpE (defs₀ (F := F)) 𝒱₀ (V d (cV L) (jV L)) none) Set.univ
          (k1_t1_body L tblW (Memref.isWhole_whole _) posW (Memref.isWhole_whole _) negW (Memref.isWhole_whole _)
            gpW (Memref.isWhole_whole _) s0W (Memref.isWhole_whole _) s1W (Memref.isWhole_whole _) s2W (Memref.isWhole_whole _)
            s3W (Memref.isWhole_whole _) s4W (Memref.isWhole_whole _) s5W (Memref.isWhole_whole _) s6W (Memref.isWhole_whole _)
            cc1_scratch7 cc1_scratch8 cc1_scoped0 cc1_scoped1 cc1_scoped2
            (iota .scVector S16 32 [0] iota_S16_d0_w32_scVector) k1_pay164 k1_pay165 k acc)
          (fun acc' => invGV (F := F) d L R0 R1 B4 B5 D0 (k.val + 1) acc'))
    (O : CellTallies nD τ sig (HIx 2)) (W : Waits sig (HIx 2)) (hO : ∀ g, O g none = 0) :
    iprop(levAts (K (F := F)).L (K (F := F)).lev ∗ emp ∗ goG d L q6a q6b q2 q4 f6 f2 f4
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_g_body L tblM (Memref.isWhole_whole _) posM (Memref.isWhole_whole _) negM (Memref.isWhole_whole _)
            gpM (Memref.isWhole_whole _) rawPM (Memref.isWhole_whole _) rawNM (Memref.isWhole_whole _) idxPM (Memref.isWhole_whole _)
            idxNM (Memref.isWhole_whole _) rowsPM (Memref.isWhole_whole _) rowsNM (Memref.isWhole_whole _) diffM (Memref.isWhole_whole _)
            cc1_scratch7 cc1_scratch8 cc1_scoped0 cc1_scoped1 cc1_scoped2)
          fun _ => iprop((∃ fo, ⌜Cert.TileSpec.OutG (F := F) (Cert.KernelIdeal.TilePayV.wid1 L) f6 f2 f4 fo⌝
              ∗ Cert.KernelIdeal.TilePayV.goGV (F := F) d L q6a q6b q2 q4 f6 f2 f4 fo) ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_g_body_eq_skeleton]; unfold cc1__sc_g_body_skel
  unfold tblM posM negM gpM rawPM rawNM idxPM idxNM rowsPM rowsNM diffM
  rw [(K (F := F)).scopedBufs_V hF d (cV L) (jV L), SparseCore.Cfg.scopedSems0_V (Val := Elt F) d (cV L) (jV L), ownSems0_V, ownBufs_V]
  unfold goG Cert.KernelIdeal.TilePayV.goGV
  iintro ⟨#Hlv, -, ⟨Htbl, Htbl2, Hpos, Hneg, %fo, Hout⟩,
    ⟨⟨%g0, Hs0⟩, ⟨%g1, Hs1⟩, ⟨%g2, Hs2⟩, ⟨%g3, Hs3⟩, ⟨%g4, Hs4⟩, ⟨%g5, Hs5⟩, ⟨%g6, Hs6⟩, Hb30, Hb31, Hb32, Hb33, Hb34, Hbufs⟩,
    ⟨Hsem7, Hsem8, Hsc0, Hsc1, Hsc2, Hr5, Hr6, Hr30, Hr31, Hsems⟩, HO⟩
  ihave Hmw := ((K (F := F)).mayWaits_none (thr := V d (cV L) (jV L)) hO) $$ Hlv
  ihave Hs0' := (Entails.of_eq (pts_s0 (F := F) d L g0).symm) $$ Hs0
  ihave Hs1' := (Entails.of_eq (pts_s1 (F := F) d L g1).symm) $$ Hs1
  ihave Hs2' := (Entails.of_eq (pts_s2 (F := F) d L g2).symm) $$ Hs2
  ihave Hs3' := (Entails.of_eq (pts_s3 (F := F) d L g3).symm) $$ Hs3
  ihave Hs4' := (Entails.of_eq (pts_s4 (F := F) d L g4).symm) $$ Hs4
  ihave Hs5' := (Entails.of_eq (pts_s5 (F := F) d L g5).symm) $$ Hs5
  ihave Hs6' := (Entails.of_eq (pts_s6 (F := F) d L g6).symm) $$ Hs6
  sl_exec
  generalize hc2 : (s2W).view.writes (Elt F) (s2W).view.junk _ = c2
  have hin2 : ∀ x, ((s2W).view.read (Elt F) c2 x).toNat < S50176x128.size (gathers_S50176x128_S128x128).axis := by
    subst hc2
    intro x
    sl_unfold_run_names
    refine Cert.LibWrites.read_writes_pred (Val := Elt F) (e := .i32) _ _ (fun w : BitVec 32 => w.toNat < 50176) _ ?_ x ?_
    · intro p hp y
      simp only [List.mem_cons, List.not_mem_nil, or_false] at hp
      rcases hp with rfl | rfl | rfl | rfl | rfl | rfl | rfl | rfl
      all_goals
        refine repack_lt' _ (fun z => ?_) y
        rw [View.write_whole_univ]
        simp only [View.readAt_apply, Memref.view_whole, View.read_whole]
        first
          | exact hidx2 _
          | (have h := hidx2 (View.emb _ _); simpa [View.read_apply] using h)
    · exact View.cover_of_tiled _ ![16] rfl x
  generalize hc3 : (s3W).view.writes (Elt F) g3 _ = c3
  have hin3 : ∀ x, ((s3W).view.read (Elt F) c3 x).toNat < S50176x128.size (gathers_S50176x128_S128x128).axis := by
    subst hc3
    intro x
    sl_unfold_run_names
    refine Cert.LibWrites.read_writes_pred (Val := Elt F) (e := .i32) _ _ (fun w : BitVec 32 => w.toNat < 50176) _ ?_ x ?_
    · intro p hp y
      simp only [List.mem_cons, List.not_mem_nil, or_false] at hp
      rcases hp with rfl | rfl | rfl | rfl | rfl | rfl | rfl | rfl
      all_goals
        refine repack_lt' _ (fun z => ?_) y
        rw [View.write_whole_univ]
        simp only [View.readAt_apply, Memref.view_whole, View.read_whole]
        first
          | exact hidx4 _
          | (have h := hidx4 (View.emb _ _); simpa [View.read_apply] using h)
    · exact View.cover_of_tiled _ ![16] rfl x
  sl_exec
  generalize hR0 : View.write (Elt F) (s0W).view g0 _ Finset.univ = R0
  generalize hR1 : View.write (Elt F) (s1W).view g1 _ Finset.univ = R1
  generalize hB4 : (s4W).view.writes (Elt F) (s4W).view.junk _ = B4
  generalize hB5 : (s5W).view.writes (Elt F) (s5W).view.junk _ = B5
  sl_for (invGV (F := F) d L R0 R1 B4 B5 g6) $$ [Hs0' Hs1' Hs4' Hs5' Hs6']
  case region =>
    intro k acc
    sl_unfold_run_names
    exact htrip _ _ _ _ _ k acc
  · unfold invGV
    isplitl [Hs0']; · iexact Hs0'
    isplitl [Hs1']; · iexact Hs1'
    isplitl [Hs4']; · iexact Hs4'
    isplitl [Hs5']; · iexact Hs5'
    iexact Hs6'
  iintro %_ HI
  unfold invGV
  icases HI with ⟨H0, H1, H4, H5, H6⟩
  sl_exec
  sl_step
  isplitl [Htbl Htbl2 Hpos Hneg Hout]
  · iexists _; isplitr
    pick_goal 2
    · isplitl [Htbl]; · iexact Htbl
      isplitl [Htbl2]; · iexact Htbl2
      isplitl [Hpos]; · iexact Hpos
      isplitl [Hneg]; · iexact Hneg
      iexact Hout
    · ipureintro
      refine Cert.KernelIdeal.TileGBridge.outG_bridgeV (F := F) d L f6 f2 f4 R0 R1 B4 B5 g6 _ ?_ ?_ ?_ ?_ ?_
      · intro y
        subst hR0
        sl_unfold_run_names
        rw [View.write_whole_univ]
        rfl
      · intro y
        subst hR1
        sl_unfold_run_names
        rw [View.write_whole_univ]
        rfl
      · intro r c
        subst hB4; subst hc2; subst hR0
        have hrange0 : ∀ y : S128.Idx, 0 ≤ ((s0W).view.read (Elt F) (View.write (Elt F) (s0W).view g0 (tile_body_gv_of_trip.sl.dma0 d L f2) Finset.univ) y).toInt ∧ ((s0W).view.read (Elt F) (View.write (Elt F) (s0W).view g0 (tile_body_gv_of_trip.sl.dma0 d L f2) Finset.univ) y).toInt ≤ 99999 := by
          intro y
          sl_unfold_run_names
          rw [View.write_whole_univ]
          exact hidx2 _
        have hi : (LoadRect.whole S128x128).idx (ix2 r c) = ix2 r c := by
          funext a; apply Fin.ext; show 0 + 1 * ((ix2 r c) a).val = ((ix2 r c) a).val; omega
        have hG8 : ((tile_body_gv_of_trip.sl.Hs2'_8 d L f2 g0)).Forall fun p => ∀ x : p.1.shape.Idx,
            p.2 x = Cert.KernelIdeal.TileDotGather.packedW ((s0W).view.read (Elt F) (View.write (Elt F) (s0W).view g0 (tile_body_gv_of_trip.sl.dma0 d L f2) Finset.univ) (p.1.emb x)) := by
          unfold tile_body_gv_of_trip.sl.Hs2'_8
          exact ⟨fun x => Cert.LibSkewVec.packed_word ((s0W).view.readAt (Elt F) (Rect.unit (s := S128) ![112] S16.size inb_S128_S16_112).toLoadRect (View.write (Elt F) (s0W).view g0 (tile_body_gv_of_trip.sl.dma0 d L f2) Finset.univ)) x,
            fun x => Cert.LibSkewVec.packed_word ((s0W).view.readAt (Elt F) (Rect.unit (s := S128) ![96] S16.size inb_S128_S16_96).toLoadRect (View.write (Elt F) (s0W).view g0 (tile_body_gv_of_trip.sl.dma0 d L f2) Finset.univ)) x,
            fun x => Cert.LibSkewVec.packed_word ((s0W).view.readAt (Elt F) (Rect.unit (s := S128) ![80] S16.size inb_S128_S16_80).toLoadRect (View.write (Elt F) (s0W).view g0 (tile_body_gv_of_trip.sl.dma0 d L f2) Finset.univ)) x,
            fun x => Cert.LibSkewVec.packed_word ((s0W).view.readAt (Elt F) (Rect.unit (s := S128) ![64] S16.size inb_S128_S16_64).toLoadRect (View.write (Elt F) (s0W).view g0 (tile_body_gv_of_trip.sl.dma0 d L f2) Finset.univ)) x,
            fun x => Cert.LibSkewVec.packed_word ((s0W).view.readAt (Elt F) (Rect.unit (s := S128) ![48] S16.size inb_S128_S16_48).toLoadRect (View.write (Elt F) (s0W).view g0 (tile_body_gv_of_trip.sl.dma0 d L f2) Finset.univ)) x,
            fun x => Cert.LibSkewVec.packed_word ((s0W).view.readAt (Elt F) (Rect.unit (s := S128) ![32] S16.size inb_S128_S16_32).toLoadRect (View.write (Elt F) (s0W).view g0 (tile_body_gv_of_trip.sl.dma0 d L f2) Finset.univ)) x,
            fun x => Cert.LibSkewVec.packed_word ((s0W).view.readAt (Elt F) (Rect.unit (s := S128) ![16] S16.size inb_S128_S16_16).toLoadRect (View.write (Elt F) (s0W).view g0 (tile_body_gv_of_trip.sl.dma0 d L f2) Finset.univ)) x,
            fun x => Cert.LibSkewVec.packed_word ((s0W).view.readAt (Elt F) (Rect.unit (s := S128) ![0] S16.size inb_S128_S16_0).toLoadRect (View.write (Elt F) (s0W).view g0 (tile_body_gv_of_trip.sl.dma0 d L f2) Finset.univ)) x⟩
        refine (congrArg (fun i => (s4W).view.read (Elt F) _ i) hi.symm).trans ?_
        exact Cert.KernelIdeal.TileGGather.gather_readP (F := F) d L f6 (View.write (Elt F) (s0W).view g0 (tile_body_gv_of_trip.sl.dma0 d L f2) Finset.univ) (tile_body_gv_of_trip.sl.Hs2'_8 d L f2 g0) (s2W).view.junk (s4W).view.junk
          (List.forall_iff_forall_mem.mp hG8) (View.cover_of_tiled _ ![16] rfl) hrange0 _ _ hin2 r c
      · intro r c
        subst hB5; subst hc3; subst hR1
        have hrange0 : ∀ y : S128.Idx, 0 ≤ ((s1W).view.read (Elt F) (View.write (Elt F) (s1W).view g1 (tile_body_gv_of_trip.sl.dma0_1 d L f4) Finset.univ) y).toInt ∧ ((s1W).view.read (Elt F) (View.write (Elt F) (s1W).view g1 (tile_body_gv_of_trip.sl.dma0_1 d L f4) Finset.univ) y).toInt ≤ 99999 := by
          intro y
          sl_unfold_run_names
          rw [View.write_whole_univ]
          exact hidx4 _
        have hi : (LoadRect.whole S128x128).idx (ix2 r c) = ix2 r c := by
          funext a; apply Fin.ext; show 0 + 1 * ((ix2 r c) a).val = ((ix2 r c) a).val; omega
        have hG8 : (([⟨Rect.unit (s := S128) ![112] S16.size inb_S128_S16_112, tile_body_gv_of_trip.sl.v145 d L f4 g1⟩,
            ⟨Rect.unit (s := S128) ![96] S16.size inb_S128_S16_96, tile_body_gv_of_trip.sl.v127 d L f4 g1⟩,
            ⟨Rect.unit (s := S128) ![80] S16.size inb_S128_S16_80, tile_body_gv_of_trip.sl.v109 d L f4 g1⟩,
            ⟨Rect.unit (s := S128) ![64] S16.size inb_S128_S16_64, tile_body_gv_of_trip.sl.v91 d L f4 g1⟩,
            ⟨Rect.unit (s := S128) ![48] S16.size inb_S128_S16_48, tile_body_gv_of_trip.sl.v73 d L f4 g1⟩,
            ⟨Rect.unit (s := S128) ![32] S16.size inb_S128_S16_32, tile_body_gv_of_trip.sl.v55 d L f4 g1⟩,
            ⟨Rect.unit (s := S128) ![16] S16.size inb_S128_S16_16, tile_body_gv_of_trip.sl.v37 d L f4 g1⟩,
            ⟨Rect.unit (s := S128) ![0] S16.size inb_S128_S16_0, tile_body_gv_of_trip.sl.v19 d L f4 g1⟩] : List (View.Piece (Elt F) S128 .i32))).Forall fun p => ∀ x : p.1.shape.Idx,
            p.2 x = Cert.KernelIdeal.TileDotGather.packedW ((s1W).view.read (Elt F) (View.write (Elt F) (s1W).view g1 (tile_body_gv_of_trip.sl.dma0_1 d L f4) Finset.univ) (p.1.emb x)) := by
          exact ⟨fun x => Cert.LibSkewVec.packed_word ((s1W).view.readAt (Elt F) (Rect.unit (s := S128) ![112] S16.size inb_S128_S16_112).toLoadRect (View.write (Elt F) (s1W).view g1 (tile_body_gv_of_trip.sl.dma0_1 d L f4) Finset.univ)) x,
            fun x => Cert.LibSkewVec.packed_word ((s1W).view.readAt (Elt F) (Rect.unit (s := S128) ![96] S16.size inb_S128_S16_96).toLoadRect (View.write (Elt F) (s1W).view g1 (tile_body_gv_of_trip.sl.dma0_1 d L f4) Finset.univ)) x,
            fun x => Cert.LibSkewVec.packed_word ((s1W).view.readAt (Elt F) (Rect.unit (s := S128) ![80] S16.size inb_S128_S16_80).toLoadRect (View.write (Elt F) (s1W).view g1 (tile_body_gv_of_trip.sl.dma0_1 d L f4) Finset.univ)) x,
            fun x => Cert.LibSkewVec.packed_word ((s1W).view.readAt (Elt F) (Rect.unit (s := S128) ![64] S16.size inb_S128_S16_64).toLoadRect (View.write (Elt F) (s1W).view g1 (tile_body_gv_of_trip.sl.dma0_1 d L f4) Finset.univ)) x,
            fun x => Cert.LibSkewVec.packed_word ((s1W).view.readAt (Elt F) (Rect.unit (s := S128) ![48] S16.size inb_S128_S16_48).toLoadRect (View.write (Elt F) (s1W).view g1 (tile_body_gv_of_trip.sl.dma0_1 d L f4) Finset.univ)) x,
            fun x => Cert.LibSkewVec.packed_word ((s1W).view.readAt (Elt F) (Rect.unit (s := S128) ![32] S16.size inb_S128_S16_32).toLoadRect (View.write (Elt F) (s1W).view g1 (tile_body_gv_of_trip.sl.dma0_1 d L f4) Finset.univ)) x,
            fun x => Cert.LibSkewVec.packed_word ((s1W).view.readAt (Elt F) (Rect.unit (s := S128) ![16] S16.size inb_S128_S16_16).toLoadRect (View.write (Elt F) (s1W).view g1 (tile_body_gv_of_trip.sl.dma0_1 d L f4) Finset.univ)) x,
            fun x => Cert.LibSkewVec.packed_word ((s1W).view.readAt (Elt F) (Rect.unit (s := S128) ![0] S16.size inb_S128_S16_0).toLoadRect (View.write (Elt F) (s1W).view g1 (tile_body_gv_of_trip.sl.dma0_1 d L f4) Finset.univ)) x⟩
        refine (congrArg (fun i => (s5W).view.read (Elt F) _ i) hi.symm).trans ?_
        exact Cert.KernelIdeal.TileGGather.gather_readN (F := F) d L f6 (View.write (Elt F) (s1W).view g1 (tile_body_gv_of_trip.sl.dma0_1 d L f4) Finset.univ) ([⟨Rect.unit (s := S128) ![112] S16.size inb_S128_S16_112, tile_body_gv_of_trip.sl.v145 d L f4 g1⟩,
            ⟨Rect.unit (s := S128) ![96] S16.size inb_S128_S16_96, tile_body_gv_of_trip.sl.v127 d L f4 g1⟩,
            ⟨Rect.unit (s := S128) ![80] S16.size inb_S128_S16_80, tile_body_gv_of_trip.sl.v109 d L f4 g1⟩,
            ⟨Rect.unit (s := S128) ![64] S16.size inb_S128_S16_64, tile_body_gv_of_trip.sl.v91 d L f4 g1⟩,
            ⟨Rect.unit (s := S128) ![48] S16.size inb_S128_S16_48, tile_body_gv_of_trip.sl.v73 d L f4 g1⟩,
            ⟨Rect.unit (s := S128) ![32] S16.size inb_S128_S16_32, tile_body_gv_of_trip.sl.v55 d L f4 g1⟩,
            ⟨Rect.unit (s := S128) ![16] S16.size inb_S128_S16_16, tile_body_gv_of_trip.sl.v37 d L f4 g1⟩,
            ⟨Rect.unit (s := S128) ![0] S16.size inb_S128_S16_0, tile_body_gv_of_trip.sl.v19 d L f4 g1⟩] : List (View.Piece (Elt F) S128 .i32)) g3 (s5W).view.junk
          (List.forall_iff_forall_mem.mp hG8) (View.cover_of_tiled _ ![16] rfl) hrange0 _ _ hin3 r c
      · intro i
        have e := View.read_writes_cons_emb (gpSl L).view fo (Rect.whole S64x128) (tile_body_gv_of_trip.sl.dma0_2 d L g6 R0 R1 B4 B5) [] i
        rw [Rect.emb_whole_apply] at e
        rw [e]
        sl_unfold_run_names
        rfl
  isplitl [H0 H1 Hs2' Hs3' H4 H5 H6 Hb30 Hb31 Hb32 Hb33 Hb34 Hbufs]
  · isplitl [H0]; · iexists _; iapply (Entails.of_eq (pts_s0 (F := F) d L _)); iexact H0
    isplitl [H1]; · iexists _; iapply (Entails.of_eq (pts_s1 (F := F) d L _)); iexact H1
    isplitl [Hs2']; · iexists _; iapply (Entails.of_eq (pts_s2 (F := F) d L _)); iexact Hs2'
    isplitl [Hs3']; · iexists _; iapply (Entails.of_eq (pts_s3 (F := F) d L _)); iexact Hs3'
    isplitl [H4]; · iexists _; iapply (Entails.of_eq (pts_s4 (F := F) d L _)); iexact H4
    isplitl [H5]; · iexists _; iapply (Entails.of_eq (pts_s5 (F := F) d L _)); iexact H5
    isplitl [H6]; · iexists _; iapply (Entails.of_eq (pts_s6 (F := F) d L _)); iexact H6
    isplitl [Hb30]; · iexact Hb30
    isplitl [Hb31]; · iexact Hb31
    isplitl [Hb32]; · iexact Hb32
    isplitl [Hb33]; · iexact Hb33
    isplitl [Hb34]; · iexact Hb34
    iexact Hbufs
  isplitl [Hsem7 Hsem8 Hsc0 Hsc1 Hsc2 Hr5 Hr6 Hr30 Hr31 Hsems]
  · isplitl [Hsem7]; · iexact Hsem7
    isplitl [Hsem8]; · iexact Hsem8
    isplitl [Hsc0]; · iexact Hsc0
    isplitl [Hsc1]; · iexact Hsc1
    isplitl [Hsc2]; · iexact Hsc2
    isplitl [Hr5]; · iexact Hr5
    isplitl [Hr6]; · iexact Hr6
    isplitl [Hr30]; · iexact Hr30
    isplitl [Hr31]; · iexact Hr31
    iexact Hsems
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact .inl hp

end Tile

end Cert.KernelIdeal.TileG

end
-- ==== Proof.TileGParts.lean ====
/-
  THE PARTS OF ONE TRIP of the first SparseCore kernel's loop, each at a symbolic place and trip: a part reads, per skewed
  step, 16 entries of the gathered positive rows and 16 of the gathered negative rows through index vectors that stay
  inside their blocks (the group's rows; the half the loaded index word selects plus the lane's skewed column), and writes
  their 16 differences into the packed difference block at the group's half-rows and the lane's parity half. Each part is
  stated over ITS CONTINUATION: the two raw-index buffers and the two gathered-row buffers are held at fixed contents
  throughout, the difference block at some contents, and the continuation is owed at whatever the part loads.
-/
import proofs.«203895_g52347061404180_cont_8to1_c_859_34_alg».proof.Proof.TileGDefs
import proofs.«203895_g52347061404180_cont_8to1_c_859_34_alg».proof.Proof.Gen.KernelIdeal.Skeleton
import proofs.«203895_g52347061404180_cont_8to1_c_859_34_alg».proof.Proof.LibSkewVec

noncomputable section

namespace Cert.KernelIdeal.TileGParts

open Cert.KernelIdeal Cert.KernelIdeal.Gen Cert.KernelIdeal.KCommon Cert.KernelIdeal.TileCommon Cert.KernelIdeal.TileG

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid1.Coords)
variable [FloatOps F]

/-- The trip's group number, as a word, is below eight. -/
theorem iv_lt (t : Fin k1_t1_loop.trips) : (Scf.iv (0#32 : BitVec 32) 1#32 t.val).toNat < 8 := by
  have ht : t.val < 8 := lt_of_lt_of_le t.isLt k1_t1_abs.2.1
  unfold Scf.iv
  rw [BitVec.toNat_add, BitVec.toNat_mul, BitVec.toNat_ofNat]
  show (0 + t.val % 2 ^ 32 * 1 % 2 ^ 32) % 2 ^ 32 < 8
  omega

/-- The lane sequence, as the kernel spells it. -/
abbrev laneV : IVec S16 32 := iota .scVector S16 32 [0] iota_S16_d0_w32_scVector

/-- What a trip holds: the raw index words of each sign and the gathered rows of each sign at fixed contents, the
    difference block at some contents. -/
def heldG (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) : sProp 𝕄 :=
  iprop(((rawPM).view.loc (V d (cV L) (jV L)) ↦{fullShare} g0)
    ∗ ((rawNM).view.loc (V d (cV L) (jV L)) ↦{fullShare} g1)
    ∗ ((rowsPM).view.loc (V d (cV L) (jV L)) ↦{fullShare} g4)
    ∗ ((rowsNM).view.loc (V d (cV L) (jV L)) ↦{fullShare} g5)
    ∗ ∃ g6, (diffM).view.loc (V d (cV L) (jV L)) ↦{fullShare} g6)

set_option maxHeartbeats 2000000 in
set_option maxRecDepth 65536 in
/-- Part 1 of a trip, owed its continuation at whatever it loads. -/
theorem part1_frame (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v183 : IVec S16 32) (v185 : IVec S16 32) (v193 : IVec S16 32) (v199 : IVec S16 32) (v217 : Vec F S16 .f32) (v219 : Vec F S16 .f32) (v220 : IVec S16 32), k1_chk6 v185 v220) → Prog (TpuEff nD τ sig (Elt F) Λ₀ (.scVector (cV L) (jV L))) α) (Q : α → sProp 𝕄)
    (hk : ∀ (x189 : Vec F S16 .i32) (x195 : Vec F S16 .i32) (x217 : Vec F S16 .f32) (x219 : Vec F S16 .f32) (h6 : k1_chk6 (k1_pay8 (k1_pay7 laneV 0#32 1#32 k)) (addi (k1_pay1 laneV k1_pay164 k1_pay165) (k1_pay15 k1_pay164))), heldG (F := F) d L g0 g1 g4 g5 ⊢ wp frame (wpE (defs₀ (F := F)) 𝒱₀ (V d (cV L) (jV L)) none) Set.univ (kk ⟨(k1_pay7 laneV 0#32 1#32 k), (k1_pay8 (k1_pay7 laneV 0#32 1#32 k)), k1_pay11 k1_pay164 x189, k1_pay12 k1_pay164 x195, x217, x219, (addi (k1_pay1 laneV k1_pay164 k1_pay165) (k1_pay15 k1_pay164)), h6⟩) Q) :
    heldG (F := F) d L g0 g1 g4 g5
      ⊢ wp frame (wpE (defs₀ (F := F)) 𝒱₀ (V d (cV L) (jV L)) none) Set.univ
          (k1_part1 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 laneV k1_pay164 (k1_pay1 laneV k1_pay164 k1_pay165) 0#32 1#32 k >>= kk) Q := by
  have hg := iv_lt k
  rw [k1_part1_eq_skeleton]; unfold k1_part1_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _ _ _ _ _)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 2 of a trip, owed its continuation at whatever it loads. -/
theorem part2_frame (k : Fin k1_t1_loop.trips) (x189 : Vec F S16 .i32) (x195 : Vec F S16 .i32) (x217 : Vec F S16 .f32) (x219 : Vec F S16 .f32) (h6 : k1_chk6 (k1_pay8 (k1_pay7 laneV 0#32 1#32 k)) (addi (k1_pay1 laneV k1_pay164 k1_pay165) (k1_pay15 k1_pay164)))
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (IVec S16 32) → Prog (TpuEff nD τ sig (Elt F) Λ₀ (.scVector (cV L) (jV L))) α) (Q : α → sProp 𝕄)
    (hk : heldG (F := F) d L g0 g1 g4 g5 ⊢ wp frame (wpE (defs₀ (F := F)) 𝒱₀ (V d (cV L) (jV L)) none) Set.univ (kk (k1_pay23 k1_pay164)) Q) :
    heldG (F := F) d L g0 g1 g4 g5
      ⊢ wp frame (wpE (defs₀ (F := F)) 𝒱₀ (V d (cV L) (jV L)) none) Set.univ
          (k1_part2 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) x217 x219 (addi (k1_pay1 laneV k1_pay164 k1_pay165) (k1_pay15 k1_pay164)) h6 >>= kk) Q := by
  have hg := iv_lt k
  rw [k1_part2_eq_skeleton]; unfold k1_part2_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 3 of a trip, owed its continuation at whatever it loads. -/
theorem part3_frame (k : Fin k1_t1_loop.trips) (x189 : Vec F S16 .i32) (x195 : Vec F S16 .i32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v297 : IVec S16 32) (k1_hw27 : k1_chk27 (k1_pay8 (k1_pay7 laneV 0#32 1#32 k)) v297), FVec F S16 .f32) → Prog (TpuEff nD τ sig (Elt F) Λ₀ (.scVector (cV L) (jV L))) α) (Q : α → sProp 𝕄)
    (hk : ∀ (h27 : k1_chk27 (k1_pay8 (k1_pay7 laneV 0#32 1#32 k)) (addi (k1_pay1 laneV k1_pay164 k1_pay165) (k1_pay29 k1_pay164))) (x294 : Vec F S16 .f32) (x296 : Vec F S16 .f32), heldG (F := F) d L g0 g1 g4 g5 ⊢ wp frame (wpE (defs₀ (F := F)) 𝒱₀ (V d (cV L) (jV L)) none) Set.univ (kk ⟨(addi (k1_pay1 laneV k1_pay164 k1_pay165) (k1_pay29 k1_pay164)), h27, k1_pay30 x294 x296⟩) Q) :
    heldG (F := F) d L g0 g1 g4 g5
      ⊢ wp frame (wpE (defs₀ (F := F)) 𝒱₀ (V d (cV L) (jV L)) none) Set.univ
          (k1_part3 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay23 k1_pay164) >>= kk) Q := by
  have hg := iv_lt k
  rw [k1_part3_eq_skeleton]; unfold k1_part3_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _ _ _)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 4 of a trip, owed its continuation at whatever it loads. -/
theorem part4_frame (k : Fin k1_t1_loop.trips) (x189 : Vec F S16 .i32) (x195 : Vec F S16 .i32) (h27 : k1_chk27 (k1_pay8 (k1_pay7 laneV 0#32 1#32 k)) (addi (k1_pay1 laneV k1_pay164 k1_pay165) (k1_pay29 k1_pay164))) (x294 : Vec F S16 .f32) (x296 : Vec F S16 .f32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v336 : IVec S16 32), IVec S16 32) → Prog (TpuEff nD τ sig (Elt F) Λ₀ (.scVector (cV L) (jV L))) α) (Q : α → sProp 𝕄)
    (hk : heldG (F := F) d L g0 g1 g4 g5 ⊢ wp frame (wpE (defs₀ (F := F)) 𝒱₀ (V d (cV L) (jV L)) none) Set.univ (kk ⟨k1_pay37 k1_pay164, k1_pay38 k1_pay164 (k1_pay11 k1_pay164 x189)⟩) Q) :
    heldG (F := F) d L g0 g1 g4 g5
      ⊢ wp frame (wpE (defs₀ (F := F)) 𝒱₀ (V d (cV L) (jV L)) none) Set.univ
          (k1_part4 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (addi (k1_pay1 laneV k1_pay164 k1_pay165) (k1_pay29 k1_pay164)) h27 (k1_pay30 x294 x296) >>= kk) Q := by
  have hg := iv_lt k
  rw [k1_part4_eq_skeleton]; unfold k1_part4_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 5 of a trip, owed its continuation at whatever it loads. -/
theorem part5_frame (k : Fin k1_t1_loop.trips) (x189 : Vec F S16 .i32) (x195 : Vec F S16 .i32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (PUnit) → Prog (TpuEff nD τ sig (Elt F) Λ₀ (.scVector (cV L) (jV L))) α) (Q : α → sProp 𝕄)
    (hk : heldG (F := F) d L g0 g1 g4 g5 ⊢ wp frame (wpE (defs₀ (F := F)) 𝒱₀ (V d (cV L) (jV L)) none) Set.univ (kk ⟨⟩) Q) :
    heldG (F := F) d L g0 g1 g4 g5
      ⊢ wp frame (wpE (defs₀ (F := F)) 𝒱₀ (V d (cV L) (jV L)) none) Set.univ
          (k1_part5 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay37 k1_pay164) (k1_pay38 k1_pay164 (k1_pay11 k1_pay164 x189)) >>= kk) Q := by
  have hg := iv_lt k
  rw [k1_part5_eq_skeleton]; unfold k1_part5_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 6 of a trip, owed its continuation at whatever it loads. -/
theorem part6_frame (k : Fin k1_t1_loop.trips) (x189 : Vec F S16 .i32) (x195 : Vec F S16 .i32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v413 : IVec S16 32) (v414 : IVec S16 32), k1_chk58 (k1_pay7 laneV 0#32 1#32 k) v414) → Prog (TpuEff nD τ sig (Elt F) Λ₀ (.scVector (cV L) (jV L))) α) (Q : α → sProp 𝕄)
    (hk : ∀ (h58 : k1_chk58 (k1_pay7 laneV 0#32 1#32 k) (addi (k1_pay11 k1_pay164 x189) (k1_pay52 k1_pay164))), heldG (F := F) d L g0 g1 g4 g5 ⊢ wp frame (wpE (defs₀ (F := F)) 𝒱₀ (V d (cV L) (jV L)) none) Set.univ (kk ⟨k1_pay52 k1_pay164, (addi (k1_pay11 k1_pay164 x189) (k1_pay52 k1_pay164)), h58⟩) Q) :
    heldG (F := F) d L g0 g1 g4 g5
      ⊢ wp frame (wpE (defs₀ (F := F)) 𝒱₀ (V d (cV L) (jV L)) none) Set.univ
          (k1_part6 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) >>= kk) Q := by
  have hg := iv_lt k
  rw [k1_part6_eq_skeleton]; unfold k1_part6_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 7 of a trip, owed its continuation at whatever it loads. -/
theorem part7_frame (k : Fin k1_t1_loop.trips) (x189 : Vec F S16 .i32) (x195 : Vec F S16 .i32) (h58 : k1_chk58 (k1_pay7 laneV 0#32 1#32 k) (addi (k1_pay11 k1_pay164 x189) (k1_pay52 k1_pay164)))
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (BitVec 32) → Prog (TpuEff nD τ sig (Elt F) Λ₀ (.scVector (cV L) (jV L))) α) (Q : α → sProp 𝕄)
    (hk : heldG (F := F) d L g0 g1 g4 g5 ⊢ wp frame (wpE (defs₀ (F := F)) 𝒱₀ (V d (cV L) (jV L)) none) Set.univ (kk 23#32) Q) :
    heldG (F := F) d L g0 g1 g4 g5
      ⊢ wp frame (wpE (defs₀ (F := F)) 𝒱₀ (V d (cV L) (jV L)) none) Set.univ
          (k1_part7 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay52 k1_pay164) (addi (k1_pay11 k1_pay164 x189) (k1_pay52 k1_pay164)) h58 >>= kk) Q := by
  have hg := iv_lt k
  rw [k1_part7_eq_skeleton]; unfold k1_part7_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 8 of a trip, owed its continuation at whatever it loads. -/
theorem part8_frame (k : Fin k1_t1_loop.trips) (x189 : Vec F S16 .i32) (x195 : Vec F S16 .i32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v490 : IVec S16 32), Vec F S16 .f32) → Prog (TpuEff nD τ sig (Elt F) Λ₀ (.scVector (cV L) (jV L))) α) (Q : α → sProp 𝕄)
    (hk : ∀ (x492 : Vec F S16 .f32), heldG (F := F) d L g0 g1 g4 g5 ⊢ wp frame (wpE (defs₀ (F := F)) 𝒱₀ (V d (cV L) (jV L)) none) Set.univ (kk ⟨k1_pay66 k1_pay164, x492⟩) Q) :
    heldG (F := F) d L g0 g1 g4 g5
      ⊢ wp frame (wpE (defs₀ (F := F)) 𝒱₀ (V d (cV L) (jV L)) none) Set.univ
          (k1_part8 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) 23#32 >>= kk) Q := by
  have hg := iv_lt k
  rw [k1_part8_eq_skeleton]; unfold k1_part8_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 9 of a trip, owed its continuation at whatever it loads. -/
theorem part9_frame (k : Fin k1_t1_loop.trips) (x189 : Vec F S16 .i32) (x195 : Vec F S16 .i32) (x492 : Vec F S16 .f32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (IVec S16 32) → Prog (TpuEff nD τ sig (Elt F) Λ₀ (.scVector (cV L) (jV L))) α) (Q : α → sProp 𝕄)
    (hk : heldG (F := F) d L g0 g1 g4 g5 ⊢ wp frame (wpE (defs₀ (F := F)) 𝒱₀ (V d (cV L) (jV L)) none) Set.univ (kk k1_pay74) Q) :
    heldG (F := F) d L g0 g1 g4 g5
      ⊢ wp frame (wpE (defs₀ (F := F)) 𝒱₀ (V d (cV L) (jV L)) none) Set.univ
          (k1_part9 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay66 k1_pay164) x492 >>= kk) Q := by
  have hg := iv_lt k
  rw [k1_part9_eq_skeleton]; unfold k1_part9_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 10 of a trip, owed its continuation at whatever it loads. -/
theorem part10_frame (k : Fin k1_t1_loop.trips) (x189 : Vec F S16 .i32) (x195 : Vec F S16 .i32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v567 : IVec S16 32) (v569 : Vec F S16 .f32), IVec S16 32) → Prog (TpuEff nD τ sig (Elt F) Λ₀ (.scVector (cV L) (jV L))) α) (Q : α → sProp 𝕄)
    (hk : ∀ (x569 : Vec F S16 .f32), heldG (F := F) d L g0 g1 g4 g5 ⊢ wp frame (wpE (defs₀ (F := F)) 𝒱₀ (V d (cV L) (jV L)) none) Set.univ (kk ⟨k1_pay81 k1_pay164, x569, k1_pay82 k1_pay164 (k1_pay12 k1_pay164 x195)⟩) Q) :
    heldG (F := F) d L g0 g1 g4 g5
      ⊢ wp frame (wpE (defs₀ (F := F)) 𝒱₀ (V d (cV L) (jV L)) none) Set.univ
          (k1_part10 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) k1_pay74 >>= kk) Q := by
  have hg := iv_lt k
  rw [k1_part10_eq_skeleton]; unfold k1_part10_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 11 of a trip, owed its continuation at whatever it loads. -/
theorem part11_frame (k : Fin k1_t1_loop.trips) (x189 : Vec F S16 .i32) (x195 : Vec F S16 .i32) (x569 : Vec F S16 .f32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (IVec S16 32) → Prog (TpuEff nD τ sig (Elt F) Λ₀ (.scVector (cV L) (jV L))) α) (Q : α → sProp 𝕄)
    (hk : heldG (F := F) d L g0 g1 g4 g5 ⊢ wp frame (wpE (defs₀ (F := F)) 𝒱₀ (V d (cV L) (jV L)) none) Set.univ (kk (k1_pay90 k1_pay164)) Q) :
    heldG (F := F) d L g0 g1 g4 g5
      ⊢ wp frame (wpE (defs₀ (F := F)) 𝒱₀ (V d (cV L) (jV L)) none) Set.univ
          (k1_part11 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay81 k1_pay164) x569 (k1_pay82 k1_pay164 (k1_pay12 k1_pay164 x195)) >>= kk) Q := by
  have hg := iv_lt k
  rw [k1_part11_eq_skeleton]; unfold k1_part11_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 12 of a trip, owed its continuation at whatever it loads. -/
theorem part12_frame (k : Fin k1_t1_loop.trips) (x189 : Vec F S16 .i32) (x195 : Vec F S16 .i32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v644 : IVec S16 32) (v646 : Vec F S16 .f32) (v647 : IVec S16 32), k1_chk122 (k1_pay7 laneV 0#32 1#32 k) v647) → Prog (TpuEff nD τ sig (Elt F) Λ₀ (.scVector (cV L) (jV L))) α) (Q : α → sProp 𝕄)
    (hk : ∀ (x646 : Vec F S16 .f32) (h122 : k1_chk122 (k1_pay7 laneV 0#32 1#32 k) (addi (k1_pay12 k1_pay164 x195) (k1_pay97 k1_pay164))), heldG (F := F) d L g0 g1 g4 g5 ⊢ wp frame (wpE (defs₀ (F := F)) 𝒱₀ (V d (cV L) (jV L)) none) Set.univ (kk ⟨k1_pay97 k1_pay164, x646, (addi (k1_pay12 k1_pay164 x195) (k1_pay97 k1_pay164)), h122⟩) Q) :
    heldG (F := F) d L g0 g1 g4 g5
      ⊢ wp frame (wpE (defs₀ (F := F)) 𝒱₀ (V d (cV L) (jV L)) none) Set.univ
          (k1_part12 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay90 k1_pay164) >>= kk) Q := by
  have hg := iv_lt k
  rw [k1_part12_eq_skeleton]; unfold k1_part12_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _ _)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 13 of a trip, owed its continuation at whatever it loads. -/
theorem part13_frame (k : Fin k1_t1_loop.trips) (x189 : Vec F S16 .i32) (x195 : Vec F S16 .i32) (x646 : Vec F S16 .f32) (h122 : k1_chk122 (k1_pay7 laneV 0#32 1#32 k) (addi (k1_pay12 k1_pay164 x195) (k1_pay97 k1_pay164)))
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v685 : IVec S16 32), BitVec 32) → Prog (TpuEff nD τ sig (Elt F) Λ₀ (.scVector (cV L) (jV L))) α) (Q : α → sProp 𝕄)
    (hk : heldG (F := F) d L g0 g1 g4 g5 ⊢ wp frame (wpE (defs₀ (F := F)) 𝒱₀ (V d (cV L) (jV L)) none) Set.univ (kk ⟨k1_pay105 k1_pay164, 63#32⟩) Q) :
    heldG (F := F) d L g0 g1 g4 g5
      ⊢ wp frame (wpE (defs₀ (F := F)) 𝒱₀ (V d (cV L) (jV L)) none) Set.univ
          (k1_part13 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay97 k1_pay164) x646 (addi (k1_pay12 k1_pay164 x195) (k1_pay97 k1_pay164)) h122 >>= kk) Q := by
  have hg := iv_lt k
  rw [k1_part13_eq_skeleton]; unfold k1_part13_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 14 of a trip, owed its continuation at whatever it loads. -/
theorem part14_frame (k : Fin k1_t1_loop.trips) (x189 : Vec F S16 .i32) (x195 : Vec F S16 .i32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v721 : IVec S16 32) (v723 : Vec F S16 .f32), Vec F S16 .f32) → Prog (TpuEff nD τ sig (Elt F) Λ₀ (.scVector (cV L) (jV L))) α) (Q : α → sProp 𝕄)
    (hk : ∀ (x723 : Vec F S16 .f32) (x725 : Vec F S16 .f32), heldG (F := F) d L g0 g1 g4 g5 ⊢ wp frame (wpE (defs₀ (F := F)) 𝒱₀ (V d (cV L) (jV L)) none) Set.univ (kk ⟨k1_pay112 k1_pay164, x723, x725⟩) Q) :
    heldG (F := F) d L g0 g1 g4 g5
      ⊢ wp frame (wpE (defs₀ (F := F)) 𝒱₀ (V d (cV L) (jV L)) none) Set.univ
          (k1_part14 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay105 k1_pay164) 63#32 >>= kk) Q := by
  have hg := iv_lt k
  rw [k1_part14_eq_skeleton]; unfold k1_part14_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _ _)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 15 of a trip, owed its continuation at whatever it loads. -/
theorem part15_frame (k : Fin k1_t1_loop.trips) (x189 : Vec F S16 .i32) (x195 : Vec F S16 .i32) (x723 : Vec F S16 .f32) (x725 : Vec F S16 .f32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v762 : IVec S16 32), IVec S16 32) → Prog (TpuEff nD τ sig (Elt F) Λ₀ (.scVector (cV L) (jV L))) α) (Q : α → sProp 𝕄)
    (hk : heldG (F := F) d L g0 g1 g4 g5 ⊢ wp frame (wpE (defs₀ (F := F)) 𝒱₀ (V d (cV L) (jV L)) none) Set.univ (kk ⟨k1_pay120 k1_pay164, k1_pay121⟩) Q) :
    heldG (F := F) d L g0 g1 g4 g5
      ⊢ wp frame (wpE (defs₀ (F := F)) 𝒱₀ (V d (cV L) (jV L)) none) Set.univ
          (k1_part15 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay112 k1_pay164) x723 x725 >>= kk) Q := by
  have hg := iv_lt k
  rw [k1_part15_eq_skeleton]; unfold k1_part15_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 16 of a trip, owed its continuation at whatever it loads. -/
theorem part16_frame (k : Fin k1_t1_loop.trips) (x189 : Vec F S16 .i32) (x195 : Vec F S16 .i32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v800 : Vec F S16 .f32) (v802 : Vec F S16 .f32), IVec S16 32) → Prog (TpuEff nD τ sig (Elt F) Λ₀ (.scVector (cV L) (jV L))) α) (Q : α → sProp 𝕄)
    (hk : ∀ (x800 : Vec F S16 .f32) (x802 : Vec F S16 .f32), heldG (F := F) d L g0 g1 g4 g5 ⊢ wp frame (wpE (defs₀ (F := F)) 𝒱₀ (V d (cV L) (jV L)) none) Set.univ (kk ⟨x800, x802, k1_pay129 k1_pay164 (k1_pay1 laneV k1_pay164 k1_pay165)⟩) Q) :
    heldG (F := F) d L g0 g1 g4 g5
      ⊢ wp frame (wpE (defs₀ (F := F)) 𝒱₀ (V d (cV L) (jV L)) none) Set.univ
          (k1_part16 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay120 k1_pay164) k1_pay121 >>= kk) Q := by
  have hg := iv_lt k
  rw [k1_part16_eq_skeleton]; unfold k1_part16_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _ _)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 17 of a trip, owed its continuation at whatever it loads. -/
theorem part17_frame (k : Fin k1_t1_loop.trips) (x189 : Vec F S16 .i32) (x195 : Vec F S16 .i32) (x800 : Vec F S16 .f32) (x802 : Vec F S16 .f32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (IVec S16 32) → Prog (TpuEff nD τ sig (Elt F) Λ₀ (.scVector (cV L) (jV L))) α) (Q : α → sProp 𝕄)
    (hk : heldG (F := F) d L g0 g1 g4 g5 ⊢ wp frame (wpE (defs₀ (F := F)) 𝒱₀ (V d (cV L) (jV L)) none) Set.univ (kk (k1_pay137 k1_pay164)) Q) :
    heldG (F := F) d L g0 g1 g4 g5
      ⊢ wp frame (wpE (defs₀ (F := F)) 𝒱₀ (V d (cV L) (jV L)) none) Set.univ
          (k1_part17 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) x800 x802 (k1_pay129 k1_pay164 (k1_pay1 laneV k1_pay164 k1_pay165)) >>= kk) Q := by
  have hg := iv_lt k
  rw [k1_part17_eq_skeleton]; unfold k1_part17_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk)
  unfold heldG
  isplitl [H0]; · iexact H0
  isplitl [H1]; · iexact H1
  isplitl [H4]; · iexact H4
  isplitl [H5]; · iexact H5
  iexists _; iexact H6

set_option maxHeartbeats 2000000 in
set_option maxRecDepth 65536 in
/-- Part 18 of a trip, owed its continuation at whatever it loads. -/
theorem part18_frame (k : Fin k1_t1_loop.trips) (x189 : Vec F S16 .i32) (x195 : Vec F S16 .i32)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L))))
    {α : Type} (kk : (Σ' (v877 : Vec F S16 .f32) (v879 : Vec F S16 .f32) (v880 : IVec S16 32), k1_chk186 (k1_pay8 (k1_pay7 laneV 0#32 1#32 k)) v880) → Prog (TpuEff nD τ sig (Elt F) Λ₀ (.scVector (cV L) (jV L))) α) (Q : α → sProp 𝕄)
    (hk : ∀ (x877 : Vec F S16 .f32) (x879 : Vec F S16 .f32) (h186 : k1_chk186 (k1_pay8 (k1_pay7 laneV 0#32 1#32 k)) (addi (k1_pay1 laneV k1_pay164 k1_pay165) (k1_pay144 k1_pay164))), heldG (F := F) d L g0 g1 g4 g5 ⊢ wp frame (wpE (defs₀ (F := F)) 𝒱₀ (V d (cV L) (jV L)) none) Set.univ (kk ⟨x877, x879, (addi (k1_pay1 laneV k1_pay164 k1_pay165) (k1_pay144 k1_pay164)), h186⟩) Q) :
    heldG (F := F) d L g0 g1 g4 g5
      ⊢ wp frame (wpE (defs₀ (F := F)) 𝒱₀ (V d (cV L) (jV L)) none) Set.univ
          (k1_part18 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 x189) (k1_pay12 k1_pay164 x195) (k1_pay137 k1_pay164) >>= kk) Q := by
  have hg := iv_lt k
  rw [k1_part18_eq_skeleton]; unfold k1_part18_skel
  simp only [SparseCore.vectorLoadIdx_bind (c := (V d (cV L) (jV L))), SparseCore.vectorStoreIdx_bind (c := (V d (cV L) (jV L)))]
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  iapply (hk _ _ _)
  unfold heldG
  isplitl [H0]; · iexact H0
  isplitl [H1]; · iexact H1
  isplitl [H4]; · iexact H4
  isplitl [H5]; · iexact H5
  iexists _; iexact H6

end Cert.KernelIdeal.TileGParts

end
-- ==== Proof.TileGPartsV.lean ====
/-
  THE PARTS OF ONE TRIP of the first SparseCore kernel's loop, WITH THE DIFFERENCE BLOCK NAMED. A skewed step loads, lane
  by lane, the gathered positive rows' entry and the gathered negative rows' entry at the group's rows and the step's
  columns (the half each raw index word selects plus the lane's skewed column), and stores their difference into the packed
  difference block at the group's half-rows and the lane's parity half: one indexed store with every lane on. The steps of
  a trip come in order, step `n` at the constant `n`, so a part that performs steps `a … b - 1` takes the block after the
  first `a` steps of a full turn of the trip's group to the block after the first `b`. The raw index words and the
  gathered rows are held at fixed contents; what a part loads for the next part's first store is passed on as the indexed
  load it is.
-/
import proofs.«203895_g52347061404180_cont_8to1_c_859_34_alg».proof.Proof.TileGDefs
import proofs.«203895_g52347061404180_cont_8to1_c_859_34_alg».proof.Proof.Gen.KernelIdeal.Skeleton
import proofs.«203895_g52347061404180_cont_8to1_c_859_34_alg».proof.Proof.LibSkewVec
import proofs.«203895_g52347061404180_cont_8to1_c_859_34_alg».proof.Proof.LibGValue
import proofs.«203895_g52347061404180_cont_8to1_c_859_34_alg».proof.Proof.TileGParts
import Idealize.ShloMosaic.Lib.Exec

noncomputable section

namespace Cert.KernelIdeal.TileGPartsV

open Cert.KernelIdeal Cert.KernelIdeal.Gen Cert.KernelIdeal.KCommon Cert.KernelIdeal.TileCommon Cert.KernelIdeal.TileG Cert.KernelIdeal.TileGParts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid1.Coords)
variable [FloatOps F]

/-! ## Whole-buffer loads and stores of the scratch buffers, normalised -/

/-- What the gathered positive rows' buffer reads, whole; the negative rows'; the difference block. -/
abbrev RP (g4 : Buf (Elt F) ((rowsPM).view.loc (V d (cV L) (jV L)))) : Vec F S128x128 .f32 :=
  (rowsPM).view.readAt (Elt F) (LoadRect.whole S128x128) g4
abbrev RN (g5 : Buf (Elt F) ((rowsNM).view.loc (V d (cV L) (jV L)))) : Vec F S128x128 .f32 :=
  (rowsNM).view.readAt (Elt F) (LoadRect.whole S128x128) g5

/-- A load of the whole difference block reads its contents. -/
theorem diff_readAt_whole (g : Vec F S64x128 .f32) :
    View.readAt (Elt F) (diffM).view (LoadRect.whole S64x128) g = g := by
  funext j
  rw [View.readAt_apply, LoadRect.idx_whole]
  rfl

/-- The difference block after a list of whole-block stores, the last first, holds the last store's payload. -/
theorem diff_writes_head (g : Vec F S64x128 .f32) (w : Vec F S64x128 .f32)
    (Ls : List (View.Piece (Elt F) S64x128 .f32)) :
    (diffM).view.writes (Elt F) g (⟨Rect.whole S64x128, w⟩ :: Ls) = w := by
  rw [← View.write_univ_eq_writes_whole]
  exact View.write_whole_univ cc1_scratch6 _ w

/-- A load of the whole difference block after such a list reads the last store's payload. -/
theorem diff_readCov_head (w : Vec F S64x128 .f32) (Ls : List (View.Piece (Elt F) S64x128 .f32)) :
    (diffM).view.readCov (⟨Rect.whole S64x128, w⟩ :: Ls) (LoadRect.whole S64x128) = w := by
  unfold View.readCov
  rw [diff_writes_head, diff_readAt_whole]

/-- The trip's group number as a word. -/
abbrev grp (k : Fin k1_t1_loop.trips) : BitVec 32 := Scf.iv (0#32 : BitVec 32) 1#32 k.val

/-- The group's sixteen raw index words of each sign, as the trip loads them. -/
abbrev rawPk (k : Fin k1_t1_loop.trips) (g0 : Buf (Elt F) ((rawPM).view.loc (V d (cV L) (jV L)))) : Vec F S16 .i32 :=
  (rawPM).view.readAt (Elt F) (Rect.unit (s := S128) (k1_off2 k) S16.size (k1_off2_inb k)).toLoadRect g0
abbrev rawNk (k : Fin k1_t1_loop.trips) (g1 : Buf (Elt F) ((rawNM).view.loc (V d (cV L) (jV L)))) : Vec F S16 .i32 :=
  (rawNM).view.readAt (Elt F) (Rect.unit (s := S128) (k1_off2 k) S16.size (k1_off2_inb k)).toLoadRect g1

/-- The vector the trip stores at a step: the negative rows' entries minus the positive rows'. -/
abbrev vsk (k : Fin k1_t1_loop.trips) (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) : ℕ → Vec F S16 .f32 :=
  Cert.LibGValue.diffVec iota_S16_d0_w32_scVector (grp k) (iv_lt k) (rawPk (F := F) d L k g0) (rawNk (F := F) d L k g1) (RP (F := F) d L g4) (RN (F := F) d L g5)

/-- The difference block after the first `n` steps of the trip, from `D0`. -/
abbrev Dn (k : Fin k1_t1_loop.trips) (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32) (n : ℕ) : Vec F S64x128 .f32 :=
  Cert.LibIdxOps.turn iota_S16_d0_w32_scVector (grp k) (iv_lt k) (vsk (F := F) d L k g0 g1 g4 g5) D0 n

/-- What a trip holds, the difference block at named contents. -/
def heldV (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D : Vec F S64x128 .f32) : sProp 𝕄 :=
  iprop(((rawPM).view.loc (V d (cV L) (jV L)) ↦{fullShare} g0)
    ∗ ((rawNM).view.loc (V d (cV L) (jV L)) ↦{fullShare} g1)
    ∗ ((rowsPM).view.loc (V d (cV L) (jV L)) ↦{fullShare} g4)
    ∗ ((rowsNM).view.loc (V d (cV L) (jV L)) ↦{fullShare} g5)
    ∗ ((diffM).view.loc (V d (cV L) (jV L)) ↦{fullShare} D))

set_option maxHeartbeats 4000000 in
set_option maxRecDepth 65536 in
/-- Part 1 of a trip with the difference block named: steps 0 to 0 stored. -/
theorem part1_val (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32)
    {α : Type} (kk : (Σ' (v183 : IVec S16 32) (v185 : IVec S16 32) (v193 : IVec S16 32) (v199 : IVec S16 32) (v217 : Vec F S16 .f32) (v219 : Vec F S16 .f32) (v220 : IVec S16 32), k1_chk6 v185 v220) → Prog (TpuEff nD τ sig (Elt F) Λ₀ (.scVector (cV L) (jV L))) α) (Q : α → sProp 𝕄)
    (hk : heldV (F := F) d L g0 g1 g4 g5 (Dn (F := F) d L k g0 g1 g4 g5 D0 1) ⊢ wp frame (wpE (defs₀ (F := F)) 𝒱₀ (V d (cV L) (jV L)) none) Set.univ (kk ⟨(k1_pay7 laneV 0#32 1#32 k), (k1_pay8 (k1_pay7 laneV 0#32 1#32 k)), k1_pay11 k1_pay164 (rawPk (F := F) d L k g0), k1_pay12 k1_pay164 (rawNk (F := F) d L k g1), (loadIdx (RP (F := F) d L g4) ![(k1_pay7 laneV 0#32 1#32 k), (addi (k1_pay11 k1_pay164 (rawPk (F := F) d L k g0)) (k1_pay15 k1_pay164))] (k1_idx4_inb (k1_pay7 laneV 0#32 1#32 k) (addi (k1_pay11 k1_pay164 (rawPk (F := F) d L k g0)) (k1_pay15 k1_pay164)) (Cert.LibSkewVec.chk_rows iota_S16_d0_w32_scVector (grp k) (rawPk (F := F) d L k g0) (BitVec.ofNat 32 1) (iv_lt k) (by decide)))), (loadIdx (RN (F := F) d L g5) ![(k1_pay7 laneV 0#32 1#32 k), (addi (k1_pay12 k1_pay164 (rawNk (F := F) d L k g1)) (k1_pay15 k1_pay164))] (k1_idx5_inb (k1_pay7 laneV 0#32 1#32 k) (addi (k1_pay12 k1_pay164 (rawNk (F := F) d L k g1)) (k1_pay15 k1_pay164)) (Cert.LibSkewVec.chk_rows iota_S16_d0_w32_scVector (grp k) (rawNk (F := F) d L k g1) (BitVec.ofNat 32 1) (iv_lt k) (by decide)))), (addi (k1_pay1 laneV k1_pay164 k1_pay165) (k1_pay15 k1_pay164)), (Cert.LibSkewVec.chk_grows iota_S16_d0_w32_scVector (grp k) (BitVec.ofNat 32 1) (iv_lt k) (by decide))⟩) Q) :
    heldV (F := F) d L g0 g1 g4 g5 (Dn (F := F) d L k g0 g1 g4 g5 D0 0)
      ⊢ wp frame (wpE (defs₀ (F := F)) 𝒱₀ (V d (cV L) (jV L)) none) Set.univ
          (k1_part1 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 laneV k1_pay164 (k1_pay1 laneV k1_pay164 k1_pay165) 0#32 1#32 k >>= kk) Q := by
  have hg := iv_lt k
  have e0 : (Dn (F := F) d L k g0 g1 g4 g5 D0 1) = storeIdx (Dn (F := F) d L k g0 g1 g4 g5 D0 0) ![Cert.LibSkewVec.grows iota_S16_d0_w32_scVector (grp k), Cert.LibSkewVec.gcol iota_S16_d0_w32_scVector (BitVec.ofNat 32 0)]
      (vsk (F := F) d L k g0 g1 g4 g5 0) (fun _ => 1#1) false (Cert.LibSkewVec.chk_grows iota_S16_d0_w32_scVector (grp k) (BitVec.ofNat 32 0) (iv_lt k) (by decide)) :=
    Cert.LibIdxOps.turn_succ iota_S16_d0_w32_scVector (grp k) (iv_lt k) (vsk (F := F) d L k g0 g1 g4 g5) D0 (n := 0) (by decide) _
  rw [e0] at hk
  rw [k1_part1_eq_skeleton]; unfold k1_part1_skel
  simp only [SparseCore.vectorLoadIdx_bind (c := (V d (cV L) (jV L))), SparseCore.vectorStoreIdx_bind (c := (V d (cV L) (jV L)))]
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_unfold_run_names
  repeat (first | rw [diff_writes_head] | rw [diff_readCov_head] | rw [diff_readAt_whole])
  iapply hk
  unfold heldV
  isplitl [H0]; · iexact H0
  isplitl [H1]; · iexact H1
  isplitl [H4]; · iexact H4
  isplitl [H5]; · iexact H5
  iexact H6

set_option maxHeartbeats 4000000 in
set_option maxRecDepth 65536 in
/-- Part 2 of a trip with the difference block named: steps 1 to 4 stored. -/
theorem part2_val (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32)
    {α : Type} (kk : (IVec S16 32) → Prog (TpuEff nD τ sig (Elt F) Λ₀ (.scVector (cV L) (jV L))) α) (Q : α → sProp 𝕄)
    (hk : heldV (F := F) d L g0 g1 g4 g5 (Dn (F := F) d L k g0 g1 g4 g5 D0 5) ⊢ wp frame (wpE (defs₀ (F := F)) 𝒱₀ (V d (cV L) (jV L)) none) Set.univ (kk (k1_pay23 k1_pay164)) Q) :
    heldV (F := F) d L g0 g1 g4 g5 (Dn (F := F) d L k g0 g1 g4 g5 D0 1)
      ⊢ wp frame (wpE (defs₀ (F := F)) 𝒱₀ (V d (cV L) (jV L)) none) Set.univ
          (k1_part2 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 (rawPk (F := F) d L k g0)) (k1_pay12 k1_pay164 (rawNk (F := F) d L k g1)) (loadIdx (RP (F := F) d L g4) ![(k1_pay7 laneV 0#32 1#32 k), (addi (k1_pay11 k1_pay164 (rawPk (F := F) d L k g0)) (k1_pay15 k1_pay164))] (k1_idx4_inb (k1_pay7 laneV 0#32 1#32 k) (addi (k1_pay11 k1_pay164 (rawPk (F := F) d L k g0)) (k1_pay15 k1_pay164)) (Cert.LibSkewVec.chk_rows iota_S16_d0_w32_scVector (grp k) (rawPk (F := F) d L k g0) (BitVec.ofNat 32 1) (iv_lt k) (by decide)))) (loadIdx (RN (F := F) d L g5) ![(k1_pay7 laneV 0#32 1#32 k), (addi (k1_pay12 k1_pay164 (rawNk (F := F) d L k g1)) (k1_pay15 k1_pay164))] (k1_idx5_inb (k1_pay7 laneV 0#32 1#32 k) (addi (k1_pay12 k1_pay164 (rawNk (F := F) d L k g1)) (k1_pay15 k1_pay164)) (Cert.LibSkewVec.chk_rows iota_S16_d0_w32_scVector (grp k) (rawNk (F := F) d L k g1) (BitVec.ofNat 32 1) (iv_lt k) (by decide)))) (addi (k1_pay1 laneV k1_pay164 k1_pay165) (k1_pay15 k1_pay164)) (Cert.LibSkewVec.chk_grows iota_S16_d0_w32_scVector (grp k) (BitVec.ofNat 32 1) (iv_lt k) (by decide)) >>= kk) Q := by
  have hg := iv_lt k
  have e4 : (Dn (F := F) d L k g0 g1 g4 g5 D0 5) = storeIdx (Dn (F := F) d L k g0 g1 g4 g5 D0 4) ![Cert.LibSkewVec.grows iota_S16_d0_w32_scVector (grp k), Cert.LibSkewVec.gcol iota_S16_d0_w32_scVector (BitVec.ofNat 32 4)]
      (vsk (F := F) d L k g0 g1 g4 g5 4) (fun _ => 1#1) false (Cert.LibSkewVec.chk_grows iota_S16_d0_w32_scVector (grp k) (BitVec.ofNat 32 4) (iv_lt k) (by decide)) :=
    Cert.LibIdxOps.turn_succ iota_S16_d0_w32_scVector (grp k) (iv_lt k) (vsk (F := F) d L k g0 g1 g4 g5) D0 (n := 4) (by decide) _
  have e3 : (Dn (F := F) d L k g0 g1 g4 g5 D0 4) = storeIdx (Dn (F := F) d L k g0 g1 g4 g5 D0 3) ![Cert.LibSkewVec.grows iota_S16_d0_w32_scVector (grp k), Cert.LibSkewVec.gcol iota_S16_d0_w32_scVector (BitVec.ofNat 32 3)]
      (vsk (F := F) d L k g0 g1 g4 g5 3) (fun _ => 1#1) false (Cert.LibSkewVec.chk_grows iota_S16_d0_w32_scVector (grp k) (BitVec.ofNat 32 3) (iv_lt k) (by decide)) :=
    Cert.LibIdxOps.turn_succ iota_S16_d0_w32_scVector (grp k) (iv_lt k) (vsk (F := F) d L k g0 g1 g4 g5) D0 (n := 3) (by decide) _
  have e2 : (Dn (F := F) d L k g0 g1 g4 g5 D0 3) = storeIdx (Dn (F := F) d L k g0 g1 g4 g5 D0 2) ![Cert.LibSkewVec.grows iota_S16_d0_w32_scVector (grp k), Cert.LibSkewVec.gcol iota_S16_d0_w32_scVector (BitVec.ofNat 32 2)]
      (vsk (F := F) d L k g0 g1 g4 g5 2) (fun _ => 1#1) false (Cert.LibSkewVec.chk_grows iota_S16_d0_w32_scVector (grp k) (BitVec.ofNat 32 2) (iv_lt k) (by decide)) :=
    Cert.LibIdxOps.turn_succ iota_S16_d0_w32_scVector (grp k) (iv_lt k) (vsk (F := F) d L k g0 g1 g4 g5) D0 (n := 2) (by decide) _
  have e1 : (Dn (F := F) d L k g0 g1 g4 g5 D0 2) = storeIdx (Dn (F := F) d L k g0 g1 g4 g5 D0 1) ![Cert.LibSkewVec.grows iota_S16_d0_w32_scVector (grp k), Cert.LibSkewVec.gcol iota_S16_d0_w32_scVector (BitVec.ofNat 32 1)]
      (vsk (F := F) d L k g0 g1 g4 g5 1) (fun _ => 1#1) false (Cert.LibSkewVec.chk_grows iota_S16_d0_w32_scVector (grp k) (BitVec.ofNat 32 1) (iv_lt k) (by decide)) :=
    Cert.LibIdxOps.turn_succ iota_S16_d0_w32_scVector (grp k) (iv_lt k) (vsk (F := F) d L k g0 g1 g4 g5) D0 (n := 1) (by decide) _
  rw [e4, e3, e2, e1] at hk
  rw [k1_part2_eq_skeleton]; unfold k1_part2_skel
  simp only [SparseCore.vectorLoadIdx_bind (c := (V d (cV L) (jV L))), SparseCore.vectorStoreIdx_bind (c := (V d (cV L) (jV L)))]
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_unfold_run_names
  repeat (first | rw [diff_writes_head] | rw [diff_readCov_head] | rw [diff_readAt_whole])
  iapply hk
  unfold heldV
  isplitl [H0]; · iexact H0
  isplitl [H1]; · iexact H1
  isplitl [H4]; · iexact H4
  isplitl [H5]; · iexact H5
  iexact H6

set_option maxHeartbeats 4000000 in
set_option maxRecDepth 65536 in
/-- Part 3 of a trip with the difference block named: steps 5 to 7 stored. -/
theorem part3_val (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32)
    {α : Type} (kk : (Σ' (v297 : IVec S16 32) (k1_hw27 : k1_chk27 (k1_pay8 (k1_pay7 laneV 0#32 1#32 k)) v297), FVec F S16 .f32) → Prog (TpuEff nD τ sig (Elt F) Λ₀ (.scVector (cV L) (jV L))) α) (Q : α → sProp 𝕄)
    (hk : heldV (F := F) d L g0 g1 g4 g5 (Dn (F := F) d L k g0 g1 g4 g5 D0 8) ⊢ wp frame (wpE (defs₀ (F := F)) 𝒱₀ (V d (cV L) (jV L)) none) Set.univ (kk ⟨(addi (k1_pay1 laneV k1_pay164 k1_pay165) (k1_pay29 k1_pay164)), (Cert.LibSkewVec.chk_grows iota_S16_d0_w32_scVector (grp k) (BitVec.ofNat 32 8) (iv_lt k) (by decide)), k1_pay30 (loadIdx (RP (F := F) d L g4) ![(k1_pay7 laneV 0#32 1#32 k), (addi (k1_pay11 k1_pay164 (rawPk (F := F) d L k g0)) (k1_pay29 k1_pay164))] (k1_idx25_inb (k1_pay7 laneV 0#32 1#32 k) (addi (k1_pay11 k1_pay164 (rawPk (F := F) d L k g0)) (k1_pay29 k1_pay164)) (Cert.LibSkewVec.chk_rows iota_S16_d0_w32_scVector (grp k) (rawPk (F := F) d L k g0) (BitVec.ofNat 32 8) (iv_lt k) (by decide)))) (loadIdx (RN (F := F) d L g5) ![(k1_pay7 laneV 0#32 1#32 k), (addi (k1_pay12 k1_pay164 (rawNk (F := F) d L k g1)) (k1_pay29 k1_pay164))] (k1_idx26_inb (k1_pay7 laneV 0#32 1#32 k) (addi (k1_pay12 k1_pay164 (rawNk (F := F) d L k g1)) (k1_pay29 k1_pay164)) (Cert.LibSkewVec.chk_rows iota_S16_d0_w32_scVector (grp k) (rawNk (F := F) d L k g1) (BitVec.ofNat 32 8) (iv_lt k) (by decide))))⟩) Q) :
    heldV (F := F) d L g0 g1 g4 g5 (Dn (F := F) d L k g0 g1 g4 g5 D0 5)
      ⊢ wp frame (wpE (defs₀ (F := F)) 𝒱₀ (V d (cV L) (jV L)) none) Set.univ
          (k1_part3 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 (rawPk (F := F) d L k g0)) (k1_pay12 k1_pay164 (rawNk (F := F) d L k g1)) (k1_pay23 k1_pay164) >>= kk) Q := by
  have hg := iv_lt k
  have e7 : (Dn (F := F) d L k g0 g1 g4 g5 D0 8) = storeIdx (Dn (F := F) d L k g0 g1 g4 g5 D0 7) ![Cert.LibSkewVec.grows iota_S16_d0_w32_scVector (grp k), Cert.LibSkewVec.gcol iota_S16_d0_w32_scVector (BitVec.ofNat 32 7)]
      (vsk (F := F) d L k g0 g1 g4 g5 7) (fun _ => 1#1) false (Cert.LibSkewVec.chk_grows iota_S16_d0_w32_scVector (grp k) (BitVec.ofNat 32 7) (iv_lt k) (by decide)) :=
    Cert.LibIdxOps.turn_succ iota_S16_d0_w32_scVector (grp k) (iv_lt k) (vsk (F := F) d L k g0 g1 g4 g5) D0 (n := 7) (by decide) _
  have e6 : (Dn (F := F) d L k g0 g1 g4 g5 D0 7) = storeIdx (Dn (F := F) d L k g0 g1 g4 g5 D0 6) ![Cert.LibSkewVec.grows iota_S16_d0_w32_scVector (grp k), Cert.LibSkewVec.gcol iota_S16_d0_w32_scVector (BitVec.ofNat 32 6)]
      (vsk (F := F) d L k g0 g1 g4 g5 6) (fun _ => 1#1) false (Cert.LibSkewVec.chk_grows iota_S16_d0_w32_scVector (grp k) (BitVec.ofNat 32 6) (iv_lt k) (by decide)) :=
    Cert.LibIdxOps.turn_succ iota_S16_d0_w32_scVector (grp k) (iv_lt k) (vsk (F := F) d L k g0 g1 g4 g5) D0 (n := 6) (by decide) _
  have e5 : (Dn (F := F) d L k g0 g1 g4 g5 D0 6) = storeIdx (Dn (F := F) d L k g0 g1 g4 g5 D0 5) ![Cert.LibSkewVec.grows iota_S16_d0_w32_scVector (grp k), Cert.LibSkewVec.gcol iota_S16_d0_w32_scVector (BitVec.ofNat 32 5)]
      (vsk (F := F) d L k g0 g1 g4 g5 5) (fun _ => 1#1) false (Cert.LibSkewVec.chk_grows iota_S16_d0_w32_scVector (grp k) (BitVec.ofNat 32 5) (iv_lt k) (by decide)) :=
    Cert.LibIdxOps.turn_succ iota_S16_d0_w32_scVector (grp k) (iv_lt k) (vsk (F := F) d L k g0 g1 g4 g5) D0 (n := 5) (by decide) _
  rw [e7, e6, e5] at hk
  rw [k1_part3_eq_skeleton]; unfold k1_part3_skel
  simp only [SparseCore.vectorLoadIdx_bind (c := (V d (cV L) (jV L))), SparseCore.vectorStoreIdx_bind (c := (V d (cV L) (jV L)))]
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_unfold_run_names
  repeat (first | rw [diff_writes_head] | rw [diff_readCov_head] | rw [diff_readAt_whole])
  iapply hk
  unfold heldV
  isplitl [H0]; · iexact H0
  isplitl [H1]; · iexact H1
  isplitl [H4]; · iexact H4
  isplitl [H5]; · iexact H5
  iexact H6

set_option maxHeartbeats 4000000 in
set_option maxRecDepth 65536 in
/-- Part 4 of a trip with the difference block named: steps 8 to 11 stored. -/
theorem part4_val (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32)
    {α : Type} (kk : (Σ' (v336 : IVec S16 32), IVec S16 32) → Prog (TpuEff nD τ sig (Elt F) Λ₀ (.scVector (cV L) (jV L))) α) (Q : α → sProp 𝕄)
    (hk : heldV (F := F) d L g0 g1 g4 g5 (Dn (F := F) d L k g0 g1 g4 g5 D0 12) ⊢ wp frame (wpE (defs₀ (F := F)) 𝒱₀ (V d (cV L) (jV L)) none) Set.univ (kk ⟨k1_pay37 k1_pay164, k1_pay38 k1_pay164 (k1_pay11 k1_pay164 (rawPk (F := F) d L k g0))⟩) Q) :
    heldV (F := F) d L g0 g1 g4 g5 (Dn (F := F) d L k g0 g1 g4 g5 D0 8)
      ⊢ wp frame (wpE (defs₀ (F := F)) 𝒱₀ (V d (cV L) (jV L)) none) Set.univ
          (k1_part4 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 (rawPk (F := F) d L k g0)) (k1_pay12 k1_pay164 (rawNk (F := F) d L k g1)) (addi (k1_pay1 laneV k1_pay164 k1_pay165) (k1_pay29 k1_pay164)) (Cert.LibSkewVec.chk_grows iota_S16_d0_w32_scVector (grp k) (BitVec.ofNat 32 8) (iv_lt k) (by decide)) (k1_pay30 (loadIdx (RP (F := F) d L g4) ![(k1_pay7 laneV 0#32 1#32 k), (addi (k1_pay11 k1_pay164 (rawPk (F := F) d L k g0)) (k1_pay29 k1_pay164))] (k1_idx25_inb (k1_pay7 laneV 0#32 1#32 k) (addi (k1_pay11 k1_pay164 (rawPk (F := F) d L k g0)) (k1_pay29 k1_pay164)) (Cert.LibSkewVec.chk_rows iota_S16_d0_w32_scVector (grp k) (rawPk (F := F) d L k g0) (BitVec.ofNat 32 8) (iv_lt k) (by decide)))) (loadIdx (RN (F := F) d L g5) ![(k1_pay7 laneV 0#32 1#32 k), (addi (k1_pay12 k1_pay164 (rawNk (F := F) d L k g1)) (k1_pay29 k1_pay164))] (k1_idx26_inb (k1_pay7 laneV 0#32 1#32 k) (addi (k1_pay12 k1_pay164 (rawNk (F := F) d L k g1)) (k1_pay29 k1_pay164)) (Cert.LibSkewVec.chk_rows iota_S16_d0_w32_scVector (grp k) (rawNk (F := F) d L k g1) (BitVec.ofNat 32 8) (iv_lt k) (by decide))))) >>= kk) Q := by
  have hg := iv_lt k
  have e11 : (Dn (F := F) d L k g0 g1 g4 g5 D0 12) = storeIdx (Dn (F := F) d L k g0 g1 g4 g5 D0 11) ![Cert.LibSkewVec.grows iota_S16_d0_w32_scVector (grp k), Cert.LibSkewVec.gcol iota_S16_d0_w32_scVector (BitVec.ofNat 32 11)]
      (vsk (F := F) d L k g0 g1 g4 g5 11) (fun _ => 1#1) false (Cert.LibSkewVec.chk_grows iota_S16_d0_w32_scVector (grp k) (BitVec.ofNat 32 11) (iv_lt k) (by decide)) :=
    Cert.LibIdxOps.turn_succ iota_S16_d0_w32_scVector (grp k) (iv_lt k) (vsk (F := F) d L k g0 g1 g4 g5) D0 (n := 11) (by decide) _
  have e10 : (Dn (F := F) d L k g0 g1 g4 g5 D0 11) = storeIdx (Dn (F := F) d L k g0 g1 g4 g5 D0 10) ![Cert.LibSkewVec.grows iota_S16_d0_w32_scVector (grp k), Cert.LibSkewVec.gcol iota_S16_d0_w32_scVector (BitVec.ofNat 32 10)]
      (vsk (F := F) d L k g0 g1 g4 g5 10) (fun _ => 1#1) false (Cert.LibSkewVec.chk_grows iota_S16_d0_w32_scVector (grp k) (BitVec.ofNat 32 10) (iv_lt k) (by decide)) :=
    Cert.LibIdxOps.turn_succ iota_S16_d0_w32_scVector (grp k) (iv_lt k) (vsk (F := F) d L k g0 g1 g4 g5) D0 (n := 10) (by decide) _
  have e9 : (Dn (F := F) d L k g0 g1 g4 g5 D0 10) = storeIdx (Dn (F := F) d L k g0 g1 g4 g5 D0 9) ![Cert.LibSkewVec.grows iota_S16_d0_w32_scVector (grp k), Cert.LibSkewVec.gcol iota_S16_d0_w32_scVector (BitVec.ofNat 32 9)]
      (vsk (F := F) d L k g0 g1 g4 g5 9) (fun _ => 1#1) false (Cert.LibSkewVec.chk_grows iota_S16_d0_w32_scVector (grp k) (BitVec.ofNat 32 9) (iv_lt k) (by decide)) :=
    Cert.LibIdxOps.turn_succ iota_S16_d0_w32_scVector (grp k) (iv_lt k) (vsk (F := F) d L k g0 g1 g4 g5) D0 (n := 9) (by decide) _
  have e8 : (Dn (F := F) d L k g0 g1 g4 g5 D0 9) = storeIdx (Dn (F := F) d L k g0 g1 g4 g5 D0 8) ![Cert.LibSkewVec.grows iota_S16_d0_w32_scVector (grp k), Cert.LibSkewVec.gcol iota_S16_d0_w32_scVector (BitVec.ofNat 32 8)]
      (vsk (F := F) d L k g0 g1 g4 g5 8) (fun _ => 1#1) false (Cert.LibSkewVec.chk_grows iota_S16_d0_w32_scVector (grp k) (BitVec.ofNat 32 8) (iv_lt k) (by decide)) :=
    Cert.LibIdxOps.turn_succ iota_S16_d0_w32_scVector (grp k) (iv_lt k) (vsk (F := F) d L k g0 g1 g4 g5) D0 (n := 8) (by decide) _
  rw [e11, e10, e9, e8] at hk
  rw [k1_part4_eq_skeleton]; unfold k1_part4_skel
  simp only [SparseCore.vectorLoadIdx_bind (c := (V d (cV L) (jV L))), SparseCore.vectorStoreIdx_bind (c := (V d (cV L) (jV L)))]
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_unfold_run_names
  repeat (first | rw [diff_writes_head] | rw [diff_readCov_head] | rw [diff_readAt_whole])
  iapply hk
  unfold heldV
  isplitl [H0]; · iexact H0
  isplitl [H1]; · iexact H1
  isplitl [H4]; · iexact H4
  isplitl [H5]; · iexact H5
  iexact H6

set_option maxHeartbeats 4000000 in
set_option maxRecDepth 65536 in
/-- Part 5 of a trip with the difference block named: steps 12 to 15 stored. -/
theorem part5_val (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32)
    {α : Type} (kk : (PUnit) → Prog (TpuEff nD τ sig (Elt F) Λ₀ (.scVector (cV L) (jV L))) α) (Q : α → sProp 𝕄)
    (hk : heldV (F := F) d L g0 g1 g4 g5 (Dn (F := F) d L k g0 g1 g4 g5 D0 16) ⊢ wp frame (wpE (defs₀ (F := F)) 𝒱₀ (V d (cV L) (jV L)) none) Set.univ (kk ⟨⟩) Q) :
    heldV (F := F) d L g0 g1 g4 g5 (Dn (F := F) d L k g0 g1 g4 g5 D0 12)
      ⊢ wp frame (wpE (defs₀ (F := F)) 𝒱₀ (V d (cV L) (jV L)) none) Set.univ
          (k1_part5 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 (rawPk (F := F) d L k g0)) (k1_pay12 k1_pay164 (rawNk (F := F) d L k g1)) (k1_pay37 k1_pay164) (k1_pay38 k1_pay164 (k1_pay11 k1_pay164 (rawPk (F := F) d L k g0))) >>= kk) Q := by
  have hg := iv_lt k
  have e15 : (Dn (F := F) d L k g0 g1 g4 g5 D0 16) = storeIdx (Dn (F := F) d L k g0 g1 g4 g5 D0 15) ![Cert.LibSkewVec.grows iota_S16_d0_w32_scVector (grp k), Cert.LibSkewVec.gcol iota_S16_d0_w32_scVector (BitVec.ofNat 32 15)]
      (vsk (F := F) d L k g0 g1 g4 g5 15) (fun _ => 1#1) false (Cert.LibSkewVec.chk_grows iota_S16_d0_w32_scVector (grp k) (BitVec.ofNat 32 15) (iv_lt k) (by decide)) :=
    Cert.LibIdxOps.turn_succ iota_S16_d0_w32_scVector (grp k) (iv_lt k) (vsk (F := F) d L k g0 g1 g4 g5) D0 (n := 15) (by decide) _
  have e14 : (Dn (F := F) d L k g0 g1 g4 g5 D0 15) = storeIdx (Dn (F := F) d L k g0 g1 g4 g5 D0 14) ![Cert.LibSkewVec.grows iota_S16_d0_w32_scVector (grp k), Cert.LibSkewVec.gcol iota_S16_d0_w32_scVector (BitVec.ofNat 32 14)]
      (vsk (F := F) d L k g0 g1 g4 g5 14) (fun _ => 1#1) false (Cert.LibSkewVec.chk_grows iota_S16_d0_w32_scVector (grp k) (BitVec.ofNat 32 14) (iv_lt k) (by decide)) :=
    Cert.LibIdxOps.turn_succ iota_S16_d0_w32_scVector (grp k) (iv_lt k) (vsk (F := F) d L k g0 g1 g4 g5) D0 (n := 14) (by decide) _
  have e13 : (Dn (F := F) d L k g0 g1 g4 g5 D0 14) = storeIdx (Dn (F := F) d L k g0 g1 g4 g5 D0 13) ![Cert.LibSkewVec.grows iota_S16_d0_w32_scVector (grp k), Cert.LibSkewVec.gcol iota_S16_d0_w32_scVector (BitVec.ofNat 32 13)]
      (vsk (F := F) d L k g0 g1 g4 g5 13) (fun _ => 1#1) false (Cert.LibSkewVec.chk_grows iota_S16_d0_w32_scVector (grp k) (BitVec.ofNat 32 13) (iv_lt k) (by decide)) :=
    Cert.LibIdxOps.turn_succ iota_S16_d0_w32_scVector (grp k) (iv_lt k) (vsk (F := F) d L k g0 g1 g4 g5) D0 (n := 13) (by decide) _
  have e12 : (Dn (F := F) d L k g0 g1 g4 g5 D0 13) = storeIdx (Dn (F := F) d L k g0 g1 g4 g5 D0 12) ![Cert.LibSkewVec.grows iota_S16_d0_w32_scVector (grp k), Cert.LibSkewVec.gcol iota_S16_d0_w32_scVector (BitVec.ofNat 32 12)]
      (vsk (F := F) d L k g0 g1 g4 g5 12) (fun _ => 1#1) false (Cert.LibSkewVec.chk_grows iota_S16_d0_w32_scVector (grp k) (BitVec.ofNat 32 12) (iv_lt k) (by decide)) :=
    Cert.LibIdxOps.turn_succ iota_S16_d0_w32_scVector (grp k) (iv_lt k) (vsk (F := F) d L k g0 g1 g4 g5) D0 (n := 12) (by decide) _
  rw [e15, e14, e13, e12] at hk
  rw [k1_part5_eq_skeleton]; unfold k1_part5_skel
  simp only [SparseCore.vectorLoadIdx_bind (c := (V d (cV L) (jV L))), SparseCore.vectorStoreIdx_bind (c := (V d (cV L) (jV L)))]
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_unfold_run_names
  repeat (first | rw [diff_writes_head] | rw [diff_readCov_head] | rw [diff_readAt_whole])
  iapply hk
  unfold heldV
  isplitl [H0]; · iexact H0
  isplitl [H1]; · iexact H1
  isplitl [H4]; · iexact H4
  isplitl [H5]; · iexact H5
  iexact H6

set_option maxHeartbeats 4000000 in
set_option maxRecDepth 65536 in
/-- Part 6 of a trip with the difference block named: steps 16 to 18 stored. -/
theorem part6_val (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32)
    {α : Type} (kk : (Σ' (v413 : IVec S16 32) (v414 : IVec S16 32), k1_chk58 (k1_pay7 laneV 0#32 1#32 k) v414) → Prog (TpuEff nD τ sig (Elt F) Λ₀ (.scVector (cV L) (jV L))) α) (Q : α → sProp 𝕄)
    (hk : heldV (F := F) d L g0 g1 g4 g5 (Dn (F := F) d L k g0 g1 g4 g5 D0 19) ⊢ wp frame (wpE (defs₀ (F := F)) 𝒱₀ (V d (cV L) (jV L)) none) Set.univ (kk ⟨k1_pay52 k1_pay164, (addi (k1_pay11 k1_pay164 (rawPk (F := F) d L k g0)) (k1_pay52 k1_pay164)), (Cert.LibSkewVec.chk_rows iota_S16_d0_w32_scVector (grp k) (rawPk (F := F) d L k g0) (BitVec.ofNat 32 19) (iv_lt k) (by decide))⟩) Q) :
    heldV (F := F) d L g0 g1 g4 g5 (Dn (F := F) d L k g0 g1 g4 g5 D0 16)
      ⊢ wp frame (wpE (defs₀ (F := F)) 𝒱₀ (V d (cV L) (jV L)) none) Set.univ
          (k1_part6 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 (rawPk (F := F) d L k g0)) (k1_pay12 k1_pay164 (rawNk (F := F) d L k g1)) >>= kk) Q := by
  have hg := iv_lt k
  have e18 : (Dn (F := F) d L k g0 g1 g4 g5 D0 19) = storeIdx (Dn (F := F) d L k g0 g1 g4 g5 D0 18) ![Cert.LibSkewVec.grows iota_S16_d0_w32_scVector (grp k), Cert.LibSkewVec.gcol iota_S16_d0_w32_scVector (BitVec.ofNat 32 18)]
      (vsk (F := F) d L k g0 g1 g4 g5 18) (fun _ => 1#1) false (Cert.LibSkewVec.chk_grows iota_S16_d0_w32_scVector (grp k) (BitVec.ofNat 32 18) (iv_lt k) (by decide)) :=
    Cert.LibIdxOps.turn_succ iota_S16_d0_w32_scVector (grp k) (iv_lt k) (vsk (F := F) d L k g0 g1 g4 g5) D0 (n := 18) (by decide) _
  have e17 : (Dn (F := F) d L k g0 g1 g4 g5 D0 18) = storeIdx (Dn (F := F) d L k g0 g1 g4 g5 D0 17) ![Cert.LibSkewVec.grows iota_S16_d0_w32_scVector (grp k), Cert.LibSkewVec.gcol iota_S16_d0_w32_scVector (BitVec.ofNat 32 17)]
      (vsk (F := F) d L k g0 g1 g4 g5 17) (fun _ => 1#1) false (Cert.LibSkewVec.chk_grows iota_S16_d0_w32_scVector (grp k) (BitVec.ofNat 32 17) (iv_lt k) (by decide)) :=
    Cert.LibIdxOps.turn_succ iota_S16_d0_w32_scVector (grp k) (iv_lt k) (vsk (F := F) d L k g0 g1 g4 g5) D0 (n := 17) (by decide) _
  have e16 : (Dn (F := F) d L k g0 g1 g4 g5 D0 17) = storeIdx (Dn (F := F) d L k g0 g1 g4 g5 D0 16) ![Cert.LibSkewVec.grows iota_S16_d0_w32_scVector (grp k), Cert.LibSkewVec.gcol iota_S16_d0_w32_scVector (BitVec.ofNat 32 16)]
      (vsk (F := F) d L k g0 g1 g4 g5 16) (fun _ => 1#1) false (Cert.LibSkewVec.chk_grows iota_S16_d0_w32_scVector (grp k) (BitVec.ofNat 32 16) (iv_lt k) (by decide)) :=
    Cert.LibIdxOps.turn_succ iota_S16_d0_w32_scVector (grp k) (iv_lt k) (vsk (F := F) d L k g0 g1 g4 g5) D0 (n := 16) (by decide) _
  rw [e18, e17, e16] at hk
  rw [k1_part6_eq_skeleton]; unfold k1_part6_skel
  simp only [SparseCore.vectorLoadIdx_bind (c := (V d (cV L) (jV L))), SparseCore.vectorStoreIdx_bind (c := (V d (cV L) (jV L)))]
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_unfold_run_names
  repeat (first | rw [diff_writes_head] | rw [diff_readCov_head] | rw [diff_readAt_whole])
  iapply hk
  unfold heldV
  isplitl [H0]; · iexact H0
  isplitl [H1]; · iexact H1
  isplitl [H4]; · iexact H4
  isplitl [H5]; · iexact H5
  iexact H6

set_option maxHeartbeats 4000000 in
set_option maxRecDepth 65536 in
/-- Part 7 of a trip with the difference block named: steps 19 to 22 stored. -/
theorem part7_val (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32)
    {α : Type} (kk : (BitVec 32) → Prog (TpuEff nD τ sig (Elt F) Λ₀ (.scVector (cV L) (jV L))) α) (Q : α → sProp 𝕄)
    (hk : heldV (F := F) d L g0 g1 g4 g5 (Dn (F := F) d L k g0 g1 g4 g5 D0 23) ⊢ wp frame (wpE (defs₀ (F := F)) 𝒱₀ (V d (cV L) (jV L)) none) Set.univ (kk 23#32) Q) :
    heldV (F := F) d L g0 g1 g4 g5 (Dn (F := F) d L k g0 g1 g4 g5 D0 19)
      ⊢ wp frame (wpE (defs₀ (F := F)) 𝒱₀ (V d (cV L) (jV L)) none) Set.univ
          (k1_part7 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 (rawPk (F := F) d L k g0)) (k1_pay12 k1_pay164 (rawNk (F := F) d L k g1)) (k1_pay52 k1_pay164) (addi (k1_pay11 k1_pay164 (rawPk (F := F) d L k g0)) (k1_pay52 k1_pay164)) (Cert.LibSkewVec.chk_rows iota_S16_d0_w32_scVector (grp k) (rawPk (F := F) d L k g0) (BitVec.ofNat 32 19) (iv_lt k) (by decide)) >>= kk) Q := by
  have hg := iv_lt k
  have e22 : (Dn (F := F) d L k g0 g1 g4 g5 D0 23) = storeIdx (Dn (F := F) d L k g0 g1 g4 g5 D0 22) ![Cert.LibSkewVec.grows iota_S16_d0_w32_scVector (grp k), Cert.LibSkewVec.gcol iota_S16_d0_w32_scVector (BitVec.ofNat 32 22)]
      (vsk (F := F) d L k g0 g1 g4 g5 22) (fun _ => 1#1) false (Cert.LibSkewVec.chk_grows iota_S16_d0_w32_scVector (grp k) (BitVec.ofNat 32 22) (iv_lt k) (by decide)) :=
    Cert.LibIdxOps.turn_succ iota_S16_d0_w32_scVector (grp k) (iv_lt k) (vsk (F := F) d L k g0 g1 g4 g5) D0 (n := 22) (by decide) _
  have e21 : (Dn (F := F) d L k g0 g1 g4 g5 D0 22) = storeIdx (Dn (F := F) d L k g0 g1 g4 g5 D0 21) ![Cert.LibSkewVec.grows iota_S16_d0_w32_scVector (grp k), Cert.LibSkewVec.gcol iota_S16_d0_w32_scVector (BitVec.ofNat 32 21)]
      (vsk (F := F) d L k g0 g1 g4 g5 21) (fun _ => 1#1) false (Cert.LibSkewVec.chk_grows iota_S16_d0_w32_scVector (grp k) (BitVec.ofNat 32 21) (iv_lt k) (by decide)) :=
    Cert.LibIdxOps.turn_succ iota_S16_d0_w32_scVector (grp k) (iv_lt k) (vsk (F := F) d L k g0 g1 g4 g5) D0 (n := 21) (by decide) _
  have e20 : (Dn (F := F) d L k g0 g1 g4 g5 D0 21) = storeIdx (Dn (F := F) d L k g0 g1 g4 g5 D0 20) ![Cert.LibSkewVec.grows iota_S16_d0_w32_scVector (grp k), Cert.LibSkewVec.gcol iota_S16_d0_w32_scVector (BitVec.ofNat 32 20)]
      (vsk (F := F) d L k g0 g1 g4 g5 20) (fun _ => 1#1) false (Cert.LibSkewVec.chk_grows iota_S16_d0_w32_scVector (grp k) (BitVec.ofNat 32 20) (iv_lt k) (by decide)) :=
    Cert.LibIdxOps.turn_succ iota_S16_d0_w32_scVector (grp k) (iv_lt k) (vsk (F := F) d L k g0 g1 g4 g5) D0 (n := 20) (by decide) _
  have e19 : (Dn (F := F) d L k g0 g1 g4 g5 D0 20) = storeIdx (Dn (F := F) d L k g0 g1 g4 g5 D0 19) ![Cert.LibSkewVec.grows iota_S16_d0_w32_scVector (grp k), Cert.LibSkewVec.gcol iota_S16_d0_w32_scVector (BitVec.ofNat 32 19)]
      (vsk (F := F) d L k g0 g1 g4 g5 19) (fun _ => 1#1) false (Cert.LibSkewVec.chk_grows iota_S16_d0_w32_scVector (grp k) (BitVec.ofNat 32 19) (iv_lt k) (by decide)) :=
    Cert.LibIdxOps.turn_succ iota_S16_d0_w32_scVector (grp k) (iv_lt k) (vsk (F := F) d L k g0 g1 g4 g5) D0 (n := 19) (by decide) _
  rw [e22, e21, e20, e19] at hk
  rw [k1_part7_eq_skeleton]; unfold k1_part7_skel
  simp only [SparseCore.vectorLoadIdx_bind (c := (V d (cV L) (jV L))), SparseCore.vectorStoreIdx_bind (c := (V d (cV L) (jV L)))]
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_unfold_run_names
  repeat (first | rw [diff_writes_head] | rw [diff_readCov_head] | rw [diff_readAt_whole])
  iapply hk
  unfold heldV
  isplitl [H0]; · iexact H0
  isplitl [H1]; · iexact H1
  isplitl [H4]; · iexact H4
  isplitl [H5]; · iexact H5
  iexact H6

set_option maxHeartbeats 4000000 in
set_option maxRecDepth 65536 in
/-- Part 8 of a trip with the difference block named: steps 23 to 25 stored. -/
theorem part8_val (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32)
    {α : Type} (kk : (Σ' (v490 : IVec S16 32), Vec F S16 .f32) → Prog (TpuEff nD τ sig (Elt F) Λ₀ (.scVector (cV L) (jV L))) α) (Q : α → sProp 𝕄)
    (hk : heldV (F := F) d L g0 g1 g4 g5 (Dn (F := F) d L k g0 g1 g4 g5 D0 26) ⊢ wp frame (wpE (defs₀ (F := F)) 𝒱₀ (V d (cV L) (jV L)) none) Set.univ (kk ⟨k1_pay66 k1_pay164, (loadIdx (RP (F := F) d L g4) ![(k1_pay7 laneV 0#32 1#32 k), (addi (k1_pay11 k1_pay164 (rawPk (F := F) d L k g0)) (k1_pay66 k1_pay164))] (k1_idx79_inb (k1_pay7 laneV 0#32 1#32 k) (addi (k1_pay11 k1_pay164 (rawPk (F := F) d L k g0)) (k1_pay66 k1_pay164)) (Cert.LibSkewVec.chk_rows iota_S16_d0_w32_scVector (grp k) (rawPk (F := F) d L k g0) (BitVec.ofNat 32 26) (iv_lt k) (by decide))))⟩) Q) :
    heldV (F := F) d L g0 g1 g4 g5 (Dn (F := F) d L k g0 g1 g4 g5 D0 23)
      ⊢ wp frame (wpE (defs₀ (F := F)) 𝒱₀ (V d (cV L) (jV L)) none) Set.univ
          (k1_part8 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 (rawPk (F := F) d L k g0)) (k1_pay12 k1_pay164 (rawNk (F := F) d L k g1)) 23#32 >>= kk) Q := by
  have hg := iv_lt k
  have e25 : (Dn (F := F) d L k g0 g1 g4 g5 D0 26) = storeIdx (Dn (F := F) d L k g0 g1 g4 g5 D0 25) ![Cert.LibSkewVec.grows iota_S16_d0_w32_scVector (grp k), Cert.LibSkewVec.gcol iota_S16_d0_w32_scVector (BitVec.ofNat 32 25)]
      (vsk (F := F) d L k g0 g1 g4 g5 25) (fun _ => 1#1) false (Cert.LibSkewVec.chk_grows iota_S16_d0_w32_scVector (grp k) (BitVec.ofNat 32 25) (iv_lt k) (by decide)) :=
    Cert.LibIdxOps.turn_succ iota_S16_d0_w32_scVector (grp k) (iv_lt k) (vsk (F := F) d L k g0 g1 g4 g5) D0 (n := 25) (by decide) _
  have e24 : (Dn (F := F) d L k g0 g1 g4 g5 D0 25) = storeIdx (Dn (F := F) d L k g0 g1 g4 g5 D0 24) ![Cert.LibSkewVec.grows iota_S16_d0_w32_scVector (grp k), Cert.LibSkewVec.gcol iota_S16_d0_w32_scVector (BitVec.ofNat 32 24)]
      (vsk (F := F) d L k g0 g1 g4 g5 24) (fun _ => 1#1) false (Cert.LibSkewVec.chk_grows iota_S16_d0_w32_scVector (grp k) (BitVec.ofNat 32 24) (iv_lt k) (by decide)) :=
    Cert.LibIdxOps.turn_succ iota_S16_d0_w32_scVector (grp k) (iv_lt k) (vsk (F := F) d L k g0 g1 g4 g5) D0 (n := 24) (by decide) _
  have e23 : (Dn (F := F) d L k g0 g1 g4 g5 D0 24) = storeIdx (Dn (F := F) d L k g0 g1 g4 g5 D0 23) ![Cert.LibSkewVec.grows iota_S16_d0_w32_scVector (grp k), Cert.LibSkewVec.gcol iota_S16_d0_w32_scVector (BitVec.ofNat 32 23)]
      (vsk (F := F) d L k g0 g1 g4 g5 23) (fun _ => 1#1) false (Cert.LibSkewVec.chk_grows iota_S16_d0_w32_scVector (grp k) (BitVec.ofNat 32 23) (iv_lt k) (by decide)) :=
    Cert.LibIdxOps.turn_succ iota_S16_d0_w32_scVector (grp k) (iv_lt k) (vsk (F := F) d L k g0 g1 g4 g5) D0 (n := 23) (by decide) _
  rw [e25, e24, e23] at hk
  rw [k1_part8_eq_skeleton]; unfold k1_part8_skel
  simp only [SparseCore.vectorLoadIdx_bind (c := (V d (cV L) (jV L))), SparseCore.vectorStoreIdx_bind (c := (V d (cV L) (jV L)))]
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_unfold_run_names
  repeat (first | rw [diff_writes_head] | rw [diff_readCov_head] | rw [diff_readAt_whole])
  iapply hk
  unfold heldV
  isplitl [H0]; · iexact H0
  isplitl [H1]; · iexact H1
  isplitl [H4]; · iexact H4
  isplitl [H5]; · iexact H5
  iexact H6

set_option maxHeartbeats 4000000 in
set_option maxRecDepth 65536 in
/-- Part 9 of a trip with the difference block named: steps 26 to 29 stored. -/
theorem part9_val (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32)
    {α : Type} (kk : (IVec S16 32) → Prog (TpuEff nD τ sig (Elt F) Λ₀ (.scVector (cV L) (jV L))) α) (Q : α → sProp 𝕄)
    (hk : heldV (F := F) d L g0 g1 g4 g5 (Dn (F := F) d L k g0 g1 g4 g5 D0 30) ⊢ wp frame (wpE (defs₀ (F := F)) 𝒱₀ (V d (cV L) (jV L)) none) Set.univ (kk k1_pay74) Q) :
    heldV (F := F) d L g0 g1 g4 g5 (Dn (F := F) d L k g0 g1 g4 g5 D0 26)
      ⊢ wp frame (wpE (defs₀ (F := F)) 𝒱₀ (V d (cV L) (jV L)) none) Set.univ
          (k1_part9 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 (rawPk (F := F) d L k g0)) (k1_pay12 k1_pay164 (rawNk (F := F) d L k g1)) (k1_pay66 k1_pay164) (loadIdx (RP (F := F) d L g4) ![(k1_pay7 laneV 0#32 1#32 k), (addi (k1_pay11 k1_pay164 (rawPk (F := F) d L k g0)) (k1_pay66 k1_pay164))] (k1_idx79_inb (k1_pay7 laneV 0#32 1#32 k) (addi (k1_pay11 k1_pay164 (rawPk (F := F) d L k g0)) (k1_pay66 k1_pay164)) (Cert.LibSkewVec.chk_rows iota_S16_d0_w32_scVector (grp k) (rawPk (F := F) d L k g0) (BitVec.ofNat 32 26) (iv_lt k) (by decide)))) >>= kk) Q := by
  have hg := iv_lt k
  have e29 : (Dn (F := F) d L k g0 g1 g4 g5 D0 30) = storeIdx (Dn (F := F) d L k g0 g1 g4 g5 D0 29) ![Cert.LibSkewVec.grows iota_S16_d0_w32_scVector (grp k), Cert.LibSkewVec.gcol iota_S16_d0_w32_scVector (BitVec.ofNat 32 29)]
      (vsk (F := F) d L k g0 g1 g4 g5 29) (fun _ => 1#1) false (Cert.LibSkewVec.chk_grows iota_S16_d0_w32_scVector (grp k) (BitVec.ofNat 32 29) (iv_lt k) (by decide)) :=
    Cert.LibIdxOps.turn_succ iota_S16_d0_w32_scVector (grp k) (iv_lt k) (vsk (F := F) d L k g0 g1 g4 g5) D0 (n := 29) (by decide) _
  have e28 : (Dn (F := F) d L k g0 g1 g4 g5 D0 29) = storeIdx (Dn (F := F) d L k g0 g1 g4 g5 D0 28) ![Cert.LibSkewVec.grows iota_S16_d0_w32_scVector (grp k), Cert.LibSkewVec.gcol iota_S16_d0_w32_scVector (BitVec.ofNat 32 28)]
      (vsk (F := F) d L k g0 g1 g4 g5 28) (fun _ => 1#1) false (Cert.LibSkewVec.chk_grows iota_S16_d0_w32_scVector (grp k) (BitVec.ofNat 32 28) (iv_lt k) (by decide)) :=
    Cert.LibIdxOps.turn_succ iota_S16_d0_w32_scVector (grp k) (iv_lt k) (vsk (F := F) d L k g0 g1 g4 g5) D0 (n := 28) (by decide) _
  have e27 : (Dn (F := F) d L k g0 g1 g4 g5 D0 28) = storeIdx (Dn (F := F) d L k g0 g1 g4 g5 D0 27) ![Cert.LibSkewVec.grows iota_S16_d0_w32_scVector (grp k), Cert.LibSkewVec.gcol iota_S16_d0_w32_scVector (BitVec.ofNat 32 27)]
      (vsk (F := F) d L k g0 g1 g4 g5 27) (fun _ => 1#1) false (Cert.LibSkewVec.chk_grows iota_S16_d0_w32_scVector (grp k) (BitVec.ofNat 32 27) (iv_lt k) (by decide)) :=
    Cert.LibIdxOps.turn_succ iota_S16_d0_w32_scVector (grp k) (iv_lt k) (vsk (F := F) d L k g0 g1 g4 g5) D0 (n := 27) (by decide) _
  have e26 : (Dn (F := F) d L k g0 g1 g4 g5 D0 27) = storeIdx (Dn (F := F) d L k g0 g1 g4 g5 D0 26) ![Cert.LibSkewVec.grows iota_S16_d0_w32_scVector (grp k), Cert.LibSkewVec.gcol iota_S16_d0_w32_scVector (BitVec.ofNat 32 26)]
      (vsk (F := F) d L k g0 g1 g4 g5 26) (fun _ => 1#1) false (Cert.LibSkewVec.chk_grows iota_S16_d0_w32_scVector (grp k) (BitVec.ofNat 32 26) (iv_lt k) (by decide)) :=
    Cert.LibIdxOps.turn_succ iota_S16_d0_w32_scVector (grp k) (iv_lt k) (vsk (F := F) d L k g0 g1 g4 g5) D0 (n := 26) (by decide) _
  rw [e29, e28, e27, e26] at hk
  rw [k1_part9_eq_skeleton]; unfold k1_part9_skel
  simp only [SparseCore.vectorLoadIdx_bind (c := (V d (cV L) (jV L))), SparseCore.vectorStoreIdx_bind (c := (V d (cV L) (jV L)))]
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_unfold_run_names
  repeat (first | rw [diff_writes_head] | rw [diff_readCov_head] | rw [diff_readAt_whole])
  iapply hk
  unfold heldV
  isplitl [H0]; · iexact H0
  isplitl [H1]; · iexact H1
  isplitl [H4]; · iexact H4
  isplitl [H5]; · iexact H5
  iexact H6

set_option maxHeartbeats 4000000 in
set_option maxRecDepth 65536 in
/-- Part 10 of a trip with the difference block named: steps 30 to 32 stored. -/
theorem part10_val (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32)
    {α : Type} (kk : (Σ' (v567 : IVec S16 32) (v569 : Vec F S16 .f32), IVec S16 32) → Prog (TpuEff nD τ sig (Elt F) Λ₀ (.scVector (cV L) (jV L))) α) (Q : α → sProp 𝕄)
    (hk : heldV (F := F) d L g0 g1 g4 g5 (Dn (F := F) d L k g0 g1 g4 g5 D0 33) ⊢ wp frame (wpE (defs₀ (F := F)) 𝒱₀ (V d (cV L) (jV L)) none) Set.univ (kk ⟨k1_pay81 k1_pay164, (loadIdx (RP (F := F) d L g4) ![(k1_pay7 laneV 0#32 1#32 k), (addi (k1_pay11 k1_pay164 (rawPk (F := F) d L k g0)) (k1_pay81 k1_pay164))] (k1_idx100_inb (k1_pay7 laneV 0#32 1#32 k) (addi (k1_pay11 k1_pay164 (rawPk (F := F) d L k g0)) (k1_pay81 k1_pay164)) (Cert.LibSkewVec.chk_rows iota_S16_d0_w32_scVector (grp k) (rawPk (F := F) d L k g0) (BitVec.ofNat 32 33) (iv_lt k) (by decide)))), k1_pay82 k1_pay164 (k1_pay12 k1_pay164 (rawNk (F := F) d L k g1))⟩) Q) :
    heldV (F := F) d L g0 g1 g4 g5 (Dn (F := F) d L k g0 g1 g4 g5 D0 30)
      ⊢ wp frame (wpE (defs₀ (F := F)) 𝒱₀ (V d (cV L) (jV L)) none) Set.univ
          (k1_part10 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 (rawPk (F := F) d L k g0)) (k1_pay12 k1_pay164 (rawNk (F := F) d L k g1)) k1_pay74 >>= kk) Q := by
  have hg := iv_lt k
  have e32 : (Dn (F := F) d L k g0 g1 g4 g5 D0 33) = storeIdx (Dn (F := F) d L k g0 g1 g4 g5 D0 32) ![Cert.LibSkewVec.grows iota_S16_d0_w32_scVector (grp k), Cert.LibSkewVec.gcol iota_S16_d0_w32_scVector (BitVec.ofNat 32 32)]
      (vsk (F := F) d L k g0 g1 g4 g5 32) (fun _ => 1#1) false (Cert.LibSkewVec.chk_grows iota_S16_d0_w32_scVector (grp k) (BitVec.ofNat 32 32) (iv_lt k) (by decide)) :=
    Cert.LibIdxOps.turn_succ iota_S16_d0_w32_scVector (grp k) (iv_lt k) (vsk (F := F) d L k g0 g1 g4 g5) D0 (n := 32) (by decide) _
  have e31 : (Dn (F := F) d L k g0 g1 g4 g5 D0 32) = storeIdx (Dn (F := F) d L k g0 g1 g4 g5 D0 31) ![Cert.LibSkewVec.grows iota_S16_d0_w32_scVector (grp k), Cert.LibSkewVec.gcol iota_S16_d0_w32_scVector (BitVec.ofNat 32 31)]
      (vsk (F := F) d L k g0 g1 g4 g5 31) (fun _ => 1#1) false (Cert.LibSkewVec.chk_grows iota_S16_d0_w32_scVector (grp k) (BitVec.ofNat 32 31) (iv_lt k) (by decide)) :=
    Cert.LibIdxOps.turn_succ iota_S16_d0_w32_scVector (grp k) (iv_lt k) (vsk (F := F) d L k g0 g1 g4 g5) D0 (n := 31) (by decide) _
  have e30 : (Dn (F := F) d L k g0 g1 g4 g5 D0 31) = storeIdx (Dn (F := F) d L k g0 g1 g4 g5 D0 30) ![Cert.LibSkewVec.grows iota_S16_d0_w32_scVector (grp k), Cert.LibSkewVec.gcol iota_S16_d0_w32_scVector (BitVec.ofNat 32 30)]
      (vsk (F := F) d L k g0 g1 g4 g5 30) (fun _ => 1#1) false (Cert.LibSkewVec.chk_grows iota_S16_d0_w32_scVector (grp k) (BitVec.ofNat 32 30) (iv_lt k) (by decide)) :=
    Cert.LibIdxOps.turn_succ iota_S16_d0_w32_scVector (grp k) (iv_lt k) (vsk (F := F) d L k g0 g1 g4 g5) D0 (n := 30) (by decide) _
  rw [e32, e31, e30] at hk
  rw [k1_part10_eq_skeleton]; unfold k1_part10_skel
  simp only [SparseCore.vectorLoadIdx_bind (c := (V d (cV L) (jV L))), SparseCore.vectorStoreIdx_bind (c := (V d (cV L) (jV L)))]
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_unfold_run_names
  repeat (first | rw [diff_writes_head] | rw [diff_readCov_head] | rw [diff_readAt_whole])
  iapply hk
  unfold heldV
  isplitl [H0]; · iexact H0
  isplitl [H1]; · iexact H1
  isplitl [H4]; · iexact H4
  isplitl [H5]; · iexact H5
  iexact H6

set_option maxHeartbeats 4000000 in
set_option maxRecDepth 65536 in
/-- Part 11 of a trip with the difference block named: steps 33 to 36 stored. -/
theorem part11_val (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32)
    {α : Type} (kk : (IVec S16 32) → Prog (TpuEff nD τ sig (Elt F) Λ₀ (.scVector (cV L) (jV L))) α) (Q : α → sProp 𝕄)
    (hk : heldV (F := F) d L g0 g1 g4 g5 (Dn (F := F) d L k g0 g1 g4 g5 D0 37) ⊢ wp frame (wpE (defs₀ (F := F)) 𝒱₀ (V d (cV L) (jV L)) none) Set.univ (kk (k1_pay90 k1_pay164)) Q) :
    heldV (F := F) d L g0 g1 g4 g5 (Dn (F := F) d L k g0 g1 g4 g5 D0 33)
      ⊢ wp frame (wpE (defs₀ (F := F)) 𝒱₀ (V d (cV L) (jV L)) none) Set.univ
          (k1_part11 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 (rawPk (F := F) d L k g0)) (k1_pay12 k1_pay164 (rawNk (F := F) d L k g1)) (k1_pay81 k1_pay164) (loadIdx (RP (F := F) d L g4) ![(k1_pay7 laneV 0#32 1#32 k), (addi (k1_pay11 k1_pay164 (rawPk (F := F) d L k g0)) (k1_pay81 k1_pay164))] (k1_idx100_inb (k1_pay7 laneV 0#32 1#32 k) (addi (k1_pay11 k1_pay164 (rawPk (F := F) d L k g0)) (k1_pay81 k1_pay164)) (Cert.LibSkewVec.chk_rows iota_S16_d0_w32_scVector (grp k) (rawPk (F := F) d L k g0) (BitVec.ofNat 32 33) (iv_lt k) (by decide)))) (k1_pay82 k1_pay164 (k1_pay12 k1_pay164 (rawNk (F := F) d L k g1))) >>= kk) Q := by
  have hg := iv_lt k
  have e36 : (Dn (F := F) d L k g0 g1 g4 g5 D0 37) = storeIdx (Dn (F := F) d L k g0 g1 g4 g5 D0 36) ![Cert.LibSkewVec.grows iota_S16_d0_w32_scVector (grp k), Cert.LibSkewVec.gcol iota_S16_d0_w32_scVector (BitVec.ofNat 32 36)]
      (vsk (F := F) d L k g0 g1 g4 g5 36) (fun _ => 1#1) false (Cert.LibSkewVec.chk_grows iota_S16_d0_w32_scVector (grp k) (BitVec.ofNat 32 36) (iv_lt k) (by decide)) :=
    Cert.LibIdxOps.turn_succ iota_S16_d0_w32_scVector (grp k) (iv_lt k) (vsk (F := F) d L k g0 g1 g4 g5) D0 (n := 36) (by decide) _
  have e35 : (Dn (F := F) d L k g0 g1 g4 g5 D0 36) = storeIdx (Dn (F := F) d L k g0 g1 g4 g5 D0 35) ![Cert.LibSkewVec.grows iota_S16_d0_w32_scVector (grp k), Cert.LibSkewVec.gcol iota_S16_d0_w32_scVector (BitVec.ofNat 32 35)]
      (vsk (F := F) d L k g0 g1 g4 g5 35) (fun _ => 1#1) false (Cert.LibSkewVec.chk_grows iota_S16_d0_w32_scVector (grp k) (BitVec.ofNat 32 35) (iv_lt k) (by decide)) :=
    Cert.LibIdxOps.turn_succ iota_S16_d0_w32_scVector (grp k) (iv_lt k) (vsk (F := F) d L k g0 g1 g4 g5) D0 (n := 35) (by decide) _
  have e34 : (Dn (F := F) d L k g0 g1 g4 g5 D0 35) = storeIdx (Dn (F := F) d L k g0 g1 g4 g5 D0 34) ![Cert.LibSkewVec.grows iota_S16_d0_w32_scVector (grp k), Cert.LibSkewVec.gcol iota_S16_d0_w32_scVector (BitVec.ofNat 32 34)]
      (vsk (F := F) d L k g0 g1 g4 g5 34) (fun _ => 1#1) false (Cert.LibSkewVec.chk_grows iota_S16_d0_w32_scVector (grp k) (BitVec.ofNat 32 34) (iv_lt k) (by decide)) :=
    Cert.LibIdxOps.turn_succ iota_S16_d0_w32_scVector (grp k) (iv_lt k) (vsk (F := F) d L k g0 g1 g4 g5) D0 (n := 34) (by decide) _
  have e33 : (Dn (F := F) d L k g0 g1 g4 g5 D0 34) = storeIdx (Dn (F := F) d L k g0 g1 g4 g5 D0 33) ![Cert.LibSkewVec.grows iota_S16_d0_w32_scVector (grp k), Cert.LibSkewVec.gcol iota_S16_d0_w32_scVector (BitVec.ofNat 32 33)]
      (vsk (F := F) d L k g0 g1 g4 g5 33) (fun _ => 1#1) false (Cert.LibSkewVec.chk_grows iota_S16_d0_w32_scVector (grp k) (BitVec.ofNat 32 33) (iv_lt k) (by decide)) :=
    Cert.LibIdxOps.turn_succ iota_S16_d0_w32_scVector (grp k) (iv_lt k) (vsk (F := F) d L k g0 g1 g4 g5) D0 (n := 33) (by decide) _
  rw [e36, e35, e34, e33] at hk
  rw [k1_part11_eq_skeleton]; unfold k1_part11_skel
  simp only [SparseCore.vectorLoadIdx_bind (c := (V d (cV L) (jV L))), SparseCore.vectorStoreIdx_bind (c := (V d (cV L) (jV L)))]
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_unfold_run_names
  repeat (first | rw [diff_writes_head] | rw [diff_readCov_head] | rw [diff_readAt_whole])
  iapply hk
  unfold heldV
  isplitl [H0]; · iexact H0
  isplitl [H1]; · iexact H1
  isplitl [H4]; · iexact H4
  isplitl [H5]; · iexact H5
  iexact H6

set_option maxHeartbeats 4000000 in
set_option maxRecDepth 65536 in
/-- Part 12 of a trip with the difference block named: steps 37 to 39 stored. -/
theorem part12_val (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32)
    {α : Type} (kk : (Σ' (v644 : IVec S16 32) (v646 : Vec F S16 .f32) (v647 : IVec S16 32), k1_chk122 (k1_pay7 laneV 0#32 1#32 k) v647) → Prog (TpuEff nD τ sig (Elt F) Λ₀ (.scVector (cV L) (jV L))) α) (Q : α → sProp 𝕄)
    (hk : heldV (F := F) d L g0 g1 g4 g5 (Dn (F := F) d L k g0 g1 g4 g5 D0 40) ⊢ wp frame (wpE (defs₀ (F := F)) 𝒱₀ (V d (cV L) (jV L)) none) Set.univ (kk ⟨k1_pay97 k1_pay164, (loadIdx (RP (F := F) d L g4) ![(k1_pay7 laneV 0#32 1#32 k), (addi (k1_pay11 k1_pay164 (rawPk (F := F) d L k g0)) (k1_pay97 k1_pay164))] (k1_idx121_inb (k1_pay7 laneV 0#32 1#32 k) (addi (k1_pay11 k1_pay164 (rawPk (F := F) d L k g0)) (k1_pay97 k1_pay164)) (Cert.LibSkewVec.chk_rows iota_S16_d0_w32_scVector (grp k) (rawPk (F := F) d L k g0) (BitVec.ofNat 32 40) (iv_lt k) (by decide)))), (addi (k1_pay12 k1_pay164 (rawNk (F := F) d L k g1)) (k1_pay97 k1_pay164)), (Cert.LibSkewVec.chk_rows iota_S16_d0_w32_scVector (grp k) (rawNk (F := F) d L k g1) (BitVec.ofNat 32 40) (iv_lt k) (by decide))⟩) Q) :
    heldV (F := F) d L g0 g1 g4 g5 (Dn (F := F) d L k g0 g1 g4 g5 D0 37)
      ⊢ wp frame (wpE (defs₀ (F := F)) 𝒱₀ (V d (cV L) (jV L)) none) Set.univ
          (k1_part12 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 (rawPk (F := F) d L k g0)) (k1_pay12 k1_pay164 (rawNk (F := F) d L k g1)) (k1_pay90 k1_pay164) >>= kk) Q := by
  have hg := iv_lt k
  have e39 : (Dn (F := F) d L k g0 g1 g4 g5 D0 40) = storeIdx (Dn (F := F) d L k g0 g1 g4 g5 D0 39) ![Cert.LibSkewVec.grows iota_S16_d0_w32_scVector (grp k), Cert.LibSkewVec.gcol iota_S16_d0_w32_scVector (BitVec.ofNat 32 39)]
      (vsk (F := F) d L k g0 g1 g4 g5 39) (fun _ => 1#1) false (Cert.LibSkewVec.chk_grows iota_S16_d0_w32_scVector (grp k) (BitVec.ofNat 32 39) (iv_lt k) (by decide)) :=
    Cert.LibIdxOps.turn_succ iota_S16_d0_w32_scVector (grp k) (iv_lt k) (vsk (F := F) d L k g0 g1 g4 g5) D0 (n := 39) (by decide) _
  have e38 : (Dn (F := F) d L k g0 g1 g4 g5 D0 39) = storeIdx (Dn (F := F) d L k g0 g1 g4 g5 D0 38) ![Cert.LibSkewVec.grows iota_S16_d0_w32_scVector (grp k), Cert.LibSkewVec.gcol iota_S16_d0_w32_scVector (BitVec.ofNat 32 38)]
      (vsk (F := F) d L k g0 g1 g4 g5 38) (fun _ => 1#1) false (Cert.LibSkewVec.chk_grows iota_S16_d0_w32_scVector (grp k) (BitVec.ofNat 32 38) (iv_lt k) (by decide)) :=
    Cert.LibIdxOps.turn_succ iota_S16_d0_w32_scVector (grp k) (iv_lt k) (vsk (F := F) d L k g0 g1 g4 g5) D0 (n := 38) (by decide) _
  have e37 : (Dn (F := F) d L k g0 g1 g4 g5 D0 38) = storeIdx (Dn (F := F) d L k g0 g1 g4 g5 D0 37) ![Cert.LibSkewVec.grows iota_S16_d0_w32_scVector (grp k), Cert.LibSkewVec.gcol iota_S16_d0_w32_scVector (BitVec.ofNat 32 37)]
      (vsk (F := F) d L k g0 g1 g4 g5 37) (fun _ => 1#1) false (Cert.LibSkewVec.chk_grows iota_S16_d0_w32_scVector (grp k) (BitVec.ofNat 32 37) (iv_lt k) (by decide)) :=
    Cert.LibIdxOps.turn_succ iota_S16_d0_w32_scVector (grp k) (iv_lt k) (vsk (F := F) d L k g0 g1 g4 g5) D0 (n := 37) (by decide) _
  rw [e39, e38, e37] at hk
  rw [k1_part12_eq_skeleton]; unfold k1_part12_skel
  simp only [SparseCore.vectorLoadIdx_bind (c := (V d (cV L) (jV L))), SparseCore.vectorStoreIdx_bind (c := (V d (cV L) (jV L)))]
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_unfold_run_names
  repeat (first | rw [diff_writes_head] | rw [diff_readCov_head] | rw [diff_readAt_whole])
  iapply hk
  unfold heldV
  isplitl [H0]; · iexact H0
  isplitl [H1]; · iexact H1
  isplitl [H4]; · iexact H4
  isplitl [H5]; · iexact H5
  iexact H6

set_option maxHeartbeats 4000000 in
set_option maxRecDepth 65536 in
/-- Part 13 of a trip with the difference block named: steps 40 to 43 stored. -/
theorem part13_val (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32)
    {α : Type} (kk : (Σ' (v685 : IVec S16 32), BitVec 32) → Prog (TpuEff nD τ sig (Elt F) Λ₀ (.scVector (cV L) (jV L))) α) (Q : α → sProp 𝕄)
    (hk : heldV (F := F) d L g0 g1 g4 g5 (Dn (F := F) d L k g0 g1 g4 g5 D0 44) ⊢ wp frame (wpE (defs₀ (F := F)) 𝒱₀ (V d (cV L) (jV L)) none) Set.univ (kk ⟨k1_pay105 k1_pay164, 63#32⟩) Q) :
    heldV (F := F) d L g0 g1 g4 g5 (Dn (F := F) d L k g0 g1 g4 g5 D0 40)
      ⊢ wp frame (wpE (defs₀ (F := F)) 𝒱₀ (V d (cV L) (jV L)) none) Set.univ
          (k1_part13 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 (rawPk (F := F) d L k g0)) (k1_pay12 k1_pay164 (rawNk (F := F) d L k g1)) (k1_pay97 k1_pay164) (loadIdx (RP (F := F) d L g4) ![(k1_pay7 laneV 0#32 1#32 k), (addi (k1_pay11 k1_pay164 (rawPk (F := F) d L k g0)) (k1_pay97 k1_pay164))] (k1_idx121_inb (k1_pay7 laneV 0#32 1#32 k) (addi (k1_pay11 k1_pay164 (rawPk (F := F) d L k g0)) (k1_pay97 k1_pay164)) (Cert.LibSkewVec.chk_rows iota_S16_d0_w32_scVector (grp k) (rawPk (F := F) d L k g0) (BitVec.ofNat 32 40) (iv_lt k) (by decide)))) (addi (k1_pay12 k1_pay164 (rawNk (F := F) d L k g1)) (k1_pay97 k1_pay164)) (Cert.LibSkewVec.chk_rows iota_S16_d0_w32_scVector (grp k) (rawNk (F := F) d L k g1) (BitVec.ofNat 32 40) (iv_lt k) (by decide)) >>= kk) Q := by
  have hg := iv_lt k
  have e43 : (Dn (F := F) d L k g0 g1 g4 g5 D0 44) = storeIdx (Dn (F := F) d L k g0 g1 g4 g5 D0 43) ![Cert.LibSkewVec.grows iota_S16_d0_w32_scVector (grp k), Cert.LibSkewVec.gcol iota_S16_d0_w32_scVector (BitVec.ofNat 32 43)]
      (vsk (F := F) d L k g0 g1 g4 g5 43) (fun _ => 1#1) false (Cert.LibSkewVec.chk_grows iota_S16_d0_w32_scVector (grp k) (BitVec.ofNat 32 43) (iv_lt k) (by decide)) :=
    Cert.LibIdxOps.turn_succ iota_S16_d0_w32_scVector (grp k) (iv_lt k) (vsk (F := F) d L k g0 g1 g4 g5) D0 (n := 43) (by decide) _
  have e42 : (Dn (F := F) d L k g0 g1 g4 g5 D0 43) = storeIdx (Dn (F := F) d L k g0 g1 g4 g5 D0 42) ![Cert.LibSkewVec.grows iota_S16_d0_w32_scVector (grp k), Cert.LibSkewVec.gcol iota_S16_d0_w32_scVector (BitVec.ofNat 32 42)]
      (vsk (F := F) d L k g0 g1 g4 g5 42) (fun _ => 1#1) false (Cert.LibSkewVec.chk_grows iota_S16_d0_w32_scVector (grp k) (BitVec.ofNat 32 42) (iv_lt k) (by decide)) :=
    Cert.LibIdxOps.turn_succ iota_S16_d0_w32_scVector (grp k) (iv_lt k) (vsk (F := F) d L k g0 g1 g4 g5) D0 (n := 42) (by decide) _
  have e41 : (Dn (F := F) d L k g0 g1 g4 g5 D0 42) = storeIdx (Dn (F := F) d L k g0 g1 g4 g5 D0 41) ![Cert.LibSkewVec.grows iota_S16_d0_w32_scVector (grp k), Cert.LibSkewVec.gcol iota_S16_d0_w32_scVector (BitVec.ofNat 32 41)]
      (vsk (F := F) d L k g0 g1 g4 g5 41) (fun _ => 1#1) false (Cert.LibSkewVec.chk_grows iota_S16_d0_w32_scVector (grp k) (BitVec.ofNat 32 41) (iv_lt k) (by decide)) :=
    Cert.LibIdxOps.turn_succ iota_S16_d0_w32_scVector (grp k) (iv_lt k) (vsk (F := F) d L k g0 g1 g4 g5) D0 (n := 41) (by decide) _
  have e40 : (Dn (F := F) d L k g0 g1 g4 g5 D0 41) = storeIdx (Dn (F := F) d L k g0 g1 g4 g5 D0 40) ![Cert.LibSkewVec.grows iota_S16_d0_w32_scVector (grp k), Cert.LibSkewVec.gcol iota_S16_d0_w32_scVector (BitVec.ofNat 32 40)]
      (vsk (F := F) d L k g0 g1 g4 g5 40) (fun _ => 1#1) false (Cert.LibSkewVec.chk_grows iota_S16_d0_w32_scVector (grp k) (BitVec.ofNat 32 40) (iv_lt k) (by decide)) :=
    Cert.LibIdxOps.turn_succ iota_S16_d0_w32_scVector (grp k) (iv_lt k) (vsk (F := F) d L k g0 g1 g4 g5) D0 (n := 40) (by decide) _
  rw [e43, e42, e41, e40] at hk
  rw [k1_part13_eq_skeleton]; unfold k1_part13_skel
  simp only [SparseCore.vectorLoadIdx_bind (c := (V d (cV L) (jV L))), SparseCore.vectorStoreIdx_bind (c := (V d (cV L) (jV L)))]
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_unfold_run_names
  repeat (first | rw [diff_writes_head] | rw [diff_readCov_head] | rw [diff_readAt_whole])
  iapply hk
  unfold heldV
  isplitl [H0]; · iexact H0
  isplitl [H1]; · iexact H1
  isplitl [H4]; · iexact H4
  isplitl [H5]; · iexact H5
  iexact H6

set_option maxHeartbeats 4000000 in
set_option maxRecDepth 65536 in
/-- Part 14 of a trip with the difference block named: steps 44 to 46 stored. -/
theorem part14_val (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32)
    {α : Type} (kk : (Σ' (v721 : IVec S16 32) (v723 : Vec F S16 .f32), Vec F S16 .f32) → Prog (TpuEff nD τ sig (Elt F) Λ₀ (.scVector (cV L) (jV L))) α) (Q : α → sProp 𝕄)
    (hk : heldV (F := F) d L g0 g1 g4 g5 (Dn (F := F) d L k g0 g1 g4 g5 D0 47) ⊢ wp frame (wpE (defs₀ (F := F)) 𝒱₀ (V d (cV L) (jV L)) none) Set.univ (kk ⟨k1_pay112 k1_pay164, (loadIdx (RP (F := F) d L g4) ![(k1_pay7 laneV 0#32 1#32 k), (addi (k1_pay11 k1_pay164 (rawPk (F := F) d L k g0)) (k1_pay112 k1_pay164))] (k1_idx142_inb (k1_pay7 laneV 0#32 1#32 k) (addi (k1_pay11 k1_pay164 (rawPk (F := F) d L k g0)) (k1_pay112 k1_pay164)) (Cert.LibSkewVec.chk_rows iota_S16_d0_w32_scVector (grp k) (rawPk (F := F) d L k g0) (BitVec.ofNat 32 47) (iv_lt k) (by decide)))), (loadIdx (RN (F := F) d L g5) ![(k1_pay7 laneV 0#32 1#32 k), (addi (k1_pay12 k1_pay164 (rawNk (F := F) d L k g1)) (k1_pay112 k1_pay164))] (k1_idx143_inb (k1_pay7 laneV 0#32 1#32 k) (addi (k1_pay12 k1_pay164 (rawNk (F := F) d L k g1)) (k1_pay112 k1_pay164)) (Cert.LibSkewVec.chk_rows iota_S16_d0_w32_scVector (grp k) (rawNk (F := F) d L k g1) (BitVec.ofNat 32 47) (iv_lt k) (by decide))))⟩) Q) :
    heldV (F := F) d L g0 g1 g4 g5 (Dn (F := F) d L k g0 g1 g4 g5 D0 44)
      ⊢ wp frame (wpE (defs₀ (F := F)) 𝒱₀ (V d (cV L) (jV L)) none) Set.univ
          (k1_part14 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 (rawPk (F := F) d L k g0)) (k1_pay12 k1_pay164 (rawNk (F := F) d L k g1)) (k1_pay105 k1_pay164) 63#32 >>= kk) Q := by
  have hg := iv_lt k
  have e46 : (Dn (F := F) d L k g0 g1 g4 g5 D0 47) = storeIdx (Dn (F := F) d L k g0 g1 g4 g5 D0 46) ![Cert.LibSkewVec.grows iota_S16_d0_w32_scVector (grp k), Cert.LibSkewVec.gcol iota_S16_d0_w32_scVector (BitVec.ofNat 32 46)]
      (vsk (F := F) d L k g0 g1 g4 g5 46) (fun _ => 1#1) false (Cert.LibSkewVec.chk_grows iota_S16_d0_w32_scVector (grp k) (BitVec.ofNat 32 46) (iv_lt k) (by decide)) :=
    Cert.LibIdxOps.turn_succ iota_S16_d0_w32_scVector (grp k) (iv_lt k) (vsk (F := F) d L k g0 g1 g4 g5) D0 (n := 46) (by decide) _
  have e45 : (Dn (F := F) d L k g0 g1 g4 g5 D0 46) = storeIdx (Dn (F := F) d L k g0 g1 g4 g5 D0 45) ![Cert.LibSkewVec.grows iota_S16_d0_w32_scVector (grp k), Cert.LibSkewVec.gcol iota_S16_d0_w32_scVector (BitVec.ofNat 32 45)]
      (vsk (F := F) d L k g0 g1 g4 g5 45) (fun _ => 1#1) false (Cert.LibSkewVec.chk_grows iota_S16_d0_w32_scVector (grp k) (BitVec.ofNat 32 45) (iv_lt k) (by decide)) :=
    Cert.LibIdxOps.turn_succ iota_S16_d0_w32_scVector (grp k) (iv_lt k) (vsk (F := F) d L k g0 g1 g4 g5) D0 (n := 45) (by decide) _
  have e44 : (Dn (F := F) d L k g0 g1 g4 g5 D0 45) = storeIdx (Dn (F := F) d L k g0 g1 g4 g5 D0 44) ![Cert.LibSkewVec.grows iota_S16_d0_w32_scVector (grp k), Cert.LibSkewVec.gcol iota_S16_d0_w32_scVector (BitVec.ofNat 32 44)]
      (vsk (F := F) d L k g0 g1 g4 g5 44) (fun _ => 1#1) false (Cert.LibSkewVec.chk_grows iota_S16_d0_w32_scVector (grp k) (BitVec.ofNat 32 44) (iv_lt k) (by decide)) :=
    Cert.LibIdxOps.turn_succ iota_S16_d0_w32_scVector (grp k) (iv_lt k) (vsk (F := F) d L k g0 g1 g4 g5) D0 (n := 44) (by decide) _
  rw [e46, e45, e44] at hk
  rw [k1_part14_eq_skeleton]; unfold k1_part14_skel
  simp only [SparseCore.vectorLoadIdx_bind (c := (V d (cV L) (jV L))), SparseCore.vectorStoreIdx_bind (c := (V d (cV L) (jV L)))]
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_unfold_run_names
  repeat (first | rw [diff_writes_head] | rw [diff_readCov_head] | rw [diff_readAt_whole])
  iapply hk
  unfold heldV
  isplitl [H0]; · iexact H0
  isplitl [H1]; · iexact H1
  isplitl [H4]; · iexact H4
  isplitl [H5]; · iexact H5
  iexact H6

set_option maxHeartbeats 4000000 in
set_option maxRecDepth 65536 in
/-- Part 15 of a trip with the difference block named: steps 47 to 50 stored. -/
theorem part15_val (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32)
    {α : Type} (kk : (Σ' (v762 : IVec S16 32), IVec S16 32) → Prog (TpuEff nD τ sig (Elt F) Λ₀ (.scVector (cV L) (jV L))) α) (Q : α → sProp 𝕄)
    (hk : heldV (F := F) d L g0 g1 g4 g5 (Dn (F := F) d L k g0 g1 g4 g5 D0 51) ⊢ wp frame (wpE (defs₀ (F := F)) 𝒱₀ (V d (cV L) (jV L)) none) Set.univ (kk ⟨k1_pay120 k1_pay164, k1_pay121⟩) Q) :
    heldV (F := F) d L g0 g1 g4 g5 (Dn (F := F) d L k g0 g1 g4 g5 D0 47)
      ⊢ wp frame (wpE (defs₀ (F := F)) 𝒱₀ (V d (cV L) (jV L)) none) Set.univ
          (k1_part15 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 (rawPk (F := F) d L k g0)) (k1_pay12 k1_pay164 (rawNk (F := F) d L k g1)) (k1_pay112 k1_pay164) (loadIdx (RP (F := F) d L g4) ![(k1_pay7 laneV 0#32 1#32 k), (addi (k1_pay11 k1_pay164 (rawPk (F := F) d L k g0)) (k1_pay112 k1_pay164))] (k1_idx142_inb (k1_pay7 laneV 0#32 1#32 k) (addi (k1_pay11 k1_pay164 (rawPk (F := F) d L k g0)) (k1_pay112 k1_pay164)) (Cert.LibSkewVec.chk_rows iota_S16_d0_w32_scVector (grp k) (rawPk (F := F) d L k g0) (BitVec.ofNat 32 47) (iv_lt k) (by decide)))) (loadIdx (RN (F := F) d L g5) ![(k1_pay7 laneV 0#32 1#32 k), (addi (k1_pay12 k1_pay164 (rawNk (F := F) d L k g1)) (k1_pay112 k1_pay164))] (k1_idx143_inb (k1_pay7 laneV 0#32 1#32 k) (addi (k1_pay12 k1_pay164 (rawNk (F := F) d L k g1)) (k1_pay112 k1_pay164)) (Cert.LibSkewVec.chk_rows iota_S16_d0_w32_scVector (grp k) (rawNk (F := F) d L k g1) (BitVec.ofNat 32 47) (iv_lt k) (by decide)))) >>= kk) Q := by
  have hg := iv_lt k
  have e50 : (Dn (F := F) d L k g0 g1 g4 g5 D0 51) = storeIdx (Dn (F := F) d L k g0 g1 g4 g5 D0 50) ![Cert.LibSkewVec.grows iota_S16_d0_w32_scVector (grp k), Cert.LibSkewVec.gcol iota_S16_d0_w32_scVector (BitVec.ofNat 32 50)]
      (vsk (F := F) d L k g0 g1 g4 g5 50) (fun _ => 1#1) false (Cert.LibSkewVec.chk_grows iota_S16_d0_w32_scVector (grp k) (BitVec.ofNat 32 50) (iv_lt k) (by decide)) :=
    Cert.LibIdxOps.turn_succ iota_S16_d0_w32_scVector (grp k) (iv_lt k) (vsk (F := F) d L k g0 g1 g4 g5) D0 (n := 50) (by decide) _
  have e49 : (Dn (F := F) d L k g0 g1 g4 g5 D0 50) = storeIdx (Dn (F := F) d L k g0 g1 g4 g5 D0 49) ![Cert.LibSkewVec.grows iota_S16_d0_w32_scVector (grp k), Cert.LibSkewVec.gcol iota_S16_d0_w32_scVector (BitVec.ofNat 32 49)]
      (vsk (F := F) d L k g0 g1 g4 g5 49) (fun _ => 1#1) false (Cert.LibSkewVec.chk_grows iota_S16_d0_w32_scVector (grp k) (BitVec.ofNat 32 49) (iv_lt k) (by decide)) :=
    Cert.LibIdxOps.turn_succ iota_S16_d0_w32_scVector (grp k) (iv_lt k) (vsk (F := F) d L k g0 g1 g4 g5) D0 (n := 49) (by decide) _
  have e48 : (Dn (F := F) d L k g0 g1 g4 g5 D0 49) = storeIdx (Dn (F := F) d L k g0 g1 g4 g5 D0 48) ![Cert.LibSkewVec.grows iota_S16_d0_w32_scVector (grp k), Cert.LibSkewVec.gcol iota_S16_d0_w32_scVector (BitVec.ofNat 32 48)]
      (vsk (F := F) d L k g0 g1 g4 g5 48) (fun _ => 1#1) false (Cert.LibSkewVec.chk_grows iota_S16_d0_w32_scVector (grp k) (BitVec.ofNat 32 48) (iv_lt k) (by decide)) :=
    Cert.LibIdxOps.turn_succ iota_S16_d0_w32_scVector (grp k) (iv_lt k) (vsk (F := F) d L k g0 g1 g4 g5) D0 (n := 48) (by decide) _
  have e47 : (Dn (F := F) d L k g0 g1 g4 g5 D0 48) = storeIdx (Dn (F := F) d L k g0 g1 g4 g5 D0 47) ![Cert.LibSkewVec.grows iota_S16_d0_w32_scVector (grp k), Cert.LibSkewVec.gcol iota_S16_d0_w32_scVector (BitVec.ofNat 32 47)]
      (vsk (F := F) d L k g0 g1 g4 g5 47) (fun _ => 1#1) false (Cert.LibSkewVec.chk_grows iota_S16_d0_w32_scVector (grp k) (BitVec.ofNat 32 47) (iv_lt k) (by decide)) :=
    Cert.LibIdxOps.turn_succ iota_S16_d0_w32_scVector (grp k) (iv_lt k) (vsk (F := F) d L k g0 g1 g4 g5) D0 (n := 47) (by decide) _
  rw [e50, e49, e48, e47] at hk
  rw [k1_part15_eq_skeleton]; unfold k1_part15_skel
  simp only [SparseCore.vectorLoadIdx_bind (c := (V d (cV L) (jV L))), SparseCore.vectorStoreIdx_bind (c := (V d (cV L) (jV L)))]
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_unfold_run_names
  repeat (first | rw [diff_writes_head] | rw [diff_readCov_head] | rw [diff_readAt_whole])
  iapply hk
  unfold heldV
  isplitl [H0]; · iexact H0
  isplitl [H1]; · iexact H1
  isplitl [H4]; · iexact H4
  isplitl [H5]; · iexact H5
  iexact H6

set_option maxHeartbeats 4000000 in
set_option maxRecDepth 65536 in
/-- Part 16 of a trip with the difference block named: steps 51 to 53 stored. -/
theorem part16_val (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32)
    {α : Type} (kk : (Σ' (v800 : Vec F S16 .f32) (v802 : Vec F S16 .f32), IVec S16 32) → Prog (TpuEff nD τ sig (Elt F) Λ₀ (.scVector (cV L) (jV L))) α) (Q : α → sProp 𝕄)
    (hk : heldV (F := F) d L g0 g1 g4 g5 (Dn (F := F) d L k g0 g1 g4 g5 D0 54) ⊢ wp frame (wpE (defs₀ (F := F)) 𝒱₀ (V d (cV L) (jV L)) none) Set.univ (kk ⟨(loadIdx (RP (F := F) d L g4) ![(k1_pay7 laneV 0#32 1#32 k), (addi (k1_pay11 k1_pay164 (rawPk (F := F) d L k g0)) (k1_pay128 k1_pay164))] (k1_idx163_inb (k1_pay7 laneV 0#32 1#32 k) (addi (k1_pay11 k1_pay164 (rawPk (F := F) d L k g0)) (k1_pay128 k1_pay164)) (Cert.LibSkewVec.chk_rows iota_S16_d0_w32_scVector (grp k) (rawPk (F := F) d L k g0) (BitVec.ofNat 32 54) (iv_lt k) (by decide)))), (loadIdx (RN (F := F) d L g5) ![(k1_pay7 laneV 0#32 1#32 k), (addi (k1_pay12 k1_pay164 (rawNk (F := F) d L k g1)) (k1_pay128 k1_pay164))] (k1_idx164_inb (k1_pay7 laneV 0#32 1#32 k) (addi (k1_pay12 k1_pay164 (rawNk (F := F) d L k g1)) (k1_pay128 k1_pay164)) (Cert.LibSkewVec.chk_rows iota_S16_d0_w32_scVector (grp k) (rawNk (F := F) d L k g1) (BitVec.ofNat 32 54) (iv_lt k) (by decide)))), k1_pay129 k1_pay164 (k1_pay1 laneV k1_pay164 k1_pay165)⟩) Q) :
    heldV (F := F) d L g0 g1 g4 g5 (Dn (F := F) d L k g0 g1 g4 g5 D0 51)
      ⊢ wp frame (wpE (defs₀ (F := F)) 𝒱₀ (V d (cV L) (jV L)) none) Set.univ
          (k1_part16 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 (rawPk (F := F) d L k g0)) (k1_pay12 k1_pay164 (rawNk (F := F) d L k g1)) (k1_pay120 k1_pay164) k1_pay121 >>= kk) Q := by
  have hg := iv_lt k
  have e53 : (Dn (F := F) d L k g0 g1 g4 g5 D0 54) = storeIdx (Dn (F := F) d L k g0 g1 g4 g5 D0 53) ![Cert.LibSkewVec.grows iota_S16_d0_w32_scVector (grp k), Cert.LibSkewVec.gcol iota_S16_d0_w32_scVector (BitVec.ofNat 32 53)]
      (vsk (F := F) d L k g0 g1 g4 g5 53) (fun _ => 1#1) false (Cert.LibSkewVec.chk_grows iota_S16_d0_w32_scVector (grp k) (BitVec.ofNat 32 53) (iv_lt k) (by decide)) :=
    Cert.LibIdxOps.turn_succ iota_S16_d0_w32_scVector (grp k) (iv_lt k) (vsk (F := F) d L k g0 g1 g4 g5) D0 (n := 53) (by decide) _
  have e52 : (Dn (F := F) d L k g0 g1 g4 g5 D0 53) = storeIdx (Dn (F := F) d L k g0 g1 g4 g5 D0 52) ![Cert.LibSkewVec.grows iota_S16_d0_w32_scVector (grp k), Cert.LibSkewVec.gcol iota_S16_d0_w32_scVector (BitVec.ofNat 32 52)]
      (vsk (F := F) d L k g0 g1 g4 g5 52) (fun _ => 1#1) false (Cert.LibSkewVec.chk_grows iota_S16_d0_w32_scVector (grp k) (BitVec.ofNat 32 52) (iv_lt k) (by decide)) :=
    Cert.LibIdxOps.turn_succ iota_S16_d0_w32_scVector (grp k) (iv_lt k) (vsk (F := F) d L k g0 g1 g4 g5) D0 (n := 52) (by decide) _
  have e51 : (Dn (F := F) d L k g0 g1 g4 g5 D0 52) = storeIdx (Dn (F := F) d L k g0 g1 g4 g5 D0 51) ![Cert.LibSkewVec.grows iota_S16_d0_w32_scVector (grp k), Cert.LibSkewVec.gcol iota_S16_d0_w32_scVector (BitVec.ofNat 32 51)]
      (vsk (F := F) d L k g0 g1 g4 g5 51) (fun _ => 1#1) false (Cert.LibSkewVec.chk_grows iota_S16_d0_w32_scVector (grp k) (BitVec.ofNat 32 51) (iv_lt k) (by decide)) :=
    Cert.LibIdxOps.turn_succ iota_S16_d0_w32_scVector (grp k) (iv_lt k) (vsk (F := F) d L k g0 g1 g4 g5) D0 (n := 51) (by decide) _
  rw [e53, e52, e51] at hk
  rw [k1_part16_eq_skeleton]; unfold k1_part16_skel
  simp only [SparseCore.vectorLoadIdx_bind (c := (V d (cV L) (jV L))), SparseCore.vectorStoreIdx_bind (c := (V d (cV L) (jV L)))]
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_unfold_run_names
  repeat (first | rw [diff_writes_head] | rw [diff_readCov_head] | rw [diff_readAt_whole])
  iapply hk
  unfold heldV
  isplitl [H0]; · iexact H0
  isplitl [H1]; · iexact H1
  isplitl [H4]; · iexact H4
  isplitl [H5]; · iexact H5
  iexact H6

set_option maxHeartbeats 4000000 in
set_option maxRecDepth 65536 in
/-- Part 17 of a trip with the difference block named: steps 54 to 57 stored. -/
theorem part17_val (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32)
    {α : Type} (kk : (IVec S16 32) → Prog (TpuEff nD τ sig (Elt F) Λ₀ (.scVector (cV L) (jV L))) α) (Q : α → sProp 𝕄)
    (hk : heldV (F := F) d L g0 g1 g4 g5 (Dn (F := F) d L k g0 g1 g4 g5 D0 58) ⊢ wp frame (wpE (defs₀ (F := F)) 𝒱₀ (V d (cV L) (jV L)) none) Set.univ (kk (k1_pay137 k1_pay164)) Q) :
    heldV (F := F) d L g0 g1 g4 g5 (Dn (F := F) d L k g0 g1 g4 g5 D0 54)
      ⊢ wp frame (wpE (defs₀ (F := F)) 𝒱₀ (V d (cV L) (jV L)) none) Set.univ
          (k1_part17 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 (rawPk (F := F) d L k g0)) (k1_pay12 k1_pay164 (rawNk (F := F) d L k g1)) (loadIdx (RP (F := F) d L g4) ![(k1_pay7 laneV 0#32 1#32 k), (addi (k1_pay11 k1_pay164 (rawPk (F := F) d L k g0)) (k1_pay128 k1_pay164))] (k1_idx163_inb (k1_pay7 laneV 0#32 1#32 k) (addi (k1_pay11 k1_pay164 (rawPk (F := F) d L k g0)) (k1_pay128 k1_pay164)) (Cert.LibSkewVec.chk_rows iota_S16_d0_w32_scVector (grp k) (rawPk (F := F) d L k g0) (BitVec.ofNat 32 54) (iv_lt k) (by decide)))) (loadIdx (RN (F := F) d L g5) ![(k1_pay7 laneV 0#32 1#32 k), (addi (k1_pay12 k1_pay164 (rawNk (F := F) d L k g1)) (k1_pay128 k1_pay164))] (k1_idx164_inb (k1_pay7 laneV 0#32 1#32 k) (addi (k1_pay12 k1_pay164 (rawNk (F := F) d L k g1)) (k1_pay128 k1_pay164)) (Cert.LibSkewVec.chk_rows iota_S16_d0_w32_scVector (grp k) (rawNk (F := F) d L k g1) (BitVec.ofNat 32 54) (iv_lt k) (by decide)))) (k1_pay129 k1_pay164 (k1_pay1 laneV k1_pay164 k1_pay165)) >>= kk) Q := by
  have hg := iv_lt k
  have e57 : (Dn (F := F) d L k g0 g1 g4 g5 D0 58) = storeIdx (Dn (F := F) d L k g0 g1 g4 g5 D0 57) ![Cert.LibSkewVec.grows iota_S16_d0_w32_scVector (grp k), Cert.LibSkewVec.gcol iota_S16_d0_w32_scVector (BitVec.ofNat 32 57)]
      (vsk (F := F) d L k g0 g1 g4 g5 57) (fun _ => 1#1) false (Cert.LibSkewVec.chk_grows iota_S16_d0_w32_scVector (grp k) (BitVec.ofNat 32 57) (iv_lt k) (by decide)) :=
    Cert.LibIdxOps.turn_succ iota_S16_d0_w32_scVector (grp k) (iv_lt k) (vsk (F := F) d L k g0 g1 g4 g5) D0 (n := 57) (by decide) _
  have e56 : (Dn (F := F) d L k g0 g1 g4 g5 D0 57) = storeIdx (Dn (F := F) d L k g0 g1 g4 g5 D0 56) ![Cert.LibSkewVec.grows iota_S16_d0_w32_scVector (grp k), Cert.LibSkewVec.gcol iota_S16_d0_w32_scVector (BitVec.ofNat 32 56)]
      (vsk (F := F) d L k g0 g1 g4 g5 56) (fun _ => 1#1) false (Cert.LibSkewVec.chk_grows iota_S16_d0_w32_scVector (grp k) (BitVec.ofNat 32 56) (iv_lt k) (by decide)) :=
    Cert.LibIdxOps.turn_succ iota_S16_d0_w32_scVector (grp k) (iv_lt k) (vsk (F := F) d L k g0 g1 g4 g5) D0 (n := 56) (by decide) _
  have e55 : (Dn (F := F) d L k g0 g1 g4 g5 D0 56) = storeIdx (Dn (F := F) d L k g0 g1 g4 g5 D0 55) ![Cert.LibSkewVec.grows iota_S16_d0_w32_scVector (grp k), Cert.LibSkewVec.gcol iota_S16_d0_w32_scVector (BitVec.ofNat 32 55)]
      (vsk (F := F) d L k g0 g1 g4 g5 55) (fun _ => 1#1) false (Cert.LibSkewVec.chk_grows iota_S16_d0_w32_scVector (grp k) (BitVec.ofNat 32 55) (iv_lt k) (by decide)) :=
    Cert.LibIdxOps.turn_succ iota_S16_d0_w32_scVector (grp k) (iv_lt k) (vsk (F := F) d L k g0 g1 g4 g5) D0 (n := 55) (by decide) _
  have e54 : (Dn (F := F) d L k g0 g1 g4 g5 D0 55) = storeIdx (Dn (F := F) d L k g0 g1 g4 g5 D0 54) ![Cert.LibSkewVec.grows iota_S16_d0_w32_scVector (grp k), Cert.LibSkewVec.gcol iota_S16_d0_w32_scVector (BitVec.ofNat 32 54)]
      (vsk (F := F) d L k g0 g1 g4 g5 54) (fun _ => 1#1) false (Cert.LibSkewVec.chk_grows iota_S16_d0_w32_scVector (grp k) (BitVec.ofNat 32 54) (iv_lt k) (by decide)) :=
    Cert.LibIdxOps.turn_succ iota_S16_d0_w32_scVector (grp k) (iv_lt k) (vsk (F := F) d L k g0 g1 g4 g5) D0 (n := 54) (by decide) _
  rw [e57, e56, e55, e54] at hk
  rw [k1_part17_eq_skeleton]; unfold k1_part17_skel
  simp only [SparseCore.vectorLoadIdx_bind (c := (V d (cV L) (jV L))), SparseCore.vectorStoreIdx_bind (c := (V d (cV L) (jV L)))]
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_unfold_run_names
  repeat (first | rw [diff_writes_head] | rw [diff_readCov_head] | rw [diff_readAt_whole])
  iapply hk
  unfold heldV
  isplitl [H0]; · iexact H0
  isplitl [H1]; · iexact H1
  isplitl [H4]; · iexact H4
  isplitl [H5]; · iexact H5
  iexact H6

set_option maxHeartbeats 4000000 in
set_option maxRecDepth 65536 in
/-- Part 18 of a trip with the difference block named: steps 58 to 60 stored. -/
theorem part18_val (k : Fin k1_t1_loop.trips)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32)
    {α : Type} (kk : (Σ' (v877 : Vec F S16 .f32) (v879 : Vec F S16 .f32) (v880 : IVec S16 32), k1_chk186 (k1_pay8 (k1_pay7 laneV 0#32 1#32 k)) v880) → Prog (TpuEff nD τ sig (Elt F) Λ₀ (.scVector (cV L) (jV L))) α) (Q : α → sProp 𝕄)
    (hk : heldV (F := F) d L g0 g1 g4 g5 (Dn (F := F) d L k g0 g1 g4 g5 D0 61) ⊢ wp frame (wpE (defs₀ (F := F)) 𝒱₀ (V d (cV L) (jV L)) none) Set.univ (kk ⟨(loadIdx (RP (F := F) d L g4) ![(k1_pay7 laneV 0#32 1#32 k), (addi (k1_pay11 k1_pay164 (rawPk (F := F) d L k g0)) (k1_pay144 k1_pay164))] (k1_idx184_inb (k1_pay7 laneV 0#32 1#32 k) (addi (k1_pay11 k1_pay164 (rawPk (F := F) d L k g0)) (k1_pay144 k1_pay164)) (Cert.LibSkewVec.chk_rows iota_S16_d0_w32_scVector (grp k) (rawPk (F := F) d L k g0) (BitVec.ofNat 32 61) (iv_lt k) (by decide)))), (loadIdx (RN (F := F) d L g5) ![(k1_pay7 laneV 0#32 1#32 k), (addi (k1_pay12 k1_pay164 (rawNk (F := F) d L k g1)) (k1_pay144 k1_pay164))] (k1_idx185_inb (k1_pay7 laneV 0#32 1#32 k) (addi (k1_pay12 k1_pay164 (rawNk (F := F) d L k g1)) (k1_pay144 k1_pay164)) (Cert.LibSkewVec.chk_rows iota_S16_d0_w32_scVector (grp k) (rawNk (F := F) d L k g1) (BitVec.ofNat 32 61) (iv_lt k) (by decide)))), (addi (k1_pay1 laneV k1_pay164 k1_pay165) (k1_pay144 k1_pay164)), (Cert.LibSkewVec.chk_grows iota_S16_d0_w32_scVector (grp k) (BitVec.ofNat 32 61) (iv_lt k) (by decide))⟩) Q) :
    heldV (F := F) d L g0 g1 g4 g5 (Dn (F := F) d L k g0 g1 g4 g5 D0 58)
      ⊢ wp frame (wpE (defs₀ (F := F)) 𝒱₀ (V d (cV L) (jV L)) none) Set.univ
          (k1_part18 L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 k1_pay164 (k1_pay1 laneV k1_pay164 k1_pay165) (k1_pay7 laneV 0#32 1#32 k) (k1_pay8 (k1_pay7 laneV 0#32 1#32 k)) (k1_pay11 k1_pay164 (rawPk (F := F) d L k g0)) (k1_pay12 k1_pay164 (rawNk (F := F) d L k g1)) (k1_pay137 k1_pay164) >>= kk) Q := by
  have hg := iv_lt k
  have e60 : (Dn (F := F) d L k g0 g1 g4 g5 D0 61) = storeIdx (Dn (F := F) d L k g0 g1 g4 g5 D0 60) ![Cert.LibSkewVec.grows iota_S16_d0_w32_scVector (grp k), Cert.LibSkewVec.gcol iota_S16_d0_w32_scVector (BitVec.ofNat 32 60)]
      (vsk (F := F) d L k g0 g1 g4 g5 60) (fun _ => 1#1) false (Cert.LibSkewVec.chk_grows iota_S16_d0_w32_scVector (grp k) (BitVec.ofNat 32 60) (iv_lt k) (by decide)) :=
    Cert.LibIdxOps.turn_succ iota_S16_d0_w32_scVector (grp k) (iv_lt k) (vsk (F := F) d L k g0 g1 g4 g5) D0 (n := 60) (by decide) _
  have e59 : (Dn (F := F) d L k g0 g1 g4 g5 D0 60) = storeIdx (Dn (F := F) d L k g0 g1 g4 g5 D0 59) ![Cert.LibSkewVec.grows iota_S16_d0_w32_scVector (grp k), Cert.LibSkewVec.gcol iota_S16_d0_w32_scVector (BitVec.ofNat 32 59)]
      (vsk (F := F) d L k g0 g1 g4 g5 59) (fun _ => 1#1) false (Cert.LibSkewVec.chk_grows iota_S16_d0_w32_scVector (grp k) (BitVec.ofNat 32 59) (iv_lt k) (by decide)) :=
    Cert.LibIdxOps.turn_succ iota_S16_d0_w32_scVector (grp k) (iv_lt k) (vsk (F := F) d L k g0 g1 g4 g5) D0 (n := 59) (by decide) _
  have e58 : (Dn (F := F) d L k g0 g1 g4 g5 D0 59) = storeIdx (Dn (F := F) d L k g0 g1 g4 g5 D0 58) ![Cert.LibSkewVec.grows iota_S16_d0_w32_scVector (grp k), Cert.LibSkewVec.gcol iota_S16_d0_w32_scVector (BitVec.ofNat 32 58)]
      (vsk (F := F) d L k g0 g1 g4 g5 58) (fun _ => 1#1) false (Cert.LibSkewVec.chk_grows iota_S16_d0_w32_scVector (grp k) (BitVec.ofNat 32 58) (iv_lt k) (by decide)) :=
    Cert.LibIdxOps.turn_succ iota_S16_d0_w32_scVector (grp k) (iv_lt k) (vsk (F := F) d L k g0 g1 g4 g5) D0 (n := 58) (by decide) _
  rw [e60, e59, e58] at hk
  rw [k1_part18_eq_skeleton]; unfold k1_part18_skel
  simp only [SparseCore.vectorLoadIdx_bind (c := (V d (cV L) (jV L))), SparseCore.vectorStoreIdx_bind (c := (V d (cV L) (jV L)))]
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_unfold_run_names
  repeat (first | rw [diff_writes_head] | rw [diff_readCov_head] | rw [diff_readAt_whole])
  iapply hk
  unfold heldV
  isplitl [H0]; · iexact H0
  isplitl [H1]; · iexact H1
  isplitl [H4]; · iexact H4
  isplitl [H5]; · iexact H5
  iexact H6

end Cert.KernelIdeal.TileGPartsV

end
-- ==== Proof.TileGConv.lean ====
/-
  ONE TRIP'S TURN IS THE NEXT TRIP COUNT'S BLOCK. The difference block after trip `k`'s 64 skewed stores, from the block
  the first `k` trips leave, is the block the first `k + 1` trips leave: the trip's group word, its sixteen raw words of
  each sign and the gathered rows it reads are the ones the closed form names.
-/
import proofs.«203895_g52347061404180_cont_8to1_c_859_34_alg».proof.Proof.TileGPartsV
import proofs.«203895_g52347061404180_cont_8to1_c_859_34_alg».proof.Proof.TileGVDefs

noncomputable section

namespace Cert.KernelIdeal.TileGConv

open Cert.KernelIdeal Cert.KernelIdeal.Gen Cert.KernelIdeal.KCommon Cert.KernelIdeal.TileCommon Cert.KernelIdeal.TileG Cert.KernelIdeal.TileGParts Cert.KernelIdeal.TileGPartsV

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 2) (Elt F) ℕ UU ℕ

variable (d : Dev nD) (L : grid1.Coords)
variable [FloatOps F]

open Cert.KernelIdeal.TileGV (gwG hgwG rawOf invGV)
open Cert.LibGValue (tripsUpTo tripsUpTo_succ diffVec)
open Idealize.ShloMosaic.ValueIdx

/-- The group's sixteen raw words as the trip loads them are the scratch's words at the trip's triples. -/
theorem rawPk_eq (k : Fin k1_t1_loop.trips) (R0 : Buf (Elt F) ((rawPM).view.loc (V d (cV L) (jV L)))) :
    rawPk (F := F) d L k R0 = rawOf R0 k.val := by
  have hk8 : k.val < 8 := lt_of_lt_of_le k.isLt k1_t1_abs.2.1
  funext x
  have hx : (x 0).val < 16 := (x 0).isLt
  show (R0 : IVec S128 32) ((Rect.unit (s := S128) (k1_off2 k) S16.size (k1_off2_inb k)).toLoadRect.idx x)
    = (R0 : IVec S128 32) (ix1 ⟨(16 * k.val + (x 0).val) % 128, _⟩)
  congr 1
  funext a
  obtain rfl : a = 0 := Subsingleton.elim _ _
  apply Fin.ext
  show (k1_off2 k) 0 + 1 * (x 0).val = (16 * k.val + (x 0).val) % 128
  rw [k1_off2_eq]
  show 16 * k.val + 1 * (x 0).val = _
  omega

theorem rawNk_eq (k : Fin k1_t1_loop.trips) (R1 : Buf (Elt F) ((rawNM).view.loc (V d (cV L) (jV L)))) :
    rawNk (F := F) d L k R1 = rawOf R1 k.val := by
  have hk8 : k.val < 8 := lt_of_lt_of_le k.isLt k1_t1_abs.2.1
  funext x
  have hx : (x 0).val < 16 := (x 0).isLt
  show (R1 : IVec S128 32) ((Rect.unit (s := S128) (k1_off2 k) S16.size (k1_off2_inb k)).toLoadRect.idx x)
    = (R1 : IVec S128 32) (ix1 ⟨(16 * k.val + (x 0).val) % 128, _⟩)
  congr 1
  funext a
  obtain rfl : a = 0 := Subsingleton.elim _ _
  apply Fin.ext
  show (k1_off2 k) 0 + 1 * (x 0).val = (16 * k.val + (x 0).val) % 128
  rw [k1_off2_eq]
  show 16 * k.val + 1 * (x 0).val = _
  omega

/-- A whole load of a gathered rows' buffer reads its contents. -/
theorem RP_eq (B4 : Buf (Elt F) ((rowsPM).view.loc (V d (cV L) (jV L)))) : RP (F := F) d L B4 = B4 := by
  funext j
  show (rowsPM).view.readAt (Elt F) (LoadRect.whole S128x128) B4 j = B4 j
  rw [View.readAt_apply, LoadRect.idx_whole]
  rfl
theorem RN_eq (B5 : Buf (Elt F) ((rowsNM).view.loc (V d (cV L) (jV L)))) : RN (F := F) d L B5 = B5 := by
  funext j
  show (rowsNM).view.readAt (Elt F) (LoadRect.whole S128x128) B5 j = B5 j
  rw [View.readAt_apply, LoadRect.idx_whole]
  rfl

/-- One trip's full turn from the block after `k` trips is the block after `k + 1` trips. -/
theorem Dn_eq_tripsUpTo (R0) (R1) (B4) (B5) (D0 : Buf (Elt F) ((diffM).view.loc (V d (cV L) (jV L)))) (k : Fin k1_t1_loop.trips) :
    Dn (F := F) d L k R0 R1 B4 B5 (tripsUpTo iota_S16_d0_w32_scVector B4 B5 gwG hgwG (rawOf R0) (rawOf R1) D0 k.val) 64
      = tripsUpTo iota_S16_d0_w32_scVector B4 B5 gwG hgwG (rawOf R0) (rawOf R1) D0 (k.val + 1) := by
  have hk8 : k.val < 8 := lt_of_lt_of_le k.isLt k1_t1_abs.2.1
  have hg : (gwG k.val).toNat < 8 := by rw [hgwG _ hk8]; exact hk8
  rw [tripsUpTo_succ iota_S16_d0_w32_scVector B4 B5 gwG hgwG (rawOf R0) (rawOf R1) D0 hk8 hg]
  show Cert.LibIdxOps.turn iota_S16_d0_w32_scVector (grp k) (iv_lt k)
      (diffVec iota_S16_d0_w32_scVector (grp k) (iv_lt k) (rawPk (F := F) d L k R0) (rawNk (F := F) d L k R1) (RP (F := F) d L B4) (RN (F := F) d L B5)) _ 64 = _
  rw [rawPk_eq, rawNk_eq, RP_eq, RN_eq]
  rfl

end Cert.KernelIdeal.TileGConv

end
-- ==== Proof.TileGTripV.lean ====
/-
  ONE TRIP of the first SparseCore kernel's loop WITH THE DIFFERENCE BLOCK NAMED: the eighteen parts in sequence, then the
  last steps. The trip's 64 indexed stores, step by step in order, are the 64 steps of one full turn of the trip's group:
  from the block at `D0` the trip leaves the block that turn makes of it, each step storing the negative rows' entries
  minus the positive rows' at the step's columns.
-/
import proofs.«203895_g52347061404180_cont_8to1_c_859_34_alg».proof.Proof.TileGPartsV

noncomputable section

namespace Cert.KernelIdeal.TileGTripV

open Cert.KernelIdeal Cert.KernelIdeal.Gen Cert.KernelIdeal.KCommon Cert.KernelIdeal.TileCommon Cert.KernelIdeal.TileG Cert.KernelIdeal.TileGParts Cert.KernelIdeal.TileGPartsV

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid1.Coords)
variable [FloatOps F]

set_option maxHeartbeats 8000000 in
set_option maxRecDepth 65536 in
/-- ONE TRIP, the difference block named: from `D0` to the full turn of the trip's group over `D0`. -/
theorem trip_val (k : Fin k1_t1_loop.trips) (acc : Unit)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) (D0 : Vec F S64x128 .f32) :
    heldV (F := F) d L g0 g1 g4 g5 D0
      ⊢ wp frame (wpE (defs₀ (F := F)) 𝒱₀ (V d (cV L) (jV L)) none) Set.univ
          (k1_t1_body L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 (iota .scVector S16 32 [0] iota_S16_d0_w32_scVector) k1_pay164 k1_pay165 k acc)
          fun _ => heldV (F := F) d L g0 g1 g4 g5 (Dn (F := F) d L k g0 g1 g4 g5 D0 64) := by
  have hg := iv_lt k
  have e63 : (Dn (F := F) d L k g0 g1 g4 g5 D0 64) = storeIdx (Dn (F := F) d L k g0 g1 g4 g5 D0 63) ![Cert.LibSkewVec.grows iota_S16_d0_w32_scVector (grp k), Cert.LibSkewVec.gcol iota_S16_d0_w32_scVector (BitVec.ofNat 32 63)]
      (vsk (F := F) d L k g0 g1 g4 g5 63) (fun _ => 1#1) false (Cert.LibSkewVec.chk_grows iota_S16_d0_w32_scVector (grp k) (BitVec.ofNat 32 63) (iv_lt k) (by decide)) :=
    Cert.LibIdxOps.turn_succ iota_S16_d0_w32_scVector (grp k) (iv_lt k) (vsk (F := F) d L k g0 g1 g4 g5) D0 (n := 63) (by decide) _
  have e62 : (Dn (F := F) d L k g0 g1 g4 g5 D0 63) = storeIdx (Dn (F := F) d L k g0 g1 g4 g5 D0 62) ![Cert.LibSkewVec.grows iota_S16_d0_w32_scVector (grp k), Cert.LibSkewVec.gcol iota_S16_d0_w32_scVector (BitVec.ofNat 32 62)]
      (vsk (F := F) d L k g0 g1 g4 g5 62) (fun _ => 1#1) false (Cert.LibSkewVec.chk_grows iota_S16_d0_w32_scVector (grp k) (BitVec.ofNat 32 62) (iv_lt k) (by decide)) :=
    Cert.LibIdxOps.turn_succ iota_S16_d0_w32_scVector (grp k) (iv_lt k) (vsk (F := F) d L k g0 g1 g4 g5) D0 (n := 62) (by decide) _
  have e61 : (Dn (F := F) d L k g0 g1 g4 g5 D0 62) = storeIdx (Dn (F := F) d L k g0 g1 g4 g5 D0 61) ![Cert.LibSkewVec.grows iota_S16_d0_w32_scVector (grp k), Cert.LibSkewVec.gcol iota_S16_d0_w32_scVector (BitVec.ofNat 32 61)]
      (vsk (F := F) d L k g0 g1 g4 g5 61) (fun _ => 1#1) false (Cert.LibSkewVec.chk_grows iota_S16_d0_w32_scVector (grp k) (BitVec.ofNat 32 61) (iv_lt k) (by decide)) :=
    Cert.LibIdxOps.turn_succ iota_S16_d0_w32_scVector (grp k) (iv_lt k) (vsk (F := F) d L k g0 g1 g4 g5) D0 (n := 61) (by decide) _
  rw [e63, e62, e61]
  unfold k1_t1_body
  simp only [SparseCore.vectorLoadIdx_bind (c := (V d (cV L) (jV L))), SparseCore.vectorStoreIdx_bind (c := (V d (cV L) (jV L)))]
  refine part1_val (F := F) d L k g0 g1 g4 g5 D0 _ _ ?_
  refine part2_val (F := F) d L k g0 g1 g4 g5 D0 _ _ ?_
  refine part3_val (F := F) d L k g0 g1 g4 g5 D0 _ _ ?_
  refine part4_val (F := F) d L k g0 g1 g4 g5 D0 _ _ ?_
  refine part5_val (F := F) d L k g0 g1 g4 g5 D0 _ _ ?_
  refine part6_val (F := F) d L k g0 g1 g4 g5 D0 _ _ ?_
  refine part7_val (F := F) d L k g0 g1 g4 g5 D0 _ _ ?_
  refine part8_val (F := F) d L k g0 g1 g4 g5 D0 _ _ ?_
  refine part9_val (F := F) d L k g0 g1 g4 g5 D0 _ _ ?_
  refine part10_val (F := F) d L k g0 g1 g4 g5 D0 _ _ ?_
  refine part11_val (F := F) d L k g0 g1 g4 g5 D0 _ _ ?_
  refine part12_val (F := F) d L k g0 g1 g4 g5 D0 _ _ ?_
  refine part13_val (F := F) d L k g0 g1 g4 g5 D0 _ _ ?_
  refine part14_val (F := F) d L k g0 g1 g4 g5 D0 _ _ ?_
  refine part15_val (F := F) d L k g0 g1 g4 g5 D0 _ _ ?_
  refine part16_val (F := F) d L k g0 g1 g4 g5 D0 _ _ ?_
  refine part17_val (F := F) d L k g0 g1 g4 g5 D0 _ _ ?_
  refine part18_val (F := F) d L k g0 g1 g4 g5 D0 _ _ ?_
  unfold heldV
  iintro ⟨H0, H1, H4, H5, H6⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_step
  sl_unfold_run_names
  repeat (first | rw [diff_writes_head] | rw [diff_readCov_head] | rw [diff_readAt_whole])
  isplitl [H0]; · iexact H0
  isplitl [H1]; · iexact H1
  isplitl [H4]; · iexact H4
  isplitl [H5]; · iexact H5
  iexact H6

end Cert.KernelIdeal.TileGTripV

end
-- ==== Proof.TileGTripGV.lean ====
/-
  ONE TRIP of the first SparseCore kernel's loop IN THE LOOP'S VALUE FORM: from the four read scratches at their fixed
  contents and the difference scratch at what `k` trips leave, trip `k` leaves the difference scratch at what `k + 1`
  trips leave.
-/
import proofs.«203895_g52347061404180_cont_8to1_c_859_34_alg».proof.Proof.TileGConv
import proofs.«203895_g52347061404180_cont_8to1_c_859_34_alg».proof.Proof.TileGTripV

noncomputable section

namespace Cert.KernelIdeal.TileGTripGV

open Cert.KernelIdeal Cert.KernelIdeal.Gen Cert.KernelIdeal.KCommon Cert.KernelIdeal.TileCommon Cert.KernelIdeal.TileG Cert.KernelIdeal.TileGParts Cert.KernelIdeal.TileGPartsV Cert.KernelIdeal.TileGConv
open Cert.KernelIdeal.TileGV (gwG hgwG rawOf invGV)
open Cert.LibGValue (tripsUpTo)

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

variable (d : Dev nD) (L : grid1.Coords)
variable [FloatOps F]

/-- What trip `k` leaves is the loop's statement at `k + 1`. -/
theorem post_gv (R0 : Buf (Elt F) ((rawPM).view.loc (V d (cV L) (jV L)))) (R1 : Buf (Elt F) ((rawNM).view.loc (V d (cV L) (jV L))))
    (B4 : Buf (Elt F) ((rowsPM).view.loc (V d (cV L) (jV L)))) (B5 : Buf (Elt F) ((rowsNM).view.loc (V d (cV L) (jV L))))
    (D0 : Buf (Elt F) ((diffM).view.loc (V d (cV L) (jV L)))) (k : Fin k1_t1_loop.trips) :
    heldV (F := F) d L R0 R1 B4 B5
        (Dn (F := F) d L k R0 R1 B4 B5 (tripsUpTo iota_S16_d0_w32_scVector B4 B5 gwG hgwG (rawOf R0) (rawOf R1) D0 k.val) 64)
      ⊢ invGV (F := F) d L R0 R1 B4 B5 D0 (k.val + 1) ⟨⟩ := by
  rw [Dn_eq_tripsUpTo]
  unfold heldV invGV
  iintro ⟨H0, H1, H4, H5, H6⟩
  isplitl [H0]; · iexact H0
  isplitl [H1]; · iexact H1
  isplitl [H4]; · iexact H4
  isplitl [H5]; · iexact H5
  iexact H6

/-- ONE TRIP PASSES THE LOOP'S VALUE STATEMENT ON. -/
theorem trip_gv (R0 : Buf (Elt F) ((rawPM).view.loc (V d (cV L) (jV L)))) (R1 : Buf (Elt F) ((rawNM).view.loc (V d (cV L) (jV L))))
    (B4 : Buf (Elt F) ((rowsPM).view.loc (V d (cV L) (jV L)))) (B5 : Buf (Elt F) ((rowsNM).view.loc (V d (cV L) (jV L))))
    (D0 : Buf (Elt F) ((diffM).view.loc (V d (cV L) (jV L)))) (k : Fin k1_t1_loop.trips) (acc : Unit) :
    invGV (F := F) d L R0 R1 B4 B5 D0 k.val acc
      ⊢ wp frame (wpE (defs₀ (F := F)) 𝒱₀ (V d (cV L) (jV L)) none) Set.univ
          (k1_t1_body L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 (iota .scVector S16 32 [0] iota_S16_d0_w32_scVector) k1_pay164 k1_pay165 k acc)
          (fun acc' => invGV (F := F) d L R0 R1 B4 B5 D0 (k.val + 1) acc') := by
  unfold invGV
  iintro ⟨H0, H1, H4, H5, H6⟩
  iapply (wp_mono frame _ _ (fun _ => post_gv (F := F) d L R0 R1 B4 B5 D0 k))
  iapply (Cert.KernelIdeal.TileGTripV.trip_val (F := F) d L k acc R0 R1 B4 B5 _)
  unfold heldV
  isplitl [H0]; · iexact H0
  isplitl [H1]; · iexact H1
  isplitl [H4]; · iexact H4
  isplitl [H5]; · iexact H5
  iexact H6

end Cert.KernelIdeal.TileGTripGV

end
-- ==== Proof.KernelRun.lean ====
/-
  The kernel programs' runs, from the tile bodies.

  The kernel side is the launch theorem for a program with SparseCore calls applied to its parts: the three TensorCore
  calls as regions of the SparseCore program, @main on the TensorCore (frame and value), the launch (payloads, the cuts
  of the arrays into the tiles' tasks, the launch element, the reading of the final memory), the pure value chain from
  the tiles' results to the specification — and the two SparseCore tile bodies. This module names the four tile-body
  statements the two kernel programs' runs need and derives the claim's two kernel statements from them:

  * the word-level program's frame, from the two tile bodies at the machine's words (`Cert.Kernel.KRun.bodyG`,
    `bodyDot`: a tile's task, at any grid point, any read shares and any contents whose index words name table rows,
    runs to its end without fault and gives its payload back): the prologue, the gathers and their waits, the loop by
    one lemma per printed part, the copy out (`TileGK`, `TileDotK`);
  * the idealized program's run with its value, from the two tile bodies at the ideal values in their value form
    (`Cert.KernelIdeal.KRun.bodyGV`, `bodyDotV`: the same, and the tile's slice of the result is what
    `Cert.TileSpec.OutG` / `OutDot` say of what the tile read): the same walk with the buffers' contents kept — the
    gathered blocks are rows of the packed table at the repacked indices, one loop trip is one full turn of the skewed
    stores (resp. sixteen parts of four accumulator steps), the result slice is the difference block (resp. the
    accumulators) copied out (`TileGVFrame` on `TileGTripGV`; `TileDotV`).
-/
import proofs.«203895_g52347061404180_cont_8to1_c_859_34_alg».proof.Defs
import proofs.«203895_g52347061404180_cont_8to1_c_859_34_alg».proof.Proof.BprSpec
import proofs.«203895_g52347061404180_cont_8to1_c_859_34_alg».proof.Proof.KernelValueRun
import proofs.«203895_g52347061404180_cont_8to1_c_859_34_alg».proof.Proof.KernelFrameK
import proofs.«203895_g52347061404180_cont_8to1_c_859_34_alg».proof.Proof.TileDotK
import proofs.«203895_g52347061404180_cont_8to1_c_859_34_alg».proof.Proof.TileGK
import proofs.«203895_g52347061404180_cont_8to1_c_859_34_alg».proof.Proof.TileDotV
import proofs.«203895_g52347061404180_cont_8to1_c_859_34_alg».proof.Proof.TileGVFrame
import proofs.«203895_g52347061404180_cont_8to1_c_859_34_alg».proof.Proof.TileGTripGV

noncomputable section

open Idealize.ShloMosaic Idealize.SL.Sem

namespace Cert.KernelIdeal.KRun

/-- The first SparseCore kernel's tile body with its value, at the ideal values: the body around the loop, from the
    loop's trip at the value invariant. -/
theorem bodyGV : Cert.KernelIdeal.LaunchOblV.BodyGV := fun d L q6a q6b q2 q4 f6 f2 f4 h2 h4 O W hO =>
  Cert.KernelIdeal.TileG.tile_body_gv_of_trip (F := Ideal) Cert.KernelIdeal.KCommon.facts d L q6a q6b q2 q4 f6 f2 f4 h2 h4
    (fun R0 R1 B4 B5 D0 k acc => Cert.KernelIdeal.TileGTripGV.trip_gv d L R0 R1 B4 B5 D0 k acc) O W hO

/-- The second SparseCore kernel's tile body with its value, at the ideal values. -/
theorem bodyDotV : Cert.KernelIdeal.LaunchOblV.BodyDotV := fun d L q9 q0 q7 f9 f0 f7 hidx O W hO =>
  Cert.KernelIdeal.TileDotV.tile_body_dot_val (F := Ideal) d L Cert.KernelIdeal.KCommon.facts q9 q0 q7 f9 f0 f7 hidx O W hO

/-- The idealized kernel program's run: the result at the specification of the arguments, the arguments unchanged. -/
theorem run [Cert.KernelIdeal.Facts] [Cert.Pre_input_domain.Facts]
    (m : (ℓ : Loc Cert.KernelIdeal.nD Cert.KernelIdeal.τ Cert.KernelIdeal.sig) → Buf (Elt Ideal) ℓ)
    (g : Dev Cert.KernelIdeal.nD → PrngReg) (hpre : Cert.Pre_KernelIdeal m) :
    θ_run (Cert.KernelIdeal.defs (F := Ideal)) (Cert.KernelIdeal.threads (F := Ideal)) ⟨m, fun _ => 0, g⟩
      (fun r => ∀ c : Dev Cert.KernelIdeal.nD,
        r.2.mem ((c.tc : Thread Cert.KernelIdeal.nD Cert.KernelIdeal.τ).loc Cert.KernelIdeal.main_v13)
          = Cert.BprSpec.G
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2)
            = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3)
            = m ((c.tc : Thread Cert.KernelIdeal.nD Cert.KernelIdeal.τ).loc Cert.KernelIdeal.main_arg3)) :=
  Cert.KernelIdeal.KernelValueRun.run_value m g bodyGV bodyDotV hpre

end Cert.KernelIdeal.KRun

namespace Cert.Kernel.KRun

/-- The first SparseCore kernel's tile body at the machine's words. -/
theorem bodyG : Cert.Kernel.LaunchObl.BodyG (F := Bits) := fun d L q6a q6b q2 q4 f6 f2 f4 h2 h4 O W hO =>
  Cert.Kernel.TileG.tile_body_g Cert.Kernel.KCommon.facts d L q6a q6b q2 q4 f6 f2 f4 h2 h4 O W hO

/-- The second SparseCore kernel's tile body at the machine's words. -/
theorem bodyDot : Cert.Kernel.LaunchObl.BodyDot (F := Bits) := fun d L q9 q0 q7 f9 f0 f7 hidx O W hO =>
  Cert.Kernel.TileDot.tile_body_dot d L Cert.Kernel.KCommon.facts q9 q0 q7 f9 f0 f7 hidx O W hO

/-- The word-level kernel program's frame. -/
theorem frame [Cert.Kernel.Facts] [Cert.Pre_input_domain.Facts] : Cert.frame_Kernel := fun m g hpre =>
  (θ_run Cert.Kernel.defs _ _).mono (fun _ h c => h c)
    (Cert.Kernel.KernelFrame.frame_of_bodies (F := Bits) bodyG bodyDot m g hpre)

end Cert.Kernel.KRun

end
-- ==== Proof.KernelFrame.lean ====
/-
  The kernel program's frame from its parts.

  Every weakly fair execution of the device's threads terminates, faults nowhere and leaves the four argument arrays
  unchanged — by the launch theorem for a program with SparseCore calls, from: the two tile bodies (each at any grid
  point, any read shares, any contents whose index words name table rows), the identity splits of a SparseCore's operands
  among its tiles, the launch element (the handshakes' cells, the three pipelines' staging cells), @main on the TensorCore
  (with the cuts of the arrays into the tiles' payloads at the two SparseCore calls, and the index arrays' ranges, which
  the precondition gives), and the reading of the final memory. Stated at any float instance: the word-level program's
  frame is the same proof over the other printed text.
-/
import proofs.«203895_g52347061404180_cont_8to1_c_859_34_alg».proof.Proof.LaunchApply
import proofs.«203895_g52347061404180_cont_8to1_c_859_34_alg».proof.Proof.LaunchObl
import proofs.«203895_g52347061404180_cont_8to1_c_859_34_alg».proof.Proof.MainTC
import proofs.«203895_g52347061404180_cont_8to1_c_859_34_alg».proof.Proof.LaunchSplit
import proofs.«203895_g52347061404180_cont_8to1_c_859_34_alg».proof.Proof.FlatRange

noncomputable section

namespace Cert.KernelIdeal.KernelFrame

open Cert.KernelIdeal Cert.KernelIdeal.Gen Cert.KernelIdeal.KCommon Cert.KernelIdeal.LaunchPay
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 2) (Elt F) ℕ UU ℕ

/-- The claim's post: the arguments unchanged. -/
def QC (m : (ℓ : Loc nD τ sig) → Buf (Elt F) ℓ) : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)

theorem frame_run [∀ e, Nonempty (Elt F e)]
    (hG : LaunchObl.BodyG (F := F)) (hDot : LaunchObl.BodyDot (F := F))
    (m : (ℓ : Loc nD τ sig) → Buf (Elt F) ℓ) (g : Dev nD → PrngReg)
    (hsplit0 : ∀ (d : Dev nD) (f6 : Vec F S50176x128 .f32) (f2 f4 : IVec S4096 32), MainTC.InRange f2 → MainTC.InRange f4 →
      iprop(((d.tc : Thread nD τ).loc main_v6 ↦{fullShare} f6) ∗ ((d.tc : Thread nD τ).loc main_v2 ↦{fullShare} f2)
        ∗ ((d.tc : Thread nD τ).loc main_v4 ↦{fullShare} f4) ∗ ∃ f, (d.tc : Thread nD τ).loc main_v7 ↦{fullShare} f)
        ⊢ (bigSep Finset.univ fun c : Fin ((K (F := F)).nCore 0) => (P (F := F)).st 0 d c : sProp 𝕄))
    (hjoin0 : ∀ d : Dev nD, (bigSep Finset.univ fun c : Fin ((K (F := F)).nCore 0) => (P (F := F)).dn 0 d c : sProp 𝕄)
        ⊢ iprop(∃ f, (d.tc : Thread nD τ).loc main_v7 ↦{fullShare} f))
    (hsplit1 : ∀ (d : Dev nD) (f9 : Vec F S50176x128 .f32) (f0 : IVec S4096 32) (f7 : Vec F S2048x128 .f32), MainTC.InRange f0 →
      iprop(((d.tc : Thread nD τ).loc main_v9 ↦{fullShare} f9) ∗ ((d.tc : Thread nD τ).loc main_v0 ↦{fullShare} f0)
        ∗ ((d.tc : Thread nD τ).loc main_v7 ↦{fullShare} f7) ∗ ∃ f, (d.tc : Thread nD τ).loc main_v10 ↦{fullShare} f)
        ⊢ (bigSep Finset.univ fun c : Fin ((K (F := F)).nCore 1) => (P (F := F)).st 1 d c : sProp 𝕄))
    (hjoin1 : ∀ d : Dev nD, (bigSep Finset.univ fun c : Fin ((K (F := F)).nCore 1) => (P (F := F)).dn 1 d c : sProp 𝕄)
        ⊢ iprop(∃ f, (d.tc : Thread nD τ).loc main_v10 ↦{fullShare} f))
    (hr2 : ∀ d, MainTC.InRange (MainTC.W1 (F := F) m d (Proc.devRef .tc main_v2)))
    (hr4 : ∀ d, MainTC.InRange (MainTC.W1 (F := F) m d (Proc.devRef .tc main_v4)))
    (hr0 : ∀ d, MainTC.InRange (MainTC.W1 (F := F) m d (Proc.devRef .tc main_v0))) :
    θ_run (Cert.KernelIdeal.defs (F := F)) (Cert.KernelIdeal.threads (F := F)) ⟨m, fun _ => 0, g⟩ (QC (F := F) m) :=
  LaunchApply.run_of (F := F) (P (F := F)) rfl
    (fun q => match q with | 0 => LaunchObl.tileObl0 (F := F) hG | 1 => LaunchObl.tileObl1 (F := F) hDot)
    (fun q => SparseCore.Cfg.VecSplit.of_plain (vecSplit (F := F) q))
    m g (LaunchElem.G (F := F)) (LaunchFin.FIN (F := F) m (fun _ _ => True)) (LaunchElem.u₀ (F := F)) (LaunchElem.hu₀ (F := F))
    (MainTC.hmain (F := F) m g hsplit0 hjoin0 hsplit1 hjoin1 hr2 hr4 hr0)
    (LaunchFin.fq (F := F) m (fun _ _ => True)) (LaunchFin.hfin (F := F) m (fun _ _ => True))
    (QC (F := F) m) (fun s' h c => (h c).2)

set_option maxHeartbeats 4000000 in
/-- A call's operands for its SparseCores are the 32 tiles' payloads. -/
theorem st0_eq (d : Dev nD) : (bigSep Finset.univ fun c : Fin ((K (F := F)).nCore 0) => (P (F := F)).st 0 d c : sProp 𝕄)
    = bigSep Finset.univ fun c : Fin 2 => bigSep Finset.univ fun i : Fin 16 => goGP (F := F) d c i := rfl
set_option maxHeartbeats 4000000 in
theorem st1_eq (d : Dev nD) : (bigSep Finset.univ fun c : Fin ((K (F := F)).nCore 1) => (P (F := F)).st 1 d c : sProp 𝕄)
    = bigSep Finset.univ fun c : Fin 2 => bigSep Finset.univ fun i : Fin 16 => goDotP (F := F) d c i := rfl
set_option maxHeartbeats 4000000 in
theorem dn0_eq (d : Dev nD) : (bigSep Finset.univ fun c : Fin ((K (F := F)).nCore 0) => (P (F := F)).dn 0 d c : sProp 𝕄)
    = bigSep Finset.univ fun c : Fin 2 => bigSep Finset.univ fun i : Fin 16 => goGP (F := F) d c i := rfl
set_option maxHeartbeats 4000000 in
theorem dn1_eq (d : Dev nD) : (bigSep Finset.univ fun c : Fin ((K (F := F)).nCore 1) => (P (F := F)).dn 1 d c : sProp 𝕄)
    = bigSep Finset.univ fun c : Fin 2 => bigSep Finset.univ fun i : Fin 16 => goDotP (F := F) d c i := rfl

set_option maxHeartbeats 4000000 in
/-- The same with the cuts of the arrays supplied: what is left are the two tile bodies and the index arrays' ranges. -/
theorem frame_run' [∀ e, Nonempty (Elt F e)]
    (hG : LaunchObl.BodyG (F := F)) (hDot : LaunchObl.BodyDot (F := F))
    (m : (ℓ : Loc nD τ sig) → Buf (Elt F) ℓ) (g : Dev nD → PrngReg)
    (hr2 : ∀ d, MainTC.InRange (MainTC.W1 (F := F) m d (Proc.devRef .tc main_v2)))
    (hr4 : ∀ d, MainTC.InRange (MainTC.W1 (F := F) m d (Proc.devRef .tc main_v4)))
    (hr0 : ∀ d, MainTC.InRange (MainTC.W1 (F := F) m d (Proc.devRef .tc main_v0))) :
    θ_run (Cert.KernelIdeal.defs (F := F)) (Cert.KernelIdeal.threads (F := F)) ⟨m, fun _ => 0, g⟩ (QC (F := F) m) :=
  frame_run (F := F) hG hDot m g
    (fun d f6 f2 f4 h2 h4 => (LaunchSplit.split0 (F := F) d f6 f2 f4 h2 h4).trans (Entails.of_eq (st0_eq (F := F) d).symm))
    (fun d => (Entails.of_eq (dn0_eq (F := F) d)).trans (LaunchSplit.join0 (F := F) d))
    (fun d f9 f0 f7 h0 => (LaunchSplit.split1 (F := F) d f9 f0 f7 h0).trans (Entails.of_eq (st1_eq (F := F) d).symm))
    (fun d => (Entails.of_eq (dn1_eq (F := F) d)).trans (LaunchSplit.join1 (F := F) d))
    hr2 hr4 hr0

/-- THE FRAME from the two tile bodies: under the precondition (which puts the index words in range) every weakly fair
    execution of the device's threads terminates, faults nowhere and leaves the arguments unchanged. -/
theorem frame_of_bodies [∀ e, Nonempty (Elt F e)] [Cert.Pre_input_domain.Facts]
    (hG : LaunchObl.BodyG (F := F)) (hDot : LaunchObl.BodyDot (F := F))
    (m : (ℓ : Loc nD τ sig) → Buf (Elt F) ℓ) (g : Dev nD → PrngReg)
    (hpre : ∀ c : Dev nD, Cert.Pre_input_domain.fn (F := F) (m ((c.tc : Thread nD τ).loc main_arg0)) (m ((c.tc : Thread nD τ).loc main_arg1))
      (m ((c.tc : Thread nD τ).loc main_arg2)) (m ((c.tc : Thread nD τ).loc main_arg3)) = (fun _ => 1#1)) :
    θ_run (Cert.KernelIdeal.defs (F := F)) (Cert.KernelIdeal.threads (F := F)) ⟨m, fun _ => 0, g⟩ (QC (F := F) m) :=
  frame_run' (F := F) hG hDot m g
    (fun d => (FlatRange.flat_ranges (F := F) m hpre d).1)
    (fun d => (FlatRange.flat_ranges (F := F) m hpre d).2.1)
    (fun d => (FlatRange.flat_ranges (F := F) m hpre d).2.2)

end Cert.KernelIdeal.KernelFrame

end
-- ==== Proof.TileGFrame.lean ====
/-
  ONE TILE'S TASK of the first SparseCore kernel, at a symbolic place: THE FRAME, from the loop's trip. The two index
  copies and their waits, the sixteen stores of repacked index chunks, the two indirect gathers (their offsets in range:
  every repacked word is below 50176, from the index words' range) and their waits, the loop at an invariant holding the
  five scratch buffers it touches, the copy of the differences out to the tile's rows of the result and its wait; the
  trip itself is a hypothesis here (`htrip`), proved part by part in its own modules.
-/
import proofs.«203895_g52347061404180_cont_8to1_c_859_34_alg».proof.Proof.TileGDefs
import proofs.«203895_g52347061404180_cont_8to1_c_859_34_alg».proof.Proof.Gen.KernelIdeal.Skeleton
import proofs.«203895_g52347061404180_cont_8to1_c_859_34_alg».proof.Proof.LibSkewVec
import proofs.«203895_g52347061404180_cont_8to1_c_859_34_alg».proof.Proof.LibWrites

noncomputable section

namespace Cert.KernelIdeal.TileG

open Cert.KernelIdeal Cert.KernelIdeal.Gen Cert.KernelIdeal.KCommon Cert.KernelIdeal.TileCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

local notation "tblW" => (Memref.whole Cert.KernelIdeal.main_v6_scv : Memref Cert.KernelIdeal.sig Kind.scVector Space.hbm Cert.KernelIdeal.S50176x128 EltTy.f32)
local notation "posW" => (Memref.whole Cert.KernelIdeal.main_v2_scv : Memref Cert.KernelIdeal.sig Kind.scVector Space.hbm Cert.KernelIdeal.S4096 EltTy.i32)
local notation "negW" => (Memref.whole Cert.KernelIdeal.main_v4_scv : Memref Cert.KernelIdeal.sig Kind.scVector Space.hbm Cert.KernelIdeal.S4096 EltTy.i32)
local notation "gpW" => (Memref.whole Cert.KernelIdeal.main_v7_scv : Memref Cert.KernelIdeal.sig Kind.scVector Space.hbm Cert.KernelIdeal.S2048x128 EltTy.f32)
local notation "s0W" => (Memref.whole Cert.KernelIdeal.cc1_scratch0 : Memref Cert.KernelIdeal.sig Kind.scVector Space.vmem Cert.KernelIdeal.S128 EltTy.i32)
local notation "s1W" => (Memref.whole Cert.KernelIdeal.cc1_scratch1 : Memref Cert.KernelIdeal.sig Kind.scVector Space.vmem Cert.KernelIdeal.S128 EltTy.i32)
local notation "s2W" => (Memref.whole Cert.KernelIdeal.cc1_scratch2 : Memref Cert.KernelIdeal.sig Kind.scVector Space.vmem Cert.KernelIdeal.S128 EltTy.i32)
local notation "s3W" => (Memref.whole Cert.KernelIdeal.cc1_scratch3 : Memref Cert.KernelIdeal.sig Kind.scVector Space.vmem Cert.KernelIdeal.S128 EltTy.i32)
local notation "s4W" => (Memref.whole Cert.KernelIdeal.cc1_scratch4 : Memref Cert.KernelIdeal.sig Kind.scVector Space.vmem Cert.KernelIdeal.S128x128 EltTy.f32)
local notation "s5W" => (Memref.whole Cert.KernelIdeal.cc1_scratch5 : Memref Cert.KernelIdeal.sig Kind.scVector Space.vmem Cert.KernelIdeal.S128x128 EltTy.f32)
local notation "s6W" => (Memref.whole Cert.KernelIdeal.cc1_scratch6 : Memref Cert.KernelIdeal.sig Kind.scVector Space.vmem Cert.KernelIdeal.S64x128 EltTy.f32)

section Tile

/-- A chunk of sixteen index words in `[0, 99999]`, repacked (minus `50176` where at least that), is below `50176`. -/
theorem repack_lt (R : IVec S16 32) (hR : ∀ z, 0 ≤ (R z).toInt ∧ (R z).toInt ≤ 99999) (y : S16.Idx) :
    (select (cmpi .sge R (broadcast S16 50176#32)) (subi R (broadcast S16 50176#32)) R y).toNat < 50176 :=
  (Cert.LibSkewVec.packed_apply R y (hR y).1 (hR y).2).1

set_option maxHeartbeats 4000000 in
theorem tile_body_g_of_trip (hF : (K (F := F)).Facts) (d : Dev nD) (L : grid1.Coords) (q6a q6b q2 q4 : PosShare TreeShare)
    (f6 : Buf (Elt F) ((tblW).view.loc (V d (cV L) (jV L))))
    (f2 : Buf (Elt F) ((posW).view.loc (V d (cV L) (jV L)))) (f4 : Buf (Elt F) ((negW).view.loc (V d (cV L) (jV L))))
    (hidx2 : ∀ j, 0 ≤ (f2 j).toInt ∧ (f2 j).toInt ≤ 99999) (hidx4 : ∀ j, 0 ≤ (f4 j).toInt ∧ (f4 j).toInt ≤ 99999)
    (htrip : ∀ (k : Fin k1_t1_loop.trips) (acc : Unit), invG (F := F) d L k.val acc
      ⊢ wp frame (wpE (defs₀ (F := F)) 𝒱₀ (V d (cV L) (jV L)) none) Set.univ
          (k1_t1_body L tblW (Memref.isWhole_whole _) posW (Memref.isWhole_whole _) negW (Memref.isWhole_whole _)
            gpW (Memref.isWhole_whole _) s0W (Memref.isWhole_whole _) s1W (Memref.isWhole_whole _) s2W (Memref.isWhole_whole _)
            s3W (Memref.isWhole_whole _) s4W (Memref.isWhole_whole _) s5W (Memref.isWhole_whole _) s6W (Memref.isWhole_whole _)
            cc1_scratch7 cc1_scratch8 cc1_scoped0 cc1_scoped1 cc1_scoped2
            (iota .scVector S16 32 [0] iota_S16_d0_w32_scVector) k1_pay164 k1_pay165 k acc)
          (fun acc' => invG (F := F) d L (k.val + 1) acc'))
    (O : CellTallies nD τ sig (HIx 2)) (W : Waits sig (HIx 2)) (hO : ∀ g, O g none = 0) :
    iprop(levAts (K (F := F)).L (K (F := F)).lev ∗ emp ∗ goG d L q6a q6b q2 q4 f6 f2 f4
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_g_body L tblM (Memref.isWhole_whole _) posM (Memref.isWhole_whole _) negM (Memref.isWhole_whole _)
            gpM (Memref.isWhole_whole _) rawPM (Memref.isWhole_whole _) rawNM (Memref.isWhole_whole _) idxPM (Memref.isWhole_whole _)
            idxNM (Memref.isWhole_whole _) rowsPM (Memref.isWhole_whole _) rowsNM (Memref.isWhole_whole _) diffM (Memref.isWhole_whole _)
            cc1_scratch7 cc1_scratch8 cc1_scoped0 cc1_scoped1 cc1_scoped2)
          fun _ => iprop(goG d L q6a q6b q2 q4 f6 f2 f4 ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__sc_g_body_eq_skeleton]; unfold cc1__sc_g_body_skel
  unfold tblM posM negM gpM rawPM rawNM idxPM idxNM rowsPM rowsNM diffM
  rw [(K (F := F)).scopedBufs_V hF d (cV L) (jV L), SparseCore.Cfg.scopedSems0_V (Val := Elt F) d (cV L) (jV L), ownSems0_V, ownBufs_V]
  unfold goG
  iintro ⟨#Hlv, -, ⟨Htbl, Htbl2, Hpos, Hneg, %fo, Hout⟩,
    ⟨⟨%g0, Hs0⟩, ⟨%g1, Hs1⟩, ⟨%g2, Hs2⟩, ⟨%g3, Hs3⟩, ⟨%g4, Hs4⟩, ⟨%g5, Hs5⟩, ⟨%g6, Hs6⟩, Hb30, Hb31, Hb32, Hb33, Hb34, Hbufs⟩,
    ⟨Hsem7, Hsem8, Hsc0, Hsc1, Hsc2, Hr5, Hr6, Hr30, Hr31, Hsems⟩, HO⟩
  ihave Hmw := ((K (F := F)).mayWaits_none (thr := V d (cV L) (jV L)) hO) $$ Hlv
  ihave Hs0' := (Entails.of_eq (pts_s0 (F := F) d L g0).symm) $$ Hs0
  ihave Hs1' := (Entails.of_eq (pts_s1 (F := F) d L g1).symm) $$ Hs1
  ihave Hs2' := (Entails.of_eq (pts_s2 (F := F) d L g2).symm) $$ Hs2
  ihave Hs3' := (Entails.of_eq (pts_s3 (F := F) d L g3).symm) $$ Hs3
  ihave Hs4' := (Entails.of_eq (pts_s4 (F := F) d L g4).symm) $$ Hs4
  ihave Hs5' := (Entails.of_eq (pts_s5 (F := F) d L g5).symm) $$ Hs5
  ihave Hs6' := (Entails.of_eq (pts_s6 (F := F) d L g6).symm) $$ Hs6
  sl_exec
  generalize hc2 : (s2W).view.writes (Elt F) (s2W).view.junk _ = c2
  have hin2 : ∀ x, ((s2W).view.read (Elt F) c2 x).toNat < S50176x128.size (gathers_S50176x128_S128x128).axis := by
    subst hc2
    intro x
    sl_unfold_run_names
    refine Cert.LibWrites.read_writes_pred (Val := Elt F) (e := .i32) _ _ (fun w : BitVec 32 => w.toNat < 50176) _ ?_ x ?_
    · intro p hp y
      simp only [List.mem_cons, List.not_mem_nil, or_false] at hp
      rcases hp with rfl | rfl | rfl | rfl | rfl | rfl | rfl | rfl
      all_goals
        refine repack_lt _ (fun z => ?_) y
        rw [View.write_whole_univ]
        simp only [View.readAt_apply, Memref.view_whole, View.read_whole]
        first
          | exact hidx2 _
          | (have h := hidx2 (View.emb _ _); simpa [View.read_apply] using h)
    · exact View.cover_of_tiled _ ![16] rfl x
  generalize hc3 : (s3W).view.writes (Elt F) g3 _ = c3
  have hin3 : ∀ x, ((s3W).view.read (Elt F) c3 x).toNat < S50176x128.size (gathers_S50176x128_S128x128).axis := by
    subst hc3
    intro x
    sl_unfold_run_names
    refine Cert.LibWrites.read_writes_pred (Val := Elt F) (e := .i32) _ _ (fun w : BitVec 32 => w.toNat < 50176) _ ?_ x ?_
    · intro p hp y
      simp only [List.mem_cons, List.not_mem_nil, or_false] at hp
      rcases hp with rfl | rfl | rfl | rfl | rfl | rfl | rfl | rfl
      all_goals
        refine repack_lt _ (fun z => ?_) y
        rw [View.write_whole_univ]
        simp only [View.readAt_apply, Memref.view_whole, View.read_whole]
        first
          | exact hidx4 _
          | (have h := hidx4 (View.emb _ _); simpa [View.read_apply] using h)
    · exact View.cover_of_tiled _ ![16] rfl x
  sl_exec
  sl_for (invG (F := F) d L) $$ [Hs0' Hs1' Hs4' Hs5' Hs6']
  case region =>
    intro k acc
    sl_unfold_run_names
    exact htrip k acc
  · unfold invG
    isplitl [Hs0']; · iexists _; iexact Hs0'
    isplitl [Hs1']; · iexists _; iexact Hs1'
    isplitl [Hs4']; · iexists _; iexact Hs4'
    isplitl [Hs5']; · iexists _; iexact Hs5'
    iexists _; iexact Hs6'
  iintro %_ HI
  unfold invG
  icases HI with ⟨⟨%h0, H0⟩, ⟨%h1, H1⟩, ⟨%h4, H4⟩, ⟨%h5, H5⟩, ⟨%h6, H6⟩⟩
  sl_exec
  sl_step
  isplitl [Htbl Htbl2 Hpos Hneg Hout]
  · isplitl [Htbl]; · iexact Htbl
    isplitl [Htbl2]; · iexact Htbl2
    isplitl [Hpos]; · iexact Hpos
    isplitl [Hneg]; · iexact Hneg
    iexists _; iexact Hout
  isplitl [H0 H1 Hs2' Hs3' H4 H5 H6 Hb30 Hb31 Hb32 Hb33 Hb34 Hbufs]
  · isplitl [H0]; · iexists _; iapply (Entails.of_eq (pts_s0 (F := F) d L _)); iexact H0
    isplitl [H1]; · iexists _; iapply (Entails.of_eq (pts_s1 (F := F) d L _)); iexact H1
    isplitl [Hs2']; · iexists _; iapply (Entails.of_eq (pts_s2 (F := F) d L _)); iexact Hs2'
    isplitl [Hs3']; · iexists _; iapply (Entails.of_eq (pts_s3 (F := F) d L _)); iexact Hs3'
    isplitl [H4]; · iexists _; iapply (Entails.of_eq (pts_s4 (F := F) d L _)); iexact H4
    isplitl [H5]; · iexists _; iapply (Entails.of_eq (pts_s5 (F := F) d L _)); iexact H5
    isplitl [H6]; · iexists _; iapply (Entails.of_eq (pts_s6 (F := F) d L _)); iexact H6
    isplitl [Hb30]; · iexact Hb30
    isplitl [Hb31]; · iexact Hb31
    isplitl [Hb32]; · iexact Hb32
    isplitl [Hb33]; · iexact Hb33
    isplitl [Hb34]; · iexact Hb34
    iexact Hbufs
  isplitl [Hsem7 Hsem8 Hsc0 Hsc1 Hsc2 Hr5 Hr6 Hr30 Hr31 Hsems]
  · isplitl [Hsem7]; · iexact Hsem7
    isplitl [Hsem8]; · iexact Hsem8
    isplitl [Hsc0]; · iexact Hsc0
    isplitl [Hsc1]; · iexact Hsc1
    isplitl [Hsc2]; · iexact Hsc2
    isplitl [Hr5]; · iexact Hr5
    isplitl [Hr6]; · iexact Hr6
    isplitl [Hr30]; · iexact Hr30
    isplitl [Hr31]; · iexact Hr31
    iexact Hsems
  iexists _; isplitr
  rotate_left
  · iexact HO
  · ipureintro; intro p hp
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    rcases Finset.mem_insert.mp hp with hp | hp
    · exact .inr (hp ▸ rfl)
    exact .inl hp

end Tile

end Cert.KernelIdeal.TileG

end
-- ==== Proof.TileGTrip.lean ====
/-
  ONE TRIP of the first SparseCore kernel's loop over its 8 groups of 16 triples, at a symbolic place and trip: the
  eighteen parts in sequence, each owed the next at whatever it loads, then the last skewed steps' loads and stores. The
  raw index words and the gathered rows are held at fixed contents throughout; only the difference block changes.
-/
import proofs.«203895_g52347061404180_cont_8to1_c_859_34_alg».proof.Proof.TileGDefs
import proofs.«203895_g52347061404180_cont_8to1_c_859_34_alg».proof.Proof.Gen.KernelIdeal.Skeleton
import proofs.«203895_g52347061404180_cont_8to1_c_859_34_alg».proof.Proof.LibSkewVec
import proofs.«203895_g52347061404180_cont_8to1_c_859_34_alg».proof.Proof.TileGParts

noncomputable section

namespace Cert.KernelIdeal.TileGTrip

open Cert.KernelIdeal Cert.KernelIdeal.Gen Cert.KernelIdeal.KCommon Cert.KernelIdeal.TileCommon Cert.KernelIdeal.TileG Cert.KernelIdeal.TileGParts

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid1.Coords)
variable [FloatOps F]

set_option maxHeartbeats 4000000 in
set_option maxRecDepth 65536 in
/-- One trip from the four read buffers at fixed contents: the eighteen parts, then the last steps. -/
theorem trip_held (k : Fin k1_t1_loop.trips) (acc : Unit)
    (g0 : Buf (Elt F) ((rawPM).view.loc (V d (cV L) (jV L)))) (g1 : Buf (Elt F) ((rawNM).view.loc (V d (cV L) (jV L))))
    (g4 : Buf (Elt F) ((rowsPM).view.loc (V d (cV L) (jV L)))) (g5 : Buf (Elt F) ((rowsNM).view.loc (V d (cV L) (jV L)))) :
    heldG (F := F) d L g0 g1 g4 g5
      ⊢ wp frame (wpE (defs₀ (F := F)) 𝒱₀ (V d (cV L) (jV L)) none) Set.univ
          (k1_t1_body L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 (iota .scVector S16 32 [0] iota_S16_d0_w32_scVector) k1_pay164 k1_pay165 k acc)
          fun acc' => invG (F := F) d L (k.val + 1) acc' := by
  have hg := iv_lt k
  unfold k1_t1_body
  simp only [SparseCore.vectorLoadIdx_bind (c := (V d (cV L) (jV L))), SparseCore.vectorStoreIdx_bind (c := (V d (cV L) (jV L)))]
  refine part1_frame (F := F) d L k g0 g1 g4 g5 _ _ (fun x189 x195 x217 x219 h6 => ?_)
  refine part2_frame (F := F) d L k x189 x195 x217 x219 h6 g0 g1 g4 g5 _ _ ?_
  refine part3_frame (F := F) d L k x189 x195 g0 g1 g4 g5 _ _ (fun h27 x294 x296 => ?_)
  refine part4_frame (F := F) d L k x189 x195 h27 x294 x296 g0 g1 g4 g5 _ _ ?_
  refine part5_frame (F := F) d L k x189 x195 g0 g1 g4 g5 _ _ ?_
  refine part6_frame (F := F) d L k x189 x195 g0 g1 g4 g5 _ _ (fun h58 => ?_)
  refine part7_frame (F := F) d L k x189 x195 h58 g0 g1 g4 g5 _ _ ?_
  refine part8_frame (F := F) d L k x189 x195 g0 g1 g4 g5 _ _ (fun x492 => ?_)
  refine part9_frame (F := F) d L k x189 x195 x492 g0 g1 g4 g5 _ _ ?_
  refine part10_frame (F := F) d L k x189 x195 g0 g1 g4 g5 _ _ (fun x569 => ?_)
  refine part11_frame (F := F) d L k x189 x195 x569 g0 g1 g4 g5 _ _ ?_
  refine part12_frame (F := F) d L k x189 x195 g0 g1 g4 g5 _ _ (fun x646 h122 => ?_)
  refine part13_frame (F := F) d L k x189 x195 x646 h122 g0 g1 g4 g5 _ _ ?_
  refine part14_frame (F := F) d L k x189 x195 g0 g1 g4 g5 _ _ (fun x723 x725 => ?_)
  refine part15_frame (F := F) d L k x189 x195 x723 x725 g0 g1 g4 g5 _ _ ?_
  refine part16_frame (F := F) d L k x189 x195 g0 g1 g4 g5 _ _ (fun x800 x802 => ?_)
  refine part17_frame (F := F) d L k x189 x195 x800 x802 g0 g1 g4 g5 _ _ ?_
  refine part18_frame (F := F) d L k x189 x195 g0 g1 g4 g5 _ _ (fun x877 x879 h186 => ?_)
  unfold heldG
  iintro ⟨H0, H1, H4, H5, ⟨%g6, H6⟩⟩
  sl_exec (disch := (intro a x; first
    | (guard_target = _ < S128x128.size _; exact Cert.LibSkewVec.chk_rows iota_S16_d0_w32_scVector _ _ _ hg (by decide) a x)
    | (guard_target = _ < S64x128.size _; exact Cert.LibSkewVec.chk_grows iota_S16_d0_w32_scVector _ _ hg (by decide) a x)))
  sl_step
  unfold invG
  isplitl [H0]; · iexists _; iexact H0
  isplitl [H1]; · iexists _; iexact H1
  isplitl [H4]; · iexists _; iexact H4
  isplitl [H5]; · iexists _; iexact H5
  iexists _; iexact H6

/-- ONE TRIP KEEPS WHAT THE LOOP HOLDS. -/
theorem trip_g (k : Fin k1_t1_loop.trips) (acc : Unit) :
    invG (F := F) d L k.val acc
      ⊢ wp frame (wpE (defs₀ (F := F)) 𝒱₀ (V d (cV L) (jV L)) none) Set.univ
          (k1_t1_body L tblM (Memref.isWhole_whole _) posM (Memref.isWhole_whole _) negM (Memref.isWhole_whole _) gpM (Memref.isWhole_whole _) rawPM (Memref.isWhole_whole _) rawNM (Memref.isWhole_whole _) idxPM (Memref.isWhole_whole _) idxNM (Memref.isWhole_whole _) rowsPM (Memref.isWhole_whole _) rowsNM (Memref.isWhole_whole _) diffM (Memref.isWhole_whole _) cc1_scratch7 cc1_scratch8 cc1_scoped0 cc1_scoped1 cc1_scoped2 (iota .scVector S16 32 [0] iota_S16_d0_w32_scVector) k1_pay164 k1_pay165 k acc)
          fun acc' => invG (F := F) d L (k.val + 1) acc' := by
  unfold invG
  iintro ⟨⟨%g0, H0⟩, ⟨%g1, H1⟩, ⟨%g4, H4⟩, ⟨%g5, H5⟩, H6⟩
  iapply (trip_held (F := F) d L k acc g0 g1 g4 g5)
  unfold heldG
  isplitl [H0]; · iexact H0
  isplitl [H1]; · iexact H1
  isplitl [H4]; · iexact H4
  isplitl [H5]; · iexact H5
  iexact H6

end Cert.KernelIdeal.TileGTrip

end
-- ==== Proof.TileG.lean ====
/-
  ONE TILE'S TASK of the first SparseCore kernel, at a symbolic place: THE FRAME — the task's frame from the loop's trip
  (TileGFrame) at the trip proved part by part (TileGTrip).
-/
import proofs.«203895_g52347061404180_cont_8to1_c_859_34_alg».proof.Proof.TileGFrame
import proofs.«203895_g52347061404180_cont_8to1_c_859_34_alg».proof.Proof.TileGTrip

noncomputable section

namespace Cert.KernelIdeal.TileG

open Cert.KernelIdeal Cert.KernelIdeal.Gen Cert.KernelIdeal.KCommon Cert.KernelIdeal.TileCommon

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 2) (Elt F) ℕ UU ℕ

/-- THE TILE'S TASK: from its payload (two read shares of the packed table, a read share of each index array whose words
    are all in `[0, 99999]`, its rows of the result outright), its scoped buffers and semaphores and what it owes, the
    task runs to its end, nothing faulting, and hands the same back with the waits it made recorded. -/
theorem tile_body_g (hF : (K (F := F)).Facts) (d : Dev nD) (L : grid1.Coords) (q6a q6b q2 q4 : PosShare TreeShare)
    (f6 : Buf (Elt F) ((Memref.whole main_v6_scv : Memref sig .scVector .hbm S50176x128 .f32).view.loc (V d (cV L) (jV L))))
    (f2 : Buf (Elt F) ((Memref.whole main_v2_scv : Memref sig .scVector .hbm S4096 .i32).view.loc (V d (cV L) (jV L))))
    (f4 : Buf (Elt F) ((Memref.whole main_v4_scv : Memref sig .scVector .hbm S4096 .i32).view.loc (V d (cV L) (jV L))))
    (hidx2 : ∀ j, 0 ≤ (f2 j).toInt ∧ (f2 j).toInt ≤ 99999) (hidx4 : ∀ j, 0 ≤ (f4 j).toInt ∧ (f4 j).toInt ≤ 99999)
    (O : CellTallies nD τ sig (HIx 2)) (W : Waits sig (HIx 2)) (hO : ∀ g, O g none = 0) :
    iprop(levAts (K (F := F)).L (K (F := F)).lev ∗ emp ∗ goG d L q6a q6b q2 q4 f6 f2 f4
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_g_body L tblM (Memref.isWhole_whole _) posM (Memref.isWhole_whole _) negM (Memref.isWhole_whole _)
            gpM (Memref.isWhole_whole _) rawPM (Memref.isWhole_whole _) rawNM (Memref.isWhole_whole _) idxPM (Memref.isWhole_whole _)
            idxNM (Memref.isWhole_whole _) rowsPM (Memref.isWhole_whole _) rowsNM (Memref.isWhole_whole _) diffM (Memref.isWhole_whole _)
            cc1_scratch7 cc1_scratch8 cc1_scoped0 cc1_scoped1 cc1_scoped2)
          fun _ => iprop(goG d L q6a q6b q2 q4 f6 f2 f4 ∗ scopedBufs (V d (cV L) (jV L)) ∗ scopedSems0 (V d (cV L) (jV L))
            ∗ ∃ W', ⌜∀ p ∈ W', p ∈ W ∨ p.2 = none⌝ ∗ owes (V d (cV L) (jV L)) O W') :=
  tile_body_g_of_trip hF d L q6a q6b q2 q4 f6 f2 f4 hidx2 hidx4
    (fun k acc => Cert.KernelIdeal.TileGTrip.trip_g (F := F) d L k acc) O W hO

end Cert.KernelIdeal.TileG

end
-- ==== Proof.TileDot.lean ====
/-
  ONE TILE'S TASK of the second SparseCore kernel, at a symbolic place: vector subcore `L 1` of SparseCore `L 0` of device
  `d` takes its 128 user index words, repacks them below 50176, gathers the 128 packed user rows they name, copies its 64
  packed rows of item differences, forms per user the dot product of the selected half of the user's row with the
  selected half of the difference row — 8 groups of 16 users, 64 skewed steps each —, and writes its 128 scores out.
  The frame: from a read share of the packed user table, of the index array and of its 64 difference rows, and its own
  128 result entries, the task runs to its end and gives them back, the result entries at some contents.
-/
import proofs.«203895_g52347061404180_cont_8to1_c_859_34_alg».proof.Proof.TileDotDefs
import proofs.«203895_g52347061404180_cont_8to1_c_859_34_alg».proof.Proof.Gen.KernelIdeal.Skeleton
import proofs.«203895_g52347061404180_cont_8to1_c_859_34_alg».proof.Proof.LibSkewVec
import proofs.«203895_g52347061404180_cont_8to1_c_859_34_alg».proof.Proof.LibWritesAll
import proofs.«203895_g52347061404180_cont_8to1_c_859_34_alg».proof.Proof.TileDotTrip

noncomputable section

namespace Cert.KernelIdeal.TileDot

open Cert.KernelIdeal Cert.KernelIdeal.Gen Cert.KernelIdeal.KCommon Cert.KernelIdeal.TileCommon Cert.KernelIdeal.TileDotDefs

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

variable (d : Dev nD) (L : grid3.Coords)
variable [FloatOps F]

omit [FloatOps F] in
/-- Four waits recorded at the kernels' index beyond `W`. -/
theorem waits4 (W : Waits sig (HIx 2)) (s1 s2 s3 s4 : SemLoc sig) :
    ∀ p ∈ insert (s1, (default : HIx 2)) (insert (s2, (default : HIx 2)) (insert (s3, (default : HIx 2)) (insert (s4, (default : HIx 2)) W))),
      p ∈ W ∨ p.2 = none := by
  intro p hp
  rcases Finset.mem_insert.mp hp with rfl | hp
  · exact Or.inr rfl
  rcases Finset.mem_insert.mp hp with rfl | hp
  · exact Or.inr rfl
  rcases Finset.mem_insert.mp hp with rfl | hp
  · exact Or.inr rfl
  rcases Finset.mem_insert.mp hp with rfl | hp
  · exact Or.inr rfl
  exact Or.inl hp

set_option maxHeartbeats 4000000 in
set_option maxRecDepth 65536 in
/-- The task on vector subcore `(L 0, L 1)` of device `d`. -/
theorem tile_body_dot (hF : (K (F := F)).Facts) (q9 q0 q7 : PosShare TreeShare)
    (f9 : Buf (Elt F) ((puM).view.loc (V d (cV L) (jV L)))) (f0 : Buf (Elt F) ((uiM).view.loc (V d (cV L) (jV L))))
    (f7 : Buf (Elt F) ((gpSl L).view.loc (V d (cV L) (jV L))))
    (hidx : ∀ j, 0 ≤ (f0 j).toInt ∧ (f0 j).toInt ≤ 99999)
    (O : CellTallies nD τ sig (HIx 2)) (W : Waits sig (HIx 2)) (hO : ∀ g, O g none = 0) :
    iprop(levAts (K (F := F)).L (K (F := F)).lev ∗ emp ∗ goDot d L q9 q0 q7 f9 f0 f7
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3__sc_dot_body L puM (Memref.isWhole_whole _) uiM (Memref.isWhole_whole _) gpM (Memref.isWhole_whole _)
            outM (Memref.isWhole_whole _) urawM (Memref.isWhole_whole _) uidxM (Memref.isWhole_whole _)
            urowsM (Memref.isWhole_whole _) gpvM (Memref.isWhole_whole _) diffsM (Memref.isWhole_whole _)
            cc3_scratch5 cc3_scratch6 cc3_scoped0 cc3_scoped1)
          fun _ => iprop(goDot d L q9 q0 q7 f9 f0 f7 ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3__sc_dot_body_eq_skeleton]; unfold cc3__sc_dot_body_skel
  rw [(K (F := F)).scopedBufs_V hF d (cV L) (jV L), SparseCore.Cfg.scopedSems0_V (Val := Elt F) d (cV L) (jV L), ownSems0_V, ownBufs_V]
  unfold goDot
  iintro ⟨#Hlv, -, ⟨Hpu, Hui, Hgp, ⟨%fo, Hout⟩⟩,
    ⟨⟨%a0, Ha0⟩, ⟨%a1, Ha1⟩, ⟨%a2, Ha2⟩, ⟨%a3, Ha3⟩, ⟨%a4, Ha4⟩, ⟨%a5, Ha5⟩, ⟨%a6, Ha6⟩,
      ⟨%s0, Hs0⟩, ⟨%s1, Hs1⟩, ⟨%s2, Hs2⟩, ⟨%s3, Hs3⟩, ⟨%s4, Hs4⟩, Hbufs⟩,
    ⟨Hc17, Hc18, Hc1s0, Hc1s1, Hc1s2, Hsu, Hsg, Hr0, Hr1, Hsems⟩, HO⟩
  ihave Hmw := ((K (F := F)).mayWaits_none (thr := V d (cV L) (jV L)) hO) $$ Hlv
  ihave Hs0 := (Entails.of_eq (pts_s0 (F := F) d L _).symm) $$ Hs0
  ihave Hs1 := (Entails.of_eq (pts_s1 (F := F) d L _).symm) $$ Hs1
  ihave Hs2 := (Entails.of_eq (pts_s2 (F := F) d L _).symm) $$ Hs2
  ihave Hs3 := (Entails.of_eq (pts_s3 (F := F) d L _).symm) $$ Hs3
  ihave Hs4 := (Entails.of_eq (pts_s4 (F := F) d L _).symm) $$ Hs4
  sl_exec
  -- the index list now holds the eight repacked chunks: every word of it names a row of the packed table
  have hraw : ∀ (r : LoadRect S128) (x : r.shape.Idx),
      0 ≤ ((urawM).view.readAt (Elt F) r (View.write (Elt F) (urawM).view s0 (tile_body_dot.sl.dma0 d L f0) Finset.univ) x).toInt
        ∧ ((urawM).view.readAt (Elt F) r (View.write (Elt F) (urawM).view s0 (tile_body_dot.sl.dma0 d L f0) Finset.univ) x).toInt ≤ 99999 := by
    intro r x
    have e : (urawM).view.readAt (Elt F) r (View.write (Elt F) (urawM).view s0 (tile_body_dot.sl.dma0 d L f0) Finset.univ) x
        = f0 ((uiSl L).view.emb (r.idx x)) := by
      show (View.whole cc3_scratch0).read (Elt F) ((View.whole cc3_scratch0).write (Elt F) s0 (tile_body_dot.sl.dma0 d L f0) Finset.univ) (r.idx x) = _
      rw [View.write_whole_univ]
      rfl
    rw [e]; exact hidx _
  have hpk : ∀ (raw : IVec S16 32), (∀ x, 0 ≤ (raw x).toInt ∧ (raw x).toInt ≤ 99999) → ∀ x,
      (select (cmpi .sge raw (broadcast S16 50176#32)) (subi raw (broadcast S16 50176#32)) raw x).toNat < 50176 :=
    fun raw h x => (Cert.LibSkewVec.packed_apply raw x (h x).1 (h x).2).1
  have hpieces : (tile_body_dot.sl.Hs1_8 d L f0 s0).Forall fun p => ∀ x : p.1.shape.Idx, (p.2 x).toNat < 50176 := by
    unfold tile_body_dot.sl.Hs1_8
    exact ⟨hpk _ (hraw (Rect.unit (s := S128) ![112] S16.size inb_S128_S16_112).toLoadRect),
      hpk _ (hraw (Rect.unit (s := S128) ![96] S16.size inb_S128_S16_96).toLoadRect),
      hpk _ (hraw (Rect.unit (s := S128) ![80] S16.size inb_S128_S16_80).toLoadRect),
      hpk _ (hraw (Rect.unit (s := S128) ![64] S16.size inb_S128_S16_64).toLoadRect),
      hpk _ (hraw (Rect.unit (s := S128) ![48] S16.size inb_S128_S16_48).toLoadRect),
      hpk _ (hraw (Rect.unit (s := S128) ![32] S16.size inb_S128_S16_32).toLoadRect),
      hpk _ (hraw (Rect.unit (s := S128) ![16] S16.size inb_S128_S16_16).toLoadRect),
      hpk _ (hraw (Rect.unit (s := S128) ![0] S16.size inb_S128_S16_0).toLoadRect)⟩
  have hin : ∀ x, ((uidxM).view.read (Elt F) ((uidxM).view.writes (Elt F) (uidxM).view.junk (tile_body_dot.sl.Hs1_8 d L f0 s0)) x).toNat < 50176 :=
    fun x => Cert.LibWritesAll.read_writes_forall_of_cover (Val := Elt F) (uidxM).view (uidxM).view.junk (fun w : BitVec 32 => w.toNat < 50176)
      (tile_body_dot.sl.Hs1_8 d L f0 s0) (List.forall_iff_forall_mem.mp hpieces) (View.cover_of_tiled _ ![16] rfl) x
  sl_exec
  -- the loop over the 8 groups: each trip keeps the four scratch buffers
  sl_for (Cert.KernelIdeal.TileDotTrip.inv (F := F) d L) $$ [Hs0 Hs2 Hs3 Hs4]
  case region =>
    intro k _
    exact Cert.KernelIdeal.TileDotTrip.trip_dot d L k
  · unfold Cert.KernelIdeal.TileDotTrip.inv
    isplitl [Hs0]; · iexists _; iexact Hs0
    isplitl [Hs2]; · iexists _; iexact Hs2
    isplitl [Hs3]; · iexists _; iexact Hs3
    iexists _; iexact Hs4
  iintro %_ HI
  unfold Cert.KernelIdeal.TileDotTrip.inv
  icases HI with ⟨⟨%g0, Hs0⟩, ⟨%g2, Hs2⟩, ⟨%g3, Hs3⟩, ⟨%g4, Hs4⟩⟩
  -- the 128 scores written out to the tile's result entries, and the wait
  sl_exec
  sl_step
  -- the task's arrays, its scratch buffers, its semaphores, and the waits it recorded
  isplitl [Hpu Hui Hgp Hout]
  · isplitl [Hpu]; · iexact Hpu
    isplitl [Hui]; · iexact Hui
    isplitl [Hgp]; · iexact Hgp
    iexists _; iexact Hout
  isplitl [Ha0 Ha1 Ha2 Ha3 Ha4 Ha5 Ha6 Hs0 Hs1 Hs2 Hs3 Hs4 Hbufs]
  · isplitl [Ha0]; · iexists _; iexact Ha0
    isplitl [Ha1]; · iexists _; iexact Ha1
    isplitl [Ha2]; · iexists _; iexact Ha2
    isplitl [Ha3]; · iexists _; iexact Ha3
    isplitl [Ha4]; · iexists _; iexact Ha4
    isplitl [Ha5]; · iexists _; iexact Ha5
    isplitl [Ha6]; · iexists _; iexact Ha6
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    iexact Hbufs
  isplitl [Hc17 Hc18 Hc1s0 Hc1s1 Hc1s2 Hsu Hsg Hr0 Hr1 Hsems]
  · isplitl [Hc17]; · iexact Hc17
    isplitl [Hc18]; · iexact Hc18
    isplitl [Hc1s0]; · iexact Hc1s0
    isplitl [Hc1s1]; · iexact Hc1s1
    isplitl [Hc1s2]; · iexact Hc1s2
    isplitl [Hsu]; · iexact Hsu
    isplitl [Hsg]; · iexact Hsg
    isplitl [Hr0]; · iexact Hr0
    isplitl [Hr1]; · iexact Hr1
    iexact Hsems
  iexists _; isplitr
  pick_goal 2
  · iexact HO
  · ipureintro
    exact waits4 W _ _ _ _

end Cert.KernelIdeal.TileDot

end
-- ==== Proof.RefTerm.lean ====
/-
  The reference program's @main read as ONE pure term of its four arguments' contents, at the ideal
  instance (floats extended reals, every operation exact): operation by operation as the program prints
  them, the two row look-ups (each: the index normalised, the in-range mask, the gather, the select
  against the not-a-number literal) named on the way.
-/
import proofs.«203895_g52347061404180_cont_8to1_c_859_34_alg».proof.ReferenceIdeal
import Idealize.ShloMosaic.PureOps.Ideal

noncomputable section

namespace Cert.ReferenceIdeal.RefTerm

open Cert.ReferenceIdeal Idealize.ShloMosaic
open Cert.ReferenceIdeal.Facts₀

variable [Cert.ReferenceIdeal.Facts]

/-! ## The look-up of one row per user: `take(users_feature, users)` -/

/-- The index made non-negative: `idx < 0 ? idx + 100000 : idx`. -/
def wrapU (users : (⟨S4096x1, .i32⟩ : BufTy).Contents (Elt Ideal)) : (⟨S4096x1, .i32⟩ : BufTy).Contents (Elt Ideal) :=
  select (cmpi .slt users (broadcastInDim S4096x1 ![] bcast_S_S4096x1 (constantI S_ 32 0#32)))
    (addi users (broadcastInDim S4096x1 ![] bcast_S_S4096x1 (constantI S_ 32 100000#32)))
    users

/-- The index table of the gather: one index vector (of length one) per user. -/
def idxU (users : (⟨S4096x1, .i32⟩ : BufTy).Contents (Elt Ideal)) : (⟨S4096x1x1, .i32⟩ : BufTy).Contents (Elt Ideal) :=
  broadcastInDim S4096x1x1 ![0, 1] bcast_S4096x1_S4096x1x1_0_1 (wrapU users)

/-- The in-range mask `0 ≤ idx ≤ 99999`, reduced (by `and`, from `true`) over the index vector's one component. -/
def maskU (users : (⟨S4096x1, .i32⟩ : BufTy).Contents (Elt Ideal)) : (⟨S4096x1, .i1⟩ : BufTy).Contents (Elt Ideal) :=
  Host.reduce IntOp.andi
    (andi
      (cmpi .sge (idxU users) (broadcastInDim S4096x1x1 ![] bcast_S_S4096x1x1 (constantI S_ 32 0#32)))
      (cmpi .sle (idxU users)
        (broadcastInDim S4096x1x1 ![0, 1, 2] bcast_S1x1x1_S4096x1x1_0_1_2
          (broadcastInDim S1x1x1 ![2] bcast_S1_S1x1x1_2 (constantI S1 32 99999#32)))))
    (constantI S_ 1 1#1) reducesTo_S4096x1x1_S4096x1_d2 h_S_

/-- The gathered rows where the index is in range, the not-a-number literal elsewhere. -/
def takeU (uf : (⟨S100000x64, .f32⟩ : BufTy).Contents (Elt Ideal)) (users : (⟨S4096x1, .i32⟩ : BufTy).Contents (Elt Ideal)) :
    (⟨S4096x1x64, .f32⟩ : BufTy).Contents (Elt Ideal) :=
  select (broadcastInDim S4096x1x64 ![0, 1] bcast_S4096x1_S4096x1x64_0_1 (maskU users))
    (Host.gather gather_S100000x64_S4096x1x1_S4096x1x64_2_0_n_n_0_2_164 uf (idxU users))
    (broadcastInDim S4096x1x64 ![] bcast_S_S4096x1x64 (constant (F := Ideal) S_ .f32 0x7FC00000#32))

/-! ## The look-up of two rows per user: `take(items_feature, items)` -/

/-- The index made non-negative: `idx < 0 ? idx + 100000 : idx`. -/
def wrapI (items : (⟨S4096x2, .i32⟩ : BufTy).Contents (Elt Ideal)) : (⟨S4096x2, .i32⟩ : BufTy).Contents (Elt Ideal) :=
  select (cmpi .slt items (broadcastInDim S4096x2 ![] bcast_S_S4096x2 (constantI S_ 32 0#32)))
    (addi items (broadcastInDim S4096x2 ![] bcast_S_S4096x2 (constantI S_ 32 100000#32)))
    items

/-- The index table of the gather: one index vector (of length one) per user and item. -/
def idxI (items : (⟨S4096x2, .i32⟩ : BufTy).Contents (Elt Ideal)) : (⟨S4096x2x1, .i32⟩ : BufTy).Contents (Elt Ideal) :=
  broadcastInDim S4096x2x1 ![0, 1] bcast_S4096x2_S4096x2x1_0_1 (wrapI items)

/-- The in-range mask `0 ≤ idx ≤ 99999`, reduced (by `and`, from `true`) over the index vector's one component. -/
def maskI (items : (⟨S4096x2, .i32⟩ : BufTy).Contents (Elt Ideal)) : (⟨S4096x2, .i1⟩ : BufTy).Contents (Elt Ideal) :=
  Host.reduce IntOp.andi
    (andi
      (cmpi .sge (idxI items) (broadcastInDim S4096x2x1 ![] bcast_S_S4096x2x1 (constantI S_ 32 0#32)))
      (cmpi .sle (idxI items)
        (broadcastInDim S4096x2x1 ![0, 1, 2] bcast_S1x1x1_S4096x2x1_0_1_2
          (broadcastInDim S1x1x1 ![2] bcast_S1_S1x1x1_2 (constantI S1 32 99999#32)))))
    (constantI S_ 1 1#1) reducesTo_S4096x2x1_S4096x2_d2 h_S_

/-- The gathered rows where the index is in range, the not-a-number literal elsewhere. -/
def takeI (itf : (⟨S100000x64, .f32⟩ : BufTy).Contents (Elt Ideal)) (items : (⟨S4096x2, .i32⟩ : BufTy).Contents (Elt Ideal)) :
    (⟨S4096x2x64, .f32⟩ : BufTy).Contents (Elt Ideal) :=
  select (broadcastInDim S4096x2x64 ![0, 1] bcast_S4096x2_S4096x2x64_0_1 (maskI items))
    (Host.gather gather_S100000x64_S4096x2x1_S4096x2x64_2_0_n_n_0_2_164 itf (idxI items))
    (broadcastInDim S4096x2x64 ![] bcast_S_S4096x2x64 (constant (F := Ideal) S_ .f32 0x7FC00000#32))

/-! ## The scores and the loss -/

/-- `pred[b, j] = Σ_d users_embedding[b, 0, d] * items_embedding[b, j, d]`: the user's row broadcast along the
    items, the product, the sum over the last axis from `0.0`. -/
def pred (users : (⟨S4096x1, .i32⟩ : BufTy).Contents (Elt Ideal)) (items : (⟨S4096x2, .i32⟩ : BufTy).Contents (Elt Ideal))
    (uf itf : (⟨S100000x64, .f32⟩ : BufTy).Contents (Elt Ideal)) : (⟨S4096x2, .f32⟩ : BufTy).Contents (Elt Ideal) :=
  Host.reduceAdd (F := Ideal)
    (mulf (F := Ideal) (broadcastInDim S4096x2x64 ![0, 1, 2] bcast_S4096x1x64_S4096x2x64_0_1_2 (takeU uf users)) (takeI itf items))
    (constant (F := Ideal) S_ .f32 0x00000000#32) reducesTo_S4096x2x64_S4096x2_d2 h_S_

/-- The negative item's score: column 1 of `pred` (the slice, flattened, broadcast back to a column). -/
def negs (p : (⟨S4096x2, .f32⟩ : BufTy).Contents (Elt Ideal)) : (⟨S4096x1, .f32⟩ : BufTy).Contents (Elt Ideal) :=
  broadcastInDim S4096x1 ![0] bcast_S4096_S4096x1_0
    (shapeCast S4096 (extractStridedSlice S4096x1 ![0, 1] p slices_S4096x2_S4096x1_0_1) shapeCasts_S4096x1_S4096)

/-- The positive item's score: column 0 of `pred` (the slice, flattened, broadcast back to a column). -/
def poss (p : (⟨S4096x2, .f32⟩ : BufTy).Contents (Elt Ideal)) : (⟨S4096x1, .f32⟩ : BufTy).Contents (Elt Ideal) :=
  broadcastInDim S4096x1 ![0] bcast_S4096_S4096x1_0
    (shapeCast S4096 (extractStridedSlice S4096x1 ![0, 0] p slices_S4096x2_S4096x1_0_0) shapeCasts_S4096x1_S4096)

/-- `-log(1 / (1 + exp(-(pos - neg))))`, per user. -/
def lossCol (p : (⟨S4096x2, .f32⟩ : BufTy).Contents (Elt Ideal)) : (⟨S4096x1, .f32⟩ : BufTy).Contents (Elt Ideal) :=
  Host.negf (F := Ideal)
    (Host.log (F := Ideal)
      (Host.divf (F := Ideal)
        (broadcastInDim S4096x1 ![] bcast_S_S4096x1 (constant (F := Ideal) S_ .f32 0x3F800000#32))
        (addf (F := Ideal)
          (broadcastInDim S4096x1 ![] bcast_S_S4096x1 (constant (F := Ideal) S_ .f32 0x3F800000#32))
          (Host.exp (F := Ideal) (Host.negf (F := Ideal) (subf (F := Ideal) (poss p) (negs p)))))))

/-- The reference's result: the mean over the 4096 users of the per-user loss — the sum over both axes from
    `0.0`, divided by the constant `4096.0`. -/
def refLoss (users : (⟨S4096x1, .i32⟩ : BufTy).Contents (Elt Ideal)) (items : (⟨S4096x2, .i32⟩ : BufTy).Contents (Elt Ideal))
    (uf itf : (⟨S100000x64, .f32⟩ : BufTy).Contents (Elt Ideal)) : (⟨S_, .f32⟩ : BufTy).Contents (Elt Ideal) :=
  Host.divf (F := Ideal)
    (Host.reduceAdd (F := Ideal) (lossCol (pred users items uf itf)) (constant (F := Ideal) S_ .f32 0x00000000#32)
      reducesTo_S4096x1_S_d0_1 h_S_)
    (constant (F := Ideal) S_ .f32 0x45800000#32)

end Cert.ReferenceIdeal.RefTerm

end
-- ==== Proof.RefRun.lean ====
/-
  The reference program's run. Its @main is a straight line of host operations once the module-local
  functions are unfolded at their two call sites (each look-up: the index normalised through the callee
  that selects, the in-range mask, the gather, the select against the not-a-number literal), so its run is
  the library's run of a straight line: every weakly fair execution terminates, each buffer ending at the
  operations' fold over the launch contents. At the result buffer that fold is the composed term
  `RefTerm.refLoss` of the four arguments' contents; at each argument buffer it is what was there. A host
  program never faults, so the run asks nothing of the inputs, and the frame follows by forgetting the
  result's equation.
-/
import proofs.«203895_g52347061404180_cont_8to1_c_859_34_alg».proof.Proof.RefTerm
import proofs.«203895_g52347061404180_cont_8to1_c_859_34_alg».proof.Defs
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable [Cert.ReferenceIdeal.Facts]
variable {F : FTy → Type} [FloatOps F]

/-- The look-up of the users' rows, the call unfolded: 23 operations over the first call's buffers — six to the
    normalised index's two candidates, the callee's select, then the index table, the two bounds and their
    comparisons, their conjunction reduced, the gather, the mask and the literal broadcast, the select. -/
abbrev opsU : List (HloOp τ sig (Elt F)) :=
  [
    StableHlo.TRef.nullary main_call0.c (constantI S_ 32 0#32),
    StableHlo.TRef.unary main_call0.c main_call0.v0 (broadcastInDim S4096x1 ![] bcast_S_S4096x1),
    StableHlo.TRef.binary (.of main_arg0 : StableHlo.TRef sig ⟨S4096x1, .i32⟩) main_call0.v0 main_call0.v1 (cmpi .slt),
    StableHlo.TRef.nullary main_call0.c_0 (constantI S_ 32 100000#32),
    StableHlo.TRef.unary main_call0.c_0 main_call0.v2 (broadcastInDim S4096x1 ![] bcast_S_S4096x1),
    StableHlo.TRef.binary (.of main_arg0 : StableHlo.TRef sig ⟨S4096x1, .i32⟩) main_call0.v2 main_call0.v3 addi,
    StableHlo.TRef.ternary main_call0.v1 main_call0.v3 (.of main_arg0 : StableHlo.TRef sig ⟨S4096x1, .i32⟩) main_call0.call0.v0 select,
    StableHlo.TRef.unary main_call0.call0.v0 main_call0.v5 (broadcastInDim S4096x1x1 ![0, 1] bcast_S4096x1_S4096x1x1_0_1),
    StableHlo.TRef.nullary main_call0.c_1 (constantI S1 32 99999#32),
    StableHlo.TRef.nullary main_call0.c_2 (constantI S_ 32 0#32),
    StableHlo.TRef.unary main_call0.c_2 main_call0.v6 (broadcastInDim S4096x1x1 ![] bcast_S_S4096x1x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S4096x1x1 ![0, 1, 2] bcast_S1x1x1_S4096x1x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x1x1_S4096x1_d2 h_S_),
    StableHlo.TRef.binary (.of main_arg2 : StableHlo.TRef sig ⟨S100000x64, .f32⟩) main_call0.v5 main_call0.v13 (fun x i => Host.gather gather_S100000x64_S4096x1x1_S4096x1x64_2_0_n_n_0_2_164 x i),
    StableHlo.TRef.unary main_call0.v12 main_call0.v14 (broadcastInDim S4096x1x64 ![0, 1] bcast_S4096x1_S4096x1x64_0_1),
    StableHlo.TRef.nullary main_call0.cst (constant S_ .f32 0x7FC00000#32),
    StableHlo.TRef.unary main_call0.cst main_call0.v15 (broadcastInDim S4096x1x64 ![] bcast_S_S4096x1x64),
    StableHlo.TRef.ternary main_call0.v14 main_call0.v13 main_call0.v15 main_call0.v16 select ]

/-- The look-up of the items' rows: the same 23 over the second call's buffers. -/
abbrev opsI : List (HloOp τ sig (Elt F)) :=
  [
    StableHlo.TRef.nullary main_call1.c (constantI S_ 32 0#32),
    StableHlo.TRef.unary main_call1.c main_call1.v0 (broadcastInDim S4096x2 ![] bcast_S_S4096x2),
    StableHlo.TRef.binary (.of main_arg1 : StableHlo.TRef sig ⟨S4096x2, .i32⟩) main_call1.v0 main_call1.v1 (cmpi .slt),
    StableHlo.TRef.nullary main_call1.c_0 (constantI S_ 32 100000#32),
    StableHlo.TRef.unary main_call1.c_0 main_call1.v2 (broadcastInDim S4096x2 ![] bcast_S_S4096x2),
    StableHlo.TRef.binary (.of main_arg1 : StableHlo.TRef sig ⟨S4096x2, .i32⟩) main_call1.v2 main_call1.v3 addi,
    StableHlo.TRef.ternary main_call1.v1 main_call1.v3 (.of main_arg1 : StableHlo.TRef sig ⟨S4096x2, .i32⟩) main_call1.call0.v0 select,
    StableHlo.TRef.unary main_call1.call0.v0 main_call1.v5 (broadcastInDim S4096x2x1 ![0, 1] bcast_S4096x2_S4096x2x1_0_1),
    StableHlo.TRef.nullary main_call1.c_1 (constantI S1 32 99999#32),
    StableHlo.TRef.nullary main_call1.c_2 (constantI S_ 32 0#32),
    StableHlo.TRef.unary main_call1.c_2 main_call1.v6 (broadcastInDim S4096x2x1 ![] bcast_S_S4096x2x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S4096x2x1 ![0, 1, 2] bcast_S1x1x1_S4096x2x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S4096x2x1_S4096x2_d2 h_S_),
    StableHlo.TRef.binary (.of main_arg3 : StableHlo.TRef sig ⟨S100000x64, .f32⟩) main_call1.v5 main_call1.v13 (fun x i => Host.gather gather_S100000x64_S4096x2x1_S4096x2x64_2_0_n_n_0_2_164 x i),
    StableHlo.TRef.unary main_call1.v12 main_call1.v14 (broadcastInDim S4096x2x64 ![0, 1] bcast_S4096x2_S4096x2x64_0_1),
    StableHlo.TRef.nullary main_call1.cst (constant S_ .f32 0x7FC00000#32),
    StableHlo.TRef.unary main_call1.cst main_call1.v15 (broadcastInDim S4096x2x64 ![] bcast_S_S4096x2x64),
    StableHlo.TRef.ternary main_call1.v14 main_call1.v13 main_call1.v15 main_call1.v16 select ]

/-- @main's own 25 operations after the two calls. -/
abbrev opsM : List (HloOp τ sig (Elt F)) :=
  [
    StableHlo.unary main_v0 main_v2 (broadcastInDim S4096x2x64 ![0, 1, 2] bcast_S4096x1x64_S4096x2x64_0_1_2 : (⟨S4096x1x64, .f32⟩ : BufTy).Contents (Elt F) → (⟨S4096x2x64, .f32⟩ : BufTy).Contents (Elt F)),
    StableHlo.binary main_v2 main_v1 main_v3 (mulf : (⟨S4096x2x64, .f32⟩ : BufTy).Contents (Elt F) → (⟨S4096x2x64, .f32⟩ : BufTy).Contents (Elt F) → (⟨S4096x2x64, .f32⟩ : BufTy).Contents (Elt F)),
    StableHlo.nullary main_cst (constant S_ .f32 0x00000000#32),
    StableHlo.binary main_v3 main_cst main_v4 ((fun x v => Host.reduceAdd x v reducesTo_S4096x2x64_S4096x2_d2 h_S_) : (⟨S4096x2x64, .f32⟩ : BufTy).Contents (Elt F) → (⟨S_, .f32⟩ : BufTy).Contents (Elt F) → (⟨S4096x2, .f32⟩ : BufTy).Contents (Elt F)),
    StableHlo.unary main_v4 main_v5 ((extractStridedSlice S4096x1 ![0, 1] · slices_S4096x2_S4096x1_0_1) : (⟨S4096x2, .f32⟩ : BufTy).Contents (Elt F) → (⟨S4096x1, .f32⟩ : BufTy).Contents (Elt F)),
    StableHlo.reshape main_v5 main_v6 rfl shapeCasts_S4096x1_S4096,
    StableHlo.unary main_v6 main_v7 (broadcastInDim S4096x1 ![0] bcast_S4096_S4096x1_0 : (⟨S4096, .f32⟩ : BufTy).Contents (Elt F) → (⟨S4096x1, .f32⟩ : BufTy).Contents (Elt F)),
    StableHlo.unary main_v4 main_v8 ((extractStridedSlice S4096x1 ![0, 0] · slices_S4096x2_S4096x1_0_0) : (⟨S4096x2, .f32⟩ : BufTy).Contents (Elt F) → (⟨S4096x1, .f32⟩ : BufTy).Contents (Elt F)),
    StableHlo.reshape main_v8 main_v9 rfl shapeCasts_S4096x1_S4096,
    StableHlo.unary main_v9 main_v10 (broadcastInDim S4096x1 ![0] bcast_S4096_S4096x1_0 : (⟨S4096, .f32⟩ : BufTy).Contents (Elt F) → (⟨S4096x1, .f32⟩ : BufTy).Contents (Elt F)),
    StableHlo.binary main_v10 main_v7 main_v11 (subf : (⟨S4096x1, .f32⟩ : BufTy).Contents (Elt F) → (⟨S4096x1, .f32⟩ : BufTy).Contents (Elt F) → (⟨S4096x1, .f32⟩ : BufTy).Contents (Elt F)),
    StableHlo.unary main_v11 main_v12 (Host.negf : (⟨S4096x1, .f32⟩ : BufTy).Contents (Elt F) → (⟨S4096x1, .f32⟩ : BufTy).Contents (Elt F)),
    StableHlo.unary main_v12 main_v13 (Host.exp : (⟨S4096x1, .f32⟩ : BufTy).Contents (Elt F) → (⟨S4096x1, .f32⟩ : BufTy).Contents (Elt F)),
    StableHlo.nullary main_cst_0 (constant S_ .f32 0x3F800000#32),
    StableHlo.unary main_cst_0 main_v14 (broadcastInDim S4096x1 ![] bcast_S_S4096x1 : (⟨S_, .f32⟩ : BufTy).Contents (Elt F) → (⟨S4096x1, .f32⟩ : BufTy).Contents (Elt F)),
    StableHlo.binary main_v14 main_v13 main_v15 (addf : (⟨S4096x1, .f32⟩ : BufTy).Contents (Elt F) → (⟨S4096x1, .f32⟩ : BufTy).Contents (Elt F) → (⟨S4096x1, .f32⟩ : BufTy).Contents (Elt F)),
    StableHlo.nullary main_cst_1 (constant S_ .f32 0x3F800000#32),
    StableHlo.unary main_cst_1 main_v16 (broadcastInDim S4096x1 ![] bcast_S_S4096x1 : (⟨S_, .f32⟩ : BufTy).Contents (Elt F) → (⟨S4096x1, .f32⟩ : BufTy).Contents (Elt F)),
    StableHlo.binary main_v16 main_v15 main_v17 (Host.divf : (⟨S4096x1, .f32⟩ : BufTy).Contents (Elt F) → (⟨S4096x1, .f32⟩ : BufTy).Contents (Elt F) → (⟨S4096x1, .f32⟩ : BufTy).Contents (Elt F)),
    StableHlo.unary main_v17 main_v18 (Host.log : (⟨S4096x1, .f32⟩ : BufTy).Contents (Elt F) → (⟨S4096x1, .f32⟩ : BufTy).Contents (Elt F)),
    StableHlo.unary main_v18 main_v19 (Host.negf : (⟨S4096x1, .f32⟩ : BufTy).Contents (Elt F) → (⟨S4096x1, .f32⟩ : BufTy).Contents (Elt F)),
    StableHlo.nullary main_cst_2 (constant S_ .f32 0x00000000#32),
    StableHlo.binary main_v19 main_cst_2 main_v20 ((fun x v => Host.reduceAdd x v reducesTo_S4096x1_S_d0_1 h_S_) : (⟨S4096x1, .f32⟩ : BufTy).Contents (Elt F) → (⟨S_, .f32⟩ : BufTy).Contents (Elt F) → (⟨S_, .f32⟩ : BufTy).Contents (Elt F)),
    StableHlo.nullary main_cst_3 (constant S_ .f32 0x45800000#32),
    StableHlo.binary main_v20 main_cst_3 main_v21 (Host.divf : (⟨S_, .f32⟩ : BufTy).Contents (Elt F) → (⟨S_, .f32⟩ : BufTy).Contents (Elt F) → (⟨S_, .f32⟩ : BufTy).Contents (Elt F)) ]

/-- @main's 71 operations, in order, the calls unfolded. -/
abbrev ops : List (HloOp τ sig (Elt F)) :=
  [
    StableHlo.TRef.nullary main_call0.c (constantI S_ 32 0#32),
    StableHlo.TRef.unary main_call0.c main_call0.v0 (broadcastInDim S4096x1 ![] bcast_S_S4096x1),
    StableHlo.TRef.binary (.of main_arg0 : StableHlo.TRef sig ⟨S4096x1, .i32⟩) main_call0.v0 main_call0.v1 (cmpi .slt),
    StableHlo.TRef.nullary main_call0.c_0 (constantI S_ 32 100000#32),
    StableHlo.TRef.unary main_call0.c_0 main_call0.v2 (broadcastInDim S4096x1 ![] bcast_S_S4096x1),
    StableHlo.TRef.binary (.of main_arg0 : StableHlo.TRef sig ⟨S4096x1, .i32⟩) main_call0.v2 main_call0.v3 addi,
    StableHlo.TRef.ternary main_call0.v1 main_call0.v3 (.of main_arg0 : StableHlo.TRef sig ⟨S4096x1, .i32⟩) main_call0.call0.v0 select,
    StableHlo.TRef.unary main_call0.call0.v0 main_call0.v5 (broadcastInDim S4096x1x1 ![0, 1] bcast_S4096x1_S4096x1x1_0_1),
    StableHlo.TRef.nullary main_call0.c_1 (constantI S1 32 99999#32),
    StableHlo.TRef.nullary main_call0.c_2 (constantI S_ 32 0#32),
    StableHlo.TRef.unary main_call0.c_2 main_call0.v6 (broadcastInDim S4096x1x1 ![] bcast_S_S4096x1x1),
    StableHlo.TRef.binary main_call0.v5 main_call0.v6 main_call0.v7 (cmpi .sge),
    StableHlo.TRef.unary main_call0.c_1 main_call0.v8 (broadcastInDim S1x1x1 ![2] bcast_S1_S1x1x1_2),
    StableHlo.TRef.unary main_call0.v8 main_call0.v9 (broadcastInDim S4096x1x1 ![0, 1, 2] bcast_S1x1x1_S4096x1x1_0_1_2),
    StableHlo.TRef.binary main_call0.v5 main_call0.v9 main_call0.v10 (cmpi .sle),
    StableHlo.TRef.binary main_call0.v7 main_call0.v10 main_call0.v11 andi,
    StableHlo.TRef.nullary main_call0.c_3 (constantI S_ 1 1#1),
    StableHlo.TRef.binary main_call0.v11 main_call0.c_3 main_call0.v12 (fun x v => Host.reduce IntOp.andi x v reducesTo_S4096x1x1_S4096x1_d2 h_S_),
    StableHlo.TRef.binary (.of main_arg2 : StableHlo.TRef sig ⟨S100000x64, .f32⟩) main_call0.v5 main_call0.v13 (fun x i => Host.gather gather_S100000x64_S4096x1x1_S4096x1x64_2_0_n_n_0_2_164 x i),
    StableHlo.TRef.unary main_call0.v12 main_call0.v14 (broadcastInDim S4096x1x64 ![0, 1] bcast_S4096x1_S4096x1x64_0_1),
    StableHlo.TRef.nullary main_call0.cst (constant S_ .f32 0x7FC00000#32),
    StableHlo.TRef.unary main_call0.cst main_call0.v15 (broadcastInDim S4096x1x64 ![] bcast_S_S4096x1x64),
    StableHlo.TRef.ternary main_call0.v14 main_call0.v13 main_call0.v15 main_call0.v16 select,
    StableHlo.TRef.nullary main_call1.c (constantI S_ 32 0#32),
    StableHlo.TRef.unary main_call1.c main_call1.v0 (broadcastInDim S4096x2 ![] bcast_S_S4096x2),
    StableHlo.TRef.binary (.of main_arg1 : StableHlo.TRef sig ⟨S4096x2, .i32⟩) main_call1.v0 main_call1.v1 (cmpi .slt),
    StableHlo.TRef.nullary main_call1.c_0 (constantI S_ 32 100000#32),
    StableHlo.TRef.unary main_call1.c_0 main_call1.v2 (broadcastInDim S4096x2 ![] bcast_S_S4096x2),
    StableHlo.TRef.binary (.of main_arg1 : StableHlo.TRef sig ⟨S4096x2, .i32⟩) main_call1.v2 main_call1.v3 addi,
    StableHlo.TRef.ternary main_call1.v1 main_call1.v3 (.of main_arg1 : StableHlo.TRef sig ⟨S4096x2, .i32⟩) main_call1.call0.v0 select,
    StableHlo.TRef.unary main_call1.call0.v0 main_call1.v5 (broadcastInDim S4096x2x1 ![0, 1] bcast_S4096x2_S4096x2x1_0_1),
    StableHlo.TRef.nullary main_call1.c_1 (constantI S1 32 99999#32),
    StableHlo.TRef.nullary main_call1.c_2 (constantI S_ 32 0#32),
    StableHlo.TRef.unary main_call1.c_2 main_call1.v6 (broadcastInDim S4096x2x1 ![] bcast_S_S4096x2x1),
    StableHlo.TRef.binary main_call1.v5 main_call1.v6 main_call1.v7 (cmpi .sge),
    StableHlo.TRef.unary main_call1.c_1 main_call1.v8 (broadcastInDim S1x1x1 ![2] bcast_S1_S1x1x1_2),
    StableHlo.TRef.unary main_call1.v8 main_call1.v9 (broadcastInDim S4096x2x1 ![0, 1, 2] bcast_S1x1x1_S4096x2x1_0_1_2),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S4096x2x1_S4096x2_d2 h_S_),
    StableHlo.TRef.binary (.of main_arg3 : StableHlo.TRef sig ⟨S100000x64, .f32⟩) main_call1.v5 main_call1.v13 (fun x i => Host.gather gather_S100000x64_S4096x2x1_S4096x2x64_2_0_n_n_0_2_164 x i),
    StableHlo.TRef.unary main_call1.v12 main_call1.v14 (broadcastInDim S4096x2x64 ![0, 1] bcast_S4096x2_S4096x2x64_0_1),
    StableHlo.TRef.nullary main_call1.cst (constant S_ .f32 0x7FC00000#32),
    StableHlo.TRef.unary main_call1.cst main_call1.v15 (broadcastInDim S4096x2x64 ![] bcast_S_S4096x2x64),
    StableHlo.TRef.ternary main_call1.v14 main_call1.v13 main_call1.v15 main_call1.v16 select,
    StableHlo.unary main_v0 main_v2 (broadcastInDim S4096x2x64 ![0, 1, 2] bcast_S4096x1x64_S4096x2x64_0_1_2 : (⟨S4096x1x64, .f32⟩ : BufTy).Contents (Elt F) → (⟨S4096x2x64, .f32⟩ : BufTy).Contents (Elt F)),
    StableHlo.binary main_v2 main_v1 main_v3 (mulf : (⟨S4096x2x64, .f32⟩ : BufTy).Contents (Elt F) → (⟨S4096x2x64, .f32⟩ : BufTy).Contents (Elt F) → (⟨S4096x2x64, .f32⟩ : BufTy).Contents (Elt F)),
    StableHlo.nullary main_cst (constant S_ .f32 0x00000000#32),
    StableHlo.binary main_v3 main_cst main_v4 ((fun x v => Host.reduceAdd x v reducesTo_S4096x2x64_S4096x2_d2 h_S_) : (⟨S4096x2x64, .f32⟩ : BufTy).Contents (Elt F) → (⟨S_, .f32⟩ : BufTy).Contents (Elt F) → (⟨S4096x2, .f32⟩ : BufTy).Contents (Elt F)),
    StableHlo.unary main_v4 main_v5 ((extractStridedSlice S4096x1 ![0, 1] · slices_S4096x2_S4096x1_0_1) : (⟨S4096x2, .f32⟩ : BufTy).Contents (Elt F) → (⟨S4096x1, .f32⟩ : BufTy).Contents (Elt F)),
    StableHlo.reshape main_v5 main_v6 rfl shapeCasts_S4096x1_S4096,
    StableHlo.unary main_v6 main_v7 (broadcastInDim S4096x1 ![0] bcast_S4096_S4096x1_0 : (⟨S4096, .f32⟩ : BufTy).Contents (Elt F) → (⟨S4096x1, .f32⟩ : BufTy).Contents (Elt F)),
    StableHlo.unary main_v4 main_v8 ((extractStridedSlice S4096x1 ![0, 0] · slices_S4096x2_S4096x1_0_0) : (⟨S4096x2, .f32⟩ : BufTy).Contents (Elt F) → (⟨S4096x1, .f32⟩ : BufTy).Contents (Elt F)),
    StableHlo.reshape main_v8 main_v9 rfl shapeCasts_S4096x1_S4096,
    StableHlo.unary main_v9 main_v10 (broadcastInDim S4096x1 ![0] bcast_S4096_S4096x1_0 : (⟨S4096, .f32⟩ : BufTy).Contents (Elt F) → (⟨S4096x1, .f32⟩ : BufTy).Contents (Elt F)),
    StableHlo.binary main_v10 main_v7 main_v11 (subf : (⟨S4096x1, .f32⟩ : BufTy).Contents (Elt F) → (⟨S4096x1, .f32⟩ : BufTy).Contents (Elt F) → (⟨S4096x1, .f32⟩ : BufTy).Contents (Elt F)),
    StableHlo.unary main_v11 main_v12 (Host.negf : (⟨S4096x1, .f32⟩ : BufTy).Contents (Elt F) → (⟨S4096x1, .f32⟩ : BufTy).Contents (Elt F)),
    StableHlo.unary main_v12 main_v13 (Host.exp : (⟨S4096x1, .f32⟩ : BufTy).Contents (Elt F) → (⟨S4096x1, .f32⟩ : BufTy).Contents (Elt F)),
    StableHlo.nullary main_cst_0 (constant S_ .f32 0x3F800000#32),
    StableHlo.unary main_cst_0 main_v14 (broadcastInDim S4096x1 ![] bcast_S_S4096x1 : (⟨S_, .f32⟩ : BufTy).Contents (Elt F) → (⟨S4096x1, .f32⟩ : BufTy).Contents (Elt F)),
    StableHlo.binary main_v14 main_v13 main_v15 (addf : (⟨S4096x1, .f32⟩ : BufTy).Contents (Elt F) → (⟨S4096x1, .f32⟩ : BufTy).Contents (Elt F) → (⟨S4096x1, .f32⟩ : BufTy).Contents (Elt F)),
    StableHlo.nullary main_cst_1 (constant S_ .f32 0x3F800000#32),
    StableHlo.unary main_cst_1 main_v16 (broadcastInDim S4096x1 ![] bcast_S_S4096x1 : (⟨S_, .f32⟩ : BufTy).Contents (Elt F) → (⟨S4096x1, .f32⟩ : BufTy).Contents (Elt F)),
    StableHlo.binary main_v16 main_v15 main_v17 (Host.divf : (⟨S4096x1, .f32⟩ : BufTy).Contents (Elt F) → (⟨S4096x1, .f32⟩ : BufTy).Contents (Elt F) → (⟨S4096x1, .f32⟩ : BufTy).Contents (Elt F)),
    StableHlo.unary main_v17 main_v18 (Host.log : (⟨S4096x1, .f32⟩ : BufTy).Contents (Elt F) → (⟨S4096x1, .f32⟩ : BufTy).Contents (Elt F)),
    StableHlo.unary main_v18 main_v19 (Host.negf : (⟨S4096x1, .f32⟩ : BufTy).Contents (Elt F) → (⟨S4096x1, .f32⟩ : BufTy).Contents (Elt F)),
    StableHlo.nullary main_cst_2 (constant S_ .f32 0x00000000#32),
    StableHlo.binary main_v19 main_cst_2 main_v20 ((fun x v => Host.reduceAdd x v reducesTo_S4096x1_S_d0_1 h_S_) : (⟨S4096x1, .f32⟩ : BufTy).Contents (Elt F) → (⟨S_, .f32⟩ : BufTy).Contents (Elt F) → (⟨S_, .f32⟩ : BufTy).Contents (Elt F)),
    StableHlo.nullary main_cst_3 (constant S_ .f32 0x45800000#32),
    StableHlo.binary main_v20 main_cst_3 main_v21 (Host.divf : (⟨S_, .f32⟩ : BufTy).Contents (Elt F) → (⟨S_, .f32⟩ : BufTy).Contents (Elt F) → (⟨S_, .f32⟩ : BufTy).Contents (Elt F)) ]

theorem ops_eq : (ops : List (HloOp τ sig (Elt F))) = opsU ++ (opsI ++ opsM) := rfl

/-- The first callee's body at @main's call site is its straight line: its own callee unfolded, the record at
    its fields, the chain re-associated. -/
theorem takeU_eq :
    (fn_take.body (F := F) (.of main_arg2) (.of main_arg0) main_call0
        : Prog (TpuEff nD τ sig (Elt F) (Pipeline.Sig Λ₀ (Fin 0) fun p => (pcfgs (F := F) p).Adm) .tc) PUnit)
      = seq opsU := by
  simp only [fn_take.body, fn_where.body, seq, bind_assoc, pure_bind]

/-- The second callee's likewise. -/
theorem takeI_eq :
    (fn_take_0.body (F := F) (.of main_arg3) (.of main_arg1) main_call1
        : Prog (TpuEff nD τ sig (Elt F) (Pipeline.Sig Λ₀ (Fin 0) fun p => (pcfgs (F := F) p).Adm) .tc) PUnit)
      = seq opsI := by
  simp only [fn_take_0.body, fn_where_1.body, seq, bind_assoc, pure_bind]

/-- @main is the two calls, then its own line. -/
theorem main_split (c : Dev nD) :
    main (F := F) c
      = (fn_take.body (F := F) (.of main_arg2) (.of main_arg0) main_call0 >>= fun _ =>
          fn_take_0.body (F := F) (.of main_arg3) (.of main_arg1) main_call1 >>= fun _ => seq opsM) := rfl

/-- @main is that straight line. -/
theorem main_eq (c : Dev nD) : main (F := F) c = seq ops := by
  rw [main_split, takeU_eq, takeI_eq, ops_eq, seq_append, seq_append]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., nullary_bufs_sub ..,
    unary_bufs_sub .., binary_bufs_sub .., nullary_bufs_sub .., unary_bufs_sub .., binary_bufs_sub .., ternary_bufs_sub ..,
    unary_bufs_sub .., nullary_bufs_sub .., nullary_bufs_sub .., unary_bufs_sub .., binary_bufs_sub .., unary_bufs_sub ..,
    unary_bufs_sub .., binary_bufs_sub .., binary_bufs_sub .., nullary_bufs_sub .., binary_bufs_sub .., binary_bufs_sub ..,
    unary_bufs_sub .., nullary_bufs_sub .., unary_bufs_sub .., ternary_bufs_sub .., unary_bufs_sub .., binary_bufs_sub ..,
    nullary_bufs_sub .., binary_bufs_sub .., unary_bufs_sub .., reshape_bufs_sub .., unary_bufs_sub .., unary_bufs_sub ..,
    reshape_bufs_sub .., unary_bufs_sub .., binary_bufs_sub .., unary_bufs_sub .., unary_bufs_sub .., nullary_bufs_sub ..,
    unary_bufs_sub .., binary_bufs_sub .., nullary_bufs_sub .., unary_bufs_sub .., binary_bufs_sub .., unary_bufs_sub ..,
    unary_bufs_sub .., nullary_bufs_sub .., binary_bufs_sub .., nullary_bufs_sub .., binary_bufs_sub ..⟩

/-! ## What the buffers hold after the line -/

attribute [local irreducible] Host.reduce Host.gather Host.reduceAdd in
set_option maxRecDepth 8192 in
set_option maxHeartbeats 1000000 in
/-- The fold at the result buffer is `refLoss` of the arguments' contents, by computation: each operation's
    result at its own buffer is its function's value and at any other buffer what was there; the typed
    references' transports are the identity at these literal references; the reductions and the gathers stay
    folded meanwhile (the equation never looks inside them). -/
theorem out_eq (V : Valuation τ sig (Elt Ideal)) :
    after (ops (F := Ideal)) V (main_v21 : DevRef τ sig)
      = RefTerm.refLoss (V (main_arg0 : DevRef τ sig)) (V (main_arg1 : DevRef τ sig)) (V (main_arg2 : DevRef τ sig))
          (V (main_arg3 : DevRef τ sig)) := by
  after_results_simp
  rfl

set_option maxRecDepth 8192 in
/-- No operation writes argument 0's buffer: the fold leaves it as it was. -/
theorem arg0_eq (V : Valuation τ sig (Elt F)) :
    after (ops (F := F)) V (main_arg0 : DevRef τ sig) = V (main_arg0 : DevRef τ sig) := by
  after_results_simp

set_option maxRecDepth 8192 in
/-- No operation writes argument 1's buffer: the fold leaves it as it was. -/
theorem arg1_eq (V : Valuation τ sig (Elt F)) :
    after (ops (F := F)) V (main_arg1 : DevRef τ sig) = V (main_arg1 : DevRef τ sig) := by
  after_results_simp

set_option maxRecDepth 8192 in
/-- No operation writes argument 2's buffer: the fold leaves it as it was. -/
theorem arg2_eq (V : Valuation τ sig (Elt F)) :
    after (ops (F := F)) V (main_arg2 : DevRef τ sig) = V (main_arg2 : DevRef τ sig) := by
  after_results_simp

set_option maxRecDepth 8192 in
/-- No operation writes argument 3's buffer: the fold leaves it as it was. -/
theorem arg3_eq (V : Valuation τ sig (Elt F)) :
    after (ops (F := F)) V (main_arg3 : DevRef τ sig) = V (main_arg3 : DevRef τ sig) := by
  after_results_simp

/-! ## The run and the frame -/

/-- On every device, from any memory with zero counters: every weakly fair execution of @main terminates,
    nothing faulting, with the result buffer at `refLoss` of the arguments' launch contents and the four
    arguments unchanged. Nothing is asked of the inputs: a host program never faults. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v21)
          = RefTerm.refLoss (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v21).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m g)

/-- The reference's frame: it runs, and its argument arrays end unchanged — the run, the result's equation
    forgotten; the precondition on the inputs is not used. -/
theorem frame_ri [Cert.Pre_input_domain.Facts] : Cert.frame_ReferenceIdeal := fun m g _ =>
  (θ_run (defs (F := Ideal)) _ _).mono (fun _ h c => (h c).2) (run m g)

end Cert.ReferenceIdeal.RefRun

end
-- ==== Proof.RefIsSpec.lean ====
/-
  THE REFERENCE IS THE SPECIFICATION. The reference's result, read as one composed pure term of its four arguments at
  the ideal values, is the specification `Cert.BprSpec.G` on the input domain (finite feature tables, index words in
  `[0, 99999]`). The term is read at an index operation by operation: a row gather by its dimension numbers
  (`gather_rows_apply`), the range mask's and-reduce over its unit axis (`reduce_andi_unit_apply`), the selects on a true
  mask, the host sums as `∑` over a coordinate, the slices and reshapes by their index arithmetic; then the row law of
  LibBprLaw closes each user's term.
-/
import proofs.«203895_g52347061404180_cont_8to1_c_859_34_alg».proof.Proof.RefTerm
import proofs.«203895_g52347061404180_cont_8to1_c_859_34_alg».proof.Proof.BprSpec
import proofs.«203895_g52347061404180_cont_8to1_c_859_34_alg».proof.Proof.LibBprLaw
import Idealize.ShloMosaic.Lib.ValueIdx
import Idealize.ShloMosaic.Lib.Pipeline.Value
import Idealize.ShloMosaic.Lib.Affine
import Idealize.ShloMosaic.PureOps.Ideal.Laws
import Idealize.ShloMosaic.PureOps.Reduce

noncomputable section

open scoped BigOperators

namespace Cert.ReferenceIdeal.RefValue

open Cert.ReferenceIdeal Cert.ReferenceIdeal.RefTerm Idealize.ShloMosaic Idealize.ShloMosaic.ValueIdx
open Cert.ReferenceIdeal.Facts₀

/-! ## Operations read at an index, over literal ranks and symbolic extents -/

/-- The dimension numbers of a ROW GATHER: operand `[N, D]`, start indices `[R, C, 1]` (one row number per result
    row), result `[R, C, D]`; axis 0 collapsed and indexed, axis 1 taken whole. -/
abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

/-- A start index read as a gather reads it: signed, clamped into `[0, N − 1]`. -/
def clampRow {w : Nat} (N : Nat) (hN : 0 < N) (v : BitVec w) : Fin N := ⟨min v.toInt.toNat (N - 1), by omega⟩

/-- THE ROW GATHER READ AT `(r, c, k)`: entry `k` of the operand's row whose number is the start index `idx[r, c, 0]`,
    read signed and clamped into `[0, N − 1]`. -/
theorem gather_rows_apply {α : Type} {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (k : Fin D) :
    Host.gather (rowsDims N D R C wf) x idx (ix3 r c k)
      = x (ix2 (clampRow N hN (idx (ix3 r c (0 : Fin 1)))) k) := by
  unfold Host.gather
  congr 1
  funext a
  refine Fin.ext ?_
  show (rowsDims N D R C wf).start (ix3 r c k) idx a + (rowsDims N D R C wf).batchCoord (ix3 r c k) a
      + (rowsDims N D R C wf).offCoord (ix3 r c k) a = _
  rw [GatherDims.batchCoord_eq_zero _ _ _ List.not_mem_nil]
  have ha : a = 0 ∨ a = 1 := by
    match a with
    | ⟨0, _⟩ => exact Or.inl rfl
    | ⟨1, _⟩ => exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D R C wf).startIndexMap from List.mem_singleton.mpr rfl)]
    have hsi : (rowsDims N D R C wf).siIdx (ix3 r c k) ⟨List.idxOf (0 : Fin 2) (rowsDims N D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  · have hs : (rowsDims N D R C wf).start (ix3 r c k) idx 1 = 0 := by
      unfold GatherDims.start
      rw [dif_neg (show (1 : Fin 2) ∉ ([0] : List (Fin 2)) by decide)]
    have ho : (rowsDims N D R C wf).offCoord (ix3 r c k) 1 = k.val := by
      unfold GatherDims.offCoord
      rw [dif_pos ((GatherDims.mem_sKept _ _).mpr ⟨show (1 : Fin 2) ∉ ([0] : List (Fin 2)) by decide, List.not_mem_nil⟩)]
      rfl
    rw [hs, ho]
    show 0 + 0 + k.val = k.val
    omega

/-- A `broadcast_in_dim` of an `[R, C]` array along a new trailing axis (its axes sent to result axes 0 and 1), read at
    `(r, c, k)`: the array at `(r, c)`. -/
theorem bcast_rc_apply {α : Type} {R C D : Nat}
    (h : (⟨2, ![R, C]⟩ : Shape).BroadcastsInDim ⟨3, ![R, C, D]⟩ ![0, 1])
    (x : (⟨2, ![R, C]⟩ : Shape).Idx → α) (r : Fin R) (c : Fin C) (k : Fin D) :
    broadcastInDim ⟨3, ![R, C, D]⟩ ![0, 1] h x (ix3 r c k) = x (ix2 r c) := by
  refine broadcastInDim_apply _ h x _ _ fun a => ?_
  have hr := r.isLt
  have hc := c.isLt
  match a with
  | ⟨0, _⟩ =>
    show r.val = if R = 1 then 0 else r.val
    split <;> omega
  | ⟨1, _⟩ =>
    show c.val = if C = 1 then 0 else c.val
    split <;> omega

/-- A fold over a one-element type is one application of the operation. -/
theorem fold_univ_unique {ι α : Type} [Unique ι] [Fintype ι] (op : α → α → α) [Std.Commutative op] [Std.Associative op]
    (b : α) (f : ι → α) : (Finset.univ : Finset ι).fold op b f = op (f default) b := by
  rw [Finset.univ_unique, Finset.fold_singleton]

/-- A `stablehlo.reduce` by `and` over a trailing axis of extent one, read at `(r, c)`: the operand's one element over
    `(r, c)`, and-ed with the initial value. -/
theorem reduce_andi_unit_apply {R C : Nat} {u : Shape} (x : IVec ⟨3, ![R, C, 1]⟩ 1) (init : IVec u 1)
    (h' : (⟨3, ![R, C, 1]⟩ : Shape).ReducesTo [2] ⟨2, ![R, C]⟩) (h : (⟨3, ![R, C, 1]⟩ : Shape).Reduces [2] ⟨2, ![R, C]⟩)
    (hu : 0 < u.numel) (r : Fin R) (c : Fin C) :
    Host.reduce IntOp.andi x init h' hu (ix2 r c)
      = IntOp.andi (x (ix3 r c (0 : Fin 1))) (init (Shape.Idx.first hu)) := by
  rw [Host.reduce_eq_fold_single IntOp.andi x init h' h hu]
  haveI : Unique (Fin ((⟨3, ![R, C, 1]⟩ : Shape).size 2)) := (inferInstance : Unique (Fin 1))
  rw [fold_univ_unique]
  have hk : ∀ k : Fin ((⟨3, ![R, C, 1]⟩ : Shape).size 2), h.lift (ix2 r c) k = ix3 r c (0 : Fin 1) := by
    intro k
    have hk1 : k.val < 1 := k.isLt
    funext a; refine Fin.ext ?_
    match a with
    | ⟨0, _⟩ => rfl
    | ⟨1, _⟩ => rfl
    | ⟨2, _⟩ => show k.val = 0; omega
  exact congrArg (fun i => IntOp.andi (x i) (init (Shape.Idx.first hu))) (hk default)

/-! ## The two row look-ups of the reference, read at an index

Under the input domain (every index word's signed value in `[0, 99999]`) the index normalisation is the identity, the
in-range mask is true, and the look-up is the gathered row: the table's row `row w` for the index word `w`. -/

variable [Cert.ReferenceIdeal.Facts]

theorem toInt_zero32 : (0#32 : BitVec 32).toInt = 0 := by decide
theorem toInt_99999 : (99999#32 : BitVec 32).toInt = 99999 := by decide

/-- A non-negative user index is not wrapped. -/
theorem wrapU_apply (users : IVec S4096x1 32) (j : S4096x1.Idx) (h0 : 0 ≤ (users j).toInt) : wrapU users j = users j := by
  show Scalar.select (IntOp.cmpi .slt (users j) 0#32) (IntOp.addi (users j) 100000#32) (users j) = users j
  have hc : IntOp.cmpi .slt (users j) 0#32 = 0#1 := eq_zero_of_ne_one fun h => by
    have := IntOp.cmpi_slt.mp h
    rw [toInt_zero32] at this
    omega
  rw [hc, select_zero]

/-- The users' gather index table at `(b, c, 0)` is the normalised index at `(b, c)`. -/
theorem idxU_apply (users : IVec S4096x1 32) (b : Fin 4096) (c : Fin 1) (z : Fin 1) :
    idxU users (ix3 b c z) = wrapU users (ix2 b c) := by
  unfold idxU
  exact bcast_rc_apply _ _ b c z

/-- In the input domain the users' range mask is true. -/
theorem maskU_eq_one (users : IVec S4096x1 32) (b : Fin 4096) (c : Fin 1)
    (h0 : 0 ≤ (users (ix2 b c)).toInt) (h1 : (users (ix2 b c)).toInt ≤ 99999) : maskU users (ix2 b c) = 1#1 := by
  unfold maskU
  rw [reduce_andi_unit_apply _ _ _ (by decide) _ b c]
  refine IntOp.andi_eq_one.mpr ⟨?_, rfl⟩
  show IntOp.andi (IntOp.cmpi .sge (idxU users (ix3 b c (0 : Fin 1))) 0#32)
      (IntOp.cmpi .sle (idxU users (ix3 b c (0 : Fin 1))) 99999#32) = 1#1
  rw [idxU_apply, wrapU_apply _ _ h0]
  exact IntOp.andi_eq_one.mpr ⟨IntOp.cmpi_sge.mpr (by rw [toInt_zero32]; exact h0),
    IntOp.cmpi_sle.mpr (by rw [toInt_99999]; exact h1)⟩

/-- THE USERS' LOOK-UP at `(b, c, k)`: entry `k` of the users' table's row for the index word at `(b, c)`. -/
theorem takeU_apply (uf : FVec Ideal S100000x64 .f32) (users : IVec S4096x1 32) (b : Fin 4096) (c : Fin 1) (k : Fin 64)
    (h0 : 0 ≤ (users (ix2 b c)).toInt) (h1 : (users (ix2 b c)).toInt ≤ 99999) :
    takeU uf users (ix3 b c k) = uf (ix2 (Cert.BprSpec.row (users (ix2 b c))) k) := by
  unfold takeU
  rw [select_apply, bcast_rc_apply, maskU_eq_one users b c h0 h1, select_one]
  show Host.gather (rowsDims 100000 64 4096 1 gather_S100000x64_S4096x1x1_S4096x1x64_2_0_n_n_0_2_164_wf) uf (idxU users)
      (ix3 b c k) = _
  rw [gather_rows_apply (by decide), idxU_apply, wrapU_apply _ _ h0]
  rfl

/-- A non-negative item index is not wrapped. -/
theorem wrapI_apply (items : IVec S4096x2 32) (j : S4096x2.Idx) (h0 : 0 ≤ (items j).toInt) : wrapI items j = items j := by
  show Scalar.select (IntOp.cmpi .slt (items j) 0#32) (IntOp.addi (items j) 100000#32) (items j) = items j
  have hc : IntOp.cmpi .slt (items j) 0#32 = 0#1 := eq_zero_of_ne_one fun h => by
    have := IntOp.cmpi_slt.mp h
    rw [toInt_zero32] at this
    omega
  rw [hc, select_zero]

/-- The items' gather index table at `(b, c, 0)` is the normalised index at `(b, c)`. -/
theorem idxI_apply (items : IVec S4096x2 32) (b : Fin 4096) (c : Fin 2) (z : Fin 1) :
    idxI items (ix3 b c z) = wrapI items (ix2 b c) := by
  unfold idxI
  exact bcast_rc_apply _ _ b c z

/-- In the input domain the items' range mask is true. -/
theorem maskI_eq_one (items : IVec S4096x2 32) (b : Fin 4096) (c : Fin 2)
    (h0 : 0 ≤ (items (ix2 b c)).toInt) (h1 : (items (ix2 b c)).toInt ≤ 99999) : maskI items (ix2 b c) = 1#1 := by
  unfold maskI
  rw [reduce_andi_unit_apply _ _ _ (by decide) _ b c]
  refine IntOp.andi_eq_one.mpr ⟨?_, rfl⟩
  show IntOp.andi (IntOp.cmpi .sge (idxI items (ix3 b c (0 : Fin 1))) 0#32)
      (IntOp.cmpi .sle (idxI items (ix3 b c (0 : Fin 1))) 99999#32) = 1#1
  rw [idxI_apply, wrapI_apply _ _ h0]
  exact IntOp.andi_eq_one.mpr ⟨IntOp.cmpi_sge.mpr (by rw [toInt_zero32]; exact h0),
    IntOp.cmpi_sle.mpr (by rw [toInt_99999]; exact h1)⟩

/-- THE ITEMS' LOOK-UP at `(b, c, k)`: entry `k` of the items' table's row for the index word at `(b, c)`. -/
theorem takeI_apply (itf : FVec Ideal S100000x64 .f32) (items : IVec S4096x2 32) (b : Fin 4096) (c : Fin 2) (k : Fin 64)
    (h0 : 0 ≤ (items (ix2 b c)).toInt) (h1 : (items (ix2 b c)).toInt ≤ 99999) :
    takeI itf items (ix3 b c k) = itf (ix2 (Cert.BprSpec.row (items (ix2 b c))) k) := by
  unfold takeI
  rw [select_apply, bcast_rc_apply, maskI_eq_one items b c h0 h1, select_one]
  show Host.gather (rowsDims 100000 64 4096 2 gather_S100000x64_S4096x2x1_S4096x2x64_2_0_n_n_0_2_164_wf) itf (idxI items)
      (ix3 b c k) = _
  rw [gather_rows_apply (by decide), idxI_apply, wrapI_apply _ _ h0]
  rfl

/-! ## The scores -/

/-- The user's row broadcast along the two items, read at `(b, c, k)`: the row at `(b, 0, k)`. -/
theorem bcastU_apply (x : FVec Ideal S4096x1x64 .f32) (b : Fin 4096) (c : Fin 2) (k : Fin 64) :
    broadcastInDim S4096x2x64 ![0, 1, 2] bcast_S4096x1x64_S4096x2x64_0_1_2 x (ix3 b c k) = x (ix3 b (0 : Fin 1) k) := by
  refine broadcastInDim_apply _ _ x _ _ fun a => ?_
  match a with
  | ⟨0, _⟩ => rfl
  | ⟨1, _⟩ => rfl
  | ⟨2, _⟩ => rfl

/-- THE SCORE of user `b` against item column `c`: zero plus the dot product of the user's row and the item's row. -/
theorem pred_apply (users : IVec S4096x1 32) (items : IVec S4096x2 32) (uf itf : FVec Ideal S100000x64 .f32)
    (hu : ∀ i, 0 ≤ (users i).toInt ∧ (users i).toInt ≤ 99999) (hi : ∀ i, 0 ≤ (items i).toInt ∧ (items i).toInt ≤ 99999)
    (b : Fin 4096) (c : Fin 2) :
    pred users items uf itf (ix2 b c)
      = 0 + ∑ k : Fin 64, uf (ix2 (Cert.BprSpec.row (users (ix2 b (0 : Fin 1)))) k)
          * itf (ix2 (Cert.BprSpec.row (items (ix2 b c))) k) := by
  have hR : S4096x2x64.Reduces [2] S4096x2 := by decide
  show Ideal.hostReduceAdd reducesTo_S4096x2x64_S4096x2_d2
      (mulf (F := Ideal) (broadcastInDim S4096x2x64 ![0, 1, 2] bcast_S4096x1x64_S4096x2x64_0_1_2 (takeU uf users)) (takeI itf items))
      (Ideal.ofBits .f32 0x00000000#32) (ix2 b c) = _
  rw [Ideal.hostReduceAdd_single _ hR, Ideal.ofBits_zero_f32]
  refine congrArg (fun s : EReal => 0 + s) ?_
  show ∑ k : Fin 64, _ = _
  refine Finset.sum_congr rfl fun k _ => ?_
  have hl : hR.lift (ix2 b c) k = ix3 b c k := by
    funext a; refine Fin.ext ?_
    match a with
    | ⟨0, _⟩ => rfl
    | ⟨1, _⟩ => rfl
    | ⟨2, _⟩ => rfl
  rw [hl, mulf_apply, bcastU_apply, takeU_apply uf users b 0 k (hu _).1 (hu _).2, takeI_apply itf items b c k (hi _).1 (hi _).2]

/-- The positive item's score column at `(b, 0)` is the score at `(b, 0)`. -/
theorem poss_apply (p : FVec Ideal S4096x2 .f32) (b : Fin 4096) (z : Fin 1) : poss p (ix2 b z) = p (ix2 b (0 : Fin 2)) := by
  unfold poss
  refine (broadcastInDim_apply _ _ _ (ix2 b z) (ix1 b) fun a => ?_).trans ?_
  · match a with
    | ⟨0, _⟩ => rfl
  refine (shapeCast_apply _ _ (ix1 b) (ix2 b (0 : Fin 1)) ?_).trans ?_
  · rw [Shape.rowMajor_val_two, Shape.rowMajor_val_one]
    show b.val * 1 + 0 = b.val
    omega
  refine extractStridedSlice_apply _ _ _ (ix2 b (0 : Fin 1)) (ix2 b (0 : Fin 2)) fun a => ?_
  match a with
  | ⟨0, _⟩ => show b.val = 0 + b.val; omega
  | ⟨1, _⟩ => rfl

/-- The negative item's score column at `(b, 0)` is the score at `(b, 1)`. -/
theorem negs_apply (p : FVec Ideal S4096x2 .f32) (b : Fin 4096) (z : Fin 1) : negs p (ix2 b z) = p (ix2 b (1 : Fin 2)) := by
  unfold negs
  refine (broadcastInDim_apply _ _ _ (ix2 b z) (ix1 b) fun a => ?_).trans ?_
  · match a with
    | ⟨0, _⟩ => rfl
  refine (shapeCast_apply _ _ (ix1 b) (ix2 b (0 : Fin 1)) ?_).trans ?_
  · rw [Shape.rowMajor_val_two, Shape.rowMajor_val_one]
    show b.val * 1 + 0 = b.val
    omega
  refine extractStridedSlice_apply _ _ _ (ix2 b (0 : Fin 1)) (ix2 b (1 : Fin 2)) fun a => ?_
  match a with
  | ⟨0, _⟩ => show b.val = 0 + b.val; omega
  | ⟨1, _⟩ => rfl

/-- The per-user loss at `(b, 0)`, in the ideal operations. -/
theorem lossCol_apply (p : FVec Ideal S4096x2 .f32) (b : Fin 4096) (z : Fin 1) :
    lossCol p (ix2 b z)
      = -(Ideal.log (Ideal.div 1 (1 + Ideal.exp (-(p (ix2 b (0 : Fin 2)) - p (ix2 b (1 : Fin 2))))))) := by
  show -(Ideal.log (Ideal.div (Ideal.ofBits .f32 0x3F800000#32)
      (Ideal.ofBits .f32 0x3F800000#32 + Ideal.exp (-(poss p (ix2 b z) - negs p (ix2 b z)))))) = _
  rw [poss_apply, negs_apply, Cert.LibBprLaw.ofBits_one]

/-! ## The reference is the specification -/

/-- THE REFERENCE'S RESULT IS THE SPECIFICATION on the input domain: with both feature tables finite (every entry a
    real) and every index word's signed value in `[0, 99999]`, the reference's composed term is `G`. Per user the two
    look-ups are the tables' rows, the two scores are dot products from zero, and the loss of their difference is the
    overflow-free softplus of the one dot product against the difference of the item rows (`loss_row`); the sum over
    both axes from zero is the sum over the users, and the division by `4096` the product with `2⁻¹²`. -/
theorem refLoss_eq_G (users : IVec S4096x1 32) (items : IVec S4096x2 32) (uf itf : FVec Ideal S100000x64 .f32)
    (hfin_u : ∀ i, ∃ r : ℝ, uf i = (r : EReal)) (hfin_i : ∀ i, ∃ r : ℝ, itf i = (r : EReal))
    (hu : ∀ i, 0 ≤ (users i).toInt ∧ (users i).toInt ≤ 99999)
    (hi : ∀ i, 0 ≤ (items i).toInt ∧ (items i).toInt ≤ 99999) :
    refLoss users items uf itf = Cert.BprSpec.G users items uf itf := by
  funext i
  choose ru hru using hfin_u
  choose ri hri using hfin_i
  show Ideal.div (Ideal.hostReduceAdd reducesTo_S4096x1_S_d0_1 (lossCol (pred users items uf itf))
      (Ideal.ofBits .f32 0x00000000#32) i) (Ideal.ofBits .f32 0x45800000#32) = _
  rw [Ideal.hostReduceAdd_total _ (fun b => b.elim0), Ideal.ofBits_zero_f32, zero_add, Cert.LibBprLaw.div_4096,
    Cert.BprSpec.G_apply]
  refine congrArg (fun s : EReal => s * Ideal.ofBits .f32 0x39800000#32) ?_
  rw [sum_idx2]
  refine Finset.sum_congr rfl fun b _ => ?_
  rw [Fintype.sum_unique, lossCol_apply, pred_apply _ _ _ _ hu hi, pred_apply _ _ _ _ hu hi, Cert.BprSpec.softplus_def,
    Cert.BprSpec.score_def]
  simp only [hru, hri]
  exact Cert.LibBprLaw.loss_row (fun k => ru (ix2 (Cert.BprSpec.row (users (ix2 b (0 : Fin 1)))) k))
    (fun k => ri (ix2 (Cert.BprSpec.row (items (ix2 b (0 : Fin 2)))) k))
    (fun k => ri (ix2 (Cert.BprSpec.row (items (ix2 b (1 : Fin 2)))) k))

end Cert.ReferenceIdeal.RefValue

end
-- ==== Proof.PreFacts.lean ====
/-
  THE INPUT DOMAIN, READ BACK. The precondition is a printed predicate: four `all`-reductions and-ed together — every
  entry of each feature table smaller in magnitude than `+∞`, every user index and every item index in `[0, 99999]`
  as signed words. When the predicate's one result is true, each conjunct is true at every index: every table entry is a
  real, and every index word's signed value is in range.
-/
import proofs.«203895_g52347061404180_cont_8to1_c_859_34_alg».proof.Pre_input_domain
import Idealize.ShloMosaic.PureOps.Ideal
import Idealize.ShloMosaic.Lib.ValueIdx
import Idealize.ShloMosaic.Lib.Affine
import Idealize.ShloMosaic.Lib.ReduceAll

noncomputable section

namespace Cert.PreFacts

open Idealize.ShloMosaic Idealize.ShloMosaic.ValueIdx Cert.Pre_input_domain
open Cert.Pre_input_domain.Facts

/-- The scalar shape has one index. -/
instance : Subsingleton S_.Idx := ⟨fun a b => funext fun d => d.elim0⟩

/-- An extended real whose magnitude `max x (-x)` compares below the word of `+∞` is a real. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    have hb : decide (max x (-x) < ⊤) = true := by
      rcases hd : decide (max x (-x) < ⊤) with _ | _
      · exfalso
        have : Ideal.cmp .olt (max x (-x)) ⊤ = 0#1 := by
          show BitVec.ofBool (decide (max x (-x) < ⊤)) = 0#1
          rw [hd]; rfl
        rw [this] at h
        exact absurd h (by decide)
      · rfl
    exact of_decide_eq_true hb
  induction x using EReal.rec with
  | bot => simp at hlt
  | top => simp at hlt
  | coe r => exact ⟨r, rfl⟩

theorem toInt_zero32 : (0#32 : BitVec 32).toInt = 0 := by decide
theorem toInt_99999 : (99999#32 : BitVec 32).toInt = 99999 := by decide

/-- An index word that passes the two signed comparisons is in `[0, 99999]`. -/
theorem range_of_cmp (w : BitVec 32)
    (h : IntOp.andi (IntOp.cmpi .sge w 0#32) (IntOp.cmpi .sle w 99999#32) = 1#1) : 0 ≤ w.toInt ∧ w.toInt ≤ 99999 := by
  obtain ⟨h0, h1⟩ := IntOp.andi_eq_one.mp h
  have a := IntOp.cmpi_sge.mp h0
  have b := IntOp.cmpi_sle.mp h1
  rw [toInt_zero32] at a
  rw [toInt_99999] at b
  exact ⟨a, b⟩

variable [Cert.Pre_input_domain.Facts]

/-- THE INPUT DOMAIN'S FOUR FACTS: where the printed predicate is true, both feature tables are finite and every user
    and item index word is in `[0, 99999]` (signed). -/
theorem pre_facts (users : IVec S4096x1 32) (items : IVec S4096x2 32) (uf itf : FVec Ideal S100000x64 .f32)
    (h : Cert.Pre_input_domain.fn (F := Ideal) users items uf itf = (fun _ => 1#1)) :
    (∀ i, ∃ r : ℝ, uf i = (r : EReal)) ∧ (∀ i, ∃ r : ℝ, itf i = (r : EReal))
      ∧ (∀ i, 0 ≤ (users i).toInt ∧ (users i).toInt ≤ 99999) ∧ (∀ i, 0 ≤ (items i).toInt ∧ (items i).toInt ≤ 99999) := by
  have h0 := congrFun h ix0
  dsimp only [Cert.Pre_input_domain.fn, Cert.Pre_input_domain.fn_part1] at h0
  obtain ⟨h15, h21⟩ := IntOp.andi_eq_one.mp h0
  obtain ⟨h8, h14⟩ := IntOp.andi_eq_one.mp h15
  obtain ⟨h3, h7⟩ := IntOp.andi_eq_one.mp h8
  refine ⟨fun i => ?_, fun i => ?_, fun i => ?_, fun i => ?_⟩
  · exact real_of_abs_lt_inf (uf i) (Host.reduce_andi_all _ _ _ _ _ h3 i)
  · exact real_of_abs_lt_inf (itf i) (Host.reduce_andi_all _ _ _ _ _ h7 i)
  · exact range_of_cmp (users i) (Host.reduce_andi_all _ _ _ _ _ h14 i)
  · exact range_of_cmp (items i) (Host.reduce_andi_all _ _ _ _ _ h21 i)

end Cert.PreFacts

end
-- ==== Proof.TileValue.lean ====
/-
  From the vector subcores' unrolled steps to the stages' contents.

  Triple `b < 4096` belongs to tile `w = b / 128`, to group `g = (b mod 128) / 16` of the tile's loop and to lane
  `x = b mod 16`. Lane `x` walks its 64 columns from its own offset `s = 9 x mod 64`: step `k` touches column
  `(s + k) mod 64`. Every column `j` is touched at exactly one step (`exists_step`), so:

  * if every step of the first gather kernel leaves, in half `x mod 2` of row `64 w + (16 g + x) / 2` of the differences
    array at the step's column, the packed item table's negative-item entry minus its positive-item entry at that
    column, the array holds the differences (`diffs_of_steps` : `Cert.KernelValue.IsDiffs`) — note
    `b / 2 = 64 w + (16 g + x) / 2` and `b mod 2 = x mod 2`;
  * if every triple's score is the sum over the steps of the packed user entry times the difference at the step's
    column, it is the sum over the columns (`scores_of_steps` : `Cert.KernelValue.IsScores`), by
    `Cert.LibSkew.sum_skew_nat`.
-/
import proofs.«203895_g52347061404180_cont_8to1_c_859_34_alg».proof.Proof.KernelValue
import proofs.«203895_g52347061404180_cont_8to1_c_859_34_alg».proof.Proof.LibSkew

noncomputable section

open scoped BigOperators

namespace Cert.TileValue

open Idealize.ShloMosaic Idealize.ShloMosaic.ValueIdx Cert.BprSpec Cert.KernelValue

/-- Every column is some step's column: `(s + k) mod 64 = j` for `k = (j + 64 - s mod 64) mod 64`. -/
theorem exists_step (s : ℕ) (j : Fin 64) : ∃ k : Fin 64, (s + k.val) % 64 = j.val :=
  ⟨⟨(j.val + 64 - s % 64) % 64, Nat.mod_lt _ (by norm_num)⟩, by have := j.isLt; simp only; omega⟩

/-- A triple's number from its tile, group and lane. -/
def triple (w : Fin 32) (g : Fin 8) (x : Fin 16) : Fin 4096 :=
  ⟨128 * w.val + 16 * g.val + x.val, by have := w.isLt; have := g.isLt; have := x.isLt; omega⟩

/-- The step's column of lane `x`. -/
def stepCol (x : Fin 16) (k : Fin 64) : Fin 64 := ⟨(9 * x.val % 64 + k.val) % 64, Nat.mod_lt _ (by norm_num)⟩

/-- The differences array's row and column of a triple's feature column `c`. -/
def diffRow (b : Fin 4096) : Fin 2048 := ⟨b.val / 2, by have := b.isLt; omega⟩
def diffCol (b : Fin 4096) (c : Fin 64) : Fin 128 := ⟨64 * (b.val % 2) + c.val, by have := c.isLt; omega⟩

/-- Every triple is a tile's group's lane's. -/
theorem triple_surj (b : Fin 4096) : ∃ (w : Fin 32) (g : Fin 8) (x : Fin 16), b = triple w g x := by
  have hb := b.isLt
  refine ⟨⟨b.val / 128, by omega⟩, ⟨b.val % 128 / 16, by omega⟩, ⟨b.val % 16, by omega⟩, Fin.ext ?_⟩
  show b.val = 128 * (b.val / 128) + 16 * (b.val % 128 / 16) + b.val % 16
  omega

/-- THE DIFFERENCES from the first gather kernel's steps: each (tile, group, lane, step) leaves at the step's column
    the packed table's negative entry minus its positive entry. -/
theorem diffs_of_steps (items : IVec S4096x2 32) (p : FVec Ideal S50176x128 .f32) (gp : FVec Ideal S2048x128 .f32)
    (hstep : ∀ (w : Fin 32) (g : Fin 8) (x : Fin 16) (k : Fin 64),
      gp (ix2 (diffRow (triple w g x)) (diffCol (triple w g x) (stepCol x k)))
        = p (ix2 (prow (row (items (ix2 (triple w g x) (1 : Fin 2))))) (pcol (row (items (ix2 (triple w g x) (1 : Fin 2)))) (stepCol x k)))
          - p (ix2 (prow (row (items (ix2 (triple w g x) (0 : Fin 2))))) (pcol (row (items (ix2 (triple w g x) (0 : Fin 2)))) (stepCol x k)))) :
    IsDiffs items p gp := by
  intro b j
  obtain ⟨w, g, x, rfl⟩ := triple_surj b
  obtain ⟨k, hk⟩ := exists_step (9 * x.val % 64) j
  have hj : stepCol x k = j := Fin.ext hk
  have := hstep w g x k
  rw [hj] at this
  exact this

/-- THE SCORES from the second gather kernel's accumulation: each triple's score is the sum over its lane's 64 steps;
    over a full turn that is the sum over the 64 columns. -/
theorem scores_of_steps (users : IVec S4096x1 32) (pu : FVec Ideal S50176x128 .f32) (gp : FVec Ideal S2048x128 .f32)
    (d : FVec Ideal S4096 .f32)
    (hacc : ∀ (w : Fin 32) (g : Fin 8) (x : Fin 16),
      d (ix1 (triple w g x))
        = ∑ k : Fin 64, pu (ix2 (prow (row (users (ix2 (triple w g x) (0 : Fin 1))))) (pcol (row (users (ix2 (triple w g x) (0 : Fin 1)))) (stepCol x k)))
            * gp (ix2 (diffRow (triple w g x)) (diffCol (triple w g x) (stepCol x k)))) :
    IsScores users pu gp d := by
  intro b
  obtain ⟨w, g, x, rfl⟩ := triple_surj b
  rw [hacc w g x]
  exact Cert.LibSkew.sum_skew_nat (9 * x.val % 64) (fun c : Fin 64 =>
    pu (ix2 (prow (row (users (ix2 (triple w g x) (0 : Fin 1))))) (pcol (row (users (ix2 (triple w g x) (0 : Fin 1)))) c))
      * gp (ix2 (diffRow (triple w g x)) (diffCol (triple w g x) c)))

end Cert.TileValue

end
-- ==== Proof.lean ====
/-
  The five claims about a pairwise-ranking-loss kernel and its reference.

  Both programs compute, from 4096 (user, positive item, negative item) index triples and two 100000 x 64 feature
  tables, the mean over the triples of `softplus (⟨u, n⟩ - ⟨u, p⟩)`. The reference takes the two dot products per
  triple, their difference `z = ⟨u, p⟩ - ⟨u, n⟩` and `-log (1 / (1 + exp (-z)))`, and divides the sum by 4096. The
  kernel repacks the tables (two rows per 128-wide row), gathers the triples' rows on the vector subcores, forms ONE
  dot product `x = ⟨u, n - p⟩` per triple, and then `max x 0 + log1p (exp (0 - |x|))`, summed and multiplied by `2⁻¹²`.

  Both sides are compared with one specification, `Cert.BprSpec.G`.

  THE REFERENCE is `G`: its run is read operation by operation (`RefRun`), its gathers of rows at in-range indices and
  its arithmetic are read at an index (`RefIsSpec`), and the two arrangements are joined by distributivity — which needs
  the table entries FINITE, as the precondition says (`PreFacts`) — and by the real identity
  `-log (1 / (1 + e^(-z))) = log (1 + e^x) = max x 0 + log1p (e^(-|x|))` for `x = -z` (`LibBprLaw`).

  THE KERNEL program is a program with two SparseCore calls around three TensorCore calls. Its run is the launch
  theorem for such programs (`LaunchApply`) applied to: the handshakes' payloads (`LaunchPay`, `LaunchPayV`), the launch
  element (`LaunchElem`), the reading of the final memory (`LaunchFin`), @main on the TensorCore (`MainTC` for the
  frame, `MainTCV` with the value) — host lines by the straight-line rule, each TensorCore call by its region's rule
  (`RegionPack`, `RegionPack2`, `RegionLoss`) lifted to the extended body table (`RegionLift`), each SparseCore call by
  the library's rule with the arrays cut into the 32 tiles' payloads and the output rejoined (`LaunchSplit`,
  `LaunchSplitV`) — and the two tile obligations (`LaunchObl`, `LaunchOblV`), which wrap the two tile bodies. The value
  is carried as pure facts under the payloads: a packing call leaves a packed copy of its table, clipped edge and all
  (`PackValue`, `KernelValue`, `RegionPackValue`); a tile leaves in its slice what `TileSpec` says of what it read;
  joined, the tiles' slices give every triple's differences and score (`TileBridge`, with the skewed column order of
  `LibSkew`); the last call is the softplus-sum of the scores times `2⁻¹²` (`LossValue`). The word-level program's
  frame is the same proof over the other printed text (the modules named `…K`).

  The two SparseCore tile bodies (`KernelRun`: each in its value form at the ideal values and in its frame form at the
  machine's words) are run by the symbolic executor around the loop, the loop one lemma per printed part; the indexed
  vector loads and stores are plain loads and stores of the whole scratch buffer under the library's equations, their
  assumed index conditions discharged by the lane-by-lane numbers of `LibSkewVec`.
-/
import proofs.«203895_g52347061404180_cont_8to1_c_859_34_alg».proof.Defs
import proofs.«203895_g52347061404180_cont_8to1_c_859_34_alg».proof.Proof.Gen.Kernel
import proofs.«203895_g52347061404180_cont_8to1_c_859_34_alg».proof.Proof.Gen.KernelIdeal
import proofs.«203895_g52347061404180_cont_8to1_c_859_34_alg».proof.Proof.Gen.ReferenceIdeal
import proofs.«203895_g52347061404180_cont_8to1_c_859_34_alg».proof.Proof.Gen.Pre_input_domain
import proofs.«203895_g52347061404180_cont_8to1_c_859_34_alg».proof.Proof.KernelRun
import proofs.«203895_g52347061404180_cont_8to1_c_859_34_alg».proof.Proof.KernelFrame
import proofs.«203895_g52347061404180_cont_8to1_c_859_34_alg».proof.Proof.TileG
import proofs.«203895_g52347061404180_cont_8to1_c_859_34_alg».proof.Proof.TileDot
import proofs.«203895_g52347061404180_cont_8to1_c_859_34_alg».proof.Proof.RefRun
import proofs.«203895_g52347061404180_cont_8to1_c_859_34_alg».proof.Proof.RefIsSpec
import proofs.«203895_g52347061404180_cont_8to1_c_859_34_alg».proof.Proof.PreFacts
import proofs.«203895_g52347061404180_cont_8to1_c_859_34_alg».proof.Proof.KernelValue
import proofs.«203895_g52347061404180_cont_8to1_c_859_34_alg».proof.Proof.HostGlue
import proofs.«203895_g52347061404180_cont_8to1_c_859_34_alg».proof.Proof.LibSkewVec
import proofs.«203895_g52347061404180_cont_8to1_c_859_34_alg».proof.Proof.TileValue
import proofs.«203895_g52347061404180_cont_8to1_c_859_34_alg».proof.Proof.LaunchApply

noncomputable section

namespace Cert.Proof

open Idealize.ShloMosaic Idealize.SL.Sem

/-- The word-level kernel program's frame (`KernelRun`). -/
theorem frame_k : Cert.frame_Kernel := Cert.Kernel.KRun.frame

/-- The idealized kernel program's frame: the launch theorem's frame from the two tile bodies at the ideal values. -/
theorem frame_ki : Cert.frame_KernelIdeal := fun m g hpre =>
  (θ_run Cert.KernelIdeal.defs _ _).mono (fun _ h c => h c)
    (Cert.KernelIdeal.KernelFrame.frame_of_bodies (F := Ideal)
      (fun d L q6a q6b q2 q4 f6 f2 f4 h2 h4 O W hO =>
        Cert.KernelIdeal.TileG.tile_body_g Cert.KernelIdeal.KCommon.facts d L q6a q6b q2 q4 f6 f2 f4 h2 h4 O W hO)
      (fun d L q9 q0 q7 f9 f0 f7 hidx O W hO =>
        Cert.KernelIdeal.TileDot.tile_body_dot d L Cert.KernelIdeal.KCommon.facts q9 q0 q7 f9 f0 f7 hidx O W hO)
      m g hpre)

/-- The reference's frame is its run with the result's value dropped. -/
theorem frame_ri : Cert.frame_ReferenceIdeal := Cert.ReferenceIdeal.RefRun.frame_ri

/-- The idealization rewrote no operation: nothing to restate. -/
theorem preserves : Cert.preserves_Kernel_KernelIdeal := trivial

/-- From memories that agree on the arguments both programs end at the specification of those arguments: the kernel
    program by its run, the reference by its run, read at the arguments the kernel's memory holds, where the
    precondition makes the table entries finite and the indices name rows. -/
theorem algebraic : Cert.algebraic_KernelIdeal_ReferenceIdeal := by
  intro m g m' g' hpre hagree
  refine ⟨fun c => Cert.BprSpec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KRun.run m g hpre, ?_⟩
  refine (θ_run Cert.ReferenceIdeal.defs _ _).mono (fun _ h c => ⟨(h c).1.trans ?_, (h c).2⟩)
    (Cert.ReferenceIdeal.RefRun.run m' g')
  rw [(hagree c).1, (hagree c).2.1, (hagree c).2.2.1, (hagree c).2.2.2]
  obtain ⟨hfu, hfi, hu, hi⟩ := Cert.PreFacts.pre_facts _ _ _ _ (hpre c)
  exact Cert.ReferenceIdeal.RefValue.refLoss_eq_G _ _ _ _ hfu hfi hu hi

theorem claim : Cert.Claim :=
  ⟨Cert.Kernel.Gen.facts, Cert.KernelIdeal.Gen.facts, Cert.ReferenceIdeal.Gen.facts, Cert.Pre_input_domain.Gen.facts,
    frame_k, frame_ki, frame_ri, preserves, algebraic⟩

end Cert.Proof

end
